-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x20 : Shape := ⟨2, ![16384, 20]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x20 : S_.BroadcastsInDim S16384x20 (![] : Fin 0 → Fin S16384x20.rank)
  reducesTo_S16384x20_S_d0_1 : S16384x20.ReducesTo [0, 1] S_

variable [Facts]

def fn {F : FTy → Type} [FloatOps F] (main_arg0 : IVec S16384x20 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x20 32 := broadcastInDim S16384x20 ![] bcast_S_S16384x20 main_c_0
  let main_v5 : IVec S16384x20 1 := cmpi .sge main_arg0 main_v4
  let main_c_1 : IVec S_ 32 := constantI S_ 32 999999#32
  let main_v6 : IVec S16384x20 32 := broadcastInDim S16384x20 ![] bcast_S_S16384x20 main_c_1
  let main_v7 : IVec S16384x20 1 := cmpi .sle main_arg0 main_v6
  let main_v8 : IVec S16384x20 1 := andi main_v5 main_v7
  let main_c_2 : IVec S_ 1 := constantI S_ 1 1#1
  let main_v9 : IVec S_ 1 := (fun x v => Host.reduce IntOp.andi x v reducesTo_S16384x20_S_d0_1 h_S_) main_v8 main_c_2
  let main_v10 : IVec S_ 1 := andi main_v3 main_v9
  main_v10
-- ==== Kernel.lean ====
abbrev S16384x20 : Shape := ⟨2, ![16384, 20]⟩
abbrev S1000000x64 : Shape := ⟨2, ![1000000, 64]⟩
abbrev S32x10240 : Shape := ⟨2, ![32, 10240]⟩
abbrev S16384x20x128 : Shape := ⟨3, ![16384, 20, 128]⟩
abbrev S10240 : Shape := ⟨1, ![10240]⟩
abbrev S4x160x128 : Shape := ⟨3, ![4, 160, 128]⟩
abbrev S_ : Shape := ⟨0, ![]⟩
abbrev S1x10240 : Shape := ⟨2, ![1, 10240]⟩
abbrev S4x8x20x128 : Shape := ⟨4, ![4, 8, 20, 128]⟩
abbrev S1x8x20x128 : Shape := ⟨4, ![1, 8, 20, 128]⟩
abbrev S8x20x128 : Shape := ⟨3, ![8, 20, 128]⟩
abbrev S16 : Shape := ⟨1, ![16]⟩
abbrev S1 : Shape := ⟨1, ![1]⟩
abbrev S1x1x64 : Shape := ⟨3, ![1, 1, 64]⟩
abbrev S64 : Shape := ⟨1, ![64]⟩
abbrev S1x64 : Shape := ⟨2, ![1, 64]⟩
abbrev S16384x20x64 : Shape := ⟨3, ![16384, 20, 64]⟩

abbrev nBuf : Table → Nat
  | .hbm => 5
  | .local .scVector .vmem => 2
  | _ => 0

abbrev bufTy : (tb : Table) → Fin (nBuf tb) → BufTy
  | .hbm, ⟨0, _⟩ => ⟨S16384x20, .i32⟩
  | .hbm, ⟨1, _⟩ => ⟨S1000000x64, .f32⟩
  | .hbm, ⟨2, _⟩ => ⟨S32x10240, .i32⟩
  | .hbm, ⟨3, _⟩ => ⟨S16384x20x128, .f32⟩
  | .hbm, ⟨4, _⟩ => ⟨S16384x20x64, .f32⟩
  | .local .scVector .vmem, ⟨0, _⟩ => ⟨S10240, .i32⟩
  | .local .scVector .vmem, ⟨1, _⟩ => ⟨S4x160x128, .f32⟩
  | _, _ => ⟨S16384x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_52_r0 : BitVec 32 := 0#32
  ![v1.toNat, 0]
@[reducible] def k0_t1_loop : Scf.Loop 32 :=
  let c0_i32_0 : BitVec 32 := 0#32
  let c17_i32 : BitVec 32 := 17#32
  let v2 : BitVec 32 := Scalar.addi c0_i32_0 c17_i32
  let c1_i32 : BitVec 32 := 1#32
  ⟨c0_i32_0, v2, c1_i32⟩
def k0_cond1 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32 : BitVec 32 := 4#32
  let v43 : BitVec 32 := Scalar.muli arg15 c4_i32
  let c0_i32_52 : BitVec 32 := 0#32
  let v44 : BitVec 32 := Scalar.addi v43 c0_i32_52
  let c64_i32 : BitVec 32 := 64#32
  let v46 : BitVec 1 := Scalar.cmpi .slt v44 c64_i32
  let v47 : BitVec 32 := Scalar.extui v46
  let c0_i32_54 : BitVec 32 := 0#32
  let v48 : BitVec 1 := Scalar.cmpi .ne v47 c0_i32_54
  v48

def k0_cond2 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32 : BitVec 32 := 4#32
  let v43 : BitVec 32 := Scalar.muli arg15 c4_i32
  let c0_i32_52 : BitVec 32 := 0#32
  let v44 : BitVec 32 := Scalar.addi v43 c0_i32_52
  let c4_i32_82 : BitVec 32 := 4#32
  let v87 : BitVec 1 := Scalar.cmpi .sge v44 c4_i32_82
  let v88 : BitVec 32 := Scalar.extui v87
  let c0_i32_83 : BitVec 32 := 0#32
  let v89 : BitVec 1 := Scalar.cmpi .ne v88 c0_i32_83
  v89

def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_89 : BitVec 32 := 512#32
  let v92 : BitVec 32 := Scalar.muli v1 c512_i32_89
  let c0_i32_0 : BitVec 32 := 0#32
  let c1_i32 : BitVec 32 := 1#32
  let arg15 : BitVec 32 := Scf.iv c0_i32_0 c1_i32 k0_t1
  let c4_i32 : BitVec 32 := 4#32
  let v43 : BitVec 32 := Scalar.muli arg15 c4_i32
  let c0_i32_52 : BitVec 32 := 0#32
  let v44 : BitVec 32 := Scalar.addi v43 c0_i32_52
  let c4_i32_88 : BitVec 32 := 4#32
  let v91 : BitVec 32 := Scalar.subi v44 c4_i32_88
  let c8_i32 : BitVec 32 := 8#32
  let v93 : BitVec 32 := Scalar.muli v91 c8_i32
  let v94 : BitVec 32 := Scalar.addi v92 v93
  let c0_i32_94 : BitVec 32 := 0#32
  let c0_i32_95 : BitVec 32 := 0#32
  ![v94.toNat, 0, 0]
@[reducible] def k0_t2_loop : Scf.Loop 32 :=
  let c0_i32_85 : BitVec 32 := 0#32
  let c10_i32 : BitVec 32 := 10#32
  let v90 : BitVec 32 := Scalar.addi c0_i32_85 c10_i32
  let c1_i32_86 : BitVec 32 := 1#32
  ⟨c0_i32_85, v90, c1_i32_86⟩
def k0_off3 (k0_t1 : Fin k0_t1_loop.trips) (k0_t2 : Fin k0_t2_loop.trips) : Fin 1 → Nat :=
  let c0_i32_0 : BitVec 32 := 0#32
  let c1_i32 : BitVec 32 := 1#32
  let arg15 : BitVec 32 := Scf.iv c0_i32_0 c1_i32 k0_t1
  let c4_i32 : BitVec 32 := 4#32
  let v43 : BitVec 32 := Scalar.muli arg15 c4_i32
  let c0_i32_52 : BitVec 32 := 0#32
  let v44 : BitVec 32 := Scalar.addi v43 c0_i32_52
  let c160_i32 : BitVec 32 := 160#32
  let v91 : BitVec 32 := Scalar.muli v44 c160_i32
  let c0_i32_85 : BitVec 32 := 0#32
  let c1_i32_86 : BitVec 32 := 1#32
  let arg16 : BitVec 32 := Scf.iv c0_i32_85 c1_i32_86 k0_t2
  let c16_i32 : BitVec 32 := 16#32
  let v92 : BitVec 32 := Scalar.muli arg16 c16_i32
  let v93 : BitVec 32 := Scalar.addi v91 v92
  let v94 : Index := Scalar.indexCast v93
  ![v94.toNat]
def k0_off4 (k0_t2 : Fin k0_t2_loop.trips) : Fin 3 → Nat :=
  let c0_i32_90 : BitVec 32 := 0#32
  let c0_i32_85 : BitVec 32 := 0#32
  let c1_i32_86 : BitVec 32 := 1#32
  let arg16 : BitVec 32 := Scf.iv c0_i32_85 c1_i32_86 k0_t2
  let c16_i32_88 : BitVec 32 := 16#32
  let v99 : BitVec 32 := Scalar.muli arg16 c16_i32_88
  let c0_i32_89 : BitVec 32 := 0#32
  let v100 : BitVec 32 := Scalar.addi v99 c0_i32_89
  let c0_i32_91 : BitVec 32 := 0#32
  ![0, v100.toNat, 0]
def k0_off5 (v98 : BitVec 32) : Fin 2 → Nat :=
  let c0_i32_92 : BitVec 32 := 0#32
  ![v98.toNat, 0]

def k0_chk1 (k0_t1 : Fin k0_t1_loop.trips) (v98 : BitVec 32) : Prop :=
  (∀ (k0_h1 : k0_cond1 k0_t1 = 1#1), ∀ a, (k0_off5 v98) a + S1x64.size a ≤ S1000000x64.size a)
instance k0_chk1.dec : ∀ (k0_t1 : Fin k0_t1_loop.trips) (v98 : BitVec 32), Decidable (k0_chk1 k0_t1 v98) := fun k0_t1 v98 => decidable_of_iff' _ (Iff.of_eq (k0_chk1.eq_1 k0_t1 v98))
theorem k0_off5_inb : ∀ (k0_t1 : Fin k0_t1_loop.trips) (v98 : BitVec 32) (k0_hw1 : k0_chk1 k0_t1 v98), ∀ (k0_h1 : k0_cond1 k0_t1 = 1#1), ∀ a, (k0_off5 v98) a + S1x64.size a ≤ S1000000x64.size a := fun k0_t1 v98 k0_hw1 k0_h1 => k0_hw1 k0_h1

def k0_off6 (k0_t2 : Fin k0_t2_loop.trips) (c0_i32_89 : BitVec 32) : Fin 3 → Nat :=
  let c0_i32_90 : BitVec 32 := 0#32
  let c0_i32_85 : BitVec 32 := 0#32
  let c1_i32_86 : BitVec 32 := 1#32
  let arg16 : BitVec 32 := Scf.iv c0_i32_85 c1_i32_86 k0_t2
  let c16_i32_88 : BitVec 32 := 16#32
  let v99 : BitVec 32 := Scalar.muli arg16 c16_i32_88
  let v100 : BitVec 32 := Scalar.addi v99 c0_i32_89
  let c0_i32_93 : BitVec 32 := 0#32
  ![0, v100.toNat, 0]
def k0_off7 (v110 : BitVec 32) : Fin 2 → Nat :=
  let c0_i32_99 : BitVec 32 := 0#32
  ![v110.toNat, 0]

def k0_chk2 (k0_t1 : Fin k0_t1_loop.trips) (v110 : BitVec 32) : Prop :=
  (∀ (k0_h1 : k0_cond1 k0_t1 = 1#1), ∀ a, (k0_off7 v110) a + S1x64.size a ≤ S1000000x64.size a)
instance k0_chk2.dec : ∀ (k0_t1 : Fin k0_t1_loop.trips) (v110 : BitVec 32), Decidable (k0_chk2 k0_t1 v110) := fun k0_t1 v110 => decidable_of_iff' _ (Iff.of_eq (k0_chk2.eq_1 k0_t1 v110))
theorem k0_off7_inb : ∀ (k0_t1 : Fin k0_t1_loop.trips) (v110 : BitVec 32) (k0_hw2 : k0_chk2 k0_t1 v110), ∀ (k0_h1 : k0_cond1 k0_t1 = 1#1), ∀ a, (k0_off7 v110) a + S1x64.size a ≤ S1000000x64.size a := fun k0_t1 v110 k0_hw2 k0_h1 => k0_hw2 k0_h1

def k0_off8 (k0_t2 : Fin k0_t2_loop.trips) (c1_i32_96 : BitVec 32) : Fin 3 → Nat :=
  let c0_i32_97 : BitVec 32 := 0#32
  let c0_i32_85 : BitVec 32 := 0#32
  let c1_i32_86 : BitVec 32 := 1#32
  let arg16 : BitVec 32 := Scf.iv c0_i32_85 c1_i32_86 k0_t2
  let c16_i32_95 : BitVec 32 := 16#32
  let v111 : BitVec 32 := Scalar.muli arg16 c16_i32_95
  let v112 : BitVec 32 := Scalar.addi v111 c1_i32_96
  let c0_i32_100 : BitVec 32 := 0#32
  ![0, v112.toNat, 0]
def k0_off9 (v122 : BitVec 32) : Fin 2 → Nat :=
  let c0_i32_106 : BitVec 32 := 0#32
  ![v122.toNat, 0]

def k0_chk3 (k0_t1 : Fin k0_t1_loop.trips) (v122 : BitVec 32) : Prop :=
  (∀ (k0_h1 : k0_cond1 k0_t1 = 1#1), ∀ a, (k0_off9 v122) a + S1x64.size a ≤ S1000000x64.size a)
instance k0_chk3.dec : ∀ (k0_t1 : Fin k0_t1_loop.trips) (v122 : BitVec 32), Decidable (k0_chk3 k0_t1 v122) := fun k0_t1 v122 => decidable_of_iff' _ (Iff.of_eq (k0_chk3.eq_1 k0_t1 v122))
theorem k0_off9_inb : ∀ (k0_t1 : Fin k0_t1_loop.trips) (v122 : BitVec 32) (k0_hw3 : k0_chk3 k0_t1 v122), ∀ (k0_h1 : k0_cond1 k0_t1 = 1#1), ∀ a, (k0_off9 v122) a + S1x64.size a ≤ S1000000x64.size a := fun k0_t1 v122 k0_hw3 k0_h1 => k0_hw3 k0_h1

def k0_off10 (k0_t2 : Fin k0_t2_loop.trips) (c2_i32_103 : BitVec 32) : Fin 3 → Nat :=
  let c0_i32_104 : BitVec 32 := 0#32
  let c0_i32_85 : BitVec 32 := 0#32
  let c1_i32_86 : BitVec 32 := 1#32
  let arg16 : BitVec 32 := Scf.iv c0_i32_85 c1_i32_86 k0_t2
  let c16_i32_102 : BitVec 32 := 16#32
  let v123 : BitVec 32 := Scalar.muli arg16 c16_i32_102
  let v124 : BitVec 32 := Scalar.addi v123 c2_i32_103
  let c0_i32_107 : BitVec 32 := 0#32
  ![0, v124.toNat, 0]
def k0_off11 (v134 : BitVec 32) : Fin 2 → Nat :=
  let c0_i32_113 : BitVec 32 := 0#32
  ![v134.toNat, 0]

def k0_chk4 (k0_t1 : Fin k0_t1_loop.trips) (v134 : BitVec 32) : Prop :=
  (∀ (k0_h1 : k0_cond1 k0_t1 = 1#1), ∀ a, (k0_off11 v134) a + S1x64.size a ≤ S1000000x64.size a)
instance k0_chk4.dec : ∀ (k0_t1 : Fin k0_t1_loop.trips) (v134 : BitVec 32), Decidable (k0_chk4 k0_t1 v134) := fun k0_t1 v134 => decidable_of_iff' _ (Iff.of_eq (k0_chk4.eq_1 k0_t1 v134))
theorem k0_off11_inb : ∀ (k0_t1 : Fin k0_t1_loop.trips) (v134 : BitVec 32) (k0_hw4 : k0_chk4 k0_t1 v134), ∀ (k0_h1 : k0_cond1 k0_t1 = 1#1), ∀ a, (k0_off11 v134) a + S1x64.size a ≤ S1000000x64.size a := fun k0_t1 v134 k0_hw4 k0_h1 => k0_hw4 k0_h1

def k0_off12 (k0_t2 : Fin k0_t2_loop.trips) (c3_i32_110 : BitVec 32) : Fin 3 → Nat :=
  let c0_i32_111 : BitVec 32 := 0#32
  let c0_i32_85 : BitVec 32 := 0#32
  let c1_i32_86 : BitVec 32 := 1#32
  let arg16 : BitVec 32 := Scf.iv c0_i32_85 c1_i32_86 k0_t2
  let c16_i32_109 : BitVec 32 := 16#32
  let v135 : BitVec 32 := Scalar.muli arg16 c16_i32_109
  let v136 : BitVec 32 := Scalar.addi v135 c3_i32_110
  let c0_i32_114 : BitVec 32 := 0#32
  ![0, v136.toNat, 0]
def k0_off13 (v146 : BitVec 32) : Fin 2 → Nat :=
  let c0_i32_120 : BitVec 32 := 0#32
  ![v146.toNat, 0]

def k0_chk5 (k0_t1 : Fin k0_t1_loop.trips) (v146 : BitVec 32) : Prop :=
  (∀ (k0_h1 : k0_cond1 k0_t1 = 1#1), ∀ a, (k0_off13 v146) a + S1x64.size a ≤ S1000000x64.size a)
instance k0_chk5.dec : ∀ (k0_t1 : Fin k0_t1_loop.trips) (v146 : BitVec 32), Decidable (k0_chk5 k0_t1 v146) := fun k0_t1 v146 => decidable_of_iff' _ (Iff.of_eq (k0_chk5.eq_1 k0_t1 v146))
theorem k0_off13_inb : ∀ (k0_t1 : Fin k0_t1_loop.trips) (v146 : BitVec 32) (k0_hw5 : k0_chk5 k0_t1 v146), ∀ (k0_h1 : k0_cond1 k0_t1 = 1#1), ∀ a, (k0_off13 v146) a + S1x64.size a ≤ S1000000x64.size a := fun k0_t1 v146 k0_hw5 k0_h1 => k0_hw5 k0_h1

def k0_off14 (k0_t2 : Fin k0_t2_loop.trips) (c4_i32_117 : BitVec 32) : Fin 3 → Nat :=
  let c0_i32_118 : BitVec 32 := 0#32
  let c0_i32_85 : BitVec 32 := 0#32
  let c1_i32_86 : BitVec 32 := 1#32
  let arg16 : BitVec 32 := Scf.iv c0_i32_85 c1_i32_86 k0_t2
  let c16_i32_116 : BitVec 32 := 16#32
  let v147 : BitVec 32 := Scalar.muli arg16 c16_i32_116
  let v148 : BitVec 32 := Scalar.addi v147 c4_i32_117
  let c0_i32_121 : BitVec 32 := 0#32
  ![0, v148.toNat, 0]
def k0_off15 (v158 : BitVec 32) : Fin 2 → Nat :=
  let c0_i32_126 : BitVec 32 := 0#32
  ![v158.toNat, 0]

def k0_chk6 (k0_t1 : Fin k0_t1_loop.trips) (v158 : BitVec 32) : Prop :=
  (∀ (k0_h1 : k0_cond1 k0_t1 = 1#1), ∀ a, (k0_off15 v158) a + S1x64.size a ≤ S1000000x64.size a)
instance k0_chk6.dec : ∀ (k0_t1 : Fin k0_t1_loop.trips) (v158 : BitVec 32), Decidable (k0_chk6 k0_t1 v158) := fun k0_t1 v158 => decidable_of_iff' _ (Iff.of_eq (k0_chk6.eq_1 k0_t1 v158))
theorem k0_off15_inb : ∀ (k0_t1 : Fin k0_t1_loop.trips) (v158 : BitVec 32) (k0_hw6 : k0_chk6 k0_t1 v158), ∀ (k0_h1 : k0_cond1 k0_t1 = 1#1), ∀ a, (k0_off15 v158) a + S1x64.size a ≤ S1000000x64.size a := fun k0_t1 v158 k0_hw6 k0_h1 => k0_hw6 k0_h1

def k0_off16 (k0_t2 : Fin k0_t2_loop.trips) (c5_i32 : BitVec 32) : Fin 3 → Nat :=
  let c0_i32_124 : BitVec 32 := 0#32
  let c0_i32_85 : BitVec 32 := 0#32
  let c1_i32_86 : BitVec 32 := 1#32
  let arg16 : BitVec 32 := Scf.iv c0_i32_85 c1_i32_86 k0_t2
  let c16_i32_123 : BitVec 32 := 16#32
  let v159 : BitVec 32 := Scalar.muli arg16 c16_i32_123
  let v160 : BitVec 32 := Scalar.addi v159 c5_i32
  let c0_i32_127 : BitVec 32 := 0#32
  ![0, v160.toNat, 0]
def k0_off17 (v170 : BitVec 32) : Fin 2 → Nat :=
  let c0_i32_132 : BitVec 32 := 0#32
  ![v170.toNat, 0]

def k0_chk7 (k0_t1 : Fin k0_t1_loop.trips) (v170 : BitVec 32) : Prop :=
  (∀ (k0_h1 : k0_cond1 k0_t1 = 1#1), ∀ a, (k0_off17 v170) a + S1x64.size a ≤ S1000000x64.size a)
instance k0_chk7.dec : ∀ (k0_t1 : Fin k0_t1_loop.trips) (v170 : BitVec 32), Decidable (k0_chk7 k0_t1 v170) := fun k0_t1 v170 => decidable_of_iff' _ (Iff.of_eq (k0_chk7.eq_1 k0_t1 v170))
theorem k0_off17_inb : ∀ (k0_t1 : Fin k0_t1_loop.trips) (v170 : BitVec 32) (k0_hw7 : k0_chk7 k0_t1 v170), ∀ (k0_h1 : k0_cond1 k0_t1 = 1#1), ∀ a, (k0_off17 v170) a + S1x64.size a ≤ S1000000x64.size a := fun k0_t1 v170 k0_hw7 k0_h1 => k0_hw7 k0_h1

def k0_off18 (k0_t2 : Fin k0_t2_loop.trips) (c6_i32 : BitVec 32) : Fin 3 → Nat :=
  let c0_i32_130 : BitVec 32 := 0#32
  let c0_i32_85 : BitVec 32 := 0#32
  let c1_i32_86 : BitVec 32 := 1#32
  let arg16 : BitVec 32 := Scf.iv c0_i32_85 c1_i32_86 k0_t2
  let c16_i32_129 : BitVec 32 := 16#32
  let v171 : BitVec 32 := Scalar.muli arg16 c16_i32_129
  let v172 : BitVec 32 := Scalar.addi v171 c6_i32
  let c0_i32_133 : BitVec 32 := 0#32
  ![0, v172.toNat, 0]
def k0_off19 (v182 : BitVec 32) : Fin 2 → Nat :=
  let c0_i32_138 : BitVec 32 := 0#32
  ![v182.toNat, 0]

def k0_chk8 (k0_t1 : Fin k0_t1_loop.trips) (v182 : BitVec 32) : Prop :=
  (∀ (k0_h1 : k0_cond1 k0_t1 = 1#1), ∀ a, (k0_off19 v182) a + S1x64.size a ≤ S1000000x64.size a)
instance k0_chk8.dec : ∀ (k0_t1 : Fin k0_t1_loop.trips) (v182 : BitVec 32), Decidable (k0_chk8 k0_t1 v182) := fun k0_t1 v182 => decidable_of_iff' _ (Iff.of_eq (k0_chk8.eq_1 k0_t1 v182))
theorem k0_off19_inb : ∀ (k0_t1 : Fin k0_t1_loop.trips) (v182 : BitVec 32) (k0_hw8 : k0_chk8 k0_t1 v182), ∀ (k0_h1 : k0_cond1 k0_t1 = 1#1), ∀ a, (k0_off19 v182) a + S1x64.size a ≤ S1000000x64.size a := fun k0_t1 v182 k0_hw8 k0_h1 => k0_hw8 k0_h1

def k0_off20 (k0_t2 : Fin k0_t2_loop.trips) (c7_i32 : BitVec 32) : Fin 3 → Nat :=
  let c0_i32_136 : BitVec 32 := 0#32
  let c0_i32_85 : BitVec 32 := 0#32
  let c1_i32_86 : BitVec 32 := 1#32
  let arg16 : BitVec 32 := Scf.iv c0_i32_85 c1_i32_86 k0_t2
  let c16_i32_135 : BitVec 32 := 16#32
  let v183 : BitVec 32 := Scalar.muli arg16 c16_i32_135
  let v184 : BitVec 32 := Scalar.addi v183 c7_i32
  let c0_i32_139 : BitVec 32 := 0#32
  ![0, v184.toNat, 0]
def k0_off21 (v194 : BitVec 32) : Fin 2 → Nat :=
  let c0_i32_144 : BitVec 32 := 0#32
  ![v194.toNat, 0]

def k0_chk9 (k0_t1 : Fin k0_t1_loop.trips) (v194 : BitVec 32) : Prop :=
  (∀ (k0_h1 : k0_cond1 k0_t1 = 1#1), ∀ a, (k0_off21 v194) a + S1x64.size a ≤ S1000000x64.size a)
instance k0_chk9.dec : ∀ (k0_t1 : Fin k0_t1_loop.trips) (v194 : BitVec 32), Decidable (k0_chk9 k0_t1 v194) := fun k0_t1 v194 => decidable_of_iff' _ (Iff.of_eq (k0_chk9.eq_1 k0_t1 v194))
theorem k0_off21_inb : ∀ (k0_t1 : Fin k0_t1_loop.trips) (v194 : BitVec 32) (k0_hw9 : k0_chk9 k0_t1 v194), ∀ (k0_h1 : k0_cond1 k0_t1 = 1#1), ∀ a, (k0_off21 v194) a + S1x64.size a ≤ S1000000x64.size a := fun k0_t1 v194 k0_hw9 k0_h1 => k0_hw9 k0_h1

def k0_off22 (k0_t2 : Fin k0_t2_loop.trips) (c8_i32 : BitVec 32) : Fin 3 → Nat :=
  let c0_i32_142 : BitVec 32 := 0#32
  let c0_i32_85 : BitVec 32 := 0#32
  let c1_i32_86 : BitVec 32 := 1#32
  let arg16 : BitVec 32 := Scf.iv c0_i32_85 c1_i32_86 k0_t2
  let c16_i32_141 : BitVec 32 := 16#32
  let v195 : BitVec 32 := Scalar.muli arg16 c16_i32_141
  let v196 : BitVec 32 := Scalar.addi v195 c8_i32
  let c0_i32_145 : BitVec 32 := 0#32
  ![0, v196.toNat, 0]
def k0_off23 (v206 : BitVec 32) : Fin 2 → Nat :=
  let c0_i32_150 : BitVec 32 := 0#32
  ![v206.toNat, 0]

def k0_chk10 (k0_t1 : Fin k0_t1_loop.trips) (v206 : BitVec 32) : Prop :=
  (∀ (k0_h1 : k0_cond1 k0_t1 = 1#1), ∀ a, (k0_off23 v206) a + S1x64.size a ≤ S1000000x64.size a)
instance k0_chk10.dec : ∀ (k0_t1 : Fin k0_t1_loop.trips) (v206 : BitVec 32), Decidable (k0_chk10 k0_t1 v206) := fun k0_t1 v206 => decidable_of_iff' _ (Iff.of_eq (k0_chk10.eq_1 k0_t1 v206))
theorem k0_off23_inb : ∀ (k0_t1 : Fin k0_t1_loop.trips) (v206 : BitVec 32) (k0_hw10 : k0_chk10 k0_t1 v206), ∀ (k0_h1 : k0_cond1 k0_t1 = 1#1), ∀ a, (k0_off23 v206) a + S1x64.size a ≤ S1000000x64.size a := fun k0_t1 v206 k0_hw10 k0_h1 => k0_hw10 k0_h1

def k0_off24 (k0_t2 : Fin k0_t2_loop.trips) (c9_i32 : BitVec 32) : Fin 3 → Nat :=
  let c0_i32_148 : BitVec 32 := 0#32
  let c0_i32_85 : BitVec 32 := 0#32
  let c1_i32_86 : BitVec 32 := 1#32
  let arg16 : BitVec 32 := Scf.iv c0_i32_85 c1_i32_86 k0_t2
  let c16_i32_147 : BitVec 32 := 16#32
  let v207 : BitVec 32 := Scalar.muli arg16 c16_i32_147
  let v208 : BitVec 32 := Scalar.addi v207 c9_i32
  let c0_i32_151 : BitVec 32 := 0#32
  ![0, v208.toNat, 0]
def k0_off25 (v218 : BitVec 32) : Fin 2 → Nat :=
  let c0_i32_157 : BitVec 32 := 0#32
  ![v218.toNat, 0]

def k0_chk11 (k0_t1 : Fin k0_t1_loop.trips) (v218 : BitVec 32) : Prop :=
  (∀ (k0_h1 : k0_cond1 k0_t1 = 1#1), ∀ a, (k0_off25 v218) a + S1x64.size a ≤ S1000000x64.size a)
instance k0_chk11.dec : ∀ (k0_t1 : Fin k0_t1_loop.trips) (v218 : BitVec 32), Decidable (k0_chk11 k0_t1 v218) := fun k0_t1 v218 => decidable_of_iff' _ (Iff.of_eq (k0_chk11.eq_1 k0_t1 v218))
theorem k0_off25_inb : ∀ (k0_t1 : Fin k0_t1_loop.trips) (v218 : BitVec 32) (k0_hw11 : k0_chk11 k0_t1 v218), ∀ (k0_h1 : k0_cond1 k0_t1 = 1#1), ∀ a, (k0_off25 v218) a + S1x64.size a ≤ S1000000x64.size a := fun k0_t1 v218 k0_hw11 k0_h1 => k0_hw11 k0_h1

def k0_off26 (k0_t2 : Fin k0_t2_loop.trips) (c10_i32_154 : BitVec 32) : Fin 3 → Nat :=
  let c0_i32_155 : BitVec 32 := 0#32
  let c0_i32_85 : BitVec 32 := 0#32
  let c1_i32_86 : BitVec 32 := 1#32
  let arg16 : BitVec 32 := Scf.iv c0_i32_85 c1_i32_86 k0_t2
  let c16_i32_153 : BitVec 32 := 16#32
  let v219 : BitVec 32 := Scalar.muli arg16 c16_i32_153
  let v220 : BitVec 32 := Scalar.addi v219 c10_i32_154
  let c0_i32_158 : BitVec 32 := 0#32
  ![0, v220.toNat, 0]
def k0_off27 (v230 : BitVec 32) : Fin 2 → Nat :=
  let c0_i32_163 : BitVec 32 := 0#32
  ![v230.toNat, 0]

def k0_chk12 (k0_t1 : Fin k0_t1_loop.trips) (v230 : BitVec 32) : Prop :=
  (∀ (k0_h1 : k0_cond1 k0_t1 = 1#1), ∀ a, (k0_off27 v230) a + S1x64.size a ≤ S1000000x64.size a)
instance k0_chk12.dec : ∀ (k0_t1 : Fin k0_t1_loop.trips) (v230 : BitVec 32), Decidable (k0_chk12 k0_t1 v230) := fun k0_t1 v230 => decidable_of_iff' _ (Iff.of_eq (k0_chk12.eq_1 k0_t1 v230))
theorem k0_off27_inb : ∀ (k0_t1 : Fin k0_t1_loop.trips) (v230 : BitVec 32) (k0_hw12 : k0_chk12 k0_t1 v230), ∀ (k0_h1 : k0_cond1 k0_t1 = 1#1), ∀ a, (k0_off27 v230) a + S1x64.size a ≤ S1000000x64.size a := fun k0_t1 v230 k0_hw12 k0_h1 => k0_hw12 k0_h1

def k0_off28 (k0_t2 : Fin k0_t2_loop.trips) (c11_i32 : BitVec 32) : Fin 3 → Nat :=
  let c0_i32_161 : BitVec 32 := 0#32
  let c0_i32_85 : BitVec 32 := 0#32
  let c1_i32_86 : BitVec 32 := 1#32
  let arg16 : BitVec 32 := Scf.iv c0_i32_85 c1_i32_86 k0_t2
  let c16_i32_160 : BitVec 32 := 16#32
  let v231 : BitVec 32 := Scalar.muli arg16 c16_i32_160
  let v232 : BitVec 32 := Scalar.addi v231 c11_i32
  let c0_i32_164 : BitVec 32 := 0#32
  ![0, v232.toNat, 0]
def k0_off29 (v242 : BitVec 32) : Fin 2 → Nat :=
  let c0_i32_169 : BitVec 32 := 0#32
  ![v242.toNat, 0]

def k0_chk13 (k0_t1 : Fin k0_t1_loop.trips) (v242 : BitVec 32) : Prop :=
  (∀ (k0_h1 : k0_cond1 k0_t1 = 1#1), ∀ a, (k0_off29 v242) a + S1x64.size a ≤ S1000000x64.size a)
instance k0_chk13.dec : ∀ (k0_t1 : Fin k0_t1_loop.trips) (v242 : BitVec 32), Decidable (k0_chk13 k0_t1 v242) := fun k0_t1 v242 => decidable_of_iff' _ (Iff.of_eq (k0_chk13.eq_1 k0_t1 v242))
theorem k0_off29_inb : ∀ (k0_t1 : Fin k0_t1_loop.trips) (v242 : BitVec 32) (k0_hw13 : k0_chk13 k0_t1 v242), ∀ (k0_h1 : k0_cond1 k0_t1 = 1#1), ∀ a, (k0_off29 v242) a + S1x64.size a ≤ S1000000x64.size a := fun k0_t1 v242 k0_hw13 k0_h1 => k0_hw13 k0_h1

def k0_off30 (k0_t2 : Fin k0_t2_loop.trips) (c12_i32 : BitVec 32) : Fin 3 → Nat :=
  let c0_i32_167 : BitVec 32 := 0#32
  let c0_i32_85 : BitVec 32 := 0#32
  let c1_i32_86 : BitVec 32 := 1#32
  let arg16 : BitVec 32 := Scf.iv c0_i32_85 c1_i32_86 k0_t2
  let c16_i32_166 : BitVec 32 := 16#32
  let v243 : BitVec 32 := Scalar.muli arg16 c16_i32_166
  let v244 : BitVec 32 := Scalar.addi v243 c12_i32
  let c0_i32_170 : BitVec 32 := 0#32
  ![0, v244.toNat, 0]
def k0_off31 (v254 : BitVec 32) : Fin 2 → Nat :=
  let c0_i32_175 : BitVec 32 := 0#32
  ![v254.toNat, 0]

def k0_chk14 (k0_t1 : Fin k0_t1_loop.trips) (v254 : BitVec 32) : Prop :=
  (∀ (k0_h1 : k0_cond1 k0_t1 = 1#1), ∀ a, (k0_off31 v254) a + S1x64.size a ≤ S1000000x64.size a)
instance k0_chk14.dec : ∀ (k0_t1 : Fin k0_t1_loop.trips) (v254 : BitVec 32), Decidable (k0_chk14 k0_t1 v254) := fun k0_t1 v254 => decidable_of_iff' _ (Iff.of_eq (k0_chk14.eq_1 k0_t1 v254))
theorem k0_off31_inb : ∀ (k0_t1 : Fin k0_t1_loop.trips) (v254 : BitVec 32) (k0_hw14 : k0_chk14 k0_t1 v254), ∀ (k0_h1 : k0_cond1 k0_t1 = 1#1), ∀ a, (k0_off31 v254) a + S1x64.size a ≤ S1000000x64.size a := fun k0_t1 v254 k0_hw14 k0_h1 => k0_hw14 k0_h1

def k0_off32 (k0_t2 : Fin k0_t2_loop.trips) (c13_i32 : BitVec 32) : Fin 3 → Nat :=
  let c0_i32_173 : BitVec 32 := 0#32
  let c0_i32_85 : BitVec 32 := 0#32
  let c1_i32_86 : BitVec 32 := 1#32
  let arg16 : BitVec 32 := Scf.iv c0_i32_85 c1_i32_86 k0_t2
  let c16_i32_172 : BitVec 32 := 16#32
  let v255 : BitVec 32 := Scalar.muli arg16 c16_i32_172
  let v256 : BitVec 32 := Scalar.addi v255 c13_i32
  let c0_i32_176 : BitVec 32 := 0#32
  ![0, v256.toNat, 0]
def k0_off33 (v266 : BitVec 32) : Fin 2 → Nat :=
  let c0_i32_181 : BitVec 32 := 0#32
  ![v266.toNat, 0]

def k0_chk15 (k0_t1 : Fin k0_t1_loop.trips) (v266 : BitVec 32) : Prop :=
  (∀ (k0_h1 : k0_cond1 k0_t1 = 1#1), ∀ a, (k0_off33 v266) a + S1x64.size a ≤ S1000000x64.size a)
instance k0_chk15.dec : ∀ (k0_t1 : Fin k0_t1_loop.trips) (v266 : BitVec 32), Decidable (k0_chk15 k0_t1 v266) := fun k0_t1 v266 => decidable_of_iff' _ (Iff.of_eq (k0_chk15.eq_1 k0_t1 v266))
theorem k0_off33_inb : ∀ (k0_t1 : Fin k0_t1_loop.trips) (v266 : BitVec 32) (k0_hw15 : k0_chk15 k0_t1 v266), ∀ (k0_h1 : k0_cond1 k0_t1 = 1#1), ∀ a, (k0_off33 v266) a + S1x64.size a ≤ S1000000x64.size a := fun k0_t1 v266 k0_hw15 k0_h1 => k0_hw15 k0_h1

def k0_off34 (k0_t2 : Fin k0_t2_loop.trips) (c14_i32 : BitVec 32) : Fin 3 → Nat :=
  let c0_i32_179 : BitVec 32 := 0#32
  let c0_i32_85 : BitVec 32 := 0#32
  let c1_i32_86 : BitVec 32 := 1#32
  let arg16 : BitVec 32 := Scf.iv c0_i32_85 c1_i32_86 k0_t2
  let c16_i32_178 : BitVec 32 := 16#32
  let v267 : BitVec 32 := Scalar.muli arg16 c16_i32_178
  let v268 : BitVec 32 := Scalar.addi v267 c14_i32
  let c0_i32_182 : BitVec 32 := 0#32
  ![0, v268.toNat, 0]
def k0_off35 (v278 : BitVec 32) : Fin 2 → Nat :=
  let c0_i32_187 : BitVec 32 := 0#32
  ![v278.toNat, 0]

def k0_chk16 (k0_t1 : Fin k0_t1_loop.trips) (v278 : BitVec 32) : Prop :=
  (∀ (k0_h1 : k0_cond1 k0_t1 = 1#1), ∀ a, (k0_off35 v278) a + S1x64.size a ≤ S1000000x64.size a)
instance k0_chk16.dec : ∀ (k0_t1 : Fin k0_t1_loop.trips) (v278 : BitVec 32), Decidable (k0_chk16 k0_t1 v278) := fun k0_t1 v278 => decidable_of_iff' _ (Iff.of_eq (k0_chk16.eq_1 k0_t1 v278))
theorem k0_off35_inb : ∀ (k0_t1 : Fin k0_t1_loop.trips) (v278 : BitVec 32) (k0_hw16 : k0_chk16 k0_t1 v278), ∀ (k0_h1 : k0_cond1 k0_t1 = 1#1), ∀ a, (k0_off35 v278) a + S1x64.size a ≤ S1000000x64.size a := fun k0_t1 v278 k0_hw16 k0_h1 => k0_hw16 k0_h1

def k0_off36 (k0_t2 : Fin k0_t2_loop.trips) : Fin 3 → Nat :=
  let c0_i32_185 : BitVec 32 := 0#32
  let c0_i32_85 : BitVec 32 := 0#32
  let c1_i32_86 : BitVec 32 := 1#32
  let arg16 : BitVec 32 := Scf.iv c0_i32_85 c1_i32_86 k0_t2
  let c16_i32_184 : BitVec 32 := 16#32
  let v279 : BitVec 32 := Scalar.muli arg16 c16_i32_184
  let c15_i32 : BitVec 32 := 15#32
  let v280 : BitVec 32 := Scalar.addi v279 c15_i32
  let c0_i32_188 : BitVec 32 := 0#32
  ![0, v280.toNat, 0]
def k0_cond3 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32 : BitVec 32 := 4#32
  let v43 : BitVec 32 := Scalar.muli arg15 c4_i32
  let c0_i32_52 : BitVec 32 := 0#32
  let v44 : BitVec 32 := Scalar.addi v43 c0_i32_52
  let c2_i32_53 : BitVec 32 := 2#32
  let v45 : BitVec 32 := Scalar.subi v44 c2_i32_53
  let c0_i32_55 : BitVec 32 := 0#32
  let v49 : BitVec 1 := Scalar.cmpi .sge v45 c0_i32_55
  let c64_i32_56 : BitVec 32 := 64#32
  let v50 : BitVec 1 := Scalar.cmpi .slt v45 c64_i32_56
  let v51 : BitVec 1 := Scalar.andi v49 v50
  let v52 : BitVec 32 := Scalar.extui v51
  let c0_i32_57 : BitVec 32 := 0#32
  let v53 : BitVec 1 := Scalar.cmpi .ne v52 c0_i32_57
  v53

@[reducible] def k0_t3_loop : Scf.Loop 32 :=
  let c0_i32_83 : BitVec 32 := 0#32
  let c10_i32 : BitVec 32 := 10#32
  let v87 : BitVec 32 := Scalar.addi c0_i32_83 c10_i32
  let c1_i32_84 : BitVec 32 := 1#32
  ⟨c0_i32_83, v87, c1_i32_84⟩
def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_86 : BitVec 32 := 512#32
  let v88 : BitVec 32 := Scalar.muli v1 c512_i32_86
  let c0_i32_0 : BitVec 32 := 0#32
  let c1_i32 : BitVec 32 := 1#32
  let arg15 : BitVec 32 := Scf.iv c0_i32_0 c1_i32 k0_t1
  let c4_i32 : BitVec 32 := 4#32
  let v43 : BitVec 32 := Scalar.muli arg15 c4_i32
  let c0_i32_52 : BitVec 32 := 0#32
  let v44 : BitVec 32 := Scalar.addi v43 c0_i32_52
  let c2_i32_53 : BitVec 32 := 2#32
  let v45 : BitVec 32 := Scalar.subi v44 c2_i32_53
  let c8_i32 : BitVec 32 := 8#32
  let v89 : BitVec 32 := Scalar.muli v45 c8_i32
  let v90 : BitVec 32 := Scalar.addi v88 v89
  let c0_i32_91 : BitVec 32 := 0#32
  let c0_i32_92 : BitVec 32 := 0#32
  ![v90.toNat, 0, 0]
def k0_cond4 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_58 : BitVec 32 := 4#32
  let v54 : BitVec 32 := Scalar.muli arg15 c4_i32_58
  let c1_i32_59 : BitVec 32 := 1#32
  let v55 : BitVec 32 := Scalar.addi v54 c1_i32_59
  let c64_i32_61 : BitVec 32 := 64#32
  let v57 : BitVec 1 := Scalar.cmpi .slt v55 c64_i32_61
  let v58 : BitVec 32 := Scalar.extui v57
  let c0_i32_62 : BitVec 32 := 0#32
  let v59 : BitVec 1 := Scalar.cmpi .ne v58 c0_i32_62
  v59

def k0_cond5 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_58 : BitVec 32 := 4#32
  let v54 : BitVec 32 := Scalar.muli arg15 c4_i32_58
  let c1_i32_59 : BitVec 32 := 1#32
  let v55 : BitVec 32 := Scalar.addi v54 c1_i32_59
  let c4_i32_82 : BitVec 32 := 4#32
  let v87 : BitVec 1 := Scalar.cmpi .sge v55 c4_i32_82
  let v88 : BitVec 32 := Scalar.extui v87
  let c0_i32_83 : BitVec 32 := 0#32
  let v89 : BitVec 1 := Scalar.cmpi .ne v88 c0_i32_83
  v89

def k0_off38 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_89 : BitVec 32 := 512#32
  let v92 : BitVec 32 := Scalar.muli v1 c512_i32_89
  let c0_i32_0 : BitVec 32 := 0#32
  let c1_i32 : BitVec 32 := 1#32
  let arg15 : BitVec 32 := Scf.iv c0_i32_0 c1_i32 k0_t1
  let c4_i32_58 : BitVec 32 := 4#32
  let v54 : BitVec 32 := Scalar.muli arg15 c4_i32_58
  let c1_i32_59 : BitVec 32 := 1#32
  let v55 : BitVec 32 := Scalar.addi v54 c1_i32_59
  let c4_i32_88 : BitVec 32 := 4#32
  let v91 : BitVec 32 := Scalar.subi v55 c4_i32_88
  let c8_i32 : BitVec 32 := 8#32
  let v93 : BitVec 32 := Scalar.muli v91 c8_i32
  let v94 : BitVec 32 := Scalar.addi v92 v93
  let c0_i32_94 : BitVec 32 := 0#32
  let c0_i32_95 : BitVec 32 := 0#32
  ![v94.toNat, 0, 0]
@[reducible] def k0_t4_loop : Scf.Loop 32 :=
  let c0_i32_85 : BitVec 32 := 0#32
  let c10_i32 : BitVec 32 := 10#32
  let v90 : BitVec 32 := Scalar.addi c0_i32_85 c10_i32
  let c1_i32_86 : BitVec 32 := 1#32
  ⟨c0_i32_85, v90, c1_i32_86⟩
def k0_off39 (k0_t1 : Fin k0_t1_loop.trips) (k0_t4 : Fin k0_t4_loop.trips) : Fin 1 → Nat :=
  let c0_i32_0 : BitVec 32 := 0#32
  let c1_i32 : BitVec 32 := 1#32
  let arg15 : BitVec 32 := Scf.iv c0_i32_0 c1_i32 k0_t1
  let c4_i32_58 : BitVec 32 := 4#32
  let v54 : BitVec 32 := Scalar.muli arg15 c4_i32_58
  let c1_i32_59 : BitVec 32 := 1#32
  let v55 : BitVec 32 := Scalar.addi v54 c1_i32_59
  let c160_i32 : BitVec 32 := 160#32
  let v91 : BitVec 32 := Scalar.muli v55 c160_i32
  let c0_i32_85 : BitVec 32 := 0#32
  let c1_i32_86 : BitVec 32 := 1#32
  let arg16 : BitVec 32 := Scf.iv c0_i32_85 c1_i32_86 k0_t4
  let c16_i32 : BitVec 32 := 16#32
  let v92 : BitVec 32 := Scalar.muli arg16 c16_i32
  let v93 : BitVec 32 := Scalar.addi v91 v92
  let v94 : Index := Scalar.indexCast v93
  ![v94.toNat]
def k0_off40 (k0_t4 : Fin k0_t4_loop.trips) : Fin 3 → Nat :=
  let c1_i32_90 : BitVec 32 := 1#32
  let c0_i32_85 : BitVec 32 := 0#32
  let c1_i32_86 : BitVec 32 := 1#32
  let arg16 : BitVec 32 := Scf.iv c0_i32_85 c1_i32_86 k0_t4
  let c16_i32_88 : BitVec 32 := 16#32
  let v99 : BitVec 32 := Scalar.muli arg16 c16_i32_88
  let c0_i32_89 : BitVec 32 := 0#32
  let v100 : BitVec 32 := Scalar.addi v99 c0_i32_89
  let c0_i32_91 : BitVec 32 := 0#32
  ![1, v100.toNat, 0]
def k0_off41 (v98 : BitVec 32) : Fin 2 → Nat :=
  let c0_i32_92 : BitVec 32 := 0#32
  ![v98.toNat, 0]

def k0_chk17 (k0_t1 : Fin k0_t1_loop.trips) (v98 : BitVec 32) : Prop :=
  (∀ (k0_h4 : k0_cond4 k0_t1 = 1#1), ∀ a, (k0_off41 v98) a + S1x64.size a ≤ S1000000x64.size a)
instance k0_chk17.dec : ∀ (k0_t1 : Fin k0_t1_loop.trips) (v98 : BitVec 32), Decidable (k0_chk17 k0_t1 v98) := fun k0_t1 v98 => decidable_of_iff' _ (Iff.of_eq (k0_chk17.eq_1 k0_t1 v98))
theorem k0_off41_inb : ∀ (k0_t1 : Fin k0_t1_loop.trips) (v98 : BitVec 32) (k0_hw17 : k0_chk17 k0_t1 v98), ∀ (k0_h4 : k0_cond4 k0_t1 = 1#1), ∀ a, (k0_off41 v98) a + S1x64.size a ≤ S1000000x64.size a := fun k0_t1 v98 k0_hw17 k0_h4 => k0_hw17 k0_h4

def k0_off42 (k0_t4 : Fin k0_t4_loop.trips) (c0_i32_89 : BitVec 32) : Fin 3 → Nat :=
  let c1_i32_90 : BitVec 32 := 1#32
  let c0_i32_85 : BitVec 32 := 0#32
  let c1_i32_86 : BitVec 32 := 1#32
  let arg16 : BitVec 32 := Scf.iv c0_i32_85 c1_i32_86 k0_t4
  let c16_i32_88 : BitVec 32 := 16#32
  let v99 : BitVec 32 := Scalar.muli arg16 c16_i32_88
  let v100 : BitVec 32 := Scalar.addi v99 c0_i32_89
  let c0_i32_93 : BitVec 32 := 0#32
  ![1, v100.toNat, 0]
def k0_off43 (v110 : BitVec 32) : Fin 2 → Nat :=
  let c0_i32_99 : BitVec 32 := 0#32
  ![v110.toNat, 0]

def k0_chk18 (k0_t1 : Fin k0_t1_loop.trips) (v110 : BitVec 32) : Prop :=
  (∀ (k0_h4 : k0_cond4 k0_t1 = 1#1), ∀ a, (k0_off43 v110) a + S1x64.size a ≤ S1000000x64.size a)
instance k0_chk18.dec : ∀ (k0_t1 : Fin k0_t1_loop.trips) (v110 : BitVec 32), Decidable (k0_chk18 k0_t1 v110) := fun k0_t1 v110 => decidable_of_iff' _ (Iff.of_eq (k0_chk18.eq_1 k0_t1 v110))
theorem k0_off43_inb : ∀ (k0_t1 : Fin k0_t1_loop.trips) (v110 : BitVec 32) (k0_hw18 : k0_chk18 k0_t1 v110), ∀ (k0_h4 : k0_cond4 k0_t1 = 1#1), ∀ a, (k0_off43 v110) a + S1x64.size a ≤ S1000000x64.size a := fun k0_t1 v110 k0_hw18 k0_h4 => k0_hw18 k0_h4

def k0_off44 (k0_t4 : Fin k0_t4_loop.trips) (c1_i32_96 : BitVec 32) : Fin 3 → Nat :=
  let c1_i32_97 : BitVec 32 := 1#32
  let c0_i32_85 : BitVec 32 := 0#32
  let c1_i32_86 : BitVec 32 := 1#32
  let arg16 : BitVec 32 := Scf.iv c0_i32_85 c1_i32_86 k0_t4
  let c16_i32_95 : BitVec 32 := 16#32
  let v111 : BitVec 32 := Scalar.muli arg16 c16_i32_95
  let v112 : BitVec 32 := Scalar.addi v111 c1_i32_96
  let c0_i32_100 : BitVec 32 := 0#32
  ![1, v112.toNat, 0]
def k0_off45 (v122 : BitVec 32) : Fin 2 → Nat :=
  let c0_i32_106 : BitVec 32 := 0#32
  ![v122.toNat, 0]

def k0_chk19 (k0_t1 : Fin k0_t1_loop.trips) (v122 : BitVec 32) : Prop :=
  (∀ (k0_h4 : k0_cond4 k0_t1 = 1#1), ∀ a, (k0_off45 v122) a + S1x64.size a ≤ S1000000x64.size a)
instance k0_chk19.dec : ∀ (k0_t1 : Fin k0_t1_loop.trips) (v122 : BitVec 32), Decidable (k0_chk19 k0_t1 v122) := fun k0_t1 v122 => decidable_of_iff' _ (Iff.of_eq (k0_chk19.eq_1 k0_t1 v122))
theorem k0_off45_inb : ∀ (k0_t1 : Fin k0_t1_loop.trips) (v122 : BitVec 32) (k0_hw19 : k0_chk19 k0_t1 v122), ∀ (k0_h4 : k0_cond4 k0_t1 = 1#1), ∀ a, (k0_off45 v122) a + S1x64.size a ≤ S1000000x64.size a := fun k0_t1 v122 k0_hw19 k0_h4 => k0_hw19 k0_h4

def k0_off46 (k0_t4 : Fin k0_t4_loop.trips) (c2_i32_103 : BitVec 32) : Fin 3 → Nat :=
  let c1_i32_104 : BitVec 32 := 1#32
  let c0_i32_85 : BitVec 32 := 0#32
  let c1_i32_86 : BitVec 32 := 1#32
  let arg16 : BitVec 32 := Scf.iv c0_i32_85 c1_i32_86 k0_t4
  let c16_i32_102 : BitVec 32 := 16#32
  let v123 : BitVec 32 := Scalar.muli arg16 c16_i32_102
  let v124 : BitVec 32 := Scalar.addi v123 c2_i32_103
  let c0_i32_107 : BitVec 32 := 0#32
  ![1, v124.toNat, 0]
def k0_off47 (v134 : BitVec 32) : Fin 2 → Nat :=
  let c0_i32_113 : BitVec 32 := 0#32
  ![v134.toNat, 0]

def k0_chk20 (k0_t1 : Fin k0_t1_loop.trips) (v134 : BitVec 32) : Prop :=
  (∀ (k0_h4 : k0_cond4 k0_t1 = 1#1), ∀ a, (k0_off47 v134) a + S1x64.size a ≤ S1000000x64.size a)
instance k0_chk20.dec : ∀ (k0_t1 : Fin k0_t1_loop.trips) (v134 : BitVec 32), Decidable (k0_chk20 k0_t1 v134) := fun k0_t1 v134 => decidable_of_iff' _ (Iff.of_eq (k0_chk20.eq_1 k0_t1 v134))
theorem k0_off47_inb : ∀ (k0_t1 : Fin k0_t1_loop.trips) (v134 : BitVec 32) (k0_hw20 : k0_chk20 k0_t1 v134), ∀ (k0_h4 : k0_cond4 k0_t1 = 1#1), ∀ a, (k0_off47 v134) a + S1x64.size a ≤ S1000000x64.size a := fun k0_t1 v134 k0_hw20 k0_h4 => k0_hw20 k0_h4

def k0_off48 (k0_t4 : Fin k0_t4_loop.trips) (c3_i32_110 : BitVec 32) : Fin 3 → Nat :=
  let c1_i32_111 : BitVec 32 := 1#32
  let c0_i32_85 : BitVec 32 := 0#32
  let c1_i32_86 : BitVec 32 := 1#32
  let arg16 : BitVec 32 := Scf.iv c0_i32_85 c1_i32_86 k0_t4
  let c16_i32_109 : BitVec 32 := 16#32
  let v135 : BitVec 32 := Scalar.muli arg16 c16_i32_109
  let v136 : BitVec 32 := Scalar.addi v135 c3_i32_110
  let c0_i32_114 : BitVec 32 := 0#32
  ![1, v136.toNat, 0]
def k0_off49 (v146 : BitVec 32) : Fin 2 → Nat :=
  let c0_i32_120 : BitVec 32 := 0#32
  ![v146.toNat, 0]

def k0_chk21 (k0_t1 : Fin k0_t1_loop.trips) (v146 : BitVec 32) : Prop :=
  (∀ (k0_h4 : k0_cond4 k0_t1 = 1#1), ∀ a, (k0_off49 v146) a + S1x64.size a ≤ S1000000x64.size a)
instance k0_chk21.dec : ∀ (k0_t1 : Fin k0_t1_loop.trips) (v146 : BitVec 32), Decidable (k0_chk21 k0_t1 v146) := fun k0_t1 v146 => decidable_of_iff' _ (Iff.of_eq (k0_chk21.eq_1 k0_t1 v146))
theorem k0_off49_inb : ∀ (k0_t1 : Fin k0_t1_loop.trips) (v146 : BitVec 32) (k0_hw21 : k0_chk21 k0_t1 v146), ∀ (k0_h4 : k0_cond4 k0_t1 = 1#1), ∀ a, (k0_off49 v146) a + S1x64.size a ≤ S1000000x64.size a := fun k0_t1 v146 k0_hw21 k0_h4 => k0_hw21 k0_h4

def k0_off50 (k0_t4 : Fin k0_t4_loop.trips) (c4_i32_117 : BitVec 32) : Fin 3 → Nat :=
  let c1_i32_118 : BitVec 32 := 1#32
  let c0_i32_85 : BitVec 32 := 0#32
  let c1_i32_86 : BitVec 32 := 1#32
  let arg16 : BitVec 32 := Scf.iv c0_i32_85 c1_i32_86 k0_t4
  let c16_i32_116 : BitVec 32 := 16#32
  let v147 : BitVec 32 := Scalar.muli arg16 c16_i32_116
  let v148 : BitVec 32 := Scalar.addi v147 c4_i32_117
  let c0_i32_121 : BitVec 32 := 0#32
  ![1, v148.toNat, 0]
def k0_off51 (v158 : BitVec 32) : Fin 2 → Nat :=
  let c0_i32_126 : BitVec 32 := 0#32
  ![v158.toNat, 0]

def k0_chk22 (k0_t1 : Fin k0_t1_loop.trips) (v158 : BitVec 32) : Prop :=
  (∀ (k0_h4 : k0_cond4 k0_t1 = 1#1), ∀ a, (k0_off51 v158) a + S1x64.size a ≤ S1000000x64.size a)
instance k0_chk22.dec : ∀ (k0_t1 : Fin k0_t1_loop.trips) (v158 : BitVec 32), Decidable (k0_chk22 k0_t1 v158) := fun k0_t1 v158 => decidable_of_iff' _ (Iff.of_eq (k0_chk22.eq_1 k0_t1 v158))
theorem k0_off51_inb : ∀ (k0_t1 : Fin k0_t1_loop.trips) (v158 : BitVec 32) (k0_hw22 : k0_chk22 k0_t1 v158), ∀ (k0_h4 : k0_cond4 k0_t1 = 1#1), ∀ a, (k0_off51 v158) a + S1x64.size a ≤ S1000000x64.size a := fun k0_t1 v158 k0_hw22 k0_h4 => k0_hw22 k0_h4

def k0_off52 (k0_t4 : Fin k0_t4_loop.trips) (c5_i32 : BitVec 32) : Fin 3 → Nat :=
  let c1_i32_124 : BitVec 32 := 1#32
  let c0_i32_85 : BitVec 32 := 0#32
  let c1_i32_86 : BitVec 32 := 1#32
  let arg16 : BitVec 32 := Scf.iv c0_i32_85 c1_i32_86 k0_t4
  let c16_i32_123 : BitVec 32 := 16#32
  let v159 : BitVec 32 := Scalar.muli arg16 c16_i32_123
  let v160 : BitVec 32 := Scalar.addi v159 c5_i32
  let c0_i32_127 : BitVec 32 := 0#32
  ![1, v160.toNat, 0]
def k0_off53 (v170 : BitVec 32) : Fin 2 → Nat :=
  let c0_i32_132 : BitVec 32 := 0#32
  ![v170.toNat, 0]

def k0_chk23 (k0_t1 : Fin k0_t1_loop.trips) (v170 : BitVec 32) : Prop :=
  (∀ (k0_h4 : k0_cond4 k0_t1 = 1#1), ∀ a, (k0_off53 v170) a + S1x64.size a ≤ S1000000x64.size a)
instance k0_chk23.dec : ∀ (k0_t1 : Fin k0_t1_loop.trips) (v170 : BitVec 32), Decidable (k0_chk23 k0_t1 v170) := fun k0_t1 v170 => decidable_of_iff' _ (Iff.of_eq (k0_chk23.eq_1 k0_t1 v170))
theorem k0_off53_inb : ∀ (k0_t1 : Fin k0_t1_loop.trips) (v170 : BitVec 32) (k0_hw23 : k0_chk23 k0_t1 v170), ∀ (k0_h4 : k0_cond4 k0_t1 = 1#1), ∀ a, (k0_off53 v170) a + S1x64.size a ≤ S1000000x64.size a := fun k0_t1 v170 k0_hw23 k0_h4 => k0_hw23 k0_h4

def k0_off54 (k0_t4 : Fin k0_t4_loop.trips) (c6_i32 : BitVec 32) : Fin 3 → Nat :=
  let c1_i32_130 : BitVec 32 := 1#32
  let c0_i32_85 : BitVec 32 := 0#32
  let c1_i32_86 : BitVec 32 := 1#32
  let arg16 : BitVec 32 := Scf.iv c0_i32_85 c1_i32_86 k0_t4
  let c16_i32_129 : BitVec 32 := 16#32
  let v171 : BitVec 32 := Scalar.muli arg16 c16_i32_129
  let v172 : BitVec 32 := Scalar.addi v171 c6_i32
  let c0_i32_133 : BitVec 32 := 0#32
  ![1, v172.toNat, 0]
def k0_off55 (v182 : BitVec 32) : Fin 2 → Nat :=
  let c0_i32_138 : BitVec 32 := 0#32
  ![v182.toNat, 0]

def k0_chk24 (k0_t1 : Fin k0_t1_loop.trips) (v182 : BitVec 32) : Prop :=
  (∀ (k0_h4 : k0_cond4 k0_t1 = 1#1), ∀ a, (k0_off55 v182) a + S1x64.size a ≤ S1000000x64.size a)
instance k0_chk24.dec : ∀ (k0_t1 : Fin k0_t1_loop.trips) (v182 : BitVec 32), Decidable (k0_chk24 k0_t1 v182) := fun k0_t1 v182 => decidable_of_iff' _ (Iff.of_eq (k0_chk24.eq_1 k0_t1 v182))
theorem k0_off55_inb : ∀ (k0_t1 : Fin k0_t1_loop.trips) (v182 : BitVec 32) (k0_hw24 : k0_chk24 k0_t1 v182), ∀ (k0_h4 : k0_cond4 k0_t1 = 1#1), ∀ a, (k0_off55 v182) a + S1x64.size a ≤ S1000000x64.size a := fun k0_t1 v182 k0_hw24 k0_h4 => k0_hw24 k0_h4

def k0_off56 (k0_t4 : Fin k0_t4_loop.trips) (c7_i32 : BitVec 32) : Fin 3 → Nat :=
  let c1_i32_136 : BitVec 32 := 1#32
  let c0_i32_85 : BitVec 32 := 0#32
  let c1_i32_86 : BitVec 32 := 1#32
  let arg16 : BitVec 32 := Scf.iv c0_i32_85 c1_i32_86 k0_t4
  let c16_i32_135 : BitVec 32 := 16#32
  let v183 : BitVec 32 := Scalar.muli arg16 c16_i32_135
  let v184 : BitVec 32 := Scalar.addi v183 c7_i32
  let c0_i32_139 : BitVec 32 := 0#32
  ![1, v184.toNat, 0]
def k0_off57 (v194 : BitVec 32) : Fin 2 → Nat :=
  let c0_i32_144 : BitVec 32 := 0#32
  ![v194.toNat, 0]

def k0_chk25 (k0_t1 : Fin k0_t1_loop.trips) (v194 : BitVec 32) : Prop :=
  (∀ (k0_h4 : k0_cond4 k0_t1 = 1#1), ∀ a, (k0_off57 v194) a + S1x64.size a ≤ S1000000x64.size a)
instance k0_chk25.dec : ∀ (k0_t1 : Fin k0_t1_loop.trips) (v194 : BitVec 32), Decidable (k0_chk25 k0_t1 v194) := fun k0_t1 v194 => decidable_of_iff' _ (Iff.of_eq (k0_chk25.eq_1 k0_t1 v194))
theorem k0_off57_inb : ∀ (k0_t1 : Fin k0_t1_loop.trips) (v194 : BitVec 32) (k0_hw25 : k0_chk25 k0_t1 v194), ∀ (k0_h4 : k0_cond4 k0_t1 = 1#1), ∀ a, (k0_off57 v194) a + S1x64.size a ≤ S1000000x64.size a := fun k0_t1 v194 k0_hw25 k0_h4 => k0_hw25 k0_h4

def k0_off58 (k0_t4 : Fin k0_t4_loop.trips) (c8_i32 : BitVec 32) : Fin 3 → Nat :=
  let c1_i32_142 : BitVec 32 := 1#32
  let c0_i32_85 : BitVec 32 := 0#32
  let c1_i32_86 : BitVec 32 := 1#32
  let arg16 : BitVec 32 := Scf.iv c0_i32_85 c1_i32_86 k0_t4
  let c16_i32_141 : BitVec 32 := 16#32
  let v195 : BitVec 32 := Scalar.muli arg16 c16_i32_141
  let v196 : BitVec 32 := Scalar.addi v195 c8_i32
  let c0_i32_145 : BitVec 32 := 0#32
  ![1, v196.toNat, 0]
def k0_off59 (v206 : BitVec 32) : Fin 2 → Nat :=
  let c0_i32_150 : BitVec 32 := 0#32
  ![v206.toNat, 0]

def k0_chk26 (k0_t1 : Fin k0_t1_loop.trips) (v206 : BitVec 32) : Prop :=
  (∀ (k0_h4 : k0_cond4 k0_t1 = 1#1), ∀ a, (k0_off59 v206) a + S1x64.size a ≤ S1000000x64.size a)
instance k0_chk26.dec : ∀ (k0_t1 : Fin k0_t1_loop.trips) (v206 : BitVec 32), Decidable (k0_chk26 k0_t1 v206) := fun k0_t1 v206 => decidable_of_iff' _ (Iff.of_eq (k0_chk26.eq_1 k0_t1 v206))
theorem k0_off59_inb : ∀ (k0_t1 : Fin k0_t1_loop.trips) (v206 : BitVec 32) (k0_hw26 : k0_chk26 k0_t1 v206), ∀ (k0_h4 : k0_cond4 k0_t1 = 1#1), ∀ a, (k0_off59 v206) a + S1x64.size a ≤ S1000000x64.size a := fun k0_t1 v206 k0_hw26 k0_h4 => k0_hw26 k0_h4

def k0_off60 (k0_t4 : Fin k0_t4_loop.trips) (c9_i32 : BitVec 32) : Fin 3 → Nat :=
  let c1_i32_148 : BitVec 32 := 1#32
  let c0_i32_85 : BitVec 32 := 0#32
  let c1_i32_86 : BitVec 32 := 1#32
  let arg16 : BitVec 32 := Scf.iv c0_i32_85 c1_i32_86 k0_t4
  let c16_i32_147 : BitVec 32 := 16#32
  let v207 : BitVec 32 := Scalar.muli arg16 c16_i32_147
  let v208 : BitVec 32 := Scalar.addi v207 c9_i32
  let c0_i32_151 : BitVec 32 := 0#32
  ![1, v208.toNat, 0]
def k0_off61 (v218 : BitVec 32) : Fin 2 → Nat :=
  let c0_i32_157 : BitVec 32 := 0#32
  ![v218.toNat, 0]

def k0_chk27 (k0_t1 : Fin k0_t1_loop.trips) (v218 : BitVec 32) : Prop :=
  (∀ (k0_h4 : k0_cond4 k0_t1 = 1#1), ∀ a, (k0_off61 v218) a + S1x64.size a ≤ S1000000x64.size a)
instance k0_chk27.dec : ∀ (k0_t1 : Fin k0_t1_loop.trips) (v218 : BitVec 32), Decidable (k0_chk27 k0_t1 v218) := fun k0_t1 v218 => decidable_of_iff' _ (Iff.of_eq (k0_chk27.eq_1 k0_t1 v218))
theorem k0_off61_inb : ∀ (k0_t1 : Fin k0_t1_loop.trips) (v218 : BitVec 32) (k0_hw27 : k0_chk27 k0_t1 v218), ∀ (k0_h4 : k0_cond4 k0_t1 = 1#1), ∀ a, (k0_off61 v218) a + S1x64.size a ≤ S1000000x64.size a := fun k0_t1 v218 k0_hw27 k0_h4 => k0_hw27 k0_h4

def k0_off62 (k0_t4 : Fin k0_t4_loop.trips) (c10_i32_154 : BitVec 32) : Fin 3 → Nat :=
  let c1_i32_155 : BitVec 32 := 1#32
  let c0_i32_85 : BitVec 32 := 0#32
  let c1_i32_86 : BitVec 32 := 1#32
  let arg16 : BitVec 32 := Scf.iv c0_i32_85 c1_i32_86 k0_t4
  let c16_i32_153 : BitVec 32 := 16#32
  let v219 : BitVec 32 := Scalar.muli arg16 c16_i32_153
  let v220 : BitVec 32 := Scalar.addi v219 c10_i32_154
  let c0_i32_158 : BitVec 32 := 0#32
  ![1, v220.toNat, 0]
def k0_off63 (v230 : BitVec 32) : Fin 2 → Nat :=
  let c0_i32_163 : BitVec 32 := 0#32
  ![v230.toNat, 0]

def k0_chk28 (k0_t1 : Fin k0_t1_loop.trips) (v230 : BitVec 32) : Prop :=
  (∀ (k0_h4 : k0_cond4 k0_t1 = 1#1), ∀ a, (k0_off63 v230) a + S1x64.size a ≤ S1000000x64.size a)
instance k0_chk28.dec : ∀ (k0_t1 : Fin k0_t1_loop.trips) (v230 : BitVec 32), Decidable (k0_chk28 k0_t1 v230) := fun k0_t1 v230 => decidable_of_iff' _ (Iff.of_eq (k0_chk28.eq_1 k0_t1 v230))
theorem k0_off63_inb : ∀ (k0_t1 : Fin k0_t1_loop.trips) (v230 : BitVec 32) (k0_hw28 : k0_chk28 k0_t1 v230), ∀ (k0_h4 : k0_cond4 k0_t1 = 1#1), ∀ a, (k0_off63 v230) a + S1x64.size a ≤ S1000000x64.size a := fun k0_t1 v230 k0_hw28 k0_h4 => k0_hw28 k0_h4

def k0_off64 (k0_t4 : Fin k0_t4_loop.trips) (c11_i32 : BitVec 32) : Fin 3 → Nat :=
  let c1_i32_161 : BitVec 32 := 1#32
  let c0_i32_85 : BitVec 32 := 0#32
  let c1_i32_86 : BitVec 32 := 1#32
  let arg16 : BitVec 32 := Scf.iv c0_i32_85 c1_i32_86 k0_t4
  let c16_i32_160 : BitVec 32 := 16#32
  let v231 : BitVec 32 := Scalar.muli arg16 c16_i32_160
  let v232 : BitVec 32 := Scalar.addi v231 c11_i32
  let c0_i32_164 : BitVec 32 := 0#32
  ![1, v232.toNat, 0]
def k0_off65 (v242 : BitVec 32) : Fin 2 → Nat :=
  let c0_i32_169 : BitVec 32 := 0#32
  ![v242.toNat, 0]

def k0_chk29 (k0_t1 : Fin k0_t1_loop.trips) (v242 : BitVec 32) : Prop :=
  (∀ (k0_h4 : k0_cond4 k0_t1 = 1#1), ∀ a, (k0_off65 v242) a + S1x64.size a ≤ S1000000x64.size a)
instance k0_chk29.dec : ∀ (k0_t1 : Fin k0_t1_loop.trips) (v242 : BitVec 32), Decidable (k0_chk29 k0_t1 v242) := fun k0_t1 v242 => decidable_of_iff' _ (Iff.of_eq (k0_chk29.eq_1 k0_t1 v242))
theorem k0_off65_inb : ∀ (k0_t1 : Fin k0_t1_loop.trips) (v242 : BitVec 32) (k0_hw29 : k0_chk29 k0_t1 v242), ∀ (k0_h4 : k0_cond4 k0_t1 = 1#1), ∀ a, (k0_off65 v242) a + S1x64.size a ≤ S1000000x64.size a := fun k0_t1 v242 k0_hw29 k0_h4 => k0_hw29 k0_h4

def k0_off66 (k0_t4 : Fin k0_t4_loop.trips) (c12_i32 : BitVec 32) : Fin 3 → Nat :=
  let c1_i32_167 : BitVec 32 := 1#32
  let c0_i32_85 : BitVec 32 := 0#32
  let c1_i32_86 : BitVec 32 := 1#32
  let arg16 : BitVec 32 := Scf.iv c0_i32_85 c1_i32_86 k0_t4
  let c16_i32_166 : BitVec 32 := 16#32
  let v243 : BitVec 32 := Scalar.muli arg16 c16_i32_166
  let v244 : BitVec 32 := Scalar.addi v243 c12_i32
  let c0_i32_170 : BitVec 32 := 0#32
  ![1, v244.toNat, 0]
def k0_off67 (v254 : BitVec 32) : Fin 2 → Nat :=
  let c0_i32_175 : BitVec 32 := 0#32
  ![v254.toNat, 0]

def k0_chk30 (k0_t1 : Fin k0_t1_loop.trips) (v254 : BitVec 32) : Prop :=
  (∀ (k0_h4 : k0_cond4 k0_t1 = 1#1), ∀ a, (k0_off67 v254) a + S1x64.size a ≤ S1000000x64.size a)
instance k0_chk30.dec : ∀ (k0_t1 : Fin k0_t1_loop.trips) (v254 : BitVec 32), Decidable (k0_chk30 k0_t1 v254) := fun k0_t1 v254 => decidable_of_iff' _ (Iff.of_eq (k0_chk30.eq_1 k0_t1 v254))
theorem k0_off67_inb : ∀ (k0_t1 : Fin k0_t1_loop.trips) (v254 : BitVec 32) (k0_hw30 : k0_chk30 k0_t1 v254), ∀ (k0_h4 : k0_cond4 k0_t1 = 1#1), ∀ a, (k0_off67 v254) a + S1x64.size a ≤ S1000000x64.size a := fun k0_t1 v254 k0_hw30 k0_h4 => k0_hw30 k0_h4

def k0_off68 (k0_t4 : Fin k0_t4_loop.trips) (c13_i32 : BitVec 32) : Fin 3 → Nat :=
  let c1_i32_173 : BitVec 32 := 1#32
  let c0_i32_85 : BitVec 32 := 0#32
  let c1_i32_86 : BitVec 32 := 1#32
  let arg16 : BitVec 32 := Scf.iv c0_i32_85 c1_i32_86 k0_t4
  let c16_i32_172 : BitVec 32 := 16#32
  let v255 : BitVec 32 := Scalar.muli arg16 c16_i32_172
  let v256 : BitVec 32 := Scalar.addi v255 c13_i32
  let c0_i32_176 : BitVec 32 := 0#32
  ![1, v256.toNat, 0]
def k0_off69 (v266 : BitVec 32) : Fin 2 → Nat :=
  let c0_i32_181 : BitVec 32 := 0#32
  ![v266.toNat, 0]

def k0_chk31 (k0_t1 : Fin k0_t1_loop.trips) (v266 : BitVec 32) : Prop :=
  (∀ (k0_h4 : k0_cond4 k0_t1 = 1#1), ∀ a, (k0_off69 v266) a + S1x64.size a ≤ S1000000x64.size a)
instance k0_chk31.dec : ∀ (k0_t1 : Fin k0_t1_loop.trips) (v266 : BitVec 32), Decidable (k0_chk31 k0_t1 v266) := fun k0_t1 v266 => decidable_of_iff' _ (Iff.of_eq (k0_chk31.eq_1 k0_t1 v266))
theorem k0_off69_inb : ∀ (k0_t1 : Fin k0_t1_loop.trips) (v266 : BitVec 32) (k0_hw31 : k0_chk31 k0_t1 v266), ∀ (k0_h4 : k0_cond4 k0_t1 = 1#1), ∀ a, (k0_off69 v266) a + S1x64.size a ≤ S1000000x64.size a := fun k0_t1 v266 k0_hw31 k0_h4 => k0_hw31 k0_h4

def k0_off70 (k0_t4 : Fin k0_t4_loop.trips) (c14_i32 : BitVec 32) : Fin 3 → Nat :=
  let c1_i32_179 : BitVec 32 := 1#32
  let c0_i32_85 : BitVec 32 := 0#32
  let c1_i32_86 : BitVec 32 := 1#32
  let arg16 : BitVec 32 := Scf.iv c0_i32_85 c1_i32_86 k0_t4
  let c16_i32_178 : BitVec 32 := 16#32
  let v267 : BitVec 32 := Scalar.muli arg16 c16_i32_178
  let v268 : BitVec 32 := Scalar.addi v267 c14_i32
  let c0_i32_182 : BitVec 32 := 0#32
  ![1, v268.toNat, 0]
def k0_off71 (v278 : BitVec 32) : Fin 2 → Nat :=
  let c0_i32_187 : BitVec 32 := 0#32
  ![v278.toNat, 0]

def k0_chk32 (k0_t1 : Fin k0_t1_loop.trips) (v278 : BitVec 32) : Prop :=
  (∀ (k0_h4 : k0_cond4 k0_t1 = 1#1), ∀ a, (k0_off71 v278) a + S1x64.size a ≤ S1000000x64.size a)
instance k0_chk32.dec : ∀ (k0_t1 : Fin k0_t1_loop.trips) (v278 : BitVec 32), Decidable (k0_chk32 k0_t1 v278) := fun k0_t1 v278 => decidable_of_iff' _ (Iff.of_eq (k0_chk32.eq_1 k0_t1 v278))
theorem k0_off71_inb : ∀ (k0_t1 : Fin k0_t1_loop.trips) (v278 : BitVec 32) (k0_hw32 : k0_chk32 k0_t1 v278), ∀ (k0_h4 : k0_cond4 k0_t1 = 1#1), ∀ a, (k0_off71 v278) a + S1x64.size a ≤ S1000000x64.size a := fun k0_t1 v278 k0_hw32 k0_h4 => k0_hw32 k0_h4

def k0_off72 (k0_t4 : Fin k0_t4_loop.trips) : Fin 3 → Nat :=
  let c1_i32_185 : BitVec 32 := 1#32
  let c0_i32_85 : BitVec 32 := 0#32
  let c1_i32_86 : BitVec 32 := 1#32
  let arg16 : BitVec 32 := Scf.iv c0_i32_85 c1_i32_86 k0_t4
  let c16_i32_184 : BitVec 32 := 16#32
  let v279 : BitVec 32 := Scalar.muli arg16 c16_i32_184
  let c15_i32 : BitVec 32 := 15#32
  let v280 : BitVec 32 := Scalar.addi v279 c15_i32
  let c0_i32_188 : BitVec 32 := 0#32
  ![1, v280.toNat, 0]
def k0_cond6 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_58 : BitVec 32 := 4#32
  let v54 : BitVec 32 := Scalar.muli arg15 c4_i32_58
  let c1_i32_59 : BitVec 32 := 1#32
  let v55 : BitVec 32 := Scalar.addi v54 c1_i32_59
  let c2_i32_60 : BitVec 32 := 2#32
  let v56 : BitVec 32 := Scalar.subi v55 c2_i32_60
  let c0_i32_63 : BitVec 32 := 0#32
  let v60 : BitVec 1 := Scalar.cmpi .sge v56 c0_i32_63
  let c64_i32_64 : BitVec 32 := 64#32
  let v61 : BitVec 1 := Scalar.cmpi .slt v56 c64_i32_64
  let v62 : BitVec 1 := Scalar.andi v60 v61
  let v63 : BitVec 32 := Scalar.extui v62
  let c0_i32_65 : BitVec 32 := 0#32
  let v64 : BitVec 1 := Scalar.cmpi .ne v63 c0_i32_65
  v64

@[reducible] def k0_t5_loop : Scf.Loop 32 :=
  let c0_i32_83 : BitVec 32 := 0#32
  let c10_i32 : BitVec 32 := 10#32
  let v87 : BitVec 32 := Scalar.addi c0_i32_83 c10_i32
  let c1_i32_84 : BitVec 32 := 1#32
  ⟨c0_i32_83, v87, c1_i32_84⟩
def k0_off73 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_86 : BitVec 32 := 512#32
  let v88 : BitVec 32 := Scalar.muli v1 c512_i32_86
  let c0_i32_0 : BitVec 32 := 0#32
  let c1_i32 : BitVec 32 := 1#32
  let arg15 : BitVec 32 := Scf.iv c0_i32_0 c1_i32 k0_t1
  let c4_i32_58 : BitVec 32 := 4#32
  let v54 : BitVec 32 := Scalar.muli arg15 c4_i32_58
  let c1_i32_59 : BitVec 32 := 1#32
  let v55 : BitVec 32 := Scalar.addi v54 c1_i32_59
  let c2_i32_60 : BitVec 32 := 2#32
  let v56 : BitVec 32 := Scalar.subi v55 c2_i32_60
  let c8_i32 : BitVec 32 := 8#32
  let v89 : BitVec 32 := Scalar.muli v56 c8_i32
  let v90 : BitVec 32 := Scalar.addi v88 v89
  let c0_i32_91 : BitVec 32 := 0#32
  let c0_i32_92 : BitVec 32 := 0#32
  ![v90.toNat, 0, 0]
def k0_cond7 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_66 : BitVec 32 := 4#32
  let v65 : BitVec 32 := Scalar.muli arg15 c4_i32_66
  let c2_i32_67 : BitVec 32 := 2#32
  let v66 : BitVec 32 := Scalar.addi v65 c2_i32_67
  let c64_i32_69 : BitVec 32 := 64#32
  let v68 : BitVec 1 := Scalar.cmpi .slt v66 c64_i32_69
  let v69 : BitVec 32 := Scalar.extui v68
  let c0_i32_70 : BitVec 32 := 0#32
  let v70 : BitVec 1 := Scalar.cmpi .ne v69 c0_i32_70
  v70

def k0_cond8 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_66 : BitVec 32 := 4#32
  let v65 : BitVec 32 := Scalar.muli arg15 c4_i32_66
  let c2_i32_67 : BitVec 32 := 2#32
  let v66 : BitVec 32 := Scalar.addi v65 c2_i32_67
  let c4_i32_82 : BitVec 32 := 4#32
  let v87 : BitVec 1 := Scalar.cmpi .sge v66 c4_i32_82
  let v88 : BitVec 32 := Scalar.extui v87
  let c0_i32_83 : BitVec 32 := 0#32
  let v89 : BitVec 1 := Scalar.cmpi .ne v88 c0_i32_83
  v89

def k0_off74 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_89 : BitVec 32 := 512#32
  let v92 : BitVec 32 := Scalar.muli v1 c512_i32_89
  let c0_i32_0 : BitVec 32 := 0#32
  let c1_i32 : BitVec 32 := 1#32
  let arg15 : BitVec 32 := Scf.iv c0_i32_0 c1_i32 k0_t1
  let c4_i32_66 : BitVec 32 := 4#32
  let v65 : BitVec 32 := Scalar.muli arg15 c4_i32_66
  let c2_i32_67 : BitVec 32 := 2#32
  let v66 : BitVec 32 := Scalar.addi v65 c2_i32_67
  let c4_i32_88 : BitVec 32 := 4#32
  let v91 : BitVec 32 := Scalar.subi v66 c4_i32_88
  let c8_i32 : BitVec 32 := 8#32
  let v93 : BitVec 32 := Scalar.muli v91 c8_i32
  let v94 : BitVec 32 := Scalar.addi v92 v93
  let c0_i32_94 : BitVec 32 := 0#32
  let c0_i32_95 : BitVec 32 := 0#32
  ![v94.toNat, 0, 0]
@[reducible] def k0_t6_loop : Scf.Loop 32 :=
  let c0_i32_85 : BitVec 32 := 0#32
  let c10_i32 : BitVec 32 := 10#32
  let v90 : BitVec 32 := Scalar.addi c0_i32_85 c10_i32
  let c1_i32_86 : BitVec 32 := 1#32
  ⟨c0_i32_85, v90, c1_i32_86⟩
def k0_off75 (k0_t1 : Fin k0_t1_loop.trips) (k0_t6 : Fin k0_t6_loop.trips) : Fin 1 → Nat :=
  let c0_i32_0 : BitVec 32 := 0#32
  let c1_i32 : BitVec 32 := 1#32
  let arg15 : BitVec 32 := Scf.iv c0_i32_0 c1_i32 k0_t1
  let c4_i32_66 : BitVec 32 := 4#32
  let v65 : BitVec 32 := Scalar.muli arg15 c4_i32_66
  let c2_i32_67 : BitVec 32 := 2#32
  let v66 : BitVec 32 := Scalar.addi v65 c2_i32_67
  let c160_i32 : BitVec 32 := 160#32
  let v91 : BitVec 32 := Scalar.muli v66 c160_i32
  let c0_i32_85 : BitVec 32 := 0#32
  let c1_i32_86 : BitVec 32 := 1#32
  let arg16 : BitVec 32 := Scf.iv c0_i32_85 c1_i32_86 k0_t6
  let c16_i32 : BitVec 32 := 16#32
  let v92 : BitVec 32 := Scalar.muli arg16 c16_i32
  let v93 : BitVec 32 := Scalar.addi v91 v92
  let v94 : Index := Scalar.indexCast v93
  ![v94.toNat]
def k0_off76 (k0_t6 : Fin k0_t6_loop.trips) : Fin 3 → Nat :=
  let c2_i32_90 : BitVec 32 := 2#32
  let c0_i32_85 : BitVec 32 := 0#32
  let c1_i32_86 : BitVec 32 := 1#32
  let arg16 : BitVec 32 := Scf.iv c0_i32_85 c1_i32_86 k0_t6
  let c16_i32_88 : BitVec 32 := 16#32
  let v99 : BitVec 32 := Scalar.muli arg16 c16_i32_88
  let c0_i32_89 : BitVec 32 := 0#32
  let v100 : BitVec 32 := Scalar.addi v99 c0_i32_89
  let c0_i32_91 : BitVec 32 := 0#32
  ![2, v100.toNat, 0]
def k0_off77 (v98 : BitVec 32) : Fin 2 → Nat :=
  let c0_i32_92 : BitVec 32 := 0#32
  ![v98.toNat, 0]

def k0_chk33 (k0_t1 : Fin k0_t1_loop.trips) (v98 : BitVec 32) : Prop :=
  (∀ (k0_h7 : k0_cond7 k0_t1 = 1#1), ∀ a, (k0_off77 v98) a + S1x64.size a ≤ S1000000x64.size a)
instance k0_chk33.dec : ∀ (k0_t1 : Fin k0_t1_loop.trips) (v98 : BitVec 32), Decidable (k0_chk33 k0_t1 v98) := fun k0_t1 v98 => decidable_of_iff' _ (Iff.of_eq (k0_chk33.eq_1 k0_t1 v98))
theorem k0_off77_inb : ∀ (k0_t1 : Fin k0_t1_loop.trips) (v98 : BitVec 32) (k0_hw33 : k0_chk33 k0_t1 v98), ∀ (k0_h7 : k0_cond7 k0_t1 = 1#1), ∀ a, (k0_off77 v98) a + S1x64.size a ≤ S1000000x64.size a := fun k0_t1 v98 k0_hw33 k0_h7 => k0_hw33 k0_h7

def k0_off78 (k0_t6 : Fin k0_t6_loop.trips) (c0_i32_89 : BitVec 32) : Fin 3 → Nat :=
  let c2_i32_90 : BitVec 32 := 2#32
  let c0_i32_85 : BitVec 32 := 0#32
  let c1_i32_86 : BitVec 32 := 1#32
  let arg16 : BitVec 32 := Scf.iv c0_i32_85 c1_i32_86 k0_t6
  let c16_i32_88 : BitVec 32 := 16#32
  let v99 : BitVec 32 := Scalar.muli arg16 c16_i32_88
  let v100 : BitVec 32 := Scalar.addi v99 c0_i32_89
  let c0_i32_93 : BitVec 32 := 0#32
  ![2, v100.toNat, 0]
def k0_off79 (v110 : BitVec 32) : Fin 2 → Nat :=
  let c0_i32_99 : BitVec 32 := 0#32
  ![v110.toNat, 0]

def k0_chk34 (k0_t1 : Fin k0_t1_loop.trips) (v110 : BitVec 32) : Prop :=
  (∀ (k0_h7 : k0_cond7 k0_t1 = 1#1), ∀ a, (k0_off79 v110) a + S1x64.size a ≤ S1000000x64.size a)
instance k0_chk34.dec : ∀ (k0_t1 : Fin k0_t1_loop.trips) (v110 : BitVec 32), Decidable (k0_chk34 k0_t1 v110) := fun k0_t1 v110 => decidable_of_iff' _ (Iff.of_eq (k0_chk34.eq_1 k0_t1 v110))
theorem k0_off79_inb : ∀ (k0_t1 : Fin k0_t1_loop.trips) (v110 : BitVec 32) (k0_hw34 : k0_chk34 k0_t1 v110), ∀ (k0_h7 : k0_cond7 k0_t1 = 1#1), ∀ a, (k0_off79 v110) a + S1x64.size a ≤ S1000000x64.size a := fun k0_t1 v110 k0_hw34 k0_h7 => k0_hw34 k0_h7

def k0_off80 (k0_t6 : Fin k0_t6_loop.trips) (c1_i32_96 : BitVec 32) : Fin 3 → Nat :=
  let c2_i32_97 : BitVec 32 := 2#32
  let c0_i32_85 : BitVec 32 := 0#32
  let c1_i32_86 : BitVec 32 := 1#32
  let arg16 : BitVec 32 := Scf.iv c0_i32_85 c1_i32_86 k0_t6
  let c16_i32_95 : BitVec 32 := 16#32
  let v111 : BitVec 32 := Scalar.muli arg16 c16_i32_95
  let v112 : BitVec 32 := Scalar.addi v111 c1_i32_96
  let c0_i32_100 : BitVec 32 := 0#32
  ![2, v112.toNat, 0]
def k0_off81 (v122 : BitVec 32) : Fin 2 → Nat :=
  let c0_i32_106 : BitVec 32 := 0#32
  ![v122.toNat, 0]

def k0_chk35 (k0_t1 : Fin k0_t1_loop.trips) (v122 : BitVec 32) : Prop :=
  (∀ (k0_h7 : k0_cond7 k0_t1 = 1#1), ∀ a, (k0_off81 v122) a + S1x64.size a ≤ S1000000x64.size a)
instance k0_chk35.dec : ∀ (k0_t1 : Fin k0_t1_loop.trips) (v122 : BitVec 32), Decidable (k0_chk35 k0_t1 v122) := fun k0_t1 v122 => decidable_of_iff' _ (Iff.of_eq (k0_chk35.eq_1 k0_t1 v122))
theorem k0_off81_inb : ∀ (k0_t1 : Fin k0_t1_loop.trips) (v122 : BitVec 32) (k0_hw35 : k0_chk35 k0_t1 v122), ∀ (k0_h7 : k0_cond7 k0_t1 = 1#1), ∀ a, (k0_off81 v122) a + S1x64.size a ≤ S1000000x64.size a := fun k0_t1 v122 k0_hw35 k0_h7 => k0_hw35 k0_h7

def k0_off82 (k0_t6 : Fin k0_t6_loop.trips) (c2_i32_103 : BitVec 32) : Fin 3 → Nat :=
  let c2_i32_104 : BitVec 32 := 2#32
  let c0_i32_85 : BitVec 32 := 0#32
  let c1_i32_86 : BitVec 32 := 1#32
  let arg16 : BitVec 32 := Scf.iv c0_i32_85 c1_i32_86 k0_t6
  let c16_i32_102 : BitVec 32 := 16#32
  let v123 : BitVec 32 := Scalar.muli arg16 c16_i32_102
  let v124 : BitVec 32 := Scalar.addi v123 c2_i32_103
  let c0_i32_107 : BitVec 32 := 0#32
  ![2, v124.toNat, 0]
def k0_off83 (v134 : BitVec 32) : Fin 2 → Nat :=
  let c0_i32_113 : BitVec 32 := 0#32
  ![v134.toNat, 0]

def k0_chk36 (k0_t1 : Fin k0_t1_loop.trips) (v134 : BitVec 32) : Prop :=
  (∀ (k0_h7 : k0_cond7 k0_t1 = 1#1), ∀ a, (k0_off83 v134) a + S1x64.size a ≤ S1000000x64.size a)
instance k0_chk36.dec : ∀ (k0_t1 : Fin k0_t1_loop.trips) (v134 : BitVec 32), Decidable (k0_chk36 k0_t1 v134) := fun k0_t1 v134 => decidable_of_iff' _ (Iff.of_eq (k0_chk36.eq_1 k0_t1 v134))
theorem k0_off83_inb : ∀ (k0_t1 : Fin k0_t1_loop.trips) (v134 : BitVec 32) (k0_hw36 : k0_chk36 k0_t1 v134), ∀ (k0_h7 : k0_cond7 k0_t1 = 1#1), ∀ a, (k0_off83 v134) a + S1x64.size a ≤ S1000000x64.size a := fun k0_t1 v134 k0_hw36 k0_h7 => k0_hw36 k0_h7

def k0_off84 (k0_t6 : Fin k0_t6_loop.trips) (c3_i32_110 : BitVec 32) : Fin 3 → Nat :=
  let c2_i32_111 : BitVec 32 := 2#32
  let c0_i32_85 : BitVec 32 := 0#32
  let c1_i32_86 : BitVec 32 := 1#32
  let arg16 : BitVec 32 := Scf.iv c0_i32_85 c1_i32_86 k0_t6
  let c16_i32_109 : BitVec 32 := 16#32
  let v135 : BitVec 32 := Scalar.muli arg16 c16_i32_109
  let v136 : BitVec 32 := Scalar.addi v135 c3_i32_110
  let c0_i32_114 : BitVec 32 := 0#32
  ![2, v136.toNat, 0]
def k0_off85 (v146 : BitVec 32) : Fin 2 → Nat :=
  let c0_i32_120 : BitVec 32 := 0#32
  ![v146.toNat, 0]

def k0_chk37 (k0_t1 : Fin k0_t1_loop.trips) (v146 : BitVec 32) : Prop :=
  (∀ (k0_h7 : k0_cond7 k0_t1 = 1#1), ∀ a, (k0_off85 v146) a + S1x64.size a ≤ S1000000x64.size a)
instance k0_chk37.dec : ∀ (k0_t1 : Fin k0_t1_loop.trips) (v146 : BitVec 32), Decidable (k0_chk37 k0_t1 v146) := fun k0_t1 v146 => decidable_of_iff' _ (Iff.of_eq (k0_chk37.eq_1 k0_t1 v146))
theorem k0_off85_inb : ∀ (k0_t1 : Fin k0_t1_loop.trips) (v146 : BitVec 32) (k0_hw37 : k0_chk37 k0_t1 v146), ∀ (k0_h7 : k0_cond7 k0_t1 = 1#1), ∀ a, (k0_off85 v146) a + S1x64.size a ≤ S1000000x64.size a := fun k0_t1 v146 k0_hw37 k0_h7 => k0_hw37 k0_h7

def k0_off86 (k0_t6 : Fin k0_t6_loop.trips) (c4_i32_117 : BitVec 32) : Fin 3 → Nat :=
  let c2_i32_118 : BitVec 32 := 2#32
  let c0_i32_85 : BitVec 32 := 0#32
  let c1_i32_86 : BitVec 32 := 1#32
  let arg16 : BitVec 32 := Scf.iv c0_i32_85 c1_i32_86 k0_t6
  let c16_i32_116 : BitVec 32 := 16#32
  let v147 : BitVec 32 := Scalar.muli arg16 c16_i32_116
  let v148 : BitVec 32 := Scalar.addi v147 c4_i32_117
  let c0_i32_121 : BitVec 32 := 0#32
  ![2, v148.toNat, 0]
def k0_off87 (v158 : BitVec 32) : Fin 2 → Nat :=
  let c0_i32_126 : BitVec 32 := 0#32
  ![v158.toNat, 0]

def k0_chk38 (k0_t1 : Fin k0_t1_loop.trips) (v158 : BitVec 32) : Prop :=
  (∀ (k0_h7 : k0_cond7 k0_t1 = 1#1), ∀ a, (k0_off87 v158) a + S1x64.size a ≤ S1000000x64.size a)
instance k0_chk38.dec : ∀ (k0_t1 : Fin k0_t1_loop.trips) (v158 : BitVec 32), Decidable (k0_chk38 k0_t1 v158) := fun k0_t1 v158 => decidable_of_iff' _ (Iff.of_eq (k0_chk38.eq_1 k0_t1 v158))
theorem k0_off87_inb : ∀ (k0_t1 : Fin k0_t1_loop.trips) (v158 : BitVec 32) (k0_hw38 : k0_chk38 k0_t1 v158), ∀ (k0_h7 : k0_cond7 k0_t1 = 1#1), ∀ a, (k0_off87 v158) a + S1x64.size a ≤ S1000000x64.size a := fun k0_t1 v158 k0_hw38 k0_h7 => k0_hw38 k0_h7

def k0_off88 (k0_t6 : Fin k0_t6_loop.trips) (c5_i32 : BitVec 32) : Fin 3 → Nat :=
  let c2_i32_124 : BitVec 32 := 2#32
  let c0_i32_85 : BitVec 32 := 0#32
  let c1_i32_86 : BitVec 32 := 1#32
  let arg16 : BitVec 32 := Scf.iv c0_i32_85 c1_i32_86 k0_t6
  let c16_i32_123 : BitVec 32 := 16#32
  let v159 : BitVec 32 := Scalar.muli arg16 c16_i32_123
  let v160 : BitVec 32 := Scalar.addi v159 c5_i32
  let c0_i32_127 : BitVec 32 := 0#32
  ![2, v160.toNat, 0]
def k0_off89 (v170 : BitVec 32) : Fin 2 → Nat :=
  let c0_i32_132 : BitVec 32 := 0#32
  ![v170.toNat, 0]

def k0_chk39 (k0_t1 : Fin k0_t1_loop.trips) (v170 : BitVec 32) : Prop :=
  (∀ (k0_h7 : k0_cond7 k0_t1 = 1#1), ∀ a, (k0_off89 v170) a + S1x64.size a ≤ S1000000x64.size a)
instance k0_chk39.dec : ∀ (k0_t1 : Fin k0_t1_loop.trips) (v170 : BitVec 32), Decidable (k0_chk39 k0_t1 v170) := fun k0_t1 v170 => decidable_of_iff' _ (Iff.of_eq (k0_chk39.eq_1 k0_t1 v170))
theorem k0_off89_inb : ∀ (k0_t1 : Fin k0_t1_loop.trips) (v170 : BitVec 32) (k0_hw39 : k0_chk39 k0_t1 v170), ∀ (k0_h7 : k0_cond7 k0_t1 = 1#1), ∀ a, (k0_off89 v170) a + S1x64.size a ≤ S1000000x64.size a := fun k0_t1 v170 k0_hw39 k0_h7 => k0_hw39 k0_h7

def k0_off90 (k0_t6 : Fin k0_t6_loop.trips) (c6_i32 : BitVec 32) : Fin 3 → Nat :=
  let c2_i32_130 : BitVec 32 := 2#32
  let c0_i32_85 : BitVec 32 := 0#32
  let c1_i32_86 : BitVec 32 := 1#32
  let arg16 : BitVec 32 := Scf.iv c0_i32_85 c1_i32_86 k0_t6
  let c16_i32_129 : BitVec 32 := 16#32
  let v171 : BitVec 32 := Scalar.muli arg16 c16_i32_129
  let v172 : BitVec 32 := Scalar.addi v171 c6_i32
  let c0_i32_133 : BitVec 32 := 0#32
  ![2, v172.toNat, 0]
def k0_off91 (v182 : BitVec 32) : Fin 2 → Nat :=
  let c0_i32_138 : BitVec 32 := 0#32
  ![v182.toNat, 0]

def k0_chk40 (k0_t1 : Fin k0_t1_loop.trips) (v182 : BitVec 32) : Prop :=
  (∀ (k0_h7 : k0_cond7 k0_t1 = 1#1), ∀ a, (k0_off91 v182) a + S1x64.size a ≤ S1000000x64.size a)
instance k0_chk40.dec : ∀ (k0_t1 : Fin k0_t1_loop.trips) (v182 : BitVec 32), Decidable (k0_chk40 k0_t1 v182) := fun k0_t1 v182 => decidable_of_iff' _ (Iff.of_eq (k0_chk40.eq_1 k0_t1 v182))
theorem k0_off91_inb : ∀ (k0_t1 : Fin k0_t1_loop.trips) (v182 : BitVec 32) (k0_hw40 : k0_chk40 k0_t1 v182), ∀ (k0_h7 : k0_cond7 k0_t1 = 1#1), ∀ a, (k0_off91 v182) a + S1x64.size a ≤ S1000000x64.size a := fun k0_t1 v182 k0_hw40 k0_h7 => k0_hw40 k0_h7

def k0_off92 (k0_t6 : Fin k0_t6_loop.trips) (c7_i32 : BitVec 32) : Fin 3 → Nat :=
  let c2_i32_136 : BitVec 32 := 2#32
  let c0_i32_85 : BitVec 32 := 0#32
  let c1_i32_86 : BitVec 32 := 1#32
  let arg16 : BitVec 32 := Scf.iv c0_i32_85 c1_i32_86 k0_t6
  let c16_i32_135 : BitVec 32 := 16#32
  let v183 : BitVec 32 := Scalar.muli arg16 c16_i32_135
  let v184 : BitVec 32 := Scalar.addi v183 c7_i32
  let c0_i32_139 : BitVec 32 := 0#32
  ![2, v184.toNat, 0]
def k0_off93 (v194 : BitVec 32) : Fin 2 → Nat :=
  let c0_i32_144 : BitVec 32 := 0#32
  ![v194.toNat, 0]

def k0_chk41 (k0_t1 : Fin k0_t1_loop.trips) (v194 : BitVec 32) : Prop :=
  (∀ (k0_h7 : k0_cond7 k0_t1 = 1#1), ∀ a, (k0_off93 v194) a + S1x64.size a ≤ S1000000x64.size a)
instance k0_chk41.dec : ∀ (k0_t1 : Fin k0_t1_loop.trips) (v194 : BitVec 32), Decidable (k0_chk41 k0_t1 v194) := fun k0_t1 v194 => decidable_of_iff' _ (Iff.of_eq (k0_chk41.eq_1 k0_t1 v194))
theorem k0_off93_inb : ∀ (k0_t1 : Fin k0_t1_loop.trips) (v194 : BitVec 32) (k0_hw41 : k0_chk41 k0_t1 v194), ∀ (k0_h7 : k0_cond7 k0_t1 = 1#1), ∀ a, (k0_off93 v194) a + S1x64.size a ≤ S1000000x64.size a := fun k0_t1 v194 k0_hw41 k0_h7 => k0_hw41 k0_h7

def k0_off94 (k0_t6 : Fin k0_t6_loop.trips) (c8_i32 : BitVec 32) : Fin 3 → Nat :=
  let c2_i32_142 : BitVec 32 := 2#32
  let c0_i32_85 : BitVec 32 := 0#32
  let c1_i32_86 : BitVec 32 := 1#32
  let arg16 : BitVec 32 := Scf.iv c0_i32_85 c1_i32_86 k0_t6
  let c16_i32_141 : BitVec 32 := 16#32
  let v195 : BitVec 32 := Scalar.muli arg16 c16_i32_141
  let v196 : BitVec 32 := Scalar.addi v195 c8_i32
  let c0_i32_145 : BitVec 32 := 0#32
  ![2, v196.toNat, 0]
def k0_off95 (v206 : BitVec 32) : Fin 2 → Nat :=
  let c0_i32_150 : BitVec 32 := 0#32
  ![v206.toNat, 0]

def k0_chk42 (k0_t1 : Fin k0_t1_loop.trips) (v206 : BitVec 32) : Prop :=
  (∀ (k0_h7 : k0_cond7 k0_t1 = 1#1), ∀ a, (k0_off95 v206) a + S1x64.size a ≤ S1000000x64.size a)
instance k0_chk42.dec : ∀ (k0_t1 : Fin k0_t1_loop.trips) (v206 : BitVec 32), Decidable (k0_chk42 k0_t1 v206) := fun k0_t1 v206 => decidable_of_iff' _ (Iff.of_eq (k0_chk42.eq_1 k0_t1 v206))
theorem k0_off95_inb : ∀ (k0_t1 : Fin k0_t1_loop.trips) (v206 : BitVec 32) (k0_hw42 : k0_chk42 k0_t1 v206), ∀ (k0_h7 : k0_cond7 k0_t1 = 1#1), ∀ a, (k0_off95 v206) a + S1x64.size a ≤ S1000000x64.size a := fun k0_t1 v206 k0_hw42 k0_h7 => k0_hw42 k0_h7

def k0_off96 (k0_t6 : Fin k0_t6_loop.trips) (c9_i32 : BitVec 32) : Fin 3 → Nat :=
  let c2_i32_148 : BitVec 32 := 2#32
  let c0_i32_85 : BitVec 32 := 0#32
  let c1_i32_86 : BitVec 32 := 1#32
  let arg16 : BitVec 32 := Scf.iv c0_i32_85 c1_i32_86 k0_t6
  let c16_i32_147 : BitVec 32 := 16#32
  let v207 : BitVec 32 := Scalar.muli arg16 c16_i32_147
  let v208 : BitVec 32 := Scalar.addi v207 c9_i32
  let c0_i32_151 : BitVec 32 := 0#32
  ![2, v208.toNat, 0]
def k0_off97 (v218 : BitVec 32) : Fin 2 → Nat :=
  let c0_i32_157 : BitVec 32 := 0#32
  ![v218.toNat, 0]

def k0_chk43 (k0_t1 : Fin k0_t1_loop.trips) (v218 : BitVec 32) : Prop :=
  (∀ (k0_h7 : k0_cond7 k0_t1 = 1#1), ∀ a, (k0_off97 v218) a + S1x64.size a ≤ S1000000x64.size a)
instance k0_chk43.dec : ∀ (k0_t1 : Fin k0_t1_loop.trips) (v218 : BitVec 32), Decidable (k0_chk43 k0_t1 v218) := fun k0_t1 v218 => decidable_of_iff' _ (Iff.of_eq (k0_chk43.eq_1 k0_t1 v218))
theorem k0_off97_inb : ∀ (k0_t1 : Fin k0_t1_loop.trips) (v218 : BitVec 32) (k0_hw43 : k0_chk43 k0_t1 v218), ∀ (k0_h7 : k0_cond7 k0_t1 = 1#1), ∀ a, (k0_off97 v218) a + S1x64.size a ≤ S1000000x64.size a := fun k0_t1 v218 k0_hw43 k0_h7 => k0_hw43 k0_h7

def k0_off98 (k0_t6 : Fin k0_t6_loop.trips) (c10_i32_154 : BitVec 32) : Fin 3 → Nat :=
  let c2_i32_155 : BitVec 32 := 2#32
  let c0_i32_85 : BitVec 32 := 0#32
  let c1_i32_86 : BitVec 32 := 1#32
  let arg16 : BitVec 32 := Scf.iv c0_i32_85 c1_i32_86 k0_t6
  let c16_i32_153 : BitVec 32 := 16#32
  let v219 : BitVec 32 := Scalar.muli arg16 c16_i32_153
  let v220 : BitVec 32 := Scalar.addi v219 c10_i32_154
  let c0_i32_158 : BitVec 32 := 0#32
  ![2, v220.toNat, 0]
def k0_off99 (v230 : BitVec 32) : Fin 2 → Nat :=
  let c0_i32_163 : BitVec 32 := 0#32
  ![v230.toNat, 0]

def k0_chk44 (k0_t1 : Fin k0_t1_loop.trips) (v230 : BitVec 32) : Prop :=
  (∀ (k0_h7 : k0_cond7 k0_t1 = 1#1), ∀ a, (k0_off99 v230) a + S1x64.size a ≤ S1000000x64.size a)
instance k0_chk44.dec : ∀ (k0_t1 : Fin k0_t1_loop.trips) (v230 : BitVec 32), Decidable (k0_chk44 k0_t1 v230) := fun k0_t1 v230 => decidable_of_iff' _ (Iff.of_eq (k0_chk44.eq_1 k0_t1 v230))
theorem k0_off99_inb : ∀ (k0_t1 : Fin k0_t1_loop.trips) (v230 : BitVec 32) (k0_hw44 : k0_chk44 k0_t1 v230), ∀ (k0_h7 : k0_cond7 k0_t1 = 1#1), ∀ a, (k0_off99 v230) a + S1x64.size a ≤ S1000000x64.size a := fun k0_t1 v230 k0_hw44 k0_h7 => k0_hw44 k0_h7

def k0_off100 (k0_t6 : Fin k0_t6_loop.trips) (c11_i32 : BitVec 32) : Fin 3 → Nat :=
  let c2_i32_161 : BitVec 32 := 2#32
  let c0_i32_85 : BitVec 32 := 0#32
  let c1_i32_86 : BitVec 32 := 1#32
  let arg16 : BitVec 32 := Scf.iv c0_i32_85 c1_i32_86 k0_t6
  let c16_i32_160 : BitVec 32 := 16#32
  let v231 : BitVec 32 := Scalar.muli arg16 c16_i32_160
  let v232 : BitVec 32 := Scalar.addi v231 c11_i32
  let c0_i32_164 : BitVec 32 := 0#32
  ![2, v232.toNat, 0]
def k0_off101 (v242 : BitVec 32) : Fin 2 → Nat :=
  let c0_i32_169 : BitVec 32 := 0#32
  ![v242.toNat, 0]

def k0_chk45 (k0_t1 : Fin k0_t1_loop.trips) (v242 : BitVec 32) : Prop :=
  (∀ (k0_h7 : k0_cond7 k0_t1 = 1#1), ∀ a, (k0_off101 v242) a + S1x64.size a ≤ S1000000x64.size a)
instance k0_chk45.dec : ∀ (k0_t1 : Fin k0_t1_loop.trips) (v242 : BitVec 32), Decidable (k0_chk45 k0_t1 v242) := fun k0_t1 v242 => decidable_of_iff' _ (Iff.of_eq (k0_chk45.eq_1 k0_t1 v242))
theorem k0_off101_inb : ∀ (k0_t1 : Fin k0_t1_loop.trips) (v242 : BitVec 32) (k0_hw45 : k0_chk45 k0_t1 v242), ∀ (k0_h7 : k0_cond7 k0_t1 = 1#1), ∀ a, (k0_off101 v242) a + S1x64.size a ≤ S1000000x64.size a := fun k0_t1 v242 k0_hw45 k0_h7 => k0_hw45 k0_h7

def k0_off102 (k0_t6 : Fin k0_t6_loop.trips) (c12_i32 : BitVec 32) : Fin 3 → Nat :=
  let c2_i32_167 : BitVec 32 := 2#32
  let c0_i32_85 : BitVec 32 := 0#32
  let c1_i32_86 : BitVec 32 := 1#32
  let arg16 : BitVec 32 := Scf.iv c0_i32_85 c1_i32_86 k0_t6
  let c16_i32_166 : BitVec 32 := 16#32
  let v243 : BitVec 32 := Scalar.muli arg16 c16_i32_166
  let v244 : BitVec 32 := Scalar.addi v243 c12_i32
  let c0_i32_170 : BitVec 32 := 0#32
  ![2, v244.toNat, 0]
def k0_off103 (v254 : BitVec 32) : Fin 2 → Nat :=
  let c0_i32_175 : BitVec 32 := 0#32
  ![v254.toNat, 0]

def k0_chk46 (k0_t1 : Fin k0_t1_loop.trips) (v254 : BitVec 32) : Prop :=
  (∀ (k0_h7 : k0_cond7 k0_t1 = 1#1), ∀ a, (k0_off103 v254) a + S1x64.size a ≤ S1000000x64.size a)
instance k0_chk46.dec : ∀ (k0_t1 : Fin k0_t1_loop.trips) (v254 : BitVec 32), Decidable (k0_chk46 k0_t1 v254) := fun k0_t1 v254 => decidable_of_iff' _ (Iff.of_eq (k0_chk46.eq_1 k0_t1 v254))
theorem k0_off103_inb : ∀ (k0_t1 : Fin k0_t1_loop.trips) (v254 : BitVec 32) (k0_hw46 : k0_chk46 k0_t1 v254), ∀ (k0_h7 : k0_cond7 k0_t1 = 1#1), ∀ a, (k0_off103 v254) a + S1x64.size a ≤ S1000000x64.size a := fun k0_t1 v254 k0_hw46 k0_h7 => k0_hw46 k0_h7

def k0_off104 (k0_t6 : Fin k0_t6_loop.trips) (c13_i32 : BitVec 32) : Fin 3 → Nat :=
  let c2_i32_173 : BitVec 32 := 2#32
  let c0_i32_85 : BitVec 32 := 0#32
  let c1_i32_86 : BitVec 32 := 1#32
  let arg16 : BitVec 32 := Scf.iv c0_i32_85 c1_i32_86 k0_t6
  let c16_i32_172 : BitVec 32 := 16#32
  let v255 : BitVec 32 := Scalar.muli arg16 c16_i32_172
  let v256 : BitVec 32 := Scalar.addi v255 c13_i32
  let c0_i32_176 : BitVec 32 := 0#32
  ![2, v256.toNat, 0]
def k0_off105 (v266 : BitVec 32) : Fin 2 → Nat :=
  let c0_i32_181 : BitVec 32 := 0#32
  ![v266.toNat, 0]

def k0_chk47 (k0_t1 : Fin k0_t1_loop.trips) (v266 : BitVec 32) : Prop :=
  (∀ (k0_h7 : k0_cond7 k0_t1 = 1#1), ∀ a, (k0_off105 v266) a + S1x64.size a ≤ S1000000x64.size a)
instance k0_chk47.dec : ∀ (k0_t1 : Fin k0_t1_loop.trips) (v266 : BitVec 32), Decidable (k0_chk47 k0_t1 v266) := fun k0_t1 v266 => decidable_of_iff' _ (Iff.of_eq (k0_chk47.eq_1 k0_t1 v266))
theorem k0_off105_inb : ∀ (k0_t1 : Fin k0_t1_loop.trips) (v266 : BitVec 32) (k0_hw47 : k0_chk47 k0_t1 v266), ∀ (k0_h7 : k0_cond7 k0_t1 = 1#1), ∀ a, (k0_off105 v266) a + S1x64.size a ≤ S1000000x64.size a := fun k0_t1 v266 k0_hw47 k0_h7 => k0_hw47 k0_h7

def k0_off106 (k0_t6 : Fin k0_t6_loop.trips) (c14_i32 : BitVec 32) : Fin 3 → Nat :=
  let c2_i32_179 : BitVec 32 := 2#32
  let c0_i32_85 : BitVec 32 := 0#32
  let c1_i32_86 : BitVec 32 := 1#32
  let arg16 : BitVec 32 := Scf.iv c0_i32_85 c1_i32_86 k0_t6
  let c16_i32_178 : BitVec 32 := 16#32
  let v267 : BitVec 32 := Scalar.muli arg16 c16_i32_178
  let v268 : BitVec 32 := Scalar.addi v267 c14_i32
  let c0_i32_182 : BitVec 32 := 0#32
  ![2, v268.toNat, 0]
def k0_off107 (v278 : BitVec 32) : Fin 2 → Nat :=
  let c0_i32_187 : BitVec 32 := 0#32
  ![v278.toNat, 0]

def k0_chk48 (k0_t1 : Fin k0_t1_loop.trips) (v278 : BitVec 32) : Prop :=
  (∀ (k0_h7 : k0_cond7 k0_t1 = 1#1), ∀ a, (k0_off107 v278) a + S1x64.size a ≤ S1000000x64.size a)
instance k0_chk48.dec : ∀ (k0_t1 : Fin k0_t1_loop.trips) (v278 : BitVec 32), Decidable (k0_chk48 k0_t1 v278) := fun k0_t1 v278 => decidable_of_iff' _ (Iff.of_eq (k0_chk48.eq_1 k0_t1 v278))
theorem k0_off107_inb : ∀ (k0_t1 : Fin k0_t1_loop.trips) (v278 : BitVec 32) (k0_hw48 : k0_chk48 k0_t1 v278), ∀ (k0_h7 : k0_cond7 k0_t1 = 1#1), ∀ a, (k0_off107 v278) a + S1x64.size a ≤ S1000000x64.size a := fun k0_t1 v278 k0_hw48 k0_h7 => k0_hw48 k0_h7

def k0_off108 (k0_t6 : Fin k0_t6_loop.trips) : Fin 3 → Nat :=
  let c2_i32_185 : BitVec 32 := 2#32
  let c0_i32_85 : BitVec 32 := 0#32
  let c1_i32_86 : BitVec 32 := 1#32
  let arg16 : BitVec 32 := Scf.iv c0_i32_85 c1_i32_86 k0_t6
  let c16_i32_184 : BitVec 32 := 16#32
  let v279 : BitVec 32 := Scalar.muli arg16 c16_i32_184
  let c15_i32 : BitVec 32 := 15#32
  let v280 : BitVec 32 := Scalar.addi v279 c15_i32
  let c0_i32_188 : BitVec 32 := 0#32
  ![2, v280.toNat, 0]
def k0_cond9 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_66 : BitVec 32 := 4#32
  let v65 : BitVec 32 := Scalar.muli arg15 c4_i32_66
  let c2_i32_67 : BitVec 32 := 2#32
  let v66 : BitVec 32 := Scalar.addi v65 c2_i32_67
  let c2_i32_68 : BitVec 32 := 2#32
  let v67 : BitVec 32 := Scalar.subi v66 c2_i32_68
  let c0_i32_71 : BitVec 32 := 0#32
  let v71 : BitVec 1 := Scalar.cmpi .sge v67 c0_i32_71
  let c64_i32_72 : BitVec 32 := 64#32
  let v72 : BitVec 1 := Scalar.cmpi .slt v67 c64_i32_72
  let v73 : BitVec 1 := Scalar.andi v71 v72
  let v74 : BitVec 32 := Scalar.extui v73
  let c0_i32_73 : BitVec 32 := 0#32
  let v75 : BitVec 1 := Scalar.cmpi .ne v74 c0_i32_73
  v75

@[reducible] def k0_t7_loop : Scf.Loop 32 :=
  let c0_i32_83 : BitVec 32 := 0#32
  let c10_i32 : BitVec 32 := 10#32
  let v87 : BitVec 32 := Scalar.addi c0_i32_83 c10_i32
  let c1_i32_84 : BitVec 32 := 1#32
  ⟨c0_i32_83, v87, c1_i32_84⟩
def k0_off109 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_86 : BitVec 32 := 512#32
  let v88 : BitVec 32 := Scalar.muli v1 c512_i32_86
  let c0_i32_0 : BitVec 32 := 0#32
  let c1_i32 : BitVec 32 := 1#32
  let arg15 : BitVec 32 := Scf.iv c0_i32_0 c1_i32 k0_t1
  let c4_i32_66 : BitVec 32 := 4#32
  let v65 : BitVec 32 := Scalar.muli arg15 c4_i32_66
  let c2_i32_67 : BitVec 32 := 2#32
  let v66 : BitVec 32 := Scalar.addi v65 c2_i32_67
  let c2_i32_68 : BitVec 32 := 2#32
  let v67 : BitVec 32 := Scalar.subi v66 c2_i32_68
  let c8_i32 : BitVec 32 := 8#32
  let v89 : BitVec 32 := Scalar.muli v67 c8_i32
  let v90 : BitVec 32 := Scalar.addi v88 v89
  let c0_i32_91 : BitVec 32 := 0#32
  let c0_i32_92 : BitVec 32 := 0#32
  ![v90.toNat, 0, 0]
def k0_cond10 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_74 : BitVec 32 := 4#32
  let v76 : BitVec 32 := Scalar.muli arg15 c4_i32_74
  let c3_i32_75 : BitVec 32 := 3#32
  let v77 : BitVec 32 := Scalar.addi v76 c3_i32_75
  let c64_i32_77 : BitVec 32 := 64#32
  let v79 : BitVec 1 := Scalar.cmpi .slt v77 c64_i32_77
  let v80 : BitVec 32 := Scalar.extui v79
  let c0_i32_78 : BitVec 32 := 0#32
  let v81 : BitVec 1 := Scalar.cmpi .ne v80 c0_i32_78
  v81

def k0_cond11 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_74 : BitVec 32 := 4#32
  let v76 : BitVec 32 := Scalar.muli arg15 c4_i32_74
  let c3_i32_75 : BitVec 32 := 3#32
  let v77 : BitVec 32 := Scalar.addi v76 c3_i32_75
  let c4_i32_82 : BitVec 32 := 4#32
  let v87 : BitVec 1 := Scalar.cmpi .sge v77 c4_i32_82
  let v88 : BitVec 32 := Scalar.extui v87
  let c0_i32_83 : BitVec 32 := 0#32
  let v89 : BitVec 1 := Scalar.cmpi .ne v88 c0_i32_83
  v89

def k0_off110 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_89 : BitVec 32 := 512#32
  let v92 : BitVec 32 := Scalar.muli v1 c512_i32_89
  let c0_i32_0 : BitVec 32 := 0#32
  let c1_i32 : BitVec 32 := 1#32
  let arg15 : BitVec 32 := Scf.iv c0_i32_0 c1_i32 k0_t1
  let c4_i32_74 : BitVec 32 := 4#32
  let v76 : BitVec 32 := Scalar.muli arg15 c4_i32_74
  let c3_i32_75 : BitVec 32 := 3#32
  let v77 : BitVec 32 := Scalar.addi v76 c3_i32_75
  let c4_i32_88 : BitVec 32 := 4#32
  let v91 : BitVec 32 := Scalar.subi v77 c4_i32_88
  let c8_i32 : BitVec 32 := 8#32
  let v93 : BitVec 32 := Scalar.muli v91 c8_i32
  let v94 : BitVec 32 := Scalar.addi v92 v93
  let c0_i32_94 : BitVec 32 := 0#32
  let c0_i32_95 : BitVec 32 := 0#32
  ![v94.toNat, 0, 0]
@[reducible] def k0_t8_loop : Scf.Loop 32 :=
  let c0_i32_85 : BitVec 32 := 0#32
  let c10_i32 : BitVec 32 := 10#32
  let v90 : BitVec 32 := Scalar.addi c0_i32_85 c10_i32
  let c1_i32_86 : BitVec 32 := 1#32
  ⟨c0_i32_85, v90, c1_i32_86⟩
def k0_off111 (k0_t1 : Fin k0_t1_loop.trips) (k0_t8 : Fin k0_t8_loop.trips) : Fin 1 → Nat :=
  let c0_i32_0 : BitVec 32 := 0#32
  let c1_i32 : BitVec 32 := 1#32
  let arg15 : BitVec 32 := Scf.iv c0_i32_0 c1_i32 k0_t1
  let c4_i32_74 : BitVec 32 := 4#32
  let v76 : BitVec 32 := Scalar.muli arg15 c4_i32_74
  let c3_i32_75 : BitVec 32 := 3#32
  let v77 : BitVec 32 := Scalar.addi v76 c3_i32_75
  let c160_i32 : BitVec 32 := 160#32
  let v91 : BitVec 32 := Scalar.muli v77 c160_i32
  let c0_i32_85 : BitVec 32 := 0#32
  let c1_i32_86 : BitVec 32 := 1#32
  let arg16 : BitVec 32 := Scf.iv c0_i32_85 c1_i32_86 k0_t8
  let c16_i32 : BitVec 32 := 16#32
  let v92 : BitVec 32 := Scalar.muli arg16 c16_i32
  let v93 : BitVec 32 := Scalar.addi v91 v92
  let v94 : Index := Scalar.indexCast v93
  ![v94.toNat]
def k0_off112 (k0_t8 : Fin k0_t8_loop.trips) : Fin 3 → Nat :=
  let c3_i32_90 : BitVec 32 := 3#32
  let c0_i32_85 : BitVec 32 := 0#32
  let c1_i32_86 : BitVec 32 := 1#32
  let arg16 : BitVec 32 := Scf.iv c0_i32_85 c1_i32_86 k0_t8
  let c16_i32_88 : BitVec 32 := 16#32
  let v99 : BitVec 32 := Scalar.muli arg16 c16_i32_88
  let c0_i32_89 : BitVec 32 := 0#32
  let v100 : BitVec 32 := Scalar.addi v99 c0_i32_89
  let c0_i32_91 : BitVec 32 := 0#32
  ![3, v100.toNat, 0]
def k0_off113 (v98 : BitVec 32) : Fin 2 → Nat :=
  let c0_i32_92 : BitVec 32 := 0#32
  ![v98.toNat, 0]

def k0_chk49 (k0_t1 : Fin k0_t1_loop.trips) (v98 : BitVec 32) : Prop :=
  (∀ (k0_h10 : k0_cond10 k0_t1 = 1#1), ∀ a, (k0_off113 v98) a + S1x64.size a ≤ S1000000x64.size a)
instance k0_chk49.dec : ∀ (k0_t1 : Fin k0_t1_loop.trips) (v98 : BitVec 32), Decidable (k0_chk49 k0_t1 v98) := fun k0_t1 v98 => decidable_of_iff' _ (Iff.of_eq (k0_chk49.eq_1 k0_t1 v98))
theorem k0_off113_inb : ∀ (k0_t1 : Fin k0_t1_loop.trips) (v98 : BitVec 32) (k0_hw49 : k0_chk49 k0_t1 v98), ∀ (k0_h10 : k0_cond10 k0_t1 = 1#1), ∀ a, (k0_off113 v98) a + S1x64.size a ≤ S1000000x64.size a := fun k0_t1 v98 k0_hw49 k0_h10 => k0_hw49 k0_h10

def k0_off114 (k0_t8 : Fin k0_t8_loop.trips) (c0_i32_89 : BitVec 32) : Fin 3 → Nat :=
  let c3_i32_90 : BitVec 32 := 3#32
  let c0_i32_85 : BitVec 32 := 0#32
  let c1_i32_86 : BitVec 32 := 1#32
  let arg16 : BitVec 32 := Scf.iv c0_i32_85 c1_i32_86 k0_t8
  let c16_i32_88 : BitVec 32 := 16#32
  let v99 : BitVec 32 := Scalar.muli arg16 c16_i32_88
  let v100 : BitVec 32 := Scalar.addi v99 c0_i32_89
  let c0_i32_93 : BitVec 32 := 0#32
  ![3, v100.toNat, 0]
def k0_off115 (v110 : BitVec 32) : Fin 2 → Nat :=
  let c0_i32_99 : BitVec 32 := 0#32
  ![v110.toNat, 0]

def k0_chk50 (k0_t1 : Fin k0_t1_loop.trips) (v110 : BitVec 32) : Prop :=
  (∀ (k0_h10 : k0_cond10 k0_t1 = 1#1), ∀ a, (k0_off115 v110) a + S1x64.size a ≤ S1000000x64.size a)
instance k0_chk50.dec : ∀ (k0_t1 : Fin k0_t1_loop.trips) (v110 : BitVec 32), Decidable (k0_chk50 k0_t1 v110) := fun k0_t1 v110 => decidable_of_iff' _ (Iff.of_eq (k0_chk50.eq_1 k0_t1 v110))
theorem k0_off115_inb : ∀ (k0_t1 : Fin k0_t1_loop.trips) (v110 : BitVec 32) (k0_hw50 : k0_chk50 k0_t1 v110), ∀ (k0_h10 : k0_cond10 k0_t1 = 1#1), ∀ a, (k0_off115 v110) a + S1x64.size a ≤ S1000000x64.size a := fun k0_t1 v110 k0_hw50 k0_h10 => k0_hw50 k0_h10

def k0_off116 (k0_t8 : Fin k0_t8_loop.trips) (c1_i32_96 : BitVec 32) : Fin 3 → Nat :=
  let c3_i32_97 : BitVec 32 := 3#32
  let c0_i32_85 : BitVec 32 := 0#32
  let c1_i32_86 : BitVec 32 := 1#32
  let arg16 : BitVec 32 := Scf.iv c0_i32_85 c1_i32_86 k0_t8
  let c16_i32_95 : BitVec 32 := 16#32
  let v111 : BitVec 32 := Scalar.muli arg16 c16_i32_95
  let v112 : BitVec 32 := Scalar.addi v111 c1_i32_96
  let c0_i32_100 : BitVec 32 := 0#32
  ![3, v112.toNat, 0]
def k0_off117 (v122 : BitVec 32) : Fin 2 → Nat :=
  let c0_i32_106 : BitVec 32 := 0#32
  ![v122.toNat, 0]

def k0_chk51 (k0_t1 : Fin k0_t1_loop.trips) (v122 : BitVec 32) : Prop :=
  (∀ (k0_h10 : k0_cond10 k0_t1 = 1#1), ∀ a, (k0_off117 v122) a + S1x64.size a ≤ S1000000x64.size a)
instance k0_chk51.dec : ∀ (k0_t1 : Fin k0_t1_loop.trips) (v122 : BitVec 32), Decidable (k0_chk51 k0_t1 v122) := fun k0_t1 v122 => decidable_of_iff' _ (Iff.of_eq (k0_chk51.eq_1 k0_t1 v122))
theorem k0_off117_inb : ∀ (k0_t1 : Fin k0_t1_loop.trips) (v122 : BitVec 32) (k0_hw51 : k0_chk51 k0_t1 v122), ∀ (k0_h10 : k0_cond10 k0_t1 = 1#1), ∀ a, (k0_off117 v122) a + S1x64.size a ≤ S1000000x64.size a := fun k0_t1 v122 k0_hw51 k0_h10 => k0_hw51 k0_h10

def k0_off118 (k0_t8 : Fin k0_t8_loop.trips) (c2_i32_103 : BitVec 32) : Fin 3 → Nat :=
  let c3_i32_104 : BitVec 32 := 3#32
  let c0_i32_85 : BitVec 32 := 0#32
  let c1_i32_86 : BitVec 32 := 1#32
  let arg16 : BitVec 32 := Scf.iv c0_i32_85 c1_i32_86 k0_t8
  let c16_i32_102 : BitVec 32 := 16#32
  let v123 : BitVec 32 := Scalar.muli arg16 c16_i32_102
  let v124 : BitVec 32 := Scalar.addi v123 c2_i32_103
  let c0_i32_107 : BitVec 32 := 0#32
  ![3, v124.toNat, 0]
def k0_off119 (v134 : BitVec 32) : Fin 2 → Nat :=
  let c0_i32_113 : BitVec 32 := 0#32
  ![v134.toNat, 0]

def k0_chk52 (k0_t1 : Fin k0_t1_loop.trips) (v134 : BitVec 32) : Prop :=
  (∀ (k0_h10 : k0_cond10 k0_t1 = 1#1), ∀ a, (k0_off119 v134) a + S1x64.size a ≤ S1000000x64.size a)
instance k0_chk52.dec : ∀ (k0_t1 : Fin k0_t1_loop.trips) (v134 : BitVec 32), Decidable (k0_chk52 k0_t1 v134) := fun k0_t1 v134 => decidable_of_iff' _ (Iff.of_eq (k0_chk52.eq_1 k0_t1 v134))
theorem k0_off119_inb : ∀ (k0_t1 : Fin k0_t1_loop.trips) (v134 : BitVec 32) (k0_hw52 : k0_chk52 k0_t1 v134), ∀ (k0_h10 : k0_cond10 k0_t1 = 1#1), ∀ a, (k0_off119 v134) a + S1x64.size a ≤ S1000000x64.size a := fun k0_t1 v134 k0_hw52 k0_h10 => k0_hw52 k0_h10

def k0_off120 (k0_t8 : Fin k0_t8_loop.trips) (c3_i32_110 : BitVec 32) : Fin 3 → Nat :=
  let c3_i32_111 : BitVec 32 := 3#32
  let c0_i32_85 : BitVec 32 := 0#32
  let c1_i32_86 : BitVec 32 := 1#32
  let arg16 : BitVec 32 := Scf.iv c0_i32_85 c1_i32_86 k0_t8
  let c16_i32_109 : BitVec 32 := 16#32
  let v135 : BitVec 32 := Scalar.muli arg16 c16_i32_109
  let v136 : BitVec 32 := Scalar.addi v135 c3_i32_110
  let c0_i32_114 : BitVec 32 := 0#32
  ![3, v136.toNat, 0]
def k0_off121 (v146 : BitVec 32) : Fin 2 → Nat :=
  let c0_i32_120 : BitVec 32 := 0#32
  ![v146.toNat, 0]

def k0_chk53 (k0_t1 : Fin k0_t1_loop.trips) (v146 : BitVec 32) : Prop :=
  (∀ (k0_h10 : k0_cond10 k0_t1 = 1#1), ∀ a, (k0_off121 v146) a + S1x64.size a ≤ S1000000x64.size a)
instance k0_chk53.dec : ∀ (k0_t1 : Fin k0_t1_loop.trips) (v146 : BitVec 32), Decidable (k0_chk53 k0_t1 v146) := fun k0_t1 v146 => decidable_of_iff' _ (Iff.of_eq (k0_chk53.eq_1 k0_t1 v146))
theorem k0_off121_inb : ∀ (k0_t1 : Fin k0_t1_loop.trips) (v146 : BitVec 32) (k0_hw53 : k0_chk53 k0_t1 v146), ∀ (k0_h10 : k0_cond10 k0_t1 = 1#1), ∀ a, (k0_off121 v146) a + S1x64.size a ≤ S1000000x64.size a := fun k0_t1 v146 k0_hw53 k0_h10 => k0_hw53 k0_h10

def k0_off122 (k0_t8 : Fin k0_t8_loop.trips) (c4_i32_117 : BitVec 32) : Fin 3 → Nat :=
  let c3_i32_118 : BitVec 32 := 3#32
  let c0_i32_85 : BitVec 32 := 0#32
  let c1_i32_86 : BitVec 32 := 1#32
  let arg16 : BitVec 32 := Scf.iv c0_i32_85 c1_i32_86 k0_t8
  let c16_i32_116 : BitVec 32 := 16#32
  let v147 : BitVec 32 := Scalar.muli arg16 c16_i32_116
  let v148 : BitVec 32 := Scalar.addi v147 c4_i32_117
  let c0_i32_121 : BitVec 32 := 0#32
  ![3, v148.toNat, 0]
def k0_off123 (v158 : BitVec 32) : Fin 2 → Nat :=
  let c0_i32_126 : BitVec 32 := 0#32
  ![v158.toNat, 0]

def k0_chk54 (k0_t1 : Fin k0_t1_loop.trips) (v158 : BitVec 32) : Prop :=
  (∀ (k0_h10 : k0_cond10 k0_t1 = 1#1), ∀ a, (k0_off123 v158) a + S1x64.size a ≤ S1000000x64.size a)
instance k0_chk54.dec : ∀ (k0_t1 : Fin k0_t1_loop.trips) (v158 : BitVec 32), Decidable (k0_chk54 k0_t1 v158) := fun k0_t1 v158 => decidable_of_iff' _ (Iff.of_eq (k0_chk54.eq_1 k0_t1 v158))
theorem k0_off123_inb : ∀ (k0_t1 : Fin k0_t1_loop.trips) (v158 : BitVec 32) (k0_hw54 : k0_chk54 k0_t1 v158), ∀ (k0_h10 : k0_cond10 k0_t1 = 1#1), ∀ a, (k0_off123 v158) a + S1x64.size a ≤ S1000000x64.size a := fun k0_t1 v158 k0_hw54 k0_h10 => k0_hw54 k0_h10

def k0_off124 (k0_t8 : Fin k0_t8_loop.trips) (c5_i32 : BitVec 32) : Fin 3 → Nat :=
  let c3_i32_124 : BitVec 32 := 3#32
  let c0_i32_85 : BitVec 32 := 0#32
  let c1_i32_86 : BitVec 32 := 1#32
  let arg16 : BitVec 32 := Scf.iv c0_i32_85 c1_i32_86 k0_t8
  let c16_i32_123 : BitVec 32 := 16#32
  let v159 : BitVec 32 := Scalar.muli arg16 c16_i32_123
  let v160 : BitVec 32 := Scalar.addi v159 c5_i32
  let c0_i32_127 : BitVec 32 := 0#32
  ![3, v160.toNat, 0]
def k0_off125 (v170 : BitVec 32) : Fin 2 → Nat :=
  let c0_i32_132 : BitVec 32 := 0#32
  ![v170.toNat, 0]

def k0_chk55 (k0_t1 : Fin k0_t1_loop.trips) (v170 : BitVec 32) : Prop :=
  (∀ (k0_h10 : k0_cond10 k0_t1 = 1#1), ∀ a, (k0_off125 v170) a + S1x64.size a ≤ S1000000x64.size a)
instance k0_chk55.dec : ∀ (k0_t1 : Fin k0_t1_loop.trips) (v170 : BitVec 32), Decidable (k0_chk55 k0_t1 v170) := fun k0_t1 v170 => decidable_of_iff' _ (Iff.of_eq (k0_chk55.eq_1 k0_t1 v170))
theorem k0_off125_inb : ∀ (k0_t1 : Fin k0_t1_loop.trips) (v170 : BitVec 32) (k0_hw55 : k0_chk55 k0_t1 v170), ∀ (k0_h10 : k0_cond10 k0_t1 = 1#1), ∀ a, (k0_off125 v170) a + S1x64.size a ≤ S1000000x64.size a := fun k0_t1 v170 k0_hw55 k0_h10 => k0_hw55 k0_h10

def k0_off126 (k0_t8 : Fin k0_t8_loop.trips) (c6_i32 : BitVec 32) : Fin 3 → Nat :=
  let c3_i32_130 : BitVec 32 := 3#32
  let c0_i32_85 : BitVec 32 := 0#32
  let c1_i32_86 : BitVec 32 := 1#32
  let arg16 : BitVec 32 := Scf.iv c0_i32_85 c1_i32_86 k0_t8
  let c16_i32_129 : BitVec 32 := 16#32
  let v171 : BitVec 32 := Scalar.muli arg16 c16_i32_129
  let v172 : BitVec 32 := Scalar.addi v171 c6_i32
  let c0_i32_133 : BitVec 32 := 0#32
  ![3, v172.toNat, 0]
def k0_off127 (v182 : BitVec 32) : Fin 2 → Nat :=
  let c0_i32_138 : BitVec 32 := 0#32
  ![v182.toNat, 0]

def k0_chk56 (k0_t1 : Fin k0_t1_loop.trips) (v182 : BitVec 32) : Prop :=
  (∀ (k0_h10 : k0_cond10 k0_t1 = 1#1), ∀ a, (k0_off127 v182) a + S1x64.size a ≤ S1000000x64.size a)
instance k0_chk56.dec : ∀ (k0_t1 : Fin k0_t1_loop.trips) (v182 : BitVec 32), Decidable (k0_chk56 k0_t1 v182) := fun k0_t1 v182 => decidable_of_iff' _ (Iff.of_eq (k0_chk56.eq_1 k0_t1 v182))
theorem k0_off127_inb : ∀ (k0_t1 : Fin k0_t1_loop.trips) (v182 : BitVec 32) (k0_hw56 : k0_chk56 k0_t1 v182), ∀ (k0_h10 : k0_cond10 k0_t1 = 1#1), ∀ a, (k0_off127 v182) a + S1x64.size a ≤ S1000000x64.size a := fun k0_t1 v182 k0_hw56 k0_h10 => k0_hw56 k0_h10

def k0_off128 (k0_t8 : Fin k0_t8_loop.trips) (c7_i32 : BitVec 32) : Fin 3 → Nat :=
  let c3_i32_136 : BitVec 32 := 3#32
  let c0_i32_85 : BitVec 32 := 0#32
  let c1_i32_86 : BitVec 32 := 1#32
  let arg16 : BitVec 32 := Scf.iv c0_i32_85 c1_i32_86 k0_t8
  let c16_i32_135 : BitVec 32 := 16#32
  let v183 : BitVec 32 := Scalar.muli arg16 c16_i32_135
  let v184 : BitVec 32 := Scalar.addi v183 c7_i32
  let c0_i32_139 : BitVec 32 := 0#32
  ![3, v184.toNat, 0]
def k0_off129 (v194 : BitVec 32) : Fin 2 → Nat :=
  let c0_i32_144 : BitVec 32 := 0#32
  ![v194.toNat, 0]

def k0_chk57 (k0_t1 : Fin k0_t1_loop.trips) (v194 : BitVec 32) : Prop :=
  (∀ (k0_h10 : k0_cond10 k0_t1 = 1#1), ∀ a, (k0_off129 v194) a + S1x64.size a ≤ S1000000x64.size a)
instance k0_chk57.dec : ∀ (k0_t1 : Fin k0_t1_loop.trips) (v194 : BitVec 32), Decidable (k0_chk57 k0_t1 v194) := fun k0_t1 v194 => decidable_of_iff' _ (Iff.of_eq (k0_chk57.eq_1 k0_t1 v194))
theorem k0_off129_inb : ∀ (k0_t1 : Fin k0_t1_loop.trips) (v194 : BitVec 32) (k0_hw57 : k0_chk57 k0_t1 v194), ∀ (k0_h10 : k0_cond10 k0_t1 = 1#1), ∀ a, (k0_off129 v194) a + S1x64.size a ≤ S1000000x64.size a := fun k0_t1 v194 k0_hw57 k0_h10 => k0_hw57 k0_h10

def k0_off130 (k0_t8 : Fin k0_t8_loop.trips) (c8_i32 : BitVec 32) : Fin 3 → Nat :=
  let c3_i32_142 : BitVec 32 := 3#32
  let c0_i32_85 : BitVec 32 := 0#32
  let c1_i32_86 : BitVec 32 := 1#32
  let arg16 : BitVec 32 := Scf.iv c0_i32_85 c1_i32_86 k0_t8
  let c16_i32_141 : BitVec 32 := 16#32
  let v195 : BitVec 32 := Scalar.muli arg16 c16_i32_141
  let v196 : BitVec 32 := Scalar.addi v195 c8_i32
  let c0_i32_145 : BitVec 32 := 0#32
  ![3, v196.toNat, 0]
def k0_off131 (v206 : BitVec 32) : Fin 2 → Nat :=
  let c0_i32_150 : BitVec 32 := 0#32
  ![v206.toNat, 0]

def k0_chk58 (k0_t1 : Fin k0_t1_loop.trips) (v206 : BitVec 32) : Prop :=
  (∀ (k0_h10 : k0_cond10 k0_t1 = 1#1), ∀ a, (k0_off131 v206) a + S1x64.size a ≤ S1000000x64.size a)
instance k0_chk58.dec : ∀ (k0_t1 : Fin k0_t1_loop.trips) (v206 : BitVec 32), Decidable (k0_chk58 k0_t1 v206) := fun k0_t1 v206 => decidable_of_iff' _ (Iff.of_eq (k0_chk58.eq_1 k0_t1 v206))
theorem k0_off131_inb : ∀ (k0_t1 : Fin k0_t1_loop.trips) (v206 : BitVec 32) (k0_hw58 : k0_chk58 k0_t1 v206), ∀ (k0_h10 : k0_cond10 k0_t1 = 1#1), ∀ a, (k0_off131 v206) a + S1x64.size a ≤ S1000000x64.size a := fun k0_t1 v206 k0_hw58 k0_h10 => k0_hw58 k0_h10

def k0_off132 (k0_t8 : Fin k0_t8_loop.trips) (c9_i32 : BitVec 32) : Fin 3 → Nat :=
  let c3_i32_148 : BitVec 32 := 3#32
  let c0_i32_85 : BitVec 32 := 0#32
  let c1_i32_86 : BitVec 32 := 1#32
  let arg16 : BitVec 32 := Scf.iv c0_i32_85 c1_i32_86 k0_t8
  let c16_i32_147 : BitVec 32 := 16#32
  let v207 : BitVec 32 := Scalar.muli arg16 c16_i32_147
  let v208 : BitVec 32 := Scalar.addi v207 c9_i32
  let c0_i32_151 : BitVec 32 := 0#32
  ![3, v208.toNat, 0]
def k0_off133 (v218 : BitVec 32) : Fin 2 → Nat :=
  let c0_i32_157 : BitVec 32 := 0#32
  ![v218.toNat, 0]

def k0_chk59 (k0_t1 : Fin k0_t1_loop.trips) (v218 : BitVec 32) : Prop :=
  (∀ (k0_h10 : k0_cond10 k0_t1 = 1#1), ∀ a, (k0_off133 v218) a + S1x64.size a ≤ S1000000x64.size a)
instance k0_chk59.dec : ∀ (k0_t1 : Fin k0_t1_loop.trips) (v218 : BitVec 32), Decidable (k0_chk59 k0_t1 v218) := fun k0_t1 v218 => decidable_of_iff' _ (Iff.of_eq (k0_chk59.eq_1 k0_t1 v218))
theorem k0_off133_inb : ∀ (k0_t1 : Fin k0_t1_loop.trips) (v218 : BitVec 32) (k0_hw59 : k0_chk59 k0_t1 v218), ∀ (k0_h10 : k0_cond10 k0_t1 = 1#1), ∀ a, (k0_off133 v218) a + S1x64.size a ≤ S1000000x64.size a := fun k0_t1 v218 k0_hw59 k0_h10 => k0_hw59 k0_h10

def k0_off134 (k0_t8 : Fin k0_t8_loop.trips) (c10_i32_154 : BitVec 32) : Fin 3 → Nat :=
  let c3_i32_155 : BitVec 32 := 3#32
  let c0_i32_85 : BitVec 32 := 0#32
  let c1_i32_86 : BitVec 32 := 1#32
  let arg16 : BitVec 32 := Scf.iv c0_i32_85 c1_i32_86 k0_t8
  let c16_i32_153 : BitVec 32 := 16#32
  let v219 : BitVec 32 := Scalar.muli arg16 c16_i32_153
  let v220 : BitVec 32 := Scalar.addi v219 c10_i32_154
  let c0_i32_158 : BitVec 32 := 0#32
  ![3, v220.toNat, 0]
def k0_off135 (v230 : BitVec 32) : Fin 2 → Nat :=
  let c0_i32_163 : BitVec 32 := 0#32
  ![v230.toNat, 0]

def k0_chk60 (k0_t1 : Fin k0_t1_loop.trips) (v230 : BitVec 32) : Prop :=
  (∀ (k0_h10 : k0_cond10 k0_t1 = 1#1), ∀ a, (k0_off135 v230) a + S1x64.size a ≤ S1000000x64.size a)
instance k0_chk60.dec : ∀ (k0_t1 : Fin k0_t1_loop.trips) (v230 : BitVec 32), Decidable (k0_chk60 k0_t1 v230) := fun k0_t1 v230 => decidable_of_iff' _ (Iff.of_eq (k0_chk60.eq_1 k0_t1 v230))
theorem k0_off135_inb : ∀ (k0_t1 : Fin k0_t1_loop.trips) (v230 : BitVec 32) (k0_hw60 : k0_chk60 k0_t1 v230), ∀ (k0_h10 : k0_cond10 k0_t1 = 1#1), ∀ a, (k0_off135 v230) a + S1x64.size a ≤ S1000000x64.size a := fun k0_t1 v230 k0_hw60 k0_h10 => k0_hw60 k0_h10

def k0_off136 (k0_t8 : Fin k0_t8_loop.trips) (c11_i32 : BitVec 32) : Fin 3 → Nat :=
  let c3_i32_161 : BitVec 32 := 3#32
  let c0_i32_85 : BitVec 32 := 0#32
  let c1_i32_86 : BitVec 32 := 1#32
  let arg16 : BitVec 32 := Scf.iv c0_i32_85 c1_i32_86 k0_t8
  let c16_i32_160 : BitVec 32 := 16#32
  let v231 : BitVec 32 := Scalar.muli arg16 c16_i32_160
  let v232 : BitVec 32 := Scalar.addi v231 c11_i32
  let c0_i32_164 : BitVec 32 := 0#32
  ![3, v232.toNat, 0]
def k0_off137 (v242 : BitVec 32) : Fin 2 → Nat :=
  let c0_i32_169 : BitVec 32 := 0#32
  ![v242.toNat, 0]

def k0_chk61 (k0_t1 : Fin k0_t1_loop.trips) (v242 : BitVec 32) : Prop :=
  (∀ (k0_h10 : k0_cond10 k0_t1 = 1#1), ∀ a, (k0_off137 v242) a + S1x64.size a ≤ S1000000x64.size a)
instance k0_chk61.dec : ∀ (k0_t1 : Fin k0_t1_loop.trips) (v242 : BitVec 32), Decidable (k0_chk61 k0_t1 v242) := fun k0_t1 v242 => decidable_of_iff' _ (Iff.of_eq (k0_chk61.eq_1 k0_t1 v242))
theorem k0_off137_inb : ∀ (k0_t1 : Fin k0_t1_loop.trips) (v242 : BitVec 32) (k0_hw61 : k0_chk61 k0_t1 v242), ∀ (k0_h10 : k0_cond10 k0_t1 = 1#1), ∀ a, (k0_off137 v242) a + S1x64.size a ≤ S1000000x64.size a := fun k0_t1 v242 k0_hw61 k0_h10 => k0_hw61 k0_h10

def k0_off138 (k0_t8 : Fin k0_t8_loop.trips) (c12_i32 : BitVec 32) : Fin 3 → Nat :=
  let c3_i32_167 : BitVec 32 := 3#32
  let c0_i32_85 : BitVec 32 := 0#32
  let c1_i32_86 : BitVec 32 := 1#32
  let arg16 : BitVec 32 := Scf.iv c0_i32_85 c1_i32_86 k0_t8
  let c16_i32_166 : BitVec 32 := 16#32
  let v243 : BitVec 32 := Scalar.muli arg16 c16_i32_166
  let v244 : BitVec 32 := Scalar.addi v243 c12_i32
  let c0_i32_170 : BitVec 32 := 0#32
  ![3, v244.toNat, 0]
def k0_off139 (v254 : BitVec 32) : Fin 2 → Nat :=
  let c0_i32_175 : BitVec 32 := 0#32
  ![v254.toNat, 0]

def k0_chk62 (k0_t1 : Fin k0_t1_loop.trips) (v254 : BitVec 32) : Prop :=
  (∀ (k0_h10 : k0_cond10 k0_t1 = 1#1), ∀ a, (k0_off139 v254) a + S1x64.size a ≤ S1000000x64.size a)
instance k0_chk62.dec : ∀ (k0_t1 : Fin k0_t1_loop.trips) (v254 : BitVec 32), Decidable (k0_chk62 k0_t1 v254) := fun k0_t1 v254 => decidable_of_iff' _ (Iff.of_eq (k0_chk62.eq_1 k0_t1 v254))
theorem k0_off139_inb : ∀ (k0_t1 : Fin k0_t1_loop.trips) (v254 : BitVec 32) (k0_hw62 : k0_chk62 k0_t1 v254), ∀ (k0_h10 : k0_cond10 k0_t1 = 1#1), ∀ a, (k0_off139 v254) a + S1x64.size a ≤ S1000000x64.size a := fun k0_t1 v254 k0_hw62 k0_h10 => k0_hw62 k0_h10

def k0_off140 (k0_t8 : Fin k0_t8_loop.trips) (c13_i32 : BitVec 32) : Fin 3 → Nat :=
  let c3_i32_173 : BitVec 32 := 3#32
  let c0_i32_85 : BitVec 32 := 0#32
  let c1_i32_86 : BitVec 32 := 1#32
  let arg16 : BitVec 32 := Scf.iv c0_i32_85 c1_i32_86 k0_t8
  let c16_i32_172 : BitVec 32 := 16#32
  let v255 : BitVec 32 := Scalar.muli arg16 c16_i32_172
  let v256 : BitVec 32 := Scalar.addi v255 c13_i32
  let c0_i32_176 : BitVec 32 := 0#32
  ![3, v256.toNat, 0]
def k0_off141 (v266 : BitVec 32) : Fin 2 → Nat :=
  let c0_i32_181 : BitVec 32 := 0#32
  ![v266.toNat, 0]

def k0_chk63 (k0_t1 : Fin k0_t1_loop.trips) (v266 : BitVec 32) : Prop :=
  (∀ (k0_h10 : k0_cond10 k0_t1 = 1#1), ∀ a, (k0_off141 v266) a + S1x64.size a ≤ S1000000x64.size a)
instance k0_chk63.dec : ∀ (k0_t1 : Fin k0_t1_loop.trips) (v266 : BitVec 32), Decidable (k0_chk63 k0_t1 v266) := fun k0_t1 v266 => decidable_of_iff' _ (Iff.of_eq (k0_chk63.eq_1 k0_t1 v266))
theorem k0_off141_inb : ∀ (k0_t1 : Fin k0_t1_loop.trips) (v266 : BitVec 32) (k0_hw63 : k0_chk63 k0_t1 v266), ∀ (k0_h10 : k0_cond10 k0_t1 = 1#1), ∀ a, (k0_off141 v266) a + S1x64.size a ≤ S1000000x64.size a := fun k0_t1 v266 k0_hw63 k0_h10 => k0_hw63 k0_h10

def k0_off142 (k0_t8 : Fin k0_t8_loop.trips) (c14_i32 : BitVec 32) : Fin 3 → Nat :=
  let c3_i32_179 : BitVec 32 := 3#32
  let c0_i32_85 : BitVec 32 := 0#32
  let c1_i32_86 : BitVec 32 := 1#32
  let arg16 : BitVec 32 := Scf.iv c0_i32_85 c1_i32_86 k0_t8
  let c16_i32_178 : BitVec 32 := 16#32
  let v267 : BitVec 32 := Scalar.muli arg16 c16_i32_178
  let v268 : BitVec 32 := Scalar.addi v267 c14_i32
  let c0_i32_182 : BitVec 32 := 0#32
  ![3, v268.toNat, 0]
def k0_off143 (v278 : BitVec 32) : Fin 2 → Nat :=
  let c0_i32_187 : BitVec 32 := 0#32
  ![v278.toNat, 0]

def k0_chk64 (k0_t1 : Fin k0_t1_loop.trips) (v278 : BitVec 32) : Prop :=
  (∀ (k0_h10 : k0_cond10 k0_t1 = 1#1), ∀ a, (k0_off143 v278) a + S1x64.size a ≤ S1000000x64.size a)
instance k0_chk64.dec : ∀ (k0_t1 : Fin k0_t1_loop.trips) (v278 : BitVec 32), Decidable (k0_chk64 k0_t1 v278) := fun k0_t1 v278 => decidable_of_iff' _ (Iff.of_eq (k0_chk64.eq_1 k0_t1 v278))
theorem k0_off143_inb : ∀ (k0_t1 : Fin k0_t1_loop.trips) (v278 : BitVec 32) (k0_hw64 : k0_chk64 k0_t1 v278), ∀ (k0_h10 : k0_cond10 k0_t1 = 1#1), ∀ a, (k0_off143 v278) a + S1x64.size a ≤ S1000000x64.size a := fun k0_t1 v278 k0_hw64 k0_h10 => k0_hw64 k0_h10

def k0_off144 (k0_t8 : Fin k0_t8_loop.trips) : Fin 3 → Nat :=
  let c3_i32_185 : BitVec 32 := 3#32
  let c0_i32_85 : BitVec 32 := 0#32
  let c1_i32_86 : BitVec 32 := 1#32
  let arg16 : BitVec 32 := Scf.iv c0_i32_85 c1_i32_86 k0_t8
  let c16_i32_184 : BitVec 32 := 16#32
  let v279 : BitVec 32 := Scalar.muli arg16 c16_i32_184
  let c15_i32 : BitVec 32 := 15#32
  let v280 : BitVec 32 := Scalar.addi v279 c15_i32
  let c0_i32_188 : BitVec 32 := 0#32
  ![3, v280.toNat, 0]
def k0_cond12 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c4_i32_74 : BitVec 32 := 4#32
  let v76 : BitVec 32 := Scalar.muli arg15 c4_i32_74
  let c3_i32_75 : BitVec 32 := 3#32
  let v77 : BitVec 32 := Scalar.addi v76 c3_i32_75
  let c2_i32_76 : BitVec 32 := 2#32
  let v78 : BitVec 32 := Scalar.subi v77 c2_i32_76
  let c0_i32_79 : BitVec 32 := 0#32
  let v82 : BitVec 1 := Scalar.cmpi .sge v78 c0_i32_79
  let c64_i32_80 : BitVec 32 := 64#32
  let v83 : BitVec 1 := Scalar.cmpi .slt v78 c64_i32_80
  let v84 : BitVec 1 := Scalar.andi v82 v83
  let v85 : BitVec 32 := Scalar.extui v84
  let c0_i32_81 : BitVec 32 := 0#32
  let v86 : BitVec 1 := Scalar.cmpi .ne v85 c0_i32_81
  v86

@[reducible] def k0_t9_loop : Scf.Loop 32 :=
  let c0_i32_83 : BitVec 32 := 0#32
  let c10_i32 : BitVec 32 := 10#32
  let v87 : BitVec 32 := Scalar.addi c0_i32_83 c10_i32
  let c1_i32_84 : BitVec 32 := 1#32
  ⟨c0_i32_83, v87, c1_i32_84⟩
def k0_off145 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_86 : BitVec 32 := 512#32
  let v88 : BitVec 32 := Scalar.muli v1 c512_i32_86
  let c0_i32_0 : BitVec 32 := 0#32
  let c1_i32 : BitVec 32 := 1#32
  let arg15 : BitVec 32 := Scf.iv c0_i32_0 c1_i32 k0_t1
  let c4_i32_74 : BitVec 32 := 4#32
  let v76 : BitVec 32 := Scalar.muli arg15 c4_i32_74
  let c3_i32_75 : BitVec 32 := 3#32
  let v77 : BitVec 32 := Scalar.addi v76 c3_i32_75
  let c2_i32_76 : BitVec 32 := 2#32
  let v78 : BitVec 32 := Scalar.subi v77 c2_i32_76
  let c8_i32 : BitVec 32 := 8#32
  let v89 : BitVec 32 := Scalar.muli v78 c8_i32
  let v90 : BitVec 32 := Scalar.addi v88 v89
  let c0_i32_91 : BitVec 32 := 0#32
  let c0_i32_92 : BitVec 32 := 0#32
  ![v90.toNat, 0, 0]
def k0_off146 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_2 : BitVec 32 := 0#32
  let v4 : BitVec 32 := Scalar.addi v3 c0_i32_2
  let c0_i32_7 : BitVec 32 := 0#32
  let c0_i32_8 : BitVec 32 := 0#32
  ![v4.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x20_S32x10240 : S16384x20.ShapeCasts S32x10240
  squeezes_S1x10240_S10240 : S1x10240.Squeezes S10240
  reshapes_S4x160x128_S4x8x20x128 : S4x8x20x128.numel = S4x160x128.numel ∧ (2 ≤ S4x160x128.rank ∧ 2 ≤ S4x8x20x128.rank)
  inb_S4x8x20x128_S1x8x20x128_0_0_0_0 : ∀ a, (![0, 0, 0, 0] : Fin 4 → Nat) a + S1x8x20x128.size a ≤ S4x8x20x128.size a
  squeezes_S1x8x20x128_S8x20x128 : S1x8x20x128.Squeezes S8x20x128
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x64_S64 : S1x1x64.Squeezes S64
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S4x160x128_S1x1x64_2_0_0 : ∀ a, (![2, 0, 0] : Fin 3 → Nat) a + S1x1x64.size a ≤ S4x160x128.size a
  inb_S1000000x64_S1x64_0_0 : ∀ a, (![0, 0] : Fin 2 → Nat) a + S1x64.size a ≤ S1000000x64.size a
  inb_S4x8x20x128_S1x8x20x128_2_0_0_0 : ∀ a, (![2, 0, 0, 0] : Fin 4 → Nat) a + S1x8x20x128.size a ≤ S4x8x20x128.size a
  inb_S4x8x20x128_S1x8x20x128_1_0_0_0 : ∀ a, (![1, 0, 0, 0] : Fin 4 → Nat) a + S1x8x20x128.size a ≤ S4x8x20x128.size a
  inb_S4x160x128_S1x1x64_3_0_0 : ∀ a, (![3, 0, 0] : Fin 3 → Nat) a + S1x1x64.size a ≤ S4x160x128.size a
  inb_S4x8x20x128_S1x8x20x128_3_0_0_0 : ∀ a, (![3, 0, 0, 0] : Fin 4 → Nat) a + S1x8x20x128.size a ≤ S4x8x20x128.size a
  inb_S4x160x128_S1x1x64_0_0_0 : ∀ a, (![0, 0, 0] : Fin 3 → Nat) a + S1x1x64.size a ≤ S4x160x128.size a
  inb_S4x160x128_S1x1x64_1_0_0 : ∀ a, (![1, 0, 0] : Fin 3 → Nat) a + S1x1x64.size a ≤ S4x160x128.size a
  slices_S16384x20x128_S16384x20x64_0_0_0 : S16384x20x128.Slices ![0, 0, 0] S16384x20x64
  hcc0_scratch2 : 0 + S_.numel ≤ 9
  hcc0_scratch3 : 1 + S_.numel ≤ 9
  hcc0_scratch4 : 2 + S_.numel ≤ 9
  hcc0_scratch5 : 3 + S_.numel ≤ 9
  hcc0_scratch6 : 4 + S_.numel ≤ 9
  hcc0_scratch7 : 5 + S_.numel ≤ 9
  hcc0_scratch8 : 6 + S_.numel ≤ 9
  hcc0_scratch9 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x10240.size a ≤ S32x10240.size a
  k0_t1_ok : k0_t1_loop.OK
  k0_off2_inb : ∀ (i : grid0.Coords) (k0_t1 : Fin k0_t1_loop.trips), ∀ (k0_h1 : k0_cond1 k0_t1 = 1#1), ∀ (k0_h2 : k0_cond2 k0_t1 = 1#1), ∀ a, (k0_off2 i k0_t1) a + S8x20x128.size a ≤ S16384x20x128.size a
  k0_t2_ok : ∀ k0_t1 : Fin k0_t1_loop.trips, ∀ (k0_h1 : k0_cond1 k0_t1 = 1#1), k0_t2_loop.OK
  k0_off3_inb : ∀ (k0_t1 : Fin k0_t1_loop.trips) (k0_t2 : Fin k0_t2_loop.trips), ∀ (k0_h1 : k0_cond1 k0_t1 = 1#1), ∀ a, (k0_off3 k0_t1 k0_t2) a + S16.size a ≤ S10240.size a
  k0_off4_inb : ∀ (k0_t1 : Fin k0_t1_loop.trips) (k0_t2 : Fin k0_t2_loop.trips), ∀ (k0_h1 : k0_cond1 k0_t1 = 1#1), ∀ a, (k0_off4 k0_t2) a + S1x1x64.size a ≤ S4x160x128.size a
  k0_off6_inb : ∀ (k0_t1 : Fin k0_t1_loop.trips) (k0_t2 : Fin k0_t2_loop.trips), ∀ (k0_h1 : k0_cond1 k0_t1 = 1#1), ∀ (r : Fin 2), ∀ a, (k0_off6 k0_t2 (BitVec.ofNat 32 r.val)) a + S1x1x64.size a ≤ S4x160x128.size a
  k0_off8_inb : ∀ (k0_t1 : Fin k0_t1_loop.trips) (k0_t2 : Fin k0_t2_loop.trips), ∀ (k0_h1 : k0_cond1 k0_t1 = 1#1), ∀ (r : Fin 2), ∀ a, (k0_off8 k0_t2 (BitVec.ofNat 32 (1 + r.val))) a + S1x1x64.size a ≤ S4x160x128.size a
  k0_off10_inb : ∀ (k0_t1 : Fin k0_t1_loop.trips) (k0_t2 : Fin k0_t2_loop.trips), ∀ (k0_h1 : k0_cond1 k0_t1 = 1#1), ∀ (r : Fin 2), ∀ a, (k0_off10 k0_t2 (BitVec.ofNat 32 (2 + r.val))) a + S1x1x64.size a ≤ S4x160x128.size a
  k0_off12_inb : ∀ (k0_t1 : Fin k0_t1_loop.trips) (k0_t2 : Fin k0_t2_loop.trips), ∀ (k0_h1 : k0_cond1 k0_t1 = 1#1), ∀ (r : Fin 2), ∀ a, (k0_off12 k0_t2 (BitVec.ofNat 32 (3 + r.val))) a + S1x1x64.size a ≤ S4x160x128.size a
  k0_off14_inb : ∀ (k0_t1 : Fin k0_t1_loop.trips) (k0_t2 : Fin k0_t2_loop.trips), ∀ (k0_h1 : k0_cond1 k0_t1 = 1#1), ∀ (r : Fin 2), ∀ a, (k0_off14 k0_t2 (BitVec.ofNat 32 (4 + r.val))) a + S1x1x64.size a ≤ S4x160x128.size a
  k0_off16_inb : ∀ (k0_t1 : Fin k0_t1_loop.trips) (k0_t2 : Fin k0_t2_loop.trips), ∀ (k0_h1 : k0_cond1 k0_t1 = 1#1), ∀ (r : Fin 2), ∀ a, (k0_off16 k0_t2 (BitVec.ofNat 32 (5 + r.val))) a + S1x1x64.size a ≤ S4x160x128.size a
  k0_off18_inb : ∀ (k0_t1 : Fin k0_t1_loop.trips) (k0_t2 : Fin k0_t2_loop.trips), ∀ (k0_h1 : k0_cond1 k0_t1 = 1#1), ∀ (r : Fin 2), ∀ a, (k0_off18 k0_t2 (BitVec.ofNat 32 (6 + r.val))) a + S1x1x64.size a ≤ S4x160x128.size a
  k0_off20_inb : ∀ (k0_t1 : Fin k0_t1_loop.trips) (k0_t2 : Fin k0_t2_loop.trips), ∀ (k0_h1 : k0_cond1 k0_t1 = 1#1), ∀ (r : Fin 2), ∀ a, (k0_off20 k0_t2 (BitVec.ofNat 32 (7 + r.val))) a + S1x1x64.size a ≤ S4x160x128.size a
  k0_off22_inb : ∀ (k0_t1 : Fin k0_t1_loop.trips) (k0_t2 : Fin k0_t2_loop.trips), ∀ (k0_h1 : k0_cond1 k0_t1 = 1#1), ∀ (r : Fin 2), ∀ a, (k0_off22 k0_t2 (BitVec.ofNat 32 (8 + r.val))) a + S1x1x64.size a ≤ S4x160x128.size a
  k0_off24_inb : ∀ (k0_t1 : Fin k0_t1_loop.trips) (k0_t2 : Fin k0_t2_loop.trips), ∀ (k0_h1 : k0_cond1 k0_t1 = 1#1), ∀ (r : Fin 2), ∀ a, (k0_off24 k0_t2 (BitVec.ofNat 32 (9 + r.val))) a + S1x1x64.size a ≤ S4x160x128.size a
  k0_off26_inb : ∀ (k0_t1 : Fin k0_t1_loop.trips) (k0_t2 : Fin k0_t2_loop.trips), ∀ (k0_h1 : k0_cond1 k0_t1 = 1#1), ∀ (r : Fin 2), ∀ a, (k0_off26 k0_t2 (BitVec.ofNat 32 (10 + r.val))) a + S1x1x64.size a ≤ S4x160x128.size a
  k0_off28_inb : ∀ (k0_t1 : Fin k0_t1_loop.trips) (k0_t2 : Fin k0_t2_loop.trips), ∀ (k0_h1 : k0_cond1 k0_t1 = 1#1), ∀ (r : Fin 2), ∀ a, (k0_off28 k0_t2 (BitVec.ofNat 32 (11 + r.val))) a + S1x1x64.size a ≤ S4x160x128.size a
  k0_off30_inb : ∀ (k0_t1 : Fin k0_t1_loop.trips) (k0_t2 : Fin k0_t2_loop.trips), ∀ (k0_h1 : k0_cond1 k0_t1 = 1#1), ∀ (r : Fin 2), ∀ a, (k0_off30 k0_t2 (BitVec.ofNat 32 (12 + r.val))) a + S1x1x64.size a ≤ S4x160x128.size a
  k0_off32_inb : ∀ (k0_t1 : Fin k0_t1_loop.trips) (k0_t2 : Fin k0_t2_loop.trips), ∀ (k0_h1 : k0_cond1 k0_t1 = 1#1), ∀ (r : Fin 2), ∀ a, (k0_off32 k0_t2 (BitVec.ofNat 32 (13 + r.val))) a + S1x1x64.size a ≤ S4x160x128.size a
  k0_off34_inb : ∀ (k0_t1 : Fin k0_t1_loop.trips) (k0_t2 : Fin k0_t2_loop.trips), ∀ (k0_h1 : k0_cond1 k0_t1 = 1#1), ∀ (r : Fin 2), ∀ a, (k0_off34 k0_t2 (BitVec.ofNat 32 (14 + r.val))) a + S1x1x64.size a ≤ S4x160x128.size a
  k0_off36_inb : ∀ (k0_t1 : Fin k0_t1_loop.trips) (k0_t2 : Fin k0_t2_loop.trips), ∀ (k0_h1 : k0_cond1 k0_t1 = 1#1), ∀ a, (k0_off36 k0_t2) a + S1x1x64.size a ≤ S4x160x128.size a
  k0_t3_ok : ∀ k0_t1 : Fin k0_t1_loop.trips, ∀ (k0_h3 : k0_cond3 k0_t1 = 1#1), k0_t3_loop.OK
  k0_off37_inb : ∀ (i : grid0.Coords) (k0_t1 : Fin k0_t1_loop.trips), ∀ (k0_h3 : k0_cond3 k0_t1 = 1#1), ∀ a, (k0_off37 i k0_t1) a + S8x20x128.size a ≤ S16384x20x128.size a
  k0_off38_inb : ∀ (i : grid0.Coords) (k0_t1 : Fin k0_t1_loop.trips), ∀ (k0_h4 : k0_cond4 k0_t1 = 1#1), ∀ (k0_h5 : k0_cond5 k0_t1 = 1#1), ∀ a, (k0_off38 i k0_t1) a + S8x20x128.size a ≤ S16384x20x128.size a
  k0_t4_ok : ∀ k0_t1 : Fin k0_t1_loop.trips, ∀ (k0_h4 : k0_cond4 k0_t1 = 1#1), k0_t4_loop.OK
  k0_off39_inb : ∀ (k0_t1 : Fin k0_t1_loop.trips) (k0_t4 : Fin k0_t4_loop.trips), ∀ (k0_h4 : k0_cond4 k0_t1 = 1#1), ∀ a, (k0_off39 k0_t1 k0_t4) a + S16.size a ≤ S10240.size a
  k0_off40_inb : ∀ (k0_t1 : Fin k0_t1_loop.trips) (k0_t4 : Fin k0_t4_loop.trips), ∀ (k0_h4 : k0_cond4 k0_t1 = 1#1), ∀ a, (k0_off40 k0_t4) a + S1x1x64.size a ≤ S4x160x128.size a
  k0_off42_inb : ∀ (k0_t1 : Fin k0_t1_loop.trips) (k0_t4 : Fin k0_t4_loop.trips), ∀ (k0_h4 : k0_cond4 k0_t1 = 1#1), ∀ (r : Fin 2), ∀ a, (k0_off42 k0_t4 (BitVec.ofNat 32 r.val)) a + S1x1x64.size a ≤ S4x160x128.size a
  k0_off44_inb : ∀ (k0_t1 : Fin k0_t1_loop.trips) (k0_t4 : Fin k0_t4_loop.trips), ∀ (k0_h4 : k0_cond4 k0_t1 = 1#1), ∀ (r : Fin 2), ∀ a, (k0_off44 k0_t4 (BitVec.ofNat 32 (1 + r.val))) a + S1x1x64.size a ≤ S4x160x128.size a
  k0_off46_inb : ∀ (k0_t1 : Fin k0_t1_loop.trips) (k0_t4 : Fin k0_t4_loop.trips), ∀ (k0_h4 : k0_cond4 k0_t1 = 1#1), ∀ (r : Fin 2), ∀ a, (k0_off46 k0_t4 (BitVec.ofNat 32 (2 + r.val))) a + S1x1x64.size a ≤ S4x160x128.size a
  k0_off48_inb : ∀ (k0_t1 : Fin k0_t1_loop.trips) (k0_t4 : Fin k0_t4_loop.trips), ∀ (k0_h4 : k0_cond4 k0_t1 = 1#1), ∀ (r : Fin 2), ∀ a, (k0_off48 k0_t4 (BitVec.ofNat 32 (3 + r.val))) a + S1x1x64.size a ≤ S4x160x128.size a
  k0_off50_inb : ∀ (k0_t1 : Fin k0_t1_loop.trips) (k0_t4 : Fin k0_t4_loop.trips), ∀ (k0_h4 : k0_cond4 k0_t1 = 1#1), ∀ (r : Fin 2), ∀ a, (k0_off50 k0_t4 (BitVec.ofNat 32 (4 + r.val))) a + S1x1x64.size a ≤ S4x160x128.size a
  k0_off52_inb : ∀ (k0_t1 : Fin k0_t1_loop.trips) (k0_t4 : Fin k0_t4_loop.trips), ∀ (k0_h4 : k0_cond4 k0_t1 = 1#1), ∀ (r : Fin 2), ∀ a, (k0_off52 k0_t4 (BitVec.ofNat 32 (5 + r.val))) a + S1x1x64.size a ≤ S4x160x128.size a
  k0_off54_inb : ∀ (k0_t1 : Fin k0_t1_loop.trips) (k0_t4 : Fin k0_t4_loop.trips), ∀ (k0_h4 : k0_cond4 k0_t1 = 1#1), ∀ (r : Fin 2), ∀ a, (k0_off54 k0_t4 (BitVec.ofNat 32 (6 + r.val))) a + S1x1x64.size a ≤ S4x160x128.size a
  k0_off56_inb : ∀ (k0_t1 : Fin k0_t1_loop.trips) (k0_t4 : Fin k0_t4_loop.trips), ∀ (k0_h4 : k0_cond4 k0_t1 = 1#1), ∀ (r : Fin 2), ∀ a, (k0_off56 k0_t4 (BitVec.ofNat 32 (7 + r.val))) a + S1x1x64.size a ≤ S4x160x128.size a
  k0_off58_inb : ∀ (k0_t1 : Fin k0_t1_loop.trips) (k0_t4 : Fin k0_t4_loop.trips), ∀ (k0_h4 : k0_cond4 k0_t1 = 1#1), ∀ (r : Fin 2), ∀ a, (k0_off58 k0_t4 (BitVec.ofNat 32 (8 + r.val))) a + S1x1x64.size a ≤ S4x160x128.size a
  k0_off60_inb : ∀ (k0_t1 : Fin k0_t1_loop.trips) (k0_t4 : Fin k0_t4_loop.trips), ∀ (k0_h4 : k0_cond4 k0_t1 = 1#1), ∀ (r : Fin 2), ∀ a, (k0_off60 k0_t4 (BitVec.ofNat 32 (9 + r.val))) a + S1x1x64.size a ≤ S4x160x128.size a
  k0_off62_inb : ∀ (k0_t1 : Fin k0_t1_loop.trips) (k0_t4 : Fin k0_t4_loop.trips), ∀ (k0_h4 : k0_cond4 k0_t1 = 1#1), ∀ (r : Fin 2), ∀ a, (k0_off62 k0_t4 (BitVec.ofNat 32 (10 + r.val))) a + S1x1x64.size a ≤ S4x160x128.size a
  k0_off64_inb : ∀ (k0_t1 : Fin k0_t1_loop.trips) (k0_t4 : Fin k0_t4_loop.trips), ∀ (k0_h4 : k0_cond4 k0_t1 = 1#1), ∀ (r : Fin 2), ∀ a, (k0_off64 k0_t4 (BitVec.ofNat 32 (11 + r.val))) a + S1x1x64.size a ≤ S4x160x128.size a
  k0_off66_inb : ∀ (k0_t1 : Fin k0_t1_loop.trips) (k0_t4 : Fin k0_t4_loop.trips), ∀ (k0_h4 : k0_cond4 k0_t1 = 1#1), ∀ (r : Fin 2), ∀ a, (k0_off66 k0_t4 (BitVec.ofNat 32 (12 + r.val))) a + S1x1x64.size a ≤ S4x160x128.size a
  k0_off68_inb : ∀ (k0_t1 : Fin k0_t1_loop.trips) (k0_t4 : Fin k0_t4_loop.trips), ∀ (k0_h4 : k0_cond4 k0_t1 = 1#1), ∀ (r : Fin 2), ∀ a, (k0_off68 k0_t4 (BitVec.ofNat 32 (13 + r.val))) a + S1x1x64.size a ≤ S4x160x128.size a
  k0_off70_inb : ∀ (k0_t1 : Fin k0_t1_loop.trips) (k0_t4 : Fin k0_t4_loop.trips), ∀ (k0_h4 : k0_cond4 k0_t1 = 1#1), ∀ (r : Fin 2), ∀ a, (k0_off70 k0_t4 (BitVec.ofNat 32 (14 + r.val))) a + S1x1x64.size a ≤ S4x160x128.size a
  k0_off72_inb : ∀ (k0_t1 : Fin k0_t1_loop.trips) (k0_t4 : Fin k0_t4_loop.trips), ∀ (k0_h4 : k0_cond4 k0_t1 = 1#1), ∀ a, (k0_off72 k0_t4) a + S1x1x64.size a ≤ S4x160x128.size a
  k0_t5_ok : ∀ k0_t1 : Fin k0_t1_loop.trips, ∀ (k0_h6 : k0_cond6 k0_t1 = 1#1), k0_t5_loop.OK
  k0_off73_inb : ∀ (i : grid0.Coords) (k0_t1 : Fin k0_t1_loop.trips), ∀ (k0_h6 : k0_cond6 k0_t1 = 1#1), ∀ a, (k0_off73 i k0_t1) a + S8x20x128.size a ≤ S16384x20x128.size a
  k0_off74_inb : ∀ (i : grid0.Coords) (k0_t1 : Fin k0_t1_loop.trips), ∀ (k0_h7 : k0_cond7 k0_t1 = 1#1), ∀ (k0_h8 : k0_cond8 k0_t1 = 1#1), ∀ a, (k0_off74 i k0_t1) a + S8x20x128.size a ≤ S16384x20x128.size a
  k0_t6_ok : ∀ k0_t1 : Fin k0_t1_loop.trips, ∀ (k0_h7 : k0_cond7 k0_t1 = 1#1), k0_t6_loop.OK
  k0_off75_inb : ∀ (k0_t1 : Fin k0_t1_loop.trips) (k0_t6 : Fin k0_t6_loop.trips), ∀ (k0_h7 : k0_cond7 k0_t1 = 1#1), ∀ a, (k0_off75 k0_t1 k0_t6) a + S16.size a ≤ S10240.size a
  k0_off76_inb : ∀ (k0_t1 : Fin k0_t1_loop.trips) (k0_t6 : Fin k0_t6_loop.trips), ∀ (k0_h7 : k0_cond7 k0_t1 = 1#1), ∀ a, (k0_off76 k0_t6) a + S1x1x64.size a ≤ S4x160x128.size a
  k0_off78_inb : ∀ (k0_t1 : Fin k0_t1_loop.trips) (k0_t6 : Fin k0_t6_loop.trips), ∀ (k0_h7 : k0_cond7 k0_t1 = 1#1), ∀ (r : Fin 2), ∀ a, (k0_off78 k0_t6 (BitVec.ofNat 32 r.val)) a + S1x1x64.size a ≤ S4x160x128.size a
  k0_off80_inb : ∀ (k0_t1 : Fin k0_t1_loop.trips) (k0_t6 : Fin k0_t6_loop.trips), ∀ (k0_h7 : k0_cond7 k0_t1 = 1#1), ∀ (r : Fin 2), ∀ a, (k0_off80 k0_t6 (BitVec.ofNat 32 (1 + r.val))) a + S1x1x64.size a ≤ S4x160x128.size a
  k0_off82_inb : ∀ (k0_t1 : Fin k0_t1_loop.trips) (k0_t6 : Fin k0_t6_loop.trips), ∀ (k0_h7 : k0_cond7 k0_t1 = 1#1), ∀ (r : Fin 2), ∀ a, (k0_off82 k0_t6 (BitVec.ofNat 32 (2 + r.val))) a + S1x1x64.size a ≤ S4x160x128.size a
  k0_off84_inb : ∀ (k0_t1 : Fin k0_t1_loop.trips) (k0_t6 : Fin k0_t6_loop.trips), ∀ (k0_h7 : k0_cond7 k0_t1 = 1#1), ∀ (r : Fin 2), ∀ a, (k0_off84 k0_t6 (BitVec.ofNat 32 (3 + r.val))) a + S1x1x64.size a ≤ S4x160x128.size a
  k0_off86_inb : ∀ (k0_t1 : Fin k0_t1_loop.trips) (k0_t6 : Fin k0_t6_loop.trips), ∀ (k0_h7 : k0_cond7 k0_t1 = 1#1), ∀ (r : Fin 2), ∀ a, (k0_off86 k0_t6 (BitVec.ofNat 32 (4 + r.val))) a + S1x1x64.size a ≤ S4x160x128.size a
  k0_off88_inb : ∀ (k0_t1 : Fin k0_t1_loop.trips) (k0_t6 : Fin k0_t6_loop.trips), ∀ (k0_h7 : k0_cond7 k0_t1 = 1#1), ∀ (r : Fin 2), ∀ a, (k0_off88 k0_t6 (BitVec.ofNat 32 (5 + r.val))) a + S1x1x64.size a ≤ S4x160x128.size a
  k0_off90_inb : ∀ (k0_t1 : Fin k0_t1_loop.trips) (k0_t6 : Fin k0_t6_loop.trips), ∀ (k0_h7 : k0_cond7 k0_t1 = 1#1), ∀ (r : Fin 2), ∀ a, (k0_off90 k0_t6 (BitVec.ofNat 32 (6 + r.val))) a + S1x1x64.size a ≤ S4x160x128.size a
  k0_off92_inb : ∀ (k0_t1 : Fin k0_t1_loop.trips) (k0_t6 : Fin k0_t6_loop.trips), ∀ (k0_h7 : k0_cond7 k0_t1 = 1#1), ∀ (r : Fin 2), ∀ a, (k0_off92 k0_t6 (BitVec.ofNat 32 (7 + r.val))) a + S1x1x64.size a ≤ S4x160x128.size a
  k0_off94_inb : ∀ (k0_t1 : Fin k0_t1_loop.trips) (k0_t6 : Fin k0_t6_loop.trips), ∀ (k0_h7 : k0_cond7 k0_t1 = 1#1), ∀ (r : Fin 2), ∀ a, (k0_off94 k0_t6 (BitVec.ofNat 32 (8 + r.val))) a + S1x1x64.size a ≤ S4x160x128.size a
  k0_off96_inb : ∀ (k0_t1 : Fin k0_t1_loop.trips) (k0_t6 : Fin k0_t6_loop.trips), ∀ (k0_h7 : k0_cond7 k0_t1 = 1#1), ∀ (r : Fin 2), ∀ a, (k0_off96 k0_t6 (BitVec.ofNat 32 (9 + r.val))) a + S1x1x64.size a ≤ S4x160x128.size a
  k0_off98_inb : ∀ (k0_t1 : Fin k0_t1_loop.trips) (k0_t6 : Fin k0_t6_loop.trips), ∀ (k0_h7 : k0_cond7 k0_t1 = 1#1), ∀ (r : Fin 2), ∀ a, (k0_off98 k0_t6 (BitVec.ofNat 32 (10 + r.val))) a + S1x1x64.size a ≤ S4x160x128.size a
  k0_off100_inb : ∀ (k0_t1 : Fin k0_t1_loop.trips) (k0_t6 : Fin k0_t6_loop.trips), ∀ (k0_h7 : k0_cond7 k0_t1 = 1#1), ∀ (r : Fin 2), ∀ a, (k0_off100 k0_t6 (BitVec.ofNat 32 (11 + r.val))) a + S1x1x64.size a ≤ S4x160x128.size a
  k0_off102_inb : ∀ (k0_t1 : Fin k0_t1_loop.trips) (k0_t6 : Fin k0_t6_loop.trips), ∀ (k0_h7 : k0_cond7 k0_t1 = 1#1), ∀ (r : Fin 2), ∀ a, (k0_off102 k0_t6 (BitVec.ofNat 32 (12 + r.val))) a + S1x1x64.size a ≤ S4x160x128.size a
  k0_off104_inb : ∀ (k0_t1 : Fin k0_t1_loop.trips) (k0_t6 : Fin k0_t6_loop.trips), ∀ (k0_h7 : k0_cond7 k0_t1 = 1#1), ∀ (r : Fin 2), ∀ a, (k0_off104 k0_t6 (BitVec.ofNat 32 (13 + r.val))) a + S1x1x64.size a ≤ S4x160x128.size a
  k0_off106_inb : ∀ (k0_t1 : Fin k0_t1_loop.trips) (k0_t6 : Fin k0_t6_loop.trips), ∀ (k0_h7 : k0_cond7 k0_t1 = 1#1), ∀ (r : Fin 2), ∀ a, (k0_off106 k0_t6 (BitVec.ofNat 32 (14 + r.val))) a + S1x1x64.size a ≤ S4x160x128.size a
  k0_off108_inb : ∀ (k0_t1 : Fin k0_t1_loop.trips) (k0_t6 : Fin k0_t6_loop.trips), ∀ (k0_h7 : k0_cond7 k0_t1 = 1#1), ∀ a, (k0_off108 k0_t6) a + S1x1x64.size a ≤ S4x160x128.size a
  k0_t7_ok : ∀ k0_t1 : Fin k0_t1_loop.trips, ∀ (k0_h9 : k0_cond9 k0_t1 = 1#1), k0_t7_loop.OK
  k0_off109_inb : ∀ (i : grid0.Coords) (k0_t1 : Fin k0_t1_loop.trips), ∀ (k0_h9 : k0_cond9 k0_t1 = 1#1), ∀ a, (k0_off109 i k0_t1) a + S8x20x128.size a ≤ S16384x20x128.size a
  k0_off110_inb : ∀ (i : grid0.Coords) (k0_t1 : Fin k0_t1_loop.trips), ∀ (k0_h10 : k0_cond10 k0_t1 = 1#1), ∀ (k0_h11 : k0_cond11 k0_t1 = 1#1), ∀ a, (k0_off110 i k0_t1) a + S8x20x128.size a ≤ S16384x20x128.size a
  k0_t8_ok : ∀ k0_t1 : Fin k0_t1_loop.trips, ∀ (k0_h10 : k0_cond10 k0_t1 = 1#1), k0_t8_loop.OK
  k0_off111_inb : ∀ (k0_t1 : Fin k0_t1_loop.trips) (k0_t8 : Fin k0_t8_loop.trips), ∀ (k0_h10 : k0_cond10 k0_t1 = 1#1), ∀ a, (k0_off111 k0_t1 k0_t8) a + S16.size a ≤ S10240.size a
  k0_off112_inb : ∀ (k0_t1 : Fin k0_t1_loop.trips) (k0_t8 : Fin k0_t8_loop.trips), ∀ (k0_h10 : k0_cond10 k0_t1 = 1#1), ∀ a, (k0_off112 k0_t8) a + S1x1x64.size a ≤ S4x160x128.size a
  k0_off114_inb : ∀ (k0_t1 : Fin k0_t1_loop.trips) (k0_t8 : Fin k0_t8_loop.trips), ∀ (k0_h10 : k0_cond10 k0_t1 = 1#1), ∀ (r : Fin 2), ∀ a, (k0_off114 k0_t8 (BitVec.ofNat 32 r.val)) a + S1x1x64.size a ≤ S4x160x128.size a
  k0_off116_inb : ∀ (k0_t1 : Fin k0_t1_loop.trips) (k0_t8 : Fin k0_t8_loop.trips), ∀ (k0_h10 : k0_cond10 k0_t1 = 1#1), ∀ (r : Fin 2), ∀ a, (k0_off116 k0_t8 (BitVec.ofNat 32 (1 + r.val))) a + S1x1x64.size a ≤ S4x160x128.size a
  k0_off118_inb : ∀ (k0_t1 : Fin k0_t1_loop.trips) (k0_t8 : Fin k0_t8_loop.trips), ∀ (k0_h10 : k0_cond10 k0_t1 = 1#1), ∀ (r : Fin 2), ∀ a, (k0_off118 k0_t8 (BitVec.ofNat 32 (2 + r.val))) a + S1x1x64.size a ≤ S4x160x128.size a
  k0_off120_inb : ∀ (k0_t1 : Fin k0_t1_loop.trips) (k0_t8 : Fin k0_t8_loop.trips), ∀ (k0_h10 : k0_cond10 k0_t1 = 1#1), ∀ (r : Fin 2), ∀ a, (k0_off120 k0_t8 (BitVec.ofNat 32 (3 + r.val))) a + S1x1x64.size a ≤ S4x160x128.size a
  k0_off122_inb : ∀ (k0_t1 : Fin k0_t1_loop.trips) (k0_t8 : Fin k0_t8_loop.trips), ∀ (k0_h10 : k0_cond10 k0_t1 = 1#1), ∀ (r : Fin 2), ∀ a, (k0_off122 k0_t8 (BitVec.ofNat 32 (4 + r.val))) a + S1x1x64.size a ≤ S4x160x128.size a
  k0_off124_inb : ∀ (k0_t1 : Fin k0_t1_loop.trips) (k0_t8 : Fin k0_t8_loop.trips), ∀ (k0_h10 : k0_cond10 k0_t1 = 1#1), ∀ (r : Fin 2), ∀ a, (k0_off124 k0_t8 (BitVec.ofNat 32 (5 + r.val))) a + S1x1x64.size a ≤ S4x160x128.size a
  k0_off126_inb : ∀ (k0_t1 : Fin k0_t1_loop.trips) (k0_t8 : Fin k0_t8_loop.trips), ∀ (k0_h10 : k0_cond10 k0_t1 = 1#1), ∀ (r : Fin 2), ∀ a, (k0_off126 k0_t8 (BitVec.ofNat 32 (6 + r.val))) a + S1x1x64.size a ≤ S4x160x128.size a
  k0_off128_inb : ∀ (k0_t1 : Fin k0_t1_loop.trips) (k0_t8 : Fin k0_t8_loop.trips), ∀ (k0_h10 : k0_cond10 k0_t1 = 1#1), ∀ (r : Fin 2), ∀ a, (k0_off128 k0_t8 (BitVec.ofNat 32 (7 + r.val))) a + S1x1x64.size a ≤ S4x160x128.size a
  k0_off130_inb : ∀ (k0_t1 : Fin k0_t1_loop.trips) (k0_t8 : Fin k0_t8_loop.trips), ∀ (k0_h10 : k0_cond10 k0_t1 = 1#1), ∀ (r : Fin 2), ∀ a, (k0_off130 k0_t8 (BitVec.ofNat 32 (8 + r.val))) a + S1x1x64.size a ≤ S4x160x128.size a
  k0_off132_inb : ∀ (k0_t1 : Fin k0_t1_loop.trips) (k0_t8 : Fin k0_t8_loop.trips), ∀ (k0_h10 : k0_cond10 k0_t1 = 1#1), ∀ (r : Fin 2), ∀ a, (k0_off132 k0_t8 (BitVec.ofNat 32 (9 + r.val))) a + S1x1x64.size a ≤ S4x160x128.size a
  k0_off134_inb : ∀ (k0_t1 : Fin k0_t1_loop.trips) (k0_t8 : Fin k0_t8_loop.trips), ∀ (k0_h10 : k0_cond10 k0_t1 = 1#1), ∀ (r : Fin 2), ∀ a, (k0_off134 k0_t8 (BitVec.ofNat 32 (10 + r.val))) a + S1x1x64.size a ≤ S4x160x128.size a
  k0_off136_inb : ∀ (k0_t1 : Fin k0_t1_loop.trips) (k0_t8 : Fin k0_t8_loop.trips), ∀ (k0_h10 : k0_cond10 k0_t1 = 1#1), ∀ (r : Fin 2), ∀ a, (k0_off136 k0_t8 (BitVec.ofNat 32 (11 + r.val))) a + S1x1x64.size a ≤ S4x160x128.size a
  k0_off138_inb : ∀ (k0_t1 : Fin k0_t1_loop.trips) (k0_t8 : Fin k0_t8_loop.trips), ∀ (k0_h10 : k0_cond10 k0_t1 = 1#1), ∀ (r : Fin 2), ∀ a, (k0_off138 k0_t8 (BitVec.ofNat 32 (12 + r.val))) a + S1x1x64.size a ≤ S4x160x128.size a
  k0_off140_inb : ∀ (k0_t1 : Fin k0_t1_loop.trips) (k0_t8 : Fin k0_t8_loop.trips), ∀ (k0_h10 : k0_cond10 k0_t1 = 1#1), ∀ (r : Fin 2), ∀ a, (k0_off140 k0_t8 (BitVec.ofNat 32 (13 + r.val))) a + S1x1x64.size a ≤ S4x160x128.size a
  k0_off142_inb : ∀ (k0_t1 : Fin k0_t1_loop.trips) (k0_t8 : Fin k0_t8_loop.trips), ∀ (k0_h10 : k0_cond10 k0_t1 = 1#1), ∀ (r : Fin 2), ∀ a, (k0_off142 k0_t8 (BitVec.ofNat 32 (14 + r.val))) a + S1x1x64.size a ≤ S4x160x128.size a
  k0_off144_inb : ∀ (k0_t1 : Fin k0_t1_loop.trips) (k0_t8 : Fin k0_t8_loop.trips), ∀ (k0_h10 : k0_cond10 k0_t1 = 1#1), ∀ a, (k0_off144 k0_t8) a + S1x1x64.size a ≤ S4x160x128.size a
  k0_t9_ok : ∀ k0_t1 : Fin k0_t1_loop.trips, ∀ (k0_h12 : k0_cond12 k0_t1 = 1#1), k0_t9_loop.OK
  k0_off145_inb : ∀ (i : grid0.Coords) (k0_t1 : Fin k0_t1_loop.trips), ∀ (k0_h12 : k0_cond12 k0_t1 = 1#1), ∀ a, (k0_off145 i k0_t1) a + S8x20x128.size a ≤ S16384x20x128.size a
  k0_off146_inb : ∀ i : grid0.Coords, ∀ a, (k0_off146 i) a + S8x20x128.size a ≤ S16384x20x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scoped0 : DmaSems sig S_ := SemArray.consecutive 8 S_ hcc0_scoped0

class Facts : Prop extends Facts₀ where

variable [Facts]
-- ==== ReferenceIdeal.lean ====
abbrev S16384x20 : Shape := ⟨2, ![16384, 20]⟩
abbrev S1000000x64 : Shape := ⟨2, ![1000000, 64]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x64 : Shape := ⟨3, ![16384, 20, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S1000000x64, .f32⟩
  | .hbm, ⟨2, _⟩ => ⟨S_, .i32⟩
  | .hbm, ⟨3, _⟩ => ⟨S16384x20, .i32⟩
  | .hbm, ⟨4, _⟩ => ⟨S16384x20, .i1⟩
  | .hbm, ⟨5, _⟩ => ⟨S_, .i32⟩
  | .hbm, ⟨6, _⟩ => ⟨S16384x20, .i32⟩
  | .hbm, ⟨7, _⟩ => ⟨S16384x20, .i32⟩
  | .hbm, ⟨8, _⟩ => ⟨S16384x20, .i32⟩
  | .hbm, ⟨9, _⟩ => ⟨S16384x20x1, .i32⟩
  | .hbm, ⟨10, _⟩ => ⟨S1, .i32⟩
  | .hbm, ⟨11, _⟩ => ⟨S_, .i32⟩
  | .hbm, ⟨12, _⟩ => ⟨S16384x20x1, .i32⟩
  | .hbm, ⟨13, _⟩ => ⟨S16384x20x1, .i1⟩
  | .hbm, ⟨14, _⟩ => ⟨S1x1x1, .i32⟩
  | .hbm, ⟨15, _⟩ => ⟨S16384x20x1, .i32⟩
  | .hbm, ⟨16, _⟩ => ⟨S16384x20x1, .i1⟩
  | .hbm, ⟨17, _⟩ => ⟨S16384x20x1, .i1⟩
  | .hbm, ⟨18, _⟩ => ⟨S_, .i1⟩
  | .hbm, ⟨19, _⟩ => ⟨S16384x20, .i1⟩
  | .hbm, ⟨20, _⟩ => ⟨S16384x20x64, .f32⟩
  | .hbm, ⟨21, _⟩ => ⟨S16384x20x64, .i1⟩
  | .hbm, ⟨22, _⟩ => ⟨S_, .f32⟩
  | .hbm, ⟨23, _⟩ => ⟨S16384x20x64, .f32⟩
  | .hbm, ⟨24, _⟩ => ⟨S16384x20x64, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x64_0_1 : S16384x20.BroadcastsInDim S16384x20x64 (![0, 1] : Fin 2 → Fin S16384x20x64.rank)
  bcast_S_S16384x20x64 : S_.BroadcastsInDim S16384x20x64 (![] : Fin 0 → Fin S16384x20x64.rank)
  gather_S1000000x64_S16384x20x1_S16384x20x64_2_0_n_n_0_2_164_wf : GatherDims.WF S1000000x64 S16384x20x1 S16384x20x64 [2] [0] [] [0] [] 2 ![1, 64]

variable [Facts₀]

def gather_S1000000x64_S16384x20x1_S16384x20x64_2_0_n_n_0_2_164 : GatherDims S1000000x64 S16384x20x1 S16384x20x64 where
  offsetDims := [2]
  collapsedSliceDims := [0]
  operandBatchingDims := []
  startIndicesBatchingDims := []
  startIndexMap := [0]
  indexVectorDim := 2
  sliceSizes := ![1, 64]
  wf := gather_S1000000x64_S16384x20x1_S16384x20x64_2_0_n_n_0_2_164_wf

class Facts : Prop extends Facts₀ where

variable [Facts]
-- ==== Proof.Spec.lean ====
/-
  The function both programs compute: an embedding lookup. For tokens `tok : [16384, 20]` (32-bit words) and a
  table `tab : [1000000, 64]`, the result at `(n, s, k)` is `tab (tok (n, s), k)`. A token is read as the
  natural number of its word, reduced into the table's range; for a token in `[0, 999999]` that is the token itself.
-/
import Idealize.ShloMosaic.Lib.ValueIdx

namespace Cert.Spec

open Idealize.ShloMosaic Idealize.ShloMosaic.ValueIdx

abbrev STok : Shape := ⟨2, ![16384, 20]⟩
abbrev STab : Shape := ⟨2, ![1000000, 64]⟩
abbrev SRes : Shape := ⟨3, ![16384, 20, 64]⟩

/-- The table row a token names. -/
def rowOf (w : BitVec 32) : Fin 1000000 := ⟨w.toNat % 1000000, Nat.mod_lt _ (by decide)⟩

theorem rowOf_val (w : BitVec 32) (h : w.toNat < 1000000) : (rowOf w).val = w.toNat := Nat.mod_eq_of_lt h

/-- The lookup, index by index. -/
def lookup {α : Type} (tok : STok.Idx → BitVec 32) (tab : STab.Idx → α) : SRes.Idx → α :=
  fun j => tab (ix2 (rowOf (tok (ix2 (⟨(j 0).val, (j 0).isLt⟩ : Fin 16384) (⟨(j 1).val, (j 1).isLt⟩ : Fin 20))))
    (⟨(j 2).val, (j 2).isLt⟩ : Fin 64))

theorem lookup_apply {α : Type} (tok : STok.Idx → BitVec 32) (tab : STab.Idx → α) (n : Fin 16384) (s : Fin 20) (k : Fin 64) :
    lookup tok tab (ix3 n s k) = tab (ix2 (rowOf (tok (ix2 n s))) k) := rfl

end Cert.Spec
-- ==== Proof.PreFacts.lean ====
/-
  What the precondition says of the tokens. The precondition's printed function is the conjunction of two
  all-reductions: every table entry has finite magnitude, and every token t satisfies 0 <= t <= 999999 as a
  signed word. From the function being all ones, each token is read back: it lies in [0, 999999] signed, so
  its unsigned value is below 1000000.
-/
import proofs.«206312_g12936441495622_cont_fleet_311_30_alg».proof.Pre_input_domain
import Idealize.ShloMosaic.Lib.ReduceAll

namespace Cert.Proof.PreFacts

open Idealize.ShloMosaic

/-- The rank-0 shape has one index. -/
instance subsingleton_scalar_idx : Subsingleton Cert.Pre_input_domain.S_.Idx := ⟨fun a b => funext fun d => d.elim0⟩

/-- Every token lies in [0, 999999], read signed. -/
theorem tok_bounds {F : FTy → Type} [FloatOps F] [Cert.Pre_input_domain.Facts]
    (tok : IVec Cert.Pre_input_domain.S16384x20 32) (tab : FVec F Cert.Pre_input_domain.S1000000x64 .f32)
    (h : Cert.Pre_input_domain.fn (F := F) tok tab = fun _ => 1#1) (j : Cert.Pre_input_domain.S16384x20.Idx) :
    (0 : Int) ≤ (tok j).toInt ∧ (tok j).toInt ≤ 999999 := by
  have e := congrFun h (fun d => d.elim0)
  dsimp only [Cert.Pre_input_domain.fn] at e
  have e2 := (IntOp.andi_eq_one.1 e).2
  have e3 := Host.reduce_andi_all _ _ _ _ _ e2 j
  have e4 := IntOp.andi_eq_one.1 e3
  have h0 : (0#32 : BitVec 32).toInt = 0 := by decide
  have h1 : (999999#32 : BitVec 32).toInt = 999999 := by decide
  refine ⟨?_, ?_⟩
  · have := IntOp.cmpi_sge.1 e4.1
    simpa only [broadcastInDim, constantI, h0] using this
  · have := IntOp.cmpi_sle.1 e4.2
    simpa only [broadcastInDim, constantI, h1] using this

/-- Every token, read unsigned, is below the table's row count. -/
theorem tok_lt {F : FTy → Type} [FloatOps F] [Cert.Pre_input_domain.Facts]
    (tok : IVec Cert.Pre_input_domain.S16384x20 32) (tab : FVec F Cert.Pre_input_domain.S1000000x64 .f32)
    (h : Cert.Pre_input_domain.fn (F := F) tok tab = fun _ => 1#1) (j : Cert.Pre_input_domain.S16384x20.Idx) :
    (tok j).toNat < 1000000 := by
  obtain ⟨h0, h1⟩ := tok_bounds tok tab h j
  rw [BitVec.toInt_eq_toNat_cond] at h0 h1
  have := (tok j).isLt
  split at h0 <;> omega

end Cert.Proof.PreFacts
-- ==== Proof.RefRun.lean ====
/-
  The reference program's run, read back. The reference is jnp.take(weight, token_ids, axis=0): its @main calls the
  outlined take, which wraps negative indices (idx + 1000000 where idx < 0, through the outlined where), tests each
  wrapped index against [0, 999999], gathers one table row of 64 entries per index, and selects the gathered row
  where the test holds and a NaN row elsewhere. The program is a straight line of 23 host operations once the two
  outlined functions are unfolded at their calls; every buffer ends at the operations' fold over the launch
  contents. Under the precondition every token lies in [0, 999999]: the wrap leaves it, the test holds everywhere,
  and the gather at (n, s, k) reads the table at (token (n, s), k): the result is the lookup of Spec.lean.
-/
import proofs.«206312_g12936441495622_cont_fleet_311_30_alg».proof.ReferenceIdeal
import proofs.«206312_g12936441495622_cont_fleet_311_30_alg».proof.Proof.Gen.ReferenceIdeal
import proofs.«206312_g12936441495622_cont_fleet_311_30_alg».proof.Pre_input_domain
import proofs.«206312_g12936441495622_cont_fleet_311_30_alg».proof.Proof.Spec
import proofs.«206312_g12936441495622_cont_fleet_311_30_alg».proof.Proof.PreFacts
import Idealize.ShloMosaic.Lib.StableHlo.Run
import Idealize.ShloMosaic.Lib.ReduceAll
import Idealize.ShloMosaic.Lib.ValueIdx

noncomputable section

namespace Cert.Proof.Ref

open Cert.ReferenceIdeal Idealize.ShloMosaic Idealize.ShloMosaic.TcCoe Idealize.SL.Sem Idealize.ShloMosaic.StableHlo
open Idealize.ShloMosaic.ValueIdx
open Cert.ReferenceIdeal.Facts₀

variable {F : FTy → Type} [FloatOps F] [Cert.ReferenceIdeal.Facts]

/-! ## The program as a list of operations -/

/-- @main's operations in order, the two calls unfolded: the take's twenty-two with the where's one select in its place. -/
abbrev ops : List (HloOp τ sig (Elt F)) :=
  [ TRef.nullary main_call0.c (constantI S_ 32 0#32),
    TRef.unary main_call0.c main_call0.v0 (broadcastInDim S16384x20 ![] bcast_S_S16384x20),
    TRef.binary (.of main_arg0) main_call0.v0 main_call0.v1 (cmpi .slt),
    TRef.nullary main_call0.c_0 (constantI S_ 32 1000000#32),
    TRef.unary main_call0.c_0 main_call0.v2 (broadcastInDim S16384x20 ![] bcast_S_S16384x20),
    TRef.binary (.of main_arg0) main_call0.v2 main_call0.v3 addi,
    TRef.ternary main_call0.v1 main_call0.v3 (.of main_arg0) main_call0.call0.v0 select,
    TRef.unary main_call0.call0.v0 main_call0.v5 (broadcastInDim S16384x20x1 ![0, 1] bcast_S16384x20_S16384x20x1_0_1),
    TRef.nullary main_call0.c_1 (constantI S1 32 999999#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (.of main_arg1) main_call0.v5 main_call0.v13 (fun x i => Host.gather gather_S1000000x64_S16384x20x1_S16384x20x64_2_0_n_n_0_2_164 x i),
    TRef.unary main_call0.v12 main_call0.v14 (broadcastInDim S16384x20x64 ![0, 1] bcast_S16384x20_S16384x20x64_0_1),
    TRef.nullary main_call0.cst (constant S_ .f32 0x7FC00000#32),
    TRef.unary main_call0.cst main_call0.v15 (broadcastInDim S16384x20x64 ![] bcast_S_S16384x20x64),
    TRef.ternary main_call0.v14 main_call0.v13 main_call0.v15 main_call0.v16 select ]

set_option maxRecDepth 1024 in
/-- @main is that straight line: the functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## The composed term -/

/-- The wrapped indices: idx + 1000000 where idx < 0, else idx. -/
def wrapped (tok : IVec S16384x20 32) : IVec S16384x20 32 :=
  select (cmpi .slt tok (broadcastInDim S16384x20 ![] bcast_S_S16384x20 (constantI S_ 32 0#32)))
    (addi tok (broadcastInDim S16384x20 ![] bcast_S_S16384x20 (constantI S_ 32 1000000#32))) tok

/-- The start indices of the gather: the wrapped indices with a trailing axis of size one. -/
def starts (tok : IVec S16384x20 32) : IVec S16384x20x1 32 :=
  broadcastInDim S16384x20x1 ![0, 1] bcast_S16384x20_S16384x20x1_0_1 (wrapped tok)

/-- The range test, all-reduced along the trailing axis. -/
def inRange (tok : IVec S16384x20 32) : IVec S16384x20 1 :=
  Host.reduce IntOp.andi
    (andi (cmpi .sge (starts tok) (broadcastInDim S16384x20x1 ![] bcast_S_S16384x20x1 (constantI S_ 32 0#32)))
      (cmpi .sle (starts tok) (broadcastInDim S16384x20x1 ![0, 1, 2] bcast_S1x1x1_S16384x20x1_0_1_2
        (broadcastInDim S1x1x1 ![2] bcast_S1_S1x1x1_2 (constantI S1 32 999999#32)))))
    (constantI S_ 1 1#1) reducesTo_S16384x20x1_S16384x20_d2 h_S_

/-- What the reference computes of its arguments. -/
def out (tok : IVec S16384x20 32) (tab : FVec F S1000000x64 .f32) : FVec F S16384x20x64 .f32 :=
  select (broadcastInDim S16384x20x64 ![0, 1] bcast_S16384x20_S16384x20x64_0_1 (inRange tok))
    (Host.gather gather_S1000000x64_S16384x20x1_S16384x20x64_2_0_n_n_0_2_164 tab (starts tok))
    (broadcastInDim S16384x20x64 ![] bcast_S_S16384x20x64 (constant S_ .f32 0x7FC00000#32))

attribute [local irreducible] Host.reduce Host.gather in
set_option maxRecDepth 8192 in
set_option maxHeartbeats 400000 in
/-- The fold at the result buffer is that term, by computation. -/
theorem out_eq (V : Valuation τ sig (Elt F)) :
    after ops V (main_v0 : DevRef τ sig) = out (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- From any memory with zero counters: every weakly fair execution of @main terminates with the result at the
    composed term of the arguments and the arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

/-! ## The term under the precondition -/

/-- A left fold by and over one-bit words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a List.mem_cons_self]; decide
    rw [List.foldl_cons, e]
    exact foldl_andi_one f l fun n hn => h n (List.mem_cons_of_mem _ hn)

section Value
variable (tok : IVec S16384x20 32)

/-- A nonnegative index is not wrapped. -/
theorem wrapped_eq (h0 : ∀ j, (0 : Int) ≤ (tok j).toInt) : wrapped tok = tok := by
  funext j
  show Scalar.select (IntOp.cmpi .slt (tok j) 0#32) _ (tok j) = tok j
  have hn : ¬IntOp.cmpi .slt (tok j) 0#32 = 1#1 := by
    rw [IntOp.cmpi_slt, show (0#32 : BitVec 32).toInt = 0 from by decide]
    exact not_lt.mpr (h0 j)
  rw [eq_zero_of_ne_one hn, select_zero]

/-- The start index at (n, s, 0) is the wrapped index at (n, s). -/
theorem starts_apply (j : S16384x20x1.Idx) :
    starts tok j = wrapped tok (ix2 (⟨(j 0).val, (j 0).isLt⟩ : Fin 16384) (⟨(j 1).val, (j 1).isLt⟩ : Fin 20)) := by
  unfold starts broadcastInDim
  congr 1
  funext a
  match a with
  | ⟨0, _⟩ => rfl
  | ⟨1, _⟩ => rfl

/-- With every index in [0, 999999] the range test holds everywhere. -/
theorem inRange_eq (hb : ∀ j, (0 : Int) ≤ (tok j).toInt ∧ (tok j).toInt ≤ 999999) (j : S16384x20.Idx) :
    inRange tok j = 1#1 := by
  unfold inRange
  rw [Host.reduce_eq_foldl]
  refine foldl_andi_one _ _ fun i _ => ?_
  show IntOp.andi (IntOp.cmpi .sge (starts tok i) 0#32) (IntOp.cmpi .sle (starts tok i) 999999#32) = 1#1
  rw [IntOp.andi_eq_one, IntOp.cmpi_sge, IntOp.cmpi_sle, starts_apply, wrapped_eq tok fun j => (hb j).1,
    show (0#32 : BitVec 32).toInt = 0 from by decide, show (999999#32 : BitVec 32).toInt = 999999 from by decide]
  exact hb _

end Value

/-- The gather read at (n, s, k): the table at the start index (n, s, 0), read signed and clamped into [0, 999999],
    and column k. -/
theorem gather_apply {α : Type} (tab : S1000000x64.Idx → α) (idx : IVec S16384x20x1 32) (j : S16384x20x64.Idx) :
    Host.gather gather_S1000000x64_S16384x20x1_S16384x20x64_2_0_n_n_0_2_164 tab idx j
      = tab (ix2 (⟨min (idx (ix3 (⟨(j 0).val, (j 0).isLt⟩ : Fin 16384) (⟨(j 1).val, (j 1).isLt⟩ : Fin 20) (0 : Fin 1))).toInt.toNat 999999,
          by omega⟩ : Fin 1000000) (⟨(j 2).val, (j 2).isLt⟩ : Fin 64)) := by
  unfold Host.gather
  congr 1
  funext a
  refine Fin.ext ?_
  match a with
  | ⟨0, _⟩ =>
    show gather_S1000000x64_S16384x20x1_S16384x20x64_2_0_n_n_0_2_164.start j idx 0
      + gather_S1000000x64_S16384x20x1_S16384x20x64_2_0_n_n_0_2_164.batchCoord j 0
      + gather_S1000000x64_S16384x20x1_S16384x20x64_2_0_n_n_0_2_164.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S16384x20x1_S16384x20x64_2_0_n_n_0_2_164.startIndexMap from List.mem_singleton.mpr rfl)]
    have hsi : gather_S1000000x64_S16384x20x1_S16384x20x64_2_0_n_n_0_2_164.siIdx j
        ⟨List.idxOf (0 : Fin 2) gather_S1000000x64_S16384x20x1_S16384x20x64_2_0_n_n_0_2_164.startIndexMap,
          List.idxOf_lt_length_iff.2 (List.mem_singleton.mpr rfl)⟩
        = ix3 (⟨(j 0).val, (j 0).isLt⟩ : Fin 16384) (⟨(j 1).val, (j 1).isLt⟩ : Fin 20) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S1000000x64_S16384x20x1_S16384x20x64_2_0_n_n_0_2_164.start j idx 1
      + gather_S1000000x64_S16384x20x1_S16384x20x64_2_0_n_n_0_2_164.batchCoord j 1
      + gather_S1000000x64_S16384x20x1_S16384x20x64_2_0_n_n_0_2_164.offCoord j 1 = (j 2).val
    rw [GatherDims.batchCoord_eq_zero _ _ _ List.not_mem_nil]
    unfold GatherDims.start
    rw [dif_neg (show (1 : Fin 2) ∉ gather_S1000000x64_S16384x20x1_S16384x20x64_2_0_n_n_0_2_164.startIndexMap from by decide)]
    unfold GatherDims.offCoord
    rw [dif_pos (show (1 : Fin 2) ∈ gather_S1000000x64_S16384x20x1_S16384x20x64_2_0_n_n_0_2_164.sKept from by decide)]
    simp only [Nat.add_zero, Nat.zero_add]
    rfl

/-- A word in [0, 999999] read signed, clamped, names the row of its unsigned value. -/
theorem clamp_eq (w : BitVec 32) (h0 : (0 : Int) ≤ w.toInt) (h1 : w.toInt ≤ 999999) :
    min w.toInt.toNat 999999 = w.toNat % 1000000 := by
  rw [BitVec.toInt_eq_toNat_cond] at h0 h1 ⊢
  have := w.isLt
  split at h0 <;> omega

/-- Under the precondition's bounds the reference's term is the lookup. -/
theorem out_eq_lookup (tok : IVec S16384x20 32) (tab : FVec F S1000000x64 .f32)
    (hb : ∀ j, (0 : Int) ≤ (tok j).toInt ∧ (tok j).toInt ≤ 999999) :
    out tok tab = Cert.Spec.lookup tok tab := by
  funext j
  unfold out
  rw [select_apply]
  have hm : broadcastInDim S16384x20x64 ![0, 1] bcast_S16384x20_S16384x20x64_0_1 (inRange tok) j = 1#1 := inRange_eq tok hb _
  rw [hm, select_one, gather_apply]
  unfold Cert.Spec.lookup
  refine congrArg tab ?_
  funext d
  match d with
  | ⟨0, _⟩ =>
    refine Fin.ext ?_
    show min (starts tok _).toInt.toNat 999999 = (tok _).toNat % 1000000
    rw [starts_apply, wrapped_eq tok fun j => (hb j).1]
    exact clamp_eq _ (hb _).1 (hb _).2
  | ⟨1, _⟩ => rfl

/-! ## The run under the precondition -/

/-- From any memory with zero counters of which the precondition holds: every weakly fair execution of @main
    terminates, the result is the lookup of the argument arrays, and the arguments are unchanged. -/
theorem run [Cert.Pre_input_domain.Facts]
    (m' : (ℓ : Loc nD τ sig) → Buf (Elt F) ℓ) (g' : Dev nD → PrngReg)
    (hpre : ∀ c : Dev nD, Cert.Pre_input_domain.fn (F := F) (m' ((c.tc : Thread nD τ).loc main_arg0))
      (m' ((c.tc : Thread nD τ).loc main_arg1)) = fun _ => 1#1) :
    θ_run (defs (F := F)) (onTc (τ := τ) (main (F := F))) ⟨m', fun _ => 0, g'⟩ fun r => ∀ c : Dev nD,
      r.2.mem ((c.tc : Thread nD τ).loc main_v0)
          = Cert.Spec.lookup (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono
    (fun _ h c => ⟨(h c).1.trans (out_eq_lookup _ _ (Cert.Proof.PreFacts.tok_bounds _ _ (hpre c))), (h c).2⟩)
    (run_out m' g')

end Cert.Proof.Ref

end
-- ==== Proof.Kernel.Common.lean ====
/-
  What the launch and the task share: the program as the launch theorem sees it, the ghost state (the handshakes'
  rounds beside the transfers' counters), the arrays' locations, how the arrays split among the thirty-two workers
  (worker `2 s + c` is vector subcore `s` of SparseCore `c`: it owns row `2 s + c` of the reshaped tokens and
  rows `512 (2 s + c) …` of the output, and reads the whole table at a share of its own), and what a worker's block of
  the output must hold when it is done: in its first 64 columns, the table's rows its tokens name.
-/
import proofs.«206312_g12936441495622_cont_fleet_311_30_alg».proof.Kernel
import proofs.«206312_g12936441495622_cont_fleet_311_30_alg».proof.Proof.Spec
import proofs.«206312_g12936441495622_cont_fleet_311_30_alg».proof.Proof.Gen.Kernel
import Idealize.ShloMosaic.Lib.SparseCore.Launch
import Idealize.ShloMosaic.Lib.Pipeline.Kit
import Idealize.ShloMosaic.Lib.Batch
import Idealize.ShloMosaic.Lib.ValueIdx
import Idealize.ShloMosaic.Lib.Tactic

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The tokens `[16384, 20]`, the table `[1000000, 64]`, the tokens reshaped `[32, 10240]`, the kernel's output
    `[16384, 20, 128]` and the result `[16384, 20, 64]`, as locations of device `d`. -/
abbrev tokLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- Worker `2 s + c`: vector subcore `s` of SparseCore `c`. -/
def wid (c : Fin 2) (s : Fin 16) : Fin 32 := ⟨2 * s.val + c.val, by omega⟩

theorem idiv : 32 ∣ S32x10240.size 0 := ⟨1, rfl⟩
theorem odiv : 32 ∣ S16384x20x128.size 0 := ⟨512, rfl⟩
/-- Worker `w`'s row of the reshaped tokens and its 512 rows of the output. -/
abbrev irow (w : Fin 32) : Rect S32x10240 := Rect.part (s := S32x10240) (a₀ := 0) idiv w
abbrev oblk (w : Fin 32) : Rect S16384x20x128 := Rect.part (s := S16384x20x128) (a₀ := 0) odiv w
abbrev iRowSet (w : Fin 32) : Finset S32x10240.Idx := (irow w).set
abbrev oBlkSet (w : Fin 32) : Finset S16384x20x128.Idx := (oblk w).set
/-- Worker `w`'s share of the table: every worker reads all of it. -/
abbrev tq (w : Fin 32) : PosShare TreeShare := Transfers.shareTok fullShare 32 w

/-! ## The launch memory, the reshaped tokens, and what is asked of them -/

variable (m : (ℓ : Loc nD τ sig) → Buf (Elt F) ℓ) (I : (d : Dev nD) → Buf (Elt F) (idxLoc d))

/-- Every reshaped token names a row of the table. -/
def PreOK : Prop := ∀ (d : Dev nD) (j : S32x10240.Idx), (I d j).toNat < 1000000

/-- Worker `w`'s block of the output is done: row `512 w + r`, position `s`, column `k < 64` holds the table's
    row named by token `20 r + s` of the worker's row of tokens, at column `k`. (Columns 64 … 127 hold whatever the
    row buffers held.) -/
def GoodOut (d : Dev nD) (w : Fin 32) (f : Buf (Elt F) (outLoc d)) : Prop :=
  ∀ (r : Fin 512) (s : Fin 20) (k : Fin 64),
    f (ix3 (⟨512 * w.val + r.val, by omega⟩ : Fin 16384) s (⟨k.val, by omega⟩ : Fin 128))
      = m (tabLoc d) (ix2 (Cert.Spec.rowOf (I d (ix2 w (⟨20 * r.val + s.val, by omega⟩ : Fin 10240)))) k)

/-! ## What the handshakes carry -/

/-- What a worker is handed: its row of tokens, its share of the table, its block of the output as launched; -/
abbrev goPiece (d : Dev nD) (w : Fin 32) : sProp 𝕄 :=
  iprop((idxLoc d ↦[iRowSet w]{fullShare} I d) ∗ (tabLoc d ↦{tq w} m (tabLoc d)) ∗ (outLoc d ↦[oBlkSet w]{fullShare} m (outLoc d)))
/-- and what it hands back: the same, its block of the output done. -/
abbrev tdPiece (d : Dev nD) (w : Fin 32) : sProp 𝕄 :=
  iprop((idxLoc d ↦[iRowSet w]{fullShare} I d) ∗ (tabLoc d ↦{tq w} m (tabLoc d))
    ∗ ∃ f, ⌜GoodOut m I d w f⌝ ∗ (outLoc d ↦[oBlkSet w]{fullShare} f))

/-- The one call: a SparseCore is handed its sixteen workers' pieces and hands them back done. -/
def P : (K (F := F)).Pay (nD := nD) (Val := Elt F) (Name := ℕ) (U := UU) where
  st := fun q d c => match q with | 0 => bigSep Finset.univ fun s : Fin 16 => goPiece m I d (wid (Fin.cast nCore_zero c) s)
  dn := fun q d c => match q with | 0 => bigSep Finset.univ fun s : Fin 16 => tdPiece m I d (wid (Fin.cast nCore_zero c) s)
  go := fun q d c s => match q with | 0 => goPiece m I d (wid (Fin.cast nCore_zero c) (Fin.cast nSub_zero s))
  td := fun q d c s => match q with | 0 => tdPiece m I d (wid (Fin.cast nCore_zero c) (Fin.cast nSub_zero s))
  x := fun _ _ => iprop(emp)

instance P_storable : (P (F := F) m I).IsStorable where
  st q d c := match q with
    | 0 => (inferInstance : BI.Storable (upEmb : UEmb _ 𝕄) (bigSep Finset.univ fun s : Fin 16 => goPiece m I d (wid (Fin.cast nCore_zero c) s)))
  dn q d c := match q with
    | 0 => (inferInstance : BI.Storable (upEmb : UEmb _ 𝕄) (bigSep Finset.univ fun s : Fin 16 => tdPiece m I d (wid (Fin.cast nCore_zero c) s)))
  go q d c s := match q with
    | 0 => (inferInstance : BI.Storable (upEmb : UEmb _ 𝕄) (goPiece m I d (wid (Fin.cast nCore_zero c) (Fin.cast nSub_zero s))))
  td q d c s := match q with
    | 0 => (inferInstance : BI.Storable (upEmb : UEmb _ 𝕄) (tdPiece m I d (wid (Fin.cast nCore_zero c) (Fin.cast nSub_zero s))))

end Cert.Proof.Kernel

end
-- ==== Proof.LaunchPure.lean ====
/-
  Index arithmetic the launch needs, free of the program: a `[16384, 20]` array read row-major at shape `[32, 10240]`,
  a `[16384, 20, 128]` array cut to its first 64 columns, and the numbering of the thirty-two workers by
  (SparseCore, vector subcore): worker `2 s + c`.
-/
import proofs.«206312_g12936441495622_cont_fleet_311_30_alg».proof.Proof.Spec
import Idealize.ShloMosaic.Lib.Pipeline.Value
import Idealize.ShloMosaic.Lib.ValueIdx

namespace Cert.Proof.LaunchPure

open Idealize.ShloMosaic Idealize.ShloMosaic.ValueIdx

variable {α : Type}

/-- Row-major: position `20 r + s` of row `w` of the `[32, 10240]` reading is element `(512 w + r, s)`. -/
theorem reshape_apply (x : (⟨2, ![16384, 20]⟩ : Shape).Idx → α) (h : (⟨2, ![16384, 20]⟩ : Shape).ShapeCasts ⟨2, ![32, 10240]⟩)
    (w : Fin 32) (r : Fin 512) (s : Fin 20) :
    shapeCast (⟨2, ![32, 10240]⟩ : Shape) x h (ix2 w (⟨20 * r.val + s.val, by omega⟩ : Fin 10240))
      = x (ix2 (⟨512 * w.val + r.val, by omega⟩ : Fin 16384) s) := by
  refine shapeCast_apply x h _ _ ?_
  rw [Shape.rowMajor_val_two, Shape.rowMajor_val_two]
  show (512 * w.val + r.val) * 20 + s.val = w.val * 10240 + (20 * r.val + s.val)
  omega

/-- The first 64 columns: the cut at `(n, s, k)` is the array at `(n, s, k)`. -/
theorem slice_apply (g : (⟨3, ![16384, 20, 128]⟩ : Shape).Idx → α)
    (h : (⟨3, ![16384, 20, 128]⟩ : Shape).Slices ![0, 0, 0] ⟨3, ![16384, 20, 64]⟩) (n : Fin 16384) (s : Fin 20) (k : Fin 64) :
    extractStridedSlice (⟨3, ![16384, 20, 64]⟩ : Shape) ![0, 0, 0] g h (ix3 n s k)
      = g (ix3 n s (⟨k.val, by omega⟩ : Fin 128)) := by
  refine extractStridedSlice_apply ![0, 0, 0] g h _ _ fun a => ?_
  match a with
  | ⟨0, _⟩ => show n.val = 0 + n.val; omega
  | ⟨1, _⟩ => show s.val = 0 + s.val; omega
  | ⟨2, _⟩ => show k.val = 0 + k.val; omega

/-- (SparseCore `c`, vector subcore `s`) and worker `2 s + c` name each other. -/
def widEquiv : Fin 2 × Fin 16 ≃ Fin 32 where
  toFun p := ⟨2 * p.2.val + p.1.val, by omega⟩
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem widEquiv_val (c : Fin 2) (s : Fin 16) : (widEquiv (c, s)).val = 2 * s.val + c.val := rfl

/-- A row number below 16384 is `512 w + r`. -/
theorem row_split (n : Fin 16384) : ∃ (w : Fin 32) (r : Fin 512), n.val = 512 * w.val + r.val :=
  ⟨⟨n.val / 512, by omega⟩, ⟨n.val % 512, Nat.mod_lt _ (by decide)⟩, by show n.val = 512 * (n.val / 512) + n.val % 512; omega⟩

end Cert.Proof.LaunchPure
-- ==== Proof.Kernel.Launch.lean ====
/-
  The launch of the program: @main on the TensorCore reshapes the tokens `[16384, 20]` to `[32, 10240]`, starts the two
  SparseCores and waits for them, and cuts the output `[16384, 20, 128]` to its first 64 columns. Before the call the
  reshaped tokens and the output are dealt out by rows among the thirty-two workers and the table goes out as thirty-two
  read shares (a remainder kept back); after it the rows, shares and blocks are put together again, each block's
  contents known in its first 64 columns, and the cut reads the lookup. Given every worker's task (a hypothesis here),
  every weakly fair execution terminates with the result the lookup and the arguments unchanged.
-/
import proofs.«206312_g12936441495622_cont_fleet_311_30_alg».proof.Proof.Kernel.Common
import proofs.«206312_g12936441495622_cont_fleet_311_30_alg».proof.Proof.LaunchPure
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.Transfers
import Idealize.ShloMosaic.Lib.ValueIdx
import Idealize.ShloMosaic.Lib.Tactic

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.LaunchPure

variable {F : FTy → Type}

local notation "𝕄" => MT nD τ sig (HIx 1) (Elt F) ℕ UU ℕ

variable (m : (ℓ : Loc nD τ sig) → Buf (Elt F) ℓ) (ρ : Dev nD → PrngReg)

/-! ## The reshaped tokens -/

/-- The reshaped tokens on device `d`: the tokens read row-major at shape `[32, 10240]`. -/
def idxC (d : Dev nD) : Buf (Elt F) (idxLoc d) :=
  fun i => shapeCast S32x10240 (m (tokLoc d)) Cert.Kernel.Gen.shapeCasts_S16384x20_S32x10240 i

/-- Worker `w`'s token number `20 r + s` is token `(512 w + r, s)`. -/
theorem idxC_apply (d : Dev nD) (w : Fin 32) (r : Fin 512) (s : Fin 20) :
    idxC m d (ix2 w (⟨20 * r.val + s.val, by omega⟩ : Fin 10240)) = m (tokLoc d) (ix2 (⟨512 * w.val + r.val, by omega⟩ : Fin 16384) s) :=
  reshape_apply (α := Elt F .i32) (m (tokLoc d)) Cert.Kernel.Gen.shapeCasts_S16384x20_S32x10240 w r s

/-- A reshaped token is a token: in range if they all are. -/
theorem preOK_of_lt (h : ∀ d (j : S16384x20.Idx), (m (tokLoc d) j).toNat < 1000000) : PreOK (idxC m) := by
  intro d j
  unfold idxC shapeCast
  exact h d _

/-- What the run leaves: the result is the lookup, the arguments unchanged. -/
def QC : PUnit × MemSt nD τ sig (Elt F) → Prop := fun r => ∀ c : Dev nD,
  r.2.mem (resLoc c) = Cert.Spec.lookup (α := Elt F .f32) (m (tokLoc c)) (m (tabLoc c)) ∧ r.2.mem (tokLoc c) = m (tokLoc c) ∧ r.2.mem (tabLoc c) = m (tabLoc c)

/-! ## A SparseCore's pieces are its sixteen workers' -/

variable (I : (d : Dev nD) → Buf (Elt F) (idxLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m I) 0 := by
  intro d c
  show (bigSep Finset.univ fun s : Fin 16 => goPiece m I d (wid (Fin.cast nCore_zero c) s)) ⊢ |={Set.univ}=> iprop(
      (bigSep Finset.univ fun i : Fin ((K (F := F)).nSub 0) => goPiece m I d (wid (Fin.cast nCore_zero c) (Fin.cast nSub_zero i)))
      ∗ ((bigSep Finset.univ fun i : Fin ((K (F := F)).nSub 0) => tdPiece m I d (wid (Fin.cast nCore_zero c) (Fin.cast nSub_zero i)))
          -∗ bigSep Finset.univ fun s : Fin 16 => tdPiece m I d (wid (Fin.cast nCore_zero c) s)))
  rw [bigSep_tasks (F := F) (fun s => goPiece m I d (wid (Fin.cast nCore_zero c) s)),
    bigSep_tasks (F := F) (fun s => tdPiece m I d (wid (Fin.cast nCore_zero c) s))]
  iintro H; imodintro
  isplitl [H]; · iexact H
  iintro H; iexact H

/-! ## The launch element of the ghost state -/

def u₀ : UU := (initOf (K (F := F)).hsCells (K (F := F)).hsToks, 1)

theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m I).x q thr) = bigSep Finset.univ fun _ => iprop(emp) from
    bigSep_congr fun _ _ => bigSep_univ_of_subsingleton (0 : Fin 1), bigSep_emp']
  iempintro

/-! ## The arrays split among the workers, and joined again -/

theorem irows_disjoint : ∀ i ∈ (Finset.univ : Finset (Fin 32)), ∀ j ∈ (Finset.univ : Finset (Fin 32)), i ≠ j → Disjoint (iRowSet i) (iRowSet j) :=
  fun _ _ _ _ h => Rect.part_disjoint idiv h
theorem oblks_disjoint : ∀ i ∈ (Finset.univ : Finset (Fin 32)), ∀ j ∈ (Finset.univ : Finset (Fin 32)), i ≠ j → Disjoint (oBlkSet i) (oBlkSet j) :=
  fun _ _ _ _ h => Rect.part_disjoint odiv h
theorem irows_cover : (Finset.univ : Finset (Fin 32)).biUnion iRowSet = Finset.univ := Rect.biUnion_part idiv
theorem oblks_cover : (Finset.univ : Finset (Fin 32)).biUnion oBlkSet = Finset.univ := Rect.biUnion_part odiv

theorem idx_rows (d : Dev nD) (f : Buf (Elt F) (idxLoc d)) :
    (idxLoc d ↦{fullShare} f : sProp 𝕄) = bigSep Finset.univ fun w : Fin 32 => idxLoc d ↦[iRowSet w]{fullShare} f := by
  rw [← pointsTo_biUnion Finset.univ (ℓ := idxLoc d) iRowSet irows_disjoint, irows_cover]
theorem out_blks (d : Dev nD) (f : Buf (Elt F) (outLoc d)) :
    (outLoc d ↦{fullShare} f : sProp 𝕄) = bigSep Finset.univ fun w : Fin 32 => outLoc d ↦[oBlkSet w]{fullShare} f := by
  rw [← pointsTo_biUnion Finset.univ (ℓ := outLoc d) oBlkSet oblks_disjoint, oblks_cover]

/-- Row `512 w + r` of the output lies in worker `w`'s block. -/
theorem mem_oBlk (w : Fin 32) (r : Fin 512) (s : Fin 20) (k : Fin 128) :
    (ix3 (⟨512 * w.val + r.val, by omega⟩ : Fin 16384) s k : S16384x20x128.Idx) ∈ oBlkSet w := by
  refine Rect.mem_set_unit.mpr fun a => ?_
  match a with
  | ⟨0, _⟩ =>
    show w.val * (16384 / 32) ≤ 512 * w.val + r.val ∧ 512 * w.val + r.val < w.val * (16384 / 32) + 16384 / 32
    omega
  | ⟨1, _⟩ =>
    show 0 * 20 ≤ s.val ∧ s.val < 0 * 20 + 20
    omega
  | ⟨2, _⟩ =>
    show 0 * 128 ≤ k.val ∧ k.val < 0 * 128 + 128
    omega

/-- The thirty-two workers, SparseCore by SparseCore. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

theorem st0_eq (d : Dev nD) :
    (bigSep Finset.univ fun c : Fin ((K (F := F)).nCore 0) => (P m I).st 0 d c) = bigSep Finset.univ fun w : Fin 32 => goPiece m I d w := by
  rw [bigSep_workers (F := F) (fun w => goPiece m I d w)]
  exact bigSep_cores (F := F) (fun c => bigSep Finset.univ fun s : Fin 16 => goPiece m I d (wid c s))
theorem dn0_eq (d : Dev nD) :
    (bigSep Finset.univ fun c : Fin ((K (F := F)).nCore 0) => (P m I).dn 0 d c) = bigSep Finset.univ fun w : Fin 32 => tdPiece m I d w := by
  rw [bigSep_workers (F := F) (fun w => tdPiece m I d w)]
  exact bigSep_cores (F := F) (fun c => bigSep Finset.univ fun s : Fin 16 => tdPiece m I d (wid c s))

/-- The workers' pieces, array by array. -/
theorem go_pieces (d : Dev nD) :
    (bigSep Finset.univ fun w : Fin 32 => goPiece m I d w)
      = (iprop((bigSep Finset.univ fun w : Fin 32 => idxLoc d ↦[iRowSet w]{fullShare} I d)
          ∗ (bigSep Finset.univ fun w : Fin 32 => tabLoc d ↦{tq w} m (tabLoc d))
          ∗ (bigSep Finset.univ fun w : Fin 32 => outLoc d ↦[oBlkSet w]{fullShare} m (outLoc d))) : sProp 𝕄) := by
  show (bigSep Finset.univ fun w : Fin 32 =>
    iprop((idxLoc d ↦[iRowSet w]{fullShare} I d) ∗ (tabLoc d ↦{tq w} m (tabLoc d)) ∗ (outLoc d ↦[oBlkSet w]{fullShare} m (outLoc d)))) = _
  rw [bigSep_sep', bigSep_sep']

/-- Before the call: the reshaped tokens by rows, the table by read shares (a remainder kept), the output by blocks. -/
theorem go_split (d : Dev nD) :
    iprop((idxLoc d ↦{fullShare} I d) ∗ (tabLoc d ↦{fullShare} m (tabLoc d)) ∗ (outLoc d ↦{fullShare} m (outLoc d)))
      ⊢ (iprop((tabLoc d ↦{Transfers.shareDrop fullShare 32} m (tabLoc d)) ∗ bigSep Finset.univ fun w : Fin 32 => goPiece m I d w) : sProp 𝕄) := by
  rw [idx_rows, out_blks, go_pieces]
  iintro ⟨Hi, Hx, Ho⟩
  ihave Hx' := (Transfers.pointsTo_toks_split (ℓ := tabLoc d) (S := Finset.univ) (f := m (tabLoc d)) fullShare 32) $$ Hx
  icases Hx' with ⟨Hdrop, Hx⟩
  isplitl [Hdrop]; · iexact Hdrop
  isplitl [Hi]; · iexact Hi
  isplitl [Hx]; · iexact Hx
  iexact Ho

/-- The blocks of the output, each done, are the output done: one array that is every worker's block. -/
theorem out_join (d : Dev nD) :
    (bigSep Finset.univ fun w : Fin 32 => iprop(∃ f, ⌜GoodOut m I d w f⌝ ∗ (outLoc d ↦[oBlkSet w]{fullShare} f)))
      ⊢ (iprop(∃ g, ⌜∀ w, GoodOut m I d w g⌝ ∗ (outLoc d ↦{fullShare} g)) : sProp 𝕄) := by
  haveI : Nonempty (Buf (Elt F) (outLoc d)) := ⟨m (outLoc d)⟩
  refine (bigSep_exists_pi Finset.univ (fun w (f : Buf (Elt F) (outLoc d)) => iprop(⌜GoodOut m I d w f⌝ ∗ (outLoc d ↦[oBlkSet w]{fullShare} f)))).trans ?_
  iintro ⟨%fs, H⟩
  ihave H' := (bigSep_pure_sep Finset.univ (fun w => GoodOut m I d w (fs w)) (fun w => (outLoc d ↦[oBlkSet w]{fullShare} fs w : sProp 𝕄))) $$ H
  icases H' with ⟨%hfs, H⟩
  ihave H'' := (pointsTo_biUnion_join (ℓ := outLoc d) (q := fullShare) (Val := Elt F) Finset.univ oBlkSet fs (fs 0) oblks_disjoint) $$ H
  icases H'' with ⟨%g, %hg, Hg⟩
  rw [oblks_cover]
  iexists g; isplitr
  · ipureintro; intro w r s k
    rw [hg w (Finset.mem_univ w) _ (mem_oBlk w r s _)]
    exact hfs w (Finset.mem_univ w) r s k
  · iexact Hg

/-- After the call: the rows, the shares and the remainder, and the blocks put together. -/
theorem td_join (d : Dev nD) :
    iprop((tabLoc d ↦{Transfers.shareDrop fullShare 32} m (tabLoc d)) ∗ bigSep Finset.univ fun w : Fin 32 => tdPiece m I d w)
      ⊢ (iprop((idxLoc d ↦{fullShare} I d) ∗ (tabLoc d ↦{fullShare} m (tabLoc d))
          ∗ ∃ g, ⌜∀ w, GoodOut m I d w g⌝ ∗ (outLoc d ↦{fullShare} g)) : sProp 𝕄) := by
  rw [idx_rows]
  show iprop(_ ∗ bigSep Finset.univ fun w : Fin 32 =>
    iprop((idxLoc d ↦[iRowSet w]{fullShare} I d) ∗ (tabLoc d ↦{tq w} m (tabLoc d))
      ∗ ∃ f, ⌜GoodOut m I d w f⌝ ∗ (outLoc d ↦[oBlkSet w]{fullShare} f))) ⊢ _
  rw [bigSep_sep', bigSep_sep']
  iintro ⟨Hdrop, Hi, Hx, Ho⟩
  isplitl [Hi]; · iexact Hi
  isplitl [Hdrop Hx]
  · iapply (Transfers.pointsTo_toks_join (ℓ := tabLoc d) (S := Finset.univ) (f := m (tabLoc d)) fullShare 32)
    isplitl [Hdrop]; · iexact Hdrop
    iexact Hx
  iapply (out_join m I d); iexact Ho

/-! ## The value: the cut of a done output is the lookup -/

theorem res_eq (d : Dev nD) (g : Buf (Elt F) (outLoc d)) (hg : ∀ w, GoodOut m (idxC m) d w g) :
    extractStridedSlice S16384x20x64 ![0, 0, 0] g Cert.Kernel.Gen.slices_S16384x20x128_S16384x20x64_0_0_0
      = Cert.Spec.lookup (α := Elt F .f32) (m (tokLoc d)) (m (tabLoc d)) := by
  funext j
  obtain ⟨n, s, k, rfl⟩ : ∃ (n : Fin 16384) (s : Fin 20) (k : Fin 64), j = ix3 n s k := ⟨j 0, j 1, j 2, eq_ix3 j⟩
  rw [slice_apply (α := Elt F .f32), Cert.Spec.lookup_apply]
  obtain ⟨w, r, hn⟩ := row_split n
  have h := hg w r s k
  rw [idxC_apply] at h
  rw [show n = (⟨512 * w.val + r.val, by have := w.isLt; have := r.isLt; omega⟩ : Fin 16384) from Fin.ext hn]
  exact h

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The reshape and the cut, as @main states them. -/
abbrev opR : HloOp τ sig (Elt F) :=
  StableHlo.reshape main_arg0 main_v0 rfl Cert.Kernel.Gen.shapeCasts_S16384x20_S32x10240
abbrev opS : HloOp τ sig (Elt F) :=
  StableHlo.unary main_v1 main_v2 ((extractStridedSlice S16384x20x64 ![0, 0, 0] · Cert.Kernel.Gen.slices_S16384x20x128_S16384x20x64_0_0_0) :
    (⟨S16384x20x128, .f32⟩ : BufTy).Contents (Elt F) → (⟨S16384x20x64, .f32⟩ : BufTy).Contents (Elt F))

/-- The TensorCore's arrays, all unscoped. -/
abbrev S5 : Finset (DevRef τ sig) := {a0', a1', v0', v1', v2'}

theorem held_S5 (d : Dev nD) (W : Valuation τ sig (Elt F)) :
    (held (T d) S5 W : sProp 𝕄) = iprop((tokLoc d ↦{fullShare} W a0') ∗ (tabLoc d ↦{fullShare} W a1') ∗ (idxLoc d ↦{fullShare} W v0')
      ∗ (outLoc d ↦{fullShare} W v1') ∗ (resLoc d ↦{fullShare} W v2')) := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((tokLoc d ↦{fullShare} W main_arg0) ∗ (tabLoc d ↦{fullShare} W main_arg1) ∗ (idxLoc d ↦{fullShare} W main_v0)
      ∗ (outLoc d ↦{fullShare} W main_v1) ∗ (resLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; the one before the cut: the reshaped tokens in place, the output at what the call left. -/
def V0 (d : Dev nD) : Valuation τ sig (Elt F) := fun b => m (d, b)
def V2 (d : Dev nD) (g : Buf (Elt F) (outLoc d)) : Valuation τ sig (Elt F) :=
  Function.update (Function.update (V0 m d) v0' (idxC m d)) v1' g

theorem unscoped_held (d : Dev nD) : (unscopedBufs d (fun b => m ((SparseCore.T d).loc b)) : sProp 𝕄) = held (T d) S5 (V0 m d) := by
  rw [unscopedBufs_eq, held_S5]; rfl

theorem hR : (opR (F := F)).bufs ⊆ S5 := show ({a0', v0'} : Finset (DevRef τ sig)) ⊆ S5 by decide
theorem hS : (opS (F := F)).bufs ⊆ S5 := show ({v1', v2'} : Finset (DevRef τ sig)) ⊆ S5 by decide

/-- After the reshape: the reshaped tokens in their array, the rest as launched. -/
theorem held_V1 (d : Dev nD) :
    (held (T d) S5 ((opR (F := F)).result (V0 m d)) : sProp 𝕄) = iprop((tokLoc d ↦{fullShare} m (tokLoc d)) ∗ (tabLoc d ↦{fullShare} m (tabLoc d))
      ∗ (idxLoc d ↦{fullShare} idxC m d) ∗ (outLoc d ↦{fullShare} m (outLoc d)) ∗ (resLoc d ↦{fullShare} m (resLoc d))) := by
  rw [held_S5,
    (opR (F := F)).result_of_not_mem (V0 m d) (b := a0') (show a0' ∉ ({v0'} : Finset (DevRef τ sig)) by decide),
    (opR (F := F)).result_of_not_mem (V0 m d) (b := a1') (show a1' ∉ ({v0'} : Finset (DevRef τ sig)) by decide),
    (opR (F := F)).result_of_not_mem (V0 m d) (b := v1') (show v1' ∉ ({v0'} : Finset (DevRef τ sig)) by decide),
    (opR (F := F)).result_of_not_mem (V0 m d) (b := v2') (show v2' ∉ ({v0'} : Finset (DevRef τ sig)) by decide),
    show (opR (F := F)).result (V0 m d) v0' = idxC m d from StableHlo.reshape_result _ _ _ _ _ _ _]
  rfl

theorem V2_a0 (d : Dev nD) (g : Buf (Elt F) (outLoc d)) : V2 m d g a0' = m (tokLoc d) :=
  (Function.update_of_ne (show a0' ≠ v1' by decide) _ _).trans (Function.update_of_ne (show a0' ≠ v0' by decide) _ _)
theorem V2_a1 (d : Dev nD) (g : Buf (Elt F) (outLoc d)) : V2 m d g a1' = m (tabLoc d) :=
  (Function.update_of_ne (show a1' ≠ v1' by decide) _ _).trans (Function.update_of_ne (show a1' ≠ v0' by decide) _ _)
theorem V2_v0 (d : Dev nD) (g : Buf (Elt F) (outLoc d)) : V2 m d g v0' = idxC m d :=
  (Function.update_of_ne (show v0' ≠ v1' by decide) _ _).trans (Function.update_self _ _ _)
theorem V2_v1 (d : Dev nD) (g : Buf (Elt F) (outLoc d)) : V2 m d g v1' = g := Function.update_self _ _ _
theorem V2_v2 (d : Dev nD) (g : Buf (Elt F) (outLoc d)) : V2 m d g v2' = m (resLoc d) :=
  (Function.update_of_ne (show v2' ≠ v1' by decide) _ _).trans (Function.update_of_ne (show v2' ≠ v0' by decide) _ _)

/-- After the cut: the result is the output's first 64 columns, the rest as before. -/
theorem held_V3 (d : Dev nD) (g : Buf (Elt F) (outLoc d)) :
    (held (T d) S5 ((opS (F := F)).result (V2 m d g)) : sProp 𝕄) = iprop((tokLoc d ↦{fullShare} m (tokLoc d)) ∗ (tabLoc d ↦{fullShare} m (tabLoc d))
      ∗ (idxLoc d ↦{fullShare} idxC m d) ∗ (outLoc d ↦{fullShare} g)
      ∗ (resLoc d ↦{fullShare} extractStridedSlice S16384x20x64 ![0, 0, 0] g Cert.Kernel.Gen.slices_S16384x20x128_S16384x20x64_0_0_0)) := by
  rw [held_S5,
    (opS (F := F)).result_of_not_mem (V2 m d g) (b := a0') (show a0' ∉ ({v2'} : Finset (DevRef τ sig)) by decide),
    (opS (F := F)).result_of_not_mem (V2 m d g) (b := a1') (show a1' ∉ ({v2'} : Finset (DevRef τ sig)) by decide),
    (opS (F := F)).result_of_not_mem (V2 m d g) (b := v0') (show v0' ∉ ({v2'} : Finset (DevRef τ sig)) by decide),
    (opS (F := F)).result_of_not_mem (V2 m d g) (b := v1') (show v1' ∉ ({v2'} : Finset (DevRef τ sig)) by decide),
    show (opS (F := F)).result (V2 m d g) v2' = extractStridedSlice S16384x20x64 ![0, 0, 0] (V2 m d g v1') Cert.Kernel.Gen.slices_S16384x20x128_S16384x20x64_0_0_0
      from StableHlo.unary_result _ _ _ _ _ _,
    V2_a0, V2_a1, V2_v0, V2_v1]

/-- What @main leaves the claim: the tokens and the table as launched, the result the lookup. -/
abbrev FIN (d : Dev nD) : sProp 𝕄 :=
  iprop((tokLoc d ↦{fullShare} m (tokLoc d)) ∗ (tabLoc d ↦{fullShare} m (tabLoc d))
    ∗ (resLoc d ↦{fullShare} Cert.Spec.lookup (α := Elt F .f32) (m (tokLoc d)) (m (tabLoc d))))

variable [FloatOps F]

/-- @main on device `d`'s TensorCore: the reshape; the call, from the thirty-two workers' pieces; the cut. -/
theorem hmain (κ : GSem nD τ sig → ℕ) (d : Dev nD) :
    iprop((K (F := F)).ctx EH (P m (idxC m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S5) hR (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Htok, Htab, Hidx, Hout, Hres⟩
  -- the arrays dealt out
  ihave Hgo := (go_split m (idxC m) d) $$ [Hidx Htab Hout]
  · isplitl [Hidx]; · iexact Hidx
    isplitl [Htab]; · iexact Htab
    iexact Hout
  icases Hgo with ⟨Hdrop, Hgo⟩
  -- the call
  iapply ((K (F := F)).wp_run (D (F := F)) 𝒱 (EH := EH) (P := P m (idxC m)) κ d 0) $$ [Hst Hgo Hb Htok Hres Hdrop]
  isplitr; · iexact Hctx
  isplitl [Hst]; · iexact Hst
  isplitl [Hgo]
  · rw [st0_eq]; iexact Hgo
  iintro ⟨Hst, Hdn⟩
  ihave Hdn' := (Entails.of_eq (dn0_eq m (idxC m) d)) $$ Hdn
  ihave Hj := (td_join m (idxC m) d) $$ [Hdrop Hdn']
  · isplitl [Hdrop]; · iexact Hdrop
    iexact Hdn'
  icases Hj with ⟨Hidx, Htab, %g, %hg, Hout⟩
  -- the cut
  iapply (wp_hlo_within 𝒱 (SparseCore.T d) none Set.univ (op := opS) (S := S5) hS (V := V2 m d g)) $$ [Hb Htok Htab Hidx Hout Hres]
  · isplitl [Hb]; · iexact Hb
    rw [held_S5, V2_a0, V2_a1, V2_v0, V2_v1, V2_v2]
    isplitl [Htok]; · iexact Htok
    isplitl [Htab]; · iexact Htab
    isplitl [Hidx]; · iexact Hidx
    isplitl [Hout]; · iexact Hout
    iexact Hres
  iintro ⟨Hb, Hheld⟩
  ihave Hh := (Entails.of_eq (held_V3 (F := F) m d g)) $$ Hheld
  icases Hh with ⟨Htok, Htab, -, -, Hres⟩
  rw [wp_ret]; imodintro; imodintro
  isplitl [Hst]; · iexact Hst
  isplitl [Htok]; · iexact Htok
  isplitl [Htab]; · iexact Htab
  rw [← res_eq m d g hg]
  iexact Hres

def fq (d : Dev nD) (s' : Phys nD τ sig (Elt F)) : Prop :=
  s'.mem.mem (resLoc d) = Cert.Spec.lookup (α := Elt F .f32) (m (tokLoc d)) (m (tabLoc d))
    ∧ s'.mem.mem (tokLoc d) = m (tokLoc d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Ht, Hx, Hr⟩, HSI⟩
  ihave H := (persistent_entails_right (SI_pointsTo_agree (st := s') (ℓ := tokLoc d) (I := Finset.univ) (q := fullShare) (f := m (tokLoc d)))) $$ [HSI Ht]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Hx]
  · isplitl [HSI] <;> iassumption
  icases H with ⟨%h2, HSI, -⟩
  ihave H := (SI_pointsTo_agree (st := s') (ℓ := resLoc d) (I := Finset.univ) (q := fullShare)
    (f := Cert.Spec.lookup (α := Elt F .f32) (m (tokLoc d)) (m (tabLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)]
    (hlt : ∀ d (j : S16384x20.Idx), (m (tokLoc d) j).toNat < 1000000)
    (htile : PreOK (idxC m) → (K (F := F)).TileObl (D (F := F)) 𝒱 (P m (idxC m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (idxC m)) facts v₀
    (fun q hq => match q with | 0 => nomatch hq)
    (fun q _ => match q with | 0 => htile (preOK_of_lt m hlt))
    (fun q _ => match q with | 0 => SparseCore.Cfg.VecSplit.of_plain (vecSplit m (idxC m)))
    m ρ main (fun _ => iprop(emp)) (FIN m) (u₀ (F := F)) (sep_elim_left.trans (hu₀ m (idxC m))) (hmain m ρ) (fq m) (hfin m) (QC m)
    (fun _ h c => h c)

end Cert.Proof.Kernel

end
-- ==== Proof.Kernel.Names.lean ====
/-
  The task's own vocabulary: the thread of a grid point, the kernel's operands as the body names them, one row of
  a row buffer (the destination of one copy), one row of the table (its source), the token-list and what a loaded
  token vector holds.
-/
import proofs.«206312_g12936441495622_cont_fleet_311_30_alg».proof.Proof.Kernel.Common
import proofs.«206312_g12936441495622_cont_fleet_311_30_alg».proof.Proof.Gen.Kernel.Skeleton
import Idealize.ShloMosaic.Lib.Ring
import Idealize.ShloMosaic.Lib.SparseCore.Ops
import Idealize.ShloMosaic.Lib.StableHlo.Run

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The vector subcore of grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Row `r` of row buffer `b`, columns 0 … 63: where one copy lands. -/
theorem rowBuf_inb (b : Fin 4) (r : Fin 160) : ∀ a, (![b.val, r.val, 0] : Fin 3 → Nat) a + S1x1x64.size a ≤ S4x160x128.size a := by
  have := b.isLt; have := r.isLt; intro a; fin_cases a
  · show b.val + 1 ≤ 4; omega
  · show r.val + 1 ≤ 160; omega
  · show 0 + 64 ≤ 128; omega
def rowBuf (b : Fin 4) (r : Fin 160) : Memref sig .scVector .vmem S64 .f32 :=
  ((Memref.whole cc0_scratch1 : Memref sig .scVector .vmem S4x160x128 .f32).slice (Rect.unit (s := S4x160x128) ![b.val, r.val, 0] S1x1x64.size (rowBuf_inb b r)) (fun _ => rfl)).squeeze S64 squeezes_S1x1x64_S64

/-- Row `n` of the table: what one copy reads. -/
theorem tabRow_inb (n : Fin 1000000) : ∀ a, (![n.val, 0] : Fin 2 → Nat) a + S1x64.size a ≤ S1000000x64.size a := by
  have := n.isLt; intro a; fin_cases a
  · show n.val + 1 ≤ 1000000; omega
  · show 0 + 64 ≤ 64; omega
def tabRow (n : Fin 1000000) : Memref sig .scVector .hbm S64 .f32 :=
  ((Memref.whole main_arg1_scv : Memref sig .scVector .hbm S1000000x64 .f32).slice (Rect.unit (s := S1000000x64) ![n.val, 0] S1x64.size (tabRow_inb n)) (fun _ => rfl)).squeeze S64 squeezes_S1x64_S64

end Cert.Proof.Kernel

end
-- ==== Proof.Kernel.TaskLib.lean ====
/-
  Shared by the four row buffers' loops: a token in range names a row of the table; one row of the table as a copy's
  source, through the token word; the sixteen words a loaded token vector holds; a transfer number as (trip, lane);
  a run of 160 things taken sixteen at a time.
-/
import proofs.«206312_g12936441495622_cont_fleet_311_30_alg».proof.Proof.Kernel.Names

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_arg1_scv : Memref Cert.Kernel.sig Kind.scVector Space.hbm Cert.Kernel.S1000000x64 EltTy.f32)

/-- A word below 1000000 names a row of the table. -/
theorem chk_of_lt (v : BitVec 32) (hv : v.toNat < 1000000) : ∀ a, (![v.toNat, 0] : Fin 2 → ℕ) a + S1x64.size a ≤ S1000000x64.size a := by
  intro a; fin_cases a
  · show v.toNat + 1 ≤ 1000000; omega
  · show 0 + 64 ≤ 64; omega

/-- The table's row named by word `w`, as a copy's source. -/
def srcOf (w : BitVec 32) (h : ∀ a, (k0_off5 w) a + S1x64.size a ≤ S1000000x64.size a) : Memref sig .scVector .hbm S64 .f32 :=
  ((tV).slice (Rect.unit (s := S1000000x64) (k0_off5 w) S1x64.size h) (fun _ => rfl)).squeeze S64 squeezes_S1x64_S64

theorem slices16 (r : Fin 16) : S16.Slices ![r.val] S1 := by
  have := r.isLt
  refine ⟨rfl, fun a => ?_⟩
  fin_cases a
  show r.val + 1 ≤ 16; omega

/-- One transfer's credit: 64 words of 32 bits. -/
abbrev NR : ℕ := 2048

/-- Transfer number `t` of a chunk is lane `t % 16` of trip `t / 16`. -/
def kOf (t : Fin 160) : Fin 10 := ⟨t.val / 16, by have := t.isLt; omega⟩
def rOf (t : Fin 160) : Fin 16 := ⟨t.val % 16, Nat.mod_lt _ (by decide)⟩

theorem kOf_mk (k : Fin 10) (r : Fin 16) (j : ℕ) (hj : j < 160) (e : j = 16 * k.val + r.val) : kOf ⟨j, hj⟩ = k :=
  Fin.ext (by have := r.isLt; show j / 16 = k.val; omega)
theorem rOf_mk (k : Fin 10) (r : Fin 16) (j : ℕ) (hj : j < 160) (e : j = 16 * k.val + r.val) : rOf ⟨j, hj⟩ = r :=
  Fin.ext (by have := r.isLt; show j % 16 = r.val; omega)

/-- The things numbered from `16 k` on are the sixteen of trip `k` and those from `16 (k + 1)` on. -/
theorem peel16 (Ψ : Fin 10 → Fin 16 → sProp 𝕄) (k : Fin 10) :
    bigSep (Ring.rangeSet 160 (16 * k.val) 160) (fun t => Ψ (kOf t) (rOf t))
      = iprop(Ψ k 0 ∗ Ψ k 1 ∗ Ψ k 2 ∗ Ψ k 3 ∗ Ψ k 4 ∗ Ψ k 5 ∗ Ψ k 6 ∗ Ψ k 7 ∗ Ψ k 8 ∗ Ψ k 9 ∗ Ψ k 10 ∗ Ψ k 11 ∗ Ψ k 12 ∗ Ψ k 13 ∗ Ψ k 14 ∗ Ψ k 15
          ∗ bigSep (Ring.rangeSet 160 (16 * (k.val + 1)) 160) (fun t => Ψ (kOf t) (rOf t))) := by
  have hk := k.isLt
  rw [Ring.bigSep_rangeSet_head (lo := 16 * k.val) (by omega) (by omega),
    Ring.bigSep_rangeSet_head (lo := 16 * k.val + 1) (by omega) (by omega),
    Ring.bigSep_rangeSet_head (lo := 16 * k.val + 1 + 1) (by omega) (by omega),
    Ring.bigSep_rangeSet_head (lo := 16 * k.val + 1 + 1 + 1) (by omega) (by omega),
    Ring.bigSep_rangeSet_head (lo := 16 * k.val + 1 + 1 + 1 + 1) (by omega) (by omega),
    Ring.bigSep_rangeSet_head (lo := 16 * k.val + 1 + 1 + 1 + 1 + 1) (by omega) (by omega),
    Ring.bigSep_rangeSet_head (lo := 16 * k.val + 1 + 1 + 1 + 1 + 1 + 1) (by omega) (by omega),
    Ring.bigSep_rangeSet_head (lo := 16 * k.val + 1 + 1 + 1 + 1 + 1 + 1 + 1) (by omega) (by omega),
    Ring.bigSep_rangeSet_head (lo := 16 * k.val + 1 + 1 + 1 + 1 + 1 + 1 + 1 + 1) (by omega) (by omega),
    Ring.bigSep_rangeSet_head (lo := 16 * k.val + 1 + 1 + 1 + 1 + 1 + 1 + 1 + 1 + 1) (by omega) (by omega),
    Ring.bigSep_rangeSet_head (lo := 16 * k.val + 1 + 1 + 1 + 1 + 1 + 1 + 1 + 1 + 1 + 1) (by omega) (by omega),
    Ring.bigSep_rangeSet_head (lo := 16 * k.val + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1 + 1 + 1 + 1) (by omega) (by omega),
    show 16 * k.val + 1 + 1 + 1 + 1 + 1 + 1 + 1 + 1 + 1 + 1 + 1 + 1 + 1 + 1 + 1 + 1 = 16 * (k.val + 1) by omega,
    kOf_mk k 0 (16 * k.val) (by omega) (by simp), rOf_mk k 0 (16 * k.val) (by omega) (by simp),
    kOf_mk k 1 (16 * k.val + 1) (by omega) (by simp), rOf_mk k 1 (16 * k.val + 1) (by omega) (by simp),
    kOf_mk k 2 (16 * k.val + 1 + 1) (by omega) (by simp), rOf_mk k 2 (16 * k.val + 1 + 1) (by omega) (by simp),
    kOf_mk k 3 (16 * k.val + 1 + 1 + 1) (by omega) (by simp), rOf_mk k 3 (16 * k.val + 1 + 1 + 1) (by omega) (by simp),
    kOf_mk k 4 (16 * k.val + 1 + 1 + 1 + 1) (by omega) (by simp), rOf_mk k 4 (16 * k.val + 1 + 1 + 1 + 1) (by omega) (by simp),
    kOf_mk k 5 (16 * k.val + 1 + 1 + 1 + 1 + 1) (by omega) (by simp), rOf_mk k 5 (16 * k.val + 1 + 1 + 1 + 1 + 1) (by omega) (by simp),
    kOf_mk k 6 (16 * k.val + 1 + 1 + 1 + 1 + 1 + 1) (by omega) (by simp), rOf_mk k 6 (16 * k.val + 1 + 1 + 1 + 1 + 1 + 1) (by omega) (by simp),
    kOf_mk k 7 (16 * k.val + 1 + 1 + 1 + 1 + 1 + 1 + 1) (by omega) (by simp), rOf_mk k 7 (16 * k.val + 1 + 1 + 1 + 1 + 1 + 1 + 1) (by omega) (by simp),
    kOf_mk k 8 (16 * k.val + 1 + 1 + 1 + 1 + 1 + 1 + 1 + 1) (by omega) (by simp), rOf_mk k 8 (16 * k.val + 1 + 1 + 1 + 1 + 1 + 1 + 1 + 1) (by omega) (by simp),
    kOf_mk k 9 (16 * k.val + 1 + 1 + 1 + 1 + 1 + 1 + 1 + 1 + 1) (by omega) (by simp), rOf_mk k 9 (16 * k.val + 1 + 1 + 1 + 1 + 1 + 1 + 1 + 1 + 1) (by omega) (by simp),
    kOf_mk k 10 (16 * k.val + 1 + 1 + 1 + 1 + 1 + 1 + 1 + 1 + 1 + 1) (by omega) (by simp), rOf_mk k 10 (16 * k.val + 1 + 1 + 1 + 1 + 1 + 1 + 1 + 1 + 1 + 1) (by omega) (by simp),
    kOf_mk k 11 (16 * k.val + 1 + 1 + 1 + 1 + 1 + 1 + 1 + 1 + 1 + 1 + 1) (by omega) (by simp), rOf_mk k 11 (16 * k.val + 1 + 1 + 1 + 1 + 1 + 1 + 1 + 1 + 1 + 1 + 1) (by omega) (by simp),
    kOf_mk k 12 (16 * k.val + 1 + 1 + 1 + 1 + 1 + 1 + 1 + 1 + 1 + 1 + 1 + 1) (by omega) (by simp), rOf_mk k 12 (16 * k.val + 1 + 1 + 1 + 1 + 1 + 1 + 1 + 1 + 1 + 1 + 1 + 1) (by omega) (by simp),
    kOf_mk k 13 (16 * k.val + 1 + 1 + 1 + 1 + 1 + 1 + 1 + 1 + 1 + 1 + 1 + 1 + 1) (by omega) (by simp), rOf_mk k 13 (16 * k.val + 1 + 1 + 1 + 1 + 1 + 1 + 1 + 1 + 1 + 1 + 1 + 1 + 1) (by omega) (by simp),
    kOf_mk k 14 (16 * k.val + 1 + 1 + 1 + 1 + 1 + 1 + 1 + 1 + 1 + 1 + 1 + 1 + 1 + 1) (by omega) (by simp), rOf_mk k 14 (16 * k.val + 1 + 1 + 1 + 1 + 1 + 1 + 1 + 1 + 1 + 1 + 1 + 1 + 1 + 1) (by omega) (by simp),
    kOf_mk k 15 (16 * k.val + 1 + 1 + 1 + 1 + 1 + 1 + 1 + 1 + 1 + 1 + 1 + 1 + 1 + 1 + 1) (by omega) (by simp), rOf_mk k 15 (16 * k.val + 1 + 1 + 1 + 1 + 1 + 1 + 1 + 1 + 1 + 1 + 1 + 1 + 1 + 1 + 1) (by omega) (by simp)]

end Cert.Proof.Kernel

end
-- ==== Proof.Kernel.CoreDefs.lean ====
/-
  The task as one statement over named resources: worker `2 (L 1) + (L 0)` of grid point `L`, from its piece of
  the operands, its two scratch buffers and its nine semaphores at zero, runs the kernel's body and ends with its
  block of the output done.
-/
import proofs.«206312_g12936441495622_cont_fleet_311_30_alg».proof.Proof.Kernel.TaskLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

/-- The worker of grid point `L`. -/
def widL (L : grid0.Coords) : Fin 32 := ⟨2 * (L 1).val + (L 0).val, by
  have h1 : (L 1).val < 16 := (L 1).isLt
  have h0 : (L 0).val < 2 := (L 0).isLt
  omega⟩

/-- A semaphore of the task's own, as a cell. -/
abbrev cell (s : DmaSem sig) : GSem nD τ sig := (thr d L, SemLoc.dma s)

/-- The nine DMA semaphores at zero: four for the gathers, four for the write-backs, one for the token fetch. -/
abbrev sems0 : sProp 𝕄 :=
  iprop(semVal (cell d L cc0_scratch2.sem) 0 ∗ semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0 ∗ semVal (cell d L cc0_scratch9.sem) 0 ∗ semVal (cell d L cc0_scoped0.sem) 0)

variable (m : (ℓ : Loc nD τ sig) → Buf (Elt F) ℓ) (I : (d : Dev nD) → Buf (Elt F) (idxLoc d))

/-- What the task starts from and what it ends with, over named resources. -/
abbrev corePre (O : CellTallies nD τ sig (HIx 1)) (W : Waits sig (HIx 1)) : sProp 𝕄 :=
  iprop(levAts (K (F := F)).L (K (F := F)).lev ∗ goPiece m I d (widL L)
    ∗ (∃ f, (sI).view.loc (thr d L) ↦{fullShare} f) ∗ (∃ f, (sR).view.loc (thr d L) ↦{fullShare} f)
    ∗ sems0 d L ∗ owes (thr d L) O W)
abbrev corePost (O : CellTallies nD τ sig (HIx 1)) (W : Waits sig (HIx 1)) : sProp 𝕄 :=
  iprop(tdPiece m I d (widL L)
    ∗ (∃ f, (sI).view.loc (thr d L) ↦{fullShare} f) ∗ (∃ f, (sR).view.loc (thr d L) ↦{fullShare} f)
    ∗ sems0 d L ∗ ∃ W', ⌜∀ p ∈ W', p ∈ W ∨ p.2 = none⌝ ∗ owes (thr d L) O W')

end Cert.Proof.Kernel

end
-- ==== Proof.Kernel.Issue0.lean ====
/-
  Row buffer 0's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.Kernel.TaskLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

theorem row0_inb : ∀ (k : Fin k0_t2_loop.trips) (r : Fin 16), ∀ a, (k0_off6 k (BitVec.ofNat 32 r.val)) a + S1x1x64.size a ≤ S4x160x128.size a := by decide +kernel

/-- Row `16 k + c` of buffer 0, columns 0 … 63, through the body's own offsets. -/
def rowAt0 (k : Fin k0_t2_loop.trips) (c : BitVec 32) (h : ∀ a, (k0_off6 k c) a + S1x1x64.size a ≤ S4x160x128.size a) : Memref sig .scVector .vmem S64 .f32 :=
  ((sR).slice (Rect.unit (s := S4x160x128) (k0_off6 k c) S1x1x64.size h) (fun _ => rfl)).squeeze S64 squeezes_S1x1x64_S64

/-- Word `r` of the sixteen tokens trip `k` of group `g` loads. -/
def wordAt0 (g : Fin k0_t1_loop.trips) (h1 : k0_cond1 g = 1#1) (k : Fin k0_t2_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off3 g k) S16.size (k0_off3_inb g k h1)).toLoadRect fI) shapeCasts_S16_S16) (slices16 r)) inpos_S1_p0

variable (g : Fin k0_t1_loop.trips) (h1 : k0_cond1 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp0 (k : Fin 10) (r : Fin 16) : sProp 𝕄 :=
  iprop(((rowAt0 k (BitVec.ofNat 32 r.val) (row0_inb k r)).view.loc (thr d L) ↦[(rowAt0 k (BitVec.ofNat 32 r.val) (row0_inb k r)).view.set]{fullShare} fd0)
    ∗ ((srcOf (wordAt0 d L g h1 k r fI) (chk_of_lt _ (hI _))).view.loc (thr d L) ↦[(srcOf (wordAt0 d L g h1 k r fI) (chk_of_lt _ (hI _))).view.set]{Transfers.shareTokN q (16 * k.val + r.val)} Tb))

/-- What it delivers: the row written with the table row, and the table row back. -/
def out0 (k : Fin 10) (r : Fin 16) : sProp 𝕄 :=
  iprop(((rowAt0 k (BitVec.ofNat 32 r.val) (row0_inb k r)).view.loc (thr d L) ↦[(rowAt0 k (BitVec.ofNat 32 r.val) (row0_inb k r)).view.set]{fullShare}
      ((rowAt0 k (BitVec.ofNat 32 r.val) (row0_inb k r)).view.writes (Elt F) fd0
        [⟨Rect.whole S64, ReadAs.same.apply ((srcOf (wordAt0 d L g h1 k r fI) (chk_of_lt _ (hI _))).view.read (Elt F) Tb)⟩]))
    ∗ ((srcOf (wordAt0 d L g h1 k r fI) (chk_of_lt _ (hI _))).view.loc (thr d L) ↦[(srcOf (wordAt0 d L g h1 k r fI) (chk_of_lt _ (hI _))).view.set]{Transfers.shareTokN q (16 * k.val + r.val)} Tb))

/-- Before trip `k`: `16 k` transfers issued, the token list in hand, the rows and table rows from `16 k` on. -/
def issueAt0 (D : Fin 160 → sProp 𝕄) (k : ℕ) (_ : Unit) : sProp 𝕄 :=
  iprop(Transfers.Batch countersEmb (thr d L) (.dma cc0_scratch2.sem) (none : HIx 1) NR D (16 * k) 0
    ∗ ((sI).view.loc (thr d L) ↦{fullShare} fI)
    ∗ bigSep (Ring.rangeSet 160 (16 * k) 160) (fun t => inp0 d L g h1 fI hI Tb fd0 q (kOf t) (rOf t)))

set_option maxHeartbeats 8000000 in
/-- One trip: the load, then sixteen times the check of the token and the start of its copy. -/
theorem issue0_step [∀ e, Nonempty (Elt F e)] (v1 v44 : BitVec 32) (D : Fin 160 → sProp 𝕄)
    (hDel : ∀ (k : Fin 10) (r : Fin 16) (j : ℕ) (hj : j < 160), j = 16 * k.val + r.val → out0 d L g h1 fI hI Tb fd0 q k r ⊢ D ⟨j, hj⟩)
    (k : Fin k0_t2_loop.trips) (acc : Unit) :
    issueAt0 d L g h1 fI hI Tb fd0 q D k.val acc
      ⊢ wp frame (wpE (defs₀ (F := F)) 𝒱₀ (thr d L) none) Set.univ
          (k0_t2_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g v44 h1 k acc)
          (issueAt0 d L g h1 fI hI Tb fd0 q D (k.val + 1)) := by
  have hk : k.val < 10 := k.isLt
  unfold issueAt0
  rw [peel16 (fun k r => inp0 d L g h1 fI hI Tb fd0 q k r) k]
  unfold inp0
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t2_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.Kernel

end
-- ==== Proof.Kernel.Issue1.lean ====
/-
  Row buffer 1's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.Kernel.TaskLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

theorem row1_inb : ∀ (k : Fin k0_t4_loop.trips) (r : Fin 16), ∀ a, (k0_off42 k (BitVec.ofNat 32 r.val)) a + S1x1x64.size a ≤ S4x160x128.size a := by decide +kernel

/-- Row `16 k + c` of buffer 1, columns 0 … 63, through the body's own offsets. -/
def rowAt1 (k : Fin k0_t4_loop.trips) (c : BitVec 32) (h : ∀ a, (k0_off42 k c) a + S1x1x64.size a ≤ S4x160x128.size a) : Memref sig .scVector .vmem S64 .f32 :=
  ((sR).slice (Rect.unit (s := S4x160x128) (k0_off42 k c) S1x1x64.size h) (fun _ => rfl)).squeeze S64 squeezes_S1x1x64_S64

/-- Word `r` of the sixteen tokens trip `k` of group `g` loads. -/
def wordAt1 (g : Fin k0_t1_loop.trips) (h1 : k0_cond4 g = 1#1) (k : Fin k0_t4_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off39 g k) S16.size (k0_off39_inb g k h1)).toLoadRect fI) shapeCasts_S16_S16) (slices16 r)) inpos_S1_p0

variable (g : Fin k0_t1_loop.trips) (h1 : k0_cond4 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp1 (k : Fin 10) (r : Fin 16) : sProp 𝕄 :=
  iprop(((rowAt1 k (BitVec.ofNat 32 r.val) (row1_inb k r)).view.loc (thr d L) ↦[(rowAt1 k (BitVec.ofNat 32 r.val) (row1_inb k r)).view.set]{fullShare} fd0)
    ∗ ((srcOf (wordAt1 d L g h1 k r fI) (chk_of_lt _ (hI _))).view.loc (thr d L) ↦[(srcOf (wordAt1 d L g h1 k r fI) (chk_of_lt _ (hI _))).view.set]{Transfers.shareTokN q (16 * k.val + r.val)} Tb))

/-- What it delivers: the row written with the table row, and the table row back. -/
def out1 (k : Fin 10) (r : Fin 16) : sProp 𝕄 :=
  iprop(((rowAt1 k (BitVec.ofNat 32 r.val) (row1_inb k r)).view.loc (thr d L) ↦[(rowAt1 k (BitVec.ofNat 32 r.val) (row1_inb k r)).view.set]{fullShare}
      ((rowAt1 k (BitVec.ofNat 32 r.val) (row1_inb k r)).view.writes (Elt F) fd0
        [⟨Rect.whole S64, ReadAs.same.apply ((srcOf (wordAt1 d L g h1 k r fI) (chk_of_lt _ (hI _))).view.read (Elt F) Tb)⟩]))
    ∗ ((srcOf (wordAt1 d L g h1 k r fI) (chk_of_lt _ (hI _))).view.loc (thr d L) ↦[(srcOf (wordAt1 d L g h1 k r fI) (chk_of_lt _ (hI _))).view.set]{Transfers.shareTokN q (16 * k.val + r.val)} Tb))

/-- Before trip `k`: `16 k` transfers issued, the token list in hand, the rows and table rows from `16 k` on. -/
def issueAt1 (D : Fin 160 → sProp 𝕄) (k : ℕ) (_ : Unit) : sProp 𝕄 :=
  iprop(Transfers.Batch countersEmb (thr d L) (.dma cc0_scratch3.sem) (none : HIx 1) NR D (16 * k) 0
    ∗ ((sI).view.loc (thr d L) ↦{fullShare} fI)
    ∗ bigSep (Ring.rangeSet 160 (16 * k) 160) (fun t => inp1 d L g h1 fI hI Tb fd0 q (kOf t) (rOf t)))

set_option maxHeartbeats 8000000 in
/-- One trip: the load, then sixteen times the check of the token and the start of its copy. -/
theorem issue1_step [∀ e, Nonempty (Elt F e)] (v1 v44 : BitVec 32) (D : Fin 160 → sProp 𝕄)
    (hDel : ∀ (k : Fin 10) (r : Fin 16) (j : ℕ) (hj : j < 160), j = 16 * k.val + r.val → out1 d L g h1 fI hI Tb fd0 q k r ⊢ D ⟨j, hj⟩)
    (k : Fin k0_t4_loop.trips) (acc : Unit) :
    issueAt1 d L g h1 fI hI Tb fd0 q D k.val acc
      ⊢ wp frame (wpE (defs₀ (F := F)) 𝒱₀ (thr d L) none) Set.univ
          (k0_t4_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g v44 h1 k acc)
          (issueAt1 d L g h1 fI hI Tb fd0 q D (k.val + 1)) := by
  have hk : k.val < 10 := k.isLt
  unfold issueAt1
  rw [peel16 (fun k r => inp1 d L g h1 fI hI Tb fd0 q k r) k]
  unfold inp1
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t4_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.Kernel

end
-- ==== Proof.Kernel.Issue2.lean ====
/-
  Row buffer 2's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.Kernel.TaskLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

theorem row2_inb : ∀ (k : Fin k0_t6_loop.trips) (r : Fin 16), ∀ a, (k0_off78 k (BitVec.ofNat 32 r.val)) a + S1x1x64.size a ≤ S4x160x128.size a := by decide +kernel

/-- Row `16 k + c` of buffer 2, columns 0 … 63, through the body's own offsets. -/
def rowAt2 (k : Fin k0_t6_loop.trips) (c : BitVec 32) (h : ∀ a, (k0_off78 k c) a + S1x1x64.size a ≤ S4x160x128.size a) : Memref sig .scVector .vmem S64 .f32 :=
  ((sR).slice (Rect.unit (s := S4x160x128) (k0_off78 k c) S1x1x64.size h) (fun _ => rfl)).squeeze S64 squeezes_S1x1x64_S64

/-- Word `r` of the sixteen tokens trip `k` of group `g` loads. -/
def wordAt2 (g : Fin k0_t1_loop.trips) (h1 : k0_cond7 g = 1#1) (k : Fin k0_t6_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off75 g k) S16.size (k0_off75_inb g k h1)).toLoadRect fI) shapeCasts_S16_S16) (slices16 r)) inpos_S1_p0

variable (g : Fin k0_t1_loop.trips) (h1 : k0_cond7 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp2 (k : Fin 10) (r : Fin 16) : sProp 𝕄 :=
  iprop(((rowAt2 k (BitVec.ofNat 32 r.val) (row2_inb k r)).view.loc (thr d L) ↦[(rowAt2 k (BitVec.ofNat 32 r.val) (row2_inb k r)).view.set]{fullShare} fd0)
    ∗ ((srcOf (wordAt2 d L g h1 k r fI) (chk_of_lt _ (hI _))).view.loc (thr d L) ↦[(srcOf (wordAt2 d L g h1 k r fI) (chk_of_lt _ (hI _))).view.set]{Transfers.shareTokN q (16 * k.val + r.val)} Tb))

/-- What it delivers: the row written with the table row, and the table row back. -/
def out2 (k : Fin 10) (r : Fin 16) : sProp 𝕄 :=
  iprop(((rowAt2 k (BitVec.ofNat 32 r.val) (row2_inb k r)).view.loc (thr d L) ↦[(rowAt2 k (BitVec.ofNat 32 r.val) (row2_inb k r)).view.set]{fullShare}
      ((rowAt2 k (BitVec.ofNat 32 r.val) (row2_inb k r)).view.writes (Elt F) fd0
        [⟨Rect.whole S64, ReadAs.same.apply ((srcOf (wordAt2 d L g h1 k r fI) (chk_of_lt _ (hI _))).view.read (Elt F) Tb)⟩]))
    ∗ ((srcOf (wordAt2 d L g h1 k r fI) (chk_of_lt _ (hI _))).view.loc (thr d L) ↦[(srcOf (wordAt2 d L g h1 k r fI) (chk_of_lt _ (hI _))).view.set]{Transfers.shareTokN q (16 * k.val + r.val)} Tb))

/-- Before trip `k`: `16 k` transfers issued, the token list in hand, the rows and table rows from `16 k` on. -/
def issueAt2 (D : Fin 160 → sProp 𝕄) (k : ℕ) (_ : Unit) : sProp 𝕄 :=
  iprop(Transfers.Batch countersEmb (thr d L) (.dma cc0_scratch4.sem) (none : HIx 1) NR D (16 * k) 0
    ∗ ((sI).view.loc (thr d L) ↦{fullShare} fI)
    ∗ bigSep (Ring.rangeSet 160 (16 * k) 160) (fun t => inp2 d L g h1 fI hI Tb fd0 q (kOf t) (rOf t)))

set_option maxHeartbeats 8000000 in
/-- One trip: the load, then sixteen times the check of the token and the start of its copy. -/
theorem issue2_step [∀ e, Nonempty (Elt F e)] (v1 v44 : BitVec 32) (D : Fin 160 → sProp 𝕄)
    (hDel : ∀ (k : Fin 10) (r : Fin 16) (j : ℕ) (hj : j < 160), j = 16 * k.val + r.val → out2 d L g h1 fI hI Tb fd0 q k r ⊢ D ⟨j, hj⟩)
    (k : Fin k0_t6_loop.trips) (acc : Unit) :
    issueAt2 d L g h1 fI hI Tb fd0 q D k.val acc
      ⊢ wp frame (wpE (defs₀ (F := F)) 𝒱₀ (thr d L) none) Set.univ
          (k0_t6_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g v44 h1 k acc)
          (issueAt2 d L g h1 fI hI Tb fd0 q D (k.val + 1)) := by
  have hk : k.val < 10 := k.isLt
  unfold issueAt2
  rw [peel16 (fun k r => inp2 d L g h1 fI hI Tb fd0 q k r) k]
  unfold inp2
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t6_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.Kernel

end
-- ==== Proof.Kernel.Issue3.lean ====
/-
  Row buffer 3's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.Kernel.TaskLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

theorem row3_inb : ∀ (k : Fin k0_t8_loop.trips) (r : Fin 16), ∀ a, (k0_off114 k (BitVec.ofNat 32 r.val)) a + S1x1x64.size a ≤ S4x160x128.size a := by decide +kernel

/-- Row `16 k + c` of buffer 3, columns 0 … 63, through the body's own offsets. -/
def rowAt3 (k : Fin k0_t8_loop.trips) (c : BitVec 32) (h : ∀ a, (k0_off114 k c) a + S1x1x64.size a ≤ S4x160x128.size a) : Memref sig .scVector .vmem S64 .f32 :=
  ((sR).slice (Rect.unit (s := S4x160x128) (k0_off114 k c) S1x1x64.size h) (fun _ => rfl)).squeeze S64 squeezes_S1x1x64_S64

/-- Word `r` of the sixteen tokens trip `k` of group `g` loads. -/
def wordAt3 (g : Fin k0_t1_loop.trips) (h1 : k0_cond10 g = 1#1) (k : Fin k0_t8_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off111 g k) S16.size (k0_off111_inb g k h1)).toLoadRect fI) shapeCasts_S16_S16) (slices16 r)) inpos_S1_p0

variable (g : Fin k0_t1_loop.trips) (h1 : k0_cond10 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp3 (k : Fin 10) (r : Fin 16) : sProp 𝕄 :=
  iprop(((rowAt3 k (BitVec.ofNat 32 r.val) (row3_inb k r)).view.loc (thr d L) ↦[(rowAt3 k (BitVec.ofNat 32 r.val) (row3_inb k r)).view.set]{fullShare} fd0)
    ∗ ((srcOf (wordAt3 d L g h1 k r fI) (chk_of_lt _ (hI _))).view.loc (thr d L) ↦[(srcOf (wordAt3 d L g h1 k r fI) (chk_of_lt _ (hI _))).view.set]{Transfers.shareTokN q (16 * k.val + r.val)} Tb))

/-- What it delivers: the row written with the table row, and the table row back. -/
def out3 (k : Fin 10) (r : Fin 16) : sProp 𝕄 :=
  iprop(((rowAt3 k (BitVec.ofNat 32 r.val) (row3_inb k r)).view.loc (thr d L) ↦[(rowAt3 k (BitVec.ofNat 32 r.val) (row3_inb k r)).view.set]{fullShare}
      ((rowAt3 k (BitVec.ofNat 32 r.val) (row3_inb k r)).view.writes (Elt F) fd0
        [⟨Rect.whole S64, ReadAs.same.apply ((srcOf (wordAt3 d L g h1 k r fI) (chk_of_lt _ (hI _))).view.read (Elt F) Tb)⟩]))
    ∗ ((srcOf (wordAt3 d L g h1 k r fI) (chk_of_lt _ (hI _))).view.loc (thr d L) ↦[(srcOf (wordAt3 d L g h1 k r fI) (chk_of_lt _ (hI _))).view.set]{Transfers.shareTokN q (16 * k.val + r.val)} Tb))

/-- Before trip `k`: `16 k` transfers issued, the token list in hand, the rows and table rows from `16 k` on. -/
def issueAt3 (D : Fin 160 → sProp 𝕄) (k : ℕ) (_ : Unit) : sProp 𝕄 :=
  iprop(Transfers.Batch countersEmb (thr d L) (.dma cc0_scratch5.sem) (none : HIx 1) NR D (16 * k) 0
    ∗ ((sI).view.loc (thr d L) ↦{fullShare} fI)
    ∗ bigSep (Ring.rangeSet 160 (16 * k) 160) (fun t => inp3 d L g h1 fI hI Tb fd0 q (kOf t) (rOf t)))

set_option maxHeartbeats 8000000 in
/-- One trip: the load, then sixteen times the check of the token and the start of its copy. -/
theorem issue3_step [∀ e, Nonempty (Elt F e)] (v1 v44 : BitVec 32) (D : Fin 160 → sProp 𝕄)
    (hDel : ∀ (k : Fin 10) (r : Fin 16) (j : ℕ) (hj : j < 160), j = 16 * k.val + r.val → out3 d L g h1 fI hI Tb fd0 q k r ⊢ D ⟨j, hj⟩)
    (k : Fin k0_t8_loop.trips) (acc : Unit) :
    issueAt3 d L g h1 fI hI Tb fd0 q D k.val acc
      ⊢ wp frame (wpE (defs₀ (F := F)) 𝒱₀ (thr d L) none) Set.univ
          (k0_t8_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            g v44 h1 k acc)
          (issueAt3 d L g h1 fI hI Tb fd0 q D (k.val + 1)) := by
  have hk : k.val < 10 := k.isLt
  unfold issueAt3
  rw [peel16 (fun k r => inp3 d L g h1 fI hI Tb fd0 q k r) k]
  unfold inp3
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t8_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.Kernel

end
-- ==== Proof.Kernel.Pipe.lean ====
/-
  The task's pipeline: the operands as the task's memrefs address them, the token row fetched into the list, a
  chunk's batch of 160 copies opened from a free row buffer and closed into a buffer holding the table's rows, a
  write-back in flight, and the state between groups of four chunks.
-/
import proofs.«206312_g12936441495622_cont_fleet_311_30_alg».proof.Proof.Kernel.CoreDefs
import proofs.«206312_g12936441495622_cont_fleet_311_30_alg».proof.Proof.Kernel.Issue0
import proofs.«206312_g12936441495622_cont_fleet_311_30_alg».proof.Proof.Kernel.Issue1
import proofs.«206312_g12936441495622_cont_fleet_311_30_alg».proof.Proof.Kernel.Issue2
import proofs.«206312_g12936441495622_cont_fleet_311_30_alg».proof.Proof.Kernel.Issue3

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

/-! ## The operands as the task addresses them -/

theorem pts_sI (f : Buf (Elt F) ((sI).view.loc (thr d L))) :
    (View.loc (thr d L) (View.whole cc0_scratch0) ↦{fullShare} f : sProp 𝕄) = ((sI).view.loc (thr d L) ↦{fullShare} f) := rfl
theorem pts_sR (f : Buf (Elt F) ((sR).view.loc (thr d L))) :
    (View.loc (thr d L) (View.whole cc0_scratch1) ↦{fullShare} f : sProp 𝕄) = ((sR).view.loc (thr d L) ↦{fullShare} f) := rfl
theorem pts_tV (q : PosShare TreeShare) (f : Buf (Elt F) (tabLoc d)) :
    (tabLoc d ↦{q} f : sProp 𝕄) = ((tV).view.loc (thr d L) ↦{q} f) := rfl
theorem pts_oV (S : Finset S16384x20x128.Idx) (f : Buf (Elt F) (outLoc d)) :
    (outLoc d ↦[S]{fullShare} f : sProp 𝕄) = ((oV).view.loc (thr d L) ↦[S]{fullShare} f) := rfl

/-- The worker's row of the reshaped tokens, as the fetch's source. -/
def iRowM (L : grid0.Coords) : Memref sig .scVector .hbm S10240 .i32 :=
  ((iV).slice (Rect.unit (s := S32x10240) (k0_off1 L) S1x10240.size (k0_off1_inb L)) (fun _ => rfl)).squeeze S10240 squeezes_S1x10240_S10240

theorem irowK_eq : Rect.unit (s := S32x10240) (k0_off1 L) S1x10240.size (k0_off1_inb L) = irow (widL L) := by
  unfold irow Rect.part Rect.block
  congr 1 <;> funext a
  · rw [k0_off1_eq]
    match a with
    | 0 => simp [Shape.partIx, Shape.partSize, widL]
    | 1 => simp [Shape.partIx, Shape.partSize]
  · match a with
    | 0 => simp [Shape.partSize]
    | 1 => simp [Shape.partSize]

theorem set_iRowM : (iRowM L).view.set = iRowSet (widL L) := by
  show (((iV).view.slice (Rect.unit (s := S32x10240) (k0_off1 L) S1x10240.size (k0_off1_inb L))).reshape S10240 squeezes_S1x10240_S10240.numel_eq).set = (irow (widL L)).set
  rw [View.set_reshape, View.set_slice_whole]
  exact irowK_eq L ▸ rfl

theorem pts_iRow (f : Buf (Elt F) (idxLoc d)) :
    (idxLoc d ↦[iRowSet (widL L)]{fullShare} f : sProp 𝕄) = ((iRowM L).view.loc (thr d L) ↦[(iRowM L).view.set]{fullShare} f) := by
  rw [set_iRowM]; rfl

end Cert.Proof.Kernel

end
-- ==== Proof.Kernel.RowsGeo.lean ====
/-
  The geometry of a worker's row buffers, free of the loops. Buffer b of the four is the elements (b, t, y) of the
  [4, 160, 128] scratch; row t of it, columns 0 … 63, is where the copy of one table row lands; columns 64 … 127 are
  never written. Read as [4, 8, 20, 128] (row-major: t = 20 a + s) a buffer is the source of one write-back. The table
  at a share is dealt out as one read share per word of a chunk. What a buffer must hold when its rows have landed.
-/
import proofs.«206312_g12936441495622_cont_fleet_311_30_alg».proof.Proof.Kernel.TaskLib
import Idealize.ShloMosaic.Lib.Pipeline.Value
import Idealize.ShloMosaic.Lib.Writes

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

/-! ## The buffers' elements -/

/-- Row `t` of buffer `b`, columns 0 … 63. -/
def rowSet (b : Fin 4) (t : Fin 160) : Finset S4x160x128.Idx :=
  (Rect.unit (s := S4x160x128) ![b.val, t.val, 0] S1x1x64.size (rowBuf_inb b t)).set
/-- Buffer `b`, columns 64 … 127; all of buffer `b`. -/
def rightSet (b : Fin 4) : Finset S4x160x128.Idx := Finset.univ.filter fun y => (y 0).val = b.val ∧ 64 ≤ (y 2).val
def bufSet (b : Fin 4) : Finset S4x160x128.Idx := Finset.univ.filter fun y => (y 0).val = b.val

theorem mem_rowSet (b : Fin 4) (t : Fin 160) (y : S4x160x128.Idx) :
    y ∈ rowSet b t ↔ (y 0).val = b.val ∧ (y 1).val = t.val ∧ (y 2).val < 64 := by
  unfold rowSet; rw [Rect.mem_set_unit]
  constructor
  · intro H
    have a0 : b.val ≤ (y 0).val ∧ (y 0).val < b.val + 1 := H 0
    have a1 : t.val ≤ (y 1).val ∧ (y 1).val < t.val + 1 := H 1
    have a2 : 0 ≤ (y 2).val ∧ (y 2).val < 0 + 64 := H 2
    omega
  · intro H a; fin_cases a
    · show b.val ≤ (y 0).val ∧ (y 0).val < b.val + 1; omega
    · show t.val ≤ (y 1).val ∧ (y 1).val < t.val + 1; omega
    · show 0 ≤ (y 2).val ∧ (y 2).val < 0 + 64; omega
theorem mem_rightSet (b : Fin 4) (y : S4x160x128.Idx) : y ∈ rightSet b ↔ (y 0).val = b.val ∧ 64 ≤ (y 2).val := by
  simp only [rightSet, Finset.mem_filter, Finset.mem_univ, true_and]
theorem mem_bufSet (b : Fin 4) (y : S4x160x128.Idx) : y ∈ bufSet b ↔ (y 0).val = b.val := by
  simp only [bufSet, Finset.mem_filter, Finset.mem_univ, true_and]

theorem rowSet_disjoint (b : Fin 4) : ∀ t ∈ (Finset.univ : Finset (Fin 160)), ∀ t' ∈ (Finset.univ : Finset (Fin 160)), t ≠ t' → Disjoint (rowSet b t) (rowSet b t') :=
  fun t _ t' _ hne => by
    rw [Finset.disjoint_left]; intro y hy hy'; rw [mem_rowSet] at hy hy'; exact hne (Fin.ext (by omega))
theorem rows_right_disjoint (b : Fin 4) : Disjoint ((Finset.univ : Finset (Fin 160)).biUnion (rowSet b)) (rightSet b) := by
  rw [Finset.disjoint_left]; intro y hy hy'
  obtain ⟨t, -, ht⟩ := Finset.mem_biUnion.mp hy
  rw [mem_rowSet] at ht; rw [mem_rightSet] at hy'; omega
/-- A buffer is its 160 rows and its right half. -/
theorem bufSet_eq (b : Fin 4) : bufSet b = (Finset.univ : Finset (Fin 160)).biUnion (rowSet b) ∪ rightSet b := by
  ext y
  simp only [Finset.mem_union, Finset.mem_biUnion, Finset.mem_univ, true_and, mem_bufSet, mem_rowSet, mem_rightSet]
  constructor
  · intro h
    by_cases h2 : (y 2).val < 64
    · exact .inl ⟨⟨(y 1).val, (y 1).isLt⟩, h, rfl, h2⟩
    · exact .inr ⟨h, by omega⟩
  · rintro (⟨t, h, -, -⟩ | ⟨h, -⟩) <;> exact h

variable [FloatOps F] (d : Dev nD) (L : grid0.Coords)

/-! ## The buffer read as [4, 8, 20, 128], and rows of 64 -/

/-- Element `(b, a, s, c)` of the `[4, 8, 20, 128]` reading is element `(b, 20 a + s, c)`. -/
theorem reshape4_eq (x : S4x8x20x128.Idx) (y : S4x160x128.Idx)
    (e0 : (y 0).val = (x 0).val) (e1 : (y 1).val = 20 * (x 1).val + (x 2).val) (e2 : (y 2).val = (x 3).val) :
    Shape.reshapeEquiv (s := S4x160x128) (s' := S4x8x20x128) reshapes_S4x160x128_S4x8x20x128.1 x = y := by
  refine Shape.reshapeEquiv_eq_of_rowMajor _ ?_
  rw [Shape.rowMajor_val_three, Shape.rowMajor_val_four]
  show ((y 0).val * 160 + (y 1).val) * 128 + (y 2).val = (((x 0).val * 8 + (x 1).val) * 20 + (x 2).val) * 128 + (x 3).val
  rw [e0, e1, e2]; omega

/-- Element `y` of a row read as `[1, 1, 64]` is element `(0, 0, y)`; read as `[1, 64]`, element `(0, y)`. -/
theorem reshape_row3 (h : S64.numel = S1x1x64.numel) (y : Fin 64) :
    Shape.reshapeEquiv (s := S1x1x64) (s' := S64) h (ix1 y) = ix3 (0 : Fin 1) (0 : Fin 1) y := by
  refine Shape.reshapeEquiv_eq_of_rowMajor _ ?_
  rw [Shape.rowMajor_val_three, Shape.rowMajor_val_one]
  show (0 * 1 + 0) * 64 + y.val = y.val
  omega
theorem reshape_row2 (h : S64.numel = S1x64.numel) (y : Fin 64) :
    Shape.reshapeEquiv (s := S1x64) (s' := S64) h (ix1 y) = ix2 (0 : Fin 1) y := by
  refine Shape.reshapeEquiv_eq_of_rowMajor _ ?_
  rw [Shape.rowMajor_val_two, Shape.rowMajor_val_one]
  show 0 * 64 + y.val = y.val
  omega

/-- A buffer held is its 160 rows held and its right half. -/
theorem buf_rows (b : Fin 4) (f : Buf (Elt F) ((sR).view.loc (thr d L))) :
    ((sR).view.loc (thr d L) ↦[bufSet b]{fullShare} f : sProp 𝕄)
      = iprop((bigSep (Finset.univ : Finset (Fin 160)) fun t => (sR).view.loc (thr d L) ↦[rowSet b t]{fullShare} f)
          ∗ ((sR).view.loc (thr d L) ↦[rightSet b]{fullShare} f)) := by
  rw [bufSet_eq, ← pointsTo_biUnion Finset.univ (ℓ := (sR).view.loc (thr d L)) (rowSet b) (rowSet_disjoint b)]
  exact BI.equiv_iff.mp ⟨(pointsTo_union (rows_right_disjoint b)).1, (pointsTo_union (rows_right_disjoint b)).2⟩

/-- Transfer number `t` is lane `t % 16` of trip `t / 16`. -/
theorem kr_eq (t : Fin 160) (h : 16 * (kOf t).val + (rOf t).val < 160) : (⟨16 * (kOf t).val + (rOf t).val, h⟩ : Fin 160) = t :=
  Fin.ext (by show 16 * (t.val / 16) + t.val % 16 = t.val; omega)

/-- The table's row named by word `w`: element `y` of it is the table's `(w, y)`. -/
theorem srcOf_emb (w : BitVec 32) (h : ∀ a, (k0_off5 w) a + S1x64.size a ≤ S1000000x64.size a) (hw : w.toNat < 1000000) (y : Fin 64) :
    (srcOf w h).view.emb (ix1 y) = (ix2 (⟨w.toNat, hw⟩ : Fin 1000000) y : S1000000x64.Idx) := by
  unfold srcOf
  show (Rect.unit (s := S1000000x64) (k0_off5 w) S1x64.size h).emb (Shape.reshapeEquiv (s := S1x64) (s' := S64) squeezes_S1x64_S64.numel_eq (ix1 y)) = _
  rw [reshape_row2]
  funext a
  refine Fin.ext ?_
  rw [Rect.emb_apply]
  match a with
  | ⟨0, _⟩ => show w.toNat + 1 * 0 = w.toNat; omega
  | ⟨1, _⟩ => show 0 + 1 * y.val = y.val; omega
theorem srcOf_read (w : BitVec 32) (h : ∀ a, (k0_off5 w) a + S1x64.size a ≤ S1000000x64.size a) (hw : w.toNat < 1000000)
    (Tb : Buf (Elt F) (tabLoc d)) (y : Fin 64) :
    (srcOf w h).view.read (Elt F) Tb (ix1 y) = Tb (ix2 (⟨w.toNat, hw⟩ : Fin 1000000) y) := by
  exact congrArg Tb (srcOf_emb w h hw y)

/-! ## The value a landed row holds, and the table's read shares -/

/-- The table row that token number `n` of the list names, at column `y`. -/
def tokVal (fI : Buf (Elt F) ((sI).view.loc (thr d L))) (hI : ∀ j, (fI j).toNat < 1000000) (Tb : Buf (Elt F) (tabLoc d))
    (n : ℕ) (hn : n < 10240) (y : Fin 64) : Elt F .f32 :=
  Tb (ix2 (⟨(fI (ix1 (⟨n, hn⟩ : Fin 10240))).toNat, hI _⟩ : Fin 1000000) y)

theorem tokVal_congr (fI : Buf (Elt F) ((sI).view.loc (thr d L))) (hI : ∀ j, (fI j).toNat < 1000000) (Tb : Buf (Elt F) (tabLoc d))
    {n n' : ℕ} (e : n = n') (hn : n < 10240) (hn' : n' < 10240) (y : Fin 64) : tokVal d L fI hI Tb n hn y = tokVal d L fI hI Tb n' hn' y := by
  subst e; rfl

theorem tokVal_of_word (fI : Buf (Elt F) ((sI).view.loc (thr d L))) (hI : ∀ j, (fI j).toNat < 1000000) (Tb : Buf (Elt F) (tabLoc d))
    (w : BitVec 32) (hw : w.toNat < 1000000) (n : ℕ) (hn : n < 10240) (e : w = fI (ix1 (⟨n, hn⟩ : Fin 10240))) (y : Fin 64) :
    Tb (ix2 (⟨w.toNat, hw⟩ : Fin 1000000) y) = tokVal d L fI hI Tb n hn y := by
  subst e; rfl

/-- `∗` rotated. -/
theorem sep_rot (A B C : sProp 𝕄) : iprop(A ∗ B ∗ C) = (iprop(B ∗ C ∗ A) : sProp 𝕄) := by
  have h1 : iprop(A ∗ B ∗ C) ⊢ (iprop(B ∗ C ∗ A) : sProp 𝕄) := by
    iintro ⟨Ha, Hb, Hc⟩
    isplitl [Hb]; · iexact Hb
    isplitl [Hc]; · iexact Hc
    iexact Ha
  have h2 : iprop(B ∗ C ∗ A) ⊢ (iprop(A ∗ B ∗ C) : sProp 𝕄) := by
    iintro ⟨Hb, Hc, Ha⟩
    isplitl [Ha]; · iexact Ha
    isplitl [Hb]; · iexact Hb
    iexact Hc
  exact BI.equiv_iff.mp ⟨h1, h2⟩

/-- (R4) The table at share `q` is, for each of 160 words, the table row the word names and the rest of the table, both at
    the word's own read share, and a remainder. -/
theorem tokens_split (q : PosShare TreeShare) (Tb : Buf (Elt F) (tabLoc d)) (w : Fin 160 → BitVec 32)
    (hw : ∀ t, ∀ a, (k0_off5 (w t)) a + S1x64.size a ≤ S1000000x64.size a) :
    ((tV).view.loc (thr d L) ↦{q} Tb : sProp 𝕄)
      = iprop((bigSep (Finset.univ : Finset (Fin 160)) fun t =>
              (srcOf (w t) (hw t)).view.loc (thr d L) ↦[(srcOf (w t) (hw t)).view.set]{Transfers.shareTokN q (16 * (kOf t).val + (rOf t).val)} Tb)
          ∗ (bigSep (Finset.univ : Finset (Fin 160)) fun t =>
              (tV).view.loc (thr d L) ↦[Finset.univ \ (srcOf (w t) (hw t)).view.set]{Transfers.shareTokN q t.val} Tb)
          ∗ ((tV).view.loc (thr d L) ↦{Transfers.shareDrop q 160} Tb)) := by
  have h0 : ((tV).view.loc (thr d L) ↦{q} Tb : sProp 𝕄)
      ⊣⊢ iprop(((tV).view.loc (thr d L) ↦{Transfers.shareDrop q 160} Tb)
        ∗ bigSep Finset.univ (fun i : Fin 160 => (tV).view.loc (thr d L) ↦{Transfers.shareTok q 160 i} Tb)) := Transfers.pointsTo_toks q 160
  rw [BI.equiv_iff.mp ⟨h0.1, h0.2⟩]
  have e1 : (bigSep Finset.univ fun i : Fin 160 => ((tV).view.loc (thr d L) ↦{Transfers.shareTok q 160 i} Tb : sProp 𝕄))
      = iprop((bigSep (Finset.univ : Finset (Fin 160)) fun t =>
              (srcOf (w t) (hw t)).view.loc (thr d L) ↦[(srcOf (w t) (hw t)).view.set]{Transfers.shareTokN q (16 * (kOf t).val + (rOf t).val)} Tb)
          ∗ (bigSep (Finset.univ : Finset (Fin 160)) fun t =>
              (tV).view.loc (thr d L) ↦[Finset.univ \ (srcOf (w t) (hw t)).view.set]{Transfers.shareTokN q t.val} Tb)) := by
    rw [← bigSep_sep']
    refine bigSep_congr fun t _ => ?_
    have et : 16 * (kOf t).val + (rOf t).val = t.val := by show 16 * (t.val / 16) + t.val % 16 = t.val; omega
    rw [et]
    have h1 : ((tV).view.loc (thr d L) ↦[Finset.univ]{Transfers.shareTokN q t.val} Tb : sProp 𝕄)
        ⊣⊢ iprop(((tV).view.loc (thr d L) ↦[(srcOf (w t) (hw t)).view.set]{Transfers.shareTokN q t.val} Tb)
          ∗ ((tV).view.loc (thr d L) ↦[Finset.univ \ (srcOf (w t) (hw t)).view.set]{Transfers.shareTokN q t.val} Tb)) :=
      pointsTo_split_subset (Finset.subset_univ _)
    exact BI.equiv_iff.mp ⟨h1.1, h1.2⟩
  rw [e1]
  exact sep_rot _ _ _

/-- Row `t` of buffer `b`, columns 0 … 63, holds the table row that token number `base + t` of the list names. -/
def rowsGood (b : Fin 4) (base : ℕ) (fI : S10240.Idx → BitVec 32) (Tb : Buf (Elt F) (tabLoc d)) (f' : Buf (Elt F) ((sR).view.loc (thr d L))) : Prop :=
  ∀ (t : Fin 160) (y : Fin 64), f' (ix3 b t (⟨y.val, by omega⟩ : Fin 128))
    = Tb (ix2 (Cert.Spec.rowOf (fI (ix1 (⟨(base + t.val) % 10240, Nat.mod_lt _ (by decide)⟩ : Fin 10240)))) y)

theorem tokVal_eq_rowOf (fI : Buf (Elt F) ((sI).view.loc (thr d L))) (hI : ∀ j, (fI j).toNat < 1000000) (Tb : Buf (Elt F) (tabLoc d))
    (n : ℕ) (hn : n < 10240) (y : Fin 64) :
    tokVal d L fI hI Tb n hn y = Tb (ix2 (Cert.Spec.rowOf (fI (ix1 (⟨n % 10240, Nat.mod_lt _ (by decide)⟩ : Fin 10240)))) y) := by
  unfold tokVal
  have e : (⟨n % 10240, Nat.mod_lt _ (by decide)⟩ : Fin 10240) = ⟨n, hn⟩ := Fin.ext (Nat.mod_eq_of_lt hn)
  rw [e]
  exact congrArg (fun r => Tb (ix2 r y)) (Fin.ext (Cert.Spec.rowOf_val _ (hI _)).symm)

/-- Buffer 0 read as `[8, 20, 128]`: the write-back's source, as the body spells it. -/
def bufW0 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![0, 0, 0, 0] S1x8x20x128.size inb_S4x8x20x128_S1x8x20x128_0_0_0_0) (fun _ => rfl)).squeeze S8x20x128 squeezes_S1x8x20x128_S8x20x128

/-- (R2) Its elements are buffer 0's. -/
theorem bufW0_set : (bufW0).view.set = bufSet 0 := by
  unfold bufW0
  refine (View.set_reshape _ _).trans ((View.set_slice _ _).trans ?_)
  ext y
  rw [Finset.mem_map, mem_bufSet]
  constructor
  · rintro ⟨x, hx, rfl⟩
    have hx0 : 0 ≤ (x 0).val ∧ (x 0).val < 0 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 0
    rw [e]
    show (x 0).val = 0
    omega
  · intro hy
    have hy' : (y 0).val = 0 := hy
    have h1 : (y 1).val < 160 := (y 1).isLt
    have h2 : (y 2).val < 128 := (y 2).isLt
    refine ⟨ix4 (⟨0, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 0 ≤ 0 ∧ 0 < 0 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 0; omega) (by show (y 1).val = 20 * ((y 1).val / 20) + (y 1).val % 20; omega) rfl

/-- Buffer 1 read as `[8, 20, 128]`: the write-back's source, as the body spells it. -/
def bufW1 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![1, 0, 0, 0] S1x8x20x128.size inb_S4x8x20x128_S1x8x20x128_1_0_0_0) (fun _ => rfl)).squeeze S8x20x128 squeezes_S1x8x20x128_S8x20x128

/-- (R2) Its elements are buffer 1's. -/
theorem bufW1_set : (bufW1).view.set = bufSet 1 := by
  unfold bufW1
  refine (View.set_reshape _ _).trans ((View.set_slice _ _).trans ?_)
  ext y
  rw [Finset.mem_map, mem_bufSet]
  constructor
  · rintro ⟨x, hx, rfl⟩
    have hx0 : 1 ≤ (x 0).val ∧ (x 0).val < 1 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 1
    rw [e]
    show (x 0).val = 1
    omega
  · intro hy
    have hy' : (y 0).val = 1 := hy
    have h1 : (y 1).val < 160 := (y 1).isLt
    have h2 : (y 2).val < 128 := (y 2).isLt
    refine ⟨ix4 (⟨1, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 1 ≤ 1 ∧ 1 < 1 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 1; omega) (by show (y 1).val = 20 * ((y 1).val / 20) + (y 1).val % 20; omega) rfl

/-- Buffer 2 read as `[8, 20, 128]`: the write-back's source, as the body spells it. -/
def bufW2 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![2, 0, 0, 0] S1x8x20x128.size inb_S4x8x20x128_S1x8x20x128_2_0_0_0) (fun _ => rfl)).squeeze S8x20x128 squeezes_S1x8x20x128_S8x20x128

/-- (R2) Its elements are buffer 2's. -/
theorem bufW2_set : (bufW2).view.set = bufSet 2 := by
  unfold bufW2
  refine (View.set_reshape _ _).trans ((View.set_slice _ _).trans ?_)
  ext y
  rw [Finset.mem_map, mem_bufSet]
  constructor
  · rintro ⟨x, hx, rfl⟩
    have hx0 : 2 ≤ (x 0).val ∧ (x 0).val < 2 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 2
    rw [e]
    show (x 0).val = 2
    omega
  · intro hy
    have hy' : (y 0).val = 2 := hy
    have h1 : (y 1).val < 160 := (y 1).isLt
    have h2 : (y 2).val < 128 := (y 2).isLt
    refine ⟨ix4 (⟨2, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 2 ≤ 2 ∧ 2 < 2 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 2; omega) (by show (y 1).val = 20 * ((y 1).val / 20) + (y 1).val % 20; omega) rfl

/-- Buffer 3 read as `[8, 20, 128]`: the write-back's source, as the body spells it. -/
def bufW3 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![3, 0, 0, 0] S1x8x20x128.size inb_S4x8x20x128_S1x8x20x128_3_0_0_0) (fun _ => rfl)).squeeze S8x20x128 squeezes_S1x8x20x128_S8x20x128

/-- (R2) Its elements are buffer 3's. -/
theorem bufW3_set : (bufW3).view.set = bufSet 3 := by
  unfold bufW3
  refine (View.set_reshape _ _).trans ((View.set_slice _ _).trans ?_)
  ext y
  rw [Finset.mem_map, mem_bufSet]
  constructor
  · rintro ⟨x, hx, rfl⟩
    have hx0 : 3 ≤ (x 0).val ∧ (x 0).val < 3 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 3
    rw [e]
    show (x 0).val = 3
    omega
  · intro hy
    have hy' : (y 0).val = 3 := hy
    have h1 : (y 1).val < 160 := (y 1).isLt
    have h2 : (y 2).val < 128 := (y 2).isLt
    refine ⟨ix4 (⟨3, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 3 ≤ 3 ∧ 3 < 3 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 3; omega) (by show (y 1).val = 20 * ((y 1).val / 20) + (y 1).val % 20; omega) rfl

end Cert.Proof.Kernel

end
-- ==== Proof.Kernel.Rows.lean ====
/-
  A worker's row buffers through the loops' own names. A token vector's word r of trip k of group g is token number
  640 g + 160 b + 16 k + r of the worker's list; row 16 k + r of buffer b, as a copy addresses it, is that row's 64
  elements. A buffer held splits into its 160 rows and its right half and the table into one read share per word: what
  the 160 copies of a chunk are issued from. Once they have all landed the pieces join again: row t of the buffer holds
  the table row that token 640 g + 160 b + t names, and the table is whole.
-/
import proofs.«206312_g12936441495622_cont_fleet_311_30_alg».proof.Proof.Kernel.RowsGeo
import proofs.«206312_g12936441495622_cont_fleet_311_30_alg».proof.Proof.Kernel.Issue0
import proofs.«206312_g12936441495622_cont_fleet_311_30_alg».proof.Proof.Kernel.Issue1
import proofs.«206312_g12936441495622_cont_fleet_311_30_alg».proof.Proof.Kernel.Issue2
import proofs.«206312_g12936441495622_cont_fleet_311_30_alg».proof.Proof.Kernel.Issue3

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

/-! ## Buffer 0 -/

/-- Trip `k`'s row `r` of buffer 0 for every one of the sixteen lanes. -/
theorem off_row0_eq : ∀ (k : Fin k0_t2_loop.trips) (r : Fin 16), k0_off6 k (BitVec.ofNat 32 r.val) = ![0, 16 * k.val + r.val, 0] := by decide +kernel

theorem word0_lt (g : Fin k0_t1_loop.trips) (h1 : k0_cond1 g = 1#1) (k : Fin k0_t2_loop.trips) (r : Fin 16) :
    640 * g.val + 160 * 0 + 16 * k.val + r.val < 10240 := by
  have h : (k0_off3 g k) 0 + 16 ≤ 10240 := k0_off3_inb g k h1 0
  rw [k0_off3_eq] at h
  have h' : 640 * g.val + 16 * k.val + 160 * 0 + 16 ≤ 10240 := by
    have e : (![640 * g.val + 16 * k.val] : Fin 1 → ℕ) 0 = 640 * g.val + 16 * k.val := rfl
    rw [e] at h; omega
  have := r.isLt
  omega

/-- (R1) Word `r` of trip `k` of group `g` is token number `640 g + 160 · 0 + 16 k + r` of the list. -/
theorem wordAt0_eq (g : Fin k0_t1_loop.trips) (h1 : k0_cond1 g = 1#1) (k : Fin k0_t2_loop.trips) (r : Fin 16)
    (fI : Buf (Elt F) ((sI).view.loc (thr d L))) :
    wordAt0 d L g h1 k r fI = fI (ix1 (⟨640 * g.val + 160 * 0 + 16 * k.val + r.val, word0_lt g h1 k r⟩ : Fin 10240)) := by
  unfold wordAt0 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off3 g k) 0 + 1 * r.val = 640 * g.val + 160 * 0 + 16 * k.val + r.val
    rw [k0_off3_eq]
    show 640 * g.val + 16 * k.val + 1 * r.val = _
    omega

theorem row0_lt (k : Fin k0_t2_loop.trips) (r : Fin 16) : 16 * k.val + r.val < 160 := by
  have hk : k.val < 10 := k.isLt
  have := r.isLt; omega

/-- (R2) Row `16 k + r` of buffer 0, as the body addresses it, is that row's 64 elements. -/
theorem rowAt0_set (k : Fin k0_t2_loop.trips) (r : Fin 16) :
    (rowAt0 k (BitVec.ofNat 32 r.val) (row0_inb k r)).view.set = rowSet 0 ⟨16 * k.val + r.val, row0_lt k r⟩ := by
  unfold rowAt0
  refine ((View.set_reshape _ _).trans (View.set_slice_whole _ _)).trans ?_
  ext y
  rw [mem_rowSet, Rect.mem_set_unit]
  have e := off_row0_eq k r
  constructor
  · intro H
    have a0 := H 0; have a1 := H 1; have a2 := H 2
    rw [e] at a0 a1 a2
    have b0 : 0 ≤ (y 0).val ∧ (y 0).val < 0 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 0; omega
    · show (y 1).val = 16 * k.val + r.val; omega
    · omega
  · rintro ⟨h0, h1, h2⟩ a
    have h0' : (y 0).val = 0 := h0
    have h1' : (y 1).val = 16 * k.val + r.val := h1
    rw [e]
    fin_cases a
    · show 0 ≤ (y 0).val ∧ (y 0).val < 0 + 1; omega
    · show 16 * k.val + r.val ≤ (y 1).val ∧ (y 1).val < 16 * k.val + r.val + 1; omega
    · show 0 ≤ (y 2).val ∧ (y 2).val < 0 + 64; omega
/-- (R3) Buffer 0 held is its 160 rows held, as the copies address them, and its right half. -/
theorem buf0_split (f : Buf (Elt F) ((sR).view.loc (thr d L))) :
    ((bufW0).view.loc (thr d L) ↦[(bufW0).view.set]{fullShare} f : sProp 𝕄)
      = iprop((bigSep (Finset.univ : Finset (Fin 160)) fun t =>
            (rowAt0 (kOf t) (BitVec.ofNat 32 (rOf t).val) (row0_inb _ _)).view.loc (thr d L)
              ↦[(rowAt0 (kOf t) (BitVec.ofNat 32 (rOf t).val) (row0_inb _ _)).view.set]{fullShare} f)
          ∗ ((sR).view.loc (thr d L) ↦[rightSet 0]{fullShare} f)) := by
  rw [bufW0_set]
  refine (buf_rows d L 0 f).trans ?_
  refine congrArg (fun X : sProp 𝕄 => (iprop(X ∗ ((sR).view.loc (thr d L) ↦[rightSet 0]{fullShare} f)) : sProp 𝕄)) ?_
  refine bigSep_congr fun t _ => ?_
  have e := rowAt0_set (kOf t) (rOf t)
  rw [kr_eq] at e
  exact congrArg (fun I => ((sR).view.loc (thr d L) ↦[I]{fullShare} f : sProp 𝕄)) e.symm

/-- Element `y` of row `16 k + r` of buffer 0 sits at `(0, 16 k + r, y)`. -/
theorem rowAt0_emb (k : Fin k0_t2_loop.trips) (r : Fin 16) (y : Fin 64) :
    (rowAt0 k (BitVec.ofNat 32 r.val) (row0_inb k r)).view.emb (ix1 y)
      = (ix3 (0 : Fin 4) (⟨16 * k.val + r.val, row0_lt k r⟩ : Fin 160) (⟨y.val, by omega⟩ : Fin 128) : S4x160x128.Idx) := by
  unfold rowAt0
  show (Rect.unit (s := S4x160x128) (k0_off6 k (BitVec.ofNat 32 r.val)) S1x1x64.size (row0_inb k r)).emb
    (Shape.reshapeEquiv (s := S1x1x64) (s' := S64) squeezes_S1x1x64_S64.numel_eq (ix1 y)) = _
  rw [reshape_row3]
  funext a
  refine Fin.ext ?_
  rw [Rect.emb_apply]
  have e := off_row0_eq k r
  match a with
  | ⟨0, _⟩ => show (k0_off6 k (BitVec.ofNat 32 r.val)) 0 + 1 * 0 = 0; rw [e]; rfl
  | ⟨1, _⟩ => show (k0_off6 k (BitVec.ofNat 32 r.val)) 1 + 1 * 0 = 16 * k.val + r.val; rw [e]; rfl
  | ⟨2, _⟩ => show (k0_off6 k (BitVec.ofNat 32 r.val)) 2 + 1 * y.val = y.val; rw [e]; show 0 + 1 * y.val = y.val; omega

/-- A row written whole with `w` holds `w`. -/
theorem rowAt0_landed (k : Fin k0_t2_loop.trips) (r : Fin 16) (fd0 : Buf (Elt F) ((sR).view.loc (thr d L))) (w : S64.Idx → Elt F .f32) (y : Fin 64) :
    ((rowAt0 k (BitVec.ofNat 32 r.val) (row0_inb k r)).view.writes (Elt F) fd0 [⟨Rect.whole S64, w⟩])
        (ix3 (0 : Fin 4) (⟨16 * k.val + r.val, row0_lt k r⟩ : Fin 160) (⟨y.val, by omega⟩ : Fin 128))
      = w (ix1 y) := by
  have h := View.read_writes_cons_emb (rowAt0 k (BitVec.ofNat 32 r.val) (row0_inb k r)).view fd0 (Rect.whole S64) w [] (ix1 y)
  rw [Rect.emb_whole_apply, View.read_apply, rowAt0_emb k r y] at h
  exact h

theorem tok0_lt (g : Fin k0_t1_loop.trips) (h1 : k0_cond1 g = 1#1) (n : ℕ) (hn : n < 160) : 640 * g.val + 160 * 0 + n < 10240 := by
  have h := word0_lt g h1 (⟨9, by decide⟩ : Fin k0_t2_loop.trips) (15 : Fin 16)
  have h' : 640 * g.val + 160 * 0 + 16 * 9 + 15 < 10240 := h
  omega

/-- What buffer 0 holds once its 160 rows have landed over `fd0`: row `t`, columns 0 … 63, the table row token
    `640 g + 160 · 0 + t` names; columns 64 … 127 as before. -/
def landed0 (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 0 + (i 1).val) (tok0_lt g h1 _ (i 1).isLt) (⟨(i 2).val, hi⟩ : Fin 64)
    else fd0 i

theorem landed0_apply (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed0 d L g h1 fI hI Tb fd0 (ix3 (0 : Fin 4) t (⟨y.val, by omega⟩ : Fin 128))
      = tokVal d L fI hI Tb (640 * g.val + 160 * 0 + t.val) (tok0_lt g h1 _ t.isLt) y := by
  unfold landed0
  rw [dif_pos (show ((ix3 (0 : Fin 4) t (⟨y.val, by omega⟩ : Fin 128) : S4x160x128.Idx) 2).val < 64 from y.isLt)]
  rfl

/-- A landed row agrees with `landed0` on its 64 elements. -/
theorem landed0_row (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t2_loop.trips) (r : Fin 16) :
    ∀ (i : S4x160x128.Idx), i ∈ ((rowAt0 k (BitVec.ofNat 32 r.val) (row0_inb k r)).view.set : Finset S4x160x128.Idx) →
      ((rowAt0 k (BitVec.ofNat 32 r.val) (row0_inb k r)).view.writes (Elt F) fd0
          [⟨Rect.whole S64, ReadAs.same.apply ((srcOf (wordAt0 d L g h1 k r fI) (chk_of_lt _ (hI _))).view.read (Elt F) Tb)⟩]) i
        = landed0 d L g h1 fI hI Tb fd0 i := by
  intro i hi
  have hi' : (i : S4x160x128.Idx) ∈ rowSet 0 ⟨16 * k.val + r.val, row0_lt k r⟩ := by
    have h := hi; rw [rowAt0_set k r] at h; exact h
  obtain ⟨h0, h1', h2⟩ := (mem_rowSet 0 _ i).mp hi'
  obtain ⟨y, hy⟩ : ∃ y : Fin 64, (i 2).val = y.val := ⟨⟨(i 2).val, h2⟩, rfl⟩
  have ei : i = (ix3 (0 : Fin 4) (⟨16 * k.val + r.val, row0_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt0_landed d L k r fd0 _ y, landed0_apply d L g h1 fI hI Tb fd0 ⟨16 * k.val + r.val, row0_lt k r⟩ y]
  show (srcOf (wordAt0 d L g h1 k r fI) (chk_of_lt _ (hI _))).view.read (Elt F) Tb (ix1 y) = _
  rw [srcOf_read d (wordAt0 d L g h1 k r fI) (chk_of_lt _ (hI _)) (hI _) Tb y]
  refine (tokVal_of_word d L fI hI Tb _ (hI _) _ (word0_lt g h1 k r) (wordAt0_eq d L g h1 k r fI) y).trans ?_
  exact tokVal_congr d L fI hI Tb (by show 640 * g.val + 160 * 0 + 16 * k.val + r.val = 640 * g.val + 160 * 0 + (16 * k.val + r.val); omega) _ _ y

/-- A landed row, held, is that row of `landed0` held; the untouched right half likewise. -/
theorem landed0_pts (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t2_loop.trips) (r : Fin 16) :
    ((rowAt0 k (BitVec.ofNat 32 r.val) (row0_inb k r)).view.loc (thr d L) ↦[(rowAt0 k (BitVec.ofNat 32 r.val) (row0_inb k r)).view.set]{fullShare}
        ((rowAt0 k (BitVec.ofNat 32 r.val) (row0_inb k r)).view.writes (Elt F) f
          [⟨Rect.whole S64, ReadAs.same.apply ((srcOf (wordAt0 d L g h1 k r fI) (chk_of_lt _ (hI _))).view.read (Elt F) Tb)⟩]) : sProp 𝕄)
      = ((rowAt0 k (BitVec.ofNat 32 r.val) (row0_inb k r)).view.loc (thr d L) ↦[(rowAt0 k (BitVec.ofNat 32 r.val) (row0_inb k r)).view.set]{fullShare}
          landed0 d L g h1 fI hI Tb f) :=
  pointsTo_congr (landed0_row d L g h1 fI hI Tb f k r)
theorem right0_pts (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 0]{fullShare} f : sProp 𝕄) = ((sR).view.loc (thr d L) ↦[rightSet 0]{fullShare} landed0 d L g h1 fI hI Tb f) :=
  pointsTo_congr fun i hi => by
    unfold landed0
    rw [dif_neg (by have := ((mem_rightSet 0 i).mp hi).2; omega)]

theorem landed0_good (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 0 (640 * g.val + 160 * 0) fI Tb (landed0 d L g h1 fI hI Tb f) := by
  intro t y
  rw [landed0_apply d L g h1 fI hI Tb f t y]
  exact tokVal_eq_rowOf d L fI hI Tb _ _ y

/-- What transfer `t` of buffer 0's batch delivers. -/
abbrev D0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out0 d L g h1 fI hI Tb f q (kOf t) (rOf t)

theorem sep_pts_storable (ℓ₁ : Loc nD τ sig) (I₁ : Finset (Idx ℓ₁)) (X : Buf (Elt F) ℓ₁) (ℓ₂ : Loc nD τ sig) (I₂ : Finset (Idx ℓ₂)) (q₂ : PosShare TreeShare) (Y : Buf (Elt F) ℓ₂) :
    BI.Storable (upEmb : UEmb _ 𝕄) (iprop((ℓ₁ ↦[I₁]{fullShare} X) ∗ (ℓ₂ ↦[I₂]{q₂} Y)) : sProp 𝕄) := inferInstance

instance D0_storable (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D0 d L g h1 fI hI Tb f q t) := fun t => by
  exact sep_pts_storable _ _ _ _ _ _ _

/-- What stays aside while the batch runs: the buffer's right half, the rest of the table at each word's read share, the
    table at the remainder. -/
def left0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 0]{fullShare} f)
    ∗ (bigSep Finset.univ fun t : Fin 160 => (tV).view.loc (thr d L) ↦[Finset.univ \ (srcOf (wordAt0 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed0`, the table rows back. -/
theorem outs0_eq (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D0 d L g h1 fI hI Tb f q))
      = (iprop((bigSep (Finset.univ : Finset (Fin 160)) fun t => (rowAt0 (kOf t) (BitVec.ofNat 32 (rOf t).val) (row0_inb _ _)).view.loc (thr d L) ↦[(rowAt0 (kOf t) (BitVec.ofNat 32 (rOf t).val) (row0_inb _ _)).view.set]{fullShare} landed0 d L g h1 fI hI Tb f)
          ∗ (bigSep (Finset.univ : Finset (Fin 160)) fun t => (srcOf (wordAt0 d L g h1 (kOf t) (rOf t) fI) (chk_of_lt _ (hI _))).view.loc (thr d L) ↦[(srcOf (wordAt0 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out0 d L g h1 fI hI Tb f q (kOf t) (rOf t) = _
  unfold out0
  rw [landed0_pts d L g h1 fI hI Tb f q (kOf t) (rOf t)]

/-- Before the batch: the buffer and the table, dealt out to the 160 transfers. -/
theorem open0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW0).view.loc (thr d L) ↦[(bufW0).view.set]{fullShare} f) ∗ ((tV).view.loc (thr d L) ↦{q} Tb))
      ⊢ (iprop((bigSep (Ring.rangeSet 160 (16 * 0) 160) fun t => inp0 d L g h1 fI hI Tb f q (kOf t) (rOf t)) ∗ left0 d L g h1 fI hI Tb f q) : sProp 𝕄) := by
  rw [buf0_split d L f, tokens_split d L q Tb (fun t => wordAt0 d L g h1 (kOf t) (rOf t) fI) (fun t => chk_of_lt _ (hI _)),
    show Ring.rangeSet 160 (16 * 0) 160 = Finset.univ from Ring.rangeSet_univ]
  unfold left0
  have ei : (bigSep (Finset.univ : Finset (Fin 160)) fun t => inp0 d L g h1 fI hI Tb f q (kOf t) (rOf t))
      = (iprop((bigSep (Finset.univ : Finset (Fin 160)) fun t => (rowAt0 (kOf t) (BitVec.ofNat 32 (rOf t).val) (row0_inb _ _)).view.loc (thr d L) ↦[(rowAt0 (kOf t) (BitVec.ofNat 32 (rOf t).val) (row0_inb _ _)).view.set]{fullShare} f)
          ∗ (bigSep (Finset.univ : Finset (Fin 160)) fun t => (srcOf (wordAt0 d L g h1 (kOf t) (rOf t) fI) (chk_of_lt _ (hI _))).view.loc (thr d L) ↦[(srcOf (wordAt0 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp0 d L g h1 fI hI Tb f q (kOf t) (rOf t) = _
    unfold inp0
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D0 d L g h1 fI hI Tb f q)) ∗ left0 d L g h1 fI hI Tb f q)
      ⊢ (iprop(∃ f', ⌜rowsGood d L 0 (640 * g.val + 160 * 0) fI Tb f'⌝ ∗ ((bufW0).view.loc (thr d L) ↦[(bufW0).view.set]{fullShare} f')
          ∗ ((tV).view.loc (thr d L) ↦{q} Tb)) : sProp 𝕄) := by
  rw [outs0_eq d L g h1 fI hI Tb f q]
  unfold left0
  rw [right0_pts d L g h1 fI hI Tb f q, tokens_split d L q Tb (fun t => wordAt0 d L g h1 (kOf t) (rOf t) fI) (fun t => chk_of_lt _ (hI _))]
  iintro ⟨⟨Hrows, Hsrc⟩, Hright, Hrest, Hdrop⟩
  iexists landed0 d L g h1 fI hI Tb f
  isplitr
  · ipureintro; exact landed0_good d L g h1 fI hI Tb f q
  isplitl [Hrows Hright]
  · iapply (Entails.of_eq (buf0_split d L (landed0 d L g h1 fI hI Tb f)).symm)
    isplitl [Hrows]; · iexact Hrows
    iexact Hright
  isplitl [Hsrc]; · iexact Hsrc
  isplitl [Hrest]; · iexact Hrest
  iexact Hdrop

/-! ## Buffer 1 -/

/-- Trip `k`'s row `r` of buffer 1 for every one of the sixteen lanes. -/
theorem off_row1_eq : ∀ (k : Fin k0_t4_loop.trips) (r : Fin 16), k0_off42 k (BitVec.ofNat 32 r.val) = ![1, 16 * k.val + r.val, 0] := by decide +kernel

theorem word1_lt (g : Fin k0_t1_loop.trips) (h1 : k0_cond4 g = 1#1) (k : Fin k0_t4_loop.trips) (r : Fin 16) :
    640 * g.val + 160 * 1 + 16 * k.val + r.val < 10240 := by
  have h : (k0_off39 g k) 0 + 16 ≤ 10240 := k0_off39_inb g k h1 0
  rw [k0_off39_eq] at h
  have h' : 640 * g.val + 16 * k.val + 160 * 1 + 16 ≤ 10240 := by
    have e : (![640 * g.val + 16 * k.val + 160] : Fin 1 → ℕ) 0 = 640 * g.val + 16 * k.val + 160 := rfl
    rw [e] at h; omega
  have := r.isLt
  omega

/-- (R1) Word `r` of trip `k` of group `g` is token number `640 g + 160 · 1 + 16 k + r` of the list. -/
theorem wordAt1_eq (g : Fin k0_t1_loop.trips) (h1 : k0_cond4 g = 1#1) (k : Fin k0_t4_loop.trips) (r : Fin 16)
    (fI : Buf (Elt F) ((sI).view.loc (thr d L))) :
    wordAt1 d L g h1 k r fI = fI (ix1 (⟨640 * g.val + 160 * 1 + 16 * k.val + r.val, word1_lt g h1 k r⟩ : Fin 10240)) := by
  unfold wordAt1 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off39 g k) 0 + 1 * r.val = 640 * g.val + 160 * 1 + 16 * k.val + r.val
    rw [k0_off39_eq]
    show 640 * g.val + 16 * k.val + 160 + 1 * r.val = _
    omega

theorem row1_lt (k : Fin k0_t4_loop.trips) (r : Fin 16) : 16 * k.val + r.val < 160 := by
  have hk : k.val < 10 := k.isLt
  have := r.isLt; omega

/-- (R2) Row `16 k + r` of buffer 1, as the body addresses it, is that row's 64 elements. -/
theorem rowAt1_set (k : Fin k0_t4_loop.trips) (r : Fin 16) :
    (rowAt1 k (BitVec.ofNat 32 r.val) (row1_inb k r)).view.set = rowSet 1 ⟨16 * k.val + r.val, row1_lt k r⟩ := by
  unfold rowAt1
  refine ((View.set_reshape _ _).trans (View.set_slice_whole _ _)).trans ?_
  ext y
  rw [mem_rowSet, Rect.mem_set_unit]
  have e := off_row1_eq k r
  constructor
  · intro H
    have a0 := H 0; have a1 := H 1; have a2 := H 2
    rw [e] at a0 a1 a2
    have b0 : 1 ≤ (y 0).val ∧ (y 0).val < 1 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 1; omega
    · show (y 1).val = 16 * k.val + r.val; omega
    · omega
  · rintro ⟨h0, h1, h2⟩ a
    have h0' : (y 0).val = 1 := h0
    have h1' : (y 1).val = 16 * k.val + r.val := h1
    rw [e]
    fin_cases a
    · show 1 ≤ (y 0).val ∧ (y 0).val < 1 + 1; omega
    · show 16 * k.val + r.val ≤ (y 1).val ∧ (y 1).val < 16 * k.val + r.val + 1; omega
    · show 0 ≤ (y 2).val ∧ (y 2).val < 0 + 64; omega
/-- (R3) Buffer 1 held is its 160 rows held, as the copies address them, and its right half. -/
theorem buf1_split (f : Buf (Elt F) ((sR).view.loc (thr d L))) :
    ((bufW1).view.loc (thr d L) ↦[(bufW1).view.set]{fullShare} f : sProp 𝕄)
      = iprop((bigSep (Finset.univ : Finset (Fin 160)) fun t =>
            (rowAt1 (kOf t) (BitVec.ofNat 32 (rOf t).val) (row1_inb _ _)).view.loc (thr d L)
              ↦[(rowAt1 (kOf t) (BitVec.ofNat 32 (rOf t).val) (row1_inb _ _)).view.set]{fullShare} f)
          ∗ ((sR).view.loc (thr d L) ↦[rightSet 1]{fullShare} f)) := by
  rw [bufW1_set]
  refine (buf_rows d L 1 f).trans ?_
  refine congrArg (fun X : sProp 𝕄 => (iprop(X ∗ ((sR).view.loc (thr d L) ↦[rightSet 1]{fullShare} f)) : sProp 𝕄)) ?_
  refine bigSep_congr fun t _ => ?_
  have e := rowAt1_set (kOf t) (rOf t)
  rw [kr_eq] at e
  exact congrArg (fun I => ((sR).view.loc (thr d L) ↦[I]{fullShare} f : sProp 𝕄)) e.symm

/-- Element `y` of row `16 k + r` of buffer 1 sits at `(1, 16 k + r, y)`. -/
theorem rowAt1_emb (k : Fin k0_t4_loop.trips) (r : Fin 16) (y : Fin 64) :
    (rowAt1 k (BitVec.ofNat 32 r.val) (row1_inb k r)).view.emb (ix1 y)
      = (ix3 (1 : Fin 4) (⟨16 * k.val + r.val, row1_lt k r⟩ : Fin 160) (⟨y.val, by omega⟩ : Fin 128) : S4x160x128.Idx) := by
  unfold rowAt1
  show (Rect.unit (s := S4x160x128) (k0_off42 k (BitVec.ofNat 32 r.val)) S1x1x64.size (row1_inb k r)).emb
    (Shape.reshapeEquiv (s := S1x1x64) (s' := S64) squeezes_S1x1x64_S64.numel_eq (ix1 y)) = _
  rw [reshape_row3]
  funext a
  refine Fin.ext ?_
  rw [Rect.emb_apply]
  have e := off_row1_eq k r
  match a with
  | ⟨0, _⟩ => show (k0_off42 k (BitVec.ofNat 32 r.val)) 0 + 1 * 0 = 1; rw [e]; rfl
  | ⟨1, _⟩ => show (k0_off42 k (BitVec.ofNat 32 r.val)) 1 + 1 * 0 = 16 * k.val + r.val; rw [e]; rfl
  | ⟨2, _⟩ => show (k0_off42 k (BitVec.ofNat 32 r.val)) 2 + 1 * y.val = y.val; rw [e]; show 0 + 1 * y.val = y.val; omega

/-- A row written whole with `w` holds `w`. -/
theorem rowAt1_landed (k : Fin k0_t4_loop.trips) (r : Fin 16) (fd0 : Buf (Elt F) ((sR).view.loc (thr d L))) (w : S64.Idx → Elt F .f32) (y : Fin 64) :
    ((rowAt1 k (BitVec.ofNat 32 r.val) (row1_inb k r)).view.writes (Elt F) fd0 [⟨Rect.whole S64, w⟩])
        (ix3 (1 : Fin 4) (⟨16 * k.val + r.val, row1_lt k r⟩ : Fin 160) (⟨y.val, by omega⟩ : Fin 128))
      = w (ix1 y) := by
  have h := View.read_writes_cons_emb (rowAt1 k (BitVec.ofNat 32 r.val) (row1_inb k r)).view fd0 (Rect.whole S64) w [] (ix1 y)
  rw [Rect.emb_whole_apply, View.read_apply, rowAt1_emb k r y] at h
  exact h

theorem tok1_lt (g : Fin k0_t1_loop.trips) (h1 : k0_cond4 g = 1#1) (n : ℕ) (hn : n < 160) : 640 * g.val + 160 * 1 + n < 10240 := by
  have h := word1_lt g h1 (⟨9, by decide⟩ : Fin k0_t4_loop.trips) (15 : Fin 16)
  have h' : 640 * g.val + 160 * 1 + 16 * 9 + 15 < 10240 := h
  omega

/-- What buffer 1 holds once its 160 rows have landed over `fd0`: row `t`, columns 0 … 63, the table row token
    `640 g + 160 · 1 + t` names; columns 64 … 127 as before. -/
def landed1 (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 1 + (i 1).val) (tok1_lt g h1 _ (i 1).isLt) (⟨(i 2).val, hi⟩ : Fin 64)
    else fd0 i

theorem landed1_apply (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed1 d L g h1 fI hI Tb fd0 (ix3 (1 : Fin 4) t (⟨y.val, by omega⟩ : Fin 128))
      = tokVal d L fI hI Tb (640 * g.val + 160 * 1 + t.val) (tok1_lt g h1 _ t.isLt) y := by
  unfold landed1
  rw [dif_pos (show ((ix3 (1 : Fin 4) t (⟨y.val, by omega⟩ : Fin 128) : S4x160x128.Idx) 2).val < 64 from y.isLt)]
  rfl

/-- A landed row agrees with `landed1` on its 64 elements. -/
theorem landed1_row (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t4_loop.trips) (r : Fin 16) :
    ∀ (i : S4x160x128.Idx), i ∈ ((rowAt1 k (BitVec.ofNat 32 r.val) (row1_inb k r)).view.set : Finset S4x160x128.Idx) →
      ((rowAt1 k (BitVec.ofNat 32 r.val) (row1_inb k r)).view.writes (Elt F) fd0
          [⟨Rect.whole S64, ReadAs.same.apply ((srcOf (wordAt1 d L g h1 k r fI) (chk_of_lt _ (hI _))).view.read (Elt F) Tb)⟩]) i
        = landed1 d L g h1 fI hI Tb fd0 i := by
  intro i hi
  have hi' : (i : S4x160x128.Idx) ∈ rowSet 1 ⟨16 * k.val + r.val, row1_lt k r⟩ := by
    have h := hi; rw [rowAt1_set k r] at h; exact h
  obtain ⟨h0, h1', h2⟩ := (mem_rowSet 1 _ i).mp hi'
  obtain ⟨y, hy⟩ : ∃ y : Fin 64, (i 2).val = y.val := ⟨⟨(i 2).val, h2⟩, rfl⟩
  have ei : i = (ix3 (1 : Fin 4) (⟨16 * k.val + r.val, row1_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt1_landed d L k r fd0 _ y, landed1_apply d L g h1 fI hI Tb fd0 ⟨16 * k.val + r.val, row1_lt k r⟩ y]
  show (srcOf (wordAt1 d L g h1 k r fI) (chk_of_lt _ (hI _))).view.read (Elt F) Tb (ix1 y) = _
  rw [srcOf_read d (wordAt1 d L g h1 k r fI) (chk_of_lt _ (hI _)) (hI _) Tb y]
  refine (tokVal_of_word d L fI hI Tb _ (hI _) _ (word1_lt g h1 k r) (wordAt1_eq d L g h1 k r fI) y).trans ?_
  exact tokVal_congr d L fI hI Tb (by show 640 * g.val + 160 * 1 + 16 * k.val + r.val = 640 * g.val + 160 * 1 + (16 * k.val + r.val); omega) _ _ y

/-- A landed row, held, is that row of `landed1` held; the untouched right half likewise. -/
theorem landed1_pts (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t4_loop.trips) (r : Fin 16) :
    ((rowAt1 k (BitVec.ofNat 32 r.val) (row1_inb k r)).view.loc (thr d L) ↦[(rowAt1 k (BitVec.ofNat 32 r.val) (row1_inb k r)).view.set]{fullShare}
        ((rowAt1 k (BitVec.ofNat 32 r.val) (row1_inb k r)).view.writes (Elt F) f
          [⟨Rect.whole S64, ReadAs.same.apply ((srcOf (wordAt1 d L g h1 k r fI) (chk_of_lt _ (hI _))).view.read (Elt F) Tb)⟩]) : sProp 𝕄)
      = ((rowAt1 k (BitVec.ofNat 32 r.val) (row1_inb k r)).view.loc (thr d L) ↦[(rowAt1 k (BitVec.ofNat 32 r.val) (row1_inb k r)).view.set]{fullShare}
          landed1 d L g h1 fI hI Tb f) :=
  pointsTo_congr (landed1_row d L g h1 fI hI Tb f k r)
theorem right1_pts (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 1]{fullShare} f : sProp 𝕄) = ((sR).view.loc (thr d L) ↦[rightSet 1]{fullShare} landed1 d L g h1 fI hI Tb f) :=
  pointsTo_congr fun i hi => by
    unfold landed1
    rw [dif_neg (by have := ((mem_rightSet 1 i).mp hi).2; omega)]

theorem landed1_good (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 1 (640 * g.val + 160 * 1) fI Tb (landed1 d L g h1 fI hI Tb f) := by
  intro t y
  rw [landed1_apply d L g h1 fI hI Tb f t y]
  exact tokVal_eq_rowOf d L fI hI Tb _ _ y

/-- What transfer `t` of buffer 1's batch delivers. -/
abbrev D1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out1 d L g h1 fI hI Tb f q (kOf t) (rOf t)

instance D1_storable (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D1 d L g h1 fI hI Tb f q t) := fun t => by
  exact sep_pts_storable _ _ _ _ _ _ _

/-- What stays aside while the batch runs: the buffer's right half, the rest of the table at each word's read share, the
    table at the remainder. -/
def left1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 1]{fullShare} f)
    ∗ (bigSep Finset.univ fun t : Fin 160 => (tV).view.loc (thr d L) ↦[Finset.univ \ (srcOf (wordAt1 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed1`, the table rows back. -/
theorem outs1_eq (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D1 d L g h1 fI hI Tb f q))
      = (iprop((bigSep (Finset.univ : Finset (Fin 160)) fun t => (rowAt1 (kOf t) (BitVec.ofNat 32 (rOf t).val) (row1_inb _ _)).view.loc (thr d L) ↦[(rowAt1 (kOf t) (BitVec.ofNat 32 (rOf t).val) (row1_inb _ _)).view.set]{fullShare} landed1 d L g h1 fI hI Tb f)
          ∗ (bigSep (Finset.univ : Finset (Fin 160)) fun t => (srcOf (wordAt1 d L g h1 (kOf t) (rOf t) fI) (chk_of_lt _ (hI _))).view.loc (thr d L) ↦[(srcOf (wordAt1 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out1 d L g h1 fI hI Tb f q (kOf t) (rOf t) = _
  unfold out1
  rw [landed1_pts d L g h1 fI hI Tb f q (kOf t) (rOf t)]

/-- Before the batch: the buffer and the table, dealt out to the 160 transfers. -/
theorem open1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW1).view.loc (thr d L) ↦[(bufW1).view.set]{fullShare} f) ∗ ((tV).view.loc (thr d L) ↦{q} Tb))
      ⊢ (iprop((bigSep (Ring.rangeSet 160 (16 * 0) 160) fun t => inp1 d L g h1 fI hI Tb f q (kOf t) (rOf t)) ∗ left1 d L g h1 fI hI Tb f q) : sProp 𝕄) := by
  rw [buf1_split d L f, tokens_split d L q Tb (fun t => wordAt1 d L g h1 (kOf t) (rOf t) fI) (fun t => chk_of_lt _ (hI _)),
    show Ring.rangeSet 160 (16 * 0) 160 = Finset.univ from Ring.rangeSet_univ]
  unfold left1
  have ei : (bigSep (Finset.univ : Finset (Fin 160)) fun t => inp1 d L g h1 fI hI Tb f q (kOf t) (rOf t))
      = (iprop((bigSep (Finset.univ : Finset (Fin 160)) fun t => (rowAt1 (kOf t) (BitVec.ofNat 32 (rOf t).val) (row1_inb _ _)).view.loc (thr d L) ↦[(rowAt1 (kOf t) (BitVec.ofNat 32 (rOf t).val) (row1_inb _ _)).view.set]{fullShare} f)
          ∗ (bigSep (Finset.univ : Finset (Fin 160)) fun t => (srcOf (wordAt1 d L g h1 (kOf t) (rOf t) fI) (chk_of_lt _ (hI _))).view.loc (thr d L) ↦[(srcOf (wordAt1 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp1 d L g h1 fI hI Tb f q (kOf t) (rOf t) = _
    unfold inp1
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D1 d L g h1 fI hI Tb f q)) ∗ left1 d L g h1 fI hI Tb f q)
      ⊢ (iprop(∃ f', ⌜rowsGood d L 1 (640 * g.val + 160 * 1) fI Tb f'⌝ ∗ ((bufW1).view.loc (thr d L) ↦[(bufW1).view.set]{fullShare} f')
          ∗ ((tV).view.loc (thr d L) ↦{q} Tb)) : sProp 𝕄) := by
  rw [outs1_eq d L g h1 fI hI Tb f q]
  unfold left1
  rw [right1_pts d L g h1 fI hI Tb f q, tokens_split d L q Tb (fun t => wordAt1 d L g h1 (kOf t) (rOf t) fI) (fun t => chk_of_lt _ (hI _))]
  iintro ⟨⟨Hrows, Hsrc⟩, Hright, Hrest, Hdrop⟩
  iexists landed1 d L g h1 fI hI Tb f
  isplitr
  · ipureintro; exact landed1_good d L g h1 fI hI Tb f q
  isplitl [Hrows Hright]
  · iapply (Entails.of_eq (buf1_split d L (landed1 d L g h1 fI hI Tb f)).symm)
    isplitl [Hrows]; · iexact Hrows
    iexact Hright
  isplitl [Hsrc]; · iexact Hsrc
  isplitl [Hrest]; · iexact Hrest
  iexact Hdrop

/-! ## Buffer 2 -/

/-- Trip `k`'s row `r` of buffer 2 for every one of the sixteen lanes. -/
theorem off_row2_eq : ∀ (k : Fin k0_t6_loop.trips) (r : Fin 16), k0_off78 k (BitVec.ofNat 32 r.val) = ![2, 16 * k.val + r.val, 0] := by decide +kernel

theorem word2_lt (g : Fin k0_t1_loop.trips) (h1 : k0_cond7 g = 1#1) (k : Fin k0_t6_loop.trips) (r : Fin 16) :
    640 * g.val + 160 * 2 + 16 * k.val + r.val < 10240 := by
  have h : (k0_off75 g k) 0 + 16 ≤ 10240 := k0_off75_inb g k h1 0
  rw [k0_off75_eq] at h
  have h' : 640 * g.val + 16 * k.val + 160 * 2 + 16 ≤ 10240 := by
    have e : (![640 * g.val + 16 * k.val + 320] : Fin 1 → ℕ) 0 = 640 * g.val + 16 * k.val + 320 := rfl
    rw [e] at h; omega
  have := r.isLt
  omega

/-- (R1) Word `r` of trip `k` of group `g` is token number `640 g + 160 · 2 + 16 k + r` of the list. -/
theorem wordAt2_eq (g : Fin k0_t1_loop.trips) (h1 : k0_cond7 g = 1#1) (k : Fin k0_t6_loop.trips) (r : Fin 16)
    (fI : Buf (Elt F) ((sI).view.loc (thr d L))) :
    wordAt2 d L g h1 k r fI = fI (ix1 (⟨640 * g.val + 160 * 2 + 16 * k.val + r.val, word2_lt g h1 k r⟩ : Fin 10240)) := by
  unfold wordAt2 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off75 g k) 0 + 1 * r.val = 640 * g.val + 160 * 2 + 16 * k.val + r.val
    rw [k0_off75_eq]
    show 640 * g.val + 16 * k.val + 320 + 1 * r.val = _
    omega

theorem row2_lt (k : Fin k0_t6_loop.trips) (r : Fin 16) : 16 * k.val + r.val < 160 := by
  have hk : k.val < 10 := k.isLt
  have := r.isLt; omega

/-- (R2) Row `16 k + r` of buffer 2, as the body addresses it, is that row's 64 elements. -/
theorem rowAt2_set (k : Fin k0_t6_loop.trips) (r : Fin 16) :
    (rowAt2 k (BitVec.ofNat 32 r.val) (row2_inb k r)).view.set = rowSet 2 ⟨16 * k.val + r.val, row2_lt k r⟩ := by
  unfold rowAt2
  refine ((View.set_reshape _ _).trans (View.set_slice_whole _ _)).trans ?_
  ext y
  rw [mem_rowSet, Rect.mem_set_unit]
  have e := off_row2_eq k r
  constructor
  · intro H
    have a0 := H 0; have a1 := H 1; have a2 := H 2
    rw [e] at a0 a1 a2
    have b0 : 2 ≤ (y 0).val ∧ (y 0).val < 2 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 2; omega
    · show (y 1).val = 16 * k.val + r.val; omega
    · omega
  · rintro ⟨h0, h1, h2⟩ a
    have h0' : (y 0).val = 2 := h0
    have h1' : (y 1).val = 16 * k.val + r.val := h1
    rw [e]
    fin_cases a
    · show 2 ≤ (y 0).val ∧ (y 0).val < 2 + 1; omega
    · show 16 * k.val + r.val ≤ (y 1).val ∧ (y 1).val < 16 * k.val + r.val + 1; omega
    · show 0 ≤ (y 2).val ∧ (y 2).val < 0 + 64; omega
/-- (R3) Buffer 2 held is its 160 rows held, as the copies address them, and its right half. -/
theorem buf2_split (f : Buf (Elt F) ((sR).view.loc (thr d L))) :
    ((bufW2).view.loc (thr d L) ↦[(bufW2).view.set]{fullShare} f : sProp 𝕄)
      = iprop((bigSep (Finset.univ : Finset (Fin 160)) fun t =>
            (rowAt2 (kOf t) (BitVec.ofNat 32 (rOf t).val) (row2_inb _ _)).view.loc (thr d L)
              ↦[(rowAt2 (kOf t) (BitVec.ofNat 32 (rOf t).val) (row2_inb _ _)).view.set]{fullShare} f)
          ∗ ((sR).view.loc (thr d L) ↦[rightSet 2]{fullShare} f)) := by
  rw [bufW2_set]
  refine (buf_rows d L 2 f).trans ?_
  refine congrArg (fun X : sProp 𝕄 => (iprop(X ∗ ((sR).view.loc (thr d L) ↦[rightSet 2]{fullShare} f)) : sProp 𝕄)) ?_
  refine bigSep_congr fun t _ => ?_
  have e := rowAt2_set (kOf t) (rOf t)
  rw [kr_eq] at e
  exact congrArg (fun I => ((sR).view.loc (thr d L) ↦[I]{fullShare} f : sProp 𝕄)) e.symm

/-- Element `y` of row `16 k + r` of buffer 2 sits at `(2, 16 k + r, y)`. -/
theorem rowAt2_emb (k : Fin k0_t6_loop.trips) (r : Fin 16) (y : Fin 64) :
    (rowAt2 k (BitVec.ofNat 32 r.val) (row2_inb k r)).view.emb (ix1 y)
      = (ix3 (2 : Fin 4) (⟨16 * k.val + r.val, row2_lt k r⟩ : Fin 160) (⟨y.val, by omega⟩ : Fin 128) : S4x160x128.Idx) := by
  unfold rowAt2
  show (Rect.unit (s := S4x160x128) (k0_off78 k (BitVec.ofNat 32 r.val)) S1x1x64.size (row2_inb k r)).emb
    (Shape.reshapeEquiv (s := S1x1x64) (s' := S64) squeezes_S1x1x64_S64.numel_eq (ix1 y)) = _
  rw [reshape_row3]
  funext a
  refine Fin.ext ?_
  rw [Rect.emb_apply]
  have e := off_row2_eq k r
  match a with
  | ⟨0, _⟩ => show (k0_off78 k (BitVec.ofNat 32 r.val)) 0 + 1 * 0 = 2; rw [e]; rfl
  | ⟨1, _⟩ => show (k0_off78 k (BitVec.ofNat 32 r.val)) 1 + 1 * 0 = 16 * k.val + r.val; rw [e]; rfl
  | ⟨2, _⟩ => show (k0_off78 k (BitVec.ofNat 32 r.val)) 2 + 1 * y.val = y.val; rw [e]; show 0 + 1 * y.val = y.val; omega

/-- A row written whole with `w` holds `w`. -/
theorem rowAt2_landed (k : Fin k0_t6_loop.trips) (r : Fin 16) (fd0 : Buf (Elt F) ((sR).view.loc (thr d L))) (w : S64.Idx → Elt F .f32) (y : Fin 64) :
    ((rowAt2 k (BitVec.ofNat 32 r.val) (row2_inb k r)).view.writes (Elt F) fd0 [⟨Rect.whole S64, w⟩])
        (ix3 (2 : Fin 4) (⟨16 * k.val + r.val, row2_lt k r⟩ : Fin 160) (⟨y.val, by omega⟩ : Fin 128))
      = w (ix1 y) := by
  have h := View.read_writes_cons_emb (rowAt2 k (BitVec.ofNat 32 r.val) (row2_inb k r)).view fd0 (Rect.whole S64) w [] (ix1 y)
  rw [Rect.emb_whole_apply, View.read_apply, rowAt2_emb k r y] at h
  exact h

theorem tok2_lt (g : Fin k0_t1_loop.trips) (h1 : k0_cond7 g = 1#1) (n : ℕ) (hn : n < 160) : 640 * g.val + 160 * 2 + n < 10240 := by
  have h := word2_lt g h1 (⟨9, by decide⟩ : Fin k0_t6_loop.trips) (15 : Fin 16)
  have h' : 640 * g.val + 160 * 2 + 16 * 9 + 15 < 10240 := h
  omega

/-- What buffer 2 holds once its 160 rows have landed over `fd0`: row `t`, columns 0 … 63, the table row token
    `640 g + 160 · 2 + t` names; columns 64 … 127 as before. -/
def landed2 (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 2 + (i 1).val) (tok2_lt g h1 _ (i 1).isLt) (⟨(i 2).val, hi⟩ : Fin 64)
    else fd0 i

theorem landed2_apply (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed2 d L g h1 fI hI Tb fd0 (ix3 (2 : Fin 4) t (⟨y.val, by omega⟩ : Fin 128))
      = tokVal d L fI hI Tb (640 * g.val + 160 * 2 + t.val) (tok2_lt g h1 _ t.isLt) y := by
  unfold landed2
  rw [dif_pos (show ((ix3 (2 : Fin 4) t (⟨y.val, by omega⟩ : Fin 128) : S4x160x128.Idx) 2).val < 64 from y.isLt)]
  rfl

/-- A landed row agrees with `landed2` on its 64 elements. -/
theorem landed2_row (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t6_loop.trips) (r : Fin 16) :
    ∀ (i : S4x160x128.Idx), i ∈ ((rowAt2 k (BitVec.ofNat 32 r.val) (row2_inb k r)).view.set : Finset S4x160x128.Idx) →
      ((rowAt2 k (BitVec.ofNat 32 r.val) (row2_inb k r)).view.writes (Elt F) fd0
          [⟨Rect.whole S64, ReadAs.same.apply ((srcOf (wordAt2 d L g h1 k r fI) (chk_of_lt _ (hI _))).view.read (Elt F) Tb)⟩]) i
        = landed2 d L g h1 fI hI Tb fd0 i := by
  intro i hi
  have hi' : (i : S4x160x128.Idx) ∈ rowSet 2 ⟨16 * k.val + r.val, row2_lt k r⟩ := by
    have h := hi; rw [rowAt2_set k r] at h; exact h
  obtain ⟨h0, h1', h2⟩ := (mem_rowSet 2 _ i).mp hi'
  obtain ⟨y, hy⟩ : ∃ y : Fin 64, (i 2).val = y.val := ⟨⟨(i 2).val, h2⟩, rfl⟩
  have ei : i = (ix3 (2 : Fin 4) (⟨16 * k.val + r.val, row2_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt2_landed d L k r fd0 _ y, landed2_apply d L g h1 fI hI Tb fd0 ⟨16 * k.val + r.val, row2_lt k r⟩ y]
  show (srcOf (wordAt2 d L g h1 k r fI) (chk_of_lt _ (hI _))).view.read (Elt F) Tb (ix1 y) = _
  rw [srcOf_read d (wordAt2 d L g h1 k r fI) (chk_of_lt _ (hI _)) (hI _) Tb y]
  refine (tokVal_of_word d L fI hI Tb _ (hI _) _ (word2_lt g h1 k r) (wordAt2_eq d L g h1 k r fI) y).trans ?_
  exact tokVal_congr d L fI hI Tb (by show 640 * g.val + 160 * 2 + 16 * k.val + r.val = 640 * g.val + 160 * 2 + (16 * k.val + r.val); omega) _ _ y

/-- A landed row, held, is that row of `landed2` held; the untouched right half likewise. -/
theorem landed2_pts (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t6_loop.trips) (r : Fin 16) :
    ((rowAt2 k (BitVec.ofNat 32 r.val) (row2_inb k r)).view.loc (thr d L) ↦[(rowAt2 k (BitVec.ofNat 32 r.val) (row2_inb k r)).view.set]{fullShare}
        ((rowAt2 k (BitVec.ofNat 32 r.val) (row2_inb k r)).view.writes (Elt F) f
          [⟨Rect.whole S64, ReadAs.same.apply ((srcOf (wordAt2 d L g h1 k r fI) (chk_of_lt _ (hI _))).view.read (Elt F) Tb)⟩]) : sProp 𝕄)
      = ((rowAt2 k (BitVec.ofNat 32 r.val) (row2_inb k r)).view.loc (thr d L) ↦[(rowAt2 k (BitVec.ofNat 32 r.val) (row2_inb k r)).view.set]{fullShare}
          landed2 d L g h1 fI hI Tb f) :=
  pointsTo_congr (landed2_row d L g h1 fI hI Tb f k r)
theorem right2_pts (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 2]{fullShare} f : sProp 𝕄) = ((sR).view.loc (thr d L) ↦[rightSet 2]{fullShare} landed2 d L g h1 fI hI Tb f) :=
  pointsTo_congr fun i hi => by
    unfold landed2
    rw [dif_neg (by have := ((mem_rightSet 2 i).mp hi).2; omega)]

theorem landed2_good (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 2 (640 * g.val + 160 * 2) fI Tb (landed2 d L g h1 fI hI Tb f) := by
  intro t y
  rw [landed2_apply d L g h1 fI hI Tb f t y]
  exact tokVal_eq_rowOf d L fI hI Tb _ _ y

/-- What transfer `t` of buffer 2's batch delivers. -/
abbrev D2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out2 d L g h1 fI hI Tb f q (kOf t) (rOf t)

instance D2_storable (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D2 d L g h1 fI hI Tb f q t) := fun t => by
  exact sep_pts_storable _ _ _ _ _ _ _

/-- What stays aside while the batch runs: the buffer's right half, the rest of the table at each word's read share, the
    table at the remainder. -/
def left2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 2]{fullShare} f)
    ∗ (bigSep Finset.univ fun t : Fin 160 => (tV).view.loc (thr d L) ↦[Finset.univ \ (srcOf (wordAt2 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed2`, the table rows back. -/
theorem outs2_eq (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D2 d L g h1 fI hI Tb f q))
      = (iprop((bigSep (Finset.univ : Finset (Fin 160)) fun t => (rowAt2 (kOf t) (BitVec.ofNat 32 (rOf t).val) (row2_inb _ _)).view.loc (thr d L) ↦[(rowAt2 (kOf t) (BitVec.ofNat 32 (rOf t).val) (row2_inb _ _)).view.set]{fullShare} landed2 d L g h1 fI hI Tb f)
          ∗ (bigSep (Finset.univ : Finset (Fin 160)) fun t => (srcOf (wordAt2 d L g h1 (kOf t) (rOf t) fI) (chk_of_lt _ (hI _))).view.loc (thr d L) ↦[(srcOf (wordAt2 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out2 d L g h1 fI hI Tb f q (kOf t) (rOf t) = _
  unfold out2
  rw [landed2_pts d L g h1 fI hI Tb f q (kOf t) (rOf t)]

/-- Before the batch: the buffer and the table, dealt out to the 160 transfers. -/
theorem open2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW2).view.loc (thr d L) ↦[(bufW2).view.set]{fullShare} f) ∗ ((tV).view.loc (thr d L) ↦{q} Tb))
      ⊢ (iprop((bigSep (Ring.rangeSet 160 (16 * 0) 160) fun t => inp2 d L g h1 fI hI Tb f q (kOf t) (rOf t)) ∗ left2 d L g h1 fI hI Tb f q) : sProp 𝕄) := by
  rw [buf2_split d L f, tokens_split d L q Tb (fun t => wordAt2 d L g h1 (kOf t) (rOf t) fI) (fun t => chk_of_lt _ (hI _)),
    show Ring.rangeSet 160 (16 * 0) 160 = Finset.univ from Ring.rangeSet_univ]
  unfold left2
  have ei : (bigSep (Finset.univ : Finset (Fin 160)) fun t => inp2 d L g h1 fI hI Tb f q (kOf t) (rOf t))
      = (iprop((bigSep (Finset.univ : Finset (Fin 160)) fun t => (rowAt2 (kOf t) (BitVec.ofNat 32 (rOf t).val) (row2_inb _ _)).view.loc (thr d L) ↦[(rowAt2 (kOf t) (BitVec.ofNat 32 (rOf t).val) (row2_inb _ _)).view.set]{fullShare} f)
          ∗ (bigSep (Finset.univ : Finset (Fin 160)) fun t => (srcOf (wordAt2 d L g h1 (kOf t) (rOf t) fI) (chk_of_lt _ (hI _))).view.loc (thr d L) ↦[(srcOf (wordAt2 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp2 d L g h1 fI hI Tb f q (kOf t) (rOf t) = _
    unfold inp2
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D2 d L g h1 fI hI Tb f q)) ∗ left2 d L g h1 fI hI Tb f q)
      ⊢ (iprop(∃ f', ⌜rowsGood d L 2 (640 * g.val + 160 * 2) fI Tb f'⌝ ∗ ((bufW2).view.loc (thr d L) ↦[(bufW2).view.set]{fullShare} f')
          ∗ ((tV).view.loc (thr d L) ↦{q} Tb)) : sProp 𝕄) := by
  rw [outs2_eq d L g h1 fI hI Tb f q]
  unfold left2
  rw [right2_pts d L g h1 fI hI Tb f q, tokens_split d L q Tb (fun t => wordAt2 d L g h1 (kOf t) (rOf t) fI) (fun t => chk_of_lt _ (hI _))]
  iintro ⟨⟨Hrows, Hsrc⟩, Hright, Hrest, Hdrop⟩
  iexists landed2 d L g h1 fI hI Tb f
  isplitr
  · ipureintro; exact landed2_good d L g h1 fI hI Tb f q
  isplitl [Hrows Hright]
  · iapply (Entails.of_eq (buf2_split d L (landed2 d L g h1 fI hI Tb f)).symm)
    isplitl [Hrows]; · iexact Hrows
    iexact Hright
  isplitl [Hsrc]; · iexact Hsrc
  isplitl [Hrest]; · iexact Hrest
  iexact Hdrop

/-! ## Buffer 3 -/

/-- Trip `k`'s row `r` of buffer 3 for every one of the sixteen lanes. -/
theorem off_row3_eq : ∀ (k : Fin k0_t8_loop.trips) (r : Fin 16), k0_off114 k (BitVec.ofNat 32 r.val) = ![3, 16 * k.val + r.val, 0] := by decide +kernel

theorem word3_lt (g : Fin k0_t1_loop.trips) (h1 : k0_cond10 g = 1#1) (k : Fin k0_t8_loop.trips) (r : Fin 16) :
    640 * g.val + 160 * 3 + 16 * k.val + r.val < 10240 := by
  have h : (k0_off111 g k) 0 + 16 ≤ 10240 := k0_off111_inb g k h1 0
  rw [k0_off111_eq] at h
  have h' : 640 * g.val + 16 * k.val + 160 * 3 + 16 ≤ 10240 := by
    have e : (![640 * g.val + 16 * k.val + 480] : Fin 1 → ℕ) 0 = 640 * g.val + 16 * k.val + 480 := rfl
    rw [e] at h; omega
  have := r.isLt
  omega

/-- (R1) Word `r` of trip `k` of group `g` is token number `640 g + 160 · 3 + 16 k + r` of the list. -/
theorem wordAt3_eq (g : Fin k0_t1_loop.trips) (h1 : k0_cond10 g = 1#1) (k : Fin k0_t8_loop.trips) (r : Fin 16)
    (fI : Buf (Elt F) ((sI).view.loc (thr d L))) :
    wordAt3 d L g h1 k r fI = fI (ix1 (⟨640 * g.val + 160 * 3 + 16 * k.val + r.val, word3_lt g h1 k r⟩ : Fin 10240)) := by
  unfold wordAt3 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off111 g k) 0 + 1 * r.val = 640 * g.val + 160 * 3 + 16 * k.val + r.val
    rw [k0_off111_eq]
    show 640 * g.val + 16 * k.val + 480 + 1 * r.val = _
    omega

theorem row3_lt (k : Fin k0_t8_loop.trips) (r : Fin 16) : 16 * k.val + r.val < 160 := by
  have hk : k.val < 10 := k.isLt
  have := r.isLt; omega

/-- (R2) Row `16 k + r` of buffer 3, as the body addresses it, is that row's 64 elements. -/
theorem rowAt3_set (k : Fin k0_t8_loop.trips) (r : Fin 16) :
    (rowAt3 k (BitVec.ofNat 32 r.val) (row3_inb k r)).view.set = rowSet 3 ⟨16 * k.val + r.val, row3_lt k r⟩ := by
  unfold rowAt3
  refine ((View.set_reshape _ _).trans (View.set_slice_whole _ _)).trans ?_
  ext y
  rw [mem_rowSet, Rect.mem_set_unit]
  have e := off_row3_eq k r
  constructor
  · intro H
    have a0 := H 0; have a1 := H 1; have a2 := H 2
    rw [e] at a0 a1 a2
    have b0 : 3 ≤ (y 0).val ∧ (y 0).val < 3 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 3; omega
    · show (y 1).val = 16 * k.val + r.val; omega
    · omega
  · rintro ⟨h0, h1, h2⟩ a
    have h0' : (y 0).val = 3 := h0
    have h1' : (y 1).val = 16 * k.val + r.val := h1
    rw [e]
    fin_cases a
    · show 3 ≤ (y 0).val ∧ (y 0).val < 3 + 1; omega
    · show 16 * k.val + r.val ≤ (y 1).val ∧ (y 1).val < 16 * k.val + r.val + 1; omega
    · show 0 ≤ (y 2).val ∧ (y 2).val < 0 + 64; omega
/-- (R3) Buffer 3 held is its 160 rows held, as the copies address them, and its right half. -/
theorem buf3_split (f : Buf (Elt F) ((sR).view.loc (thr d L))) :
    ((bufW3).view.loc (thr d L) ↦[(bufW3).view.set]{fullShare} f : sProp 𝕄)
      = iprop((bigSep (Finset.univ : Finset (Fin 160)) fun t =>
            (rowAt3 (kOf t) (BitVec.ofNat 32 (rOf t).val) (row3_inb _ _)).view.loc (thr d L)
              ↦[(rowAt3 (kOf t) (BitVec.ofNat 32 (rOf t).val) (row3_inb _ _)).view.set]{fullShare} f)
          ∗ ((sR).view.loc (thr d L) ↦[rightSet 3]{fullShare} f)) := by
  rw [bufW3_set]
  refine (buf_rows d L 3 f).trans ?_
  refine congrArg (fun X : sProp 𝕄 => (iprop(X ∗ ((sR).view.loc (thr d L) ↦[rightSet 3]{fullShare} f)) : sProp 𝕄)) ?_
  refine bigSep_congr fun t _ => ?_
  have e := rowAt3_set (kOf t) (rOf t)
  rw [kr_eq] at e
  exact congrArg (fun I => ((sR).view.loc (thr d L) ↦[I]{fullShare} f : sProp 𝕄)) e.symm

/-- Element `y` of row `16 k + r` of buffer 3 sits at `(3, 16 k + r, y)`. -/
theorem rowAt3_emb (k : Fin k0_t8_loop.trips) (r : Fin 16) (y : Fin 64) :
    (rowAt3 k (BitVec.ofNat 32 r.val) (row3_inb k r)).view.emb (ix1 y)
      = (ix3 (3 : Fin 4) (⟨16 * k.val + r.val, row3_lt k r⟩ : Fin 160) (⟨y.val, by omega⟩ : Fin 128) : S4x160x128.Idx) := by
  unfold rowAt3
  show (Rect.unit (s := S4x160x128) (k0_off114 k (BitVec.ofNat 32 r.val)) S1x1x64.size (row3_inb k r)).emb
    (Shape.reshapeEquiv (s := S1x1x64) (s' := S64) squeezes_S1x1x64_S64.numel_eq (ix1 y)) = _
  rw [reshape_row3]
  funext a
  refine Fin.ext ?_
  rw [Rect.emb_apply]
  have e := off_row3_eq k r
  match a with
  | ⟨0, _⟩ => show (k0_off114 k (BitVec.ofNat 32 r.val)) 0 + 1 * 0 = 3; rw [e]; rfl
  | ⟨1, _⟩ => show (k0_off114 k (BitVec.ofNat 32 r.val)) 1 + 1 * 0 = 16 * k.val + r.val; rw [e]; rfl
  | ⟨2, _⟩ => show (k0_off114 k (BitVec.ofNat 32 r.val)) 2 + 1 * y.val = y.val; rw [e]; show 0 + 1 * y.val = y.val; omega

/-- A row written whole with `w` holds `w`. -/
theorem rowAt3_landed (k : Fin k0_t8_loop.trips) (r : Fin 16) (fd0 : Buf (Elt F) ((sR).view.loc (thr d L))) (w : S64.Idx → Elt F .f32) (y : Fin 64) :
    ((rowAt3 k (BitVec.ofNat 32 r.val) (row3_inb k r)).view.writes (Elt F) fd0 [⟨Rect.whole S64, w⟩])
        (ix3 (3 : Fin 4) (⟨16 * k.val + r.val, row3_lt k r⟩ : Fin 160) (⟨y.val, by omega⟩ : Fin 128))
      = w (ix1 y) := by
  have h := View.read_writes_cons_emb (rowAt3 k (BitVec.ofNat 32 r.val) (row3_inb k r)).view fd0 (Rect.whole S64) w [] (ix1 y)
  rw [Rect.emb_whole_apply, View.read_apply, rowAt3_emb k r y] at h
  exact h

theorem tok3_lt (g : Fin k0_t1_loop.trips) (h1 : k0_cond10 g = 1#1) (n : ℕ) (hn : n < 160) : 640 * g.val + 160 * 3 + n < 10240 := by
  have h := word3_lt g h1 (⟨9, by decide⟩ : Fin k0_t8_loop.trips) (15 : Fin 16)
  have h' : 640 * g.val + 160 * 3 + 16 * 9 + 15 < 10240 := h
  omega

/-- What buffer 3 holds once its 160 rows have landed over `fd0`: row `t`, columns 0 … 63, the table row token
    `640 g + 160 · 3 + t` names; columns 64 … 127 as before. -/
def landed3 (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 3 + (i 1).val) (tok3_lt g h1 _ (i 1).isLt) (⟨(i 2).val, hi⟩ : Fin 64)
    else fd0 i

theorem landed3_apply (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed3 d L g h1 fI hI Tb fd0 (ix3 (3 : Fin 4) t (⟨y.val, by omega⟩ : Fin 128))
      = tokVal d L fI hI Tb (640 * g.val + 160 * 3 + t.val) (tok3_lt g h1 _ t.isLt) y := by
  unfold landed3
  rw [dif_pos (show ((ix3 (3 : Fin 4) t (⟨y.val, by omega⟩ : Fin 128) : S4x160x128.Idx) 2).val < 64 from y.isLt)]
  rfl

/-- A landed row agrees with `landed3` on its 64 elements. -/
theorem landed3_row (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t8_loop.trips) (r : Fin 16) :
    ∀ (i : S4x160x128.Idx), i ∈ ((rowAt3 k (BitVec.ofNat 32 r.val) (row3_inb k r)).view.set : Finset S4x160x128.Idx) →
      ((rowAt3 k (BitVec.ofNat 32 r.val) (row3_inb k r)).view.writes (Elt F) fd0
          [⟨Rect.whole S64, ReadAs.same.apply ((srcOf (wordAt3 d L g h1 k r fI) (chk_of_lt _ (hI _))).view.read (Elt F) Tb)⟩]) i
        = landed3 d L g h1 fI hI Tb fd0 i := by
  intro i hi
  have hi' : (i : S4x160x128.Idx) ∈ rowSet 3 ⟨16 * k.val + r.val, row3_lt k r⟩ := by
    have h := hi; rw [rowAt3_set k r] at h; exact h
  obtain ⟨h0, h1', h2⟩ := (mem_rowSet 3 _ i).mp hi'
  obtain ⟨y, hy⟩ : ∃ y : Fin 64, (i 2).val = y.val := ⟨⟨(i 2).val, h2⟩, rfl⟩
  have ei : i = (ix3 (3 : Fin 4) (⟨16 * k.val + r.val, row3_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt3_landed d L k r fd0 _ y, landed3_apply d L g h1 fI hI Tb fd0 ⟨16 * k.val + r.val, row3_lt k r⟩ y]
  show (srcOf (wordAt3 d L g h1 k r fI) (chk_of_lt _ (hI _))).view.read (Elt F) Tb (ix1 y) = _
  rw [srcOf_read d (wordAt3 d L g h1 k r fI) (chk_of_lt _ (hI _)) (hI _) Tb y]
  refine (tokVal_of_word d L fI hI Tb _ (hI _) _ (word3_lt g h1 k r) (wordAt3_eq d L g h1 k r fI) y).trans ?_
  exact tokVal_congr d L fI hI Tb (by show 640 * g.val + 160 * 3 + 16 * k.val + r.val = 640 * g.val + 160 * 3 + (16 * k.val + r.val); omega) _ _ y

/-- A landed row, held, is that row of `landed3` held; the untouched right half likewise. -/
theorem landed3_pts (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t8_loop.trips) (r : Fin 16) :
    ((rowAt3 k (BitVec.ofNat 32 r.val) (row3_inb k r)).view.loc (thr d L) ↦[(rowAt3 k (BitVec.ofNat 32 r.val) (row3_inb k r)).view.set]{fullShare}
        ((rowAt3 k (BitVec.ofNat 32 r.val) (row3_inb k r)).view.writes (Elt F) f
          [⟨Rect.whole S64, ReadAs.same.apply ((srcOf (wordAt3 d L g h1 k r fI) (chk_of_lt _ (hI _))).view.read (Elt F) Tb)⟩]) : sProp 𝕄)
      = ((rowAt3 k (BitVec.ofNat 32 r.val) (row3_inb k r)).view.loc (thr d L) ↦[(rowAt3 k (BitVec.ofNat 32 r.val) (row3_inb k r)).view.set]{fullShare}
          landed3 d L g h1 fI hI Tb f) :=
  pointsTo_congr (landed3_row d L g h1 fI hI Tb f k r)
theorem right3_pts (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 3]{fullShare} f : sProp 𝕄) = ((sR).view.loc (thr d L) ↦[rightSet 3]{fullShare} landed3 d L g h1 fI hI Tb f) :=
  pointsTo_congr fun i hi => by
    unfold landed3
    rw [dif_neg (by have := ((mem_rightSet 3 i).mp hi).2; omega)]

theorem landed3_good (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 3 (640 * g.val + 160 * 3) fI Tb (landed3 d L g h1 fI hI Tb f) := by
  intro t y
  rw [landed3_apply d L g h1 fI hI Tb f t y]
  exact tokVal_eq_rowOf d L fI hI Tb _ _ y

/-- What transfer `t` of buffer 3's batch delivers. -/
abbrev D3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out3 d L g h1 fI hI Tb f q (kOf t) (rOf t)

instance D3_storable (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D3 d L g h1 fI hI Tb f q t) := fun t => by
  exact sep_pts_storable _ _ _ _ _ _ _

/-- What stays aside while the batch runs: the buffer's right half, the rest of the table at each word's read share, the
    table at the remainder. -/
def left3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 3]{fullShare} f)
    ∗ (bigSep Finset.univ fun t : Fin 160 => (tV).view.loc (thr d L) ↦[Finset.univ \ (srcOf (wordAt3 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed3`, the table rows back. -/
theorem outs3_eq (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D3 d L g h1 fI hI Tb f q))
      = (iprop((bigSep (Finset.univ : Finset (Fin 160)) fun t => (rowAt3 (kOf t) (BitVec.ofNat 32 (rOf t).val) (row3_inb _ _)).view.loc (thr d L) ↦[(rowAt3 (kOf t) (BitVec.ofNat 32 (rOf t).val) (row3_inb _ _)).view.set]{fullShare} landed3 d L g h1 fI hI Tb f)
          ∗ (bigSep (Finset.univ : Finset (Fin 160)) fun t => (srcOf (wordAt3 d L g h1 (kOf t) (rOf t) fI) (chk_of_lt _ (hI _))).view.loc (thr d L) ↦[(srcOf (wordAt3 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out3 d L g h1 fI hI Tb f q (kOf t) (rOf t) = _
  unfold out3
  rw [landed3_pts d L g h1 fI hI Tb f q (kOf t) (rOf t)]

/-- Before the batch: the buffer and the table, dealt out to the 160 transfers. -/
theorem open3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW3).view.loc (thr d L) ↦[(bufW3).view.set]{fullShare} f) ∗ ((tV).view.loc (thr d L) ↦{q} Tb))
      ⊢ (iprop((bigSep (Ring.rangeSet 160 (16 * 0) 160) fun t => inp3 d L g h1 fI hI Tb f q (kOf t) (rOf t)) ∗ left3 d L g h1 fI hI Tb f q) : sProp 𝕄) := by
  rw [buf3_split d L f, tokens_split d L q Tb (fun t => wordAt3 d L g h1 (kOf t) (rOf t) fI) (fun t => chk_of_lt _ (hI _)),
    show Ring.rangeSet 160 (16 * 0) 160 = Finset.univ from Ring.rangeSet_univ]
  unfold left3
  have ei : (bigSep (Finset.univ : Finset (Fin 160)) fun t => inp3 d L g h1 fI hI Tb f q (kOf t) (rOf t))
      = (iprop((bigSep (Finset.univ : Finset (Fin 160)) fun t => (rowAt3 (kOf t) (BitVec.ofNat 32 (rOf t).val) (row3_inb _ _)).view.loc (thr d L) ↦[(rowAt3 (kOf t) (BitVec.ofNat 32 (rOf t).val) (row3_inb _ _)).view.set]{fullShare} f)
          ∗ (bigSep (Finset.univ : Finset (Fin 160)) fun t => (srcOf (wordAt3 d L g h1 (kOf t) (rOf t) fI) (chk_of_lt _ (hI _))).view.loc (thr d L) ↦[(srcOf (wordAt3 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp3 d L g h1 fI hI Tb f q (kOf t) (rOf t) = _
    unfold inp3
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D3 d L g h1 fI hI Tb f q)) ∗ left3 d L g h1 fI hI Tb f q)
      ⊢ (iprop(∃ f', ⌜rowsGood d L 3 (640 * g.val + 160 * 3) fI Tb f'⌝ ∗ ((bufW3).view.loc (thr d L) ↦[(bufW3).view.set]{fullShare} f')
          ∗ ((tV).view.loc (thr d L) ↦{q} Tb)) : sProp 𝕄) := by
  rw [outs3_eq d L g h1 fI hI Tb f q]
  unfold left3
  rw [right3_pts d L g h1 fI hI Tb f q, tokens_split d L q Tb (fun t => wordAt3 d L g h1 (kOf t) (rOf t) fI) (fun t => chk_of_lt _ (hI _))]
  iintro ⟨⟨Hrows, Hsrc⟩, Hright, Hrest, Hdrop⟩
  iexists landed3 d L g h1 fI hI Tb f
  isplitr
  · ipureintro; exact landed3_good d L g h1 fI hI Tb f q
  isplitl [Hrows Hright]
  · iapply (Entails.of_eq (buf3_split d L (landed3 d L g h1 fI hI Tb f)).symm)
    isplitl [Hrows]; · iexact Hrows
    iexact Hright
  isplitl [Hsrc]; · iexact Hsrc
  isplitl [Hrest]; · iexact Hrest
  iexact Hdrop

end Cert.Proof.Kernel

end
-- ==== Proof.Kernel.Facts.lean ====
/-
  Pure facts of the task. The group loop makes 17 trips; in trip g the four row buffers hold chunks 4 g, 4 g + 1,
  4 g + 2, 4 g + 3 of the worker's 64: a chunk is issued while its number is below 64, a buffer's previous write-back
  is waited for from the second trip on, and the chunk two behind (4 g + b - 2) is drained and written back while
  that number lies in [0, 63]. The write-back of chunk n starts at row 8 n of the worker's 512 rows of the output.
  The token fetch lands the worker's row of the reshaped tokens in the list, every word of it a row of the table.
-/
import proofs.«206312_g12936441495622_cont_fleet_311_30_alg».proof.Proof.Kernel.Pipe

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "sI" => (Memref.whole Cert.Kernel.cc0_scratch0 : Memref Cert.Kernel.sig Kind.scVector Space.vmem Cert.Kernel.S10240 EltTy.i32)

/-! ## The twelve conditions of the group loop -/

theorem cond1_pos : ∀ g : Fin k0_t1_loop.trips, g.val ≤ 15 → k0_cond1 g = 1#1 := by decide +kernel
theorem cond1_neg : ∀ g : Fin k0_t1_loop.trips, ¬(g.val ≤ 15) → ¬k0_cond1 g = 1#1 := by decide +kernel
theorem cond2_pos : ∀ g : Fin k0_t1_loop.trips, 1 ≤ g.val → k0_cond2 g = 1#1 := by decide +kernel
theorem cond2_neg : ∀ g : Fin k0_t1_loop.trips, ¬(1 ≤ g.val) → ¬k0_cond2 g = 1#1 := by decide +kernel
theorem cond3_pos : ∀ g : Fin k0_t1_loop.trips, 1 ≤ g.val ∧ g.val ≤ 16 → k0_cond3 g = 1#1 := by decide +kernel
theorem cond3_neg : ∀ g : Fin k0_t1_loop.trips, ¬(1 ≤ g.val ∧ g.val ≤ 16) → ¬k0_cond3 g = 1#1 := by decide +kernel
theorem cond4_pos : ∀ g : Fin k0_t1_loop.trips, g.val ≤ 15 → k0_cond4 g = 1#1 := by decide +kernel
theorem cond4_neg : ∀ g : Fin k0_t1_loop.trips, ¬(g.val ≤ 15) → ¬k0_cond4 g = 1#1 := by decide +kernel
theorem cond5_pos : ∀ g : Fin k0_t1_loop.trips, 1 ≤ g.val → k0_cond5 g = 1#1 := by decide +kernel
theorem cond5_neg : ∀ g : Fin k0_t1_loop.trips, ¬(1 ≤ g.val) → ¬k0_cond5 g = 1#1 := by decide +kernel
theorem cond6_pos : ∀ g : Fin k0_t1_loop.trips, 1 ≤ g.val ∧ g.val ≤ 16 → k0_cond6 g = 1#1 := by decide +kernel
theorem cond6_neg : ∀ g : Fin k0_t1_loop.trips, ¬(1 ≤ g.val ∧ g.val ≤ 16) → ¬k0_cond6 g = 1#1 := by decide +kernel
theorem cond7_pos : ∀ g : Fin k0_t1_loop.trips, g.val ≤ 15 → k0_cond7 g = 1#1 := by decide +kernel
theorem cond7_neg : ∀ g : Fin k0_t1_loop.trips, ¬(g.val ≤ 15) → ¬k0_cond7 g = 1#1 := by decide +kernel
theorem cond8_pos : ∀ g : Fin k0_t1_loop.trips, 1 ≤ g.val → k0_cond8 g = 1#1 := by decide +kernel
theorem cond8_neg : ∀ g : Fin k0_t1_loop.trips, ¬(1 ≤ g.val) → ¬k0_cond8 g = 1#1 := by decide +kernel
theorem cond9_pos : ∀ g : Fin k0_t1_loop.trips, g.val ≤ 15 → k0_cond9 g = 1#1 := by decide +kernel
theorem cond9_neg : ∀ g : Fin k0_t1_loop.trips, ¬(g.val ≤ 15) → ¬k0_cond9 g = 1#1 := by decide +kernel
theorem cond10_pos : ∀ g : Fin k0_t1_loop.trips, g.val ≤ 15 → k0_cond10 g = 1#1 := by decide +kernel
theorem cond10_neg : ∀ g : Fin k0_t1_loop.trips, ¬(g.val ≤ 15) → ¬k0_cond10 g = 1#1 := by decide +kernel
theorem cond11_pos : ∀ g : Fin k0_t1_loop.trips, 1 ≤ g.val → k0_cond11 g = 1#1 := by decide +kernel
theorem cond11_neg : ∀ g : Fin k0_t1_loop.trips, ¬(1 ≤ g.val) → ¬k0_cond11 g = 1#1 := by decide +kernel
theorem cond12_pos : ∀ g : Fin k0_t1_loop.trips, g.val ≤ 15 → k0_cond12 g = 1#1 := by decide +kernel
theorem cond12_neg : ∀ g : Fin k0_t1_loop.trips, ¬(g.val ≤ 15) → ¬k0_cond12 g = 1#1 := by decide +kernel

/-! ## Where a write-back starts -/

/-- Buffer 0's write-back in trip g is of chunk 4 g - 2. -/
theorem off37_eq : ∀ (L : grid0.Coords) (g : Fin k0_t1_loop.trips), 1 ≤ g.val → g.val ≤ 16 →
    k0_off37 L g = ![1024 * (L 1).val + 512 * (L 0).val + 8 * (4 * g.val - 2), 0, 0] := by decide +kernel
/-- Buffer 1's write-back in trip g is of chunk 4 g - 1. -/
theorem off73_eq : ∀ (L : grid0.Coords) (g : Fin k0_t1_loop.trips), 1 ≤ g.val → g.val ≤ 16 →
    k0_off73 L g = ![1024 * (L 1).val + 512 * (L 0).val + 8 * (4 * g.val - 1), 0, 0] := by decide +kernel

/-! ## What the token fetch lands -/

variable [FloatOps F] (I : (d : Dev nD) → Buf (Elt F) (idxLoc d)) (d : Dev nD) (L : grid0.Coords)

/-- Worker w's row of the reshaped tokens. -/
def fIw (I : (d : Dev nD) → Buf (Elt F) (idxLoc d)) (d : Dev nD) (w : Fin 32) : S10240.Idx → BitVec 32 :=
  fun j => I d (ix2 w (⟨(j 0).val, (j 0).isLt⟩ : Fin 10240))

omit [FloatOps F] in
/-- Position j of the worker's row, as the fetch's source addresses it, is (worker, j) of the reshaped tokens. -/
theorem iRowM_emb (j : S10240.Idx) :
    (iRowM L).view.emb j = ix2 (widL L) (⟨(j 0).val, (j 0).isLt⟩ : Fin 10240) := by
  have hy : (((⟨2, S1x10240.size⟩ : Shape).rowMajor (Shape.reshapeEquiv squeezes_S1x10240_S10240.numel_eq j) : Fin _) : ℕ)
      = ((S10240.rowMajor j : Fin _) : ℕ) := Shape.rowMajor_reshapeEquiv _ j
  rw [Shape.rowMajor_val_two, Shape.rowMajor_val_one] at hy
  have h0 : ((Shape.reshapeEquiv squeezes_S1x10240_S10240.numel_eq j : (⟨2, S1x10240.size⟩ : Shape).Idx) 0).val < 1 :=
    (Shape.reshapeEquiv squeezes_S1x10240_S10240.numel_eq j 0).isLt
  have y0 : ((Shape.reshapeEquiv squeezes_S1x10240_S10240.numel_eq j : (⟨2, S1x10240.size⟩ : Shape).Idx) 0).val = 0 := by omega
  rw [y0, Nat.zero_mul, Nat.zero_add] at hy
  have hoff := k0_off1_eq L
  funext a
  refine Fin.ext ?_
  match a with
  | ⟨0, _⟩ =>
    show k0_off1 L 0 + 1 * ((Shape.reshapeEquiv squeezes_S1x10240_S10240.numel_eq j : (⟨2, S1x10240.size⟩ : Shape).Idx) 0).val = 2 * (L 1).val + (L 0).val
    rw [hoff, y0]
    rfl
  | ⟨1, _⟩ =>
    show k0_off1 L 1 + 1 * ((Shape.reshapeEquiv squeezes_S1x10240_S10240.numel_eq j : (⟨2, S1x10240.size⟩ : Shape).Idx) 1).val = (j 0).val
    rw [hoff, hy]
    show 0 + 1 * (j 0).val = (j 0).val
    omega

omit [FloatOps F] in
/-- The fetch overwrites the whole list with the worker's row of tokens. -/
theorem fetch_eq (fi0 : Buf (Elt F) ((sI).view.loc (thr d L))) :
    (sI).view.write (Elt F) fi0 (ReadAs.same.apply ((iRowM L).view.read (Elt F) (I d))) Finset.univ = fIw I d (widL L) := by
  refine (View.write_whole_univ _ _ _).trans ?_
  funext j
  refine (View.read_apply (v := (iRowM L).view) (I d) j).trans ?_
  rw [iRowM_emb]
  exact cast_eq _ _

omit [FloatOps F] in
/-- The same, the write listed as one piece over the whole list. -/
theorem fetch_eq' (fi0 : Buf (Elt F) ((sI).view.loc (thr d L))) :
    (sI).view.writes (Elt F) fi0 [⟨Rect.whole S10240, ReadAs.same.apply ((iRowM L).view.read (Elt F) (I d))⟩] = fIw I d (widL L) :=
  (View.write_univ_eq_writes_whole (sI).view fi0 [] _).symm.trans (fetch_eq I d L fi0)

omit [FloatOps F] in
/-- Every token of the row names a row of the table. -/
theorem fIw_lt (hpre : PreOK I) (w : Fin 32) : ∀ j, (fIw I d w j).toNat < 1000000 := fun j => hpre d _

end Cert.Proof.Kernel

end
-- ==== Proof.Kernel.OutGeom.lean ====
/-
  The geometry of the worker's block of the output. Worker w owns rows 512 w … 512 w + 511 of the [16384, 20, 128]
  output; chunk c of its 64 is the eight rows from 512 w + 8 c, the destination of one write-back. A write-back copies
  a row buffer read as [8, 20, 128]: element (a, s, col) of that reading is element (20 a + s, col) of the buffer, so
  once the buffer's rows hold the table rows their tokens name, the chunk's rows hold them too: row 512 w + 8 c + a,
  position s, column k < 64 holds the table row named by token 160 c + 20 a + s. The block is its 64 chunks, and 64
  chunks each written are the block written.
-/
import proofs.«206312_g12936441495622_cont_fleet_311_30_alg».proof.Proof.Kernel.RowsGeo
import proofs.«206312_g12936441495622_cont_fleet_311_30_alg».proof.Proof.Kernel.Facts

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.Kernel.main_v1_scv : Memref Cert.Kernel.sig Kind.scVector Space.hbm Cert.Kernel.S16384x20x128 EltTy.f32)
local notation "sR" => (Memref.whole Cert.Kernel.cc0_scratch1 : Memref Cert.Kernel.sig Kind.scVector Space.vmem Cert.Kernel.S4x160x128 EltTy.f32)

variable [FloatOps F] (d : Dev nD) (L : grid0.Coords)

/-! ## A buffer read as [8, 20, 128] -/

/-- Element (a, s, k) of an [8, 20, 128] array read as [1, 8, 20, 128] is element (0, a, s, k). -/
theorem reshape_sq (h : S8x20x128.numel = S1x8x20x128.numel) (a : Fin 8) (s : Fin 20) (k : Fin 128) :
    Shape.reshapeEquiv (s := S1x8x20x128) (s' := S8x20x128) h (ix3 a s k) = ix4 (0 : Fin 1) a s k := by
  refine Shape.reshapeEquiv_eq_of_rowMajor _ ?_
  rw [Shape.rowMajor_val_four, Shape.rowMajor_val_three]
  show ((0 * 8 + a.val) * 20 + s.val) * 128 + k.val = (a.val * 20 + s.val) * 128 + k.val
  omega

omit [FloatOps F] in
/-- Element (a, s, k) of buffer 0 read as [8, 20, 128] is element (0, 20 a + s, k) of the scratch. -/
theorem bufW0_emb (a : Fin 8) (s : Fin 20) (k : Fin 128) :
    (bufW0).view.emb (ix3 a s k) = (ix3 (0 : Fin 4) (⟨20 * a.val + s.val, by omega⟩ : Fin 160) k : S4x160x128.Idx) := by
  unfold bufW0
  show Shape.reshapeEquiv (s := S4x160x128) (s' := S4x8x20x128) reshapes_S4x160x128_S4x8x20x128.1
      ((Rect.unit (s := S4x8x20x128) ![0, 0, 0, 0] S1x8x20x128.size inb_S4x8x20x128_S1x8x20x128_0_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 0 = 0 + 1 * 0
    omega
  · show 20 * a.val + s.val = 20 * (0 + 1 * a.val) + (0 + 1 * s.val)
    omega
  · show k.val = 0 + 1 * k.val
    omega

omit [FloatOps F] in
/-- Element (a, s, k) of buffer 1 read as [8, 20, 128] is element (1, 20 a + s, k) of the scratch. -/
theorem bufW1_emb (a : Fin 8) (s : Fin 20) (k : Fin 128) :
    (bufW1).view.emb (ix3 a s k) = (ix3 (1 : Fin 4) (⟨20 * a.val + s.val, by omega⟩ : Fin 160) k : S4x160x128.Idx) := by
  unfold bufW1
  show Shape.reshapeEquiv (s := S4x160x128) (s' := S4x8x20x128) reshapes_S4x160x128_S4x8x20x128.1
      ((Rect.unit (s := S4x8x20x128) ![1, 0, 0, 0] S1x8x20x128.size inb_S4x8x20x128_S1x8x20x128_1_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 1 = 1 + 1 * 0
    omega
  · show 20 * a.val + s.val = 20 * (0 + 1 * a.val) + (0 + 1 * s.val)
    omega
  · show k.val = 0 + 1 * k.val
    omega

omit [FloatOps F] in
/-- Element (a, s, k) of buffer 2 read as [8, 20, 128] is element (2, 20 a + s, k) of the scratch. -/
theorem bufW2_emb (a : Fin 8) (s : Fin 20) (k : Fin 128) :
    (bufW2).view.emb (ix3 a s k) = (ix3 (2 : Fin 4) (⟨20 * a.val + s.val, by omega⟩ : Fin 160) k : S4x160x128.Idx) := by
  unfold bufW2
  show Shape.reshapeEquiv (s := S4x160x128) (s' := S4x8x20x128) reshapes_S4x160x128_S4x8x20x128.1
      ((Rect.unit (s := S4x8x20x128) ![2, 0, 0, 0] S1x8x20x128.size inb_S4x8x20x128_S1x8x20x128_2_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 2 = 2 + 1 * 0
    omega
  · show 20 * a.val + s.val = 20 * (0 + 1 * a.val) + (0 + 1 * s.val)
    omega
  · show k.val = 0 + 1 * k.val
    omega

omit [FloatOps F] in
/-- Element (a, s, k) of buffer 3 read as [8, 20, 128] is element (3, 20 a + s, k) of the scratch. -/
theorem bufW3_emb (a : Fin 8) (s : Fin 20) (k : Fin 128) :
    (bufW3).view.emb (ix3 a s k) = (ix3 (3 : Fin 4) (⟨20 * a.val + s.val, by omega⟩ : Fin 160) k : S4x160x128.Idx) := by
  unfold bufW3
  show Shape.reshapeEquiv (s := S4x160x128) (s' := S4x8x20x128) reshapes_S4x160x128_S4x8x20x128.1
      ((Rect.unit (s := S4x8x20x128) ![3, 0, 0, 0] S1x8x20x128.size inb_S4x8x20x128_S1x8x20x128_3_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 3 = 3 + 1 * 0
    omega
  · show 20 * a.val + s.val = 20 * (0 + 1 * a.val) + (0 + 1 * s.val)
    omega
  · show k.val = 0 + 1 * k.val
    omega

/-! ## A chunk of the output -/

/-- The eight rows of the output from off 0, as a write-back's destination. -/
def oChunk (off : Fin 3 → ℕ) (h : ∀ a, off a + S8x20x128.size a ≤ S16384x20x128.size a) : Memref sig .scVector .hbm S8x20x128 .f32 :=
  (oV).slice (Rect.unit (s := S16384x20x128) off S8x20x128.size h) (fun _ => rfl)

/-- The elements of the eight rows from n0. -/
def chunkSet (n0 : ℕ) : Finset S16384x20x128.Idx := Finset.univ.filter fun i => n0 ≤ (i 0).val ∧ (i 0).val < n0 + 8

theorem mem_chunkSet (n0 : ℕ) (i : S16384x20x128.Idx) : i ∈ chunkSet n0 ↔ n0 ≤ (i 0).val ∧ (i 0).val < n0 + 8 := by
  unfold chunkSet; rw [Finset.mem_filter]; exact ⟨fun h => h.2, fun h => ⟨Finset.mem_univ _, h⟩⟩

theorem oChunk_set (off : Fin 3 → ℕ) (h : ∀ a, off a + S8x20x128.size a ≤ S16384x20x128.size a) (n0 : ℕ) (e : off = ![n0, 0, 0]) :
    (oChunk off h).view.set = chunkSet n0 := by
  subst e
  unfold oChunk
  show ((oV).view.slice (Rect.unit (s := S16384x20x128) ![n0, 0, 0] S8x20x128.size h)).set = chunkSet n0
  rw [View.set_slice_whole]
  ext i
  rw [Rect.mem_set_unit, mem_chunkSet]
  have h1 : (i 1).val < 20 := (i 1).isLt
  have h2 : (i 2).val < 128 := (i 2).isLt
  constructor
  · intro H
    have H0 : n0 ≤ (i 0).val ∧ (i 0).val < n0 + 8 := H 0
    exact H0
  · intro H a
    match a with
    | ⟨0, _⟩ => exact H
    | ⟨1, _⟩ => show 0 ≤ (i 1).val ∧ (i 1).val < 0 + 20; omega
    | ⟨2, _⟩ => show 0 ≤ (i 2).val ∧ (i 2).val < 0 + 128; omega

/-- Chunk c of worker w is written: row 512 w + 8 c + a, position s, column k < 64 holds the table row named by
    token 160 c + 20 a + s of the worker's list. -/
def chunkGood (d : Dev nD) (w : Fin 32) (c : ℕ) (fIw : S10240.Idx → BitVec 32) (Tb : Buf (Elt F) (tabLoc d)) (fo : Buf (Elt F) (outLoc d)) : Prop :=
  ∀ (a : Fin 8) (s : Fin 20) (k : Fin 64),
    fo (ix3 (⟨(512 * w.val + 8 * c + a.val) % 16384, Nat.mod_lt _ (by decide)⟩ : Fin 16384) s (⟨k.val, by omega⟩ : Fin 128))
      = Tb (ix2 (Cert.Spec.rowOf (fIw (ix1 (⟨(160 * c + 20 * a.val + s.val) % 10240, Nat.mod_lt _ (by decide)⟩ : Fin 10240)))) k)

/-- Buffer 0, its rows landed, copied whole over the chunk leaves the chunk written. -/
theorem wb_done0 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 0 (160 * c) fIw Tb f') :
    chunkGood d w c fIw Tb ((oChunk off h).view.writes (Elt F) fo [⟨Rect.whole S8x20x128, ReadAs.same.apply ((bufW0).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW0).view.read (Elt F) f')⟩])
        ((oChunk ![512 * w.val + 8 * c, 0, 0] h).view.emb (ix3 a s (⟨k.val, by omega⟩ : Fin 128)))
      = (bufW0).view.read (Elt F) f' (ix3 a s (⟨k.val, by omega⟩ : Fin 128)) :=
    congrFun (View.read_writes_whole (oChunk ![512 * w.val + 8 * c, 0, 0] h).view fo (ReadAs.same.apply ((bufW0).view.read (Elt F) f'))) (ix3 a s (⟨k.val, by omega⟩ : Fin 128))
  refine hrd.trans ?_
  refine (View.read_apply (v := (bufW0).view) f' _).trans ?_
  rw [bufW0_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-- Buffer 1, its rows landed, copied whole over the chunk leaves the chunk written. -/
theorem wb_done1 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 1 (160 * c) fIw Tb f') :
    chunkGood d w c fIw Tb ((oChunk off h).view.writes (Elt F) fo [⟨Rect.whole S8x20x128, ReadAs.same.apply ((bufW1).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW1).view.read (Elt F) f')⟩])
        ((oChunk ![512 * w.val + 8 * c, 0, 0] h).view.emb (ix3 a s (⟨k.val, by omega⟩ : Fin 128)))
      = (bufW1).view.read (Elt F) f' (ix3 a s (⟨k.val, by omega⟩ : Fin 128)) :=
    congrFun (View.read_writes_whole (oChunk ![512 * w.val + 8 * c, 0, 0] h).view fo (ReadAs.same.apply ((bufW1).view.read (Elt F) f'))) (ix3 a s (⟨k.val, by omega⟩ : Fin 128))
  refine hrd.trans ?_
  refine (View.read_apply (v := (bufW1).view) f' _).trans ?_
  rw [bufW1_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-- Buffer 2, its rows landed, copied whole over the chunk leaves the chunk written. -/
theorem wb_done2 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 2 (160 * c) fIw Tb f') :
    chunkGood d w c fIw Tb ((oChunk off h).view.writes (Elt F) fo [⟨Rect.whole S8x20x128, ReadAs.same.apply ((bufW2).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW2).view.read (Elt F) f')⟩])
        ((oChunk ![512 * w.val + 8 * c, 0, 0] h).view.emb (ix3 a s (⟨k.val, by omega⟩ : Fin 128)))
      = (bufW2).view.read (Elt F) f' (ix3 a s (⟨k.val, by omega⟩ : Fin 128)) :=
    congrFun (View.read_writes_whole (oChunk ![512 * w.val + 8 * c, 0, 0] h).view fo (ReadAs.same.apply ((bufW2).view.read (Elt F) f'))) (ix3 a s (⟨k.val, by omega⟩ : Fin 128))
  refine hrd.trans ?_
  refine (View.read_apply (v := (bufW2).view) f' _).trans ?_
  rw [bufW2_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-- Buffer 3, its rows landed, copied whole over the chunk leaves the chunk written. -/
theorem wb_done3 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 3 (160 * c) fIw Tb f') :
    chunkGood d w c fIw Tb ((oChunk off h).view.writes (Elt F) fo [⟨Rect.whole S8x20x128, ReadAs.same.apply ((bufW3).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW3).view.read (Elt F) f')⟩])
        ((oChunk ![512 * w.val + 8 * c, 0, 0] h).view.emb (ix3 a s (⟨k.val, by omega⟩ : Fin 128)))
      = (bufW3).view.read (Elt F) f' (ix3 a s (⟨k.val, by omega⟩ : Fin 128)) :=
    congrFun (View.read_writes_whole (oChunk ![512 * w.val + 8 * c, 0, 0] h).view fo (ReadAs.same.apply ((bufW3).view.read (Elt F) f'))) (ix3 a s (⟨k.val, by omega⟩ : Fin 128))
  refine hrd.trans ?_
  refine (View.read_apply (v := (bufW3).view) f' _).trans ?_
  rw [bufW3_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-! ## The block as its chunks -/

omit [FloatOps F] in
theorem mem_oBlkSet (w : Fin 32) (i : S16384x20x128.Idx) : i ∈ oBlkSet w ↔ 512 * w.val ≤ (i 0).val ∧ (i 0).val < 512 * w.val + 512 := by
  have h1 : (i 1).val < 20 := (i 1).isLt
  have h2 : (i 2).val < 128 := (i 2).isLt
  constructor
  · intro hi
    have h0 : w.val * (16384 / 32) ≤ (i 0).val ∧ (i 0).val < w.val * (16384 / 32) + 16384 / 32 := (Rect.mem_set_unit.mp hi) 0
    omega
  · intro hi
    refine Rect.mem_set_unit.mpr fun a => ?_
    match a with
    | ⟨0, _⟩ =>
      show w.val * (16384 / 32) ≤ (i 0).val ∧ (i 0).val < w.val * (16384 / 32) + 16384 / 32
      omega
    | ⟨1, _⟩ =>
      show 0 * 20 ≤ (i 1).val ∧ (i 1).val < 0 * 20 + 20
      omega
    | ⟨2, _⟩ =>
      show 0 * 128 ≤ (i 2).val ∧ (i 2).val < 0 * 128 + 128
      omega

omit [FloatOps F] in
theorem chunks_disjoint (w : Fin 32) : ∀ c ∈ (Finset.univ : Finset (Fin 64)), ∀ c' ∈ (Finset.univ : Finset (Fin 64)), c ≠ c' →
    Disjoint (chunkSet (512 * w.val + 8 * c.val)) (chunkSet (512 * w.val + 8 * c'.val)) := by
  intro c _ c' _ hne
  rw [Finset.disjoint_left]
  intro i hi hi'
  rw [mem_chunkSet] at hi hi'
  exact hne (Fin.ext (by omega))

omit [FloatOps F] in
theorem chunks_cover (w : Fin 32) : (Finset.univ : Finset (Fin 64)).biUnion (fun c => chunkSet (512 * w.val + 8 * c.val)) = oBlkSet w := by
  ext i
  rw [Finset.mem_biUnion, mem_oBlkSet]
  constructor
  · rintro ⟨c, -, hc⟩
    rw [mem_chunkSet] at hc
    have := c.isLt
    omega
  · intro hi
    refine ⟨⟨((i 0).val - 512 * w.val) / 8, by omega⟩, Finset.mem_univ _, ?_⟩
    rw [mem_chunkSet]
    show 512 * w.val + 8 * (((i 0).val - 512 * w.val) / 8) ≤ (i 0).val ∧ (i 0).val < 512 * w.val + 8 * (((i 0).val - 512 * w.val) / 8) + 8
    omega

omit [FloatOps F] in
/-- A worker's block held is its 64 chunks held. -/
theorem oBlk_chunks (w : Fin 32) (f : Buf (Elt F) (outLoc d)) :
    (outLoc d ↦[oBlkSet w]{fullShare} f : sProp 𝕄)
      = bigSep (Finset.univ : Finset (Fin 64)) fun c => outLoc d ↦[chunkSet (512 * w.val + 8 * c.val)]{fullShare} f := by
  rw [← chunks_cover w, pointsTo_biUnion Finset.univ (ℓ := outLoc d) (fun c : Fin 64 => chunkSet (512 * w.val + 8 * c.val)) (chunks_disjoint w)]

/-- The 64 chunks, each written, are the block written. -/
theorem chunks_join (m : (ℓ : Loc nD τ sig) → Buf (Elt F) ℓ) (I : (d : Dev nD) → Buf (Elt F) (idxLoc d)) (w : Fin 32) :
    (bigSep (Finset.univ : Finset (Fin 64)) fun c =>
        iprop(∃ fo, ⌜chunkGood d w c.val (fIw I d w) (m (tabLoc d)) fo⌝ ∗ (outLoc d ↦[chunkSet (512 * w.val + 8 * c.val)]{fullShare} fo)))
      ⊢ (iprop(∃ f, ⌜GoodOut m I d w f⌝ ∗ (outLoc d ↦[oBlkSet w]{fullShare} f)) : sProp 𝕄) := by
  haveI : Nonempty (Buf (Elt F) (outLoc d)) := ⟨m (outLoc d)⟩
  refine (bigSep_exists_pi Finset.univ (fun (c : Fin 64) (fo : Buf (Elt F) (outLoc d)) =>
    iprop(⌜chunkGood d w c.val (fIw I d w) (m (tabLoc d)) fo⌝ ∗ (outLoc d ↦[chunkSet (512 * w.val + 8 * c.val)]{fullShare} fo)))).trans ?_
  iintro ⟨%fs, H⟩
  ihave H' := (bigSep_pure_sep Finset.univ (fun c : Fin 64 => chunkGood d w c.val (fIw I d w) (m (tabLoc d)) (fs c))
    (fun c : Fin 64 => (outLoc d ↦[chunkSet (512 * w.val + 8 * c.val)]{fullShare} fs c : sProp 𝕄))) $$ H
  icases H' with ⟨%hfs, H⟩
  ihave H'' := (pointsTo_biUnion_join (ℓ := outLoc d) (q := fullShare) (Val := Elt F) Finset.univ
    (fun c : Fin 64 => chunkSet (512 * w.val + 8 * c.val)) fs (fs 0) (chunks_disjoint w)) $$ H
  icases H'' with ⟨%g, %hg, Hg⟩
  rw [chunks_cover]
  iexists g; isplitr
  · ipureintro
    intro r s k
    have hw : w.val < 32 := w.isLt
    have hr : r.val < 512 := r.isLt
    have hs : s.val < 20 := s.isLt
    obtain ⟨c, hc⟩ : ∃ c : Fin 64, c.val = r.val / 8 := ⟨⟨r.val / 8, by omega⟩, rfl⟩
    obtain ⟨a, ha⟩ : ∃ a : Fin 8, a.val = r.val % 8 := ⟨⟨r.val % 8, Nat.mod_lt _ (by decide)⟩, rfl⟩
    have hmem : (ix3 (⟨512 * w.val + r.val, by omega⟩ : Fin 16384) s (⟨k.val, by omega⟩ : Fin 128) : S16384x20x128.Idx)
        ∈ chunkSet (512 * w.val + 8 * c.val) := by
      rw [mem_chunkSet]
      show 512 * w.val + 8 * c.val ≤ 512 * w.val + r.val ∧ 512 * w.val + r.val < 512 * w.val + 8 * c.val + 8
      omega
    rw [hg c (Finset.mem_univ c) _ hmem]
    have hh := hfs c (Finset.mem_univ c) a s k
    have e1 : (⟨(512 * w.val + 8 * c.val + a.val) % 16384, Nat.mod_lt _ (by decide)⟩ : Fin 16384) = ⟨512 * w.val + r.val, by omega⟩ :=
      Fin.ext (by show (512 * w.val + 8 * c.val + a.val) % 16384 = 512 * w.val + r.val; omega)
    have e2 : (⟨(160 * c.val + 20 * a.val + s.val) % 10240, Nat.mod_lt _ (by decide)⟩ : Fin 10240) = ⟨20 * r.val + s.val, by omega⟩ :=
      Fin.ext (by show (160 * c.val + 20 * a.val + s.val) % 10240 = 20 * r.val + s.val; omega)
    rw [e1, e2] at hh
    exact hh
  · iexact Hg

end Cert.Proof.Kernel

end
-- ==== Proof.Kernel.Drain.lean ====
/-
  The four drain loops of the task's body. Each row buffer's 160 copies of a chunk complete on the buffer's one
  semaphore, every copy crediting it one row (64 words of 32 bits). The drain loop of a buffer makes ten trips of
  sixteen waits, each wait taking one row's credit off the semaphore: the first 159 waits only lower the count of
  credit still to be taken; the 160th takes the last of it, so every copy has landed, the semaphore is back at
  zero and all 160 deliveries are handed over at once. The waits are those of a thread that owes: each is recorded
  at the index of waits that need no round.
-/
import proofs.«206312_g12936441495622_cont_fleet_311_30_alg».proof.Proof.Kernel.TaskLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

/-- A wait recorded at the index that needs no round keeps the record within what was owed before or such waits. -/
theorem waits_insert {W W' : Waits sig (HIx 1)} (a : SemLoc sig × HIx 1) (ha : a.2 = none)
    (h : ∀ p ∈ W', p ∈ W ∨ p.2 = none) : ∀ p ∈ insert a W', p ∈ W ∨ p.2 = none := by
  intro p hp
  rcases Finset.mem_insert.mp hp with hp | hp
  · exact .inr (hp ▸ ha)
  · exact h p hp

/-! ## Row buffer 2 -/

/-- Before trip k of buffer 2's drain loop: k at most 10; the evidence that the thread may wait; what it owes, with the
    waits so far recorded; and either (k < 10) the batch with 16 k rows' credit taken, or (after the last trip) the
    semaphore at zero and every delivery. -/
def drainAt2 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch4.sem) (none : HIx 1) NR D 160 (16 * k * NR)
       else iprop(semVal ((thr d L), SemLoc.dma cc0_scratch4.sem) 0 ∗ bigSep Finset.univ D)))

set_option maxHeartbeats 8000000 in
/-- One trip, by cases: before the last trip sixteen waits short of the last; on the last trip fifteen such, then the
    wait that takes the last credit and hands every delivery over. -/
theorem drain2_step [∀ e, Nonempty (Elt F e)] (v1 : BitVec 32) (g : Fin k0_t1_loop.trips) (h : k0_cond3 g = 1#1)
    (D : Fin 160 → sProp 𝕄) (O : CellTallies nD τ sig (HIx 1)) (W : Waits sig (HIx 1)) (k : Fin k0_t3_loop.trips) (acc : Unit) :
    drainAt2 d L O W D k.val acc
      ⊢ wp frame (wpE (defs₀ (F := F)) 𝒱₀ (thr d L) none) Set.univ
          (k0_t3_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g h k acc)
          (drainAt2 d L O W D (k.val + 1)) := by
  have hk : k.val < 10 := k.isLt
  unfold drainAt2
  simp only [if_pos hk]
  rcases Nat.lt_or_ge (k.val + 1) 10 with h1 | h1
  · simp only [if_pos h1]
    iintro ⟨-, Hmw, ⟨%W', %hW', HO⟩, HB⟩
    sl_unfold [k0_t3_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t3_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

/-! ## Row buffer 3 -/

/-- Before trip k of buffer 3's drain loop: k at most 10; the evidence that the thread may wait; what it owes, with the
    waits so far recorded; and either (k < 10) the batch with 16 k rows' credit taken, or (after the last trip) the
    semaphore at zero and every delivery. -/
def drainAt3 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch5.sem) (none : HIx 1) NR D 160 (16 * k * NR)
       else iprop(semVal ((thr d L), SemLoc.dma cc0_scratch5.sem) 0 ∗ bigSep Finset.univ D)))

set_option maxHeartbeats 8000000 in
/-- One trip, by cases: before the last trip sixteen waits short of the last; on the last trip fifteen such, then the
    wait that takes the last credit and hands every delivery over. -/
theorem drain3_step [∀ e, Nonempty (Elt F e)] (v1 : BitVec 32) (g : Fin k0_t1_loop.trips) (h : k0_cond6 g = 1#1)
    (D : Fin 160 → sProp 𝕄) (O : CellTallies nD τ sig (HIx 1)) (W : Waits sig (HIx 1)) (k : Fin k0_t5_loop.trips) (acc : Unit) :
    drainAt3 d L O W D k.val acc
      ⊢ wp frame (wpE (defs₀ (F := F)) 𝒱₀ (thr d L) none) Set.univ
          (k0_t5_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g h k acc)
          (drainAt3 d L O W D (k.val + 1)) := by
  have hk : k.val < 10 := k.isLt
  unfold drainAt3
  simp only [if_pos hk]
  rcases Nat.lt_or_ge (k.val + 1) 10 with h1 | h1
  · simp only [if_pos h1]
    iintro ⟨-, Hmw, ⟨%W', %hW', HO⟩, HB⟩
    sl_unfold [k0_t5_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t5_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

/-! ## Row buffer 0 -/

/-- Before trip k of buffer 0's drain loop: k at most 10; the evidence that the thread may wait; what it owes, with the
    waits so far recorded; and either (k < 10) the batch with 16 k rows' credit taken, or (after the last trip) the
    semaphore at zero and every delivery. -/
def drainAt0 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch2.sem) (none : HIx 1) NR D 160 (16 * k * NR)
       else iprop(semVal ((thr d L), SemLoc.dma cc0_scratch2.sem) 0 ∗ bigSep Finset.univ D)))

set_option maxHeartbeats 8000000 in
/-- One trip, by cases: before the last trip sixteen waits short of the last; on the last trip fifteen such, then the
    wait that takes the last credit and hands every delivery over. -/
theorem drain0_step [∀ e, Nonempty (Elt F e)] (g : Fin k0_t1_loop.trips) (h : k0_cond9 g = 1#1)
    (D : Fin 160 → sProp 𝕄) (O : CellTallies nD τ sig (HIx 1)) (W : Waits sig (HIx 1)) (k : Fin k0_t7_loop.trips) (acc : Unit) :
    drainAt0 d L O W D k.val acc
      ⊢ wp frame (wpE (defs₀ (F := F)) 𝒱₀ (thr d L) none) Set.univ
          (k0_t7_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            g h k acc)
          (drainAt0 d L O W D (k.val + 1)) := by
  have hk : k.val < 10 := k.isLt
  unfold drainAt0
  simp only [if_pos hk]
  rcases Nat.lt_or_ge (k.val + 1) 10 with h1 | h1
  · simp only [if_pos h1]
    iintro ⟨-, Hmw, ⟨%W', %hW', HO⟩, HB⟩
    sl_unfold [k0_t7_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t7_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

/-! ## Row buffer 1 -/

/-- Before trip k of buffer 1's drain loop: k at most 10; the evidence that the thread may wait; what it owes, with the
    waits so far recorded; and either (k < 10) the batch with 16 k rows' credit taken, or (after the last trip) the
    semaphore at zero and every delivery. -/
def drainAt1 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch3.sem) (none : HIx 1) NR D 160 (16 * k * NR)
       else iprop(semVal ((thr d L), SemLoc.dma cc0_scratch3.sem) 0 ∗ bigSep Finset.univ D)))

set_option maxHeartbeats 8000000 in
/-- One trip, by cases: before the last trip sixteen waits short of the last; on the last trip fifteen such, then the
    wait that takes the last credit and hands every delivery over. -/
theorem drain1_step [∀ e, Nonempty (Elt F e)] (g : Fin k0_t1_loop.trips) (h : k0_cond12 g = 1#1)
    (D : Fin 160 → sProp 𝕄) (O : CellTallies nD τ sig (HIx 1)) (W : Waits sig (HIx 1)) (k : Fin k0_t9_loop.trips) (acc : Unit) :
    drainAt1 d L O W D k.val acc
      ⊢ wp frame (wpE (defs₀ (F := F)) 𝒱₀ (thr d L) none) Set.univ
          (k0_t9_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            g h k acc)
          (drainAt1 d L O W D (k.val + 1)) := by
  have hk : k.val < 10 := k.isLt
  unfold drainAt1
  simp only [if_pos hk]
  rcases Nat.lt_or_ge (k.val + 1) 10 with h1 | h1
  · simp only [if_pos h1]
    iintro ⟨-, Hmw, ⟨%W', %hW', HO⟩, HB⟩
    sl_unfold [k0_t9_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t9_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

end Cert.Proof.Kernel

end
-- ==== Proof.Kernel.Inv.lean ====
/-
  The state of the task between two groups of four chunks. Before group 0 everything is free. Before group
  `g`, 1 ≤ g ≤ 16: the write-backs of chunks `4 (g - 1)` and `4 (g - 1) + 1` (buffers 0 and 1) are in flight, the
  batches of chunks `4 (g - 1) + 2` and `4 (g - 1) + 3` (buffers 2 and 3) are fully issued, the chunks below
  `4 (g - 1)` are written and those from `4 (g - 1) + 2` on untouched. After group 16 the last four write-backs are in
  flight and the chunks below 60 written.
-/
import proofs.«206312_g12936441495622_cont_fleet_311_30_alg».proof.Proof.Kernel.Pipe
import proofs.«206312_g12936441495622_cont_fleet_311_30_alg».proof.Proof.Kernel.Rows
import proofs.«206312_g12936441495622_cont_fleet_311_30_alg».proof.Proof.Kernel.OutGeom
import proofs.«206312_g12936441495622_cont_fleet_311_30_alg».proof.Proof.Kernel.Drain
import proofs.«206312_g12936441495622_cont_fleet_311_30_alg».proof.Proof.Kernel.Facts

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-- The worker's token list, the table, the worker's share of the table for buffer `b`, one write-back's credit. -/
abbrev fIv : Buf (Elt F) ((sI).view.loc (thr d L)) := fIw I d (widL L)
abbrev Tbv : Buf (Elt F) (tabLoc d) := m (tabLoc d)
abbrev qB (b : ℕ) : PosShare TreeShare := Transfers.shareTokN (tq (widL L)) b
abbrev NWB : ℕ := 655360
abbrev gOf (gp : ℕ) (h : gp ≤ 15) : Fin k0_t1_loop.trips := ⟨gp, by show gp < 17; omega⟩

/-- Transfer `j = 16 k + r` of buffer 0's batch delivers what the batch states for it. -/
theorem hDel0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out0 d L g h1 fI hI Tb f q k r ⊢ D0 d L g h1 fI hI Tb f q ⟨j, hj⟩ := by
  intro k r j hj e
  show out0 d L g h1 fI hI Tb f q k r ⊢ out0 d L g h1 fI hI Tb f q (kOf ⟨j, hj⟩) (rOf ⟨j, hj⟩)
  rw [kOf_mk k r j hj e, rOf_mk k r j hj e]

/-- Chunk `c` (in buffer 0) on its way out: the buffer holds the table rows the chunk's tokens name, and its copy
    into rows `512 w + 8 c …` of the output is in flight. -/
def wbFl0 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 0 (160 * c) (fIv d L I) (Tbv d m) f'⌝
    ∗ Transfers.Flight countersEmb (thr d L) (.dma cc0_scratch6.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW0).view.read (Elt F) f')⟩]))
          ∗ ((bufW0).view.loc (thr d L) ↦[(bufW0).view.set]{fullShare} f')))

/-- Buffer 0 free: held at some contents, with its share of the table. -/
def free0 : sProp 𝕄 :=
  iprop((∃ f, (bufW0).view.loc (thr d L) ↦[(bufW0).view.set]{fullShare} f) ∗ ((tV).view.loc (thr d L) ↦{qB L 0} Tbv d m))

/-- Group `gp`'s chunk of buffer 0 gathering: its batch of 160 fully issued, what the batch does not hold set aside. -/
def gath0 (gp : ℕ) : sProp 𝕄 :=
  if h : gp ≤ 15 then
    iprop(∃ fd0, Transfers.Batch countersEmb (thr d L) (.dma cc0_scratch2.sem) (none : HIx 1) NR
        (D0 d L (gOf gp h) (cond1_pos _ h) (fIv d L I) (fIw_lt I d hpre _) (Tbv d m) fd0 (qB L 0)) 160 0
      ∗ left0 d L (gOf gp h) (cond1_pos _ h) (fIv d L I) (fIw_lt I d hpre _) (Tbv d m) fd0 (qB L 0))
  else iprop(emp)

/-- Transfer `j = 16 k + r` of buffer 1's batch delivers what the batch states for it. -/
theorem hDel1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out1 d L g h1 fI hI Tb f q k r ⊢ D1 d L g h1 fI hI Tb f q ⟨j, hj⟩ := by
  intro k r j hj e
  show out1 d L g h1 fI hI Tb f q k r ⊢ out1 d L g h1 fI hI Tb f q (kOf ⟨j, hj⟩) (rOf ⟨j, hj⟩)
  rw [kOf_mk k r j hj e, rOf_mk k r j hj e]

/-- Chunk `c` (in buffer 1) on its way out: the buffer holds the table rows the chunk's tokens name, and its copy
    into rows `512 w + 8 c …` of the output is in flight. -/
def wbFl1 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 1 (160 * c) (fIv d L I) (Tbv d m) f'⌝
    ∗ Transfers.Flight countersEmb (thr d L) (.dma cc0_scratch7.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW1).view.read (Elt F) f')⟩]))
          ∗ ((bufW1).view.loc (thr d L) ↦[(bufW1).view.set]{fullShare} f')))

/-- Buffer 1 free: held at some contents, with its share of the table. -/
def free1 : sProp 𝕄 :=
  iprop((∃ f, (bufW1).view.loc (thr d L) ↦[(bufW1).view.set]{fullShare} f) ∗ ((tV).view.loc (thr d L) ↦{qB L 1} Tbv d m))

/-- Group `gp`'s chunk of buffer 1 gathering: its batch of 160 fully issued, what the batch does not hold set aside. -/
def gath1 (gp : ℕ) : sProp 𝕄 :=
  if h : gp ≤ 15 then
    iprop(∃ fd0, Transfers.Batch countersEmb (thr d L) (.dma cc0_scratch3.sem) (none : HIx 1) NR
        (D1 d L (gOf gp h) (cond4_pos _ h) (fIv d L I) (fIw_lt I d hpre _) (Tbv d m) fd0 (qB L 1)) 160 0
      ∗ left1 d L (gOf gp h) (cond4_pos _ h) (fIv d L I) (fIw_lt I d hpre _) (Tbv d m) fd0 (qB L 1))
  else iprop(emp)

/-- Transfer `j = 16 k + r` of buffer 2's batch delivers what the batch states for it. -/
theorem hDel2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out2 d L g h1 fI hI Tb f q k r ⊢ D2 d L g h1 fI hI Tb f q ⟨j, hj⟩ := by
  intro k r j hj e
  show out2 d L g h1 fI hI Tb f q k r ⊢ out2 d L g h1 fI hI Tb f q (kOf ⟨j, hj⟩) (rOf ⟨j, hj⟩)
  rw [kOf_mk k r j hj e, rOf_mk k r j hj e]

/-- Chunk `c` (in buffer 2) on its way out: the buffer holds the table rows the chunk's tokens name, and its copy
    into rows `512 w + 8 c …` of the output is in flight. -/
def wbFl2 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 2 (160 * c) (fIv d L I) (Tbv d m) f'⌝
    ∗ Transfers.Flight countersEmb (thr d L) (.dma cc0_scratch8.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW2).view.read (Elt F) f')⟩]))
          ∗ ((bufW2).view.loc (thr d L) ↦[(bufW2).view.set]{fullShare} f')))

/-- Buffer 2 free: held at some contents, with its share of the table. -/
def free2 : sProp 𝕄 :=
  iprop((∃ f, (bufW2).view.loc (thr d L) ↦[(bufW2).view.set]{fullShare} f) ∗ ((tV).view.loc (thr d L) ↦{qB L 2} Tbv d m))

/-- Group `gp`'s chunk of buffer 2 gathering: its batch of 160 fully issued, what the batch does not hold set aside. -/
def gath2 (gp : ℕ) : sProp 𝕄 :=
  if h : gp ≤ 15 then
    iprop(∃ fd0, Transfers.Batch countersEmb (thr d L) (.dma cc0_scratch4.sem) (none : HIx 1) NR
        (D2 d L (gOf gp h) (cond7_pos _ h) (fIv d L I) (fIw_lt I d hpre _) (Tbv d m) fd0 (qB L 2)) 160 0
      ∗ left2 d L (gOf gp h) (cond7_pos _ h) (fIv d L I) (fIw_lt I d hpre _) (Tbv d m) fd0 (qB L 2))
  else iprop(emp)

/-- Transfer `j = 16 k + r` of buffer 3's batch delivers what the batch states for it. -/
theorem hDel3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out3 d L g h1 fI hI Tb f q k r ⊢ D3 d L g h1 fI hI Tb f q ⟨j, hj⟩ := by
  intro k r j hj e
  show out3 d L g h1 fI hI Tb f q k r ⊢ out3 d L g h1 fI hI Tb f q (kOf ⟨j, hj⟩) (rOf ⟨j, hj⟩)
  rw [kOf_mk k r j hj e, rOf_mk k r j hj e]

/-- Chunk `c` (in buffer 3) on its way out: the buffer holds the table rows the chunk's tokens name, and its copy
    into rows `512 w + 8 c …` of the output is in flight. -/
def wbFl3 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 3 (160 * c) (fIv d L I) (Tbv d m) f'⌝
    ∗ Transfers.Flight countersEmb (thr d L) (.dma cc0_scratch9.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW3).view.read (Elt F) f')⟩]))
          ∗ ((bufW3).view.loc (thr d L) ↦[(bufW3).view.set]{fullShare} f')))

/-- Buffer 3 free: held at some contents, with its share of the table. -/
def free3 : sProp 𝕄 :=
  iprop((∃ f, (bufW3).view.loc (thr d L) ↦[(bufW3).view.set]{fullShare} f) ∗ ((tV).view.loc (thr d L) ↦{qB L 3} Tbv d m))

/-- Group `gp`'s chunk of buffer 3 gathering: its batch of 160 fully issued, what the batch does not hold set aside. -/
def gath3 (gp : ℕ) : sProp 𝕄 :=
  if h : gp ≤ 15 then
    iprop(∃ fd0, Transfers.Batch countersEmb (thr d L) (.dma cc0_scratch5.sem) (none : HIx 1) NR
        (D3 d L (gOf gp h) (cond10_pos _ h) (fIv d L I) (fIw_lt I d hpre _) (Tbv d m) fd0 (qB L 3)) 160 0
      ∗ left3 d L (gOf gp h) (cond10_pos _ h) (fIv d L I) (fIw_lt I d hpre _) (Tbv d m) fd0 (qB L 3))
  else iprop(emp)

/-- Chunk `c` of the worker's block of the output, untouched; and written. -/
def chunkInit (c : Fin 64) : sProp 𝕄 := outLoc d ↦[chunkSet (512 * (widL L).val + 8 * c.val)]{fullShare} m (outLoc d)
def chunkDone (c : Fin 64) : sProp 𝕄 :=
  iprop(∃ fo, ⌜chunkGood d (widL L) c.val (fIv d L I) (Tbv d m) fo⌝ ∗ (outLoc d ↦[chunkSet (512 * (widL L).val + 8 * c.val)]{fullShare} fo))

/-- What every state holds: the evidence for the task's waits, what it owes, the token list, the worker's row of
    tokens, the part of its table share no buffer uses, the fetch's semaphore. -/
def baseI (O : CellTallies nD τ sig (HIx 1)) (W : Waits sig (HIx 1)) : sProp 𝕄 :=
  iprop(Transfers.MayWaits (thr d L) (none : HIx 1) O ∗ (∃ W', ⌜∀ p ∈ W', p ∈ W ∨ p.2 = none⌝ ∗ owes (thr d L) O W')
    ∗ ((sI).view.loc (thr d L) ↦{fullShare} fIv d L I)
    ∗ ((iRowM L).view.loc (thr d L) ↦[(iRowM L).view.set]{fullShare} I d)
    ∗ ((tV).view.loc (thr d L) ↦{Transfers.shareDrop (tq (widL L)) 4} Tbv d m)
    ∗ semVal (cell d L cc0_scoped0.sem) 0)

def Inv0 : sProp 𝕄 :=
  iprop(free0 d L m ∗ free1 d L m ∗ free2 d L m ∗ free3 d L m
    ∗ semVal (cell d L cc0_scratch2.sem) 0 ∗ semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0 ∗ semVal (cell d L cc0_scratch9.sem) 0
    ∗ bigSep (Ring.rangeSet 64 0 64) (chunkInit d L m))

def InvMid (gp : ℕ) : sProp 𝕄 :=
  iprop(wbFl0 d L m I (4 * gp) ∗ semVal (cell d L cc0_scratch2.sem) 0 ∗ ((tV).view.loc (thr d L) ↦{qB L 0} Tbv d m)
    ∗ wbFl1 d L m I (4 * gp + 1) ∗ semVal (cell d L cc0_scratch3.sem) 0 ∗ ((tV).view.loc (thr d L) ↦{qB L 1} Tbv d m)
    ∗ gath2 d L m I hpre gp ∗ semVal (cell d L cc0_scratch8.sem) 0
    ∗ gath3 d L m I hpre gp ∗ semVal (cell d L cc0_scratch9.sem) 0
    ∗ bigSep (Ring.rangeSet 64 (4 * gp + 2) 64) (chunkInit d L m) ∗ bigSep (Ring.rangeSet 64 0 (4 * gp)) (chunkDone d L m I))

def InvEnd : sProp 𝕄 :=
  iprop(wbFl0 d L m I 60 ∗ semVal (cell d L cc0_scratch2.sem) 0 ∗ ((tV).view.loc (thr d L) ↦{qB L 0} Tbv d m)
    ∗ wbFl1 d L m I 61 ∗ semVal (cell d L cc0_scratch3.sem) 0 ∗ ((tV).view.loc (thr d L) ↦{qB L 1} Tbv d m)
    ∗ wbFl2 d L m I 62 ∗ semVal (cell d L cc0_scratch4.sem) 0 ∗ ((tV).view.loc (thr d L) ↦{qB L 2} Tbv d m)
    ∗ wbFl3 d L m I 63 ∗ semVal (cell d L cc0_scratch5.sem) 0 ∗ ((tV).view.loc (thr d L) ↦{qB L 3} Tbv d m)
    ∗ bigSep (Ring.rangeSet 64 0 60) (chunkDone d L m I))

/-- The state before group `k`. -/
def InvG (O : CellTallies nD τ sig (HIx 1)) (W : Waits sig (HIx 1)) (k : ℕ) (_ : PUnit) : sProp 𝕄 :=
  iprop(baseI d L m I O W ∗ (if k = 0 then Inv0 d L m else if k ≤ 16 then InvMid d L m I hpre (k - 1) else InvEnd d L m I))

end Cert.Proof.Kernel

end
-- ==== Proof.Kernel.RegLib.lean ====
/-
  Ends of the loops' invariants, and the group state's three shapes as equations.
-/
import proofs.«206312_g12936441495622_cont_fleet_311_30_alg».proof.Proof.Kernel.Inv

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-- After the issue loop's ten trips: all 160 issued, the token list back. -/
theorem issueAt0_end (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt0 d L g h1 fI hI Tb fd0 q D n a
      ⊢ iprop(Transfers.Batch countersEmb (thr d L) (.dma cc0_scratch2.sem) (none : HIx 1) NR D 160 0 ∗ ((sI).view.loc (thr d L) ↦{fullShare} fI)) := by
  subst hn
  unfold issueAt0
  iintro ⟨HB, HI, -⟩
  isplitl [HB]; · iexact HB
  iexact HI

/-- The issue loop's invariant before its first trip. -/
theorem issueAt0_start (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch2.sem) (none : HIx 1) NR D 0 0 ∗ ((sI).view.loc (thr d L) ↦{fullShare} fI)
        ∗ bigSep (Ring.rangeSet 160 (16 * 0) 160) (fun t => inp0 d L g h1 fI hI Tb fd0 q (kOf t) (rOf t)))
      ⊢ issueAt0 d L g h1 fI hI Tb fd0 q D 0 a := by
  unfold issueAt0
  exact Entails.rfl

/-- The drain loop's invariant before its first trip, and after its ten trips: the semaphore back at zero and every
    delivery in hand. -/
theorem drainAt0_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch2.sem) (none : HIx 1) NR D 160 0)
      ⊢ drainAt0 d L O W D 0 a := by
  unfold drainAt0
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt0_end (O : CellTallies nD τ sig (HIx 1)) (W : Waits sig (HIx 1)) (D : Fin 160 → sProp 𝕄) (n : ℕ) (hn : n = 10) (a : Unit) :
    drainAt0 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch2.sem) 0 ∗ bigSep Finset.univ D) := by
  subst hn
  unfold drainAt0
  rw [if_neg (by decide : ¬ 10 < 10)]
  iintro ⟨-, Hmw, HO, Hs, HD⟩
  isplitl [Hmw]; · iexact Hmw
  isplitl [HO]; · iexact HO
  isplitl [Hs]; · iexact Hs
  iexact HD

/-- After the issue loop's ten trips: all 160 issued, the token list back. -/
theorem issueAt1_end (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt1 d L g h1 fI hI Tb fd0 q D n a
      ⊢ iprop(Transfers.Batch countersEmb (thr d L) (.dma cc0_scratch3.sem) (none : HIx 1) NR D 160 0 ∗ ((sI).view.loc (thr d L) ↦{fullShare} fI)) := by
  subst hn
  unfold issueAt1
  iintro ⟨HB, HI, -⟩
  isplitl [HB]; · iexact HB
  iexact HI

/-- The issue loop's invariant before its first trip. -/
theorem issueAt1_start (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch3.sem) (none : HIx 1) NR D 0 0 ∗ ((sI).view.loc (thr d L) ↦{fullShare} fI)
        ∗ bigSep (Ring.rangeSet 160 (16 * 0) 160) (fun t => inp1 d L g h1 fI hI Tb fd0 q (kOf t) (rOf t)))
      ⊢ issueAt1 d L g h1 fI hI Tb fd0 q D 0 a := by
  unfold issueAt1
  exact Entails.rfl

/-- The drain loop's invariant before its first trip, and after its ten trips: the semaphore back at zero and every
    delivery in hand. -/
theorem drainAt1_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch3.sem) (none : HIx 1) NR D 160 0)
      ⊢ drainAt1 d L O W D 0 a := by
  unfold drainAt1
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt1_end (O : CellTallies nD τ sig (HIx 1)) (W : Waits sig (HIx 1)) (D : Fin 160 → sProp 𝕄) (n : ℕ) (hn : n = 10) (a : Unit) :
    drainAt1 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch3.sem) 0 ∗ bigSep Finset.univ D) := by
  subst hn
  unfold drainAt1
  rw [if_neg (by decide : ¬ 10 < 10)]
  iintro ⟨-, Hmw, HO, Hs, HD⟩
  isplitl [Hmw]; · iexact Hmw
  isplitl [HO]; · iexact HO
  isplitl [Hs]; · iexact Hs
  iexact HD

/-- After the issue loop's ten trips: all 160 issued, the token list back. -/
theorem issueAt2_end (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt2 d L g h1 fI hI Tb fd0 q D n a
      ⊢ iprop(Transfers.Batch countersEmb (thr d L) (.dma cc0_scratch4.sem) (none : HIx 1) NR D 160 0 ∗ ((sI).view.loc (thr d L) ↦{fullShare} fI)) := by
  subst hn
  unfold issueAt2
  iintro ⟨HB, HI, -⟩
  isplitl [HB]; · iexact HB
  iexact HI

/-- The issue loop's invariant before its first trip. -/
theorem issueAt2_start (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch4.sem) (none : HIx 1) NR D 0 0 ∗ ((sI).view.loc (thr d L) ↦{fullShare} fI)
        ∗ bigSep (Ring.rangeSet 160 (16 * 0) 160) (fun t => inp2 d L g h1 fI hI Tb fd0 q (kOf t) (rOf t)))
      ⊢ issueAt2 d L g h1 fI hI Tb fd0 q D 0 a := by
  unfold issueAt2
  exact Entails.rfl

/-- The drain loop's invariant before its first trip, and after its ten trips: the semaphore back at zero and every
    delivery in hand. -/
theorem drainAt2_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch4.sem) (none : HIx 1) NR D 160 0)
      ⊢ drainAt2 d L O W D 0 a := by
  unfold drainAt2
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt2_end (O : CellTallies nD τ sig (HIx 1)) (W : Waits sig (HIx 1)) (D : Fin 160 → sProp 𝕄) (n : ℕ) (hn : n = 10) (a : Unit) :
    drainAt2 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch4.sem) 0 ∗ bigSep Finset.univ D) := by
  subst hn
  unfold drainAt2
  rw [if_neg (by decide : ¬ 10 < 10)]
  iintro ⟨-, Hmw, HO, Hs, HD⟩
  isplitl [Hmw]; · iexact Hmw
  isplitl [HO]; · iexact HO
  isplitl [Hs]; · iexact Hs
  iexact HD

/-- After the issue loop's ten trips: all 160 issued, the token list back. -/
theorem issueAt3_end (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt3 d L g h1 fI hI Tb fd0 q D n a
      ⊢ iprop(Transfers.Batch countersEmb (thr d L) (.dma cc0_scratch5.sem) (none : HIx 1) NR D 160 0 ∗ ((sI).view.loc (thr d L) ↦{fullShare} fI)) := by
  subst hn
  unfold issueAt3
  iintro ⟨HB, HI, -⟩
  isplitl [HB]; · iexact HB
  iexact HI

/-- The issue loop's invariant before its first trip. -/
theorem issueAt3_start (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch5.sem) (none : HIx 1) NR D 0 0 ∗ ((sI).view.loc (thr d L) ↦{fullShare} fI)
        ∗ bigSep (Ring.rangeSet 160 (16 * 0) 160) (fun t => inp3 d L g h1 fI hI Tb fd0 q (kOf t) (rOf t)))
      ⊢ issueAt3 d L g h1 fI hI Tb fd0 q D 0 a := by
  unfold issueAt3
  exact Entails.rfl

/-- The drain loop's invariant before its first trip, and after its ten trips: the semaphore back at zero and every
    delivery in hand. -/
theorem drainAt3_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch5.sem) (none : HIx 1) NR D 160 0)
      ⊢ drainAt3 d L O W D 0 a := by
  unfold drainAt3
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt3_end (O : CellTallies nD τ sig (HIx 1)) (W : Waits sig (HIx 1)) (D : Fin 160 → sProp 𝕄) (n : ℕ) (hn : n = 10) (a : Unit) :
    drainAt3 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch5.sem) 0 ∗ bigSep Finset.univ D) := by
  subst hn
  unfold drainAt3
  rw [if_neg (by decide : ¬ 10 < 10)]
  iintro ⟨-, Hmw, HO, Hs, HD⟩
  isplitl [Hmw]; · iexact Hmw
  isplitl [HO]; · iexact HO
  isplitl [Hs]; · iexact Hs
  iexact HD

/-- A run of chunks renamed by equal bounds. -/
theorem range_cast (Φ : Fin 64 → sProp 𝕄) {a a' b b' : ℕ} (e : a = a') (e' : b = b') :
    bigSep (Ring.rangeSet 64 a b) Φ ⊢ bigSep (Ring.rangeSet 64 a' b') Φ := by
  subst e; subst e'; exact Entails.rfl

theorem InvG_succ (O : CellTallies nD τ sig (HIx 1)) (W : Waits sig (HIx 1)) (k : ℕ) (a : PUnit) (h15 : k ≤ 15) :
    InvG d L m I hpre O W (k + 1) a = iprop(baseI d L m I O W ∗ InvMid d L m I hpre k) := by
  unfold InvG; rw [if_neg (by omega), if_pos (by omega), Nat.add_sub_cancel]

/-- The group state's three shapes. -/
theorem InvG_zero (O : CellTallies nD τ sig (HIx 1)) (W : Waits sig (HIx 1)) (a : PUnit) :
    InvG d L m I hpre O W 0 a = iprop(baseI d L m I O W ∗ Inv0 d L m) := by
  unfold InvG; rw [if_pos rfl]
theorem InvG_mid (O : CellTallies nD τ sig (HIx 1)) (W : Waits sig (HIx 1)) (k : ℕ) (a : PUnit) (h1 : 1 ≤ k) (h16 : k ≤ 16) :
    InvG d L m I hpre O W k a = iprop(baseI d L m I O W ∗ InvMid d L m I hpre (k - 1)) := by
  unfold InvG; rw [if_neg (by omega), if_pos h16]
theorem InvG_end (O : CellTallies nD τ sig (HIx 1)) (W : Waits sig (HIx 1)) (k : ℕ) (a : PUnit) (h : 17 ≤ k) :
    InvG d L m I hpre O W k a = iprop(baseI d L m I O W ∗ InvEnd d L m I) := by
  unfold InvG; rw [if_neg (by omega), if_neg (by omega)]

end Cert.Proof.Kernel

end
-- ==== Proof.Kernel.RowsAll.lean ====
/-
  The scratch of row buffers, whole, is its four buffers: the elements (b, t, y) by their first coordinate.
-/
import proofs.«206312_g12936441495622_cont_fleet_311_30_alg».proof.Proof.Kernel.RowsGeo
import Idealize.ShloMosaic.Lib.Ring

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

theorem bufSet_disjoint' : ∀ b b' : Fin 4, b ≠ b' → Disjoint (bufSet b) (bufSet b') := fun b b' hne => by
  rw [Finset.disjoint_left]; intro y hy hy'; rw [mem_bufSet] at hy hy'; exact hne (Fin.ext (by omega))
theorem bufSet_disjoint : ∀ b ∈ (Finset.univ : Finset (Fin 4)), ∀ b' ∈ (Finset.univ : Finset (Fin 4)), b ≠ b' → Disjoint (bufSet b) (bufSet b') :=
  fun b _ b' _ hne => bufSet_disjoint' b b' hne
theorem bufSet_cover : (Finset.univ : Finset (Fin 4)).biUnion bufSet = Finset.univ := by
  ext y
  simp only [Finset.mem_biUnion, Finset.mem_univ, true_and, iff_true]
  exact ⟨⟨(y 0).val, (y 0).isLt⟩, (mem_bufSet _ _).mpr rfl⟩

theorem bigSep_fin4 (Φ : Fin 4 → sProp 𝕄) : bigSep Finset.univ Φ = (iprop(Φ 0 ∗ Φ 1 ∗ Φ 2 ∗ Φ 3) : sProp 𝕄) := by
  rw [show (Finset.univ : Finset (Fin 4)) = {0, 1, 2, 3} by decide, SparseCore.bigSep_insert' (by decide), SparseCore.bigSep_insert' (by decide),
    SparseCore.bigSep_insert' (by decide), bigSep_singleton]

/-- The scratch held whole is its four buffers held. -/
theorem bufs_split (f : Buf (Elt F) ((sR).view.loc (thr d L))) :
    ((sR).view.loc (thr d L) ↦{fullShare} f : sProp 𝕄)
      ⊢ iprop(((bufW0).view.loc (thr d L) ↦[(bufW0).view.set]{fullShare} f) ∗ ((bufW1).view.loc (thr d L) ↦[(bufW1).view.set]{fullShare} f)
          ∗ ((bufW2).view.loc (thr d L) ↦[(bufW2).view.set]{fullShare} f) ∗ ((bufW3).view.loc (thr d L) ↦[(bufW3).view.set]{fullShare} f)) := by
  rw [bufW0_set, bufW1_set, bufW2_set, bufW3_set]
  have e : ((sR).view.loc (thr d L) ↦{fullShare} f : sProp 𝕄) = bigSep Finset.univ fun b : Fin 4 => (sR).view.loc (thr d L) ↦[bufSet b]{fullShare} f := by
    rw [← pointsTo_biUnion Finset.univ (ℓ := (sR).view.loc (thr d L)) bufSet bufSet_disjoint, bufSet_cover]
  rw [e, bigSep_fin4]
  exact BI.Entails.refl _

/-- Four buffers held, each at some contents, are the scratch held whole at some contents. -/
theorem bufs_join [∀ e, Nonempty (Elt F e)] :
    iprop((∃ f, (bufW0).view.loc (thr d L) ↦[(bufW0).view.set]{fullShare} f) ∗ (∃ f, (bufW1).view.loc (thr d L) ↦[(bufW1).view.set]{fullShare} f)
        ∗ (∃ f, (bufW2).view.loc (thr d L) ↦[(bufW2).view.set]{fullShare} f) ∗ (∃ f, (bufW3).view.loc (thr d L) ↦[(bufW3).view.set]{fullShare} f))
      ⊢ (iprop(∃ f, (sR).view.loc (thr d L) ↦{fullShare} f) : sProp 𝕄) := by
  rw [bufW0_set, bufW1_set, bufW2_set, bufW3_set]
  refine BI.Entails.trans ?_ (Ring.pointsTo_blocks_join_exists (ℓ := (sR).view.loc (thr d L)) (q := fullShare) bufSet bufSet_disjoint' bufSet_cover (sR).view.junk)
  rw [bigSep_fin4]
  exact BI.Entails.refl _

end Cert.Proof.Kernel

end
-- ==== Proof.Kernel.CoreOf.lean ====
/-
  The top of a worker's task: the fetch of its row of tokens into the list, the loop over the seventeen groups of four
  chunks (its region a hypothesis here), the four last write-backs awaited, and the pieces put together: the worker's
  block of the output holds, in its first 64 columns, the table rows its tokens name.
-/
import proofs.«206312_g12936441495622_cont_fleet_311_30_alg».proof.Proof.Kernel.RegLib
import proofs.«206312_g12936441495622_cont_fleet_311_30_alg».proof.Proof.Kernel.RowsAll

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-! ## The worker's share of the table, its block of the output, its last four chunks -/

/-- The worker's share of the table is a remainder and one share per row buffer. -/
theorem co_tq_split :
    (((tV).view.loc (thr d L) ↦{tq (widL L)} Tbv d m) : sProp 𝕄)
      ⊣⊢ iprop(((tV).view.loc (thr d L) ↦{Transfers.shareDrop (tq (widL L)) 4} Tbv d m) ∗ ((tV).view.loc (thr d L) ↦{qB L 0} Tbv d m) ∗ ((tV).view.loc (thr d L) ↦{qB L 1} Tbv d m)
          ∗ ((tV).view.loc (thr d L) ↦{qB L 2} Tbv d m) ∗ ((tV).view.loc (thr d L) ↦{qB L 3} Tbv d m)) := by
  have h0 : (((tV).view.loc (thr d L) ↦{tq (widL L)} Tbv d m) : sProp 𝕄)
      ⊣⊢ iprop(((tV).view.loc (thr d L) ↦{Transfers.shareDrop (tq (widL L)) 4} Tbv d m)
        ∗ bigSep Finset.univ (fun i : Fin 4 => (tV).view.loc (thr d L) ↦{Transfers.shareTok (tq (widL L)) 4 i} Tbv d m)) := Transfers.pointsTo_toks (tq (widL L)) 4
  rw [bigSep_fin4] at h0
  exact h0

/-- The worker's block of the output, as launched, is its 64 chunks untouched. -/
theorem co_out_split :
    (outLoc d ↦[oBlkSet (widL L)]{fullShare} m (outLoc d) : sProp 𝕄) = bigSep (Ring.rangeSet 64 0 64) (chunkInit d L m) := by
  rw [Ring.rangeSet_univ]
  exact oBlk_chunks d (widL L) (m (outLoc d))

/-- All 64 chunks written are the worker's block done. -/
theorem co_done_join :
    bigSep (Ring.rangeSet 64 0 64) (chunkDone d L m I)
      ⊢ (iprop(∃ f, ⌜GoodOut m I d (widL L) f⌝ ∗ (outLoc d ↦[oBlkSet (widL L)]{fullShare} f)) : sProp 𝕄) := by
  rw [Ring.rangeSet_univ]
  exact chunks_join d m I (widL L)

/-- The chunks below 64 are the last four and those below 60. -/
theorem co_done4 (Φ : Fin 64 → sProp 𝕄) :
    bigSep (Ring.rangeSet 64 0 64) Φ
      = (iprop(Φ ⟨63, by decide⟩ ∗ Φ ⟨62, by decide⟩ ∗ Φ ⟨61, by decide⟩ ∗ Φ ⟨60, by decide⟩ ∗ bigSep (Ring.rangeSet 64 0 60) Φ) : sProp 𝕄) := by
  rw [Ring.bigSep_rangeSet_last (lo := 0) (hi := 64) (by decide) (by decide), Ring.bigSep_rangeSet_last (lo := 0) (hi := 63) (by decide) (by decide),
    Ring.bigSep_rangeSet_last (lo := 0) (hi := 62) (by decide) (by decide), Ring.bigSep_rangeSet_last (lo := 0) (hi := 61) (by decide) (by decide)]

/-- Buffer 0's write-back landed: its chunk is written. -/
theorem co_wb_done0 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 0 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW0).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW0).view.read (Elt F) f')⟩])
  isplitr
  · ipureintro; exact wb_done0 d L off h _ (widL L) c.val e rfl c.isLt fo f' _ _ hg
  · iexact H

/-- Buffer 1's write-back landed: its chunk is written. -/
theorem co_wb_done1 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 1 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW1).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW1).view.read (Elt F) f')⟩])
  isplitr
  · ipureintro; exact wb_done1 d L off h _ (widL L) c.val e rfl c.isLt fo f' _ _ hg
  · iexact H

/-- Buffer 2's write-back landed: its chunk is written. -/
theorem co_wb_done2 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 2 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW2).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW2).view.read (Elt F) f')⟩])
  isplitr
  · ipureintro; exact wb_done2 d L off h _ (widL L) c.val e rfl c.isLt fo f' _ _ hg
  · iexact H

/-- Buffer 3's write-back landed: its chunk is written. -/
theorem co_wb_done3 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 3 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW3).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW3).view.read (Elt F) f')⟩])
  isplitr
  · ipureintro; exact wb_done3 d L off h _ (widL L) c.val e rfl c.isLt fo f' _ _ hg
  · iexact H

set_option maxHeartbeats 8000000 in
theorem tile_core_of [∀ e, Nonempty (Elt F e)] (O : CellTallies nD τ sig (HIx 1)) (W : Waits sig (HIx 1)) (hO : ∀ g, O g none = 0)
    (hregion : ∀ (W₁ : Waits sig (HIx 1)) (v1 : BitVec 32) (k : Fin k0_t1_loop.trips) (acc : PUnit),
      InvG d L m I hpre O W₁ k.val acc
        ⊢ wp frame (wpE (defs₀ (F := F)) 𝒱₀ (thr d L) none) Set.univ
            (k0_t1_body L iV (Memref.isWhole_whole _) tV (Memref.isWhole_whole _) oV (Memref.isWhole_whole _)
              sI (Memref.isWhole_whole _) sR (Memref.isWhole_whole _) cc0_scratch2 cc0_scratch3 cc0_scratch4 cc0_scratch5 cc0_scratch6 cc0_scratch7 cc0_scratch8 cc0_scratch9 cc0_scoped0 v1 k acc)
            (InvG d L m I hpre O W₁ (k.val + 1))) :
    corePre d L m I O W
      ⊢ wp frame (wpE (defs₀ (F := F)) 𝒱₀ (thr d L) none) Set.univ
          (cc0__emb_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => corePost d L m I O W := by
  simp only [cc0__emb_body_eq_skeleton]; unfold cc0__emb_body_skel; simp only [k0_part38_eq_skeleton, k0_part39_eq_skeleton]
  iintro ⟨#Hlv, ⟨Hi, Ht, Ho⟩, ⟨%fi0, HsI⟩, ⟨%fr0, HsR⟩, ⟨Hg0, Hg1, Hg2, Hg3, Ho0, Ho1, Ho2, Ho3, Hsc⟩, HO⟩
  ihave Hmw := (show levAts (K (F := F)).L (K (F := F)).lev ⊢ Transfers.MayWaits (thr d L) (default : HIx 1) O from
    (K (F := F)).mayWaits_none (thr := thr d L) hO) $$ Hlv
  ihave Ht := (Entails.of_eq (pts_tV (F := F) d L _ _)) $$ Ht
  ihave Hi := (Entails.of_eq (pts_iRow (F := F) d L _)) $$ Hi
  sl_exec
  -- the list holds the worker's row of tokens; the table share, the output block and the scratch dealt out
  ihave HsI := (Entails.of_eq (show ((sI).view.loc (thr d L) ↦{fullShare} View.write (Elt F) (sI).view fi0 (tile_core_of.sl.dma0 d L I) Finset.univ : sProp 𝕄)
      = ((sI).view.loc (thr d L) ↦{fullShare} fIv d L I) from
    congrArg (fun f => ((sI).view.loc (thr d L) ↦{fullShare} f : sProp 𝕄)) (fetch_eq I d L fi0))) $$ HsI
  ihave Ht4 := (co_tq_split d L m).1 $$ Ht
  icases Ht4 with ⟨Htd, Ht0, Ht1, Ht2, Ht3⟩
  ihave Hoc := (Entails.of_eq (co_out_split d L m)) $$ Ho
  ihave HsR4 := (bufs_split d L fr0) $$ HsR
  icases HsR4 with ⟨Hb0, Hb1, Hb2, Hb3⟩
  sl_for (InvG d L m I hpre O (insert (SemLoc.dma cc0_scoped0.sem, (default : HIx 1)) W)) $$ [Hmw HO HsI Hi Htd Hsc Hb0 Ht0 Hb1 Ht1 Hb2 Ht2 Hb3 Ht3 Hg0 Hg1 Hg2 Hg3 Ho0 Ho1 Ho2 Ho3 Hoc]
  case region => exact fun k acc => hregion _ _ k acc
  · rw [InvG_zero]
    unfold baseI Inv0 free0 free1 free2 free3
    isplitl [Hmw HO HsI Hi Htd Hsc]
    · isplitl [Hmw]; · iexact Hmw
      isplitl [HO]
      · iexists _; isplitr
        · ipureintro; exact fun p hp => .inl hp
        · iexact HO
      isplitl [HsI]; · iexact HsI
      isplitl [Hi]; · iexact Hi
      isplitl [Htd]; · iexact Htd
      iexact Hsc
    isplitl [Hb0 Ht0]
    · isplitl [Hb0]; · iexists _; iexact Hb0
      iexact Ht0
    isplitl [Hb1 Ht1]
    · isplitl [Hb1]; · iexists _; iexact Hb1
      iexact Ht1
    isplitl [Hb2 Ht2]
    · isplitl [Hb2]; · iexists _; iexact Hb2
      iexact Ht2
    isplitl [Hb3 Ht3]
    · isplitl [Hb3]; · iexists _; iexact Hb3
      iexact Ht3
    isplitl [Hg0]; · iexact Hg0
    isplitl [Hg1]; · iexact Hg1
    isplitl [Hg2]; · iexact Hg2
    isplitl [Hg3]; · iexact Hg3
    isplitl [Ho0]; · iexact Ho0
    isplitl [Ho1]; · iexact Ho1
    isplitl [Ho2]; · iexact Ho2
    isplitl [Ho3]; · iexact Ho3
    iexact Hoc
  iintro %_ Hend
  ihave Hend := (Entails.of_eq (InvG_end d L m I hpre O _ _ _ (by decide))) $$ Hend
  unfold baseI InvEnd wbFl0 wbFl1 wbFl2 wbFl3
  icases Hend with ⟨⟨-, ⟨%W', %hW', HO⟩, HsI, Hi, Htd, Hsc⟩, ⟨%f0, %off0, %hb0, %e0, %hg0, HF0⟩, Hg0, Ht0, ⟨%f1, %off1, %hb1, %e1, %hg1, HF1⟩, Hg1, Ht1,
    ⟨%f2, %off2, %hb2, %e2, %hg2, HF2⟩, Hg2, Ht2, ⟨%f3, %off3, %hb3, %e3, %hg3, HF3⟩, Hg3, Ht3, Hdone⟩
  sl_exec
  -- the last four chunks are written; with those below 60, the worker's block is done
  ihave Hc60 := (co_wb_done0 d L m I ⟨60, by decide⟩ _ f0 off0 hb0 e0 hg0) $$ HF0_dst
  ihave Hc61 := (co_wb_done1 d L m I ⟨61, by decide⟩ _ f1 off1 hb1 e1 hg1) $$ HF1_dst
  ihave Hc62 := (co_wb_done2 d L m I ⟨62, by decide⟩ _ f2 off2 hb2 e2 hg2) $$ HF2_dst
  ihave Hc63 := (co_wb_done3 d L m I ⟨63, by decide⟩ _ f3 off3 hb3 e3 hg3) $$ HF3_dst
  ihave Hall := (Entails.of_eq (co_done4 (F := F) (chunkDone d L m I)).symm) $$ [Hc63 Hc62 Hc61 Hc60 Hdone]
  · isplitl [Hc63]; · iexact Hc63
    isplitl [Hc62]; · iexact Hc62
    isplitl [Hc61]; · iexact Hc61
    isplitl [Hc60]; · iexact Hc60
    iexact Hdone
  ihave Hout := (co_done_join d L m I) $$ Hall
  -- the table share and the scratch whole again
  ihave Htq := (co_tq_split d L m).2 $$ [Htd Ht0 Ht1 Ht2 Ht3]
  · isplitl [Htd]; · iexact Htd
    isplitl [Ht0]; · iexact Ht0
    isplitl [Ht1]; · iexact Ht1
    isplitl [Ht2]; · iexact Ht2
    iexact Ht3
  ihave HsR := (bufs_join d L) $$ [HF0_src HF1_src HF2_src HF3_src]
  · isplitl [HF0_src]; · iexists _; iexact HF0_src
    isplitl [HF1_src]; · iexists _; iexact HF1_src
    isplitl [HF2_src]; · iexists _; iexact HF2_src
    iexists _; iexact HF3_src
  sl_step
  isplitl [Hi Htq Hout]
  · isplitl [Hi]; · iapply (Entails.of_eq (pts_iRow (F := F) d L _).symm); iexact Hi
    isplitl [Htq]; · iexact Htq
    iexact Hout
  isplitl [HsI]; · iexists _; iexact HsI
  isplitl [HsR]; · iexact HsR
  isplitl [Hg0 Hg1 Hg2 Hg3 HF0 HF1 HF2 HF3 Hsc]
  · isplitl [Hg0]; · iexact Hg0
    isplitl [Hg1]; · iexact Hg1
    isplitl [Hg2]; · iexact Hg2
    isplitl [Hg3]; · iexact Hg3
    isplitl [HF0]; · iexact HF0
    isplitl [HF1]; · iexact HF1
    isplitl [HF2]; · iexact HF2
    isplitl [HF3]; · iexact HF3
    iexact Hsc
  iexists _; isplitr
  swap; · iexact HO
  ipureintro
  have hW0 : ∀ p ∈ W', p ∈ W ∨ p.2 = none := fun p hp =>
    (hW' p hp).elim (fun h => (Finset.mem_insert.mp h).elim (fun e => .inr (e ▸ rfl)) .inl) .inr
  exact waits_insert _ rfl (waits_insert _ rfl (waits_insert _ rfl (waits_insert _ rfl hW0)))

end Cert.Proof.Kernel

end
-- ==== Proof.Kernel.Steps.lean ====
/-
  Small steps between the pieces of the task's state: a landed write-back is a written chunk; an untouched chunk is a
  write-back's destination; the written chunks grow by one and the untouched ones give up their first; the worker's
  block is its 64 untouched chunks and 64 written chunks are the block written; the worker's share of the table is
  what no buffer uses and the four buffers' read shares; the write-backs' start rows through the worker's number.
-/
import proofs.«206312_g12936441495622_cont_fleet_311_30_alg».proof.Proof.Kernel.Inv

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-! ## A landed write-back is a written chunk; an untouched chunk is a destination -/

/-- Buffer 0's write-back of chunk c, landed, is the chunk written. -/
theorem wb_to_done0 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 0 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW0).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW0).view.read (Elt F) f')⟩])
  isplitr
  · ipureintro
    exact wb_done0 d L off h _ (widL L) c e rfl hc fo f' (fIv d L I) (Tbv d m) hg
  · iexact H

/-- Buffer 1's write-back of chunk c, landed, is the chunk written. -/
theorem wb_to_done1 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 1 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW1).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW1).view.read (Elt F) f')⟩])
  isplitr
  · ipureintro
    exact wb_done1 d L off h _ (widL L) c e rfl hc fo f' (fIv d L I) (Tbv d m) hg
  · iexact H

/-- Buffer 2's write-back of chunk c, landed, is the chunk written. -/
theorem wb_to_done2 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 2 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW2).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW2).view.read (Elt F) f')⟩])
  isplitr
  · ipureintro
    exact wb_done2 d L off h _ (widL L) c e rfl hc fo f' (fIv d L I) (Tbv d m) hg
  · iexact H

/-- Buffer 3's write-back of chunk c, landed, is the chunk written. -/
theorem wb_to_done3 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 3 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW3).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW3).view.read (Elt F) f')⟩])
  isplitr
  · ipureintro
    exact wb_done3 d L off h _ (widL L) c e rfl hc fo f' (fIv d L I) (Tbv d m) hg
  · iexact H

/-- An untouched chunk, as the write-back's destination addresses it. -/
theorem init_to_chunk (c : ℕ) (hc : c < 64) (off : Fin 3 → ℕ) (h : ∀ a, off a + S8x20x128.size a ≤ S16384x20x128.size a)
    (e : off = ![512 * (widL L).val + 8 * c, 0, 0]) :
    chunkInit d L m ⟨c, hc⟩ ⊢ ((oChunk off h).view.loc (thr d L) ↦[(oChunk off h).view.set]{fullShare} m (outLoc d) : sProp 𝕄) := by
  unfold chunkInit
  rw [oChunk_set off h _ e]
  iintro H
  iexact H

/-! ## Runs of chunks -/

/-- A run of things from 0 grows by its next one. -/
theorem snoc_gen (Φ : Fin 64 → sProp 𝕄) (n : ℕ) (hn : n < 64) :
    iprop(bigSep (Ring.rangeSet 64 0 n) Φ ∗ Φ ⟨n, hn⟩) ⊢ bigSep (Ring.rangeSet 64 0 (n + 1)) Φ := by
  rw [Ring.bigSep_rangeSet_last (lo := 0) (hi := n + 1) (by omega) (by omega)]
  simp only [Nat.add_sub_cancel]
  iintro ⟨Hs, Hn⟩
  isplitl [Hn]
  · iexact Hn
  · iexact Hs

/-- A run of things up to 64 gives up its first one. -/
theorem head_gen (Φ : Fin 64 → sProp 𝕄) (n : ℕ) (hn : n < 64) :
    bigSep (Ring.rangeSet 64 n 64) Φ ⊢ iprop(Φ ⟨n, hn⟩ ∗ bigSep (Ring.rangeSet 64 (n + 1) 64) Φ) := by
  rw [Ring.bigSep_rangeSet_head (lo := n) (hi := 64) hn hn]

theorem done_snoc (n : ℕ) (hn : n < 64) :
    iprop(bigSep (Ring.rangeSet 64 0 n) (chunkDone d L m I) ∗ chunkDone d L m I ⟨n, hn⟩) ⊢ bigSep (Ring.rangeSet 64 0 (n + 1)) (chunkDone d L m I) :=
  snoc_gen (chunkDone d L m I) n hn

theorem init_head (n : ℕ) (hn : n < 64) :
    bigSep (Ring.rangeSet 64 n 64) (chunkInit d L m) ⊢ iprop(chunkInit d L m ⟨n, hn⟩ ∗ bigSep (Ring.rangeSet 64 (n + 1) 64) (chunkInit d L m)) :=
  head_gen (chunkInit d L m) n hn

/-! ## The block and its chunks -/

/-- The worker's block of the output as launched is its 64 untouched chunks. -/
theorem out_split : (outLoc d ↦[oBlkSet (widL L)]{fullShare} m (outLoc d) : sProp 𝕄) ⊢ bigSep (Ring.rangeSet 64 0 64) (chunkInit d L m) := by
  rw [oBlk_chunks d (widL L) (m (outLoc d)), Ring.rangeSet_univ]
  exact .rfl

/-- The 64 chunks written are the worker's block done. -/
theorem done_join : bigSep (Ring.rangeSet 64 0 64) (chunkDone d L m I)
    ⊢ (iprop(∃ f, ⌜GoodOut m I d (widL L) f⌝ ∗ (outLoc d ↦[oBlkSet (widL L)]{fullShare} f)) : sProp 𝕄) := by
  rw [Ring.rangeSet_univ]
  exact chunks_join d m I (widL L)

/-! ## The worker's share of the table -/

/-- A share of the table is what is left after four read shares, and the four. -/
theorem tq_split_gen (q : PosShare TreeShare) (Tb : Buf (Elt F) (tabLoc d)) :
    ((tV).view.loc (thr d L) ↦{q} Tb : sProp 𝕄)
      ⊣⊢ iprop(((tV).view.loc (thr d L) ↦{Transfers.shareDrop q 4} Tb)
          ∗ ((tV).view.loc (thr d L) ↦{Transfers.shareTokN q 0} Tb) ∗ ((tV).view.loc (thr d L) ↦{Transfers.shareTokN q 1} Tb)
          ∗ ((tV).view.loc (thr d L) ↦{Transfers.shareTokN q 2} Tb) ∗ ((tV).view.loc (thr d L) ↦{Transfers.shareTokN q 3} Tb)) := by
  have h : ((tV).view.loc (thr d L) ↦{q} Tb : sProp 𝕄)
      ⊣⊢ iprop(((tV).view.loc (thr d L) ↦{Transfers.shareDrop q 4} Tb)
          ∗ BI.bigSep (Finset.range 4) (fun i => ((tV).view.loc (thr d L) ↦{Transfers.shareTokN q i} Tb : sProp 𝕄))) :=
    Transfers.pointsTo_toks_range q 4
  rw [Ring.bigSep_range_succ 3, Ring.bigSep_range_succ 2, Ring.bigSep_range_succ 1, Ring.bigSep_range_succ 0, Finset.range_zero, BI.bigSep_empty] at h
  constructor
  · refine h.1.trans ?_
    iintro ⟨Hd, H3, H2, H1, H0, -⟩
    isplitl [Hd]; · iexact Hd
    isplitl [H0]; · iexact H0
    isplitl [H1]; · iexact H1
    isplitl [H2]; · iexact H2
    iexact H3
  · refine BIBase.Entails.trans ?_ h.2
    iintro ⟨Hd, H0, H1, H2, H3⟩
    isplitl [Hd]; · iexact Hd
    isplitl [H3]; · iexact H3
    isplitl [H2]; · iexact H2
    isplitl [H1]; · iexact H1
    isplitl [H0]; · iexact H0
    iempintro

/-- The worker's share is what no buffer uses and the four buffers' read shares. -/
theorem tq_split :
    ((tV).view.loc (thr d L) ↦{tq (widL L)} Tbv d m : sProp 𝕄)
      ⊣⊢ iprop(((tV).view.loc (thr d L) ↦{Transfers.shareDrop (tq (widL L)) 4} Tbv d m)
          ∗ ((tV).view.loc (thr d L) ↦{qB L 0} Tbv d m) ∗ ((tV).view.loc (thr d L) ↦{qB L 1} Tbv d m)
          ∗ ((tV).view.loc (thr d L) ↦{qB L 2} Tbv d m) ∗ ((tV).view.loc (thr d L) ↦{qB L 3} Tbv d m)) :=
  tq_split_gen d L (tq (widL L)) (Tbv d m)

/-! ## The write-backs' start rows through the worker's number -/

omit [FloatOps F] in
theorem off37_w (g : Fin k0_t1_loop.trips) (h1 : 1 ≤ g.val) (h16 : g.val ≤ 16) :
    k0_off37 L g = ![512 * (widL L).val + 8 * (4 * g.val - 2), 0, 0] := by
  rw [off37_eq L g h1 h16]
  show ![1024 * (L 1).val + 512 * (L 0).val + 8 * (4 * g.val - 2), 0, 0] = ![512 * (2 * (L 1).val + (L 0).val) + 8 * (4 * g.val - 2), 0, 0]
  congr 1; omega
omit [FloatOps F] in
theorem off73_w (g : Fin k0_t1_loop.trips) (h1 : 1 ≤ g.val) (h16 : g.val ≤ 16) :
    k0_off73 L g = ![512 * (widL L).val + 8 * (4 * g.val - 1), 0, 0] := by
  rw [off73_eq L g h1 h16]
  show ![1024 * (L 1).val + 512 * (L 0).val + 8 * (4 * g.val - 1), 0, 0] = ![512 * (2 * (L 1).val + (L 0).val) + 8 * (4 * g.val - 1), 0, 0]
  congr 1; omega
omit [FloatOps F] in
theorem off109_w (g : Fin k0_t1_loop.trips) :
    k0_off109 L g = ![512 * (widL L).val + 8 * (4 * g.val), 0, 0] := by
  rw [k0_off109_eq L g]
  show ![1024 * (L 1).val + 512 * (L 0).val + 32 * g.val, 0, 0] = ![512 * (2 * (L 1).val + (L 0).val) + 8 * (4 * g.val), 0, 0]
  congr 1; omega
omit [FloatOps F] in
theorem off145_w (g : Fin k0_t1_loop.trips) :
    k0_off145 L g = ![512 * (widL L).val + 8 * (4 * g.val + 1), 0, 0] := by
  rw [k0_off145_eq L g]
  show ![1024 * (L 1).val + 512 * (L 0).val + 32 * g.val + 8, 0, 0] = ![512 * (2 * (L 1).val + (L 0).val) + 8 * (4 * g.val + 1), 0, 0]
  congr 1; omega

end Cert.Proof.Kernel

end
-- ==== Proof.Kernel.RegionFirst.lean ====
/-
  The first group, k = 0: nothing to wait for yet. The four buffers' first chunks are issued; buffers 0 and 1 are
  also waited for and written out (chunks 0 and 1).
-/
import proofs.«206312_g12936441495622_cont_fleet_311_30_alg».proof.Proof.Kernel.Steps
import proofs.«206312_g12936441495622_cont_fleet_311_30_alg».proof.Proof.Kernel.RegLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

set_option maxHeartbeats 128000000 in
theorem region_first [∀ e, Nonempty (Elt F e)] (O : CellTallies nD τ sig (HIx 1)) (W : Waits sig (HIx 1)) (v1 : BitVec 32)
    (k : Fin k0_t1_loop.trips) (acc : PUnit) (hk0 : k.val = 0) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have h15 : k.val ≤ 15 := by omega
  have c1 := cond1_pos k h15
  have c4 := cond4_pos k h15
  have c7 := cond7_pos k h15
  have c9 := cond9_pos k h15
  have c10 := cond10_pos k h15
  have c12 := cond12_pos k h15
  have n2 := cond2_neg k (by omega)
  have n3 := cond3_neg k (by omega)
  have n5 := cond5_neg k (by omega)
  have n6 := cond6_neg k (by omega)
  have n8 := cond8_neg k (by omega)
  have n11 := cond11_neg k (by omega)
  rw [show InvG d L m I hpre O W k.val acc = iprop(baseI d L m I O W ∗ Inv0 d L m) from by rw [hk0]; exact InvG_zero d L m I hpre O W acc]
  unfold baseI Inv0 free0 free1 free2 free3
  iintro ⟨⟨Hmw, ⟨%W0, %hW, HO⟩, HsI, Hi, Htd, Hsc⟩, ⟨⟨%f0w, Hb0⟩, Ht0⟩, ⟨⟨%f1w, Hb1⟩, Ht1⟩, ⟨⟨%f2w, Hb2⟩, Ht2⟩, ⟨⟨%f3w, Hb3⟩, Ht3⟩, Hg0, Hg1, Hg2, Hg3, HF0, HF1, Ho2, Ho3, Hinit⟩
  ihave Hinit := (range_cast (chunkInit d L m) (show 0 = 4 * k.val + 0 from by omega) (rfl : (64 : ℕ) = 64)) $$ Hinit
  sl_unfold [k0_t1_body]

  -- buffer 0: the 160 copies of its next chunk are issued
  sl_exec
  ihave Hop := (open0 d L k c1 (fIv d L I) (fIw_lt I d hpre _) (Tbv d m) f0w (qB L 0)) $$ [Hb0 Ht0]
  · isplitl [Hb0] <;> iassumption
  icases Hop with ⟨Hin0, HL0⟩
  haveI hst0 : ∀ t, BI.Storable (upEmb : UEmb _ 𝕄) (D0 d L k c1 (fIv d L I) (fIw_lt I d hpre _) (Tbv d m) f0w (qB L 0) t) :=
    D0_storable d L k c1 (fIv d L I) (fIw_lt I d hpre _) (Tbv d m) f0w (qB L 0)
  imod (Transfers.batch_alloc' countersEmb (thr d L) (none : HIx 1) NR (D0 d L k c1 (fIv d L I) (fIw_lt I d hpre _) (Tbv d m) f0w (qB L 0)) (sm := .dma cc0_scratch2.sem) (E := Set.univ)) $$ Hg0 with HB0
  sl_for (issueAt0 d L k c1 (fIv d L I) (fIw_lt I d hpre _) (Tbv d m) f0w (qB L 0) (D0 d L k c1 (fIv d L I) (fIw_lt I d hpre _) (Tbv d m) f0w (qB L 0))) $$ [HB0 HsI Hin0]
  case region => exact fun kk acc' => issue0_step d L k c1 (fIv d L I) (fIw_lt I d hpre _) (Tbv d m) f0w (qB L 0) v1 _ _ (hDel0 d L k c1 (fIv d L I) (fIw_lt I d hpre _) (Tbv d m) f0w (qB L 0)) kk acc'
  · iapply (issueAt0_start d L k c1 (fIv d L I) (fIw_lt I d hpre _) (Tbv d m) f0w (qB L 0) _ _)
    isplitl [HB0]; · iexact HB0
    isplitl [HsI]; · iexact HsI
    iexact Hin0
  iintro %_ HLp
  ihave HLp := (issueAt0_end d L k c1 (fIv d L I) (fIw_lt I d hpre _) (Tbv d m) f0w (qB L 0) _ (Scf.trips k0_t2_loop.lb k0_t2_loop.ub k0_t2_loop.st) rfl _) $$ HLp
  icases HLp with ⟨HB0, HsI⟩

  -- buffer 1: the 160 copies of its next chunk are issued
  sl_exec
  ihave Hop := (open1 d L k c4 (fIv d L I) (fIw_lt I d hpre _) (Tbv d m) f1w (qB L 1)) $$ [Hb1 Ht1]
  · isplitl [Hb1] <;> iassumption
  icases Hop with ⟨Hin1, HL1⟩
  haveI hst1 : ∀ t, BI.Storable (upEmb : UEmb _ 𝕄) (D1 d L k c4 (fIv d L I) (fIw_lt I d hpre _) (Tbv d m) f1w (qB L 1) t) :=
    D1_storable d L k c4 (fIv d L I) (fIw_lt I d hpre _) (Tbv d m) f1w (qB L 1)
  imod (Transfers.batch_alloc' countersEmb (thr d L) (none : HIx 1) NR (D1 d L k c4 (fIv d L I) (fIw_lt I d hpre _) (Tbv d m) f1w (qB L 1)) (sm := .dma cc0_scratch3.sem) (E := Set.univ)) $$ Hg1 with HB1
  sl_for (issueAt1 d L k c4 (fIv d L I) (fIw_lt I d hpre _) (Tbv d m) f1w (qB L 1) (D1 d L k c4 (fIv d L I) (fIw_lt I d hpre _) (Tbv d m) f1w (qB L 1))) $$ [HB1 HsI Hin1]
  case region => exact fun kk acc' => issue1_step d L k c4 (fIv d L I) (fIw_lt I d hpre _) (Tbv d m) f1w (qB L 1) v1 _ _ (hDel1 d L k c4 (fIv d L I) (fIw_lt I d hpre _) (Tbv d m) f1w (qB L 1)) kk acc'
  · iapply (issueAt1_start d L k c4 (fIv d L I) (fIw_lt I d hpre _) (Tbv d m) f1w (qB L 1) _ _)
    isplitl [HB1]; · iexact HB1
    isplitl [HsI]; · iexact HsI
    iexact Hin1
  iintro %_ HLp
  ihave HLp := (issueAt1_end d L k c4 (fIv d L I) (fIw_lt I d hpre _) (Tbv d m) f1w (qB L 1) _ (Scf.trips k0_t4_loop.lb k0_t4_loop.ub k0_t4_loop.st) rfl _) $$ HLp
  icases HLp with ⟨HB1, HsI⟩

  -- buffer 2: the 160 copies of its next chunk are issued
  sl_exec
  ihave Hop := (open2 d L k c7 (fIv d L I) (fIw_lt I d hpre _) (Tbv d m) f2w (qB L 2)) $$ [Hb2 Ht2]
  · isplitl [Hb2] <;> iassumption
  icases Hop with ⟨Hin2, HL2⟩
  haveI hst2 : ∀ t, BI.Storable (upEmb : UEmb _ 𝕄) (D2 d L k c7 (fIv d L I) (fIw_lt I d hpre _) (Tbv d m) f2w (qB L 2) t) :=
    D2_storable d L k c7 (fIv d L I) (fIw_lt I d hpre _) (Tbv d m) f2w (qB L 2)
  imod (Transfers.batch_alloc' countersEmb (thr d L) (none : HIx 1) NR (D2 d L k c7 (fIv d L I) (fIw_lt I d hpre _) (Tbv d m) f2w (qB L 2)) (sm := .dma cc0_scratch4.sem) (E := Set.univ)) $$ Hg2 with HB2
  sl_for (issueAt2 d L k c7 (fIv d L I) (fIw_lt I d hpre _) (Tbv d m) f2w (qB L 2) (D2 d L k c7 (fIv d L I) (fIw_lt I d hpre _) (Tbv d m) f2w (qB L 2))) $$ [HB2 HsI Hin2]
  case region => exact fun kk acc' => issue2_step d L k c7 (fIv d L I) (fIw_lt I d hpre _) (Tbv d m) f2w (qB L 2) v1 _ _ (hDel2 d L k c7 (fIv d L I) (fIw_lt I d hpre _) (Tbv d m) f2w (qB L 2)) kk acc'
  · iapply (issueAt2_start d L k c7 (fIv d L I) (fIw_lt I d hpre _) (Tbv d m) f2w (qB L 2) _ _)
    isplitl [HB2]; · iexact HB2
    isplitl [HsI]; · iexact HsI
    iexact Hin2
  iintro %_ HLp
  ihave HLp := (issueAt2_end d L k c7 (fIv d L I) (fIw_lt I d hpre _) (Tbv d m) f2w (qB L 2) _ (Scf.trips k0_t6_loop.lb k0_t6_loop.ub k0_t6_loop.st) rfl _) $$ HLp
  icases HLp with ⟨HB2, HsI⟩

  -- buffer 0: its 160 copies are waited for, and it is written out
  sl_exec
  sl_for (drainAt0 d L O W (D0 d L k c1 (fIv d L I) (fIw_lt I d hpre _) (Tbv d m) f0w (qB L 0))) $$ [Hmw HO HB0]
  case region => exact fun kk acc' => drain0_step d L k c9 _ O W kk acc'
  · iapply (drainAt0_start d L O W _ hW _ _)
    isplitl [Hmw]; · iexact Hmw
    isplitl [HO]; · iexact HO
    iexact HB0
  iintro %_ HLp
  ihave HLp := (drainAt0_end d L O W _ (Scf.trips k0_t7_loop.lb k0_t7_loop.ub k0_t7_loop.st) rfl _) $$ HLp
  icases HLp with ⟨Hmw, ⟨%W2n, %hW2n, HO⟩, Hg0, Hall⟩
  ihave Hcl := (close0 d L k c1 (fIv d L I) (fIw_lt I d hpre _) (Tbv d m) f0w (qB L 0)) $$ [Hall HL0]
  · isplitl [Hall] <;> iassumption
  icases Hcl with ⟨%f0x, %hg0r, Hbuf0, Ht0⟩
  have hgf0x : rowsGood d L 0 (160 * (4 * k.val + 0)) (fIv d L I) (Tbv d m) f0x := by
    have hh := hg0r; rwa [show 640 * k.val + 160 * 0 = 160 * (4 * k.val + 0) from by omega] at hh
  ihave Hih := (init_head d L m (4 * k.val + 0) (by omega)) $$ Hinit
  icases Hih with ⟨Hch, Hinit⟩
  have eo0 : k0_off109 L k = ![512 * (widL L).val + 8 * (4 * k.val + 0), 0, 0] := by
    rw [off109_w L k]; congr 3 <;> omega
  ihave Hch := (init_to_chunk d L m (4 * k.val + 0) _ (k0_off109 L k) (k0_off109_inb L k c9) eo0) $$ Hch
  clear hW; have hW := hW2n

  -- buffer 3: the 160 copies of its next chunk are issued
  sl_exec
  ihave Hop := (open3 d L k c10 (fIv d L I) (fIw_lt I d hpre _) (Tbv d m) f3w (qB L 3)) $$ [Hb3 Ht3]
  · isplitl [Hb3] <;> iassumption
  icases Hop with ⟨Hin3, HL3⟩
  haveI hst3 : ∀ t, BI.Storable (upEmb : UEmb _ 𝕄) (D3 d L k c10 (fIv d L I) (fIw_lt I d hpre _) (Tbv d m) f3w (qB L 3) t) :=
    D3_storable d L k c10 (fIv d L I) (fIw_lt I d hpre _) (Tbv d m) f3w (qB L 3)
  imod (Transfers.batch_alloc' countersEmb (thr d L) (none : HIx 1) NR (D3 d L k c10 (fIv d L I) (fIw_lt I d hpre _) (Tbv d m) f3w (qB L 3)) (sm := .dma cc0_scratch5.sem) (E := Set.univ)) $$ Hg3 with HB3
  sl_for (issueAt3 d L k c10 (fIv d L I) (fIw_lt I d hpre _) (Tbv d m) f3w (qB L 3) (D3 d L k c10 (fIv d L I) (fIw_lt I d hpre _) (Tbv d m) f3w (qB L 3))) $$ [HB3 HsI Hin3]
  case region => exact fun kk acc' => issue3_step d L k c10 (fIv d L I) (fIw_lt I d hpre _) (Tbv d m) f3w (qB L 3) v1 _ _ (hDel3 d L k c10 (fIv d L I) (fIw_lt I d hpre _) (Tbv d m) f3w (qB L 3)) kk acc'
  · iapply (issueAt3_start d L k c10 (fIv d L I) (fIw_lt I d hpre _) (Tbv d m) f3w (qB L 3) _ _)
    isplitl [HB3]; · iexact HB3
    isplitl [HsI]; · iexact HsI
    iexact Hin3
  iintro %_ HLp
  ihave HLp := (issueAt3_end d L k c10 (fIv d L I) (fIw_lt I d hpre _) (Tbv d m) f3w (qB L 3) _ (Scf.trips k0_t8_loop.lb k0_t8_loop.ub k0_t8_loop.st) rfl _) $$ HLp
  icases HLp with ⟨HB3, HsI⟩

  -- buffer 1: its 160 copies are waited for, and it is written out
  sl_exec
  sl_for (drainAt1 d L O W (D1 d L k c4 (fIv d L I) (fIw_lt I d hpre _) (Tbv d m) f1w (qB L 1))) $$ [Hmw HO HB1]
  case region => exact fun kk acc' => drain1_step d L k c12 _ O W kk acc'
  · iapply (drainAt1_start d L O W _ hW _ _)
    isplitl [Hmw]; · iexact Hmw
    isplitl [HO]; · iexact HO
    iexact HB1
  iintro %_ HLp
  ihave HLp := (drainAt1_end d L O W _ (Scf.trips k0_t9_loop.lb k0_t9_loop.ub k0_t9_loop.st) rfl _) $$ HLp
  icases HLp with ⟨Hmw, ⟨%W3n, %hW3n, HO⟩, Hg1, Hall⟩
  ihave Hcl := (close1 d L k c4 (fIv d L I) (fIw_lt I d hpre _) (Tbv d m) f1w (qB L 1)) $$ [Hall HL1]
  · isplitl [Hall] <;> iassumption
  icases Hcl with ⟨%f1x, %hg1r, Hbuf1, Ht1⟩
  have hgf1x : rowsGood d L 1 (160 * (4 * k.val + 1)) (fIv d L I) (Tbv d m) f1x := by
    have hh := hg1r; rwa [show 640 * k.val + 160 * 1 = 160 * (4 * k.val + 1) from by omega] at hh
  ihave Hih := (init_head d L m (4 * k.val + 1) (by omega)) $$ Hinit
  icases Hih with ⟨Hch, Hinit⟩
  have eo1 : k0_off145 L k = ![512 * (widL L).val + 8 * (4 * k.val + 1), 0, 0] := by
    exact off145_w L k
  ihave Hch := (init_to_chunk d L m (4 * k.val + 1) _ (k0_off145 L k) (k0_off145_inb L k c12) eo1) $$ Hch
  clear hW; have hW := hW3n
  sl_exec
  sl_step
  rw [InvG_succ d L m I hpre O W k.val _ h15]
  unfold InvMid
  isplitl [Hmw HO HsI Hi Htd Hsc]
  · unfold baseI
    isplitl [Hmw]; · iexact Hmw
    isplitl [HO]
    · iexists _; isplitr
      · ipureintro; exact hW
      · iexact HO
    isplitl [HsI]; · iexact HsI
    isplitl [Hi]; · iexact Hi
    isplitl [Htd]; · iexact Htd
    iexact Hsc
  isplitl [HF0]
  · unfold wbFl0
    iexists f0x, (k0_off109 L k), (k0_off109_inb L k c9)
    isplitr
    · ipureintro; rw [eo0]; congr 3 <;> omega
    isplitr
    · ipureintro; have hh := hgf0x; rwa [show 4 * k.val + 0 = 4 * k.val from by omega] at hh
    iexact HF0
  isplitl [Hg0]; · iexact Hg0
  isplitl [Ht0]; · iexact Ht0
  isplitl [HF1]
  · unfold wbFl1
    iexists f1x, (k0_off145 L k), (k0_off145_inb L k c12)
    isplitr
    · ipureintro; exact eo1
    isplitr
    · ipureintro; have hh := hgf1x; rwa [show 4 * k.val + 1 = 4 * k.val + 1 from by omega] at hh
    iexact HF1
  isplitl [Hg1]; · iexact Hg1
  isplitl [Ht1]; · iexact Ht1
  isplitl [HB2 HL2]
  · unfold gath2; rw [dif_pos h15]
    iexists f2w
    isplitl [HB2]; · iexact HB2
    iexact HL2
  isplitl [Ho2]; · iexact Ho2
  isplitl [HB3 HL3]
  · unfold gath3; rw [dif_pos h15]
    iexists f3w
    isplitl [HB3]; · iexact HB3
    iexact HL3
  isplitl [Ho3]; · iexact Ho3
  isplitl [Hinit]
  · iapply (range_cast (chunkInit d L m) (show 4 * k.val + 0 + 1 + 1 = 4 * k.val + 2 from by omega) (rfl : (64 : ℕ) = 64)); iexact Hinit
  rw [Ring.bigSep_rangeSet_empty (NB := 64) (Φ := chunkDone d L m I) (lo := 0) (hi := 4 * k.val) (by omega)]
  iempintro

end Cert.Proof.Kernel

end
-- ==== Proof.Kernel.RegionMid.lean ====
/-
  A group of four chunks in the steady state, 1 ≤ k ≤ 15: each buffer in turn has its write-back waited for and its
  next chunk's copies issued, then the buffer two behind has its copies waited for and is written out.
-/
import proofs.«206312_g12936441495622_cont_fleet_311_30_alg».proof.Proof.Kernel.Steps
import proofs.«206312_g12936441495622_cont_fleet_311_30_alg».proof.Proof.Kernel.RegLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

set_option maxHeartbeats 128000000 in
theorem region_mid [∀ e, Nonempty (Elt F e)] (O : CellTallies nD τ sig (HIx 1)) (W : Waits sig (HIx 1)) (v1 : BitVec 32)
    (k : Fin k0_t1_loop.trips) (acc : PUnit) (h1 : 1 ≤ k.val) (h15 : k.val ≤ 15) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have c1 := cond1_pos k h15
  have c2 := cond2_pos k h1
  have c3 := cond3_pos k ⟨h1, by omega⟩
  have c4 := cond4_pos k h15
  have c5 := cond5_pos k h1
  have c6 := cond6_pos k ⟨h1, by omega⟩
  have c7 := cond7_pos k h15
  have c8 := cond8_pos k h1
  have c9 := cond9_pos k h15
  have c10 := cond10_pos k h15
  have c11 := cond11_pos k h1
  have c12 := cond12_pos k h15
  have hgp : k.val - 1 ≤ 15 := by omega
  rw [InvG_mid d L m I hpre O W k.val acc h1 (by omega)]
  unfold baseI InvMid wbFl0 wbFl1 gath2 gath3
  rw [dif_pos hgp, dif_pos hgp]
  iintro ⟨⟨Hmw, ⟨%W0, %hW, HO⟩, HsI, Hi, Htd, Hsc⟩, ⟨%f0w, %off0, %hoff0, %eoff0, %hgf0w, HF0⟩, Hg0, Ht0, ⟨%f1w, %off1, %hoff1, %eoff1, %hgf1w, HF1⟩, Hg1, Ht1, ⟨%fd2, HB2, HL2⟩, Ho2, ⟨%fd3, HB3, HL3⟩, Ho3, Hinit, Hdone⟩
  sl_unfold [k0_t1_body]

  -- buffer 0: its write-back is waited for; the 160 copies of its next chunk are issued
  sl_exec
  ihave Hdone := (done_snoc d L m I (4 * (k.val - 1) + 0) (by omega)) $$ [Hdone HF0_dst]
  · isplitl [Hdone]; · iexact Hdone
    iapply (wb_to_done0 d L m I (4 * (k.val - 1) + 0) _ off0 hoff0 eoff0 f0w hgf0w (oChunk off0 hoff0).view.junk); iexact HF0_dst
  ihave Hop := (open0 d L k c1 (fIv d L I) (fIw_lt I d hpre _) (Tbv d m) f0w (qB L 0)) $$ [HF0_src Ht0]
  · isplitl [HF0_src]; · iexact HF0_src
    iexact Ht0
  icases Hop with ⟨Hin0, HL0⟩
  haveI hst0 : ∀ t, BI.Storable (upEmb : UEmb _ 𝕄) (D0 d L k c1 (fIv d L I) (fIw_lt I d hpre _) (Tbv d m) f0w (qB L 0) t) := D0_storable d L k c1 (fIv d L I) (fIw_lt I d hpre _) (Tbv d m) f0w (qB L 0)
  imod (Transfers.batch_alloc' countersEmb (thr d L) (none : HIx 1) NR (D0 d L k c1 (fIv d L I) (fIw_lt I d hpre _) (Tbv d m) f0w (qB L 0)) (sm := .dma cc0_scratch2.sem) (E := Set.univ)) $$ Hg0 with HB0
  sl_for (issueAt0 d L k c1 (fIv d L I) (fIw_lt I d hpre _) (Tbv d m) f0w (qB L 0) (D0 d L k c1 (fIv d L I) (fIw_lt I d hpre _) (Tbv d m) f0w (qB L 0))) $$ [HB0 HsI Hin0]
  case region => exact fun kk acc' => issue0_step d L k c1 (fIv d L I) (fIw_lt I d hpre _) (Tbv d m) f0w (qB L 0) v1 _ _ (hDel0 d L k c1 (fIv d L I) (fIw_lt I d hpre _) (Tbv d m) f0w (qB L 0)) kk acc'
  · iapply (issueAt0_start d L k c1 (fIv d L I) (fIw_lt I d hpre _) (Tbv d m) f0w (qB L 0) _ _)
    isplitl [HB0]; · iexact HB0
    isplitl [HsI]; · iexact HsI
    iexact Hin0
  iintro %_ HLp
  ihave HLp := (issueAt0_end d L k c1 (fIv d L I) (fIw_lt I d hpre _) (Tbv d m) f0w (qB L 0) _ (Scf.trips k0_t2_loop.lb k0_t2_loop.ub k0_t2_loop.st) rfl _) $$ HLp
  icases HLp with ⟨HB0, HsI⟩
  -- buffer 2: its 160 copies are waited for, and it is written out
  sl_exec
  sl_for (drainAt2 d L O W (D2 d L (gOf (k.val - 1) hgp) (cond7_pos _ hgp) (fIv d L I) (fIw_lt I d hpre _) (Tbv d m) fd2 (qB L 2))) $$ [Hmw HO HB2]
  case region => exact fun kk acc' => drain2_step d L v1 k c3 _ O W kk acc'
  · iapply (drainAt2_start d L O W _ (waits_insert (SemLoc.dma cc0_scratch6.sem, (none : HIx 1)) rfl hW) _ _)
    isplitl [Hmw]; · iexact Hmw
    isplitl [HO]; · iexact HO
    iexact HB2
  iintro %_ HLp
  ihave HLp := (drainAt2_end d L O W _ (Scf.trips k0_t3_loop.lb k0_t3_loop.ub k0_t3_loop.st) rfl _) $$ HLp
  icases HLp with ⟨Hmw, ⟨%W0n, %hW0n, HO⟩, Hg2, Hall⟩
  ihave Hcl := (close2 d L (gOf (k.val - 1) hgp) (cond7_pos _ hgp) (fIv d L I) (fIw_lt I d hpre _) (Tbv d m) fd2 (qB L 2)) $$ [Hall HL2]
  · isplitl [Hall] <;> iassumption
  icases Hcl with ⟨%f2w, %hg2r, Hbuf2, Ht2⟩
  have hgf2w : rowsGood d L 2 (160 * (4 * (k.val - 1) + 2)) (fIv d L I) (Tbv d m) f2w := by
    have hh := hg2r; rwa [show 640 * (k.val - 1) + 160 * 2 = 160 * (4 * (k.val - 1) + 2) from by omega] at hh
  ihave Hih := (init_head d L m (4 * (k.val - 1) + 2) (by omega)) $$ Hinit
  icases Hih with ⟨Hch, Hinit⟩
  have eo2 : k0_off37 L k = ![512 * (widL L).val + 8 * (4 * (k.val - 1) + 2), 0, 0] := by
    rw [off37_w L k h1 (by omega)]; congr 3 <;> omega
  ihave Hch := (init_to_chunk d L m (4 * (k.val - 1) + 2) _ (k0_off37 L k) (k0_off37_inb L k c3) eo2) $$ Hch
  clear hW; have hW := hW0n

  -- buffer 1: its write-back is waited for; the 160 copies of its next chunk are issued
  sl_exec
  ihave Hdone := (done_snoc d L m I (4 * (k.val - 1) + 1) (by omega)) $$ [Hdone HF1_dst]
  · isplitl [Hdone]; · iexact Hdone
    iapply (wb_to_done1 d L m I (4 * (k.val - 1) + 1) _ off1 hoff1 eoff1 f1w hgf1w (oChunk off1 hoff1).view.junk); iexact HF1_dst
  ihave Hop := (open1 d L k c4 (fIv d L I) (fIw_lt I d hpre _) (Tbv d m) f1w (qB L 1)) $$ [HF1_src Ht1]
  · isplitl [HF1_src]; · iexact HF1_src
    iexact Ht1
  icases Hop with ⟨Hin1, HL1⟩
  haveI hst1 : ∀ t, BI.Storable (upEmb : UEmb _ 𝕄) (D1 d L k c4 (fIv d L I) (fIw_lt I d hpre _) (Tbv d m) f1w (qB L 1) t) := D1_storable d L k c4 (fIv d L I) (fIw_lt I d hpre _) (Tbv d m) f1w (qB L 1)
  imod (Transfers.batch_alloc' countersEmb (thr d L) (none : HIx 1) NR (D1 d L k c4 (fIv d L I) (fIw_lt I d hpre _) (Tbv d m) f1w (qB L 1)) (sm := .dma cc0_scratch3.sem) (E := Set.univ)) $$ Hg1 with HB1
  sl_for (issueAt1 d L k c4 (fIv d L I) (fIw_lt I d hpre _) (Tbv d m) f1w (qB L 1) (D1 d L k c4 (fIv d L I) (fIw_lt I d hpre _) (Tbv d m) f1w (qB L 1))) $$ [HB1 HsI Hin1]
  case region => exact fun kk acc' => issue1_step d L k c4 (fIv d L I) (fIw_lt I d hpre _) (Tbv d m) f1w (qB L 1) v1 _ _ (hDel1 d L k c4 (fIv d L I) (fIw_lt I d hpre _) (Tbv d m) f1w (qB L 1)) kk acc'
  · iapply (issueAt1_start d L k c4 (fIv d L I) (fIw_lt I d hpre _) (Tbv d m) f1w (qB L 1) _ _)
    isplitl [HB1]; · iexact HB1
    isplitl [HsI]; · iexact HsI
    iexact Hin1
  iintro %_ HLp
  ihave HLp := (issueAt1_end d L k c4 (fIv d L I) (fIw_lt I d hpre _) (Tbv d m) f1w (qB L 1) _ (Scf.trips k0_t4_loop.lb k0_t4_loop.ub k0_t4_loop.st) rfl _) $$ HLp
  icases HLp with ⟨HB1, HsI⟩
  -- buffer 3: its 160 copies are waited for, and it is written out
  sl_exec
  sl_for (drainAt3 d L O W (D3 d L (gOf (k.val - 1) hgp) (cond10_pos _ hgp) (fIv d L I) (fIw_lt I d hpre _) (Tbv d m) fd3 (qB L 3))) $$ [Hmw HO HB3]
  case region => exact fun kk acc' => drain3_step d L v1 k c6 _ O W kk acc'
  · iapply (drainAt3_start d L O W _ (waits_insert (SemLoc.dma cc0_scratch7.sem, (none : HIx 1)) rfl hW) _ _)
    isplitl [Hmw]; · iexact Hmw
    isplitl [HO]; · iexact HO
    iexact HB3
  iintro %_ HLp
  ihave HLp := (drainAt3_end d L O W _ (Scf.trips k0_t5_loop.lb k0_t5_loop.ub k0_t5_loop.st) rfl _) $$ HLp
  icases HLp with ⟨Hmw, ⟨%W1n, %hW1n, HO⟩, Hg3, Hall⟩
  ihave Hcl := (close3 d L (gOf (k.val - 1) hgp) (cond10_pos _ hgp) (fIv d L I) (fIw_lt I d hpre _) (Tbv d m) fd3 (qB L 3)) $$ [Hall HL3]
  · isplitl [Hall] <;> iassumption
  icases Hcl with ⟨%f3w, %hg3r, Hbuf3, Ht3⟩
  have hgf3w : rowsGood d L 3 (160 * (4 * (k.val - 1) + 3)) (fIv d L I) (Tbv d m) f3w := by
    have hh := hg3r; rwa [show 640 * (k.val - 1) + 160 * 3 = 160 * (4 * (k.val - 1) + 3) from by omega] at hh
  ihave Hih := (init_head d L m (4 * (k.val - 1) + 3) (by omega)) $$ Hinit
  icases Hih with ⟨Hch, Hinit⟩
  have eo3 : k0_off73 L k = ![512 * (widL L).val + 8 * (4 * (k.val - 1) + 3), 0, 0] := by
    rw [off73_w L k h1 (by omega)]; congr 3 <;> omega
  ihave Hch := (init_to_chunk d L m (4 * (k.val - 1) + 3) _ (k0_off73 L k) (k0_off73_inb L k c6) eo3) $$ Hch
  clear hW; have hW := hW1n

  -- buffer 2: its write-back is waited for; the 160 copies of its next chunk are issued
  sl_exec
  ihave Hdone := (done_snoc d L m I (4 * (k.val - 1) + 2) (by omega)) $$ [Hdone Hch]
  · isplitl [Hdone]; · iexact Hdone
    iapply (wb_to_done2 d L m I (4 * (k.val - 1) + 2) _ (k0_off37 L k) (k0_off37_inb L k c3) eo2 f2w hgf2w (oChunk (k0_off37 L k) (k0_off37_inb L k c3)).view.junk); iexact Hch
  ihave Hop := (open2 d L k c7 (fIv d L I) (fIw_lt I d hpre _) (Tbv d m) f2w (qB L 2)) $$ [Hbuf2 Ht2]
  · isplitl [Hbuf2]; · iexact Hbuf2
    iexact Ht2
  icases Hop with ⟨Hin2, HL2⟩
  haveI hst2 : ∀ t, BI.Storable (upEmb : UEmb _ 𝕄) (D2 d L k c7 (fIv d L I) (fIw_lt I d hpre _) (Tbv d m) f2w (qB L 2) t) := D2_storable d L k c7 (fIv d L I) (fIw_lt I d hpre _) (Tbv d m) f2w (qB L 2)
  imod (Transfers.batch_alloc' countersEmb (thr d L) (none : HIx 1) NR (D2 d L k c7 (fIv d L I) (fIw_lt I d hpre _) (Tbv d m) f2w (qB L 2)) (sm := .dma cc0_scratch4.sem) (E := Set.univ)) $$ Hg2 with HB2
  sl_for (issueAt2 d L k c7 (fIv d L I) (fIw_lt I d hpre _) (Tbv d m) f2w (qB L 2) (D2 d L k c7 (fIv d L I) (fIw_lt I d hpre _) (Tbv d m) f2w (qB L 2))) $$ [HB2 HsI Hin2]
  case region => exact fun kk acc' => issue2_step d L k c7 (fIv d L I) (fIw_lt I d hpre _) (Tbv d m) f2w (qB L 2) v1 _ _ (hDel2 d L k c7 (fIv d L I) (fIw_lt I d hpre _) (Tbv d m) f2w (qB L 2)) kk acc'
  · iapply (issueAt2_start d L k c7 (fIv d L I) (fIw_lt I d hpre _) (Tbv d m) f2w (qB L 2) _ _)
    isplitl [HB2]; · iexact HB2
    isplitl [HsI]; · iexact HsI
    iexact Hin2
  iintro %_ HLp
  ihave HLp := (issueAt2_end d L k c7 (fIv d L I) (fIw_lt I d hpre _) (Tbv d m) f2w (qB L 2) _ (Scf.trips k0_t6_loop.lb k0_t6_loop.ub k0_t6_loop.st) rfl _) $$ HLp
  icases HLp with ⟨HB2, HsI⟩
  -- buffer 0: its 160 copies are waited for, and it is written out
  sl_exec
  sl_for (drainAt0 d L O W (D0 d L k c1 (fIv d L I) (fIw_lt I d hpre _) (Tbv d m) f0w (qB L 0))) $$ [Hmw HO HB0]
  case region => exact fun kk acc' => drain0_step d L k c9 _ O W kk acc'
  · iapply (drainAt0_start d L O W _ (waits_insert (SemLoc.dma cc0_scratch8.sem, (none : HIx 1)) rfl hW) _ _)
    isplitl [Hmw]; · iexact Hmw
    isplitl [HO]; · iexact HO
    iexact HB0
  iintro %_ HLp
  ihave HLp := (drainAt0_end d L O W _ (Scf.trips k0_t7_loop.lb k0_t7_loop.ub k0_t7_loop.st) rfl _) $$ HLp
  icases HLp with ⟨Hmw, ⟨%W2n, %hW2n, HO⟩, Hg0, Hall⟩
  ihave Hcl := (close0 d L k c1 (fIv d L I) (fIw_lt I d hpre _) (Tbv d m) f0w (qB L 0)) $$ [Hall HL0]
  · isplitl [Hall] <;> iassumption
  icases Hcl with ⟨%f0x, %hg0r, Hbuf0, Ht0⟩
  have hgf0x : rowsGood d L 0 (160 * (4 * (k.val - 1) + 4)) (fIv d L I) (Tbv d m) f0x := by
    have hh := hg0r; rwa [show 640 * k.val + 160 * 0 = 160 * (4 * (k.val - 1) + 4) from by omega] at hh
  ihave Hih := (init_head d L m (4 * (k.val - 1) + 4) (by omega)) $$ Hinit
  icases Hih with ⟨Hch, Hinit⟩
  have eo0 : k0_off109 L k = ![512 * (widL L).val + 8 * (4 * (k.val - 1) + 4), 0, 0] := by
    rw [off109_w L k]; congr 3 <;> omega
  ihave Hch := (init_to_chunk d L m (4 * (k.val - 1) + 4) _ (k0_off109 L k) (k0_off109_inb L k c9) eo0) $$ Hch
  clear hW; have hW := hW2n

  -- buffer 3: its write-back is waited for; the 160 copies of its next chunk are issued
  sl_exec
  ihave Hdone := (done_snoc d L m I (4 * (k.val - 1) + 3) (by omega)) $$ [Hdone Hch]
  · isplitl [Hdone]; · iexact Hdone
    iapply (wb_to_done3 d L m I (4 * (k.val - 1) + 3) _ (k0_off73 L k) (k0_off73_inb L k c6) eo3 f3w hgf3w (oChunk (k0_off73 L k) (k0_off73_inb L k c6)).view.junk); iexact Hch
  ihave Hop := (open3 d L k c10 (fIv d L I) (fIw_lt I d hpre _) (Tbv d m) f3w (qB L 3)) $$ [Hbuf3 Ht3]
  · isplitl [Hbuf3]; · iexact Hbuf3
    iexact Ht3
  icases Hop with ⟨Hin3, HL3⟩
  haveI hst3 : ∀ t, BI.Storable (upEmb : UEmb _ 𝕄) (D3 d L k c10 (fIv d L I) (fIw_lt I d hpre _) (Tbv d m) f3w (qB L 3) t) := D3_storable d L k c10 (fIv d L I) (fIw_lt I d hpre _) (Tbv d m) f3w (qB L 3)
  imod (Transfers.batch_alloc' countersEmb (thr d L) (none : HIx 1) NR (D3 d L k c10 (fIv d L I) (fIw_lt I d hpre _) (Tbv d m) f3w (qB L 3)) (sm := .dma cc0_scratch5.sem) (E := Set.univ)) $$ Hg3 with HB3
  sl_for (issueAt3 d L k c10 (fIv d L I) (fIw_lt I d hpre _) (Tbv d m) f3w (qB L 3) (D3 d L k c10 (fIv d L I) (fIw_lt I d hpre _) (Tbv d m) f3w (qB L 3))) $$ [HB3 HsI Hin3]
  case region => exact fun kk acc' => issue3_step d L k c10 (fIv d L I) (fIw_lt I d hpre _) (Tbv d m) f3w (qB L 3) v1 _ _ (hDel3 d L k c10 (fIv d L I) (fIw_lt I d hpre _) (Tbv d m) f3w (qB L 3)) kk acc'
  · iapply (issueAt3_start d L k c10 (fIv d L I) (fIw_lt I d hpre _) (Tbv d m) f3w (qB L 3) _ _)
    isplitl [HB3]; · iexact HB3
    isplitl [HsI]; · iexact HsI
    iexact Hin3
  iintro %_ HLp
  ihave HLp := (issueAt3_end d L k c10 (fIv d L I) (fIw_lt I d hpre _) (Tbv d m) f3w (qB L 3) _ (Scf.trips k0_t8_loop.lb k0_t8_loop.ub k0_t8_loop.st) rfl _) $$ HLp
  icases HLp with ⟨HB3, HsI⟩
  -- buffer 1: its 160 copies are waited for, and it is written out
  sl_exec
  sl_for (drainAt1 d L O W (D1 d L k c4 (fIv d L I) (fIw_lt I d hpre _) (Tbv d m) f1w (qB L 1))) $$ [Hmw HO HB1]
  case region => exact fun kk acc' => drain1_step d L k c12 _ O W kk acc'
  · iapply (drainAt1_start d L O W _ (waits_insert (SemLoc.dma cc0_scratch9.sem, (none : HIx 1)) rfl hW) _ _)
    isplitl [Hmw]; · iexact Hmw
    isplitl [HO]; · iexact HO
    iexact HB1
  iintro %_ HLp
  ihave HLp := (drainAt1_end d L O W _ (Scf.trips k0_t9_loop.lb k0_t9_loop.ub k0_t9_loop.st) rfl _) $$ HLp
  icases HLp with ⟨Hmw, ⟨%W3n, %hW3n, HO⟩, Hg1, Hall⟩
  ihave Hcl := (close1 d L k c4 (fIv d L I) (fIw_lt I d hpre _) (Tbv d m) f1w (qB L 1)) $$ [Hall HL1]
  · isplitl [Hall] <;> iassumption
  icases Hcl with ⟨%f1x, %hg1r, Hbuf1, Ht1⟩
  have hgf1x : rowsGood d L 1 (160 * (4 * (k.val - 1) + 5)) (fIv d L I) (Tbv d m) f1x := by
    have hh := hg1r; rwa [show 640 * k.val + 160 * 1 = 160 * (4 * (k.val - 1) + 5) from by omega] at hh
  ihave Hih := (init_head d L m (4 * (k.val - 1) + 5) (by omega)) $$ Hinit
  icases Hih with ⟨Hch, Hinit⟩
  have eo1 : k0_off145 L k = ![512 * (widL L).val + 8 * (4 * (k.val - 1) + 5), 0, 0] := by
    rw [off145_w L k]; congr 3 <;> omega
  ihave Hch := (init_to_chunk d L m (4 * (k.val - 1) + 5) _ (k0_off145 L k) (k0_off145_inb L k c12) eo1) $$ Hch
  clear hW; have hW := hW3n
  sl_exec
  sl_step
  rw [InvG_succ d L m I hpre O W k.val _ h15]
  unfold InvMid
  isplitl [Hmw HO HsI Hi Htd Hsc]
  · unfold baseI
    isplitl [Hmw]; · iexact Hmw
    isplitl [HO]
    · iexists _; isplitr
      · ipureintro; exact hW
      · iexact HO
    isplitl [HsI]; · iexact HsI
    isplitl [Hi]; · iexact Hi
    isplitl [Htd]; · iexact Htd
    iexact Hsc
  isplitl [HF0]
  · unfold wbFl0
    iexists f0x, (k0_off109 L k), (k0_off109_inb L k c9)
    isplitr
    · ipureintro; rw [eo0]; congr 3 <;> omega
    isplitr
    · ipureintro; have hh := hgf0x; rwa [show 4 * (k.val - 1) + 4 = 4 * k.val from by omega] at hh
    iexact HF0
  isplitl [Hg0]; · iexact Hg0
  isplitl [Ht0]; · iexact Ht0
  isplitl [HF1]
  · unfold wbFl1
    iexists f1x, (k0_off145 L k), (k0_off145_inb L k c12)
    isplitr
    · ipureintro; rw [eo1]; congr 3 <;> omega
    isplitr
    · ipureintro; have hh := hgf1x; rwa [show 4 * (k.val - 1) + 5 = 4 * k.val + 1 from by omega] at hh
    iexact HF1
  isplitl [Hg1]; · iexact Hg1
  isplitl [Ht1]; · iexact Ht1
  isplitl [HB2 HL2]
  · unfold gath2; rw [dif_pos h15]
    iexists f2w
    isplitl [HB2]; · iexact HB2
    iexact HL2
  isplitl [Ho2]; · iexact Ho2
  isplitl [HB3 HL3]
  · unfold gath3; rw [dif_pos h15]
    iexists f3w
    isplitl [HB3]; · iexact HB3
    iexact HL3
  isplitl [Ho3]; · iexact Ho3
  isplitl [Hinit]
  · iapply (range_cast (chunkInit d L m) (show 4 * (k.val - 1) + 5 + 1 = 4 * k.val + 2 from by omega) (rfl : (64 : ℕ) = 64)); iexact Hinit
  iapply (range_cast (chunkDone d L m I) (rfl : (0 : ℕ) = 0) (show 4 * (k.val - 1) + 3 + 1 = 4 * k.val from by omega)); iexact Hdone

end Cert.Proof.Kernel

end
-- ==== Proof.Kernel.RegionLast.lean ====
/-
  The last group, k = 16: no chunk is left to issue; buffers 2 and 3 are waited for and written out (chunks 62 and
  63), and the four last write-backs stay in flight.
-/
import proofs.«206312_g12936441495622_cont_fleet_311_30_alg».proof.Proof.Kernel.Steps
import proofs.«206312_g12936441495622_cont_fleet_311_30_alg».proof.Proof.Kernel.RegLib

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

set_option maxHeartbeats 128000000 in
theorem region_last [∀ e, Nonempty (Elt F e)] (O : CellTallies nD τ sig (HIx 1)) (W : Waits sig (HIx 1)) (v1 : BitVec 32)
    (k : Fin k0_t1_loop.trips) (acc : PUnit) (hk : k.val = 16) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have h1 : 1 ≤ k.val := by omega
  have c3 := cond3_pos k ⟨by omega, by omega⟩
  have c6 := cond6_pos k ⟨by omega, by omega⟩
  have n1 := cond1_neg k (by omega)
  have n4 := cond4_neg k (by omega)
  have n7 := cond7_neg k (by omega)
  have n9 := cond9_neg k (by omega)
  have n10 := cond10_neg k (by omega)
  have n12 := cond12_neg k (by omega)
  have hgp : k.val - 1 ≤ 15 := by omega
  rw [InvG_mid d L m I hpre O W k.val acc h1 (by omega)]
  unfold baseI InvMid gath2 gath3
  rw [dif_pos hgp, dif_pos hgp]
  iintro ⟨⟨Hmw, ⟨%W0, %hW, HO⟩, HsI, Hi, Htd, Hsc⟩, HW0, Hg0, Ht0, HW1, Hg1, Ht1, ⟨%fd2, HB2, HL2⟩, Ho2, ⟨%fd3, HB3, HL3⟩, Ho3, Hinit, Hdone⟩
  sl_unfold [k0_t1_body]

  -- buffer 2: its 160 copies are waited for, and it is written out
  sl_exec
  sl_for (drainAt2 d L O W (D2 d L (gOf (k.val - 1) hgp) (cond7_pos _ hgp) (fIv d L I) (fIw_lt I d hpre _) (Tbv d m) fd2 (qB L 2))) $$ [Hmw HO HB2]
  case region => exact fun kk acc' => drain2_step d L v1 k c3 _ O W kk acc'
  · iapply (drainAt2_start d L O W _ hW _ _)
    isplitl [Hmw]; · iexact Hmw
    isplitl [HO]; · iexact HO
    iexact HB2
  iintro %_ HLp
  ihave HLp := (drainAt2_end d L O W _ (Scf.trips k0_t3_loop.lb k0_t3_loop.ub k0_t3_loop.st) rfl _) $$ HLp
  icases HLp with ⟨Hmw, ⟨%W0n, %hW0n, HO⟩, Hg2, Hall⟩
  ihave Hcl := (close2 d L (gOf (k.val - 1) hgp) (cond7_pos _ hgp) (fIv d L I) (fIw_lt I d hpre _) (Tbv d m) fd2 (qB L 2)) $$ [Hall HL2]
  · isplitl [Hall] <;> iassumption
  icases Hcl with ⟨%f2w, %hg2r, Hbuf2, Ht2⟩
  have hgf2w : rowsGood d L 2 (160 * (4 * (k.val - 1) + 2)) (fIv d L I) (Tbv d m) f2w := by
    have hh := hg2r; rwa [show 640 * (k.val - 1) + 160 * 2 = 160 * (4 * (k.val - 1) + 2) from by omega] at hh
  ihave Hih := (init_head d L m (4 * (k.val - 1) + 2) (by omega)) $$ Hinit
  icases Hih with ⟨Hch, Hinit⟩
  have eo2 : k0_off37 L k = ![512 * (widL L).val + 8 * (4 * (k.val - 1) + 2), 0, 0] := by
    rw [off37_w L k h1 (by omega)]; congr 3 <;> omega
  ihave Hch := (init_to_chunk d L m (4 * (k.val - 1) + 2) _ (k0_off37 L k) (k0_off37_inb L k c3) eo2) $$ Hch
  clear hW; have hW := hW0n

  -- buffer 3: its 160 copies are waited for, and it is written out
  sl_exec
  sl_for (drainAt3 d L O W (D3 d L (gOf (k.val - 1) hgp) (cond10_pos _ hgp) (fIv d L I) (fIw_lt I d hpre _) (Tbv d m) fd3 (qB L 3))) $$ [Hmw HO HB3]
  case region => exact fun kk acc' => drain3_step d L v1 k c6 _ O W kk acc'
  · iapply (drainAt3_start d L O W _ hW _ _)
    isplitl [Hmw]; · iexact Hmw
    isplitl [HO]; · iexact HO
    iexact HB3
  iintro %_ HLp
  ihave HLp := (drainAt3_end d L O W _ (Scf.trips k0_t5_loop.lb k0_t5_loop.ub k0_t5_loop.st) rfl _) $$ HLp
  icases HLp with ⟨Hmw, ⟨%W1n, %hW1n, HO⟩, Hg3, Hall⟩
  ihave Hcl := (close3 d L (gOf (k.val - 1) hgp) (cond10_pos _ hgp) (fIv d L I) (fIw_lt I d hpre _) (Tbv d m) fd3 (qB L 3)) $$ [Hall HL3]
  · isplitl [Hall] <;> iassumption
  icases Hcl with ⟨%f3w, %hg3r, Hbuf3, Ht3⟩
  have hgf3w : rowsGood d L 3 (160 * (4 * (k.val - 1) + 3)) (fIv d L I) (Tbv d m) f3w := by
    have hh := hg3r; rwa [show 640 * (k.val - 1) + 160 * 3 = 160 * (4 * (k.val - 1) + 3) from by omega] at hh
  ihave Hih := (init_head d L m (4 * (k.val - 1) + 3) (by omega)) $$ Hinit
  icases Hih with ⟨Hch, Hinit⟩
  have eo3 : k0_off73 L k = ![512 * (widL L).val + 8 * (4 * (k.val - 1) + 3), 0, 0] := by
    rw [off73_w L k h1 (by omega)]; congr 3 <;> omega
  ihave Hch := (init_to_chunk d L m (4 * (k.val - 1) + 3) _ (k0_off73 L k) (k0_off73_inb L k c6) eo3) $$ Hch
  clear hW; have hW := hW1n
  sl_exec
  sl_step
  rw [InvG_end d L m I hpre O W (k.val + 1) _ (by omega)]
  unfold InvEnd
  isplitl [Hmw HO HsI Hi Htd Hsc]
  · unfold baseI
    isplitl [Hmw]; · iexact Hmw
    isplitl [HO]
    · iexists _; isplitr
      · ipureintro; exact hW
      · iexact HO
    isplitl [HsI]; · iexact HsI
    isplitl [Hi]; · iexact Hi
    isplitl [Htd]; · iexact Htd
    iexact Hsc
  isplitl [HW0]
  · iapply (Entails.of_eq (congrArg (wbFl0 d L m I) (show 4 * (k.val - 1) = 60 from by omega))); iexact HW0
  isplitl [Hg0]; · iexact Hg0
  isplitl [Ht0]; · iexact Ht0
  isplitl [HW1]
  · iapply (Entails.of_eq (congrArg (wbFl1 d L m I) (show 4 * (k.val - 1) + 1 = 61 from by omega))); iexact HW1
  isplitl [Hg1]; · iexact Hg1
  isplitl [Ht1]; · iexact Ht1
  isplitl [Ho2]
  · unfold wbFl2
    iexists f2w, (k0_off37 L k), (k0_off37_inb L k c3)
    isplitr
    · ipureintro; rw [eo2]; congr 3 <;> omega
    isplitr
    · ipureintro; have hh := hgf2w; rwa [show 4 * (k.val - 1) + 2 = 62 from by omega] at hh
    iexact Ho2
  isplitl [Hg2]; · iexact Hg2
  isplitl [Ht2]; · iexact Ht2
  isplitl [Ho3]
  · unfold wbFl3
    iexists f3w, (k0_off73 L k), (k0_off73_inb L k c6)
    isplitr
    · ipureintro; rw [eo3]; congr 3 <;> omega
    isplitr
    · ipureintro; have hh := hgf3w; rwa [show 4 * (k.val - 1) + 3 = 63 from by omega] at hh
    iexact Ho3
  isplitl [Hg3]; · iexact Hg3
  isplitl [Ht3]; · iexact Ht3
  icases Hinit with -
  iapply (range_cast (chunkDone d L m I) (rfl : (0 : ℕ) = 0) (show 4 * (k.val - 1) = 60 from by omega)); iexact Hdone

end Cert.Proof.Kernel

end
-- ==== Proof.Kernel.Regions.lean ====
/-
  Any group of the loop: the first, a steady one, or the last.
-/
import proofs.«206312_g12936441495622_cont_fleet_311_30_alg».proof.Proof.Kernel.RegionFirst
import proofs.«206312_g12936441495622_cont_fleet_311_30_alg».proof.Proof.Kernel.RegionMid
import proofs.«206312_g12936441495622_cont_fleet_311_30_alg».proof.Proof.Kernel.RegionLast

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

theorem region [∀ e, Nonempty (Elt F e)] (O : CellTallies nD τ sig (HIx 1)) (W : Waits sig (HIx 1)) (v1 : BitVec 32)
    (k : Fin k0_t1_loop.trips) (acc : PUnit) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have hk : k.val < 17 := k.isLt
  rcases Nat.eq_zero_or_pos k.val with h0 | hpos
  · exact region_first d L m I hpre O W v1 k acc h0
  · rcases Nat.lt_or_ge k.val 16 with hlt | hge
    · exact region_mid d L m I hpre O W v1 k acc hpos (by omega)
    · exact region_last d L m I hpre O W v1 k acc (by omega)

end Cert.Proof.Kernel

end
-- ==== Proof.Kernel.Core.lean ====
/-
  The task, whole: the token fetch, the seventeen groups of the loop, the four last waits.
-/
import proofs.«206312_g12936441495622_cont_fleet_311_30_alg».proof.Proof.Kernel.CoreOf
import proofs.«206312_g12936441495622_cont_fleet_311_30_alg».proof.Proof.Kernel.Regions

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)
variable (m : (ℓ : Loc nD τ sig) → Buf (Elt F) ℓ) (I : (d : Dev nD) → Buf (Elt F) (idxLoc d))

theorem tile_core [∀ e, Nonempty (Elt F e)] (hpre : PreOK I) (O : CellTallies nD τ sig (HIx 1)) (W : Waits sig (HIx 1)) (hO : ∀ g, O g none = 0) :
    corePre d L m I O W
      ⊢ wp frame (wpE (defs₀ (F := F)) 𝒱₀ (thr d L) none) Set.univ
          (cc0__emb_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => corePost d L m I O W :=
  tile_core_of d L m I hpre O W hO (fun W₁ v1 k acc => region d L m I hpre O W₁ v1 k acc)

end Cert.Proof.Kernel

end
-- ==== Proof.Kernel.Body.lean ====
/-
  The task of one worker as the launch asks it: on vector subcore s of SparseCore c, from the worker's piece of
  the operands and the subcore's scoped storage, the kernel's body runs to the worker's piece with its block of the
  output done, the scoped storage back. The subcore's own buffers are the two scratch buffers and the rest; its own
  semaphores at zero are the nine the body names and the rest; the body's run over those named resources is the
  core statement, and everything else is carried around it.
-/
import proofs.«206312_g12936441495622_cont_fleet_311_30_alg».proof.Proof.Kernel.Core

set_option pp.maxSteps 20000
set_option pp.deepTerms false

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_v0_scv : Memref Cert.Kernel.sig Kind.scVector Space.hbm Cert.Kernel.S32x10240 EltTy.i32)
local notation "tV" => (Memref.whole Cert.Kernel.main_arg1_scv : Memref Cert.Kernel.sig Kind.scVector Space.hbm Cert.Kernel.S1000000x64 EltTy.f32)
local notation "oV" => (Memref.whole Cert.Kernel.main_v1_scv : Memref Cert.Kernel.sig Kind.scVector Space.hbm Cert.Kernel.S16384x20x128 EltTy.f32)
local notation "sI" => (Memref.whole Cert.Kernel.cc0_scratch0 : Memref Cert.Kernel.sig Kind.scVector Space.vmem Cert.Kernel.S10240 EltTy.i32)
local notation "sR" => (Memref.whole Cert.Kernel.cc0_scratch1 : Memref Cert.Kernel.sig Kind.scVector Space.vmem Cert.Kernel.S4x160x128 EltTy.f32)

variable [FloatOps F] (d : Dev nD) (L : grid0.Coords)

omit [FloatOps F] in
/-- Cells of one thread on distinct semaphores are distinct. -/
theorem cell_ne {a b : DmaSem sig} (h : (SemLoc.dma a : SemLoc sig) ≠ SemLoc.dma b) : cell d L a ≠ cell d L b :=
  fun e => h (congrArg Prod.snd e)

omit [FloatOps F] in
/-- The scratch buffers as the body addresses them are the subcore's own two. -/
theorem pts_sIb (f : Buf (Elt F) ((thr d L).loc cc0_scratch0)) :
    ((sI).view.loc (thr d L) ↦{fullShare} f : sProp 𝕄) = (thr d L).loc cc0_scratch0 ↦{fullShare} f := rfl
omit [FloatOps F] in
theorem pts_sRb (f : Buf (Elt F) ((thr d L).loc cc0_scratch1)) :
    ((sR).view.loc (thr d L) ↦{fullShare} f : sProp 𝕄) = (thr d L).loc cc0_scratch1 ↦{fullShare} f := rfl

omit [FloatOps F] in
/-- The subcore's own semaphores at zero: the nine the body names, and the rest. -/
theorem ownSems0_V :
    (ownSems0 (thr d L) : sProp 𝕄)
      = iprop(semVal (cell d L cc0_scratch2.sem) 0 ∗ semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0 ∗ semVal (cell d L cc0_scratch9.sem) 0 ∗ semVal (cell d L cc0_scoped0.sem) 0
          ∗ bigSep ((((((((((ownCells (thr d L)).erase (cell d L cc0_scratch2.sem)).erase (cell d L cc0_scratch3.sem)).erase (cell d L cc0_scratch4.sem)).erase (cell d L cc0_scratch5.sem)).erase (cell d L cc0_scratch6.sem)).erase (cell d L cc0_scratch7.sem)).erase (cell d L cc0_scratch8.sem)).erase (cell d L cc0_scratch9.sem)).erase (cell d L cc0_scoped0.sem)) fun g => semVal g 0) := by
  unfold SparseCore.Cfg.ownSems0
  rw [SparseCore.bigSep_erase' ((mem_ownCells (g := cell d L cc0_scratch2.sem)).mpr ⟨rfl, by show (SemLoc.dma cc0_scratch2.sem : SemLoc sig).isScoped .scVector = true; decide⟩),
    SparseCore.bigSep_erase' (Finset.mem_erase.mpr ⟨cell_ne d L (by decide), (mem_ownCells (g := cell d L cc0_scratch3.sem)).mpr ⟨rfl, by show (SemLoc.dma cc0_scratch3.sem : SemLoc sig).isScoped .scVector = true; decide⟩⟩),
    SparseCore.bigSep_erase' (Finset.mem_erase.mpr ⟨cell_ne d L (by decide), Finset.mem_erase.mpr ⟨cell_ne d L (by decide), (mem_ownCells (g := cell d L cc0_scratch4.sem)).mpr ⟨rfl, by show (SemLoc.dma cc0_scratch4.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc0_scratch5.sem)).mpr ⟨rfl, by show (SemLoc.dma cc0_scratch5.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch6.sem)).mpr ⟨rfl, by show (SemLoc.dma cc0_scratch6.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch7.sem)).mpr ⟨rfl, by show (SemLoc.dma cc0_scratch7.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch8.sem)).mpr ⟨rfl, by show (SemLoc.dma cc0_scratch8.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch9.sem)).mpr ⟨rfl, by show (SemLoc.dma cc0_scratch9.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scoped0.sem)).mpr ⟨rfl, by show (SemLoc.dma cc0_scoped0.sem : SemLoc sig).isScoped .scVector = true; decide⟩⟩⟩⟩⟩⟩⟩⟩⟩)]

omit [FloatOps F] in
/-- The subcore's own buffers: the two scratch buffers, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (m : (ℓ : Loc nD τ sig) → Buf (Elt F) ℓ) (I : (d : Dev nD) → Buf (Elt F) (idxLoc d))

set_option maxHeartbeats 4000000 in
/-- The task on the vector subcore of grid point L: the scoped storage opened into the named buffers and semaphores,
    the body run over them, everything put back. -/
theorem tile_body [∀ e, Nonempty (Elt F e)] (hpre : PreOK I) (O : CellTallies nD τ sig (HIx 1)) (W : Waits sig (HIx 1)) (hO : ∀ g, O g none = 0) :
    iprop(levAts (K (F := F)).L (K (F := F)).lev ∗ emp ∗ goPiece m I d (widL L)
        ∗ scopedBufs (thr d L) ∗ scopedSems0 (thr d L) ∗ owes (thr d L) O W)
      ⊢ wp frame (wpE (defs₀ (F := F)) 𝒱₀ (thr d L) none) Set.univ
          (cc0__emb_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => iprop(tdPiece m I d (widL L) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨Hlv, -, Hgo, ⟨⟨%fs, Hs⟩, ⟨%fr, Hr⟩, Hbufs⟩, ⟨H2, H3, H4, H5, H6, H7, H8, H9, H0, Hsems⟩, HO⟩
  iapply (wp_wand_r Idealize.ShloMosaic.frame (wpE (defs₀ (F := F)) 𝒱₀ (thr d L) none) Set.univ)
  isplitl [Hlv Hgo Hs Hr H2 H3 H4 H5 H6 H7 H8 H9 H0 HO]
  · iapply (tile_core d L m I hpre O W hO)
    isplitl [Hlv]; · iexact Hlv
    isplitl [Hgo]; · iexact Hgo
    isplitl [Hs]; · iexists fs; iapply (Entails.of_eq (pts_sIb (F := F) d L _).symm); iexact Hs
    isplitl [Hr]; · iexists fr; iapply (Entails.of_eq (pts_sRb (F := F) d L _).symm); iexact Hr
    isplitl [H2 H3 H4 H5 H6 H7 H8 H9 H0]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H0
    iexact HO
  iintro %_ ⟨Htd, ⟨%fs', Hs⟩, ⟨%fr', Hr⟩, ⟨H2, H3, H4, H5, H6, H7, H8, H9, H0⟩, HW⟩
  isplitl [Htd]; · iexact Htd
  isplitl [Hs Hr Hbufs]
  · isplitl [Hs]; · iexists fs'; iapply (Entails.of_eq (pts_sIb (F := F) d L _)); iexact Hs
    isplitl [Hr]; · iexists fr'; iapply (Entails.of_eq (pts_sRb (F := F) d L _)); iexact Hr
    iexact Hbufs
  isplitl [H2 H3 H4 H5 H6 H7 H8 H9 H0 Hsems]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H0]; · iexact H0
    iexact Hsems
  iexact HW

/-! ## The obligation -/

/-- The grid point of subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          iV (Memref.isWhole_whole _) tV (Memref.isWhole_whole _) oV (Memref.isWhole_whole _)
          sI (Memref.isWhole_whole _) sR (Memref.isWhole_whole _) cc0_scratch2 cc0_scratch3 cc0_scratch4 cc0_scratch5 cc0_scratch6 cc0_scratch7 cc0_scratch8 cc0_scratch9 cc0_scoped0) ⟨⟩ c s := rfl

omit [FloatOps F] in
/-- Waits recorded at the index that needs no round are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hpre : PreOK I) : (K (F := F)).TileObl (D (F := F)) 𝒱 (P m I) v₀ 0 := by
  intro d c i O W hO _ _
  simp only [show (P m I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m I hpre O W hO).trans (wp_mono frame _ _ fun _ => obl_post)

end Cert.Proof.Kernel

end
-- ==== Proof.KernelIdeal.Common.lean ====
/-
  What the launch and the task share: the program as the launch theorem sees it, the ghost state (the handshakes'
  rounds beside the transfers' counters), the arrays' locations, how the arrays split among the thirty-two workers
  (worker `2 s + c` is vector subcore `s` of SparseCore `c`: it owns row `2 s + c` of the reshaped tokens and
  rows `512 (2 s + c) …` of the output, and reads the whole table at a share of its own), and what a worker's block of
  the output must hold when it is done: in its first 64 columns, the table's rows its tokens name.
-/
import proofs.«206312_g12936441495622_cont_fleet_311_30_alg».proof.KernelIdeal
import proofs.«206312_g12936441495622_cont_fleet_311_30_alg».proof.Proof.Spec
import proofs.«206312_g12936441495622_cont_fleet_311_30_alg».proof.Proof.Gen.KernelIdeal
import Idealize.ShloMosaic.Lib.SparseCore.Launch
import Idealize.ShloMosaic.Lib.Pipeline.Kit
import Idealize.ShloMosaic.Lib.Batch
import Idealize.ShloMosaic.Lib.ValueIdx
import Idealize.ShloMosaic.Lib.Tactic

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The tokens `[16384, 20]`, the table `[1000000, 64]`, the tokens reshaped `[32, 10240]`, the kernel's output
    `[16384, 20, 128]` and the result `[16384, 20, 64]`, as locations of device `d`. -/
abbrev tokLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- Worker `2 s + c`: vector subcore `s` of SparseCore `c`. -/
def wid (c : Fin 2) (s : Fin 16) : Fin 32 := ⟨2 * s.val + c.val, by omega⟩

theorem idiv : 32 ∣ S32x10240.size 0 := ⟨1, rfl⟩
theorem odiv : 32 ∣ S16384x20x128.size 0 := ⟨512, rfl⟩
/-- Worker `w`'s row of the reshaped tokens and its 512 rows of the output. -/
abbrev irow (w : Fin 32) : Rect S32x10240 := Rect.part (s := S32x10240) (a₀ := 0) idiv w
abbrev oblk (w : Fin 32) : Rect S16384x20x128 := Rect.part (s := S16384x20x128) (a₀ := 0) odiv w
abbrev iRowSet (w : Fin 32) : Finset S32x10240.Idx := (irow w).set
abbrev oBlkSet (w : Fin 32) : Finset S16384x20x128.Idx := (oblk w).set
/-- Worker `w`'s share of the table: every worker reads all of it. -/
abbrev tq (w : Fin 32) : PosShare TreeShare := Transfers.shareTok fullShare 32 w

/-! ## The launch memory, the reshaped tokens, and what is asked of them -/

variable (m : (ℓ : Loc nD τ sig) → Buf (Elt F) ℓ) (I : (d : Dev nD) → Buf (Elt F) (idxLoc d))

/-- Every reshaped token names a row of the table. -/
def PreOK : Prop := ∀ (d : Dev nD) (j : S32x10240.Idx), (I d j).toNat < 1000000

/-- Worker `w`'s block of the output is done: row `512 w + r`, position `s`, column `k < 64` holds the table's
    row named by token `20 r + s` of the worker's row of tokens, at column `k`. (Columns 64 … 127 hold whatever the
    row buffers held.) -/
def GoodOut (d : Dev nD) (w : Fin 32) (f : Buf (Elt F) (outLoc d)) : Prop :=
  ∀ (r : Fin 512) (s : Fin 20) (k : Fin 64),
    f (ix3 (⟨512 * w.val + r.val, by omega⟩ : Fin 16384) s (⟨k.val, by omega⟩ : Fin 128))
      = m (tabLoc d) (ix2 (Cert.Spec.rowOf (I d (ix2 w (⟨20 * r.val + s.val, by omega⟩ : Fin 10240)))) k)

/-! ## What the handshakes carry -/

/-- What a worker is handed: its row of tokens, its share of the table, its block of the output as launched; -/
abbrev goPiece (d : Dev nD) (w : Fin 32) : sProp 𝕄 :=
  iprop((idxLoc d ↦[iRowSet w]{fullShare} I d) ∗ (tabLoc d ↦{tq w} m (tabLoc d)) ∗ (outLoc d ↦[oBlkSet w]{fullShare} m (outLoc d)))
/-- and what it hands back: the same, its block of the output done. -/
abbrev tdPiece (d : Dev nD) (w : Fin 32) : sProp 𝕄 :=
  iprop((idxLoc d ↦[iRowSet w]{fullShare} I d) ∗ (tabLoc d ↦{tq w} m (tabLoc d))
    ∗ ∃ f, ⌜GoodOut m I d w f⌝ ∗ (outLoc d ↦[oBlkSet w]{fullShare} f))

/-- The one call: a SparseCore is handed its sixteen workers' pieces and hands them back done. -/
def P : (K (F := F)).Pay (nD := nD) (Val := Elt F) (Name := ℕ) (U := UU) where
  st := fun q d c => match q with | 0 => bigSep Finset.univ fun s : Fin 16 => goPiece m I d (wid (Fin.cast nCore_zero c) s)
  dn := fun q d c => match q with | 0 => bigSep Finset.univ fun s : Fin 16 => tdPiece m I d (wid (Fin.cast nCore_zero c) s)
  go := fun q d c s => match q with | 0 => goPiece m I d (wid (Fin.cast nCore_zero c) (Fin.cast nSub_zero s))
  td := fun q d c s => match q with | 0 => tdPiece m I d (wid (Fin.cast nCore_zero c) (Fin.cast nSub_zero s))
  x := fun _ _ => iprop(emp)

instance P_storable : (P (F := F) m I).IsStorable where
  st q d c := match q with
    | 0 => (inferInstance : BI.Storable (upEmb : UEmb _ 𝕄) (bigSep Finset.univ fun s : Fin 16 => goPiece m I d (wid (Fin.cast nCore_zero c) s)))
  dn q d c := match q with
    | 0 => (inferInstance : BI.Storable (upEmb : UEmb _ 𝕄) (bigSep Finset.univ fun s : Fin 16 => tdPiece m I d (wid (Fin.cast nCore_zero c) s)))
  go q d c s := match q with
    | 0 => (inferInstance : BI.Storable (upEmb : UEmb _ 𝕄) (goPiece m I d (wid (Fin.cast nCore_zero c) (Fin.cast nSub_zero s))))
  td q d c s := match q with
    | 0 => (inferInstance : BI.Storable (upEmb : UEmb _ 𝕄) (tdPiece m I d (wid (Fin.cast nCore_zero c) (Fin.cast nSub_zero s))))

end Cert.Proof.KernelIdeal

end
-- ==== Proof.KernelIdeal.Launch.lean ====
/-
  The launch of the program: @main on the TensorCore reshapes the tokens `[16384, 20]` to `[32, 10240]`, starts the two
  SparseCores and waits for them, and cuts the output `[16384, 20, 128]` to its first 64 columns. Before the call the
  reshaped tokens and the output are dealt out by rows among the thirty-two workers and the table goes out as thirty-two
  read shares (a remainder kept back); after it the rows, shares and blocks are put together again, each block's
  contents known in its first 64 columns, and the cut reads the lookup. Given every worker's task (a hypothesis here),
  every weakly fair execution terminates with the result the lookup and the arguments unchanged.
-/
import proofs.«206312_g12936441495622_cont_fleet_311_30_alg».proof.Proof.KernelIdeal.Common
import proofs.«206312_g12936441495622_cont_fleet_311_30_alg».proof.Proof.LaunchPure
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.Transfers
import Idealize.ShloMosaic.Lib.ValueIdx
import Idealize.ShloMosaic.Lib.Tactic

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.LaunchPure

variable {F : FTy → Type}

local notation "𝕄" => MT nD τ sig (HIx 1) (Elt F) ℕ UU ℕ

variable (m : (ℓ : Loc nD τ sig) → Buf (Elt F) ℓ) (ρ : Dev nD → PrngReg)

/-! ## The reshaped tokens -/

/-- The reshaped tokens on device `d`: the tokens read row-major at shape `[32, 10240]`. -/
def idxC (d : Dev nD) : Buf (Elt F) (idxLoc d) :=
  fun i => shapeCast S32x10240 (m (tokLoc d)) Cert.KernelIdeal.Gen.shapeCasts_S16384x20_S32x10240 i

/-- Worker `w`'s token number `20 r + s` is token `(512 w + r, s)`. -/
theorem idxC_apply (d : Dev nD) (w : Fin 32) (r : Fin 512) (s : Fin 20) :
    idxC m d (ix2 w (⟨20 * r.val + s.val, by omega⟩ : Fin 10240)) = m (tokLoc d) (ix2 (⟨512 * w.val + r.val, by omega⟩ : Fin 16384) s) :=
  reshape_apply (α := Elt F .i32) (m (tokLoc d)) Cert.KernelIdeal.Gen.shapeCasts_S16384x20_S32x10240 w r s

/-- A reshaped token is a token: in range if they all are. -/
theorem preOK_of_lt (h : ∀ d (j : S16384x20.Idx), (m (tokLoc d) j).toNat < 1000000) : PreOK (idxC m) := by
  intro d j
  unfold idxC shapeCast
  exact h d _

/-- What the run leaves: the result is the lookup, the arguments unchanged. -/
def QC : PUnit × MemSt nD τ sig (Elt F) → Prop := fun r => ∀ c : Dev nD,
  r.2.mem (resLoc c) = Cert.Spec.lookup (α := Elt F .f32) (m (tokLoc c)) (m (tabLoc c)) ∧ r.2.mem (tokLoc c) = m (tokLoc c) ∧ r.2.mem (tabLoc c) = m (tabLoc c)

/-! ## A SparseCore's pieces are its sixteen workers' -/

variable (I : (d : Dev nD) → Buf (Elt F) (idxLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m I) 0 := by
  intro d c
  show (bigSep Finset.univ fun s : Fin 16 => goPiece m I d (wid (Fin.cast nCore_zero c) s)) ⊢ |={Set.univ}=> iprop(
      (bigSep Finset.univ fun i : Fin ((K (F := F)).nSub 0) => goPiece m I d (wid (Fin.cast nCore_zero c) (Fin.cast nSub_zero i)))
      ∗ ((bigSep Finset.univ fun i : Fin ((K (F := F)).nSub 0) => tdPiece m I d (wid (Fin.cast nCore_zero c) (Fin.cast nSub_zero i)))
          -∗ bigSep Finset.univ fun s : Fin 16 => tdPiece m I d (wid (Fin.cast nCore_zero c) s)))
  rw [bigSep_tasks (F := F) (fun s => goPiece m I d (wid (Fin.cast nCore_zero c) s)),
    bigSep_tasks (F := F) (fun s => tdPiece m I d (wid (Fin.cast nCore_zero c) s))]
  iintro H; imodintro
  isplitl [H]; · iexact H
  iintro H; iexact H

/-! ## The launch element of the ghost state -/

def u₀ : UU := (initOf (K (F := F)).hsCells (K (F := F)).hsToks, 1)

theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m I).x q thr) = bigSep Finset.univ fun _ => iprop(emp) from
    bigSep_congr fun _ _ => bigSep_univ_of_subsingleton (0 : Fin 1), bigSep_emp']
  iempintro

/-! ## The arrays split among the workers, and joined again -/

theorem irows_disjoint : ∀ i ∈ (Finset.univ : Finset (Fin 32)), ∀ j ∈ (Finset.univ : Finset (Fin 32)), i ≠ j → Disjoint (iRowSet i) (iRowSet j) :=
  fun _ _ _ _ h => Rect.part_disjoint idiv h
theorem oblks_disjoint : ∀ i ∈ (Finset.univ : Finset (Fin 32)), ∀ j ∈ (Finset.univ : Finset (Fin 32)), i ≠ j → Disjoint (oBlkSet i) (oBlkSet j) :=
  fun _ _ _ _ h => Rect.part_disjoint odiv h
theorem irows_cover : (Finset.univ : Finset (Fin 32)).biUnion iRowSet = Finset.univ := Rect.biUnion_part idiv
theorem oblks_cover : (Finset.univ : Finset (Fin 32)).biUnion oBlkSet = Finset.univ := Rect.biUnion_part odiv

theorem idx_rows (d : Dev nD) (f : Buf (Elt F) (idxLoc d)) :
    (idxLoc d ↦{fullShare} f : sProp 𝕄) = bigSep Finset.univ fun w : Fin 32 => idxLoc d ↦[iRowSet w]{fullShare} f := by
  rw [← pointsTo_biUnion Finset.univ (ℓ := idxLoc d) iRowSet irows_disjoint, irows_cover]
theorem out_blks (d : Dev nD) (f : Buf (Elt F) (outLoc d)) :
    (outLoc d ↦{fullShare} f : sProp 𝕄) = bigSep Finset.univ fun w : Fin 32 => outLoc d ↦[oBlkSet w]{fullShare} f := by
  rw [← pointsTo_biUnion Finset.univ (ℓ := outLoc d) oBlkSet oblks_disjoint, oblks_cover]

/-- Row `512 w + r` of the output lies in worker `w`'s block. -/
theorem mem_oBlk (w : Fin 32) (r : Fin 512) (s : Fin 20) (k : Fin 128) :
    (ix3 (⟨512 * w.val + r.val, by omega⟩ : Fin 16384) s k : S16384x20x128.Idx) ∈ oBlkSet w := by
  refine Rect.mem_set_unit.mpr fun a => ?_
  match a with
  | ⟨0, _⟩ =>
    show w.val * (16384 / 32) ≤ 512 * w.val + r.val ∧ 512 * w.val + r.val < w.val * (16384 / 32) + 16384 / 32
    omega
  | ⟨1, _⟩ =>
    show 0 * 20 ≤ s.val ∧ s.val < 0 * 20 + 20
    omega
  | ⟨2, _⟩ =>
    show 0 * 128 ≤ k.val ∧ k.val < 0 * 128 + 128
    omega

/-- The thirty-two workers, SparseCore by SparseCore. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

theorem st0_eq (d : Dev nD) :
    (bigSep Finset.univ fun c : Fin ((K (F := F)).nCore 0) => (P m I).st 0 d c) = bigSep Finset.univ fun w : Fin 32 => goPiece m I d w := by
  rw [bigSep_workers (F := F) (fun w => goPiece m I d w)]
  exact bigSep_cores (F := F) (fun c => bigSep Finset.univ fun s : Fin 16 => goPiece m I d (wid c s))
theorem dn0_eq (d : Dev nD) :
    (bigSep Finset.univ fun c : Fin ((K (F := F)).nCore 0) => (P m I).dn 0 d c) = bigSep Finset.univ fun w : Fin 32 => tdPiece m I d w := by
  rw [bigSep_workers (F := F) (fun w => tdPiece m I d w)]
  exact bigSep_cores (F := F) (fun c => bigSep Finset.univ fun s : Fin 16 => tdPiece m I d (wid c s))

/-- The workers' pieces, array by array. -/
theorem go_pieces (d : Dev nD) :
    (bigSep Finset.univ fun w : Fin 32 => goPiece m I d w)
      = (iprop((bigSep Finset.univ fun w : Fin 32 => idxLoc d ↦[iRowSet w]{fullShare} I d)
          ∗ (bigSep Finset.univ fun w : Fin 32 => tabLoc d ↦{tq w} m (tabLoc d))
          ∗ (bigSep Finset.univ fun w : Fin 32 => outLoc d ↦[oBlkSet w]{fullShare} m (outLoc d))) : sProp 𝕄) := by
  show (bigSep Finset.univ fun w : Fin 32 =>
    iprop((idxLoc d ↦[iRowSet w]{fullShare} I d) ∗ (tabLoc d ↦{tq w} m (tabLoc d)) ∗ (outLoc d ↦[oBlkSet w]{fullShare} m (outLoc d)))) = _
  rw [bigSep_sep', bigSep_sep']

/-- Before the call: the reshaped tokens by rows, the table by read shares (a remainder kept), the output by blocks. -/
theorem go_split (d : Dev nD) :
    iprop((idxLoc d ↦{fullShare} I d) ∗ (tabLoc d ↦{fullShare} m (tabLoc d)) ∗ (outLoc d ↦{fullShare} m (outLoc d)))
      ⊢ (iprop((tabLoc d ↦{Transfers.shareDrop fullShare 32} m (tabLoc d)) ∗ bigSep Finset.univ fun w : Fin 32 => goPiece m I d w) : sProp 𝕄) := by
  rw [idx_rows, out_blks, go_pieces]
  iintro ⟨Hi, Hx, Ho⟩
  ihave Hx' := (Transfers.pointsTo_toks_split (ℓ := tabLoc d) (S := Finset.univ) (f := m (tabLoc d)) fullShare 32) $$ Hx
  icases Hx' with ⟨Hdrop, Hx⟩
  isplitl [Hdrop]; · iexact Hdrop
  isplitl [Hi]; · iexact Hi
  isplitl [Hx]; · iexact Hx
  iexact Ho

/-- The blocks of the output, each done, are the output done: one array that is every worker's block. -/
theorem out_join (d : Dev nD) :
    (bigSep Finset.univ fun w : Fin 32 => iprop(∃ f, ⌜GoodOut m I d w f⌝ ∗ (outLoc d ↦[oBlkSet w]{fullShare} f)))
      ⊢ (iprop(∃ g, ⌜∀ w, GoodOut m I d w g⌝ ∗ (outLoc d ↦{fullShare} g)) : sProp 𝕄) := by
  haveI : Nonempty (Buf (Elt F) (outLoc d)) := ⟨m (outLoc d)⟩
  refine (bigSep_exists_pi Finset.univ (fun w (f : Buf (Elt F) (outLoc d)) => iprop(⌜GoodOut m I d w f⌝ ∗ (outLoc d ↦[oBlkSet w]{fullShare} f)))).trans ?_
  iintro ⟨%fs, H⟩
  ihave H' := (bigSep_pure_sep Finset.univ (fun w => GoodOut m I d w (fs w)) (fun w => (outLoc d ↦[oBlkSet w]{fullShare} fs w : sProp 𝕄))) $$ H
  icases H' with ⟨%hfs, H⟩
  ihave H'' := (pointsTo_biUnion_join (ℓ := outLoc d) (q := fullShare) (Val := Elt F) Finset.univ oBlkSet fs (fs 0) oblks_disjoint) $$ H
  icases H'' with ⟨%g, %hg, Hg⟩
  rw [oblks_cover]
  iexists g; isplitr
  · ipureintro; intro w r s k
    rw [hg w (Finset.mem_univ w) _ (mem_oBlk w r s _)]
    exact hfs w (Finset.mem_univ w) r s k
  · iexact Hg

/-- After the call: the rows, the shares and the remainder, and the blocks put together. -/
theorem td_join (d : Dev nD) :
    iprop((tabLoc d ↦{Transfers.shareDrop fullShare 32} m (tabLoc d)) ∗ bigSep Finset.univ fun w : Fin 32 => tdPiece m I d w)
      ⊢ (iprop((idxLoc d ↦{fullShare} I d) ∗ (tabLoc d ↦{fullShare} m (tabLoc d))
          ∗ ∃ g, ⌜∀ w, GoodOut m I d w g⌝ ∗ (outLoc d ↦{fullShare} g)) : sProp 𝕄) := by
  rw [idx_rows]
  show iprop(_ ∗ bigSep Finset.univ fun w : Fin 32 =>
    iprop((idxLoc d ↦[iRowSet w]{fullShare} I d) ∗ (tabLoc d ↦{tq w} m (tabLoc d))
      ∗ ∃ f, ⌜GoodOut m I d w f⌝ ∗ (outLoc d ↦[oBlkSet w]{fullShare} f))) ⊢ _
  rw [bigSep_sep', bigSep_sep']
  iintro ⟨Hdrop, Hi, Hx, Ho⟩
  isplitl [Hi]; · iexact Hi
  isplitl [Hdrop Hx]
  · iapply (Transfers.pointsTo_toks_join (ℓ := tabLoc d) (S := Finset.univ) (f := m (tabLoc d)) fullShare 32)
    isplitl [Hdrop]; · iexact Hdrop
    iexact Hx
  iapply (out_join m I d); iexact Ho

/-! ## The value: the cut of a done output is the lookup -/

theorem res_eq (d : Dev nD) (g : Buf (Elt F) (outLoc d)) (hg : ∀ w, GoodOut m (idxC m) d w g) :
    extractStridedSlice S16384x20x64 ![0, 0, 0] g Cert.KernelIdeal.Gen.slices_S16384x20x128_S16384x20x64_0_0_0
      = Cert.Spec.lookup (α := Elt F .f32) (m (tokLoc d)) (m (tabLoc d)) := by
  funext j
  obtain ⟨n, s, k, rfl⟩ : ∃ (n : Fin 16384) (s : Fin 20) (k : Fin 64), j = ix3 n s k := ⟨j 0, j 1, j 2, eq_ix3 j⟩
  rw [slice_apply (α := Elt F .f32), Cert.Spec.lookup_apply]
  obtain ⟨w, r, hn⟩ := row_split n
  have h := hg w r s k
  rw [idxC_apply] at h
  rw [show n = (⟨512 * w.val + r.val, by have := w.isLt; have := r.isLt; omega⟩ : Fin 16384) from Fin.ext hn]
  exact h

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The reshape and the cut, as @main states them. -/
abbrev opR : HloOp τ sig (Elt F) :=
  StableHlo.reshape main_arg0 main_v0 rfl Cert.KernelIdeal.Gen.shapeCasts_S16384x20_S32x10240
abbrev opS : HloOp τ sig (Elt F) :=
  StableHlo.unary main_v1 main_v2 ((extractStridedSlice S16384x20x64 ![0, 0, 0] · Cert.KernelIdeal.Gen.slices_S16384x20x128_S16384x20x64_0_0_0) :
    (⟨S16384x20x128, .f32⟩ : BufTy).Contents (Elt F) → (⟨S16384x20x64, .f32⟩ : BufTy).Contents (Elt F))

/-- The TensorCore's arrays, all unscoped. -/
abbrev S5 : Finset (DevRef τ sig) := {a0', a1', v0', v1', v2'}

theorem held_S5 (d : Dev nD) (W : Valuation τ sig (Elt F)) :
    (held (T d) S5 W : sProp 𝕄) = iprop((tokLoc d ↦{fullShare} W a0') ∗ (tabLoc d ↦{fullShare} W a1') ∗ (idxLoc d ↦{fullShare} W v0')
      ∗ (outLoc d ↦{fullShare} W v1') ∗ (resLoc d ↦{fullShare} W v2')) := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((tokLoc d ↦{fullShare} W main_arg0) ∗ (tabLoc d ↦{fullShare} W main_arg1) ∗ (idxLoc d ↦{fullShare} W main_v0)
      ∗ (outLoc d ↦{fullShare} W main_v1) ∗ (resLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; the one before the cut: the reshaped tokens in place, the output at what the call left. -/
def V0 (d : Dev nD) : Valuation τ sig (Elt F) := fun b => m (d, b)
def V2 (d : Dev nD) (g : Buf (Elt F) (outLoc d)) : Valuation τ sig (Elt F) :=
  Function.update (Function.update (V0 m d) v0' (idxC m d)) v1' g

theorem unscoped_held (d : Dev nD) : (unscopedBufs d (fun b => m ((SparseCore.T d).loc b)) : sProp 𝕄) = held (T d) S5 (V0 m d) := by
  rw [unscopedBufs_eq, held_S5]; rfl

theorem hR : (opR (F := F)).bufs ⊆ S5 := show ({a0', v0'} : Finset (DevRef τ sig)) ⊆ S5 by decide
theorem hS : (opS (F := F)).bufs ⊆ S5 := show ({v1', v2'} : Finset (DevRef τ sig)) ⊆ S5 by decide

/-- After the reshape: the reshaped tokens in their array, the rest as launched. -/
theorem held_V1 (d : Dev nD) :
    (held (T d) S5 ((opR (F := F)).result (V0 m d)) : sProp 𝕄) = iprop((tokLoc d ↦{fullShare} m (tokLoc d)) ∗ (tabLoc d ↦{fullShare} m (tabLoc d))
      ∗ (idxLoc d ↦{fullShare} idxC m d) ∗ (outLoc d ↦{fullShare} m (outLoc d)) ∗ (resLoc d ↦{fullShare} m (resLoc d))) := by
  rw [held_S5,
    (opR (F := F)).result_of_not_mem (V0 m d) (b := a0') (show a0' ∉ ({v0'} : Finset (DevRef τ sig)) by decide),
    (opR (F := F)).result_of_not_mem (V0 m d) (b := a1') (show a1' ∉ ({v0'} : Finset (DevRef τ sig)) by decide),
    (opR (F := F)).result_of_not_mem (V0 m d) (b := v1') (show v1' ∉ ({v0'} : Finset (DevRef τ sig)) by decide),
    (opR (F := F)).result_of_not_mem (V0 m d) (b := v2') (show v2' ∉ ({v0'} : Finset (DevRef τ sig)) by decide),
    show (opR (F := F)).result (V0 m d) v0' = idxC m d from StableHlo.reshape_result _ _ _ _ _ _ _]
  rfl

theorem V2_a0 (d : Dev nD) (g : Buf (Elt F) (outLoc d)) : V2 m d g a0' = m (tokLoc d) :=
  (Function.update_of_ne (show a0' ≠ v1' by decide) _ _).trans (Function.update_of_ne (show a0' ≠ v0' by decide) _ _)
theorem V2_a1 (d : Dev nD) (g : Buf (Elt F) (outLoc d)) : V2 m d g a1' = m (tabLoc d) :=
  (Function.update_of_ne (show a1' ≠ v1' by decide) _ _).trans (Function.update_of_ne (show a1' ≠ v0' by decide) _ _)
theorem V2_v0 (d : Dev nD) (g : Buf (Elt F) (outLoc d)) : V2 m d g v0' = idxC m d :=
  (Function.update_of_ne (show v0' ≠ v1' by decide) _ _).trans (Function.update_self _ _ _)
theorem V2_v1 (d : Dev nD) (g : Buf (Elt F) (outLoc d)) : V2 m d g v1' = g := Function.update_self _ _ _
theorem V2_v2 (d : Dev nD) (g : Buf (Elt F) (outLoc d)) : V2 m d g v2' = m (resLoc d) :=
  (Function.update_of_ne (show v2' ≠ v1' by decide) _ _).trans (Function.update_of_ne (show v2' ≠ v0' by decide) _ _)

/-- After the cut: the result is the output's first 64 columns, the rest as before. -/
theorem held_V3 (d : Dev nD) (g : Buf (Elt F) (outLoc d)) :
    (held (T d) S5 ((opS (F := F)).result (V2 m d g)) : sProp 𝕄) = iprop((tokLoc d ↦{fullShare} m (tokLoc d)) ∗ (tabLoc d ↦{fullShare} m (tabLoc d))
      ∗ (idxLoc d ↦{fullShare} idxC m d) ∗ (outLoc d ↦{fullShare} g)
      ∗ (resLoc d ↦{fullShare} extractStridedSlice S16384x20x64 ![0, 0, 0] g Cert.KernelIdeal.Gen.slices_S16384x20x128_S16384x20x64_0_0_0)) := by
  rw [held_S5,
    (opS (F := F)).result_of_not_mem (V2 m d g) (b := a0') (show a0' ∉ ({v2'} : Finset (DevRef τ sig)) by decide),
    (opS (F := F)).result_of_not_mem (V2 m d g) (b := a1') (show a1' ∉ ({v2'} : Finset (DevRef τ sig)) by decide),
    (opS (F := F)).result_of_not_mem (V2 m d g) (b := v0') (show v0' ∉ ({v2'} : Finset (DevRef τ sig)) by decide),
    (opS (F := F)).result_of_not_mem (V2 m d g) (b := v1') (show v1' ∉ ({v2'} : Finset (DevRef τ sig)) by decide),
    show (opS (F := F)).result (V2 m d g) v2' = extractStridedSlice S16384x20x64 ![0, 0, 0] (V2 m d g v1') Cert.KernelIdeal.Gen.slices_S16384x20x128_S16384x20x64_0_0_0
      from StableHlo.unary_result _ _ _ _ _ _,
    V2_a0, V2_a1, V2_v0, V2_v1]

/-- What @main leaves the claim: the tokens and the table as launched, the result the lookup. -/
abbrev FIN (d : Dev nD) : sProp 𝕄 :=
  iprop((tokLoc d ↦{fullShare} m (tokLoc d)) ∗ (tabLoc d ↦{fullShare} m (tabLoc d))
    ∗ (resLoc d ↦{fullShare} Cert.Spec.lookup (α := Elt F .f32) (m (tokLoc d)) (m (tabLoc d))))

variable [FloatOps F]

/-- @main on device `d`'s TensorCore: the reshape; the call, from the thirty-two workers' pieces; the cut. -/
theorem hmain (κ : GSem nD τ sig → ℕ) (d : Dev nD) :
    iprop((K (F := F)).ctx EH (P m (idxC m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S5) hR (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Htok, Htab, Hidx, Hout, Hres⟩
  -- the arrays dealt out
  ihave Hgo := (go_split m (idxC m) d) $$ [Hidx Htab Hout]
  · isplitl [Hidx]; · iexact Hidx
    isplitl [Htab]; · iexact Htab
    iexact Hout
  icases Hgo with ⟨Hdrop, Hgo⟩
  -- the call
  iapply ((K (F := F)).wp_run (D (F := F)) 𝒱 (EH := EH) (P := P m (idxC m)) κ d 0) $$ [Hst Hgo Hb Htok Hres Hdrop]
  isplitr; · iexact Hctx
  isplitl [Hst]; · iexact Hst
  isplitl [Hgo]
  · rw [st0_eq]; iexact Hgo
  iintro ⟨Hst, Hdn⟩
  ihave Hdn' := (Entails.of_eq (dn0_eq m (idxC m) d)) $$ Hdn
  ihave Hj := (td_join m (idxC m) d) $$ [Hdrop Hdn']
  · isplitl [Hdrop]; · iexact Hdrop
    iexact Hdn'
  icases Hj with ⟨Hidx, Htab, %g, %hg, Hout⟩
  -- the cut
  iapply (wp_hlo_within 𝒱 (SparseCore.T d) none Set.univ (op := opS) (S := S5) hS (V := V2 m d g)) $$ [Hb Htok Htab Hidx Hout Hres]
  · isplitl [Hb]; · iexact Hb
    rw [held_S5, V2_a0, V2_a1, V2_v0, V2_v1, V2_v2]
    isplitl [Htok]; · iexact Htok
    isplitl [Htab]; · iexact Htab
    isplitl [Hidx]; · iexact Hidx
    isplitl [Hout]; · iexact Hout
    iexact Hres
  iintro ⟨Hb, Hheld⟩
  ihave Hh := (Entails.of_eq (held_V3 (F := F) m d g)) $$ Hheld
  icases Hh with ⟨Htok, Htab, -, -, Hres⟩
  rw [wp_ret]; imodintro; imodintro
  isplitl [Hst]; · iexact Hst
  isplitl [Htok]; · iexact Htok
  isplitl [Htab]; · iexact Htab
  rw [← res_eq m d g hg]
  iexact Hres

def fq (d : Dev nD) (s' : Phys nD τ sig (Elt F)) : Prop :=
  s'.mem.mem (resLoc d) = Cert.Spec.lookup (α := Elt F .f32) (m (tokLoc d)) (m (tabLoc d))
    ∧ s'.mem.mem (tokLoc d) = m (tokLoc d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Ht, Hx, Hr⟩, HSI⟩
  ihave H := (persistent_entails_right (SI_pointsTo_agree (st := s') (ℓ := tokLoc d) (I := Finset.univ) (q := fullShare) (f := m (tokLoc d)))) $$ [HSI Ht]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Hx]
  · isplitl [HSI] <;> iassumption
  icases H with ⟨%h2, HSI, -⟩
  ihave H := (SI_pointsTo_agree (st := s') (ℓ := resLoc d) (I := Finset.univ) (q := fullShare)
    (f := Cert.Spec.lookup (α := Elt F .f32) (m (tokLoc d)) (m (tabLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)]
    (hlt : ∀ d (j : S16384x20.Idx), (m (tokLoc d) j).toNat < 1000000)
    (htile : PreOK (idxC m) → (K (F := F)).TileObl (D (F := F)) 𝒱 (P m (idxC m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (idxC m)) facts v₀
    (fun q hq => match q with | 0 => nomatch hq)
    (fun q _ => match q with | 0 => htile (preOK_of_lt m hlt))
    (fun q _ => match q with | 0 => SparseCore.Cfg.VecSplit.of_plain (vecSplit m (idxC m)))
    m ρ main (fun _ => iprop(emp)) (FIN m) (u₀ (F := F)) (sep_elim_left.trans (hu₀ m (idxC m))) (hmain m ρ) (fq m) (hfin m) (QC m)
    (fun _ h c => h c)

end Cert.Proof.KernelIdeal

end
-- ==== Proof.KernelIdeal.Names.lean ====
/-
  The task's own vocabulary: the thread of a grid point, the kernel's operands as the body names them, one row of
  a row buffer (the destination of one copy), one row of the table (its source), the token-list and what a loaded
  token vector holds.
-/
import proofs.«206312_g12936441495622_cont_fleet_311_30_alg».proof.Proof.KernelIdeal.Common
import proofs.«206312_g12936441495622_cont_fleet_311_30_alg».proof.Proof.Gen.KernelIdeal.Skeleton
import Idealize.ShloMosaic.Lib.Ring
import Idealize.ShloMosaic.Lib.SparseCore.Ops
import Idealize.ShloMosaic.Lib.StableHlo.Run

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The vector subcore of grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Row `r` of row buffer `b`, columns 0 … 63: where one copy lands. -/
theorem rowBuf_inb (b : Fin 4) (r : Fin 160) : ∀ a, (![b.val, r.val, 0] : Fin 3 → Nat) a + S1x1x64.size a ≤ S4x160x128.size a := by
  have := b.isLt; have := r.isLt; intro a; fin_cases a
  · show b.val + 1 ≤ 4; omega
  · show r.val + 1 ≤ 160; omega
  · show 0 + 64 ≤ 128; omega
def rowBuf (b : Fin 4) (r : Fin 160) : Memref sig .scVector .vmem S64 .f32 :=
  ((Memref.whole cc0_scratch1 : Memref sig .scVector .vmem S4x160x128 .f32).slice (Rect.unit (s := S4x160x128) ![b.val, r.val, 0] S1x1x64.size (rowBuf_inb b r)) (fun _ => rfl)).squeeze S64 squeezes_S1x1x64_S64

/-- Row `n` of the table: what one copy reads. -/
theorem tabRow_inb (n : Fin 1000000) : ∀ a, (![n.val, 0] : Fin 2 → Nat) a + S1x64.size a ≤ S1000000x64.size a := by
  have := n.isLt; intro a; fin_cases a
  · show n.val + 1 ≤ 1000000; omega
  · show 0 + 64 ≤ 64; omega
def tabRow (n : Fin 1000000) : Memref sig .scVector .hbm S64 .f32 :=
  ((Memref.whole main_arg1_scv : Memref sig .scVector .hbm S1000000x64 .f32).slice (Rect.unit (s := S1000000x64) ![n.val, 0] S1x64.size (tabRow_inb n)) (fun _ => rfl)).squeeze S64 squeezes_S1x64_S64

end Cert.Proof.KernelIdeal

end
-- ==== Proof.KernelIdeal.TaskLib.lean ====
/-
  Shared by the four row buffers' loops: a token in range names a row of the table; one row of the table as a copy's
  source, through the token word; the sixteen words a loaded token vector holds; a transfer number as (trip, lane);
  a run of 160 things taken sixteen at a time.
-/
import proofs.«206312_g12936441495622_cont_fleet_311_30_alg».proof.Proof.KernelIdeal.Names

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_arg1_scv : Memref Cert.KernelIdeal.sig Kind.scVector Space.hbm Cert.KernelIdeal.S1000000x64 EltTy.f32)

/-- A word below 1000000 names a row of the table. -/
theorem chk_of_lt (v : BitVec 32) (hv : v.toNat < 1000000) : ∀ a, (![v.toNat, 0] : Fin 2 → ℕ) a + S1x64.size a ≤ S1000000x64.size a := by
  intro a; fin_cases a
  · show v.toNat + 1 ≤ 1000000; omega
  · show 0 + 64 ≤ 64; omega

/-- The table's row named by word `w`, as a copy's source. -/
def srcOf (w : BitVec 32) (h : ∀ a, (k0_off5 w) a + S1x64.size a ≤ S1000000x64.size a) : Memref sig .scVector .hbm S64 .f32 :=
  ((tV).slice (Rect.unit (s := S1000000x64) (k0_off5 w) S1x64.size h) (fun _ => rfl)).squeeze S64 squeezes_S1x64_S64

theorem slices16 (r : Fin 16) : S16.Slices ![r.val] S1 := by
  have := r.isLt
  refine ⟨rfl, fun a => ?_⟩
  fin_cases a
  show r.val + 1 ≤ 16; omega

/-- One transfer's credit: 64 words of 32 bits. -/
abbrev NR : ℕ := 2048

/-- Transfer number `t` of a chunk is lane `t % 16` of trip `t / 16`. -/
def kOf (t : Fin 160) : Fin 10 := ⟨t.val / 16, by have := t.isLt; omega⟩
def rOf (t : Fin 160) : Fin 16 := ⟨t.val % 16, Nat.mod_lt _ (by decide)⟩

theorem kOf_mk (k : Fin 10) (r : Fin 16) (j : ℕ) (hj : j < 160) (e : j = 16 * k.val + r.val) : kOf ⟨j, hj⟩ = k :=
  Fin.ext (by have := r.isLt; show j / 16 = k.val; omega)
theorem rOf_mk (k : Fin 10) (r : Fin 16) (j : ℕ) (hj : j < 160) (e : j = 16 * k.val + r.val) : rOf ⟨j, hj⟩ = r :=
  Fin.ext (by have := r.isLt; show j % 16 = r.val; omega)

/-- The things numbered from `16 k` on are the sixteen of trip `k` and those from `16 (k + 1)` on. -/
theorem peel16 (Ψ : Fin 10 → Fin 16 → sProp 𝕄) (k : Fin 10) :
    bigSep (Ring.rangeSet 160 (16 * k.val) 160) (fun t => Ψ (kOf t) (rOf t))
      = iprop(Ψ k 0 ∗ Ψ k 1 ∗ Ψ k 2 ∗ Ψ k 3 ∗ Ψ k 4 ∗ Ψ k 5 ∗ Ψ k 6 ∗ Ψ k 7 ∗ Ψ k 8 ∗ Ψ k 9 ∗ Ψ k 10 ∗ Ψ k 11 ∗ Ψ k 12 ∗ Ψ k 13 ∗ Ψ k 14 ∗ Ψ k 15
          ∗ bigSep (Ring.rangeSet 160 (16 * (k.val + 1)) 160) (fun t => Ψ (kOf t) (rOf t))) := by
  have hk := k.isLt
  rw [Ring.bigSep_rangeSet_head (lo := 16 * k.val) (by omega) (by omega),
    Ring.bigSep_rangeSet_head (lo := 16 * k.val + 1) (by omega) (by omega),
    Ring.bigSep_rangeSet_head (lo := 16 * k.val + 1 + 1) (by omega) (by omega),
    Ring.bigSep_rangeSet_head (lo := 16 * k.val + 1 + 1 + 1) (by omega) (by omega),
    Ring.bigSep_rangeSet_head (lo := 16 * k.val + 1 + 1 + 1 + 1) (by omega) (by omega),
    Ring.bigSep_rangeSet_head (lo := 16 * k.val + 1 + 1 + 1 + 1 + 1) (by omega) (by omega),
    Ring.bigSep_rangeSet_head (lo := 16 * k.val + 1 + 1 + 1 + 1 + 1 + 1) (by omega) (by omega),
    Ring.bigSep_rangeSet_head (lo := 16 * k.val + 1 + 1 + 1 + 1 + 1 + 1 + 1) (by omega) (by omega),
    Ring.bigSep_rangeSet_head (lo := 16 * k.val + 1 + 1 + 1 + 1 + 1 + 1 + 1 + 1) (by omega) (by omega),
    Ring.bigSep_rangeSet_head (lo := 16 * k.val + 1 + 1 + 1 + 1 + 1 + 1 + 1 + 1 + 1) (by omega) (by omega),
    Ring.bigSep_rangeSet_head (lo := 16 * k.val + 1 + 1 + 1 + 1 + 1 + 1 + 1 + 1 + 1 + 1) (by omega) (by omega),
    Ring.bigSep_rangeSet_head (lo := 16 * k.val + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1 + 1 + 1) (by omega) (by omega),
    Ring.bigSep_rangeSet_head (lo := 16 * k.val + 1 + 1 + 1 + 1 + 1 + 1 + 1 + 1 + 1 + 1 + 1 + 1 + 1 + 1 + 1) (by omega) (by omega),
    show 16 * k.val + 1 + 1 + 1 + 1 + 1 + 1 + 1 + 1 + 1 + 1 + 1 + 1 + 1 + 1 + 1 + 1 = 16 * (k.val + 1) by omega,
    kOf_mk k 0 (16 * k.val) (by omega) (by simp), rOf_mk k 0 (16 * k.val) (by omega) (by simp),
    kOf_mk k 1 (16 * k.val + 1) (by omega) (by simp), rOf_mk k 1 (16 * k.val + 1) (by omega) (by simp),
    kOf_mk k 2 (16 * k.val + 1 + 1) (by omega) (by simp), rOf_mk k 2 (16 * k.val + 1 + 1) (by omega) (by simp),
    kOf_mk k 3 (16 * k.val + 1 + 1 + 1) (by omega) (by simp), rOf_mk k 3 (16 * k.val + 1 + 1 + 1) (by omega) (by simp),
    kOf_mk k 4 (16 * k.val + 1 + 1 + 1 + 1) (by omega) (by simp), rOf_mk k 4 (16 * k.val + 1 + 1 + 1 + 1) (by omega) (by simp),
    kOf_mk k 5 (16 * k.val + 1 + 1 + 1 + 1 + 1) (by omega) (by simp), rOf_mk k 5 (16 * k.val + 1 + 1 + 1 + 1 + 1) (by omega) (by simp),
    kOf_mk k 6 (16 * k.val + 1 + 1 + 1 + 1 + 1 + 1) (by omega) (by simp), rOf_mk k 6 (16 * k.val + 1 + 1 + 1 + 1 + 1 + 1) (by omega) (by simp),
    kOf_mk k 7 (16 * k.val + 1 + 1 + 1 + 1 + 1 + 1 + 1) (by omega) (by simp), rOf_mk k 7 (16 * k.val + 1 + 1 + 1 + 1 + 1 + 1 + 1) (by omega) (by simp),
    kOf_mk k 8 (16 * k.val + 1 + 1 + 1 + 1 + 1 + 1 + 1 + 1) (by omega) (by simp), rOf_mk k 8 (16 * k.val + 1 + 1 + 1 + 1 + 1 + 1 + 1 + 1) (by omega) (by simp),
    kOf_mk k 9 (16 * k.val + 1 + 1 + 1 + 1 + 1 + 1 + 1 + 1 + 1) (by omega) (by simp), rOf_mk k 9 (16 * k.val + 1 + 1 + 1 + 1 + 1 + 1 + 1 + 1 + 1) (by omega) (by simp),
    kOf_mk k 10 (16 * k.val + 1 + 1 + 1 + 1 + 1 + 1 + 1 + 1 + 1 + 1) (by omega) (by simp), rOf_mk k 10 (16 * k.val + 1 + 1 + 1 + 1 + 1 + 1 + 1 + 1 + 1 + 1) (by omega) (by simp),
    kOf_mk k 11 (16 * k.val + 1 + 1 + 1 + 1 + 1 + 1 + 1 + 1 + 1 + 1 + 1) (by omega) (by simp), rOf_mk k 11 (16 * k.val + 1 + 1 + 1 + 1 + 1 + 1 + 1 + 1 + 1 + 1 + 1) (by omega) (by simp),
    kOf_mk k 12 (16 * k.val + 1 + 1 + 1 + 1 + 1 + 1 + 1 + 1 + 1 + 1 + 1 + 1) (by omega) (by simp), rOf_mk k 12 (16 * k.val + 1 + 1 + 1 + 1 + 1 + 1 + 1 + 1 + 1 + 1 + 1 + 1) (by omega) (by simp),
    kOf_mk k 13 (16 * k.val + 1 + 1 + 1 + 1 + 1 + 1 + 1 + 1 + 1 + 1 + 1 + 1 + 1) (by omega) (by simp), rOf_mk k 13 (16 * k.val + 1 + 1 + 1 + 1 + 1 + 1 + 1 + 1 + 1 + 1 + 1 + 1 + 1) (by omega) (by simp),
    kOf_mk k 14 (16 * k.val + 1 + 1 + 1 + 1 + 1 + 1 + 1 + 1 + 1 + 1 + 1 + 1 + 1 + 1) (by omega) (by simp), rOf_mk k 14 (16 * k.val + 1 + 1 + 1 + 1 + 1 + 1 + 1 + 1 + 1 + 1 + 1 + 1 + 1 + 1) (by omega) (by simp),
    kOf_mk k 15 (16 * k.val + 1 + 1 + 1 + 1 + 1 + 1 + 1 + 1 + 1 + 1 + 1 + 1 + 1 + 1 + 1) (by omega) (by simp), rOf_mk k 15 (16 * k.val + 1 + 1 + 1 + 1 + 1 + 1 + 1 + 1 + 1 + 1 + 1 + 1 + 1 + 1 + 1) (by omega) (by simp)]

end Cert.Proof.KernelIdeal

end
-- ==== Proof.KernelIdeal.CoreDefs.lean ====
/-
  The task as one statement over named resources: worker `2 (L 1) + (L 0)` of grid point `L`, from its piece of
  the operands, its two scratch buffers and its nine semaphores at zero, runs the kernel's body and ends with its
  block of the output done.
-/
import proofs.«206312_g12936441495622_cont_fleet_311_30_alg».proof.Proof.KernelIdeal.TaskLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

/-- The worker of grid point `L`. -/
def widL (L : grid0.Coords) : Fin 32 := ⟨2 * (L 1).val + (L 0).val, by
  have h1 : (L 1).val < 16 := (L 1).isLt
  have h0 : (L 0).val < 2 := (L 0).isLt
  omega⟩

/-- A semaphore of the task's own, as a cell. -/
abbrev cell (s : DmaSem sig) : GSem nD τ sig := (thr d L, SemLoc.dma s)

/-- The nine DMA semaphores at zero: four for the gathers, four for the write-backs, one for the token fetch. -/
abbrev sems0 : sProp 𝕄 :=
  iprop(semVal (cell d L cc0_scratch2.sem) 0 ∗ semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0 ∗ semVal (cell d L cc0_scratch9.sem) 0 ∗ semVal (cell d L cc0_scoped0.sem) 0)

variable (m : (ℓ : Loc nD τ sig) → Buf (Elt F) ℓ) (I : (d : Dev nD) → Buf (Elt F) (idxLoc d))

/-- What the task starts from and what it ends with, over named resources. -/
abbrev corePre (O : CellTallies nD τ sig (HIx 1)) (W : Waits sig (HIx 1)) : sProp 𝕄 :=
  iprop(levAts (K (F := F)).L (K (F := F)).lev ∗ goPiece m I d (widL L)
    ∗ (∃ f, (sI).view.loc (thr d L) ↦{fullShare} f) ∗ (∃ f, (sR).view.loc (thr d L) ↦{fullShare} f)
    ∗ sems0 d L ∗ owes (thr d L) O W)
abbrev corePost (O : CellTallies nD τ sig (HIx 1)) (W : Waits sig (HIx 1)) : sProp 𝕄 :=
  iprop(tdPiece m I d (widL L)
    ∗ (∃ f, (sI).view.loc (thr d L) ↦{fullShare} f) ∗ (∃ f, (sR).view.loc (thr d L) ↦{fullShare} f)
    ∗ sems0 d L ∗ ∃ W', ⌜∀ p ∈ W', p ∈ W ∨ p.2 = none⌝ ∗ owes (thr d L) O W')

end Cert.Proof.KernelIdeal

end
-- ==== Proof.KernelIdeal.Issue0.lean ====
/-
  Row buffer 0's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.KernelIdeal.TaskLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

theorem row0_inb : ∀ (k : Fin k0_t2_loop.trips) (r : Fin 16), ∀ a, (k0_off6 k (BitVec.ofNat 32 r.val)) a + S1x1x64.size a ≤ S4x160x128.size a := by decide +kernel

/-- Row `16 k + c` of buffer 0, columns 0 … 63, through the body's own offsets. -/
def rowAt0 (k : Fin k0_t2_loop.trips) (c : BitVec 32) (h : ∀ a, (k0_off6 k c) a + S1x1x64.size a ≤ S4x160x128.size a) : Memref sig .scVector .vmem S64 .f32 :=
  ((sR).slice (Rect.unit (s := S4x160x128) (k0_off6 k c) S1x1x64.size h) (fun _ => rfl)).squeeze S64 squeezes_S1x1x64_S64

/-- Word `r` of the sixteen tokens trip `k` of group `g` loads. -/
def wordAt0 (g : Fin k0_t1_loop.trips) (h1 : k0_cond1 g = 1#1) (k : Fin k0_t2_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off3 g k) S16.size (k0_off3_inb g k h1)).toLoadRect fI) shapeCasts_S16_S16) (slices16 r)) inpos_S1_p0

variable (g : Fin k0_t1_loop.trips) (h1 : k0_cond1 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp0 (k : Fin 10) (r : Fin 16) : sProp 𝕄 :=
  iprop(((rowAt0 k (BitVec.ofNat 32 r.val) (row0_inb k r)).view.loc (thr d L) ↦[(rowAt0 k (BitVec.ofNat 32 r.val) (row0_inb k r)).view.set]{fullShare} fd0)
    ∗ ((srcOf (wordAt0 d L g h1 k r fI) (chk_of_lt _ (hI _))).view.loc (thr d L) ↦[(srcOf (wordAt0 d L g h1 k r fI) (chk_of_lt _ (hI _))).view.set]{Transfers.shareTokN q (16 * k.val + r.val)} Tb))

/-- What it delivers: the row written with the table row, and the table row back. -/
def out0 (k : Fin 10) (r : Fin 16) : sProp 𝕄 :=
  iprop(((rowAt0 k (BitVec.ofNat 32 r.val) (row0_inb k r)).view.loc (thr d L) ↦[(rowAt0 k (BitVec.ofNat 32 r.val) (row0_inb k r)).view.set]{fullShare}
      ((rowAt0 k (BitVec.ofNat 32 r.val) (row0_inb k r)).view.writes (Elt F) fd0
        [⟨Rect.whole S64, ReadAs.same.apply ((srcOf (wordAt0 d L g h1 k r fI) (chk_of_lt _ (hI _))).view.read (Elt F) Tb)⟩]))
    ∗ ((srcOf (wordAt0 d L g h1 k r fI) (chk_of_lt _ (hI _))).view.loc (thr d L) ↦[(srcOf (wordAt0 d L g h1 k r fI) (chk_of_lt _ (hI _))).view.set]{Transfers.shareTokN q (16 * k.val + r.val)} Tb))

/-- Before trip `k`: `16 k` transfers issued, the token list in hand, the rows and table rows from `16 k` on. -/
def issueAt0 (D : Fin 160 → sProp 𝕄) (k : ℕ) (_ : Unit) : sProp 𝕄 :=
  iprop(Transfers.Batch countersEmb (thr d L) (.dma cc0_scratch2.sem) (none : HIx 1) NR D (16 * k) 0
    ∗ ((sI).view.loc (thr d L) ↦{fullShare} fI)
    ∗ bigSep (Ring.rangeSet 160 (16 * k) 160) (fun t => inp0 d L g h1 fI hI Tb fd0 q (kOf t) (rOf t)))

set_option maxHeartbeats 8000000 in
/-- One trip: the load, then sixteen times the check of the token and the start of its copy. -/
theorem issue0_step [∀ e, Nonempty (Elt F e)] (v1 v44 : BitVec 32) (D : Fin 160 → sProp 𝕄)
    (hDel : ∀ (k : Fin 10) (r : Fin 16) (j : ℕ) (hj : j < 160), j = 16 * k.val + r.val → out0 d L g h1 fI hI Tb fd0 q k r ⊢ D ⟨j, hj⟩)
    (k : Fin k0_t2_loop.trips) (acc : Unit) :
    issueAt0 d L g h1 fI hI Tb fd0 q D k.val acc
      ⊢ wp frame (wpE (defs₀ (F := F)) 𝒱₀ (thr d L) none) Set.univ
          (k0_t2_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g v44 h1 k acc)
          (issueAt0 d L g h1 fI hI Tb fd0 q D (k.val + 1)) := by
  have hk : k.val < 10 := k.isLt
  unfold issueAt0
  rw [peel16 (fun k r => inp0 d L g h1 fI hI Tb fd0 q k r) k]
  unfold inp0
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t2_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.KernelIdeal

end
-- ==== Proof.KernelIdeal.Issue1.lean ====
/-
  Row buffer 1's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.KernelIdeal.TaskLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

theorem row1_inb : ∀ (k : Fin k0_t4_loop.trips) (r : Fin 16), ∀ a, (k0_off42 k (BitVec.ofNat 32 r.val)) a + S1x1x64.size a ≤ S4x160x128.size a := by decide +kernel

/-- Row `16 k + c` of buffer 1, columns 0 … 63, through the body's own offsets. -/
def rowAt1 (k : Fin k0_t4_loop.trips) (c : BitVec 32) (h : ∀ a, (k0_off42 k c) a + S1x1x64.size a ≤ S4x160x128.size a) : Memref sig .scVector .vmem S64 .f32 :=
  ((sR).slice (Rect.unit (s := S4x160x128) (k0_off42 k c) S1x1x64.size h) (fun _ => rfl)).squeeze S64 squeezes_S1x1x64_S64

/-- Word `r` of the sixteen tokens trip `k` of group `g` loads. -/
def wordAt1 (g : Fin k0_t1_loop.trips) (h1 : k0_cond4 g = 1#1) (k : Fin k0_t4_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off39 g k) S16.size (k0_off39_inb g k h1)).toLoadRect fI) shapeCasts_S16_S16) (slices16 r)) inpos_S1_p0

variable (g : Fin k0_t1_loop.trips) (h1 : k0_cond4 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp1 (k : Fin 10) (r : Fin 16) : sProp 𝕄 :=
  iprop(((rowAt1 k (BitVec.ofNat 32 r.val) (row1_inb k r)).view.loc (thr d L) ↦[(rowAt1 k (BitVec.ofNat 32 r.val) (row1_inb k r)).view.set]{fullShare} fd0)
    ∗ ((srcOf (wordAt1 d L g h1 k r fI) (chk_of_lt _ (hI _))).view.loc (thr d L) ↦[(srcOf (wordAt1 d L g h1 k r fI) (chk_of_lt _ (hI _))).view.set]{Transfers.shareTokN q (16 * k.val + r.val)} Tb))

/-- What it delivers: the row written with the table row, and the table row back. -/
def out1 (k : Fin 10) (r : Fin 16) : sProp 𝕄 :=
  iprop(((rowAt1 k (BitVec.ofNat 32 r.val) (row1_inb k r)).view.loc (thr d L) ↦[(rowAt1 k (BitVec.ofNat 32 r.val) (row1_inb k r)).view.set]{fullShare}
      ((rowAt1 k (BitVec.ofNat 32 r.val) (row1_inb k r)).view.writes (Elt F) fd0
        [⟨Rect.whole S64, ReadAs.same.apply ((srcOf (wordAt1 d L g h1 k r fI) (chk_of_lt _ (hI _))).view.read (Elt F) Tb)⟩]))
    ∗ ((srcOf (wordAt1 d L g h1 k r fI) (chk_of_lt _ (hI _))).view.loc (thr d L) ↦[(srcOf (wordAt1 d L g h1 k r fI) (chk_of_lt _ (hI _))).view.set]{Transfers.shareTokN q (16 * k.val + r.val)} Tb))

/-- Before trip `k`: `16 k` transfers issued, the token list in hand, the rows and table rows from `16 k` on. -/
def issueAt1 (D : Fin 160 → sProp 𝕄) (k : ℕ) (_ : Unit) : sProp 𝕄 :=
  iprop(Transfers.Batch countersEmb (thr d L) (.dma cc0_scratch3.sem) (none : HIx 1) NR D (16 * k) 0
    ∗ ((sI).view.loc (thr d L) ↦{fullShare} fI)
    ∗ bigSep (Ring.rangeSet 160 (16 * k) 160) (fun t => inp1 d L g h1 fI hI Tb fd0 q (kOf t) (rOf t)))

set_option maxHeartbeats 8000000 in
/-- One trip: the load, then sixteen times the check of the token and the start of its copy. -/
theorem issue1_step [∀ e, Nonempty (Elt F e)] (v1 v44 : BitVec 32) (D : Fin 160 → sProp 𝕄)
    (hDel : ∀ (k : Fin 10) (r : Fin 16) (j : ℕ) (hj : j < 160), j = 16 * k.val + r.val → out1 d L g h1 fI hI Tb fd0 q k r ⊢ D ⟨j, hj⟩)
    (k : Fin k0_t4_loop.trips) (acc : Unit) :
    issueAt1 d L g h1 fI hI Tb fd0 q D k.val acc
      ⊢ wp frame (wpE (defs₀ (F := F)) 𝒱₀ (thr d L) none) Set.univ
          (k0_t4_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g v44 h1 k acc)
          (issueAt1 d L g h1 fI hI Tb fd0 q D (k.val + 1)) := by
  have hk : k.val < 10 := k.isLt
  unfold issueAt1
  rw [peel16 (fun k r => inp1 d L g h1 fI hI Tb fd0 q k r) k]
  unfold inp1
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t4_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.KernelIdeal

end
-- ==== Proof.KernelIdeal.Issue2.lean ====
/-
  Row buffer 2's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.KernelIdeal.TaskLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

theorem row2_inb : ∀ (k : Fin k0_t6_loop.trips) (r : Fin 16), ∀ a, (k0_off78 k (BitVec.ofNat 32 r.val)) a + S1x1x64.size a ≤ S4x160x128.size a := by decide +kernel

/-- Row `16 k + c` of buffer 2, columns 0 … 63, through the body's own offsets. -/
def rowAt2 (k : Fin k0_t6_loop.trips) (c : BitVec 32) (h : ∀ a, (k0_off78 k c) a + S1x1x64.size a ≤ S4x160x128.size a) : Memref sig .scVector .vmem S64 .f32 :=
  ((sR).slice (Rect.unit (s := S4x160x128) (k0_off78 k c) S1x1x64.size h) (fun _ => rfl)).squeeze S64 squeezes_S1x1x64_S64

/-- Word `r` of the sixteen tokens trip `k` of group `g` loads. -/
def wordAt2 (g : Fin k0_t1_loop.trips) (h1 : k0_cond7 g = 1#1) (k : Fin k0_t6_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off75 g k) S16.size (k0_off75_inb g k h1)).toLoadRect fI) shapeCasts_S16_S16) (slices16 r)) inpos_S1_p0

variable (g : Fin k0_t1_loop.trips) (h1 : k0_cond7 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp2 (k : Fin 10) (r : Fin 16) : sProp 𝕄 :=
  iprop(((rowAt2 k (BitVec.ofNat 32 r.val) (row2_inb k r)).view.loc (thr d L) ↦[(rowAt2 k (BitVec.ofNat 32 r.val) (row2_inb k r)).view.set]{fullShare} fd0)
    ∗ ((srcOf (wordAt2 d L g h1 k r fI) (chk_of_lt _ (hI _))).view.loc (thr d L) ↦[(srcOf (wordAt2 d L g h1 k r fI) (chk_of_lt _ (hI _))).view.set]{Transfers.shareTokN q (16 * k.val + r.val)} Tb))

/-- What it delivers: the row written with the table row, and the table row back. -/
def out2 (k : Fin 10) (r : Fin 16) : sProp 𝕄 :=
  iprop(((rowAt2 k (BitVec.ofNat 32 r.val) (row2_inb k r)).view.loc (thr d L) ↦[(rowAt2 k (BitVec.ofNat 32 r.val) (row2_inb k r)).view.set]{fullShare}
      ((rowAt2 k (BitVec.ofNat 32 r.val) (row2_inb k r)).view.writes (Elt F) fd0
        [⟨Rect.whole S64, ReadAs.same.apply ((srcOf (wordAt2 d L g h1 k r fI) (chk_of_lt _ (hI _))).view.read (Elt F) Tb)⟩]))
    ∗ ((srcOf (wordAt2 d L g h1 k r fI) (chk_of_lt _ (hI _))).view.loc (thr d L) ↦[(srcOf (wordAt2 d L g h1 k r fI) (chk_of_lt _ (hI _))).view.set]{Transfers.shareTokN q (16 * k.val + r.val)} Tb))

/-- Before trip `k`: `16 k` transfers issued, the token list in hand, the rows and table rows from `16 k` on. -/
def issueAt2 (D : Fin 160 → sProp 𝕄) (k : ℕ) (_ : Unit) : sProp 𝕄 :=
  iprop(Transfers.Batch countersEmb (thr d L) (.dma cc0_scratch4.sem) (none : HIx 1) NR D (16 * k) 0
    ∗ ((sI).view.loc (thr d L) ↦{fullShare} fI)
    ∗ bigSep (Ring.rangeSet 160 (16 * k) 160) (fun t => inp2 d L g h1 fI hI Tb fd0 q (kOf t) (rOf t)))

set_option maxHeartbeats 8000000 in
/-- One trip: the load, then sixteen times the check of the token and the start of its copy. -/
theorem issue2_step [∀ e, Nonempty (Elt F e)] (v1 v44 : BitVec 32) (D : Fin 160 → sProp 𝕄)
    (hDel : ∀ (k : Fin 10) (r : Fin 16) (j : ℕ) (hj : j < 160), j = 16 * k.val + r.val → out2 d L g h1 fI hI Tb fd0 q k r ⊢ D ⟨j, hj⟩)
    (k : Fin k0_t6_loop.trips) (acc : Unit) :
    issueAt2 d L g h1 fI hI Tb fd0 q D k.val acc
      ⊢ wp frame (wpE (defs₀ (F := F)) 𝒱₀ (thr d L) none) Set.univ
          (k0_t6_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g v44 h1 k acc)
          (issueAt2 d L g h1 fI hI Tb fd0 q D (k.val + 1)) := by
  have hk : k.val < 10 := k.isLt
  unfold issueAt2
  rw [peel16 (fun k r => inp2 d L g h1 fI hI Tb fd0 q k r) k]
  unfold inp2
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t6_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.KernelIdeal

end
-- ==== Proof.KernelIdeal.Issue3.lean ====
/-
  Row buffer 3's issue loop: one trip loads sixteen tokens of the worker's list and starts, for each, the copy of
  the table row it names into the next row of the buffer — all on the buffer's one semaphore, as transfers
  `16 k … 16 k + 15` of the chunk's batch of 160.
-/
import proofs.«206312_g12936441495622_cont_fleet_311_30_alg».proof.Proof.KernelIdeal.TaskLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

theorem row3_inb : ∀ (k : Fin k0_t8_loop.trips) (r : Fin 16), ∀ a, (k0_off114 k (BitVec.ofNat 32 r.val)) a + S1x1x64.size a ≤ S4x160x128.size a := by decide +kernel

/-- Row `16 k + c` of buffer 3, columns 0 … 63, through the body's own offsets. -/
def rowAt3 (k : Fin k0_t8_loop.trips) (c : BitVec 32) (h : ∀ a, (k0_off114 k c) a + S1x1x64.size a ≤ S4x160x128.size a) : Memref sig .scVector .vmem S64 .f32 :=
  ((sR).slice (Rect.unit (s := S4x160x128) (k0_off114 k c) S1x1x64.size h) (fun _ => rfl)).squeeze S64 squeezes_S1x1x64_S64

/-- Word `r` of the sixteen tokens trip `k` of group `g` loads. -/
def wordAt3 (g : Fin k0_t1_loop.trips) (h1 : k0_cond10 g = 1#1) (k : Fin k0_t8_loop.trips) (r : Fin 16) (fI : Buf (Elt F) ((sI).view.loc (thr d L))) : BitVec 32 :=
  extractAt ![0] (extractStridedSlice S1 ![r.val] (shapeCast S16 ((sI).view.readAt (Elt F) (Rect.unit (s := S10240) (k0_off111 g k) S16.size (k0_off111_inb g k h1)).toLoadRect fI) shapeCasts_S16_S16) (slices16 r)) inpos_S1_p0

variable (g : Fin k0_t1_loop.trips) (h1 : k0_cond10 g = 1#1) (fI : Buf (Elt F) ((sI).view.loc (thr d L))) (hI : ∀ j, (fI j).toNat < 1000000)
  (Tb : Buf (Elt F) (tabLoc d)) (fd0 : Buf (Elt F) ((sR).view.loc (thr d L))) (q : PosShare TreeShare)

/-- What transfer `16 k + r` is issued from: its row of the buffer at the base contents, and the table row its token
    names at the transfer's own read share. -/
def inp3 (k : Fin 10) (r : Fin 16) : sProp 𝕄 :=
  iprop(((rowAt3 k (BitVec.ofNat 32 r.val) (row3_inb k r)).view.loc (thr d L) ↦[(rowAt3 k (BitVec.ofNat 32 r.val) (row3_inb k r)).view.set]{fullShare} fd0)
    ∗ ((srcOf (wordAt3 d L g h1 k r fI) (chk_of_lt _ (hI _))).view.loc (thr d L) ↦[(srcOf (wordAt3 d L g h1 k r fI) (chk_of_lt _ (hI _))).view.set]{Transfers.shareTokN q (16 * k.val + r.val)} Tb))

/-- What it delivers: the row written with the table row, and the table row back. -/
def out3 (k : Fin 10) (r : Fin 16) : sProp 𝕄 :=
  iprop(((rowAt3 k (BitVec.ofNat 32 r.val) (row3_inb k r)).view.loc (thr d L) ↦[(rowAt3 k (BitVec.ofNat 32 r.val) (row3_inb k r)).view.set]{fullShare}
      ((rowAt3 k (BitVec.ofNat 32 r.val) (row3_inb k r)).view.writes (Elt F) fd0
        [⟨Rect.whole S64, ReadAs.same.apply ((srcOf (wordAt3 d L g h1 k r fI) (chk_of_lt _ (hI _))).view.read (Elt F) Tb)⟩]))
    ∗ ((srcOf (wordAt3 d L g h1 k r fI) (chk_of_lt _ (hI _))).view.loc (thr d L) ↦[(srcOf (wordAt3 d L g h1 k r fI) (chk_of_lt _ (hI _))).view.set]{Transfers.shareTokN q (16 * k.val + r.val)} Tb))

/-- Before trip `k`: `16 k` transfers issued, the token list in hand, the rows and table rows from `16 k` on. -/
def issueAt3 (D : Fin 160 → sProp 𝕄) (k : ℕ) (_ : Unit) : sProp 𝕄 :=
  iprop(Transfers.Batch countersEmb (thr d L) (.dma cc0_scratch5.sem) (none : HIx 1) NR D (16 * k) 0
    ∗ ((sI).view.loc (thr d L) ↦{fullShare} fI)
    ∗ bigSep (Ring.rangeSet 160 (16 * k) 160) (fun t => inp3 d L g h1 fI hI Tb fd0 q (kOf t) (rOf t)))

set_option maxHeartbeats 8000000 in
/-- One trip: the load, then sixteen times the check of the token and the start of its copy. -/
theorem issue3_step [∀ e, Nonempty (Elt F e)] (v1 v44 : BitVec 32) (D : Fin 160 → sProp 𝕄)
    (hDel : ∀ (k : Fin 10) (r : Fin 16) (j : ℕ) (hj : j < 160), j = 16 * k.val + r.val → out3 d L g h1 fI hI Tb fd0 q k r ⊢ D ⟨j, hj⟩)
    (k : Fin k0_t8_loop.trips) (acc : Unit) :
    issueAt3 d L g h1 fI hI Tb fd0 q D k.val acc
      ⊢ wp frame (wpE (defs₀ (F := F)) 𝒱₀ (thr d L) none) Set.univ
          (k0_t8_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            g v44 h1 k acc)
          (issueAt3 d L g h1 fI hI Tb fd0 q D (k.val + 1)) := by
  have hk : k.val < 10 := k.isLt
  unfold issueAt3
  rw [peel16 (fun k r => inp3 d L g h1 fI hI Tb fd0 q k r) k]
  unfold inp3
  iintro ⟨HB, HI, ⟨HR0, HT0⟩, ⟨HR1, HT1⟩, ⟨HR2, HT2⟩, ⟨HR3, HT3⟩, ⟨HR4, HT4⟩, ⟨HR5, HT5⟩, ⟨HR6, HT6⟩, ⟨HR7, HT7⟩, ⟨HR8, HT8⟩, ⟨HR9, HT9⟩, ⟨HR10, HT10⟩, ⟨HR11, HT11⟩, ⟨HR12, HT12⟩, ⟨HR13, HT13⟩, ⟨HR14, HT14⟩, ⟨HR15, HT15⟩, HRs⟩
  sl_unfold [k0_t8_body]
  sl_exec (disch := exact (fun _ => chk_of_lt _ (hI _)))
  sl_step
  isplitl [HB]
  · rw [show 16 * (k.val + 1) = 16 * k.val + 1 + 1 + 1 + 1 + 1 + 1 + 1 + 1 + 1 + 1 + 1 + 1 + 1 + 1 + 1 + 1 by omega]; iexact HB
  isplitl [HI]; · iexact HI
  iexact HRs

end Cert.Proof.KernelIdeal

end
-- ==== Proof.KernelIdeal.Pipe.lean ====
/-
  The task's pipeline: the operands as the task's memrefs address them, the token row fetched into the list, a
  chunk's batch of 160 copies opened from a free row buffer and closed into a buffer holding the table's rows, a
  write-back in flight, and the state between groups of four chunks.
-/
import proofs.«206312_g12936441495622_cont_fleet_311_30_alg».proof.Proof.KernelIdeal.CoreDefs
import proofs.«206312_g12936441495622_cont_fleet_311_30_alg».proof.Proof.KernelIdeal.Issue0
import proofs.«206312_g12936441495622_cont_fleet_311_30_alg».proof.Proof.KernelIdeal.Issue1
import proofs.«206312_g12936441495622_cont_fleet_311_30_alg».proof.Proof.KernelIdeal.Issue2
import proofs.«206312_g12936441495622_cont_fleet_311_30_alg».proof.Proof.KernelIdeal.Issue3

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

/-! ## The operands as the task addresses them -/

theorem pts_sI (f : Buf (Elt F) ((sI).view.loc (thr d L))) :
    (View.loc (thr d L) (View.whole cc0_scratch0) ↦{fullShare} f : sProp 𝕄) = ((sI).view.loc (thr d L) ↦{fullShare} f) := rfl
theorem pts_sR (f : Buf (Elt F) ((sR).view.loc (thr d L))) :
    (View.loc (thr d L) (View.whole cc0_scratch1) ↦{fullShare} f : sProp 𝕄) = ((sR).view.loc (thr d L) ↦{fullShare} f) := rfl
theorem pts_tV (q : PosShare TreeShare) (f : Buf (Elt F) (tabLoc d)) :
    (tabLoc d ↦{q} f : sProp 𝕄) = ((tV).view.loc (thr d L) ↦{q} f) := rfl
theorem pts_oV (S : Finset S16384x20x128.Idx) (f : Buf (Elt F) (outLoc d)) :
    (outLoc d ↦[S]{fullShare} f : sProp 𝕄) = ((oV).view.loc (thr d L) ↦[S]{fullShare} f) := rfl

/-- The worker's row of the reshaped tokens, as the fetch's source. -/
def iRowM (L : grid0.Coords) : Memref sig .scVector .hbm S10240 .i32 :=
  ((iV).slice (Rect.unit (s := S32x10240) (k0_off1 L) S1x10240.size (k0_off1_inb L)) (fun _ => rfl)).squeeze S10240 squeezes_S1x10240_S10240

theorem irowK_eq : Rect.unit (s := S32x10240) (k0_off1 L) S1x10240.size (k0_off1_inb L) = irow (widL L) := by
  unfold irow Rect.part Rect.block
  congr 1 <;> funext a
  · rw [k0_off1_eq]
    match a with
    | 0 => simp [Shape.partIx, Shape.partSize, widL]
    | 1 => simp [Shape.partIx, Shape.partSize]
  · match a with
    | 0 => simp [Shape.partSize]
    | 1 => simp [Shape.partSize]

theorem set_iRowM : (iRowM L).view.set = iRowSet (widL L) := by
  show (((iV).view.slice (Rect.unit (s := S32x10240) (k0_off1 L) S1x10240.size (k0_off1_inb L))).reshape S10240 squeezes_S1x10240_S10240.numel_eq).set = (irow (widL L)).set
  rw [View.set_reshape, View.set_slice_whole]
  exact irowK_eq L ▸ rfl

theorem pts_iRow (f : Buf (Elt F) (idxLoc d)) :
    (idxLoc d ↦[iRowSet (widL L)]{fullShare} f : sProp 𝕄) = ((iRowM L).view.loc (thr d L) ↦[(iRowM L).view.set]{fullShare} f) := by
  rw [set_iRowM]; rfl

end Cert.Proof.KernelIdeal

end
-- ==== Proof.KernelIdeal.RowsGeo.lean ====
/-
  The geometry of a worker's row buffers, free of the loops. Buffer b of the four is the elements (b, t, y) of the
  [4, 160, 128] scratch; row t of it, columns 0 … 63, is where the copy of one table row lands; columns 64 … 127 are
  never written. Read as [4, 8, 20, 128] (row-major: t = 20 a + s) a buffer is the source of one write-back. The table
  at a share is dealt out as one read share per word of a chunk. What a buffer must hold when its rows have landed.
-/
import proofs.«206312_g12936441495622_cont_fleet_311_30_alg».proof.Proof.KernelIdeal.TaskLib
import Idealize.ShloMosaic.Lib.Pipeline.Value
import Idealize.ShloMosaic.Lib.Writes

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

/-! ## The buffers' elements -/

/-- Row `t` of buffer `b`, columns 0 … 63. -/
def rowSet (b : Fin 4) (t : Fin 160) : Finset S4x160x128.Idx :=
  (Rect.unit (s := S4x160x128) ![b.val, t.val, 0] S1x1x64.size (rowBuf_inb b t)).set
/-- Buffer `b`, columns 64 … 127; all of buffer `b`. -/
def rightSet (b : Fin 4) : Finset S4x160x128.Idx := Finset.univ.filter fun y => (y 0).val = b.val ∧ 64 ≤ (y 2).val
def bufSet (b : Fin 4) : Finset S4x160x128.Idx := Finset.univ.filter fun y => (y 0).val = b.val

theorem mem_rowSet (b : Fin 4) (t : Fin 160) (y : S4x160x128.Idx) :
    y ∈ rowSet b t ↔ (y 0).val = b.val ∧ (y 1).val = t.val ∧ (y 2).val < 64 := by
  unfold rowSet; rw [Rect.mem_set_unit]
  constructor
  · intro H
    have a0 : b.val ≤ (y 0).val ∧ (y 0).val < b.val + 1 := H 0
    have a1 : t.val ≤ (y 1).val ∧ (y 1).val < t.val + 1 := H 1
    have a2 : 0 ≤ (y 2).val ∧ (y 2).val < 0 + 64 := H 2
    omega
  · intro H a; fin_cases a
    · show b.val ≤ (y 0).val ∧ (y 0).val < b.val + 1; omega
    · show t.val ≤ (y 1).val ∧ (y 1).val < t.val + 1; omega
    · show 0 ≤ (y 2).val ∧ (y 2).val < 0 + 64; omega
theorem mem_rightSet (b : Fin 4) (y : S4x160x128.Idx) : y ∈ rightSet b ↔ (y 0).val = b.val ∧ 64 ≤ (y 2).val := by
  simp only [rightSet, Finset.mem_filter, Finset.mem_univ, true_and]
theorem mem_bufSet (b : Fin 4) (y : S4x160x128.Idx) : y ∈ bufSet b ↔ (y 0).val = b.val := by
  simp only [bufSet, Finset.mem_filter, Finset.mem_univ, true_and]

theorem rowSet_disjoint (b : Fin 4) : ∀ t ∈ (Finset.univ : Finset (Fin 160)), ∀ t' ∈ (Finset.univ : Finset (Fin 160)), t ≠ t' → Disjoint (rowSet b t) (rowSet b t') :=
  fun t _ t' _ hne => by
    rw [Finset.disjoint_left]; intro y hy hy'; rw [mem_rowSet] at hy hy'; exact hne (Fin.ext (by omega))
theorem rows_right_disjoint (b : Fin 4) : Disjoint ((Finset.univ : Finset (Fin 160)).biUnion (rowSet b)) (rightSet b) := by
  rw [Finset.disjoint_left]; intro y hy hy'
  obtain ⟨t, -, ht⟩ := Finset.mem_biUnion.mp hy
  rw [mem_rowSet] at ht; rw [mem_rightSet] at hy'; omega
/-- A buffer is its 160 rows and its right half. -/
theorem bufSet_eq (b : Fin 4) : bufSet b = (Finset.univ : Finset (Fin 160)).biUnion (rowSet b) ∪ rightSet b := by
  ext y
  simp only [Finset.mem_union, Finset.mem_biUnion, Finset.mem_univ, true_and, mem_bufSet, mem_rowSet, mem_rightSet]
  constructor
  · intro h
    by_cases h2 : (y 2).val < 64
    · exact .inl ⟨⟨(y 1).val, (y 1).isLt⟩, h, rfl, h2⟩
    · exact .inr ⟨h, by omega⟩
  · rintro (⟨t, h, -, -⟩ | ⟨h, -⟩) <;> exact h

variable [FloatOps F] (d : Dev nD) (L : grid0.Coords)

/-! ## The buffer read as [4, 8, 20, 128], and rows of 64 -/

/-- Element `(b, a, s, c)` of the `[4, 8, 20, 128]` reading is element `(b, 20 a + s, c)`. -/
theorem reshape4_eq (x : S4x8x20x128.Idx) (y : S4x160x128.Idx)
    (e0 : (y 0).val = (x 0).val) (e1 : (y 1).val = 20 * (x 1).val + (x 2).val) (e2 : (y 2).val = (x 3).val) :
    Shape.reshapeEquiv (s := S4x160x128) (s' := S4x8x20x128) reshapes_S4x160x128_S4x8x20x128.1 x = y := by
  refine Shape.reshapeEquiv_eq_of_rowMajor _ ?_
  rw [Shape.rowMajor_val_three, Shape.rowMajor_val_four]
  show ((y 0).val * 160 + (y 1).val) * 128 + (y 2).val = (((x 0).val * 8 + (x 1).val) * 20 + (x 2).val) * 128 + (x 3).val
  rw [e0, e1, e2]; omega

/-- Element `y` of a row read as `[1, 1, 64]` is element `(0, 0, y)`; read as `[1, 64]`, element `(0, y)`. -/
theorem reshape_row3 (h : S64.numel = S1x1x64.numel) (y : Fin 64) :
    Shape.reshapeEquiv (s := S1x1x64) (s' := S64) h (ix1 y) = ix3 (0 : Fin 1) (0 : Fin 1) y := by
  refine Shape.reshapeEquiv_eq_of_rowMajor _ ?_
  rw [Shape.rowMajor_val_three, Shape.rowMajor_val_one]
  show (0 * 1 + 0) * 64 + y.val = y.val
  omega
theorem reshape_row2 (h : S64.numel = S1x64.numel) (y : Fin 64) :
    Shape.reshapeEquiv (s := S1x64) (s' := S64) h (ix1 y) = ix2 (0 : Fin 1) y := by
  refine Shape.reshapeEquiv_eq_of_rowMajor _ ?_
  rw [Shape.rowMajor_val_two, Shape.rowMajor_val_one]
  show 0 * 64 + y.val = y.val
  omega

/-- A buffer held is its 160 rows held and its right half. -/
theorem buf_rows (b : Fin 4) (f : Buf (Elt F) ((sR).view.loc (thr d L))) :
    ((sR).view.loc (thr d L) ↦[bufSet b]{fullShare} f : sProp 𝕄)
      = iprop((bigSep (Finset.univ : Finset (Fin 160)) fun t => (sR).view.loc (thr d L) ↦[rowSet b t]{fullShare} f)
          ∗ ((sR).view.loc (thr d L) ↦[rightSet b]{fullShare} f)) := by
  rw [bufSet_eq, ← pointsTo_biUnion Finset.univ (ℓ := (sR).view.loc (thr d L)) (rowSet b) (rowSet_disjoint b)]
  exact BI.equiv_iff.mp ⟨(pointsTo_union (rows_right_disjoint b)).1, (pointsTo_union (rows_right_disjoint b)).2⟩

/-- Transfer number `t` is lane `t % 16` of trip `t / 16`. -/
theorem kr_eq (t : Fin 160) (h : 16 * (kOf t).val + (rOf t).val < 160) : (⟨16 * (kOf t).val + (rOf t).val, h⟩ : Fin 160) = t :=
  Fin.ext (by show 16 * (t.val / 16) + t.val % 16 = t.val; omega)

/-- The table's row named by word `w`: element `y` of it is the table's `(w, y)`. -/
theorem srcOf_emb (w : BitVec 32) (h : ∀ a, (k0_off5 w) a + S1x64.size a ≤ S1000000x64.size a) (hw : w.toNat < 1000000) (y : Fin 64) :
    (srcOf w h).view.emb (ix1 y) = (ix2 (⟨w.toNat, hw⟩ : Fin 1000000) y : S1000000x64.Idx) := by
  unfold srcOf
  show (Rect.unit (s := S1000000x64) (k0_off5 w) S1x64.size h).emb (Shape.reshapeEquiv (s := S1x64) (s' := S64) squeezes_S1x64_S64.numel_eq (ix1 y)) = _
  rw [reshape_row2]
  funext a
  refine Fin.ext ?_
  rw [Rect.emb_apply]
  match a with
  | ⟨0, _⟩ => show w.toNat + 1 * 0 = w.toNat; omega
  | ⟨1, _⟩ => show 0 + 1 * y.val = y.val; omega
theorem srcOf_read (w : BitVec 32) (h : ∀ a, (k0_off5 w) a + S1x64.size a ≤ S1000000x64.size a) (hw : w.toNat < 1000000)
    (Tb : Buf (Elt F) (tabLoc d)) (y : Fin 64) :
    (srcOf w h).view.read (Elt F) Tb (ix1 y) = Tb (ix2 (⟨w.toNat, hw⟩ : Fin 1000000) y) := by
  exact congrArg Tb (srcOf_emb w h hw y)

/-! ## The value a landed row holds, and the table's read shares -/

/-- The table row that token number `n` of the list names, at column `y`. -/
def tokVal (fI : Buf (Elt F) ((sI).view.loc (thr d L))) (hI : ∀ j, (fI j).toNat < 1000000) (Tb : Buf (Elt F) (tabLoc d))
    (n : ℕ) (hn : n < 10240) (y : Fin 64) : Elt F .f32 :=
  Tb (ix2 (⟨(fI (ix1 (⟨n, hn⟩ : Fin 10240))).toNat, hI _⟩ : Fin 1000000) y)

theorem tokVal_congr (fI : Buf (Elt F) ((sI).view.loc (thr d L))) (hI : ∀ j, (fI j).toNat < 1000000) (Tb : Buf (Elt F) (tabLoc d))
    {n n' : ℕ} (e : n = n') (hn : n < 10240) (hn' : n' < 10240) (y : Fin 64) : tokVal d L fI hI Tb n hn y = tokVal d L fI hI Tb n' hn' y := by
  subst e; rfl

theorem tokVal_of_word (fI : Buf (Elt F) ((sI).view.loc (thr d L))) (hI : ∀ j, (fI j).toNat < 1000000) (Tb : Buf (Elt F) (tabLoc d))
    (w : BitVec 32) (hw : w.toNat < 1000000) (n : ℕ) (hn : n < 10240) (e : w = fI (ix1 (⟨n, hn⟩ : Fin 10240))) (y : Fin 64) :
    Tb (ix2 (⟨w.toNat, hw⟩ : Fin 1000000) y) = tokVal d L fI hI Tb n hn y := by
  subst e; rfl

/-- `∗` rotated. -/
theorem sep_rot (A B C : sProp 𝕄) : iprop(A ∗ B ∗ C) = (iprop(B ∗ C ∗ A) : sProp 𝕄) := by
  have h1 : iprop(A ∗ B ∗ C) ⊢ (iprop(B ∗ C ∗ A) : sProp 𝕄) := by
    iintro ⟨Ha, Hb, Hc⟩
    isplitl [Hb]; · iexact Hb
    isplitl [Hc]; · iexact Hc
    iexact Ha
  have h2 : iprop(B ∗ C ∗ A) ⊢ (iprop(A ∗ B ∗ C) : sProp 𝕄) := by
    iintro ⟨Hb, Hc, Ha⟩
    isplitl [Ha]; · iexact Ha
    isplitl [Hb]; · iexact Hb
    iexact Hc
  exact BI.equiv_iff.mp ⟨h1, h2⟩

/-- (R4) The table at share `q` is, for each of 160 words, the table row the word names and the rest of the table, both at
    the word's own read share, and a remainder. -/
theorem tokens_split (q : PosShare TreeShare) (Tb : Buf (Elt F) (tabLoc d)) (w : Fin 160 → BitVec 32)
    (hw : ∀ t, ∀ a, (k0_off5 (w t)) a + S1x64.size a ≤ S1000000x64.size a) :
    ((tV).view.loc (thr d L) ↦{q} Tb : sProp 𝕄)
      = iprop((bigSep (Finset.univ : Finset (Fin 160)) fun t =>
              (srcOf (w t) (hw t)).view.loc (thr d L) ↦[(srcOf (w t) (hw t)).view.set]{Transfers.shareTokN q (16 * (kOf t).val + (rOf t).val)} Tb)
          ∗ (bigSep (Finset.univ : Finset (Fin 160)) fun t =>
              (tV).view.loc (thr d L) ↦[Finset.univ \ (srcOf (w t) (hw t)).view.set]{Transfers.shareTokN q t.val} Tb)
          ∗ ((tV).view.loc (thr d L) ↦{Transfers.shareDrop q 160} Tb)) := by
  have h0 : ((tV).view.loc (thr d L) ↦{q} Tb : sProp 𝕄)
      ⊣⊢ iprop(((tV).view.loc (thr d L) ↦{Transfers.shareDrop q 160} Tb)
        ∗ bigSep Finset.univ (fun i : Fin 160 => (tV).view.loc (thr d L) ↦{Transfers.shareTok q 160 i} Tb)) := Transfers.pointsTo_toks q 160
  rw [BI.equiv_iff.mp ⟨h0.1, h0.2⟩]
  have e1 : (bigSep Finset.univ fun i : Fin 160 => ((tV).view.loc (thr d L) ↦{Transfers.shareTok q 160 i} Tb : sProp 𝕄))
      = iprop((bigSep (Finset.univ : Finset (Fin 160)) fun t =>
              (srcOf (w t) (hw t)).view.loc (thr d L) ↦[(srcOf (w t) (hw t)).view.set]{Transfers.shareTokN q (16 * (kOf t).val + (rOf t).val)} Tb)
          ∗ (bigSep (Finset.univ : Finset (Fin 160)) fun t =>
              (tV).view.loc (thr d L) ↦[Finset.univ \ (srcOf (w t) (hw t)).view.set]{Transfers.shareTokN q t.val} Tb)) := by
    rw [← bigSep_sep']
    refine bigSep_congr fun t _ => ?_
    have et : 16 * (kOf t).val + (rOf t).val = t.val := by show 16 * (t.val / 16) + t.val % 16 = t.val; omega
    rw [et]
    have h1 : ((tV).view.loc (thr d L) ↦[Finset.univ]{Transfers.shareTokN q t.val} Tb : sProp 𝕄)
        ⊣⊢ iprop(((tV).view.loc (thr d L) ↦[(srcOf (w t) (hw t)).view.set]{Transfers.shareTokN q t.val} Tb)
          ∗ ((tV).view.loc (thr d L) ↦[Finset.univ \ (srcOf (w t) (hw t)).view.set]{Transfers.shareTokN q t.val} Tb)) :=
      pointsTo_split_subset (Finset.subset_univ _)
    exact BI.equiv_iff.mp ⟨h1.1, h1.2⟩
  rw [e1]
  exact sep_rot _ _ _

/-- Row `t` of buffer `b`, columns 0 … 63, holds the table row that token number `base + t` of the list names. -/
def rowsGood (b : Fin 4) (base : ℕ) (fI : S10240.Idx → BitVec 32) (Tb : Buf (Elt F) (tabLoc d)) (f' : Buf (Elt F) ((sR).view.loc (thr d L))) : Prop :=
  ∀ (t : Fin 160) (y : Fin 64), f' (ix3 b t (⟨y.val, by omega⟩ : Fin 128))
    = Tb (ix2 (Cert.Spec.rowOf (fI (ix1 (⟨(base + t.val) % 10240, Nat.mod_lt _ (by decide)⟩ : Fin 10240)))) y)

theorem tokVal_eq_rowOf (fI : Buf (Elt F) ((sI).view.loc (thr d L))) (hI : ∀ j, (fI j).toNat < 1000000) (Tb : Buf (Elt F) (tabLoc d))
    (n : ℕ) (hn : n < 10240) (y : Fin 64) :
    tokVal d L fI hI Tb n hn y = Tb (ix2 (Cert.Spec.rowOf (fI (ix1 (⟨n % 10240, Nat.mod_lt _ (by decide)⟩ : Fin 10240)))) y) := by
  unfold tokVal
  have e : (⟨n % 10240, Nat.mod_lt _ (by decide)⟩ : Fin 10240) = ⟨n, hn⟩ := Fin.ext (Nat.mod_eq_of_lt hn)
  rw [e]
  exact congrArg (fun r => Tb (ix2 r y)) (Fin.ext (Cert.Spec.rowOf_val _ (hI _)).symm)

/-- Buffer 0 read as `[8, 20, 128]`: the write-back's source, as the body spells it. -/
def bufW0 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![0, 0, 0, 0] S1x8x20x128.size inb_S4x8x20x128_S1x8x20x128_0_0_0_0) (fun _ => rfl)).squeeze S8x20x128 squeezes_S1x8x20x128_S8x20x128

/-- (R2) Its elements are buffer 0's. -/
theorem bufW0_set : (bufW0).view.set = bufSet 0 := by
  unfold bufW0
  refine (View.set_reshape _ _).trans ((View.set_slice _ _).trans ?_)
  ext y
  rw [Finset.mem_map, mem_bufSet]
  constructor
  · rintro ⟨x, hx, rfl⟩
    have hx0 : 0 ≤ (x 0).val ∧ (x 0).val < 0 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 0
    rw [e]
    show (x 0).val = 0
    omega
  · intro hy
    have hy' : (y 0).val = 0 := hy
    have h1 : (y 1).val < 160 := (y 1).isLt
    have h2 : (y 2).val < 128 := (y 2).isLt
    refine ⟨ix4 (⟨0, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 0 ≤ 0 ∧ 0 < 0 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 0; omega) (by show (y 1).val = 20 * ((y 1).val / 20) + (y 1).val % 20; omega) rfl

/-- Buffer 1 read as `[8, 20, 128]`: the write-back's source, as the body spells it. -/
def bufW1 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![1, 0, 0, 0] S1x8x20x128.size inb_S4x8x20x128_S1x8x20x128_1_0_0_0) (fun _ => rfl)).squeeze S8x20x128 squeezes_S1x8x20x128_S8x20x128

/-- (R2) Its elements are buffer 1's. -/
theorem bufW1_set : (bufW1).view.set = bufSet 1 := by
  unfold bufW1
  refine (View.set_reshape _ _).trans ((View.set_slice _ _).trans ?_)
  ext y
  rw [Finset.mem_map, mem_bufSet]
  constructor
  · rintro ⟨x, hx, rfl⟩
    have hx0 : 1 ≤ (x 0).val ∧ (x 0).val < 1 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 1
    rw [e]
    show (x 0).val = 1
    omega
  · intro hy
    have hy' : (y 0).val = 1 := hy
    have h1 : (y 1).val < 160 := (y 1).isLt
    have h2 : (y 2).val < 128 := (y 2).isLt
    refine ⟨ix4 (⟨1, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 1 ≤ 1 ∧ 1 < 1 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 1; omega) (by show (y 1).val = 20 * ((y 1).val / 20) + (y 1).val % 20; omega) rfl

/-- Buffer 2 read as `[8, 20, 128]`: the write-back's source, as the body spells it. -/
def bufW2 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![2, 0, 0, 0] S1x8x20x128.size inb_S4x8x20x128_S1x8x20x128_2_0_0_0) (fun _ => rfl)).squeeze S8x20x128 squeezes_S1x8x20x128_S8x20x128

/-- (R2) Its elements are buffer 2's. -/
theorem bufW2_set : (bufW2).view.set = bufSet 2 := by
  unfold bufW2
  refine (View.set_reshape _ _).trans ((View.set_slice _ _).trans ?_)
  ext y
  rw [Finset.mem_map, mem_bufSet]
  constructor
  · rintro ⟨x, hx, rfl⟩
    have hx0 : 2 ≤ (x 0).val ∧ (x 0).val < 2 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 2
    rw [e]
    show (x 0).val = 2
    omega
  · intro hy
    have hy' : (y 0).val = 2 := hy
    have h1 : (y 1).val < 160 := (y 1).isLt
    have h2 : (y 2).val < 128 := (y 2).isLt
    refine ⟨ix4 (⟨2, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 2 ≤ 2 ∧ 2 < 2 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 2; omega) (by show (y 1).val = 20 * ((y 1).val / 20) + (y 1).val % 20; omega) rfl

/-- Buffer 3 read as `[8, 20, 128]`: the write-back's source, as the body spells it. -/
def bufW3 : Memref sig .scVector .vmem S8x20x128 .f32 :=
  (((sR).reshape S4x8x20x128 reshapes_S4x160x128_S4x8x20x128.1 reshapes_S4x160x128_S4x8x20x128.2 (Memref.isWhole_whole _).contiguous).slice
    (Rect.unit (s := S4x8x20x128) ![3, 0, 0, 0] S1x8x20x128.size inb_S4x8x20x128_S1x8x20x128_3_0_0_0) (fun _ => rfl)).squeeze S8x20x128 squeezes_S1x8x20x128_S8x20x128

/-- (R2) Its elements are buffer 3's. -/
theorem bufW3_set : (bufW3).view.set = bufSet 3 := by
  unfold bufW3
  refine (View.set_reshape _ _).trans ((View.set_slice _ _).trans ?_)
  ext y
  rw [Finset.mem_map, mem_bufSet]
  constructor
  · rintro ⟨x, hx, rfl⟩
    have hx0 : 3 ≤ (x 0).val ∧ (x 0).val < 3 + 1 := (Rect.mem_set_unit.mp hx) 0
    have h1 : (x 1).val < 8 := (x 1).isLt
    have h2 : (x 2).val < 20 := (x 2).isLt
    have e := reshape4_eq x (ix3 (⟨(x 0).val, (x 0).isLt⟩ : Fin 4) (⟨20 * (x 1).val + (x 2).val, by omega⟩ : Fin 160) (⟨(x 3).val, (x 3).isLt⟩ : Fin 128)) rfl rfl rfl
    show ((Shape.reshapeEquiv (s := S4x160x128) (s' := S4x8x20x128) reshapes_S4x160x128_S4x8x20x128.1 x) 0).val = 3
    rw [e]
    show (x 0).val = 3
    omega
  · intro hy
    have hy' : (y 0).val = 3 := hy
    have h1 : (y 1).val < 160 := (y 1).isLt
    have h2 : (y 2).val < 128 := (y 2).isLt
    refine ⟨ix4 (⟨3, by decide⟩ : Fin 4) (⟨(y 1).val / 20, by omega⟩ : Fin 8) (⟨(y 1).val % 20, Nat.mod_lt _ (by decide)⟩ : Fin 20) (⟨(y 2).val, (y 2).isLt⟩ : Fin 128), ?_, ?_⟩
    · refine Rect.mem_set_unit.mpr fun a => ?_
      fin_cases a
      · show 3 ≤ 3 ∧ 3 < 3 + 1; omega
      · show 0 ≤ (y 1).val / 20 ∧ (y 1).val / 20 < 0 + 8; omega
      · show 0 ≤ (y 1).val % 20 ∧ (y 1).val % 20 < 0 + 20; omega
      · show 0 ≤ (y 2).val ∧ (y 2).val < 0 + 128; omega
    · exact reshape4_eq _ y (by show (y 0).val = 3; omega) (by show (y 1).val = 20 * ((y 1).val / 20) + (y 1).val % 20; omega) rfl

end Cert.Proof.KernelIdeal

end
-- ==== Proof.KernelIdeal.Rows.lean ====
/-
  A worker's row buffers through the loops' own names. A token vector's word r of trip k of group g is token number
  640 g + 160 b + 16 k + r of the worker's list; row 16 k + r of buffer b, as a copy addresses it, is that row's 64
  elements. A buffer held splits into its 160 rows and its right half and the table into one read share per word: what
  the 160 copies of a chunk are issued from. Once they have all landed the pieces join again: row t of the buffer holds
  the table row that token 640 g + 160 b + t names, and the table is whole.
-/
import proofs.«206312_g12936441495622_cont_fleet_311_30_alg».proof.Proof.KernelIdeal.RowsGeo
import proofs.«206312_g12936441495622_cont_fleet_311_30_alg».proof.Proof.KernelIdeal.Issue0
import proofs.«206312_g12936441495622_cont_fleet_311_30_alg».proof.Proof.KernelIdeal.Issue1
import proofs.«206312_g12936441495622_cont_fleet_311_30_alg».proof.Proof.KernelIdeal.Issue2
import proofs.«206312_g12936441495622_cont_fleet_311_30_alg».proof.Proof.KernelIdeal.Issue3

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

/-! ## Buffer 0 -/

/-- Trip `k`'s row `r` of buffer 0 for every one of the sixteen lanes. -/
theorem off_row0_eq : ∀ (k : Fin k0_t2_loop.trips) (r : Fin 16), k0_off6 k (BitVec.ofNat 32 r.val) = ![0, 16 * k.val + r.val, 0] := by decide +kernel

theorem word0_lt (g : Fin k0_t1_loop.trips) (h1 : k0_cond1 g = 1#1) (k : Fin k0_t2_loop.trips) (r : Fin 16) :
    640 * g.val + 160 * 0 + 16 * k.val + r.val < 10240 := by
  have h : (k0_off3 g k) 0 + 16 ≤ 10240 := k0_off3_inb g k h1 0
  rw [k0_off3_eq] at h
  have h' : 640 * g.val + 16 * k.val + 160 * 0 + 16 ≤ 10240 := by
    have e : (![640 * g.val + 16 * k.val] : Fin 1 → ℕ) 0 = 640 * g.val + 16 * k.val := rfl
    rw [e] at h; omega
  have := r.isLt
  omega

/-- (R1) Word `r` of trip `k` of group `g` is token number `640 g + 160 · 0 + 16 k + r` of the list. -/
theorem wordAt0_eq (g : Fin k0_t1_loop.trips) (h1 : k0_cond1 g = 1#1) (k : Fin k0_t2_loop.trips) (r : Fin 16)
    (fI : Buf (Elt F) ((sI).view.loc (thr d L))) :
    wordAt0 d L g h1 k r fI = fI (ix1 (⟨640 * g.val + 160 * 0 + 16 * k.val + r.val, word0_lt g h1 k r⟩ : Fin 10240)) := by
  unfold wordAt0 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off3 g k) 0 + 1 * r.val = 640 * g.val + 160 * 0 + 16 * k.val + r.val
    rw [k0_off3_eq]
    show 640 * g.val + 16 * k.val + 1 * r.val = _
    omega

theorem row0_lt (k : Fin k0_t2_loop.trips) (r : Fin 16) : 16 * k.val + r.val < 160 := by
  have hk : k.val < 10 := k.isLt
  have := r.isLt; omega

/-- (R2) Row `16 k + r` of buffer 0, as the body addresses it, is that row's 64 elements. -/
theorem rowAt0_set (k : Fin k0_t2_loop.trips) (r : Fin 16) :
    (rowAt0 k (BitVec.ofNat 32 r.val) (row0_inb k r)).view.set = rowSet 0 ⟨16 * k.val + r.val, row0_lt k r⟩ := by
  unfold rowAt0
  refine ((View.set_reshape _ _).trans (View.set_slice_whole _ _)).trans ?_
  ext y
  rw [mem_rowSet, Rect.mem_set_unit]
  have e := off_row0_eq k r
  constructor
  · intro H
    have a0 := H 0; have a1 := H 1; have a2 := H 2
    rw [e] at a0 a1 a2
    have b0 : 0 ≤ (y 0).val ∧ (y 0).val < 0 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 0; omega
    · show (y 1).val = 16 * k.val + r.val; omega
    · omega
  · rintro ⟨h0, h1, h2⟩ a
    have h0' : (y 0).val = 0 := h0
    have h1' : (y 1).val = 16 * k.val + r.val := h1
    rw [e]
    fin_cases a
    · show 0 ≤ (y 0).val ∧ (y 0).val < 0 + 1; omega
    · show 16 * k.val + r.val ≤ (y 1).val ∧ (y 1).val < 16 * k.val + r.val + 1; omega
    · show 0 ≤ (y 2).val ∧ (y 2).val < 0 + 64; omega
/-- (R3) Buffer 0 held is its 160 rows held, as the copies address them, and its right half. -/
theorem buf0_split (f : Buf (Elt F) ((sR).view.loc (thr d L))) :
    ((bufW0).view.loc (thr d L) ↦[(bufW0).view.set]{fullShare} f : sProp 𝕄)
      = iprop((bigSep (Finset.univ : Finset (Fin 160)) fun t =>
            (rowAt0 (kOf t) (BitVec.ofNat 32 (rOf t).val) (row0_inb _ _)).view.loc (thr d L)
              ↦[(rowAt0 (kOf t) (BitVec.ofNat 32 (rOf t).val) (row0_inb _ _)).view.set]{fullShare} f)
          ∗ ((sR).view.loc (thr d L) ↦[rightSet 0]{fullShare} f)) := by
  rw [bufW0_set]
  refine (buf_rows d L 0 f).trans ?_
  refine congrArg (fun X : sProp 𝕄 => (iprop(X ∗ ((sR).view.loc (thr d L) ↦[rightSet 0]{fullShare} f)) : sProp 𝕄)) ?_
  refine bigSep_congr fun t _ => ?_
  have e := rowAt0_set (kOf t) (rOf t)
  rw [kr_eq] at e
  exact congrArg (fun I => ((sR).view.loc (thr d L) ↦[I]{fullShare} f : sProp 𝕄)) e.symm

/-- Element `y` of row `16 k + r` of buffer 0 sits at `(0, 16 k + r, y)`. -/
theorem rowAt0_emb (k : Fin k0_t2_loop.trips) (r : Fin 16) (y : Fin 64) :
    (rowAt0 k (BitVec.ofNat 32 r.val) (row0_inb k r)).view.emb (ix1 y)
      = (ix3 (0 : Fin 4) (⟨16 * k.val + r.val, row0_lt k r⟩ : Fin 160) (⟨y.val, by omega⟩ : Fin 128) : S4x160x128.Idx) := by
  unfold rowAt0
  show (Rect.unit (s := S4x160x128) (k0_off6 k (BitVec.ofNat 32 r.val)) S1x1x64.size (row0_inb k r)).emb
    (Shape.reshapeEquiv (s := S1x1x64) (s' := S64) squeezes_S1x1x64_S64.numel_eq (ix1 y)) = _
  rw [reshape_row3]
  funext a
  refine Fin.ext ?_
  rw [Rect.emb_apply]
  have e := off_row0_eq k r
  match a with
  | ⟨0, _⟩ => show (k0_off6 k (BitVec.ofNat 32 r.val)) 0 + 1 * 0 = 0; rw [e]; rfl
  | ⟨1, _⟩ => show (k0_off6 k (BitVec.ofNat 32 r.val)) 1 + 1 * 0 = 16 * k.val + r.val; rw [e]; rfl
  | ⟨2, _⟩ => show (k0_off6 k (BitVec.ofNat 32 r.val)) 2 + 1 * y.val = y.val; rw [e]; show 0 + 1 * y.val = y.val; omega

/-- A row written whole with `w` holds `w`. -/
theorem rowAt0_landed (k : Fin k0_t2_loop.trips) (r : Fin 16) (fd0 : Buf (Elt F) ((sR).view.loc (thr d L))) (w : S64.Idx → Elt F .f32) (y : Fin 64) :
    ((rowAt0 k (BitVec.ofNat 32 r.val) (row0_inb k r)).view.writes (Elt F) fd0 [⟨Rect.whole S64, w⟩])
        (ix3 (0 : Fin 4) (⟨16 * k.val + r.val, row0_lt k r⟩ : Fin 160) (⟨y.val, by omega⟩ : Fin 128))
      = w (ix1 y) := by
  have h := View.read_writes_cons_emb (rowAt0 k (BitVec.ofNat 32 r.val) (row0_inb k r)).view fd0 (Rect.whole S64) w [] (ix1 y)
  rw [Rect.emb_whole_apply, View.read_apply, rowAt0_emb k r y] at h
  exact h

theorem tok0_lt (g : Fin k0_t1_loop.trips) (h1 : k0_cond1 g = 1#1) (n : ℕ) (hn : n < 160) : 640 * g.val + 160 * 0 + n < 10240 := by
  have h := word0_lt g h1 (⟨9, by decide⟩ : Fin k0_t2_loop.trips) (15 : Fin 16)
  have h' : 640 * g.val + 160 * 0 + 16 * 9 + 15 < 10240 := h
  omega

/-- What buffer 0 holds once its 160 rows have landed over `fd0`: row `t`, columns 0 … 63, the table row token
    `640 g + 160 · 0 + t` names; columns 64 … 127 as before. -/
def landed0 (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 0 + (i 1).val) (tok0_lt g h1 _ (i 1).isLt) (⟨(i 2).val, hi⟩ : Fin 64)
    else fd0 i

theorem landed0_apply (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed0 d L g h1 fI hI Tb fd0 (ix3 (0 : Fin 4) t (⟨y.val, by omega⟩ : Fin 128))
      = tokVal d L fI hI Tb (640 * g.val + 160 * 0 + t.val) (tok0_lt g h1 _ t.isLt) y := by
  unfold landed0
  rw [dif_pos (show ((ix3 (0 : Fin 4) t (⟨y.val, by omega⟩ : Fin 128) : S4x160x128.Idx) 2).val < 64 from y.isLt)]
  rfl

/-- A landed row agrees with `landed0` on its 64 elements. -/
theorem landed0_row (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t2_loop.trips) (r : Fin 16) :
    ∀ (i : S4x160x128.Idx), i ∈ ((rowAt0 k (BitVec.ofNat 32 r.val) (row0_inb k r)).view.set : Finset S4x160x128.Idx) →
      ((rowAt0 k (BitVec.ofNat 32 r.val) (row0_inb k r)).view.writes (Elt F) fd0
          [⟨Rect.whole S64, ReadAs.same.apply ((srcOf (wordAt0 d L g h1 k r fI) (chk_of_lt _ (hI _))).view.read (Elt F) Tb)⟩]) i
        = landed0 d L g h1 fI hI Tb fd0 i := by
  intro i hi
  have hi' : (i : S4x160x128.Idx) ∈ rowSet 0 ⟨16 * k.val + r.val, row0_lt k r⟩ := by
    have h := hi; rw [rowAt0_set k r] at h; exact h
  obtain ⟨h0, h1', h2⟩ := (mem_rowSet 0 _ i).mp hi'
  obtain ⟨y, hy⟩ : ∃ y : Fin 64, (i 2).val = y.val := ⟨⟨(i 2).val, h2⟩, rfl⟩
  have ei : i = (ix3 (0 : Fin 4) (⟨16 * k.val + r.val, row0_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt0_landed d L k r fd0 _ y, landed0_apply d L g h1 fI hI Tb fd0 ⟨16 * k.val + r.val, row0_lt k r⟩ y]
  show (srcOf (wordAt0 d L g h1 k r fI) (chk_of_lt _ (hI _))).view.read (Elt F) Tb (ix1 y) = _
  rw [srcOf_read d (wordAt0 d L g h1 k r fI) (chk_of_lt _ (hI _)) (hI _) Tb y]
  refine (tokVal_of_word d L fI hI Tb _ (hI _) _ (word0_lt g h1 k r) (wordAt0_eq d L g h1 k r fI) y).trans ?_
  exact tokVal_congr d L fI hI Tb (by show 640 * g.val + 160 * 0 + 16 * k.val + r.val = 640 * g.val + 160 * 0 + (16 * k.val + r.val); omega) _ _ y

/-- A landed row, held, is that row of `landed0` held; the untouched right half likewise. -/
theorem landed0_pts (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t2_loop.trips) (r : Fin 16) :
    ((rowAt0 k (BitVec.ofNat 32 r.val) (row0_inb k r)).view.loc (thr d L) ↦[(rowAt0 k (BitVec.ofNat 32 r.val) (row0_inb k r)).view.set]{fullShare}
        ((rowAt0 k (BitVec.ofNat 32 r.val) (row0_inb k r)).view.writes (Elt F) f
          [⟨Rect.whole S64, ReadAs.same.apply ((srcOf (wordAt0 d L g h1 k r fI) (chk_of_lt _ (hI _))).view.read (Elt F) Tb)⟩]) : sProp 𝕄)
      = ((rowAt0 k (BitVec.ofNat 32 r.val) (row0_inb k r)).view.loc (thr d L) ↦[(rowAt0 k (BitVec.ofNat 32 r.val) (row0_inb k r)).view.set]{fullShare}
          landed0 d L g h1 fI hI Tb f) :=
  pointsTo_congr (landed0_row d L g h1 fI hI Tb f k r)
theorem right0_pts (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 0]{fullShare} f : sProp 𝕄) = ((sR).view.loc (thr d L) ↦[rightSet 0]{fullShare} landed0 d L g h1 fI hI Tb f) :=
  pointsTo_congr fun i hi => by
    unfold landed0
    rw [dif_neg (by have := ((mem_rightSet 0 i).mp hi).2; omega)]

theorem landed0_good (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 0 (640 * g.val + 160 * 0) fI Tb (landed0 d L g h1 fI hI Tb f) := by
  intro t y
  rw [landed0_apply d L g h1 fI hI Tb f t y]
  exact tokVal_eq_rowOf d L fI hI Tb _ _ y

/-- What transfer `t` of buffer 0's batch delivers. -/
abbrev D0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out0 d L g h1 fI hI Tb f q (kOf t) (rOf t)

theorem sep_pts_storable (ℓ₁ : Loc nD τ sig) (I₁ : Finset (Idx ℓ₁)) (X : Buf (Elt F) ℓ₁) (ℓ₂ : Loc nD τ sig) (I₂ : Finset (Idx ℓ₂)) (q₂ : PosShare TreeShare) (Y : Buf (Elt F) ℓ₂) :
    BI.Storable (upEmb : UEmb _ 𝕄) (iprop((ℓ₁ ↦[I₁]{fullShare} X) ∗ (ℓ₂ ↦[I₂]{q₂} Y)) : sProp 𝕄) := inferInstance

instance D0_storable (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D0 d L g h1 fI hI Tb f q t) := fun t => by
  exact sep_pts_storable _ _ _ _ _ _ _

/-- What stays aside while the batch runs: the buffer's right half, the rest of the table at each word's read share, the
    table at the remainder. -/
def left0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 0]{fullShare} f)
    ∗ (bigSep Finset.univ fun t : Fin 160 => (tV).view.loc (thr d L) ↦[Finset.univ \ (srcOf (wordAt0 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed0`, the table rows back. -/
theorem outs0_eq (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D0 d L g h1 fI hI Tb f q))
      = (iprop((bigSep (Finset.univ : Finset (Fin 160)) fun t => (rowAt0 (kOf t) (BitVec.ofNat 32 (rOf t).val) (row0_inb _ _)).view.loc (thr d L) ↦[(rowAt0 (kOf t) (BitVec.ofNat 32 (rOf t).val) (row0_inb _ _)).view.set]{fullShare} landed0 d L g h1 fI hI Tb f)
          ∗ (bigSep (Finset.univ : Finset (Fin 160)) fun t => (srcOf (wordAt0 d L g h1 (kOf t) (rOf t) fI) (chk_of_lt _ (hI _))).view.loc (thr d L) ↦[(srcOf (wordAt0 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out0 d L g h1 fI hI Tb f q (kOf t) (rOf t) = _
  unfold out0
  rw [landed0_pts d L g h1 fI hI Tb f q (kOf t) (rOf t)]

/-- Before the batch: the buffer and the table, dealt out to the 160 transfers. -/
theorem open0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW0).view.loc (thr d L) ↦[(bufW0).view.set]{fullShare} f) ∗ ((tV).view.loc (thr d L) ↦{q} Tb))
      ⊢ (iprop((bigSep (Ring.rangeSet 160 (16 * 0) 160) fun t => inp0 d L g h1 fI hI Tb f q (kOf t) (rOf t)) ∗ left0 d L g h1 fI hI Tb f q) : sProp 𝕄) := by
  rw [buf0_split d L f, tokens_split d L q Tb (fun t => wordAt0 d L g h1 (kOf t) (rOf t) fI) (fun t => chk_of_lt _ (hI _)),
    show Ring.rangeSet 160 (16 * 0) 160 = Finset.univ from Ring.rangeSet_univ]
  unfold left0
  have ei : (bigSep (Finset.univ : Finset (Fin 160)) fun t => inp0 d L g h1 fI hI Tb f q (kOf t) (rOf t))
      = (iprop((bigSep (Finset.univ : Finset (Fin 160)) fun t => (rowAt0 (kOf t) (BitVec.ofNat 32 (rOf t).val) (row0_inb _ _)).view.loc (thr d L) ↦[(rowAt0 (kOf t) (BitVec.ofNat 32 (rOf t).val) (row0_inb _ _)).view.set]{fullShare} f)
          ∗ (bigSep (Finset.univ : Finset (Fin 160)) fun t => (srcOf (wordAt0 d L g h1 (kOf t) (rOf t) fI) (chk_of_lt _ (hI _))).view.loc (thr d L) ↦[(srcOf (wordAt0 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp0 d L g h1 fI hI Tb f q (kOf t) (rOf t) = _
    unfold inp0
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D0 d L g h1 fI hI Tb f q)) ∗ left0 d L g h1 fI hI Tb f q)
      ⊢ (iprop(∃ f', ⌜rowsGood d L 0 (640 * g.val + 160 * 0) fI Tb f'⌝ ∗ ((bufW0).view.loc (thr d L) ↦[(bufW0).view.set]{fullShare} f')
          ∗ ((tV).view.loc (thr d L) ↦{q} Tb)) : sProp 𝕄) := by
  rw [outs0_eq d L g h1 fI hI Tb f q]
  unfold left0
  rw [right0_pts d L g h1 fI hI Tb f q, tokens_split d L q Tb (fun t => wordAt0 d L g h1 (kOf t) (rOf t) fI) (fun t => chk_of_lt _ (hI _))]
  iintro ⟨⟨Hrows, Hsrc⟩, Hright, Hrest, Hdrop⟩
  iexists landed0 d L g h1 fI hI Tb f
  isplitr
  · ipureintro; exact landed0_good d L g h1 fI hI Tb f q
  isplitl [Hrows Hright]
  · iapply (Entails.of_eq (buf0_split d L (landed0 d L g h1 fI hI Tb f)).symm)
    isplitl [Hrows]; · iexact Hrows
    iexact Hright
  isplitl [Hsrc]; · iexact Hsrc
  isplitl [Hrest]; · iexact Hrest
  iexact Hdrop

/-! ## Buffer 1 -/

/-- Trip `k`'s row `r` of buffer 1 for every one of the sixteen lanes. -/
theorem off_row1_eq : ∀ (k : Fin k0_t4_loop.trips) (r : Fin 16), k0_off42 k (BitVec.ofNat 32 r.val) = ![1, 16 * k.val + r.val, 0] := by decide +kernel

theorem word1_lt (g : Fin k0_t1_loop.trips) (h1 : k0_cond4 g = 1#1) (k : Fin k0_t4_loop.trips) (r : Fin 16) :
    640 * g.val + 160 * 1 + 16 * k.val + r.val < 10240 := by
  have h : (k0_off39 g k) 0 + 16 ≤ 10240 := k0_off39_inb g k h1 0
  rw [k0_off39_eq] at h
  have h' : 640 * g.val + 16 * k.val + 160 * 1 + 16 ≤ 10240 := by
    have e : (![640 * g.val + 16 * k.val + 160] : Fin 1 → ℕ) 0 = 640 * g.val + 16 * k.val + 160 := rfl
    rw [e] at h; omega
  have := r.isLt
  omega

/-- (R1) Word `r` of trip `k` of group `g` is token number `640 g + 160 · 1 + 16 k + r` of the list. -/
theorem wordAt1_eq (g : Fin k0_t1_loop.trips) (h1 : k0_cond4 g = 1#1) (k : Fin k0_t4_loop.trips) (r : Fin 16)
    (fI : Buf (Elt F) ((sI).view.loc (thr d L))) :
    wordAt1 d L g h1 k r fI = fI (ix1 (⟨640 * g.val + 160 * 1 + 16 * k.val + r.val, word1_lt g h1 k r⟩ : Fin 10240)) := by
  unfold wordAt1 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off39 g k) 0 + 1 * r.val = 640 * g.val + 160 * 1 + 16 * k.val + r.val
    rw [k0_off39_eq]
    show 640 * g.val + 16 * k.val + 160 + 1 * r.val = _
    omega

theorem row1_lt (k : Fin k0_t4_loop.trips) (r : Fin 16) : 16 * k.val + r.val < 160 := by
  have hk : k.val < 10 := k.isLt
  have := r.isLt; omega

/-- (R2) Row `16 k + r` of buffer 1, as the body addresses it, is that row's 64 elements. -/
theorem rowAt1_set (k : Fin k0_t4_loop.trips) (r : Fin 16) :
    (rowAt1 k (BitVec.ofNat 32 r.val) (row1_inb k r)).view.set = rowSet 1 ⟨16 * k.val + r.val, row1_lt k r⟩ := by
  unfold rowAt1
  refine ((View.set_reshape _ _).trans (View.set_slice_whole _ _)).trans ?_
  ext y
  rw [mem_rowSet, Rect.mem_set_unit]
  have e := off_row1_eq k r
  constructor
  · intro H
    have a0 := H 0; have a1 := H 1; have a2 := H 2
    rw [e] at a0 a1 a2
    have b0 : 1 ≤ (y 0).val ∧ (y 0).val < 1 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 1; omega
    · show (y 1).val = 16 * k.val + r.val; omega
    · omega
  · rintro ⟨h0, h1, h2⟩ a
    have h0' : (y 0).val = 1 := h0
    have h1' : (y 1).val = 16 * k.val + r.val := h1
    rw [e]
    fin_cases a
    · show 1 ≤ (y 0).val ∧ (y 0).val < 1 + 1; omega
    · show 16 * k.val + r.val ≤ (y 1).val ∧ (y 1).val < 16 * k.val + r.val + 1; omega
    · show 0 ≤ (y 2).val ∧ (y 2).val < 0 + 64; omega
/-- (R3) Buffer 1 held is its 160 rows held, as the copies address them, and its right half. -/
theorem buf1_split (f : Buf (Elt F) ((sR).view.loc (thr d L))) :
    ((bufW1).view.loc (thr d L) ↦[(bufW1).view.set]{fullShare} f : sProp 𝕄)
      = iprop((bigSep (Finset.univ : Finset (Fin 160)) fun t =>
            (rowAt1 (kOf t) (BitVec.ofNat 32 (rOf t).val) (row1_inb _ _)).view.loc (thr d L)
              ↦[(rowAt1 (kOf t) (BitVec.ofNat 32 (rOf t).val) (row1_inb _ _)).view.set]{fullShare} f)
          ∗ ((sR).view.loc (thr d L) ↦[rightSet 1]{fullShare} f)) := by
  rw [bufW1_set]
  refine (buf_rows d L 1 f).trans ?_
  refine congrArg (fun X : sProp 𝕄 => (iprop(X ∗ ((sR).view.loc (thr d L) ↦[rightSet 1]{fullShare} f)) : sProp 𝕄)) ?_
  refine bigSep_congr fun t _ => ?_
  have e := rowAt1_set (kOf t) (rOf t)
  rw [kr_eq] at e
  exact congrArg (fun I => ((sR).view.loc (thr d L) ↦[I]{fullShare} f : sProp 𝕄)) e.symm

/-- Element `y` of row `16 k + r` of buffer 1 sits at `(1, 16 k + r, y)`. -/
theorem rowAt1_emb (k : Fin k0_t4_loop.trips) (r : Fin 16) (y : Fin 64) :
    (rowAt1 k (BitVec.ofNat 32 r.val) (row1_inb k r)).view.emb (ix1 y)
      = (ix3 (1 : Fin 4) (⟨16 * k.val + r.val, row1_lt k r⟩ : Fin 160) (⟨y.val, by omega⟩ : Fin 128) : S4x160x128.Idx) := by
  unfold rowAt1
  show (Rect.unit (s := S4x160x128) (k0_off42 k (BitVec.ofNat 32 r.val)) S1x1x64.size (row1_inb k r)).emb
    (Shape.reshapeEquiv (s := S1x1x64) (s' := S64) squeezes_S1x1x64_S64.numel_eq (ix1 y)) = _
  rw [reshape_row3]
  funext a
  refine Fin.ext ?_
  rw [Rect.emb_apply]
  have e := off_row1_eq k r
  match a with
  | ⟨0, _⟩ => show (k0_off42 k (BitVec.ofNat 32 r.val)) 0 + 1 * 0 = 1; rw [e]; rfl
  | ⟨1, _⟩ => show (k0_off42 k (BitVec.ofNat 32 r.val)) 1 + 1 * 0 = 16 * k.val + r.val; rw [e]; rfl
  | ⟨2, _⟩ => show (k0_off42 k (BitVec.ofNat 32 r.val)) 2 + 1 * y.val = y.val; rw [e]; show 0 + 1 * y.val = y.val; omega

/-- A row written whole with `w` holds `w`. -/
theorem rowAt1_landed (k : Fin k0_t4_loop.trips) (r : Fin 16) (fd0 : Buf (Elt F) ((sR).view.loc (thr d L))) (w : S64.Idx → Elt F .f32) (y : Fin 64) :
    ((rowAt1 k (BitVec.ofNat 32 r.val) (row1_inb k r)).view.writes (Elt F) fd0 [⟨Rect.whole S64, w⟩])
        (ix3 (1 : Fin 4) (⟨16 * k.val + r.val, row1_lt k r⟩ : Fin 160) (⟨y.val, by omega⟩ : Fin 128))
      = w (ix1 y) := by
  have h := View.read_writes_cons_emb (rowAt1 k (BitVec.ofNat 32 r.val) (row1_inb k r)).view fd0 (Rect.whole S64) w [] (ix1 y)
  rw [Rect.emb_whole_apply, View.read_apply, rowAt1_emb k r y] at h
  exact h

theorem tok1_lt (g : Fin k0_t1_loop.trips) (h1 : k0_cond4 g = 1#1) (n : ℕ) (hn : n < 160) : 640 * g.val + 160 * 1 + n < 10240 := by
  have h := word1_lt g h1 (⟨9, by decide⟩ : Fin k0_t4_loop.trips) (15 : Fin 16)
  have h' : 640 * g.val + 160 * 1 + 16 * 9 + 15 < 10240 := h
  omega

/-- What buffer 1 holds once its 160 rows have landed over `fd0`: row `t`, columns 0 … 63, the table row token
    `640 g + 160 · 1 + t` names; columns 64 … 127 as before. -/
def landed1 (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 1 + (i 1).val) (tok1_lt g h1 _ (i 1).isLt) (⟨(i 2).val, hi⟩ : Fin 64)
    else fd0 i

theorem landed1_apply (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed1 d L g h1 fI hI Tb fd0 (ix3 (1 : Fin 4) t (⟨y.val, by omega⟩ : Fin 128))
      = tokVal d L fI hI Tb (640 * g.val + 160 * 1 + t.val) (tok1_lt g h1 _ t.isLt) y := by
  unfold landed1
  rw [dif_pos (show ((ix3 (1 : Fin 4) t (⟨y.val, by omega⟩ : Fin 128) : S4x160x128.Idx) 2).val < 64 from y.isLt)]
  rfl

/-- A landed row agrees with `landed1` on its 64 elements. -/
theorem landed1_row (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t4_loop.trips) (r : Fin 16) :
    ∀ (i : S4x160x128.Idx), i ∈ ((rowAt1 k (BitVec.ofNat 32 r.val) (row1_inb k r)).view.set : Finset S4x160x128.Idx) →
      ((rowAt1 k (BitVec.ofNat 32 r.val) (row1_inb k r)).view.writes (Elt F) fd0
          [⟨Rect.whole S64, ReadAs.same.apply ((srcOf (wordAt1 d L g h1 k r fI) (chk_of_lt _ (hI _))).view.read (Elt F) Tb)⟩]) i
        = landed1 d L g h1 fI hI Tb fd0 i := by
  intro i hi
  have hi' : (i : S4x160x128.Idx) ∈ rowSet 1 ⟨16 * k.val + r.val, row1_lt k r⟩ := by
    have h := hi; rw [rowAt1_set k r] at h; exact h
  obtain ⟨h0, h1', h2⟩ := (mem_rowSet 1 _ i).mp hi'
  obtain ⟨y, hy⟩ : ∃ y : Fin 64, (i 2).val = y.val := ⟨⟨(i 2).val, h2⟩, rfl⟩
  have ei : i = (ix3 (1 : Fin 4) (⟨16 * k.val + r.val, row1_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt1_landed d L k r fd0 _ y, landed1_apply d L g h1 fI hI Tb fd0 ⟨16 * k.val + r.val, row1_lt k r⟩ y]
  show (srcOf (wordAt1 d L g h1 k r fI) (chk_of_lt _ (hI _))).view.read (Elt F) Tb (ix1 y) = _
  rw [srcOf_read d (wordAt1 d L g h1 k r fI) (chk_of_lt _ (hI _)) (hI _) Tb y]
  refine (tokVal_of_word d L fI hI Tb _ (hI _) _ (word1_lt g h1 k r) (wordAt1_eq d L g h1 k r fI) y).trans ?_
  exact tokVal_congr d L fI hI Tb (by show 640 * g.val + 160 * 1 + 16 * k.val + r.val = 640 * g.val + 160 * 1 + (16 * k.val + r.val); omega) _ _ y

/-- A landed row, held, is that row of `landed1` held; the untouched right half likewise. -/
theorem landed1_pts (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t4_loop.trips) (r : Fin 16) :
    ((rowAt1 k (BitVec.ofNat 32 r.val) (row1_inb k r)).view.loc (thr d L) ↦[(rowAt1 k (BitVec.ofNat 32 r.val) (row1_inb k r)).view.set]{fullShare}
        ((rowAt1 k (BitVec.ofNat 32 r.val) (row1_inb k r)).view.writes (Elt F) f
          [⟨Rect.whole S64, ReadAs.same.apply ((srcOf (wordAt1 d L g h1 k r fI) (chk_of_lt _ (hI _))).view.read (Elt F) Tb)⟩]) : sProp 𝕄)
      = ((rowAt1 k (BitVec.ofNat 32 r.val) (row1_inb k r)).view.loc (thr d L) ↦[(rowAt1 k (BitVec.ofNat 32 r.val) (row1_inb k r)).view.set]{fullShare}
          landed1 d L g h1 fI hI Tb f) :=
  pointsTo_congr (landed1_row d L g h1 fI hI Tb f k r)
theorem right1_pts (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 1]{fullShare} f : sProp 𝕄) = ((sR).view.loc (thr d L) ↦[rightSet 1]{fullShare} landed1 d L g h1 fI hI Tb f) :=
  pointsTo_congr fun i hi => by
    unfold landed1
    rw [dif_neg (by have := ((mem_rightSet 1 i).mp hi).2; omega)]

theorem landed1_good (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 1 (640 * g.val + 160 * 1) fI Tb (landed1 d L g h1 fI hI Tb f) := by
  intro t y
  rw [landed1_apply d L g h1 fI hI Tb f t y]
  exact tokVal_eq_rowOf d L fI hI Tb _ _ y

/-- What transfer `t` of buffer 1's batch delivers. -/
abbrev D1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out1 d L g h1 fI hI Tb f q (kOf t) (rOf t)

instance D1_storable (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D1 d L g h1 fI hI Tb f q t) := fun t => by
  exact sep_pts_storable _ _ _ _ _ _ _

/-- What stays aside while the batch runs: the buffer's right half, the rest of the table at each word's read share, the
    table at the remainder. -/
def left1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 1]{fullShare} f)
    ∗ (bigSep Finset.univ fun t : Fin 160 => (tV).view.loc (thr d L) ↦[Finset.univ \ (srcOf (wordAt1 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed1`, the table rows back. -/
theorem outs1_eq (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D1 d L g h1 fI hI Tb f q))
      = (iprop((bigSep (Finset.univ : Finset (Fin 160)) fun t => (rowAt1 (kOf t) (BitVec.ofNat 32 (rOf t).val) (row1_inb _ _)).view.loc (thr d L) ↦[(rowAt1 (kOf t) (BitVec.ofNat 32 (rOf t).val) (row1_inb _ _)).view.set]{fullShare} landed1 d L g h1 fI hI Tb f)
          ∗ (bigSep (Finset.univ : Finset (Fin 160)) fun t => (srcOf (wordAt1 d L g h1 (kOf t) (rOf t) fI) (chk_of_lt _ (hI _))).view.loc (thr d L) ↦[(srcOf (wordAt1 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out1 d L g h1 fI hI Tb f q (kOf t) (rOf t) = _
  unfold out1
  rw [landed1_pts d L g h1 fI hI Tb f q (kOf t) (rOf t)]

/-- Before the batch: the buffer and the table, dealt out to the 160 transfers. -/
theorem open1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW1).view.loc (thr d L) ↦[(bufW1).view.set]{fullShare} f) ∗ ((tV).view.loc (thr d L) ↦{q} Tb))
      ⊢ (iprop((bigSep (Ring.rangeSet 160 (16 * 0) 160) fun t => inp1 d L g h1 fI hI Tb f q (kOf t) (rOf t)) ∗ left1 d L g h1 fI hI Tb f q) : sProp 𝕄) := by
  rw [buf1_split d L f, tokens_split d L q Tb (fun t => wordAt1 d L g h1 (kOf t) (rOf t) fI) (fun t => chk_of_lt _ (hI _)),
    show Ring.rangeSet 160 (16 * 0) 160 = Finset.univ from Ring.rangeSet_univ]
  unfold left1
  have ei : (bigSep (Finset.univ : Finset (Fin 160)) fun t => inp1 d L g h1 fI hI Tb f q (kOf t) (rOf t))
      = (iprop((bigSep (Finset.univ : Finset (Fin 160)) fun t => (rowAt1 (kOf t) (BitVec.ofNat 32 (rOf t).val) (row1_inb _ _)).view.loc (thr d L) ↦[(rowAt1 (kOf t) (BitVec.ofNat 32 (rOf t).val) (row1_inb _ _)).view.set]{fullShare} f)
          ∗ (bigSep (Finset.univ : Finset (Fin 160)) fun t => (srcOf (wordAt1 d L g h1 (kOf t) (rOf t) fI) (chk_of_lt _ (hI _))).view.loc (thr d L) ↦[(srcOf (wordAt1 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp1 d L g h1 fI hI Tb f q (kOf t) (rOf t) = _
    unfold inp1
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D1 d L g h1 fI hI Tb f q)) ∗ left1 d L g h1 fI hI Tb f q)
      ⊢ (iprop(∃ f', ⌜rowsGood d L 1 (640 * g.val + 160 * 1) fI Tb f'⌝ ∗ ((bufW1).view.loc (thr d L) ↦[(bufW1).view.set]{fullShare} f')
          ∗ ((tV).view.loc (thr d L) ↦{q} Tb)) : sProp 𝕄) := by
  rw [outs1_eq d L g h1 fI hI Tb f q]
  unfold left1
  rw [right1_pts d L g h1 fI hI Tb f q, tokens_split d L q Tb (fun t => wordAt1 d L g h1 (kOf t) (rOf t) fI) (fun t => chk_of_lt _ (hI _))]
  iintro ⟨⟨Hrows, Hsrc⟩, Hright, Hrest, Hdrop⟩
  iexists landed1 d L g h1 fI hI Tb f
  isplitr
  · ipureintro; exact landed1_good d L g h1 fI hI Tb f q
  isplitl [Hrows Hright]
  · iapply (Entails.of_eq (buf1_split d L (landed1 d L g h1 fI hI Tb f)).symm)
    isplitl [Hrows]; · iexact Hrows
    iexact Hright
  isplitl [Hsrc]; · iexact Hsrc
  isplitl [Hrest]; · iexact Hrest
  iexact Hdrop

/-! ## Buffer 2 -/

/-- Trip `k`'s row `r` of buffer 2 for every one of the sixteen lanes. -/
theorem off_row2_eq : ∀ (k : Fin k0_t6_loop.trips) (r : Fin 16), k0_off78 k (BitVec.ofNat 32 r.val) = ![2, 16 * k.val + r.val, 0] := by decide +kernel

theorem word2_lt (g : Fin k0_t1_loop.trips) (h1 : k0_cond7 g = 1#1) (k : Fin k0_t6_loop.trips) (r : Fin 16) :
    640 * g.val + 160 * 2 + 16 * k.val + r.val < 10240 := by
  have h : (k0_off75 g k) 0 + 16 ≤ 10240 := k0_off75_inb g k h1 0
  rw [k0_off75_eq] at h
  have h' : 640 * g.val + 16 * k.val + 160 * 2 + 16 ≤ 10240 := by
    have e : (![640 * g.val + 16 * k.val + 320] : Fin 1 → ℕ) 0 = 640 * g.val + 16 * k.val + 320 := rfl
    rw [e] at h; omega
  have := r.isLt
  omega

/-- (R1) Word `r` of trip `k` of group `g` is token number `640 g + 160 · 2 + 16 k + r` of the list. -/
theorem wordAt2_eq (g : Fin k0_t1_loop.trips) (h1 : k0_cond7 g = 1#1) (k : Fin k0_t6_loop.trips) (r : Fin 16)
    (fI : Buf (Elt F) ((sI).view.loc (thr d L))) :
    wordAt2 d L g h1 k r fI = fI (ix1 (⟨640 * g.val + 160 * 2 + 16 * k.val + r.val, word2_lt g h1 k r⟩ : Fin 10240)) := by
  unfold wordAt2 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off75 g k) 0 + 1 * r.val = 640 * g.val + 160 * 2 + 16 * k.val + r.val
    rw [k0_off75_eq]
    show 640 * g.val + 16 * k.val + 320 + 1 * r.val = _
    omega

theorem row2_lt (k : Fin k0_t6_loop.trips) (r : Fin 16) : 16 * k.val + r.val < 160 := by
  have hk : k.val < 10 := k.isLt
  have := r.isLt; omega

/-- (R2) Row `16 k + r` of buffer 2, as the body addresses it, is that row's 64 elements. -/
theorem rowAt2_set (k : Fin k0_t6_loop.trips) (r : Fin 16) :
    (rowAt2 k (BitVec.ofNat 32 r.val) (row2_inb k r)).view.set = rowSet 2 ⟨16 * k.val + r.val, row2_lt k r⟩ := by
  unfold rowAt2
  refine ((View.set_reshape _ _).trans (View.set_slice_whole _ _)).trans ?_
  ext y
  rw [mem_rowSet, Rect.mem_set_unit]
  have e := off_row2_eq k r
  constructor
  · intro H
    have a0 := H 0; have a1 := H 1; have a2 := H 2
    rw [e] at a0 a1 a2
    have b0 : 2 ≤ (y 0).val ∧ (y 0).val < 2 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 2; omega
    · show (y 1).val = 16 * k.val + r.val; omega
    · omega
  · rintro ⟨h0, h1, h2⟩ a
    have h0' : (y 0).val = 2 := h0
    have h1' : (y 1).val = 16 * k.val + r.val := h1
    rw [e]
    fin_cases a
    · show 2 ≤ (y 0).val ∧ (y 0).val < 2 + 1; omega
    · show 16 * k.val + r.val ≤ (y 1).val ∧ (y 1).val < 16 * k.val + r.val + 1; omega
    · show 0 ≤ (y 2).val ∧ (y 2).val < 0 + 64; omega
/-- (R3) Buffer 2 held is its 160 rows held, as the copies address them, and its right half. -/
theorem buf2_split (f : Buf (Elt F) ((sR).view.loc (thr d L))) :
    ((bufW2).view.loc (thr d L) ↦[(bufW2).view.set]{fullShare} f : sProp 𝕄)
      = iprop((bigSep (Finset.univ : Finset (Fin 160)) fun t =>
            (rowAt2 (kOf t) (BitVec.ofNat 32 (rOf t).val) (row2_inb _ _)).view.loc (thr d L)
              ↦[(rowAt2 (kOf t) (BitVec.ofNat 32 (rOf t).val) (row2_inb _ _)).view.set]{fullShare} f)
          ∗ ((sR).view.loc (thr d L) ↦[rightSet 2]{fullShare} f)) := by
  rw [bufW2_set]
  refine (buf_rows d L 2 f).trans ?_
  refine congrArg (fun X : sProp 𝕄 => (iprop(X ∗ ((sR).view.loc (thr d L) ↦[rightSet 2]{fullShare} f)) : sProp 𝕄)) ?_
  refine bigSep_congr fun t _ => ?_
  have e := rowAt2_set (kOf t) (rOf t)
  rw [kr_eq] at e
  exact congrArg (fun I => ((sR).view.loc (thr d L) ↦[I]{fullShare} f : sProp 𝕄)) e.symm

/-- Element `y` of row `16 k + r` of buffer 2 sits at `(2, 16 k + r, y)`. -/
theorem rowAt2_emb (k : Fin k0_t6_loop.trips) (r : Fin 16) (y : Fin 64) :
    (rowAt2 k (BitVec.ofNat 32 r.val) (row2_inb k r)).view.emb (ix1 y)
      = (ix3 (2 : Fin 4) (⟨16 * k.val + r.val, row2_lt k r⟩ : Fin 160) (⟨y.val, by omega⟩ : Fin 128) : S4x160x128.Idx) := by
  unfold rowAt2
  show (Rect.unit (s := S4x160x128) (k0_off78 k (BitVec.ofNat 32 r.val)) S1x1x64.size (row2_inb k r)).emb
    (Shape.reshapeEquiv (s := S1x1x64) (s' := S64) squeezes_S1x1x64_S64.numel_eq (ix1 y)) = _
  rw [reshape_row3]
  funext a
  refine Fin.ext ?_
  rw [Rect.emb_apply]
  have e := off_row2_eq k r
  match a with
  | ⟨0, _⟩ => show (k0_off78 k (BitVec.ofNat 32 r.val)) 0 + 1 * 0 = 2; rw [e]; rfl
  | ⟨1, _⟩ => show (k0_off78 k (BitVec.ofNat 32 r.val)) 1 + 1 * 0 = 16 * k.val + r.val; rw [e]; rfl
  | ⟨2, _⟩ => show (k0_off78 k (BitVec.ofNat 32 r.val)) 2 + 1 * y.val = y.val; rw [e]; show 0 + 1 * y.val = y.val; omega

/-- A row written whole with `w` holds `w`. -/
theorem rowAt2_landed (k : Fin k0_t6_loop.trips) (r : Fin 16) (fd0 : Buf (Elt F) ((sR).view.loc (thr d L))) (w : S64.Idx → Elt F .f32) (y : Fin 64) :
    ((rowAt2 k (BitVec.ofNat 32 r.val) (row2_inb k r)).view.writes (Elt F) fd0 [⟨Rect.whole S64, w⟩])
        (ix3 (2 : Fin 4) (⟨16 * k.val + r.val, row2_lt k r⟩ : Fin 160) (⟨y.val, by omega⟩ : Fin 128))
      = w (ix1 y) := by
  have h := View.read_writes_cons_emb (rowAt2 k (BitVec.ofNat 32 r.val) (row2_inb k r)).view fd0 (Rect.whole S64) w [] (ix1 y)
  rw [Rect.emb_whole_apply, View.read_apply, rowAt2_emb k r y] at h
  exact h

theorem tok2_lt (g : Fin k0_t1_loop.trips) (h1 : k0_cond7 g = 1#1) (n : ℕ) (hn : n < 160) : 640 * g.val + 160 * 2 + n < 10240 := by
  have h := word2_lt g h1 (⟨9, by decide⟩ : Fin k0_t6_loop.trips) (15 : Fin 16)
  have h' : 640 * g.val + 160 * 2 + 16 * 9 + 15 < 10240 := h
  omega

/-- What buffer 2 holds once its 160 rows have landed over `fd0`: row `t`, columns 0 … 63, the table row token
    `640 g + 160 · 2 + t` names; columns 64 … 127 as before. -/
def landed2 (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 2 + (i 1).val) (tok2_lt g h1 _ (i 1).isLt) (⟨(i 2).val, hi⟩ : Fin 64)
    else fd0 i

theorem landed2_apply (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed2 d L g h1 fI hI Tb fd0 (ix3 (2 : Fin 4) t (⟨y.val, by omega⟩ : Fin 128))
      = tokVal d L fI hI Tb (640 * g.val + 160 * 2 + t.val) (tok2_lt g h1 _ t.isLt) y := by
  unfold landed2
  rw [dif_pos (show ((ix3 (2 : Fin 4) t (⟨y.val, by omega⟩ : Fin 128) : S4x160x128.Idx) 2).val < 64 from y.isLt)]
  rfl

/-- A landed row agrees with `landed2` on its 64 elements. -/
theorem landed2_row (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t6_loop.trips) (r : Fin 16) :
    ∀ (i : S4x160x128.Idx), i ∈ ((rowAt2 k (BitVec.ofNat 32 r.val) (row2_inb k r)).view.set : Finset S4x160x128.Idx) →
      ((rowAt2 k (BitVec.ofNat 32 r.val) (row2_inb k r)).view.writes (Elt F) fd0
          [⟨Rect.whole S64, ReadAs.same.apply ((srcOf (wordAt2 d L g h1 k r fI) (chk_of_lt _ (hI _))).view.read (Elt F) Tb)⟩]) i
        = landed2 d L g h1 fI hI Tb fd0 i := by
  intro i hi
  have hi' : (i : S4x160x128.Idx) ∈ rowSet 2 ⟨16 * k.val + r.val, row2_lt k r⟩ := by
    have h := hi; rw [rowAt2_set k r] at h; exact h
  obtain ⟨h0, h1', h2⟩ := (mem_rowSet 2 _ i).mp hi'
  obtain ⟨y, hy⟩ : ∃ y : Fin 64, (i 2).val = y.val := ⟨⟨(i 2).val, h2⟩, rfl⟩
  have ei : i = (ix3 (2 : Fin 4) (⟨16 * k.val + r.val, row2_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt2_landed d L k r fd0 _ y, landed2_apply d L g h1 fI hI Tb fd0 ⟨16 * k.val + r.val, row2_lt k r⟩ y]
  show (srcOf (wordAt2 d L g h1 k r fI) (chk_of_lt _ (hI _))).view.read (Elt F) Tb (ix1 y) = _
  rw [srcOf_read d (wordAt2 d L g h1 k r fI) (chk_of_lt _ (hI _)) (hI _) Tb y]
  refine (tokVal_of_word d L fI hI Tb _ (hI _) _ (word2_lt g h1 k r) (wordAt2_eq d L g h1 k r fI) y).trans ?_
  exact tokVal_congr d L fI hI Tb (by show 640 * g.val + 160 * 2 + 16 * k.val + r.val = 640 * g.val + 160 * 2 + (16 * k.val + r.val); omega) _ _ y

/-- A landed row, held, is that row of `landed2` held; the untouched right half likewise. -/
theorem landed2_pts (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t6_loop.trips) (r : Fin 16) :
    ((rowAt2 k (BitVec.ofNat 32 r.val) (row2_inb k r)).view.loc (thr d L) ↦[(rowAt2 k (BitVec.ofNat 32 r.val) (row2_inb k r)).view.set]{fullShare}
        ((rowAt2 k (BitVec.ofNat 32 r.val) (row2_inb k r)).view.writes (Elt F) f
          [⟨Rect.whole S64, ReadAs.same.apply ((srcOf (wordAt2 d L g h1 k r fI) (chk_of_lt _ (hI _))).view.read (Elt F) Tb)⟩]) : sProp 𝕄)
      = ((rowAt2 k (BitVec.ofNat 32 r.val) (row2_inb k r)).view.loc (thr d L) ↦[(rowAt2 k (BitVec.ofNat 32 r.val) (row2_inb k r)).view.set]{fullShare}
          landed2 d L g h1 fI hI Tb f) :=
  pointsTo_congr (landed2_row d L g h1 fI hI Tb f k r)
theorem right2_pts (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 2]{fullShare} f : sProp 𝕄) = ((sR).view.loc (thr d L) ↦[rightSet 2]{fullShare} landed2 d L g h1 fI hI Tb f) :=
  pointsTo_congr fun i hi => by
    unfold landed2
    rw [dif_neg (by have := ((mem_rightSet 2 i).mp hi).2; omega)]

theorem landed2_good (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 2 (640 * g.val + 160 * 2) fI Tb (landed2 d L g h1 fI hI Tb f) := by
  intro t y
  rw [landed2_apply d L g h1 fI hI Tb f t y]
  exact tokVal_eq_rowOf d L fI hI Tb _ _ y

/-- What transfer `t` of buffer 2's batch delivers. -/
abbrev D2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out2 d L g h1 fI hI Tb f q (kOf t) (rOf t)

instance D2_storable (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D2 d L g h1 fI hI Tb f q t) := fun t => by
  exact sep_pts_storable _ _ _ _ _ _ _

/-- What stays aside while the batch runs: the buffer's right half, the rest of the table at each word's read share, the
    table at the remainder. -/
def left2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 2]{fullShare} f)
    ∗ (bigSep Finset.univ fun t : Fin 160 => (tV).view.loc (thr d L) ↦[Finset.univ \ (srcOf (wordAt2 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed2`, the table rows back. -/
theorem outs2_eq (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D2 d L g h1 fI hI Tb f q))
      = (iprop((bigSep (Finset.univ : Finset (Fin 160)) fun t => (rowAt2 (kOf t) (BitVec.ofNat 32 (rOf t).val) (row2_inb _ _)).view.loc (thr d L) ↦[(rowAt2 (kOf t) (BitVec.ofNat 32 (rOf t).val) (row2_inb _ _)).view.set]{fullShare} landed2 d L g h1 fI hI Tb f)
          ∗ (bigSep (Finset.univ : Finset (Fin 160)) fun t => (srcOf (wordAt2 d L g h1 (kOf t) (rOf t) fI) (chk_of_lt _ (hI _))).view.loc (thr d L) ↦[(srcOf (wordAt2 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out2 d L g h1 fI hI Tb f q (kOf t) (rOf t) = _
  unfold out2
  rw [landed2_pts d L g h1 fI hI Tb f q (kOf t) (rOf t)]

/-- Before the batch: the buffer and the table, dealt out to the 160 transfers. -/
theorem open2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW2).view.loc (thr d L) ↦[(bufW2).view.set]{fullShare} f) ∗ ((tV).view.loc (thr d L) ↦{q} Tb))
      ⊢ (iprop((bigSep (Ring.rangeSet 160 (16 * 0) 160) fun t => inp2 d L g h1 fI hI Tb f q (kOf t) (rOf t)) ∗ left2 d L g h1 fI hI Tb f q) : sProp 𝕄) := by
  rw [buf2_split d L f, tokens_split d L q Tb (fun t => wordAt2 d L g h1 (kOf t) (rOf t) fI) (fun t => chk_of_lt _ (hI _)),
    show Ring.rangeSet 160 (16 * 0) 160 = Finset.univ from Ring.rangeSet_univ]
  unfold left2
  have ei : (bigSep (Finset.univ : Finset (Fin 160)) fun t => inp2 d L g h1 fI hI Tb f q (kOf t) (rOf t))
      = (iprop((bigSep (Finset.univ : Finset (Fin 160)) fun t => (rowAt2 (kOf t) (BitVec.ofNat 32 (rOf t).val) (row2_inb _ _)).view.loc (thr d L) ↦[(rowAt2 (kOf t) (BitVec.ofNat 32 (rOf t).val) (row2_inb _ _)).view.set]{fullShare} f)
          ∗ (bigSep (Finset.univ : Finset (Fin 160)) fun t => (srcOf (wordAt2 d L g h1 (kOf t) (rOf t) fI) (chk_of_lt _ (hI _))).view.loc (thr d L) ↦[(srcOf (wordAt2 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp2 d L g h1 fI hI Tb f q (kOf t) (rOf t) = _
    unfold inp2
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D2 d L g h1 fI hI Tb f q)) ∗ left2 d L g h1 fI hI Tb f q)
      ⊢ (iprop(∃ f', ⌜rowsGood d L 2 (640 * g.val + 160 * 2) fI Tb f'⌝ ∗ ((bufW2).view.loc (thr d L) ↦[(bufW2).view.set]{fullShare} f')
          ∗ ((tV).view.loc (thr d L) ↦{q} Tb)) : sProp 𝕄) := by
  rw [outs2_eq d L g h1 fI hI Tb f q]
  unfold left2
  rw [right2_pts d L g h1 fI hI Tb f q, tokens_split d L q Tb (fun t => wordAt2 d L g h1 (kOf t) (rOf t) fI) (fun t => chk_of_lt _ (hI _))]
  iintro ⟨⟨Hrows, Hsrc⟩, Hright, Hrest, Hdrop⟩
  iexists landed2 d L g h1 fI hI Tb f
  isplitr
  · ipureintro; exact landed2_good d L g h1 fI hI Tb f q
  isplitl [Hrows Hright]
  · iapply (Entails.of_eq (buf2_split d L (landed2 d L g h1 fI hI Tb f)).symm)
    isplitl [Hrows]; · iexact Hrows
    iexact Hright
  isplitl [Hsrc]; · iexact Hsrc
  isplitl [Hrest]; · iexact Hrest
  iexact Hdrop

/-! ## Buffer 3 -/

/-- Trip `k`'s row `r` of buffer 3 for every one of the sixteen lanes. -/
theorem off_row3_eq : ∀ (k : Fin k0_t8_loop.trips) (r : Fin 16), k0_off114 k (BitVec.ofNat 32 r.val) = ![3, 16 * k.val + r.val, 0] := by decide +kernel

theorem word3_lt (g : Fin k0_t1_loop.trips) (h1 : k0_cond10 g = 1#1) (k : Fin k0_t8_loop.trips) (r : Fin 16) :
    640 * g.val + 160 * 3 + 16 * k.val + r.val < 10240 := by
  have h : (k0_off111 g k) 0 + 16 ≤ 10240 := k0_off111_inb g k h1 0
  rw [k0_off111_eq] at h
  have h' : 640 * g.val + 16 * k.val + 160 * 3 + 16 ≤ 10240 := by
    have e : (![640 * g.val + 16 * k.val + 480] : Fin 1 → ℕ) 0 = 640 * g.val + 16 * k.val + 480 := rfl
    rw [e] at h; omega
  have := r.isLt
  omega

/-- (R1) Word `r` of trip `k` of group `g` is token number `640 g + 160 · 3 + 16 k + r` of the list. -/
theorem wordAt3_eq (g : Fin k0_t1_loop.trips) (h1 : k0_cond10 g = 1#1) (k : Fin k0_t8_loop.trips) (r : Fin 16)
    (fI : Buf (Elt F) ((sI).view.loc (thr d L))) :
    wordAt3 d L g h1 k r fI = fI (ix1 (⟨640 * g.val + 160 * 3 + 16 * k.val + r.val, word3_lt g h1 k r⟩ : Fin 10240)) := by
  unfold wordAt3 extractAt
  rw [extractStridedSlice_apply ![r.val] _ (slices16 r) _ (ix1 r) (fun a => by
    match a with
    | ⟨0, _⟩ => show r.val = r.val + 0; omega)]
  refine (shapeCast_apply _ _ (ix1 r) (ix1 r) rfl).trans ?_
  rw [View.readAt_apply]
  show fI _ = fI _
  congr 1
  funext a
  match a with
  | ⟨0, _⟩ =>
    refine Fin.ext ?_
    show (k0_off111 g k) 0 + 1 * r.val = 640 * g.val + 160 * 3 + 16 * k.val + r.val
    rw [k0_off111_eq]
    show 640 * g.val + 16 * k.val + 480 + 1 * r.val = _
    omega

theorem row3_lt (k : Fin k0_t8_loop.trips) (r : Fin 16) : 16 * k.val + r.val < 160 := by
  have hk : k.val < 10 := k.isLt
  have := r.isLt; omega

/-- (R2) Row `16 k + r` of buffer 3, as the body addresses it, is that row's 64 elements. -/
theorem rowAt3_set (k : Fin k0_t8_loop.trips) (r : Fin 16) :
    (rowAt3 k (BitVec.ofNat 32 r.val) (row3_inb k r)).view.set = rowSet 3 ⟨16 * k.val + r.val, row3_lt k r⟩ := by
  unfold rowAt3
  refine ((View.set_reshape _ _).trans (View.set_slice_whole _ _)).trans ?_
  ext y
  rw [mem_rowSet, Rect.mem_set_unit]
  have e := off_row3_eq k r
  constructor
  · intro H
    have a0 := H 0; have a1 := H 1; have a2 := H 2
    rw [e] at a0 a1 a2
    have b0 : 3 ≤ (y 0).val ∧ (y 0).val < 3 + 1 := a0
    have b1 : 16 * k.val + r.val ≤ (y 1).val ∧ (y 1).val < 16 * k.val + r.val + 1 := a1
    have b2 : 0 ≤ (y 2).val ∧ (y 2).val < 0 + 64 := a2
    refine ⟨?_, ?_, ?_⟩
    · show (y 0).val = 3; omega
    · show (y 1).val = 16 * k.val + r.val; omega
    · omega
  · rintro ⟨h0, h1, h2⟩ a
    have h0' : (y 0).val = 3 := h0
    have h1' : (y 1).val = 16 * k.val + r.val := h1
    rw [e]
    fin_cases a
    · show 3 ≤ (y 0).val ∧ (y 0).val < 3 + 1; omega
    · show 16 * k.val + r.val ≤ (y 1).val ∧ (y 1).val < 16 * k.val + r.val + 1; omega
    · show 0 ≤ (y 2).val ∧ (y 2).val < 0 + 64; omega
/-- (R3) Buffer 3 held is its 160 rows held, as the copies address them, and its right half. -/
theorem buf3_split (f : Buf (Elt F) ((sR).view.loc (thr d L))) :
    ((bufW3).view.loc (thr d L) ↦[(bufW3).view.set]{fullShare} f : sProp 𝕄)
      = iprop((bigSep (Finset.univ : Finset (Fin 160)) fun t =>
            (rowAt3 (kOf t) (BitVec.ofNat 32 (rOf t).val) (row3_inb _ _)).view.loc (thr d L)
              ↦[(rowAt3 (kOf t) (BitVec.ofNat 32 (rOf t).val) (row3_inb _ _)).view.set]{fullShare} f)
          ∗ ((sR).view.loc (thr d L) ↦[rightSet 3]{fullShare} f)) := by
  rw [bufW3_set]
  refine (buf_rows d L 3 f).trans ?_
  refine congrArg (fun X : sProp 𝕄 => (iprop(X ∗ ((sR).view.loc (thr d L) ↦[rightSet 3]{fullShare} f)) : sProp 𝕄)) ?_
  refine bigSep_congr fun t _ => ?_
  have e := rowAt3_set (kOf t) (rOf t)
  rw [kr_eq] at e
  exact congrArg (fun I => ((sR).view.loc (thr d L) ↦[I]{fullShare} f : sProp 𝕄)) e.symm

/-- Element `y` of row `16 k + r` of buffer 3 sits at `(3, 16 k + r, y)`. -/
theorem rowAt3_emb (k : Fin k0_t8_loop.trips) (r : Fin 16) (y : Fin 64) :
    (rowAt3 k (BitVec.ofNat 32 r.val) (row3_inb k r)).view.emb (ix1 y)
      = (ix3 (3 : Fin 4) (⟨16 * k.val + r.val, row3_lt k r⟩ : Fin 160) (⟨y.val, by omega⟩ : Fin 128) : S4x160x128.Idx) := by
  unfold rowAt3
  show (Rect.unit (s := S4x160x128) (k0_off114 k (BitVec.ofNat 32 r.val)) S1x1x64.size (row3_inb k r)).emb
    (Shape.reshapeEquiv (s := S1x1x64) (s' := S64) squeezes_S1x1x64_S64.numel_eq (ix1 y)) = _
  rw [reshape_row3]
  funext a
  refine Fin.ext ?_
  rw [Rect.emb_apply]
  have e := off_row3_eq k r
  match a with
  | ⟨0, _⟩ => show (k0_off114 k (BitVec.ofNat 32 r.val)) 0 + 1 * 0 = 3; rw [e]; rfl
  | ⟨1, _⟩ => show (k0_off114 k (BitVec.ofNat 32 r.val)) 1 + 1 * 0 = 16 * k.val + r.val; rw [e]; rfl
  | ⟨2, _⟩ => show (k0_off114 k (BitVec.ofNat 32 r.val)) 2 + 1 * y.val = y.val; rw [e]; show 0 + 1 * y.val = y.val; omega

/-- A row written whole with `w` holds `w`. -/
theorem rowAt3_landed (k : Fin k0_t8_loop.trips) (r : Fin 16) (fd0 : Buf (Elt F) ((sR).view.loc (thr d L))) (w : S64.Idx → Elt F .f32) (y : Fin 64) :
    ((rowAt3 k (BitVec.ofNat 32 r.val) (row3_inb k r)).view.writes (Elt F) fd0 [⟨Rect.whole S64, w⟩])
        (ix3 (3 : Fin 4) (⟨16 * k.val + r.val, row3_lt k r⟩ : Fin 160) (⟨y.val, by omega⟩ : Fin 128))
      = w (ix1 y) := by
  have h := View.read_writes_cons_emb (rowAt3 k (BitVec.ofNat 32 r.val) (row3_inb k r)).view fd0 (Rect.whole S64) w [] (ix1 y)
  rw [Rect.emb_whole_apply, View.read_apply, rowAt3_emb k r y] at h
  exact h

theorem tok3_lt (g : Fin k0_t1_loop.trips) (h1 : k0_cond10 g = 1#1) (n : ℕ) (hn : n < 160) : 640 * g.val + 160 * 3 + n < 10240 := by
  have h := word3_lt g h1 (⟨9, by decide⟩ : Fin k0_t8_loop.trips) (15 : Fin 16)
  have h' : 640 * g.val + 160 * 3 + 16 * 9 + 15 < 10240 := h
  omega

/-- What buffer 3 holds once its 160 rows have landed over `fd0`: row `t`, columns 0 … 63, the table row token
    `640 g + 160 · 3 + t` names; columns 64 … 127 as before. -/
def landed3 (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) : Buf (Elt F) ((sR).view.loc (thr d L)) :=
  fun i => if hi : (i 2).val < 64 then
      tokVal d L fI hI Tb (640 * g.val + 160 * 3 + (i 1).val) (tok3_lt g h1 _ (i 1).isLt) (⟨(i 2).val, hi⟩ : Fin 64)
    else fd0 i

theorem landed3_apply (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (t : Fin 160) (y : Fin 64) :
    landed3 d L g h1 fI hI Tb fd0 (ix3 (3 : Fin 4) t (⟨y.val, by omega⟩ : Fin 128))
      = tokVal d L fI hI Tb (640 * g.val + 160 * 3 + t.val) (tok3_lt g h1 _ t.isLt) y := by
  unfold landed3
  rw [dif_pos (show ((ix3 (3 : Fin 4) t (⟨y.val, by omega⟩ : Fin 128) : S4x160x128.Idx) 2).val < 64 from y.isLt)]
  rfl

/-- A landed row agrees with `landed3` on its 64 elements. -/
theorem landed3_row (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (k : Fin k0_t8_loop.trips) (r : Fin 16) :
    ∀ (i : S4x160x128.Idx), i ∈ ((rowAt3 k (BitVec.ofNat 32 r.val) (row3_inb k r)).view.set : Finset S4x160x128.Idx) →
      ((rowAt3 k (BitVec.ofNat 32 r.val) (row3_inb k r)).view.writes (Elt F) fd0
          [⟨Rect.whole S64, ReadAs.same.apply ((srcOf (wordAt3 d L g h1 k r fI) (chk_of_lt _ (hI _))).view.read (Elt F) Tb)⟩]) i
        = landed3 d L g h1 fI hI Tb fd0 i := by
  intro i hi
  have hi' : (i : S4x160x128.Idx) ∈ rowSet 3 ⟨16 * k.val + r.val, row3_lt k r⟩ := by
    have h := hi; rw [rowAt3_set k r] at h; exact h
  obtain ⟨h0, h1', h2⟩ := (mem_rowSet 3 _ i).mp hi'
  obtain ⟨y, hy⟩ : ∃ y : Fin 64, (i 2).val = y.val := ⟨⟨(i 2).val, h2⟩, rfl⟩
  have ei : i = (ix3 (3 : Fin 4) (⟨16 * k.val + r.val, row3_lt k r⟩ : Fin 160) (⟨y.val, lt_trans y.isLt (by decide)⟩ : Fin 128) : S4x160x128.Idx) := by
    funext a
    match a with
    | ⟨0, _⟩ => exact Fin.ext h0
    | ⟨1, _⟩ => exact Fin.ext h1'
    | ⟨2, _⟩ => exact Fin.ext hy
  subst ei
  rw [rowAt3_landed d L k r fd0 _ y, landed3_apply d L g h1 fI hI Tb fd0 ⟨16 * k.val + r.val, row3_lt k r⟩ y]
  show (srcOf (wordAt3 d L g h1 k r fI) (chk_of_lt _ (hI _))).view.read (Elt F) Tb (ix1 y) = _
  rw [srcOf_read d (wordAt3 d L g h1 k r fI) (chk_of_lt _ (hI _)) (hI _) Tb y]
  refine (tokVal_of_word d L fI hI Tb _ (hI _) _ (word3_lt g h1 k r) (wordAt3_eq d L g h1 k r fI) y).trans ?_
  exact tokVal_congr d L fI hI Tb (by show 640 * g.val + 160 * 3 + 16 * k.val + r.val = 640 * g.val + 160 * 3 + (16 * k.val + r.val); omega) _ _ y

/-- A landed row, held, is that row of `landed3` held; the untouched right half likewise. -/
theorem landed3_pts (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) (k : Fin k0_t8_loop.trips) (r : Fin 16) :
    ((rowAt3 k (BitVec.ofNat 32 r.val) (row3_inb k r)).view.loc (thr d L) ↦[(rowAt3 k (BitVec.ofNat 32 r.val) (row3_inb k r)).view.set]{fullShare}
        ((rowAt3 k (BitVec.ofNat 32 r.val) (row3_inb k r)).view.writes (Elt F) f
          [⟨Rect.whole S64, ReadAs.same.apply ((srcOf (wordAt3 d L g h1 k r fI) (chk_of_lt _ (hI _))).view.read (Elt F) Tb)⟩]) : sProp 𝕄)
      = ((rowAt3 k (BitVec.ofNat 32 r.val) (row3_inb k r)).view.loc (thr d L) ↦[(rowAt3 k (BitVec.ofNat 32 r.val) (row3_inb k r)).view.set]{fullShare}
          landed3 d L g h1 fI hI Tb f) :=
  pointsTo_congr (landed3_row d L g h1 fI hI Tb f k r)
theorem right3_pts (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ((sR).view.loc (thr d L) ↦[rightSet 3]{fullShare} f : sProp 𝕄) = ((sR).view.loc (thr d L) ↦[rightSet 3]{fullShare} landed3 d L g h1 fI hI Tb f) :=
  pointsTo_congr fun i hi => by
    unfold landed3
    rw [dif_neg (by have := ((mem_rightSet 3 i).mp hi).2; omega)]

theorem landed3_good (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : rowsGood d L 3 (640 * g.val + 160 * 3) fI Tb (landed3 d L g h1 fI hI Tb f) := by
  intro t y
  rw [landed3_apply d L g h1 fI hI Tb f t y]
  exact tokVal_eq_rowOf d L fI hI Tb _ _ y

/-- What transfer `t` of buffer 3's batch delivers. -/
abbrev D3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : Fin 160 → sProp 𝕄 :=
  fun t => out3 d L g h1 fI hI Tb f q (kOf t) (rOf t)

instance D3_storable (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : ∀ t, BI.Storable (upEmb : UEmb _ 𝕄) (D3 d L g h1 fI hI Tb f q t) := fun t => by
  exact sep_pts_storable _ _ _ _ _ _ _

/-- What stays aside while the batch runs: the buffer's right half, the rest of the table at each word's read share, the
    table at the remainder. -/
def left3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) : sProp 𝕄 :=
  iprop(((sR).view.loc (thr d L) ↦[rightSet 3]{fullShare} f)
    ∗ (bigSep Finset.univ fun t : Fin 160 => (tV).view.loc (thr d L) ↦[Finset.univ \ (srcOf (wordAt3 d L g h1 (kOf t) (rOf t) fI) (chk_of_lt _ (hI _))).view.set]{Transfers.shareTokN q t.val} Tb)
    ∗ ((tV).view.loc (thr d L) ↦{Transfers.shareDrop q 160} Tb))

/-- The deliveries, array by array: the rows at `landed3`, the table rows back. -/
theorem outs3_eq (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    (bigSep Finset.univ (D3 d L g h1 fI hI Tb f q))
      = (iprop((bigSep (Finset.univ : Finset (Fin 160)) fun t => (rowAt3 (kOf t) (BitVec.ofNat 32 (rOf t).val) (row3_inb _ _)).view.loc (thr d L) ↦[(rowAt3 (kOf t) (BitVec.ofNat 32 (rOf t).val) (row3_inb _ _)).view.set]{fullShare} landed3 d L g h1 fI hI Tb f)
          ∗ (bigSep (Finset.univ : Finset (Fin 160)) fun t => (srcOf (wordAt3 d L g h1 (kOf t) (rOf t) fI) (chk_of_lt _ (hI _))).view.loc (thr d L) ↦[(srcOf (wordAt3 d L g h1 (kOf t) (rOf t) fI) (chk_of_lt _ (hI _))).view.set]{Transfers.shareTokN q (16 * (kOf t).val + (rOf t).val)} Tb)) : sProp 𝕄) := by
  rw [← bigSep_sep']
  refine bigSep_congr fun t _ => ?_
  show out3 d L g h1 fI hI Tb f q (kOf t) (rOf t) = _
  unfold out3
  rw [landed3_pts d L g h1 fI hI Tb f q (kOf t) (rOf t)]

/-- Before the batch: the buffer and the table, dealt out to the 160 transfers. -/
theorem open3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop(((bufW3).view.loc (thr d L) ↦[(bufW3).view.set]{fullShare} f) ∗ ((tV).view.loc (thr d L) ↦{q} Tb))
      ⊢ (iprop((bigSep (Ring.rangeSet 160 (16 * 0) 160) fun t => inp3 d L g h1 fI hI Tb f q (kOf t) (rOf t)) ∗ left3 d L g h1 fI hI Tb f q) : sProp 𝕄) := by
  rw [buf3_split d L f, tokens_split d L q Tb (fun t => wordAt3 d L g h1 (kOf t) (rOf t) fI) (fun t => chk_of_lt _ (hI _)),
    show Ring.rangeSet 160 (16 * 0) 160 = Finset.univ from Ring.rangeSet_univ]
  unfold left3
  have ei : (bigSep (Finset.univ : Finset (Fin 160)) fun t => inp3 d L g h1 fI hI Tb f q (kOf t) (rOf t))
      = (iprop((bigSep (Finset.univ : Finset (Fin 160)) fun t => (rowAt3 (kOf t) (BitVec.ofNat 32 (rOf t).val) (row3_inb _ _)).view.loc (thr d L) ↦[(rowAt3 (kOf t) (BitVec.ofNat 32 (rOf t).val) (row3_inb _ _)).view.set]{fullShare} f)
          ∗ (bigSep (Finset.univ : Finset (Fin 160)) fun t => (srcOf (wordAt3 d L g h1 (kOf t) (rOf t) fI) (chk_of_lt _ (hI _))).view.loc (thr d L) ↦[(srcOf (wordAt3 d L g h1 (kOf t) (rOf t) fI) (chk_of_lt _ (hI _))).view.set]{Transfers.shareTokN q (16 * (kOf t).val + (rOf t).val)} Tb)) : sProp 𝕄) := by
    rw [← bigSep_sep']
    refine bigSep_congr fun t _ => ?_
    show inp3 d L g h1 fI hI Tb f q (kOf t) (rOf t) = _
    unfold inp3
    rfl
  rw [ei]
  iintro ⟨⟨Hrows, Hright⟩, Hsrc, Hrest, Hdrop⟩
  isplitl [Hrows Hsrc]
  · isplitl [Hrows]; · iexact Hrows
    iexact Hsrc
  isplitl [Hright]; · iexact Hright
  isplitl [Hrest]; · iexact Hrest
  iexact Hdrop

/-- After the batch: the buffer held, every row the table row its token names; the table back. -/
theorem close3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    iprop((bigSep Finset.univ (D3 d L g h1 fI hI Tb f q)) ∗ left3 d L g h1 fI hI Tb f q)
      ⊢ (iprop(∃ f', ⌜rowsGood d L 3 (640 * g.val + 160 * 3) fI Tb f'⌝ ∗ ((bufW3).view.loc (thr d L) ↦[(bufW3).view.set]{fullShare} f')
          ∗ ((tV).view.loc (thr d L) ↦{q} Tb)) : sProp 𝕄) := by
  rw [outs3_eq d L g h1 fI hI Tb f q]
  unfold left3
  rw [right3_pts d L g h1 fI hI Tb f q, tokens_split d L q Tb (fun t => wordAt3 d L g h1 (kOf t) (rOf t) fI) (fun t => chk_of_lt _ (hI _))]
  iintro ⟨⟨Hrows, Hsrc⟩, Hright, Hrest, Hdrop⟩
  iexists landed3 d L g h1 fI hI Tb f
  isplitr
  · ipureintro; exact landed3_good d L g h1 fI hI Tb f q
  isplitl [Hrows Hright]
  · iapply (Entails.of_eq (buf3_split d L (landed3 d L g h1 fI hI Tb f)).symm)
    isplitl [Hrows]; · iexact Hrows
    iexact Hright
  isplitl [Hsrc]; · iexact Hsrc
  isplitl [Hrest]; · iexact Hrest
  iexact Hdrop

end Cert.Proof.KernelIdeal

end
-- ==== Proof.KernelIdeal.Facts.lean ====
/-
  Pure facts of the task. The group loop makes 17 trips; in trip g the four row buffers hold chunks 4 g, 4 g + 1,
  4 g + 2, 4 g + 3 of the worker's 64: a chunk is issued while its number is below 64, a buffer's previous write-back
  is waited for from the second trip on, and the chunk two behind (4 g + b - 2) is drained and written back while
  that number lies in [0, 63]. The write-back of chunk n starts at row 8 n of the worker's 512 rows of the output.
  The token fetch lands the worker's row of the reshaped tokens in the list, every word of it a row of the table.
-/
import proofs.«206312_g12936441495622_cont_fleet_311_30_alg».proof.Proof.KernelIdeal.Pipe

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "sI" => (Memref.whole Cert.KernelIdeal.cc0_scratch0 : Memref Cert.KernelIdeal.sig Kind.scVector Space.vmem Cert.KernelIdeal.S10240 EltTy.i32)

/-! ## The twelve conditions of the group loop -/

theorem cond1_pos : ∀ g : Fin k0_t1_loop.trips, g.val ≤ 15 → k0_cond1 g = 1#1 := by decide +kernel
theorem cond1_neg : ∀ g : Fin k0_t1_loop.trips, ¬(g.val ≤ 15) → ¬k0_cond1 g = 1#1 := by decide +kernel
theorem cond2_pos : ∀ g : Fin k0_t1_loop.trips, 1 ≤ g.val → k0_cond2 g = 1#1 := by decide +kernel
theorem cond2_neg : ∀ g : Fin k0_t1_loop.trips, ¬(1 ≤ g.val) → ¬k0_cond2 g = 1#1 := by decide +kernel
theorem cond3_pos : ∀ g : Fin k0_t1_loop.trips, 1 ≤ g.val ∧ g.val ≤ 16 → k0_cond3 g = 1#1 := by decide +kernel
theorem cond3_neg : ∀ g : Fin k0_t1_loop.trips, ¬(1 ≤ g.val ∧ g.val ≤ 16) → ¬k0_cond3 g = 1#1 := by decide +kernel
theorem cond4_pos : ∀ g : Fin k0_t1_loop.trips, g.val ≤ 15 → k0_cond4 g = 1#1 := by decide +kernel
theorem cond4_neg : ∀ g : Fin k0_t1_loop.trips, ¬(g.val ≤ 15) → ¬k0_cond4 g = 1#1 := by decide +kernel
theorem cond5_pos : ∀ g : Fin k0_t1_loop.trips, 1 ≤ g.val → k0_cond5 g = 1#1 := by decide +kernel
theorem cond5_neg : ∀ g : Fin k0_t1_loop.trips, ¬(1 ≤ g.val) → ¬k0_cond5 g = 1#1 := by decide +kernel
theorem cond6_pos : ∀ g : Fin k0_t1_loop.trips, 1 ≤ g.val ∧ g.val ≤ 16 → k0_cond6 g = 1#1 := by decide +kernel
theorem cond6_neg : ∀ g : Fin k0_t1_loop.trips, ¬(1 ≤ g.val ∧ g.val ≤ 16) → ¬k0_cond6 g = 1#1 := by decide +kernel
theorem cond7_pos : ∀ g : Fin k0_t1_loop.trips, g.val ≤ 15 → k0_cond7 g = 1#1 := by decide +kernel
theorem cond7_neg : ∀ g : Fin k0_t1_loop.trips, ¬(g.val ≤ 15) → ¬k0_cond7 g = 1#1 := by decide +kernel
theorem cond8_pos : ∀ g : Fin k0_t1_loop.trips, 1 ≤ g.val → k0_cond8 g = 1#1 := by decide +kernel
theorem cond8_neg : ∀ g : Fin k0_t1_loop.trips, ¬(1 ≤ g.val) → ¬k0_cond8 g = 1#1 := by decide +kernel
theorem cond9_pos : ∀ g : Fin k0_t1_loop.trips, g.val ≤ 15 → k0_cond9 g = 1#1 := by decide +kernel
theorem cond9_neg : ∀ g : Fin k0_t1_loop.trips, ¬(g.val ≤ 15) → ¬k0_cond9 g = 1#1 := by decide +kernel
theorem cond10_pos : ∀ g : Fin k0_t1_loop.trips, g.val ≤ 15 → k0_cond10 g = 1#1 := by decide +kernel
theorem cond10_neg : ∀ g : Fin k0_t1_loop.trips, ¬(g.val ≤ 15) → ¬k0_cond10 g = 1#1 := by decide +kernel
theorem cond11_pos : ∀ g : Fin k0_t1_loop.trips, 1 ≤ g.val → k0_cond11 g = 1#1 := by decide +kernel
theorem cond11_neg : ∀ g : Fin k0_t1_loop.trips, ¬(1 ≤ g.val) → ¬k0_cond11 g = 1#1 := by decide +kernel
theorem cond12_pos : ∀ g : Fin k0_t1_loop.trips, g.val ≤ 15 → k0_cond12 g = 1#1 := by decide +kernel
theorem cond12_neg : ∀ g : Fin k0_t1_loop.trips, ¬(g.val ≤ 15) → ¬k0_cond12 g = 1#1 := by decide +kernel

/-! ## Where a write-back starts -/

/-- Buffer 0's write-back in trip g is of chunk 4 g - 2. -/
theorem off37_eq : ∀ (L : grid0.Coords) (g : Fin k0_t1_loop.trips), 1 ≤ g.val → g.val ≤ 16 →
    k0_off37 L g = ![1024 * (L 1).val + 512 * (L 0).val + 8 * (4 * g.val - 2), 0, 0] := by decide +kernel
/-- Buffer 1's write-back in trip g is of chunk 4 g - 1. -/
theorem off73_eq : ∀ (L : grid0.Coords) (g : Fin k0_t1_loop.trips), 1 ≤ g.val → g.val ≤ 16 →
    k0_off73 L g = ![1024 * (L 1).val + 512 * (L 0).val + 8 * (4 * g.val - 1), 0, 0] := by decide +kernel

/-! ## What the token fetch lands -/

variable [FloatOps F] (I : (d : Dev nD) → Buf (Elt F) (idxLoc d)) (d : Dev nD) (L : grid0.Coords)

/-- Worker w's row of the reshaped tokens. -/
def fIw (I : (d : Dev nD) → Buf (Elt F) (idxLoc d)) (d : Dev nD) (w : Fin 32) : S10240.Idx → BitVec 32 :=
  fun j => I d (ix2 w (⟨(j 0).val, (j 0).isLt⟩ : Fin 10240))

omit [FloatOps F] in
/-- Position j of the worker's row, as the fetch's source addresses it, is (worker, j) of the reshaped tokens. -/
theorem iRowM_emb (j : S10240.Idx) :
    (iRowM L).view.emb j = ix2 (widL L) (⟨(j 0).val, (j 0).isLt⟩ : Fin 10240) := by
  have hy : (((⟨2, S1x10240.size⟩ : Shape).rowMajor (Shape.reshapeEquiv squeezes_S1x10240_S10240.numel_eq j) : Fin _) : ℕ)
      = ((S10240.rowMajor j : Fin _) : ℕ) := Shape.rowMajor_reshapeEquiv _ j
  rw [Shape.rowMajor_val_two, Shape.rowMajor_val_one] at hy
  have h0 : ((Shape.reshapeEquiv squeezes_S1x10240_S10240.numel_eq j : (⟨2, S1x10240.size⟩ : Shape).Idx) 0).val < 1 :=
    (Shape.reshapeEquiv squeezes_S1x10240_S10240.numel_eq j 0).isLt
  have y0 : ((Shape.reshapeEquiv squeezes_S1x10240_S10240.numel_eq j : (⟨2, S1x10240.size⟩ : Shape).Idx) 0).val = 0 := by omega
  rw [y0, Nat.zero_mul, Nat.zero_add] at hy
  have hoff := k0_off1_eq L
  funext a
  refine Fin.ext ?_
  match a with
  | ⟨0, _⟩ =>
    show k0_off1 L 0 + 1 * ((Shape.reshapeEquiv squeezes_S1x10240_S10240.numel_eq j : (⟨2, S1x10240.size⟩ : Shape).Idx) 0).val = 2 * (L 1).val + (L 0).val
    rw [hoff, y0]
    rfl
  | ⟨1, _⟩ =>
    show k0_off1 L 1 + 1 * ((Shape.reshapeEquiv squeezes_S1x10240_S10240.numel_eq j : (⟨2, S1x10240.size⟩ : Shape).Idx) 1).val = (j 0).val
    rw [hoff, hy]
    show 0 + 1 * (j 0).val = (j 0).val
    omega

omit [FloatOps F] in
/-- The fetch overwrites the whole list with the worker's row of tokens. -/
theorem fetch_eq (fi0 : Buf (Elt F) ((sI).view.loc (thr d L))) :
    (sI).view.write (Elt F) fi0 (ReadAs.same.apply ((iRowM L).view.read (Elt F) (I d))) Finset.univ = fIw I d (widL L) := by
  refine (View.write_whole_univ _ _ _).trans ?_
  funext j
  refine (View.read_apply (v := (iRowM L).view) (I d) j).trans ?_
  rw [iRowM_emb]
  exact cast_eq _ _

omit [FloatOps F] in
/-- The same, the write listed as one piece over the whole list. -/
theorem fetch_eq' (fi0 : Buf (Elt F) ((sI).view.loc (thr d L))) :
    (sI).view.writes (Elt F) fi0 [⟨Rect.whole S10240, ReadAs.same.apply ((iRowM L).view.read (Elt F) (I d))⟩] = fIw I d (widL L) :=
  (View.write_univ_eq_writes_whole (sI).view fi0 [] _).symm.trans (fetch_eq I d L fi0)

omit [FloatOps F] in
/-- Every token of the row names a row of the table. -/
theorem fIw_lt (hpre : PreOK I) (w : Fin 32) : ∀ j, (fIw I d w j).toNat < 1000000 := fun j => hpre d _

end Cert.Proof.KernelIdeal

end
-- ==== Proof.KernelIdeal.OutGeom.lean ====
/-
  The geometry of the worker's block of the output. Worker w owns rows 512 w … 512 w + 511 of the [16384, 20, 128]
  output; chunk c of its 64 is the eight rows from 512 w + 8 c, the destination of one write-back. A write-back copies
  a row buffer read as [8, 20, 128]: element (a, s, col) of that reading is element (20 a + s, col) of the buffer, so
  once the buffer's rows hold the table rows their tokens name, the chunk's rows hold them too: row 512 w + 8 c + a,
  position s, column k < 64 holds the table row named by token 160 c + 20 a + s. The block is its 64 chunks, and 64
  chunks each written are the block written.
-/
import proofs.«206312_g12936441495622_cont_fleet_311_30_alg».proof.Proof.KernelIdeal.RowsGeo
import proofs.«206312_g12936441495622_cont_fleet_311_30_alg».proof.Proof.KernelIdeal.Facts

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.KernelIdeal.main_v1_scv : Memref Cert.KernelIdeal.sig Kind.scVector Space.hbm Cert.KernelIdeal.S16384x20x128 EltTy.f32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

/-! ## A buffer read as [8, 20, 128] -/

/-- Element (a, s, k) of an [8, 20, 128] array read as [1, 8, 20, 128] is element (0, a, s, k). -/
theorem reshape_sq (h : S8x20x128.numel = S1x8x20x128.numel) (a : Fin 8) (s : Fin 20) (k : Fin 128) :
    Shape.reshapeEquiv (s := S1x8x20x128) (s' := S8x20x128) h (ix3 a s k) = ix4 (0 : Fin 1) a s k := by
  refine Shape.reshapeEquiv_eq_of_rowMajor _ ?_
  rw [Shape.rowMajor_val_four, Shape.rowMajor_val_three]
  show ((0 * 8 + a.val) * 20 + s.val) * 128 + k.val = (a.val * 20 + s.val) * 128 + k.val
  omega

omit [FloatOps F] in
/-- Element (a, s, k) of buffer 0 read as [8, 20, 128] is element (0, 20 a + s, k) of the scratch. -/
theorem bufW0_emb (a : Fin 8) (s : Fin 20) (k : Fin 128) :
    (bufW0).view.emb (ix3 a s k) = (ix3 (0 : Fin 4) (⟨20 * a.val + s.val, by omega⟩ : Fin 160) k : S4x160x128.Idx) := by
  unfold bufW0
  show Shape.reshapeEquiv (s := S4x160x128) (s' := S4x8x20x128) reshapes_S4x160x128_S4x8x20x128.1
      ((Rect.unit (s := S4x8x20x128) ![0, 0, 0, 0] S1x8x20x128.size inb_S4x8x20x128_S1x8x20x128_0_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 0 = 0 + 1 * 0
    omega
  · show 20 * a.val + s.val = 20 * (0 + 1 * a.val) + (0 + 1 * s.val)
    omega
  · show k.val = 0 + 1 * k.val
    omega

omit [FloatOps F] in
/-- Element (a, s, k) of buffer 1 read as [8, 20, 128] is element (1, 20 a + s, k) of the scratch. -/
theorem bufW1_emb (a : Fin 8) (s : Fin 20) (k : Fin 128) :
    (bufW1).view.emb (ix3 a s k) = (ix3 (1 : Fin 4) (⟨20 * a.val + s.val, by omega⟩ : Fin 160) k : S4x160x128.Idx) := by
  unfold bufW1
  show Shape.reshapeEquiv (s := S4x160x128) (s' := S4x8x20x128) reshapes_S4x160x128_S4x8x20x128.1
      ((Rect.unit (s := S4x8x20x128) ![1, 0, 0, 0] S1x8x20x128.size inb_S4x8x20x128_S1x8x20x128_1_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 1 = 1 + 1 * 0
    omega
  · show 20 * a.val + s.val = 20 * (0 + 1 * a.val) + (0 + 1 * s.val)
    omega
  · show k.val = 0 + 1 * k.val
    omega

omit [FloatOps F] in
/-- Element (a, s, k) of buffer 2 read as [8, 20, 128] is element (2, 20 a + s, k) of the scratch. -/
theorem bufW2_emb (a : Fin 8) (s : Fin 20) (k : Fin 128) :
    (bufW2).view.emb (ix3 a s k) = (ix3 (2 : Fin 4) (⟨20 * a.val + s.val, by omega⟩ : Fin 160) k : S4x160x128.Idx) := by
  unfold bufW2
  show Shape.reshapeEquiv (s := S4x160x128) (s' := S4x8x20x128) reshapes_S4x160x128_S4x8x20x128.1
      ((Rect.unit (s := S4x8x20x128) ![2, 0, 0, 0] S1x8x20x128.size inb_S4x8x20x128_S1x8x20x128_2_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 2 = 2 + 1 * 0
    omega
  · show 20 * a.val + s.val = 20 * (0 + 1 * a.val) + (0 + 1 * s.val)
    omega
  · show k.val = 0 + 1 * k.val
    omega

omit [FloatOps F] in
/-- Element (a, s, k) of buffer 3 read as [8, 20, 128] is element (3, 20 a + s, k) of the scratch. -/
theorem bufW3_emb (a : Fin 8) (s : Fin 20) (k : Fin 128) :
    (bufW3).view.emb (ix3 a s k) = (ix3 (3 : Fin 4) (⟨20 * a.val + s.val, by omega⟩ : Fin 160) k : S4x160x128.Idx) := by
  unfold bufW3
  show Shape.reshapeEquiv (s := S4x160x128) (s' := S4x8x20x128) reshapes_S4x160x128_S4x8x20x128.1
      ((Rect.unit (s := S4x8x20x128) ![3, 0, 0, 0] S1x8x20x128.size inb_S4x8x20x128_S1x8x20x128_3_0_0_0).emb
        (Shape.reshapeEquiv (s := S1x8x20x128) (s' := S8x20x128) squeezes_S1x8x20x128_S8x20x128.numel_eq (ix3 a s k))) = _
  rw [reshape_sq]
  refine reshape4_eq _ _ ?_ ?_ ?_
  · show 3 = 3 + 1 * 0
    omega
  · show 20 * a.val + s.val = 20 * (0 + 1 * a.val) + (0 + 1 * s.val)
    omega
  · show k.val = 0 + 1 * k.val
    omega

/-! ## A chunk of the output -/

/-- The eight rows of the output from off 0, as a write-back's destination. -/
def oChunk (off : Fin 3 → ℕ) (h : ∀ a, off a + S8x20x128.size a ≤ S16384x20x128.size a) : Memref sig .scVector .hbm S8x20x128 .f32 :=
  (oV).slice (Rect.unit (s := S16384x20x128) off S8x20x128.size h) (fun _ => rfl)

/-- The elements of the eight rows from n0. -/
def chunkSet (n0 : ℕ) : Finset S16384x20x128.Idx := Finset.univ.filter fun i => n0 ≤ (i 0).val ∧ (i 0).val < n0 + 8

theorem mem_chunkSet (n0 : ℕ) (i : S16384x20x128.Idx) : i ∈ chunkSet n0 ↔ n0 ≤ (i 0).val ∧ (i 0).val < n0 + 8 := by
  unfold chunkSet; rw [Finset.mem_filter]; exact ⟨fun h => h.2, fun h => ⟨Finset.mem_univ _, h⟩⟩

theorem oChunk_set (off : Fin 3 → ℕ) (h : ∀ a, off a + S8x20x128.size a ≤ S16384x20x128.size a) (n0 : ℕ) (e : off = ![n0, 0, 0]) :
    (oChunk off h).view.set = chunkSet n0 := by
  subst e
  unfold oChunk
  show ((oV).view.slice (Rect.unit (s := S16384x20x128) ![n0, 0, 0] S8x20x128.size h)).set = chunkSet n0
  rw [View.set_slice_whole]
  ext i
  rw [Rect.mem_set_unit, mem_chunkSet]
  have h1 : (i 1).val < 20 := (i 1).isLt
  have h2 : (i 2).val < 128 := (i 2).isLt
  constructor
  · intro H
    have H0 : n0 ≤ (i 0).val ∧ (i 0).val < n0 + 8 := H 0
    exact H0
  · intro H a
    match a with
    | ⟨0, _⟩ => exact H
    | ⟨1, _⟩ => show 0 ≤ (i 1).val ∧ (i 1).val < 0 + 20; omega
    | ⟨2, _⟩ => show 0 ≤ (i 2).val ∧ (i 2).val < 0 + 128; omega

/-- Chunk c of worker w is written: row 512 w + 8 c + a, position s, column k < 64 holds the table row named by
    token 160 c + 20 a + s of the worker's list. -/
def chunkGood (d : Dev nD) (w : Fin 32) (c : ℕ) (fIw : S10240.Idx → BitVec 32) (Tb : Buf (Elt F) (tabLoc d)) (fo : Buf (Elt F) (outLoc d)) : Prop :=
  ∀ (a : Fin 8) (s : Fin 20) (k : Fin 64),
    fo (ix3 (⟨(512 * w.val + 8 * c + a.val) % 16384, Nat.mod_lt _ (by decide)⟩ : Fin 16384) s (⟨k.val, by omega⟩ : Fin 128))
      = Tb (ix2 (Cert.Spec.rowOf (fIw (ix1 (⟨(160 * c + 20 * a.val + s.val) % 10240, Nat.mod_lt _ (by decide)⟩ : Fin 10240)))) k)

/-- Buffer 0, its rows landed, copied whole over the chunk leaves the chunk written. -/
theorem wb_done0 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 0 (160 * c) fIw Tb f') :
    chunkGood d w c fIw Tb ((oChunk off h).view.writes (Elt F) fo [⟨Rect.whole S8x20x128, ReadAs.same.apply ((bufW0).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW0).view.read (Elt F) f')⟩])
        ((oChunk ![512 * w.val + 8 * c, 0, 0] h).view.emb (ix3 a s (⟨k.val, by omega⟩ : Fin 128)))
      = (bufW0).view.read (Elt F) f' (ix3 a s (⟨k.val, by omega⟩ : Fin 128)) :=
    congrFun (View.read_writes_whole (oChunk ![512 * w.val + 8 * c, 0, 0] h).view fo (ReadAs.same.apply ((bufW0).view.read (Elt F) f'))) (ix3 a s (⟨k.val, by omega⟩ : Fin 128))
  refine hrd.trans ?_
  refine (View.read_apply (v := (bufW0).view) f' _).trans ?_
  rw [bufW0_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-- Buffer 1, its rows landed, copied whole over the chunk leaves the chunk written. -/
theorem wb_done1 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 1 (160 * c) fIw Tb f') :
    chunkGood d w c fIw Tb ((oChunk off h).view.writes (Elt F) fo [⟨Rect.whole S8x20x128, ReadAs.same.apply ((bufW1).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW1).view.read (Elt F) f')⟩])
        ((oChunk ![512 * w.val + 8 * c, 0, 0] h).view.emb (ix3 a s (⟨k.val, by omega⟩ : Fin 128)))
      = (bufW1).view.read (Elt F) f' (ix3 a s (⟨k.val, by omega⟩ : Fin 128)) :=
    congrFun (View.read_writes_whole (oChunk ![512 * w.val + 8 * c, 0, 0] h).view fo (ReadAs.same.apply ((bufW1).view.read (Elt F) f'))) (ix3 a s (⟨k.val, by omega⟩ : Fin 128))
  refine hrd.trans ?_
  refine (View.read_apply (v := (bufW1).view) f' _).trans ?_
  rw [bufW1_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-- Buffer 2, its rows landed, copied whole over the chunk leaves the chunk written. -/
theorem wb_done2 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 2 (160 * c) fIw Tb f') :
    chunkGood d w c fIw Tb ((oChunk off h).view.writes (Elt F) fo [⟨Rect.whole S8x20x128, ReadAs.same.apply ((bufW2).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW2).view.read (Elt F) f')⟩])
        ((oChunk ![512 * w.val + 8 * c, 0, 0] h).view.emb (ix3 a s (⟨k.val, by omega⟩ : Fin 128)))
      = (bufW2).view.read (Elt F) f' (ix3 a s (⟨k.val, by omega⟩ : Fin 128)) :=
    congrFun (View.read_writes_whole (oChunk ![512 * w.val + 8 * c, 0, 0] h).view fo (ReadAs.same.apply ((bufW2).view.read (Elt F) f'))) (ix3 a s (⟨k.val, by omega⟩ : Fin 128))
  refine hrd.trans ?_
  refine (View.read_apply (v := (bufW2).view) f' _).trans ?_
  rw [bufW2_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-- Buffer 3, its rows landed, copied whole over the chunk leaves the chunk written. -/
theorem wb_done3 (off : Fin 3 → ℕ) (h : ∀ a, off a + S8x20x128.size a ≤ S16384x20x128.size a) (n0 : ℕ) (w : Fin 32) (c : ℕ)
    (e : off = ![n0, 0, 0]) (en : n0 = 512 * w.val + 8 * c) (hc : c < 64)
    (fo : Buf (Elt F) (outLoc d)) (f' : Buf (Elt F) ((sR).view.loc (thr d L))) (fIw : S10240.Idx → BitVec 32) (Tb : Buf (Elt F) (tabLoc d))
    (hg : rowsGood d L 3 (160 * c) fIw Tb f') :
    chunkGood d w c fIw Tb ((oChunk off h).view.writes (Elt F) fo [⟨Rect.whole S8x20x128, ReadAs.same.apply ((bufW3).view.read (Elt F) f')⟩]) := by
  subst e en
  intro a s k
  have hw : w.val < 32 := w.isLt
  have ha : a.val < 8 := a.isLt
  have hs : s.val < 20 := s.isLt
  have hk : k.val < 64 := k.isLt
  have hi : (ix3 (⟨(512 * w.val + 8 * c + a.val) % 16384, Nat.mod_lt _ (by decide)⟩ : Fin 16384) s (⟨k.val, by omega⟩ : Fin 128) : S16384x20x128.Idx)
      = (oChunk ![512 * w.val + 8 * c, 0, 0] h).view.emb (ix3 a s (⟨k.val, by omega⟩ : Fin 128)) := by
    funext ax
    refine Fin.ext ?_
    match ax with
    | ⟨0, _⟩ => show (512 * w.val + 8 * c + a.val) % 16384 = (512 * w.val + 8 * c) + 1 * a.val; omega
    | ⟨1, _⟩ => show s.val = 0 + 1 * s.val; omega
    | ⟨2, _⟩ => show k.val = 0 + 1 * k.val; omega
  rw [hi]
  have hrd : ((oChunk ![512 * w.val + 8 * c, 0, 0] h).view.writes (Elt F) fo [⟨Rect.whole S8x20x128, ReadAs.same.apply ((bufW3).view.read (Elt F) f')⟩])
        ((oChunk ![512 * w.val + 8 * c, 0, 0] h).view.emb (ix3 a s (⟨k.val, by omega⟩ : Fin 128)))
      = (bufW3).view.read (Elt F) f' (ix3 a s (⟨k.val, by omega⟩ : Fin 128)) :=
    congrFun (View.read_writes_whole (oChunk ![512 * w.val + 8 * c, 0, 0] h).view fo (ReadAs.same.apply ((bufW3).view.read (Elt F) f'))) (ix3 a s (⟨k.val, by omega⟩ : Fin 128))
  refine hrd.trans ?_
  refine (View.read_apply (v := (bufW3).view) f' _).trans ?_
  rw [bufW3_emb]
  refine (cast_eq _ _).trans ?_
  refine (hg (⟨20 * a.val + s.val, by omega⟩ : Fin 160) k).trans ?_
  have e2 : (⟨(160 * c + (⟨20 * a.val + s.val, by omega⟩ : Fin 160).val) % 10240, Nat.mod_lt _ (by decide)⟩ : Fin 10240)
      = ⟨(160 * c + 20 * a.val + s.val) % 10240, Nat.mod_lt _ (by decide)⟩ :=
    Fin.ext (by show (160 * c + (20 * a.val + s.val)) % 10240 = (160 * c + 20 * a.val + s.val) % 10240; rw [Nat.add_assoc])
  rw [e2]

/-! ## The block as its chunks -/

omit [FloatOps F] in
theorem mem_oBlkSet (w : Fin 32) (i : S16384x20x128.Idx) : i ∈ oBlkSet w ↔ 512 * w.val ≤ (i 0).val ∧ (i 0).val < 512 * w.val + 512 := by
  have h1 : (i 1).val < 20 := (i 1).isLt
  have h2 : (i 2).val < 128 := (i 2).isLt
  constructor
  · intro hi
    have h0 : w.val * (16384 / 32) ≤ (i 0).val ∧ (i 0).val < w.val * (16384 / 32) + 16384 / 32 := (Rect.mem_set_unit.mp hi) 0
    omega
  · intro hi
    refine Rect.mem_set_unit.mpr fun a => ?_
    match a with
    | ⟨0, _⟩ =>
      show w.val * (16384 / 32) ≤ (i 0).val ∧ (i 0).val < w.val * (16384 / 32) + 16384 / 32
      omega
    | ⟨1, _⟩ =>
      show 0 * 20 ≤ (i 1).val ∧ (i 1).val < 0 * 20 + 20
      omega
    | ⟨2, _⟩ =>
      show 0 * 128 ≤ (i 2).val ∧ (i 2).val < 0 * 128 + 128
      omega

omit [FloatOps F] in
theorem chunks_disjoint (w : Fin 32) : ∀ c ∈ (Finset.univ : Finset (Fin 64)), ∀ c' ∈ (Finset.univ : Finset (Fin 64)), c ≠ c' →
    Disjoint (chunkSet (512 * w.val + 8 * c.val)) (chunkSet (512 * w.val + 8 * c'.val)) := by
  intro c _ c' _ hne
  rw [Finset.disjoint_left]
  intro i hi hi'
  rw [mem_chunkSet] at hi hi'
  exact hne (Fin.ext (by omega))

omit [FloatOps F] in
theorem chunks_cover (w : Fin 32) : (Finset.univ : Finset (Fin 64)).biUnion (fun c => chunkSet (512 * w.val + 8 * c.val)) = oBlkSet w := by
  ext i
  rw [Finset.mem_biUnion, mem_oBlkSet]
  constructor
  · rintro ⟨c, -, hc⟩
    rw [mem_chunkSet] at hc
    have := c.isLt
    omega
  · intro hi
    refine ⟨⟨((i 0).val - 512 * w.val) / 8, by omega⟩, Finset.mem_univ _, ?_⟩
    rw [mem_chunkSet]
    show 512 * w.val + 8 * (((i 0).val - 512 * w.val) / 8) ≤ (i 0).val ∧ (i 0).val < 512 * w.val + 8 * (((i 0).val - 512 * w.val) / 8) + 8
    omega

omit [FloatOps F] in
/-- A worker's block held is its 64 chunks held. -/
theorem oBlk_chunks (w : Fin 32) (f : Buf (Elt F) (outLoc d)) :
    (outLoc d ↦[oBlkSet w]{fullShare} f : sProp 𝕄)
      = bigSep (Finset.univ : Finset (Fin 64)) fun c => outLoc d ↦[chunkSet (512 * w.val + 8 * c.val)]{fullShare} f := by
  rw [← chunks_cover w, pointsTo_biUnion Finset.univ (ℓ := outLoc d) (fun c : Fin 64 => chunkSet (512 * w.val + 8 * c.val)) (chunks_disjoint w)]

/-- The 64 chunks, each written, are the block written. -/
theorem chunks_join (m : (ℓ : Loc nD τ sig) → Buf (Elt F) ℓ) (I : (d : Dev nD) → Buf (Elt F) (idxLoc d)) (w : Fin 32) :
    (bigSep (Finset.univ : Finset (Fin 64)) fun c =>
        iprop(∃ fo, ⌜chunkGood d w c.val (fIw I d w) (m (tabLoc d)) fo⌝ ∗ (outLoc d ↦[chunkSet (512 * w.val + 8 * c.val)]{fullShare} fo)))
      ⊢ (iprop(∃ f, ⌜GoodOut m I d w f⌝ ∗ (outLoc d ↦[oBlkSet w]{fullShare} f)) : sProp 𝕄) := by
  haveI : Nonempty (Buf (Elt F) (outLoc d)) := ⟨m (outLoc d)⟩
  refine (bigSep_exists_pi Finset.univ (fun (c : Fin 64) (fo : Buf (Elt F) (outLoc d)) =>
    iprop(⌜chunkGood d w c.val (fIw I d w) (m (tabLoc d)) fo⌝ ∗ (outLoc d ↦[chunkSet (512 * w.val + 8 * c.val)]{fullShare} fo)))).trans ?_
  iintro ⟨%fs, H⟩
  ihave H' := (bigSep_pure_sep Finset.univ (fun c : Fin 64 => chunkGood d w c.val (fIw I d w) (m (tabLoc d)) (fs c))
    (fun c : Fin 64 => (outLoc d ↦[chunkSet (512 * w.val + 8 * c.val)]{fullShare} fs c : sProp 𝕄))) $$ H
  icases H' with ⟨%hfs, H⟩
  ihave H'' := (pointsTo_biUnion_join (ℓ := outLoc d) (q := fullShare) (Val := Elt F) Finset.univ
    (fun c : Fin 64 => chunkSet (512 * w.val + 8 * c.val)) fs (fs 0) (chunks_disjoint w)) $$ H
  icases H'' with ⟨%g, %hg, Hg⟩
  rw [chunks_cover]
  iexists g; isplitr
  · ipureintro
    intro r s k
    have hw : w.val < 32 := w.isLt
    have hr : r.val < 512 := r.isLt
    have hs : s.val < 20 := s.isLt
    obtain ⟨c, hc⟩ : ∃ c : Fin 64, c.val = r.val / 8 := ⟨⟨r.val / 8, by omega⟩, rfl⟩
    obtain ⟨a, ha⟩ : ∃ a : Fin 8, a.val = r.val % 8 := ⟨⟨r.val % 8, Nat.mod_lt _ (by decide)⟩, rfl⟩
    have hmem : (ix3 (⟨512 * w.val + r.val, by omega⟩ : Fin 16384) s (⟨k.val, by omega⟩ : Fin 128) : S16384x20x128.Idx)
        ∈ chunkSet (512 * w.val + 8 * c.val) := by
      rw [mem_chunkSet]
      show 512 * w.val + 8 * c.val ≤ 512 * w.val + r.val ∧ 512 * w.val + r.val < 512 * w.val + 8 * c.val + 8
      omega
    rw [hg c (Finset.mem_univ c) _ hmem]
    have hh := hfs c (Finset.mem_univ c) a s k
    have e1 : (⟨(512 * w.val + 8 * c.val + a.val) % 16384, Nat.mod_lt _ (by decide)⟩ : Fin 16384) = ⟨512 * w.val + r.val, by omega⟩ :=
      Fin.ext (by show (512 * w.val + 8 * c.val + a.val) % 16384 = 512 * w.val + r.val; omega)
    have e2 : (⟨(160 * c.val + 20 * a.val + s.val) % 10240, Nat.mod_lt _ (by decide)⟩ : Fin 10240) = ⟨20 * r.val + s.val, by omega⟩ :=
      Fin.ext (by show (160 * c.val + 20 * a.val + s.val) % 10240 = 20 * r.val + s.val; omega)
    rw [e1, e2] at hh
    exact hh
  · iexact Hg

end Cert.Proof.KernelIdeal

end
-- ==== Proof.KernelIdeal.Drain.lean ====
/-
  The four drain loops of the task's body. Each row buffer's 160 copies of a chunk complete on the buffer's one
  semaphore, every copy crediting it one row (64 words of 32 bits). The drain loop of a buffer makes ten trips of
  sixteen waits, each wait taking one row's credit off the semaphore: the first 159 waits only lower the count of
  credit still to be taken; the 160th takes the last of it, so every copy has landed, the semaphore is back at
  zero and all 160 deliveries are handed over at once. The waits are those of a thread that owes: each is recorded
  at the index of waits that need no round.
-/
import proofs.«206312_g12936441495622_cont_fleet_311_30_alg».proof.Proof.KernelIdeal.TaskLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

/-- A wait recorded at the index that needs no round keeps the record within what was owed before or such waits. -/
theorem waits_insert {W W' : Waits sig (HIx 1)} (a : SemLoc sig × HIx 1) (ha : a.2 = none)
    (h : ∀ p ∈ W', p ∈ W ∨ p.2 = none) : ∀ p ∈ insert a W', p ∈ W ∨ p.2 = none := by
  intro p hp
  rcases Finset.mem_insert.mp hp with hp | hp
  · exact .inr (hp ▸ ha)
  · exact h p hp

/-! ## Row buffer 2 -/

/-- Before trip k of buffer 2's drain loop: k at most 10; the evidence that the thread may wait; what it owes, with the
    waits so far recorded; and either (k < 10) the batch with 16 k rows' credit taken, or (after the last trip) the
    semaphore at zero and every delivery. -/
def drainAt2 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch4.sem) (none : HIx 1) NR D 160 (16 * k * NR)
       else iprop(semVal ((thr d L), SemLoc.dma cc0_scratch4.sem) 0 ∗ bigSep Finset.univ D)))

set_option maxHeartbeats 8000000 in
/-- One trip, by cases: before the last trip sixteen waits short of the last; on the last trip fifteen such, then the
    wait that takes the last credit and hands every delivery over. -/
theorem drain2_step [∀ e, Nonempty (Elt F e)] (v1 : BitVec 32) (g : Fin k0_t1_loop.trips) (h : k0_cond3 g = 1#1)
    (D : Fin 160 → sProp 𝕄) (O : CellTallies nD τ sig (HIx 1)) (W : Waits sig (HIx 1)) (k : Fin k0_t3_loop.trips) (acc : Unit) :
    drainAt2 d L O W D k.val acc
      ⊢ wp frame (wpE (defs₀ (F := F)) 𝒱₀ (thr d L) none) Set.univ
          (k0_t3_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g h k acc)
          (drainAt2 d L O W D (k.val + 1)) := by
  have hk : k.val < 10 := k.isLt
  unfold drainAt2
  simp only [if_pos hk]
  rcases Nat.lt_or_ge (k.val + 1) 10 with h1 | h1
  · simp only [if_pos h1]
    iintro ⟨-, Hmw, ⟨%W', %hW', HO⟩, HB⟩
    sl_unfold [k0_t3_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t3_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

/-! ## Row buffer 3 -/

/-- Before trip k of buffer 3's drain loop: k at most 10; the evidence that the thread may wait; what it owes, with the
    waits so far recorded; and either (k < 10) the batch with 16 k rows' credit taken, or (after the last trip) the
    semaphore at zero and every delivery. -/
def drainAt3 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch5.sem) (none : HIx 1) NR D 160 (16 * k * NR)
       else iprop(semVal ((thr d L), SemLoc.dma cc0_scratch5.sem) 0 ∗ bigSep Finset.univ D)))

set_option maxHeartbeats 8000000 in
/-- One trip, by cases: before the last trip sixteen waits short of the last; on the last trip fifteen such, then the
    wait that takes the last credit and hands every delivery over. -/
theorem drain3_step [∀ e, Nonempty (Elt F e)] (v1 : BitVec 32) (g : Fin k0_t1_loop.trips) (h : k0_cond6 g = 1#1)
    (D : Fin 160 → sProp 𝕄) (O : CellTallies nD τ sig (HIx 1)) (W : Waits sig (HIx 1)) (k : Fin k0_t5_loop.trips) (acc : Unit) :
    drainAt3 d L O W D k.val acc
      ⊢ wp frame (wpE (defs₀ (F := F)) 𝒱₀ (thr d L) none) Set.univ
          (k0_t5_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            v1 0#32 1#32 g h k acc)
          (drainAt3 d L O W D (k.val + 1)) := by
  have hk : k.val < 10 := k.isLt
  unfold drainAt3
  simp only [if_pos hk]
  rcases Nat.lt_or_ge (k.val + 1) 10 with h1 | h1
  · simp only [if_pos h1]
    iintro ⟨-, Hmw, ⟨%W', %hW', HO⟩, HB⟩
    sl_unfold [k0_t5_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t5_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

/-! ## Row buffer 0 -/

/-- Before trip k of buffer 0's drain loop: k at most 10; the evidence that the thread may wait; what it owes, with the
    waits so far recorded; and either (k < 10) the batch with 16 k rows' credit taken, or (after the last trip) the
    semaphore at zero and every delivery. -/
def drainAt0 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch2.sem) (none : HIx 1) NR D 160 (16 * k * NR)
       else iprop(semVal ((thr d L), SemLoc.dma cc0_scratch2.sem) 0 ∗ bigSep Finset.univ D)))

set_option maxHeartbeats 8000000 in
/-- One trip, by cases: before the last trip sixteen waits short of the last; on the last trip fifteen such, then the
    wait that takes the last credit and hands every delivery over. -/
theorem drain0_step [∀ e, Nonempty (Elt F e)] (g : Fin k0_t1_loop.trips) (h : k0_cond9 g = 1#1)
    (D : Fin 160 → sProp 𝕄) (O : CellTallies nD τ sig (HIx 1)) (W : Waits sig (HIx 1)) (k : Fin k0_t7_loop.trips) (acc : Unit) :
    drainAt0 d L O W D k.val acc
      ⊢ wp frame (wpE (defs₀ (F := F)) 𝒱₀ (thr d L) none) Set.univ
          (k0_t7_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            g h k acc)
          (drainAt0 d L O W D (k.val + 1)) := by
  have hk : k.val < 10 := k.isLt
  unfold drainAt0
  simp only [if_pos hk]
  rcases Nat.lt_or_ge (k.val + 1) 10 with h1 | h1
  · simp only [if_pos h1]
    iintro ⟨-, Hmw, ⟨%W', %hW', HO⟩, HB⟩
    sl_unfold [k0_t7_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t7_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

/-! ## Row buffer 1 -/

/-- Before trip k of buffer 1's drain loop: k at most 10; the evidence that the thread may wait; what it owes, with the
    waits so far recorded; and either (k < 10) the batch with 16 k rows' credit taken, or (after the last trip) the
    semaphore at zero and every delivery. -/
def drainAt1 (O : CellTallies nD τ sig (HIx 1)) (W : Waits sig (HIx 1)) (D : Fin 160 → sProp 𝕄) (k : ℕ) (_ : Unit) : sProp 𝕄 :=
  iprop(⌜k ≤ 10⌝ ∗ Transfers.MayWaits (thr d L) (none : HIx 1) O
    ∗ (∃ W', ⌜∀ p ∈ W', p ∈ W ∨ p.2 = none⌝ ∗ owes (thr d L) O W')
    ∗ (if k < 10 then Transfers.Batch countersEmb (thr d L) (.dma cc0_scratch3.sem) (none : HIx 1) NR D 160 (16 * k * NR)
       else iprop(semVal ((thr d L), SemLoc.dma cc0_scratch3.sem) 0 ∗ bigSep Finset.univ D)))

set_option maxHeartbeats 8000000 in
/-- One trip, by cases: before the last trip sixteen waits short of the last; on the last trip fifteen such, then the
    wait that takes the last credit and hands every delivery over. -/
theorem drain1_step [∀ e, Nonempty (Elt F e)] (g : Fin k0_t1_loop.trips) (h : k0_cond12 g = 1#1)
    (D : Fin 160 → sProp 𝕄) (O : CellTallies nD τ sig (HIx 1)) (W : Waits sig (HIx 1)) (k : Fin k0_t9_loop.trips) (acc : Unit) :
    drainAt1 d L O W D k.val acc
      ⊢ wp frame (wpE (defs₀ (F := F)) 𝒱₀ (thr d L) none) Set.univ
          (k0_t9_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0
            g h k acc)
          (drainAt1 d L O W D (k.val + 1)) := by
  have hk : k.val < 10 := k.isLt
  unfold drainAt1
  simp only [if_pos hk]
  rcases Nat.lt_or_ge (k.val + 1) 10 with h1 | h1
  · simp only [if_pos h1]
    iintro ⟨-, Hmw, ⟨%W', %hW', HO⟩, HB⟩
    sl_unfold [k0_t9_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    rw [show 16 * (k.val + 1) * NR = 16 * k.val * NR + NR + NR + NR + NR + NR + NR + NR + NR + NR + NR + NR + NR + NR + NR + NR + NR by simp only [NR]; omega]
    iexact HB
  · simp only [if_neg (Nat.not_lt.mpr h1)]
    iintro ⟨-, Hmw, ⟨%W', %hW', HO⟩, HB⟩
    sl_unfold [k0_t9_body]
    sl_exec
    sl_step
    isplitr; · ipureintro; omega
    isplitl [Hmw]; · iexact Hmw
    isplitl [HO]
    · iexists _; isplitr
      rotate_left
      · iexact HO
      · ipureintro
        exact waits_insert _ (by rfl) (waits_insert _ (by rfl) (waits_insert _ (by rfl) (waits_insert _ (by rfl) (waits_insert _ (by rfl) (waits_insert _ (by rfl) (waits_insert _ (by rfl) (waits_insert _ (by rfl)
          (waits_insert _ (by rfl) (waits_insert _ (by rfl) (waits_insert _ (by rfl) (waits_insert _ (by rfl) (waits_insert _ (by rfl) (waits_insert _ (by rfl) (waits_insert _ (by rfl) (waits_insert _ (by rfl) hW')))))))))))))))
    isplitl [HB]; · iexact HB
    iexact HB_all

end Cert.Proof.KernelIdeal

end
-- ==== Proof.KernelIdeal.Inv.lean ====
/-
  The state of the task between two groups of four chunks. Before group 0 everything is free. Before group
  `g`, 1 ≤ g ≤ 16: the write-backs of chunks `4 (g - 1)` and `4 (g - 1) + 1` (buffers 0 and 1) are in flight, the
  batches of chunks `4 (g - 1) + 2` and `4 (g - 1) + 3` (buffers 2 and 3) are fully issued, the chunks below
  `4 (g - 1)` are written and those from `4 (g - 1) + 2` on untouched. After group 16 the last four write-backs are in
  flight and the chunks below 60 written.
-/
import proofs.«206312_g12936441495622_cont_fleet_311_30_alg».proof.Proof.KernelIdeal.Pipe
import proofs.«206312_g12936441495622_cont_fleet_311_30_alg».proof.Proof.KernelIdeal.Rows
import proofs.«206312_g12936441495622_cont_fleet_311_30_alg».proof.Proof.KernelIdeal.OutGeom
import proofs.«206312_g12936441495622_cont_fleet_311_30_alg».proof.Proof.KernelIdeal.Drain
import proofs.«206312_g12936441495622_cont_fleet_311_30_alg».proof.Proof.KernelIdeal.Facts

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-- The worker's token list, the table, the worker's share of the table for buffer `b`, one write-back's credit. -/
abbrev fIv : Buf (Elt F) ((sI).view.loc (thr d L)) := fIw I d (widL L)
abbrev Tbv : Buf (Elt F) (tabLoc d) := m (tabLoc d)
abbrev qB (b : ℕ) : PosShare TreeShare := Transfers.shareTokN (tq (widL L)) b
abbrev NWB : ℕ := 655360
abbrev gOf (gp : ℕ) (h : gp ≤ 15) : Fin k0_t1_loop.trips := ⟨gp, by show gp < 17; omega⟩

/-- Transfer `j = 16 k + r` of buffer 0's batch delivers what the batch states for it. -/
theorem hDel0 (g : Fin k0_t1_loop.trips) (h1 : k0_cond1 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out0 d L g h1 fI hI Tb f q k r ⊢ D0 d L g h1 fI hI Tb f q ⟨j, hj⟩ := by
  intro k r j hj e
  show out0 d L g h1 fI hI Tb f q k r ⊢ out0 d L g h1 fI hI Tb f q (kOf ⟨j, hj⟩) (rOf ⟨j, hj⟩)
  rw [kOf_mk k r j hj e, rOf_mk k r j hj e]

/-- Chunk `c` (in buffer 0) on its way out: the buffer holds the table rows the chunk's tokens name, and its copy
    into rows `512 w + 8 c …` of the output is in flight. -/
def wbFl0 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 0 (160 * c) (fIv d L I) (Tbv d m) f'⌝
    ∗ Transfers.Flight countersEmb (thr d L) (.dma cc0_scratch6.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW0).view.read (Elt F) f')⟩]))
          ∗ ((bufW0).view.loc (thr d L) ↦[(bufW0).view.set]{fullShare} f')))

/-- Buffer 0 free: held at some contents, with its share of the table. -/
def free0 : sProp 𝕄 :=
  iprop((∃ f, (bufW0).view.loc (thr d L) ↦[(bufW0).view.set]{fullShare} f) ∗ ((tV).view.loc (thr d L) ↦{qB L 0} Tbv d m))

/-- Group `gp`'s chunk of buffer 0 gathering: its batch of 160 fully issued, what the batch does not hold set aside. -/
def gath0 (gp : ℕ) : sProp 𝕄 :=
  if h : gp ≤ 15 then
    iprop(∃ fd0, Transfers.Batch countersEmb (thr d L) (.dma cc0_scratch2.sem) (none : HIx 1) NR
        (D0 d L (gOf gp h) (cond1_pos _ h) (fIv d L I) (fIw_lt I d hpre _) (Tbv d m) fd0 (qB L 0)) 160 0
      ∗ left0 d L (gOf gp h) (cond1_pos _ h) (fIv d L I) (fIw_lt I d hpre _) (Tbv d m) fd0 (qB L 0))
  else iprop(emp)

/-- Transfer `j = 16 k + r` of buffer 1's batch delivers what the batch states for it. -/
theorem hDel1 (g : Fin k0_t1_loop.trips) (h1 : k0_cond4 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out1 d L g h1 fI hI Tb f q k r ⊢ D1 d L g h1 fI hI Tb f q ⟨j, hj⟩ := by
  intro k r j hj e
  show out1 d L g h1 fI hI Tb f q k r ⊢ out1 d L g h1 fI hI Tb f q (kOf ⟨j, hj⟩) (rOf ⟨j, hj⟩)
  rw [kOf_mk k r j hj e, rOf_mk k r j hj e]

/-- Chunk `c` (in buffer 1) on its way out: the buffer holds the table rows the chunk's tokens name, and its copy
    into rows `512 w + 8 c …` of the output is in flight. -/
def wbFl1 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 1 (160 * c) (fIv d L I) (Tbv d m) f'⌝
    ∗ Transfers.Flight countersEmb (thr d L) (.dma cc0_scratch7.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW1).view.read (Elt F) f')⟩]))
          ∗ ((bufW1).view.loc (thr d L) ↦[(bufW1).view.set]{fullShare} f')))

/-- Buffer 1 free: held at some contents, with its share of the table. -/
def free1 : sProp 𝕄 :=
  iprop((∃ f, (bufW1).view.loc (thr d L) ↦[(bufW1).view.set]{fullShare} f) ∗ ((tV).view.loc (thr d L) ↦{qB L 1} Tbv d m))

/-- Group `gp`'s chunk of buffer 1 gathering: its batch of 160 fully issued, what the batch does not hold set aside. -/
def gath1 (gp : ℕ) : sProp 𝕄 :=
  if h : gp ≤ 15 then
    iprop(∃ fd0, Transfers.Batch countersEmb (thr d L) (.dma cc0_scratch3.sem) (none : HIx 1) NR
        (D1 d L (gOf gp h) (cond4_pos _ h) (fIv d L I) (fIw_lt I d hpre _) (Tbv d m) fd0 (qB L 1)) 160 0
      ∗ left1 d L (gOf gp h) (cond4_pos _ h) (fIv d L I) (fIw_lt I d hpre _) (Tbv d m) fd0 (qB L 1))
  else iprop(emp)

/-- Transfer `j = 16 k + r` of buffer 2's batch delivers what the batch states for it. -/
theorem hDel2 (g : Fin k0_t1_loop.trips) (h1 : k0_cond7 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out2 d L g h1 fI hI Tb f q k r ⊢ D2 d L g h1 fI hI Tb f q ⟨j, hj⟩ := by
  intro k r j hj e
  show out2 d L g h1 fI hI Tb f q k r ⊢ out2 d L g h1 fI hI Tb f q (kOf ⟨j, hj⟩) (rOf ⟨j, hj⟩)
  rw [kOf_mk k r j hj e, rOf_mk k r j hj e]

/-- Chunk `c` (in buffer 2) on its way out: the buffer holds the table rows the chunk's tokens name, and its copy
    into rows `512 w + 8 c …` of the output is in flight. -/
def wbFl2 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 2 (160 * c) (fIv d L I) (Tbv d m) f'⌝
    ∗ Transfers.Flight countersEmb (thr d L) (.dma cc0_scratch8.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW2).view.read (Elt F) f')⟩]))
          ∗ ((bufW2).view.loc (thr d L) ↦[(bufW2).view.set]{fullShare} f')))

/-- Buffer 2 free: held at some contents, with its share of the table. -/
def free2 : sProp 𝕄 :=
  iprop((∃ f, (bufW2).view.loc (thr d L) ↦[(bufW2).view.set]{fullShare} f) ∗ ((tV).view.loc (thr d L) ↦{qB L 2} Tbv d m))

/-- Group `gp`'s chunk of buffer 2 gathering: its batch of 160 fully issued, what the batch does not hold set aside. -/
def gath2 (gp : ℕ) : sProp 𝕄 :=
  if h : gp ≤ 15 then
    iprop(∃ fd0, Transfers.Batch countersEmb (thr d L) (.dma cc0_scratch4.sem) (none : HIx 1) NR
        (D2 d L (gOf gp h) (cond7_pos _ h) (fIv d L I) (fIw_lt I d hpre _) (Tbv d m) fd0 (qB L 2)) 160 0
      ∗ left2 d L (gOf gp h) (cond7_pos _ h) (fIv d L I) (fIw_lt I d hpre _) (Tbv d m) fd0 (qB L 2))
  else iprop(emp)

/-- Transfer `j = 16 k + r` of buffer 3's batch delivers what the batch states for it. -/
theorem hDel3 (g : Fin k0_t1_loop.trips) (h1 : k0_cond10 g = 1#1) (fI : Buf (Elt F) ((sI).view.loc (thr d L))) (hI : ∀ j, (fI j).toNat < 1000000)
    (Tb : Buf (Elt F) (tabLoc d)) (f : Buf (Elt F) ((sR).view.loc (thr d L))) (q : PosShare TreeShare) :
    ∀ (k : Fin 10) (r : Fin 16) (j : ℕ) (hj : j < 160), j = 16 * k.val + r.val → out3 d L g h1 fI hI Tb f q k r ⊢ D3 d L g h1 fI hI Tb f q ⟨j, hj⟩ := by
  intro k r j hj e
  show out3 d L g h1 fI hI Tb f q k r ⊢ out3 d L g h1 fI hI Tb f q (kOf ⟨j, hj⟩) (rOf ⟨j, hj⟩)
  rw [kOf_mk k r j hj e, rOf_mk k r j hj e]

/-- Chunk `c` (in buffer 3) on its way out: the buffer holds the table rows the chunk's tokens name, and its copy
    into rows `512 w + 8 c …` of the output is in flight. -/
def wbFl3 (c : ℕ) : sProp 𝕄 :=
  iprop(∃ (f' : Buf (Elt F) ((sR).view.loc (thr d L))) (off : Fin 3 → ℕ) (h : ∀ a, off a + S8x20x128.size a ≤ S16384x20x128.size a),
    ⌜off = ![512 * (widL L).val + 8 * c, 0, 0]⌝ ∗ ⌜rowsGood d L 3 (160 * c) (fIv d L I) (Tbv d m) f'⌝
    ∗ Transfers.Flight countersEmb (thr d L) (.dma cc0_scratch9.sem) (none : HIx 1) NWB
        iprop(((oChunk off h).view.loc (thr d L) ↦[(oChunk off h).view.set]{fullShare}
              ((oChunk off h).view.writes (Elt F) (m (outLoc d)) [⟨Rect.whole S8x20x128, ReadAs.same.apply ((bufW3).view.read (Elt F) f')⟩]))
          ∗ ((bufW3).view.loc (thr d L) ↦[(bufW3).view.set]{fullShare} f')))

/-- Buffer 3 free: held at some contents, with its share of the table. -/
def free3 : sProp 𝕄 :=
  iprop((∃ f, (bufW3).view.loc (thr d L) ↦[(bufW3).view.set]{fullShare} f) ∗ ((tV).view.loc (thr d L) ↦{qB L 3} Tbv d m))

/-- Group `gp`'s chunk of buffer 3 gathering: its batch of 160 fully issued, what the batch does not hold set aside. -/
def gath3 (gp : ℕ) : sProp 𝕄 :=
  if h : gp ≤ 15 then
    iprop(∃ fd0, Transfers.Batch countersEmb (thr d L) (.dma cc0_scratch5.sem) (none : HIx 1) NR
        (D3 d L (gOf gp h) (cond10_pos _ h) (fIv d L I) (fIw_lt I d hpre _) (Tbv d m) fd0 (qB L 3)) 160 0
      ∗ left3 d L (gOf gp h) (cond10_pos _ h) (fIv d L I) (fIw_lt I d hpre _) (Tbv d m) fd0 (qB L 3))
  else iprop(emp)

/-- Chunk `c` of the worker's block of the output, untouched; and written. -/
def chunkInit (c : Fin 64) : sProp 𝕄 := outLoc d ↦[chunkSet (512 * (widL L).val + 8 * c.val)]{fullShare} m (outLoc d)
def chunkDone (c : Fin 64) : sProp 𝕄 :=
  iprop(∃ fo, ⌜chunkGood d (widL L) c.val (fIv d L I) (Tbv d m) fo⌝ ∗ (outLoc d ↦[chunkSet (512 * (widL L).val + 8 * c.val)]{fullShare} fo))

/-- What every state holds: the evidence for the task's waits, what it owes, the token list, the worker's row of
    tokens, the part of its table share no buffer uses, the fetch's semaphore. -/
def baseI (O : CellTallies nD τ sig (HIx 1)) (W : Waits sig (HIx 1)) : sProp 𝕄 :=
  iprop(Transfers.MayWaits (thr d L) (none : HIx 1) O ∗ (∃ W', ⌜∀ p ∈ W', p ∈ W ∨ p.2 = none⌝ ∗ owes (thr d L) O W')
    ∗ ((sI).view.loc (thr d L) ↦{fullShare} fIv d L I)
    ∗ ((iRowM L).view.loc (thr d L) ↦[(iRowM L).view.set]{fullShare} I d)
    ∗ ((tV).view.loc (thr d L) ↦{Transfers.shareDrop (tq (widL L)) 4} Tbv d m)
    ∗ semVal (cell d L cc0_scoped0.sem) 0)

def Inv0 : sProp 𝕄 :=
  iprop(free0 d L m ∗ free1 d L m ∗ free2 d L m ∗ free3 d L m
    ∗ semVal (cell d L cc0_scratch2.sem) 0 ∗ semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0 ∗ semVal (cell d L cc0_scratch9.sem) 0
    ∗ bigSep (Ring.rangeSet 64 0 64) (chunkInit d L m))

def InvMid (gp : ℕ) : sProp 𝕄 :=
  iprop(wbFl0 d L m I (4 * gp) ∗ semVal (cell d L cc0_scratch2.sem) 0 ∗ ((tV).view.loc (thr d L) ↦{qB L 0} Tbv d m)
    ∗ wbFl1 d L m I (4 * gp + 1) ∗ semVal (cell d L cc0_scratch3.sem) 0 ∗ ((tV).view.loc (thr d L) ↦{qB L 1} Tbv d m)
    ∗ gath2 d L m I hpre gp ∗ semVal (cell d L cc0_scratch8.sem) 0
    ∗ gath3 d L m I hpre gp ∗ semVal (cell d L cc0_scratch9.sem) 0
    ∗ bigSep (Ring.rangeSet 64 (4 * gp + 2) 64) (chunkInit d L m) ∗ bigSep (Ring.rangeSet 64 0 (4 * gp)) (chunkDone d L m I))

def InvEnd : sProp 𝕄 :=
  iprop(wbFl0 d L m I 60 ∗ semVal (cell d L cc0_scratch2.sem) 0 ∗ ((tV).view.loc (thr d L) ↦{qB L 0} Tbv d m)
    ∗ wbFl1 d L m I 61 ∗ semVal (cell d L cc0_scratch3.sem) 0 ∗ ((tV).view.loc (thr d L) ↦{qB L 1} Tbv d m)
    ∗ wbFl2 d L m I 62 ∗ semVal (cell d L cc0_scratch4.sem) 0 ∗ ((tV).view.loc (thr d L) ↦{qB L 2} Tbv d m)
    ∗ wbFl3 d L m I 63 ∗ semVal (cell d L cc0_scratch5.sem) 0 ∗ ((tV).view.loc (thr d L) ↦{qB L 3} Tbv d m)
    ∗ bigSep (Ring.rangeSet 64 0 60) (chunkDone d L m I))

/-- The state before group `k`. -/
def InvG (O : CellTallies nD τ sig (HIx 1)) (W : Waits sig (HIx 1)) (k : ℕ) (_ : PUnit) : sProp 𝕄 :=
  iprop(baseI d L m I O W ∗ (if k = 0 then Inv0 d L m else if k ≤ 16 then InvMid d L m I hpre (k - 1) else InvEnd d L m I))

end Cert.Proof.KernelIdeal

end
-- ==== Proof.KernelIdeal.RegLib.lean ====
/-
  Ends of the loops' invariants, and the group state's three shapes as equations.
-/
import proofs.«206312_g12936441495622_cont_fleet_311_30_alg».proof.Proof.KernelIdeal.Inv

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-- After the issue loop's ten trips: all 160 issued, the token list back. -/
theorem issueAt0_end (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt0 d L g h1 fI hI Tb fd0 q D n a
      ⊢ iprop(Transfers.Batch countersEmb (thr d L) (.dma cc0_scratch2.sem) (none : HIx 1) NR D 160 0 ∗ ((sI).view.loc (thr d L) ↦{fullShare} fI)) := by
  subst hn
  unfold issueAt0
  iintro ⟨HB, HI, -⟩
  isplitl [HB]; · iexact HB
  iexact HI

/-- The issue loop's invariant before its first trip. -/
theorem issueAt0_start (g : Fin k0_t1_loop.trips) (h1 : k0_cond1 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch2.sem) (none : HIx 1) NR D 0 0 ∗ ((sI).view.loc (thr d L) ↦{fullShare} fI)
        ∗ bigSep (Ring.rangeSet 160 (16 * 0) 160) (fun t => inp0 d L g h1 fI hI Tb fd0 q (kOf t) (rOf t)))
      ⊢ issueAt0 d L g h1 fI hI Tb fd0 q D 0 a := by
  unfold issueAt0
  exact Entails.rfl

/-- The drain loop's invariant before its first trip, and after its ten trips: the semaphore back at zero and every
    delivery in hand. -/
theorem drainAt0_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch2.sem) (none : HIx 1) NR D 160 0)
      ⊢ drainAt0 d L O W D 0 a := by
  unfold drainAt0
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt0_end (O : CellTallies nD τ sig (HIx 1)) (W : Waits sig (HIx 1)) (D : Fin 160 → sProp 𝕄) (n : ℕ) (hn : n = 10) (a : Unit) :
    drainAt0 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch2.sem) 0 ∗ bigSep Finset.univ D) := by
  subst hn
  unfold drainAt0
  rw [if_neg (by decide : ¬ 10 < 10)]
  iintro ⟨-, Hmw, HO, Hs, HD⟩
  isplitl [Hmw]; · iexact Hmw
  isplitl [HO]; · iexact HO
  isplitl [Hs]; · iexact Hs
  iexact HD

/-- After the issue loop's ten trips: all 160 issued, the token list back. -/
theorem issueAt1_end (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt1 d L g h1 fI hI Tb fd0 q D n a
      ⊢ iprop(Transfers.Batch countersEmb (thr d L) (.dma cc0_scratch3.sem) (none : HIx 1) NR D 160 0 ∗ ((sI).view.loc (thr d L) ↦{fullShare} fI)) := by
  subst hn
  unfold issueAt1
  iintro ⟨HB, HI, -⟩
  isplitl [HB]; · iexact HB
  iexact HI

/-- The issue loop's invariant before its first trip. -/
theorem issueAt1_start (g : Fin k0_t1_loop.trips) (h1 : k0_cond4 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch3.sem) (none : HIx 1) NR D 0 0 ∗ ((sI).view.loc (thr d L) ↦{fullShare} fI)
        ∗ bigSep (Ring.rangeSet 160 (16 * 0) 160) (fun t => inp1 d L g h1 fI hI Tb fd0 q (kOf t) (rOf t)))
      ⊢ issueAt1 d L g h1 fI hI Tb fd0 q D 0 a := by
  unfold issueAt1
  exact Entails.rfl

/-- The drain loop's invariant before its first trip, and after its ten trips: the semaphore back at zero and every
    delivery in hand. -/
theorem drainAt1_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch3.sem) (none : HIx 1) NR D 160 0)
      ⊢ drainAt1 d L O W D 0 a := by
  unfold drainAt1
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt1_end (O : CellTallies nD τ sig (HIx 1)) (W : Waits sig (HIx 1)) (D : Fin 160 → sProp 𝕄) (n : ℕ) (hn : n = 10) (a : Unit) :
    drainAt1 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch3.sem) 0 ∗ bigSep Finset.univ D) := by
  subst hn
  unfold drainAt1
  rw [if_neg (by decide : ¬ 10 < 10)]
  iintro ⟨-, Hmw, HO, Hs, HD⟩
  isplitl [Hmw]; · iexact Hmw
  isplitl [HO]; · iexact HO
  isplitl [Hs]; · iexact Hs
  iexact HD

/-- After the issue loop's ten trips: all 160 issued, the token list back. -/
theorem issueAt2_end (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt2 d L g h1 fI hI Tb fd0 q D n a
      ⊢ iprop(Transfers.Batch countersEmb (thr d L) (.dma cc0_scratch4.sem) (none : HIx 1) NR D 160 0 ∗ ((sI).view.loc (thr d L) ↦{fullShare} fI)) := by
  subst hn
  unfold issueAt2
  iintro ⟨HB, HI, -⟩
  isplitl [HB]; · iexact HB
  iexact HI

/-- The issue loop's invariant before its first trip. -/
theorem issueAt2_start (g : Fin k0_t1_loop.trips) (h1 : k0_cond7 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch4.sem) (none : HIx 1) NR D 0 0 ∗ ((sI).view.loc (thr d L) ↦{fullShare} fI)
        ∗ bigSep (Ring.rangeSet 160 (16 * 0) 160) (fun t => inp2 d L g h1 fI hI Tb fd0 q (kOf t) (rOf t)))
      ⊢ issueAt2 d L g h1 fI hI Tb fd0 q D 0 a := by
  unfold issueAt2
  exact Entails.rfl

/-- The drain loop's invariant before its first trip, and after its ten trips: the semaphore back at zero and every
    delivery in hand. -/
theorem drainAt2_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch4.sem) (none : HIx 1) NR D 160 0)
      ⊢ drainAt2 d L O W D 0 a := by
  unfold drainAt2
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt2_end (O : CellTallies nD τ sig (HIx 1)) (W : Waits sig (HIx 1)) (D : Fin 160 → sProp 𝕄) (n : ℕ) (hn : n = 10) (a : Unit) :
    drainAt2 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch4.sem) 0 ∗ bigSep Finset.univ D) := by
  subst hn
  unfold drainAt2
  rw [if_neg (by decide : ¬ 10 < 10)]
  iintro ⟨-, Hmw, HO, Hs, HD⟩
  isplitl [Hmw]; · iexact Hmw
  isplitl [HO]; · iexact HO
  isplitl [Hs]; · iexact Hs
  iexact HD

/-- After the issue loop's ten trips: all 160 issued, the token list back. -/
theorem issueAt3_end (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (n : ℕ) (hn : n = 10) (a : Unit) :
    issueAt3 d L g h1 fI hI Tb fd0 q D n a
      ⊢ iprop(Transfers.Batch countersEmb (thr d L) (.dma cc0_scratch5.sem) (none : HIx 1) NR D 160 0 ∗ ((sI).view.loc (thr d L) ↦{fullShare} fI)) := by
  subst hn
  unfold issueAt3
  iintro ⟨HB, HI, -⟩
  isplitl [HB]; · iexact HB
  iexact HI

/-- The issue loop's invariant before its first trip. -/
theorem issueAt3_start (g : Fin k0_t1_loop.trips) (h1 : k0_cond10 g = 1#1) (fI : Buf (Elt F) ((sI).view.loc (thr d L))) (hI : ∀ j, (fI j).toNat < 1000000)
    (Tb : Buf (Elt F) (tabLoc d)) (fd0 : Buf (Elt F) ((sR).view.loc (thr d L))) (q : PosShare TreeShare) (D : Fin 160 → sProp 𝕄) (a : Unit) :
    iprop(Transfers.Batch countersEmb (thr d L) (.dma cc0_scratch5.sem) (none : HIx 1) NR D 0 0 ∗ ((sI).view.loc (thr d L) ↦{fullShare} fI)
        ∗ bigSep (Ring.rangeSet 160 (16 * 0) 160) (fun t => inp3 d L g h1 fI hI Tb fd0 q (kOf t) (rOf t)))
      ⊢ issueAt3 d L g h1 fI hI Tb fd0 q D 0 a := by
  unfold issueAt3
  exact Entails.rfl

/-- The drain loop's invariant before its first trip, and after its ten trips: the semaphore back at zero and every
    delivery in hand. -/
theorem drainAt3_start (O : CellTallies nD τ sig (HIx 1)) (W W' : Waits sig (HIx 1)) (hW' : ∀ p ∈ W', p ∈ W ∨ p.2 = none) (D : Fin 160 → sProp 𝕄) (a : Unit) :
    iprop(Transfers.MayWaits (thr d L) (none : HIx 1) O ∗ owes (thr d L) O W'
        ∗ Transfers.Batch countersEmb (thr d L) (.dma cc0_scratch5.sem) (none : HIx 1) NR D 160 0)
      ⊢ drainAt3 d L O W D 0 a := by
  unfold drainAt3
  rw [if_pos (by decide : 0 < 10)]
  iintro ⟨Hmw, HO, HB⟩
  isplitr; · ipureintro; decide
  isplitl [Hmw]; · iexact Hmw
  isplitl [HO]
  · iexists W'; isplitr
    · ipureintro; exact hW'
    · iexact HO
  iexact HB
theorem drainAt3_end (O : CellTallies nD τ sig (HIx 1)) (W : Waits sig (HIx 1)) (D : Fin 160 → sProp 𝕄) (n : ℕ) (hn : n = 10) (a : Unit) :
    drainAt3 d L O W D n a
      ⊢ iprop(Transfers.MayWaits (thr d L) (none : HIx 1) O ∗ (∃ W', ⌜∀ p ∈ W', p ∈ W ∨ p.2 = none⌝ ∗ owes (thr d L) O W')
          ∗ semVal ((thr d L), SemLoc.dma cc0_scratch5.sem) 0 ∗ bigSep Finset.univ D) := by
  subst hn
  unfold drainAt3
  rw [if_neg (by decide : ¬ 10 < 10)]
  iintro ⟨-, Hmw, HO, Hs, HD⟩
  isplitl [Hmw]; · iexact Hmw
  isplitl [HO]; · iexact HO
  isplitl [Hs]; · iexact Hs
  iexact HD

/-- A run of chunks renamed by equal bounds. -/
theorem range_cast (Φ : Fin 64 → sProp 𝕄) {a a' b b' : ℕ} (e : a = a') (e' : b = b') :
    bigSep (Ring.rangeSet 64 a b) Φ ⊢ bigSep (Ring.rangeSet 64 a' b') Φ := by
  subst e; subst e'; exact Entails.rfl

theorem InvG_succ (O : CellTallies nD τ sig (HIx 1)) (W : Waits sig (HIx 1)) (k : ℕ) (a : PUnit) (h15 : k ≤ 15) :
    InvG d L m I hpre O W (k + 1) a = iprop(baseI d L m I O W ∗ InvMid d L m I hpre k) := by
  unfold InvG; rw [if_neg (by omega), if_pos (by omega), Nat.add_sub_cancel]

/-- The group state's three shapes. -/
theorem InvG_zero (O : CellTallies nD τ sig (HIx 1)) (W : Waits sig (HIx 1)) (a : PUnit) :
    InvG d L m I hpre O W 0 a = iprop(baseI d L m I O W ∗ Inv0 d L m) := by
  unfold InvG; rw [if_pos rfl]
theorem InvG_mid (O : CellTallies nD τ sig (HIx 1)) (W : Waits sig (HIx 1)) (k : ℕ) (a : PUnit) (h1 : 1 ≤ k) (h16 : k ≤ 16) :
    InvG d L m I hpre O W k a = iprop(baseI d L m I O W ∗ InvMid d L m I hpre (k - 1)) := by
  unfold InvG; rw [if_neg (by omega), if_pos h16]
theorem InvG_end (O : CellTallies nD τ sig (HIx 1)) (W : Waits sig (HIx 1)) (k : ℕ) (a : PUnit) (h : 17 ≤ k) :
    InvG d L m I hpre O W k a = iprop(baseI d L m I O W ∗ InvEnd d L m I) := by
  unfold InvG; rw [if_neg (by omega), if_neg (by omega)]

end Cert.Proof.KernelIdeal

end
-- ==== Proof.KernelIdeal.RowsAll.lean ====
/-
  The scratch of row buffers, whole, is its four buffers: the elements (b, t, y) by their first coordinate.
-/
import proofs.«206312_g12936441495622_cont_fleet_311_30_alg».proof.Proof.KernelIdeal.RowsGeo
import Idealize.ShloMosaic.Lib.Ring

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

theorem bufSet_disjoint' : ∀ b b' : Fin 4, b ≠ b' → Disjoint (bufSet b) (bufSet b') := fun b b' hne => by
  rw [Finset.disjoint_left]; intro y hy hy'; rw [mem_bufSet] at hy hy'; exact hne (Fin.ext (by omega))
theorem bufSet_disjoint : ∀ b ∈ (Finset.univ : Finset (Fin 4)), ∀ b' ∈ (Finset.univ : Finset (Fin 4)), b ≠ b' → Disjoint (bufSet b) (bufSet b') :=
  fun b _ b' _ hne => bufSet_disjoint' b b' hne
theorem bufSet_cover : (Finset.univ : Finset (Fin 4)).biUnion bufSet = Finset.univ := by
  ext y
  simp only [Finset.mem_biUnion, Finset.mem_univ, true_and, iff_true]
  exact ⟨⟨(y 0).val, (y 0).isLt⟩, (mem_bufSet _ _).mpr rfl⟩

theorem bigSep_fin4 (Φ : Fin 4 → sProp 𝕄) : bigSep Finset.univ Φ = (iprop(Φ 0 ∗ Φ 1 ∗ Φ 2 ∗ Φ 3) : sProp 𝕄) := by
  rw [show (Finset.univ : Finset (Fin 4)) = {0, 1, 2, 3} by decide, SparseCore.bigSep_insert' (by decide), SparseCore.bigSep_insert' (by decide),
    SparseCore.bigSep_insert' (by decide), bigSep_singleton]

/-- The scratch held whole is its four buffers held. -/
theorem bufs_split (f : Buf (Elt F) ((sR).view.loc (thr d L))) :
    ((sR).view.loc (thr d L) ↦{fullShare} f : sProp 𝕄)
      ⊢ iprop(((bufW0).view.loc (thr d L) ↦[(bufW0).view.set]{fullShare} f) ∗ ((bufW1).view.loc (thr d L) ↦[(bufW1).view.set]{fullShare} f)
          ∗ ((bufW2).view.loc (thr d L) ↦[(bufW2).view.set]{fullShare} f) ∗ ((bufW3).view.loc (thr d L) ↦[(bufW3).view.set]{fullShare} f)) := by
  rw [bufW0_set, bufW1_set, bufW2_set, bufW3_set]
  have e : ((sR).view.loc (thr d L) ↦{fullShare} f : sProp 𝕄) = bigSep Finset.univ fun b : Fin 4 => (sR).view.loc (thr d L) ↦[bufSet b]{fullShare} f := by
    rw [← pointsTo_biUnion Finset.univ (ℓ := (sR).view.loc (thr d L)) bufSet bufSet_disjoint, bufSet_cover]
  rw [e, bigSep_fin4]
  exact BI.Entails.refl _

/-- Four buffers held, each at some contents, are the scratch held whole at some contents. -/
theorem bufs_join [∀ e, Nonempty (Elt F e)] :
    iprop((∃ f, (bufW0).view.loc (thr d L) ↦[(bufW0).view.set]{fullShare} f) ∗ (∃ f, (bufW1).view.loc (thr d L) ↦[(bufW1).view.set]{fullShare} f)
        ∗ (∃ f, (bufW2).view.loc (thr d L) ↦[(bufW2).view.set]{fullShare} f) ∗ (∃ f, (bufW3).view.loc (thr d L) ↦[(bufW3).view.set]{fullShare} f))
      ⊢ (iprop(∃ f, (sR).view.loc (thr d L) ↦{fullShare} f) : sProp 𝕄) := by
  rw [bufW0_set, bufW1_set, bufW2_set, bufW3_set]
  refine BI.Entails.trans ?_ (Ring.pointsTo_blocks_join_exists (ℓ := (sR).view.loc (thr d L)) (q := fullShare) bufSet bufSet_disjoint' bufSet_cover (sR).view.junk)
  rw [bigSep_fin4]
  exact BI.Entails.refl _

end Cert.Proof.KernelIdeal

end
-- ==== Proof.KernelIdeal.CoreOf.lean ====
/-
  The top of a worker's task: the fetch of its row of tokens into the list, the loop over the seventeen groups of four
  chunks (its region a hypothesis here), the four last write-backs awaited, and the pieces put together: the worker's
  block of the output holds, in its first 64 columns, the table rows its tokens name.
-/
import proofs.«206312_g12936441495622_cont_fleet_311_30_alg».proof.Proof.KernelIdeal.RegLib
import proofs.«206312_g12936441495622_cont_fleet_311_30_alg».proof.Proof.KernelIdeal.RowsAll

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-! ## The worker's share of the table, its block of the output, its last four chunks -/

/-- The worker's share of the table is a remainder and one share per row buffer. -/
theorem co_tq_split :
    (((tV).view.loc (thr d L) ↦{tq (widL L)} Tbv d m) : sProp 𝕄)
      ⊣⊢ iprop(((tV).view.loc (thr d L) ↦{Transfers.shareDrop (tq (widL L)) 4} Tbv d m) ∗ ((tV).view.loc (thr d L) ↦{qB L 0} Tbv d m) ∗ ((tV).view.loc (thr d L) ↦{qB L 1} Tbv d m)
          ∗ ((tV).view.loc (thr d L) ↦{qB L 2} Tbv d m) ∗ ((tV).view.loc (thr d L) ↦{qB L 3} Tbv d m)) := by
  have h0 : (((tV).view.loc (thr d L) ↦{tq (widL L)} Tbv d m) : sProp 𝕄)
      ⊣⊢ iprop(((tV).view.loc (thr d L) ↦{Transfers.shareDrop (tq (widL L)) 4} Tbv d m)
        ∗ bigSep Finset.univ (fun i : Fin 4 => (tV).view.loc (thr d L) ↦{Transfers.shareTok (tq (widL L)) 4 i} Tbv d m)) := Transfers.pointsTo_toks (tq (widL L)) 4
  rw [bigSep_fin4] at h0
  exact h0

/-- The worker's block of the output, as launched, is its 64 chunks untouched. -/
theorem co_out_split :
    (outLoc d ↦[oBlkSet (widL L)]{fullShare} m (outLoc d) : sProp 𝕄) = bigSep (Ring.rangeSet 64 0 64) (chunkInit d L m) := by
  rw [Ring.rangeSet_univ]
  exact oBlk_chunks d (widL L) (m (outLoc d))

/-- All 64 chunks written are the worker's block done. -/
theorem co_done_join :
    bigSep (Ring.rangeSet 64 0 64) (chunkDone d L m I)
      ⊢ (iprop(∃ f, ⌜GoodOut m I d (widL L) f⌝ ∗ (outLoc d ↦[oBlkSet (widL L)]{fullShare} f)) : sProp 𝕄) := by
  rw [Ring.rangeSet_univ]
  exact chunks_join d m I (widL L)

/-- The chunks below 64 are the last four and those below 60. -/
theorem co_done4 (Φ : Fin 64 → sProp 𝕄) :
    bigSep (Ring.rangeSet 64 0 64) Φ
      = (iprop(Φ ⟨63, by decide⟩ ∗ Φ ⟨62, by decide⟩ ∗ Φ ⟨61, by decide⟩ ∗ Φ ⟨60, by decide⟩ ∗ bigSep (Ring.rangeSet 64 0 60) Φ) : sProp 𝕄) := by
  rw [Ring.bigSep_rangeSet_last (lo := 0) (hi := 64) (by decide) (by decide), Ring.bigSep_rangeSet_last (lo := 0) (hi := 63) (by decide) (by decide),
    Ring.bigSep_rangeSet_last (lo := 0) (hi := 62) (by decide) (by decide), Ring.bigSep_rangeSet_last (lo := 0) (hi := 61) (by decide) (by decide)]

/-- Buffer 0's write-back landed: its chunk is written. -/
theorem co_wb_done0 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 0 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW0).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW0).view.read (Elt F) f')⟩])
  isplitr
  · ipureintro; exact wb_done0 d L off h _ (widL L) c.val e rfl c.isLt fo f' _ _ hg
  · iexact H

/-- Buffer 1's write-back landed: its chunk is written. -/
theorem co_wb_done1 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 1 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW1).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW1).view.read (Elt F) f')⟩])
  isplitr
  · ipureintro; exact wb_done1 d L off h _ (widL L) c.val e rfl c.isLt fo f' _ _ hg
  · iexact H

/-- Buffer 2's write-back landed: its chunk is written. -/
theorem co_wb_done2 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 2 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW2).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW2).view.read (Elt F) f')⟩])
  isplitr
  · ipureintro; exact wb_done2 d L off h _ (widL L) c.val e rfl c.isLt fo f' _ _ hg
  · iexact H

/-- Buffer 3's write-back landed: its chunk is written. -/
theorem co_wb_done3 (c : Fin 64) (fo : Buf (Elt F) (outLoc d)) (f' : Buf (Elt F) ((sR).view.loc (thr d L))) (off : Fin 3 → ℕ) (h : ∀ a, off a + S8x20x128.size a ≤ S16384x20x128.size a)
    (e : off = ![512 * (widL L).val + 8 * c.val, 0, 0]) (hg : rowsGood d L 3 (160 * c.val) (fIv d L I) (Tbv d m) f') :
    ((oChunk off h).view.loc (thr d L) ↦[(oChunk off h).view.set]{fullShare}
        ((oChunk off h).view.writes (Elt F) fo [⟨Rect.whole S8x20x128, ReadAs.same.apply ((bufW3).view.read (Elt F) f')⟩]) : sProp 𝕄)
      ⊢ chunkDone d L m I c := by
  unfold chunkDone
  rw [oChunk_set off h _ e]
  iintro H
  iexists ((oChunk off h).view.writes (Elt F) fo [⟨Rect.whole S8x20x128, ReadAs.same.apply ((bufW3).view.read (Elt F) f')⟩])
  isplitr
  · ipureintro; exact wb_done3 d L off h _ (widL L) c.val e rfl c.isLt fo f' _ _ hg
  · iexact H

set_option maxHeartbeats 8000000 in
theorem tile_core_of [∀ e, Nonempty (Elt F e)] (O : CellTallies nD τ sig (HIx 1)) (W : Waits sig (HIx 1)) (hO : ∀ g, O g none = 0)
    (hregion : ∀ (W₁ : Waits sig (HIx 1)) (v1 : BitVec 32) (k : Fin k0_t1_loop.trips) (acc : PUnit),
      InvG d L m I hpre O W₁ k.val acc
        ⊢ wp frame (wpE (defs₀ (F := F)) 𝒱₀ (thr d L) none) Set.univ
            (k0_t1_body L iV (Memref.isWhole_whole _) tV (Memref.isWhole_whole _) oV (Memref.isWhole_whole _)
              sI (Memref.isWhole_whole _) sR (Memref.isWhole_whole _) cc0_scratch2 cc0_scratch3 cc0_scratch4 cc0_scratch5 cc0_scratch6 cc0_scratch7 cc0_scratch8 cc0_scratch9 cc0_scoped0 v1 k acc)
            (InvG d L m I hpre O W₁ (k.val + 1))) :
    corePre d L m I O W
      ⊢ wp frame (wpE (defs₀ (F := F)) 𝒱₀ (thr d L) none) Set.univ
          (cc0__emb_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => corePost d L m I O W := by
  simp only [cc0__emb_body_eq_skeleton]; unfold cc0__emb_body_skel; simp only [k0_part38_eq_skeleton, k0_part39_eq_skeleton]
  iintro ⟨#Hlv, ⟨Hi, Ht, Ho⟩, ⟨%fi0, HsI⟩, ⟨%fr0, HsR⟩, ⟨Hg0, Hg1, Hg2, Hg3, Ho0, Ho1, Ho2, Ho3, Hsc⟩, HO⟩
  ihave Hmw := (show levAts (K (F := F)).L (K (F := F)).lev ⊢ Transfers.MayWaits (thr d L) (default : HIx 1) O from
    (K (F := F)).mayWaits_none (thr := thr d L) hO) $$ Hlv
  ihave Ht := (Entails.of_eq (pts_tV (F := F) d L _ _)) $$ Ht
  ihave Hi := (Entails.of_eq (pts_iRow (F := F) d L _)) $$ Hi
  sl_exec
  -- the list holds the worker's row of tokens; the table share, the output block and the scratch dealt out
  ihave HsI := (Entails.of_eq (show ((sI).view.loc (thr d L) ↦{fullShare} View.write (Elt F) (sI).view fi0 (tile_core_of.sl.dma0 d L I) Finset.univ : sProp 𝕄)
      = ((sI).view.loc (thr d L) ↦{fullShare} fIv d L I) from
    congrArg (fun f => ((sI).view.loc (thr d L) ↦{fullShare} f : sProp 𝕄)) (fetch_eq I d L fi0))) $$ HsI
  ihave Ht4 := (co_tq_split d L m).1 $$ Ht
  icases Ht4 with ⟨Htd, Ht0, Ht1, Ht2, Ht3⟩
  ihave Hoc := (Entails.of_eq (co_out_split d L m)) $$ Ho
  ihave HsR4 := (bufs_split d L fr0) $$ HsR
  icases HsR4 with ⟨Hb0, Hb1, Hb2, Hb3⟩
  sl_for (InvG d L m I hpre O (insert (SemLoc.dma cc0_scoped0.sem, (default : HIx 1)) W)) $$ [Hmw HO HsI Hi Htd Hsc Hb0 Ht0 Hb1 Ht1 Hb2 Ht2 Hb3 Ht3 Hg0 Hg1 Hg2 Hg3 Ho0 Ho1 Ho2 Ho3 Hoc]
  case region => exact fun k acc => hregion _ _ k acc
  · rw [InvG_zero]
    unfold baseI Inv0 free0 free1 free2 free3
    isplitl [Hmw HO HsI Hi Htd Hsc]
    · isplitl [Hmw]; · iexact Hmw
      isplitl [HO]
      · iexists _; isplitr
        · ipureintro; exact fun p hp => .inl hp
        · iexact HO
      isplitl [HsI]; · iexact HsI
      isplitl [Hi]; · iexact Hi
      isplitl [Htd]; · iexact Htd
      iexact Hsc
    isplitl [Hb0 Ht0]
    · isplitl [Hb0]; · iexists _; iexact Hb0
      iexact Ht0
    isplitl [Hb1 Ht1]
    · isplitl [Hb1]; · iexists _; iexact Hb1
      iexact Ht1
    isplitl [Hb2 Ht2]
    · isplitl [Hb2]; · iexists _; iexact Hb2
      iexact Ht2
    isplitl [Hb3 Ht3]
    · isplitl [Hb3]; · iexists _; iexact Hb3
      iexact Ht3
    isplitl [Hg0]; · iexact Hg0
    isplitl [Hg1]; · iexact Hg1
    isplitl [Hg2]; · iexact Hg2
    isplitl [Hg3]; · iexact Hg3
    isplitl [Ho0]; · iexact Ho0
    isplitl [Ho1]; · iexact Ho1
    isplitl [Ho2]; · iexact Ho2
    isplitl [Ho3]; · iexact Ho3
    iexact Hoc
  iintro %_ Hend
  ihave Hend := (Entails.of_eq (InvG_end d L m I hpre O _ _ _ (by decide))) $$ Hend
  unfold baseI InvEnd wbFl0 wbFl1 wbFl2 wbFl3
  icases Hend with ⟨⟨-, ⟨%W', %hW', HO⟩, HsI, Hi, Htd, Hsc⟩, ⟨%f0, %off0, %hb0, %e0, %hg0, HF0⟩, Hg0, Ht0, ⟨%f1, %off1, %hb1, %e1, %hg1, HF1⟩, Hg1, Ht1,
    ⟨%f2, %off2, %hb2, %e2, %hg2, HF2⟩, Hg2, Ht2, ⟨%f3, %off3, %hb3, %e3, %hg3, HF3⟩, Hg3, Ht3, Hdone⟩
  sl_exec
  -- the last four chunks are written; with those below 60, the worker's block is done
  ihave Hc60 := (co_wb_done0 d L m I ⟨60, by decide⟩ _ f0 off0 hb0 e0 hg0) $$ HF0_dst
  ihave Hc61 := (co_wb_done1 d L m I ⟨61, by decide⟩ _ f1 off1 hb1 e1 hg1) $$ HF1_dst
  ihave Hc62 := (co_wb_done2 d L m I ⟨62, by decide⟩ _ f2 off2 hb2 e2 hg2) $$ HF2_dst
  ihave Hc63 := (co_wb_done3 d L m I ⟨63, by decide⟩ _ f3 off3 hb3 e3 hg3) $$ HF3_dst
  ihave Hall := (Entails.of_eq (co_done4 (F := F) (chunkDone d L m I)).symm) $$ [Hc63 Hc62 Hc61 Hc60 Hdone]
  · isplitl [Hc63]; · iexact Hc63
    isplitl [Hc62]; · iexact Hc62
    isplitl [Hc61]; · iexact Hc61
    isplitl [Hc60]; · iexact Hc60
    iexact Hdone
  ihave Hout := (co_done_join d L m I) $$ Hall
  -- the table share and the scratch whole again
  ihave Htq := (co_tq_split d L m).2 $$ [Htd Ht0 Ht1 Ht2 Ht3]
  · isplitl [Htd]; · iexact Htd
    isplitl [Ht0]; · iexact Ht0
    isplitl [Ht1]; · iexact Ht1
    isplitl [Ht2]; · iexact Ht2
    iexact Ht3
  ihave HsR := (bufs_join d L) $$ [HF0_src HF1_src HF2_src HF3_src]
  · isplitl [HF0_src]; · iexists _; iexact HF0_src
    isplitl [HF1_src]; · iexists _; iexact HF1_src
    isplitl [HF2_src]; · iexists _; iexact HF2_src
    iexists _; iexact HF3_src
  sl_step
  isplitl [Hi Htq Hout]
  · isplitl [Hi]; · iapply (Entails.of_eq (pts_iRow (F := F) d L _).symm); iexact Hi
    isplitl [Htq]; · iexact Htq
    iexact Hout
  isplitl [HsI]; · iexists _; iexact HsI
  isplitl [HsR]; · iexact HsR
  isplitl [Hg0 Hg1 Hg2 Hg3 HF0 HF1 HF2 HF3 Hsc]
  · isplitl [Hg0]; · iexact Hg0
    isplitl [Hg1]; · iexact Hg1
    isplitl [Hg2]; · iexact Hg2
    isplitl [Hg3]; · iexact Hg3
    isplitl [HF0]; · iexact HF0
    isplitl [HF1]; · iexact HF1
    isplitl [HF2]; · iexact HF2
    isplitl [HF3]; · iexact HF3
    iexact Hsc
  iexists _; isplitr
  swap; · iexact HO
  ipureintro
  have hW0 : ∀ p ∈ W', p ∈ W ∨ p.2 = none := fun p hp =>
    (hW' p hp).elim (fun h => (Finset.mem_insert.mp h).elim (fun e => .inr (e ▸ rfl)) .inl) .inr
  exact waits_insert _ rfl (waits_insert _ rfl (waits_insert _ rfl (waits_insert _ rfl hW0)))

end Cert.Proof.KernelIdeal

end
-- ==== Proof.KernelIdeal.Steps.lean ====
/-
  Small steps between the pieces of the task's state: a landed write-back is a written chunk; an untouched chunk is a
  write-back's destination; the written chunks grow by one and the untouched ones give up their first; the worker's
  block is its 64 untouched chunks and 64 written chunks are the block written; the worker's share of the table is
  what no buffer uses and the four buffers' read shares; the write-backs' start rows through the worker's number.
-/
import proofs.«206312_g12936441495622_cont_fleet_311_30_alg».proof.Proof.KernelIdeal.Inv

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

/-! ## A landed write-back is a written chunk; an untouched chunk is a destination -/

/-- Buffer 0's write-back of chunk c, landed, is the chunk written. -/
theorem wb_to_done0 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 0 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW0).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW0).view.read (Elt F) f')⟩])
  isplitr
  · ipureintro
    exact wb_done0 d L off h _ (widL L) c e rfl hc fo f' (fIv d L I) (Tbv d m) hg
  · iexact H

/-- Buffer 1's write-back of chunk c, landed, is the chunk written. -/
theorem wb_to_done1 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 1 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW1).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW1).view.read (Elt F) f')⟩])
  isplitr
  · ipureintro
    exact wb_done1 d L off h _ (widL L) c e rfl hc fo f' (fIv d L I) (Tbv d m) hg
  · iexact H

/-- Buffer 2's write-back of chunk c, landed, is the chunk written. -/
theorem wb_to_done2 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 2 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW2).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW2).view.read (Elt F) f')⟩])
  isplitr
  · ipureintro
    exact wb_done2 d L off h _ (widL L) c e rfl hc fo f' (fIv d L I) (Tbv d m) hg
  · iexact H

/-- Buffer 3's write-back of chunk c, landed, is the chunk written. -/
theorem wb_to_done3 (c : ℕ) (hc : c < 64) (off : Fin 3 → ℕ) (h : ∀ a, off a + S8x20x128.size a ≤ S16384x20x128.size a)
    (e : off = ![512 * (widL L).val + 8 * c, 0, 0]) (f' : Buf (Elt F) ((sR).view.loc (thr d L)))
    (hg : rowsGood d L 3 (160 * c) (fIv d L I) (Tbv d m) f') (fo : Buf (Elt F) (outLoc d)) :
    ((oChunk off h).view.loc (thr d L) ↦[(oChunk off h).view.set]{fullShare}
        ((oChunk off h).view.writes (Elt F) fo [⟨Rect.whole S8x20x128, ReadAs.same.apply ((bufW3).view.read (Elt F) f')⟩]) : sProp 𝕄)
      ⊢ chunkDone d L m I ⟨c, hc⟩ := by
  unfold chunkDone
  rw [oChunk_set off h _ e]
  iintro H
  iexists ((oChunk off h).view.writes (Elt F) fo [⟨Rect.whole S8x20x128, ReadAs.same.apply ((bufW3).view.read (Elt F) f')⟩])
  isplitr
  · ipureintro
    exact wb_done3 d L off h _ (widL L) c e rfl hc fo f' (fIv d L I) (Tbv d m) hg
  · iexact H

/-- An untouched chunk, as the write-back's destination addresses it. -/
theorem init_to_chunk (c : ℕ) (hc : c < 64) (off : Fin 3 → ℕ) (h : ∀ a, off a + S8x20x128.size a ≤ S16384x20x128.size a)
    (e : off = ![512 * (widL L).val + 8 * c, 0, 0]) :
    chunkInit d L m ⟨c, hc⟩ ⊢ ((oChunk off h).view.loc (thr d L) ↦[(oChunk off h).view.set]{fullShare} m (outLoc d) : sProp 𝕄) := by
  unfold chunkInit
  rw [oChunk_set off h _ e]
  iintro H
  iexact H

/-! ## Runs of chunks -/

/-- A run of things from 0 grows by its next one. -/
theorem snoc_gen (Φ : Fin 64 → sProp 𝕄) (n : ℕ) (hn : n < 64) :
    iprop(bigSep (Ring.rangeSet 64 0 n) Φ ∗ Φ ⟨n, hn⟩) ⊢ bigSep (Ring.rangeSet 64 0 (n + 1)) Φ := by
  rw [Ring.bigSep_rangeSet_last (lo := 0) (hi := n + 1) (by omega) (by omega)]
  simp only [Nat.add_sub_cancel]
  iintro ⟨Hs, Hn⟩
  isplitl [Hn]
  · iexact Hn
  · iexact Hs

/-- A run of things up to 64 gives up its first one. -/
theorem head_gen (Φ : Fin 64 → sProp 𝕄) (n : ℕ) (hn : n < 64) :
    bigSep (Ring.rangeSet 64 n 64) Φ ⊢ iprop(Φ ⟨n, hn⟩ ∗ bigSep (Ring.rangeSet 64 (n + 1) 64) Φ) := by
  rw [Ring.bigSep_rangeSet_head (lo := n) (hi := 64) hn hn]

theorem done_snoc (n : ℕ) (hn : n < 64) :
    iprop(bigSep (Ring.rangeSet 64 0 n) (chunkDone d L m I) ∗ chunkDone d L m I ⟨n, hn⟩) ⊢ bigSep (Ring.rangeSet 64 0 (n + 1)) (chunkDone d L m I) :=
  snoc_gen (chunkDone d L m I) n hn

theorem init_head (n : ℕ) (hn : n < 64) :
    bigSep (Ring.rangeSet 64 n 64) (chunkInit d L m) ⊢ iprop(chunkInit d L m ⟨n, hn⟩ ∗ bigSep (Ring.rangeSet 64 (n + 1) 64) (chunkInit d L m)) :=
  head_gen (chunkInit d L m) n hn

/-! ## The block and its chunks -/

/-- The worker's block of the output as launched is its 64 untouched chunks. -/
theorem out_split : (outLoc d ↦[oBlkSet (widL L)]{fullShare} m (outLoc d) : sProp 𝕄) ⊢ bigSep (Ring.rangeSet 64 0 64) (chunkInit d L m) := by
  rw [oBlk_chunks d (widL L) (m (outLoc d)), Ring.rangeSet_univ]
  exact .rfl

/-- The 64 chunks written are the worker's block done. -/
theorem done_join : bigSep (Ring.rangeSet 64 0 64) (chunkDone d L m I)
    ⊢ (iprop(∃ f, ⌜GoodOut m I d (widL L) f⌝ ∗ (outLoc d ↦[oBlkSet (widL L)]{fullShare} f)) : sProp 𝕄) := by
  rw [Ring.rangeSet_univ]
  exact chunks_join d m I (widL L)

/-! ## The worker's share of the table -/

/-- A share of the table is what is left after four read shares, and the four. -/
theorem tq_split_gen (q : PosShare TreeShare) (Tb : Buf (Elt F) (tabLoc d)) :
    ((tV).view.loc (thr d L) ↦{q} Tb : sProp 𝕄)
      ⊣⊢ iprop(((tV).view.loc (thr d L) ↦{Transfers.shareDrop q 4} Tb)
          ∗ ((tV).view.loc (thr d L) ↦{Transfers.shareTokN q 0} Tb) ∗ ((tV).view.loc (thr d L) ↦{Transfers.shareTokN q 1} Tb)
          ∗ ((tV).view.loc (thr d L) ↦{Transfers.shareTokN q 2} Tb) ∗ ((tV).view.loc (thr d L) ↦{Transfers.shareTokN q 3} Tb)) := by
  have h : ((tV).view.loc (thr d L) ↦{q} Tb : sProp 𝕄)
      ⊣⊢ iprop(((tV).view.loc (thr d L) ↦{Transfers.shareDrop q 4} Tb)
          ∗ BI.bigSep (Finset.range 4) (fun i => ((tV).view.loc (thr d L) ↦{Transfers.shareTokN q i} Tb : sProp 𝕄))) :=
    Transfers.pointsTo_toks_range q 4
  rw [Ring.bigSep_range_succ 3, Ring.bigSep_range_succ 2, Ring.bigSep_range_succ 1, Ring.bigSep_range_succ 0, Finset.range_zero, BI.bigSep_empty] at h
  constructor
  · refine h.1.trans ?_
    iintro ⟨Hd, H3, H2, H1, H0, -⟩
    isplitl [Hd]; · iexact Hd
    isplitl [H0]; · iexact H0
    isplitl [H1]; · iexact H1
    isplitl [H2]; · iexact H2
    iexact H3
  · refine BIBase.Entails.trans ?_ h.2
    iintro ⟨Hd, H0, H1, H2, H3⟩
    isplitl [Hd]; · iexact Hd
    isplitl [H3]; · iexact H3
    isplitl [H2]; · iexact H2
    isplitl [H1]; · iexact H1
    isplitl [H0]; · iexact H0
    iempintro

/-- The worker's share is what no buffer uses and the four buffers' read shares. -/
theorem tq_split :
    ((tV).view.loc (thr d L) ↦{tq (widL L)} Tbv d m : sProp 𝕄)
      ⊣⊢ iprop(((tV).view.loc (thr d L) ↦{Transfers.shareDrop (tq (widL L)) 4} Tbv d m)
          ∗ ((tV).view.loc (thr d L) ↦{qB L 0} Tbv d m) ∗ ((tV).view.loc (thr d L) ↦{qB L 1} Tbv d m)
          ∗ ((tV).view.loc (thr d L) ↦{qB L 2} Tbv d m) ∗ ((tV).view.loc (thr d L) ↦{qB L 3} Tbv d m)) :=
  tq_split_gen d L (tq (widL L)) (Tbv d m)

/-! ## The write-backs' start rows through the worker's number -/

omit [FloatOps F] in
theorem off37_w (g : Fin k0_t1_loop.trips) (h1 : 1 ≤ g.val) (h16 : g.val ≤ 16) :
    k0_off37 L g = ![512 * (widL L).val + 8 * (4 * g.val - 2), 0, 0] := by
  rw [off37_eq L g h1 h16]
  show ![1024 * (L 1).val + 512 * (L 0).val + 8 * (4 * g.val - 2), 0, 0] = ![512 * (2 * (L 1).val + (L 0).val) + 8 * (4 * g.val - 2), 0, 0]
  congr 1; omega
omit [FloatOps F] in
theorem off73_w (g : Fin k0_t1_loop.trips) (h1 : 1 ≤ g.val) (h16 : g.val ≤ 16) :
    k0_off73 L g = ![512 * (widL L).val + 8 * (4 * g.val - 1), 0, 0] := by
  rw [off73_eq L g h1 h16]
  show ![1024 * (L 1).val + 512 * (L 0).val + 8 * (4 * g.val - 1), 0, 0] = ![512 * (2 * (L 1).val + (L 0).val) + 8 * (4 * g.val - 1), 0, 0]
  congr 1; omega
omit [FloatOps F] in
theorem off109_w (g : Fin k0_t1_loop.trips) :
    k0_off109 L g = ![512 * (widL L).val + 8 * (4 * g.val), 0, 0] := by
  rw [k0_off109_eq L g]
  show ![1024 * (L 1).val + 512 * (L 0).val + 32 * g.val, 0, 0] = ![512 * (2 * (L 1).val + (L 0).val) + 8 * (4 * g.val), 0, 0]
  congr 1; omega
omit [FloatOps F] in
theorem off145_w (g : Fin k0_t1_loop.trips) :
    k0_off145 L g = ![512 * (widL L).val + 8 * (4 * g.val + 1), 0, 0] := by
  rw [k0_off145_eq L g]
  show ![1024 * (L 1).val + 512 * (L 0).val + 32 * g.val + 8, 0, 0] = ![512 * (2 * (L 1).val + (L 0).val) + 8 * (4 * g.val + 1), 0, 0]
  congr 1; omega

end Cert.Proof.KernelIdeal

end
-- ==== Proof.KernelIdeal.RegionFirst.lean ====
/-
  The first group, k = 0: nothing to wait for yet. The four buffers' first chunks are issued; buffers 0 and 1 are
  also waited for and written out (chunks 0 and 1).
-/
import proofs.«206312_g12936441495622_cont_fleet_311_30_alg».proof.Proof.KernelIdeal.Steps
import proofs.«206312_g12936441495622_cont_fleet_311_30_alg».proof.Proof.KernelIdeal.RegLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

set_option maxHeartbeats 128000000 in
theorem region_first [∀ e, Nonempty (Elt F e)] (O : CellTallies nD τ sig (HIx 1)) (W : Waits sig (HIx 1)) (v1 : BitVec 32)
    (k : Fin k0_t1_loop.trips) (acc : PUnit) (hk0 : k.val = 0) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have h15 : k.val ≤ 15 := by omega
  have c1 := cond1_pos k h15
  have c4 := cond4_pos k h15
  have c7 := cond7_pos k h15
  have c9 := cond9_pos k h15
  have c10 := cond10_pos k h15
  have c12 := cond12_pos k h15
  have n2 := cond2_neg k (by omega)
  have n3 := cond3_neg k (by omega)
  have n5 := cond5_neg k (by omega)
  have n6 := cond6_neg k (by omega)
  have n8 := cond8_neg k (by omega)
  have n11 := cond11_neg k (by omega)
  rw [show InvG d L m I hpre O W k.val acc = iprop(baseI d L m I O W ∗ Inv0 d L m) from by rw [hk0]; exact InvG_zero d L m I hpre O W acc]
  unfold baseI Inv0 free0 free1 free2 free3
  iintro ⟨⟨Hmw, ⟨%W0, %hW, HO⟩, HsI, Hi, Htd, Hsc⟩, ⟨⟨%f0w, Hb0⟩, Ht0⟩, ⟨⟨%f1w, Hb1⟩, Ht1⟩, ⟨⟨%f2w, Hb2⟩, Ht2⟩, ⟨⟨%f3w, Hb3⟩, Ht3⟩, Hg0, Hg1, Hg2, Hg3, HF0, HF1, Ho2, Ho3, Hinit⟩
  ihave Hinit := (range_cast (chunkInit d L m) (show 0 = 4 * k.val + 0 from by omega) (rfl : (64 : ℕ) = 64)) $$ Hinit
  sl_unfold [k0_t1_body]

  -- buffer 0: the 160 copies of its next chunk are issued
  sl_exec
  ihave Hop := (open0 d L k c1 (fIv d L I) (fIw_lt I d hpre _) (Tbv d m) f0w (qB L 0)) $$ [Hb0 Ht0]
  · isplitl [Hb0] <;> iassumption
  icases Hop with ⟨Hin0, HL0⟩
  haveI hst0 : ∀ t, BI.Storable (upEmb : UEmb _ 𝕄) (D0 d L k c1 (fIv d L I) (fIw_lt I d hpre _) (Tbv d m) f0w (qB L 0) t) :=
    D0_storable d L k c1 (fIv d L I) (fIw_lt I d hpre _) (Tbv d m) f0w (qB L 0)
  imod (Transfers.batch_alloc' countersEmb (thr d L) (none : HIx 1) NR (D0 d L k c1 (fIv d L I) (fIw_lt I d hpre _) (Tbv d m) f0w (qB L 0)) (sm := .dma cc0_scratch2.sem) (E := Set.univ)) $$ Hg0 with HB0
  sl_for (issueAt0 d L k c1 (fIv d L I) (fIw_lt I d hpre _) (Tbv d m) f0w (qB L 0) (D0 d L k c1 (fIv d L I) (fIw_lt I d hpre _) (Tbv d m) f0w (qB L 0))) $$ [HB0 HsI Hin0]
  case region => exact fun kk acc' => issue0_step d L k c1 (fIv d L I) (fIw_lt I d hpre _) (Tbv d m) f0w (qB L 0) v1 _ _ (hDel0 d L k c1 (fIv d L I) (fIw_lt I d hpre _) (Tbv d m) f0w (qB L 0)) kk acc'
  · iapply (issueAt0_start d L k c1 (fIv d L I) (fIw_lt I d hpre _) (Tbv d m) f0w (qB L 0) _ _)
    isplitl [HB0]; · iexact HB0
    isplitl [HsI]; · iexact HsI
    iexact Hin0
  iintro %_ HLp
  ihave HLp := (issueAt0_end d L k c1 (fIv d L I) (fIw_lt I d hpre _) (Tbv d m) f0w (qB L 0) _ (Scf.trips k0_t2_loop.lb k0_t2_loop.ub k0_t2_loop.st) rfl _) $$ HLp
  icases HLp with ⟨HB0, HsI⟩

  -- buffer 1: the 160 copies of its next chunk are issued
  sl_exec
  ihave Hop := (open1 d L k c4 (fIv d L I) (fIw_lt I d hpre _) (Tbv d m) f1w (qB L 1)) $$ [Hb1 Ht1]
  · isplitl [Hb1] <;> iassumption
  icases Hop with ⟨Hin1, HL1⟩
  haveI hst1 : ∀ t, BI.Storable (upEmb : UEmb _ 𝕄) (D1 d L k c4 (fIv d L I) (fIw_lt I d hpre _) (Tbv d m) f1w (qB L 1) t) :=
    D1_storable d L k c4 (fIv d L I) (fIw_lt I d hpre _) (Tbv d m) f1w (qB L 1)
  imod (Transfers.batch_alloc' countersEmb (thr d L) (none : HIx 1) NR (D1 d L k c4 (fIv d L I) (fIw_lt I d hpre _) (Tbv d m) f1w (qB L 1)) (sm := .dma cc0_scratch3.sem) (E := Set.univ)) $$ Hg1 with HB1
  sl_for (issueAt1 d L k c4 (fIv d L I) (fIw_lt I d hpre _) (Tbv d m) f1w (qB L 1) (D1 d L k c4 (fIv d L I) (fIw_lt I d hpre _) (Tbv d m) f1w (qB L 1))) $$ [HB1 HsI Hin1]
  case region => exact fun kk acc' => issue1_step d L k c4 (fIv d L I) (fIw_lt I d hpre _) (Tbv d m) f1w (qB L 1) v1 _ _ (hDel1 d L k c4 (fIv d L I) (fIw_lt I d hpre _) (Tbv d m) f1w (qB L 1)) kk acc'
  · iapply (issueAt1_start d L k c4 (fIv d L I) (fIw_lt I d hpre _) (Tbv d m) f1w (qB L 1) _ _)
    isplitl [HB1]; · iexact HB1
    isplitl [HsI]; · iexact HsI
    iexact Hin1
  iintro %_ HLp
  ihave HLp := (issueAt1_end d L k c4 (fIv d L I) (fIw_lt I d hpre _) (Tbv d m) f1w (qB L 1) _ (Scf.trips k0_t4_loop.lb k0_t4_loop.ub k0_t4_loop.st) rfl _) $$ HLp
  icases HLp with ⟨HB1, HsI⟩

  -- buffer 2: the 160 copies of its next chunk are issued
  sl_exec
  ihave Hop := (open2 d L k c7 (fIv d L I) (fIw_lt I d hpre _) (Tbv d m) f2w (qB L 2)) $$ [Hb2 Ht2]
  · isplitl [Hb2] <;> iassumption
  icases Hop with ⟨Hin2, HL2⟩
  haveI hst2 : ∀ t, BI.Storable (upEmb : UEmb _ 𝕄) (D2 d L k c7 (fIv d L I) (fIw_lt I d hpre _) (Tbv d m) f2w (qB L 2) t) :=
    D2_storable d L k c7 (fIv d L I) (fIw_lt I d hpre _) (Tbv d m) f2w (qB L 2)
  imod (Transfers.batch_alloc' countersEmb (thr d L) (none : HIx 1) NR (D2 d L k c7 (fIv d L I) (fIw_lt I d hpre _) (Tbv d m) f2w (qB L 2)) (sm := .dma cc0_scratch4.sem) (E := Set.univ)) $$ Hg2 with HB2
  sl_for (issueAt2 d L k c7 (fIv d L I) (fIw_lt I d hpre _) (Tbv d m) f2w (qB L 2) (D2 d L k c7 (fIv d L I) (fIw_lt I d hpre _) (Tbv d m) f2w (qB L 2))) $$ [HB2 HsI Hin2]
  case region => exact fun kk acc' => issue2_step d L k c7 (fIv d L I) (fIw_lt I d hpre _) (Tbv d m) f2w (qB L 2) v1 _ _ (hDel2 d L k c7 (fIv d L I) (fIw_lt I d hpre _) (Tbv d m) f2w (qB L 2)) kk acc'
  · iapply (issueAt2_start d L k c7 (fIv d L I) (fIw_lt I d hpre _) (Tbv d m) f2w (qB L 2) _ _)
    isplitl [HB2]; · iexact HB2
    isplitl [HsI]; · iexact HsI
    iexact Hin2
  iintro %_ HLp
  ihave HLp := (issueAt2_end d L k c7 (fIv d L I) (fIw_lt I d hpre _) (Tbv d m) f2w (qB L 2) _ (Scf.trips k0_t6_loop.lb k0_t6_loop.ub k0_t6_loop.st) rfl _) $$ HLp
  icases HLp with ⟨HB2, HsI⟩

  -- buffer 0: its 160 copies are waited for, and it is written out
  sl_exec
  sl_for (drainAt0 d L O W (D0 d L k c1 (fIv d L I) (fIw_lt I d hpre _) (Tbv d m) f0w (qB L 0))) $$ [Hmw HO HB0]
  case region => exact fun kk acc' => drain0_step d L k c9 _ O W kk acc'
  · iapply (drainAt0_start d L O W _ hW _ _)
    isplitl [Hmw]; · iexact Hmw
    isplitl [HO]; · iexact HO
    iexact HB0
  iintro %_ HLp
  ihave HLp := (drainAt0_end d L O W _ (Scf.trips k0_t7_loop.lb k0_t7_loop.ub k0_t7_loop.st) rfl _) $$ HLp
  icases HLp with ⟨Hmw, ⟨%W2n, %hW2n, HO⟩, Hg0, Hall⟩
  ihave Hcl := (close0 d L k c1 (fIv d L I) (fIw_lt I d hpre _) (Tbv d m) f0w (qB L 0)) $$ [Hall HL0]
  · isplitl [Hall] <;> iassumption
  icases Hcl with ⟨%f0x, %hg0r, Hbuf0, Ht0⟩
  have hgf0x : rowsGood d L 0 (160 * (4 * k.val + 0)) (fIv d L I) (Tbv d m) f0x := by
    have hh := hg0r; rwa [show 640 * k.val + 160 * 0 = 160 * (4 * k.val + 0) from by omega] at hh
  ihave Hih := (init_head d L m (4 * k.val + 0) (by omega)) $$ Hinit
  icases Hih with ⟨Hch, Hinit⟩
  have eo0 : k0_off109 L k = ![512 * (widL L).val + 8 * (4 * k.val + 0), 0, 0] := by
    rw [off109_w L k]; congr 3 <;> omega
  ihave Hch := (init_to_chunk d L m (4 * k.val + 0) _ (k0_off109 L k) (k0_off109_inb L k c9) eo0) $$ Hch
  clear hW; have hW := hW2n

  -- buffer 3: the 160 copies of its next chunk are issued
  sl_exec
  ihave Hop := (open3 d L k c10 (fIv d L I) (fIw_lt I d hpre _) (Tbv d m) f3w (qB L 3)) $$ [Hb3 Ht3]
  · isplitl [Hb3] <;> iassumption
  icases Hop with ⟨Hin3, HL3⟩
  haveI hst3 : ∀ t, BI.Storable (upEmb : UEmb _ 𝕄) (D3 d L k c10 (fIv d L I) (fIw_lt I d hpre _) (Tbv d m) f3w (qB L 3) t) :=
    D3_storable d L k c10 (fIv d L I) (fIw_lt I d hpre _) (Tbv d m) f3w (qB L 3)
  imod (Transfers.batch_alloc' countersEmb (thr d L) (none : HIx 1) NR (D3 d L k c10 (fIv d L I) (fIw_lt I d hpre _) (Tbv d m) f3w (qB L 3)) (sm := .dma cc0_scratch5.sem) (E := Set.univ)) $$ Hg3 with HB3
  sl_for (issueAt3 d L k c10 (fIv d L I) (fIw_lt I d hpre _) (Tbv d m) f3w (qB L 3) (D3 d L k c10 (fIv d L I) (fIw_lt I d hpre _) (Tbv d m) f3w (qB L 3))) $$ [HB3 HsI Hin3]
  case region => exact fun kk acc' => issue3_step d L k c10 (fIv d L I) (fIw_lt I d hpre _) (Tbv d m) f3w (qB L 3) v1 _ _ (hDel3 d L k c10 (fIv d L I) (fIw_lt I d hpre _) (Tbv d m) f3w (qB L 3)) kk acc'
  · iapply (issueAt3_start d L k c10 (fIv d L I) (fIw_lt I d hpre _) (Tbv d m) f3w (qB L 3) _ _)
    isplitl [HB3]; · iexact HB3
    isplitl [HsI]; · iexact HsI
    iexact Hin3
  iintro %_ HLp
  ihave HLp := (issueAt3_end d L k c10 (fIv d L I) (fIw_lt I d hpre _) (Tbv d m) f3w (qB L 3) _ (Scf.trips k0_t8_loop.lb k0_t8_loop.ub k0_t8_loop.st) rfl _) $$ HLp
  icases HLp with ⟨HB3, HsI⟩

  -- buffer 1: its 160 copies are waited for, and it is written out
  sl_exec
  sl_for (drainAt1 d L O W (D1 d L k c4 (fIv d L I) (fIw_lt I d hpre _) (Tbv d m) f1w (qB L 1))) $$ [Hmw HO HB1]
  case region => exact fun kk acc' => drain1_step d L k c12 _ O W kk acc'
  · iapply (drainAt1_start d L O W _ hW _ _)
    isplitl [Hmw]; · iexact Hmw
    isplitl [HO]; · iexact HO
    iexact HB1
  iintro %_ HLp
  ihave HLp := (drainAt1_end d L O W _ (Scf.trips k0_t9_loop.lb k0_t9_loop.ub k0_t9_loop.st) rfl _) $$ HLp
  icases HLp with ⟨Hmw, ⟨%W3n, %hW3n, HO⟩, Hg1, Hall⟩
  ihave Hcl := (close1 d L k c4 (fIv d L I) (fIw_lt I d hpre _) (Tbv d m) f1w (qB L 1)) $$ [Hall HL1]
  · isplitl [Hall] <;> iassumption
  icases Hcl with ⟨%f1x, %hg1r, Hbuf1, Ht1⟩
  have hgf1x : rowsGood d L 1 (160 * (4 * k.val + 1)) (fIv d L I) (Tbv d m) f1x := by
    have hh := hg1r; rwa [show 640 * k.val + 160 * 1 = 160 * (4 * k.val + 1) from by omega] at hh
  ihave Hih := (init_head d L m (4 * k.val + 1) (by omega)) $$ Hinit
  icases Hih with ⟨Hch, Hinit⟩
  have eo1 : k0_off145 L k = ![512 * (widL L).val + 8 * (4 * k.val + 1), 0, 0] := by
    exact off145_w L k
  ihave Hch := (init_to_chunk d L m (4 * k.val + 1) _ (k0_off145 L k) (k0_off145_inb L k c12) eo1) $$ Hch
  clear hW; have hW := hW3n
  sl_exec
  sl_step
  rw [InvG_succ d L m I hpre O W k.val _ h15]
  unfold InvMid
  isplitl [Hmw HO HsI Hi Htd Hsc]
  · unfold baseI
    isplitl [Hmw]; · iexact Hmw
    isplitl [HO]
    · iexists _; isplitr
      · ipureintro; exact hW
      · iexact HO
    isplitl [HsI]; · iexact HsI
    isplitl [Hi]; · iexact Hi
    isplitl [Htd]; · iexact Htd
    iexact Hsc
  isplitl [HF0]
  · unfold wbFl0
    iexists f0x, (k0_off109 L k), (k0_off109_inb L k c9)
    isplitr
    · ipureintro; rw [eo0]; congr 3 <;> omega
    isplitr
    · ipureintro; have hh := hgf0x; rwa [show 4 * k.val + 0 = 4 * k.val from by omega] at hh
    iexact HF0
  isplitl [Hg0]; · iexact Hg0
  isplitl [Ht0]; · iexact Ht0
  isplitl [HF1]
  · unfold wbFl1
    iexists f1x, (k0_off145 L k), (k0_off145_inb L k c12)
    isplitr
    · ipureintro; exact eo1
    isplitr
    · ipureintro; have hh := hgf1x; rwa [show 4 * k.val + 1 = 4 * k.val + 1 from by omega] at hh
    iexact HF1
  isplitl [Hg1]; · iexact Hg1
  isplitl [Ht1]; · iexact Ht1
  isplitl [HB2 HL2]
  · unfold gath2; rw [dif_pos h15]
    iexists f2w
    isplitl [HB2]; · iexact HB2
    iexact HL2
  isplitl [Ho2]; · iexact Ho2
  isplitl [HB3 HL3]
  · unfold gath3; rw [dif_pos h15]
    iexists f3w
    isplitl [HB3]; · iexact HB3
    iexact HL3
  isplitl [Ho3]; · iexact Ho3
  isplitl [Hinit]
  · iapply (range_cast (chunkInit d L m) (show 4 * k.val + 0 + 1 + 1 = 4 * k.val + 2 from by omega) (rfl : (64 : ℕ) = 64)); iexact Hinit
  rw [Ring.bigSep_rangeSet_empty (NB := 64) (Φ := chunkDone d L m I) (lo := 0) (hi := 4 * k.val) (by omega)]
  iempintro

end Cert.Proof.KernelIdeal

end
-- ==== Proof.KernelIdeal.RegionMid.lean ====
/-
  A group of four chunks in the steady state, 1 ≤ k ≤ 15: each buffer in turn has its write-back waited for and its
  next chunk's copies issued, then the buffer two behind has its copies waited for and is written out.
-/
import proofs.«206312_g12936441495622_cont_fleet_311_30_alg».proof.Proof.KernelIdeal.Steps
import proofs.«206312_g12936441495622_cont_fleet_311_30_alg».proof.Proof.KernelIdeal.RegLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

set_option maxHeartbeats 128000000 in
theorem region_mid [∀ e, Nonempty (Elt F e)] (O : CellTallies nD τ sig (HIx 1)) (W : Waits sig (HIx 1)) (v1 : BitVec 32)
    (k : Fin k0_t1_loop.trips) (acc : PUnit) (h1 : 1 ≤ k.val) (h15 : k.val ≤ 15) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have c1 := cond1_pos k h15
  have c2 := cond2_pos k h1
  have c3 := cond3_pos k ⟨h1, by omega⟩
  have c4 := cond4_pos k h15
  have c5 := cond5_pos k h1
  have c6 := cond6_pos k ⟨h1, by omega⟩
  have c7 := cond7_pos k h15
  have c8 := cond8_pos k h1
  have c9 := cond9_pos k h15
  have c10 := cond10_pos k h15
  have c11 := cond11_pos k h1
  have c12 := cond12_pos k h15
  have hgp : k.val - 1 ≤ 15 := by omega
  rw [InvG_mid d L m I hpre O W k.val acc h1 (by omega)]
  unfold baseI InvMid wbFl0 wbFl1 gath2 gath3
  rw [dif_pos hgp, dif_pos hgp]
  iintro ⟨⟨Hmw, ⟨%W0, %hW, HO⟩, HsI, Hi, Htd, Hsc⟩, ⟨%f0w, %off0, %hoff0, %eoff0, %hgf0w, HF0⟩, Hg0, Ht0, ⟨%f1w, %off1, %hoff1, %eoff1, %hgf1w, HF1⟩, Hg1, Ht1, ⟨%fd2, HB2, HL2⟩, Ho2, ⟨%fd3, HB3, HL3⟩, Ho3, Hinit, Hdone⟩
  sl_unfold [k0_t1_body]

  -- buffer 0: its write-back is waited for; the 160 copies of its next chunk are issued
  sl_exec
  ihave Hdone := (done_snoc d L m I (4 * (k.val - 1) + 0) (by omega)) $$ [Hdone HF0_dst]
  · isplitl [Hdone]; · iexact Hdone
    iapply (wb_to_done0 d L m I (4 * (k.val - 1) + 0) _ off0 hoff0 eoff0 f0w hgf0w (oChunk off0 hoff0).view.junk); iexact HF0_dst
  ihave Hop := (open0 d L k c1 (fIv d L I) (fIw_lt I d hpre _) (Tbv d m) f0w (qB L 0)) $$ [HF0_src Ht0]
  · isplitl [HF0_src]; · iexact HF0_src
    iexact Ht0
  icases Hop with ⟨Hin0, HL0⟩
  haveI hst0 : ∀ t, BI.Storable (upEmb : UEmb _ 𝕄) (D0 d L k c1 (fIv d L I) (fIw_lt I d hpre _) (Tbv d m) f0w (qB L 0) t) := D0_storable d L k c1 (fIv d L I) (fIw_lt I d hpre _) (Tbv d m) f0w (qB L 0)
  imod (Transfers.batch_alloc' countersEmb (thr d L) (none : HIx 1) NR (D0 d L k c1 (fIv d L I) (fIw_lt I d hpre _) (Tbv d m) f0w (qB L 0)) (sm := .dma cc0_scratch2.sem) (E := Set.univ)) $$ Hg0 with HB0
  sl_for (issueAt0 d L k c1 (fIv d L I) (fIw_lt I d hpre _) (Tbv d m) f0w (qB L 0) (D0 d L k c1 (fIv d L I) (fIw_lt I d hpre _) (Tbv d m) f0w (qB L 0))) $$ [HB0 HsI Hin0]
  case region => exact fun kk acc' => issue0_step d L k c1 (fIv d L I) (fIw_lt I d hpre _) (Tbv d m) f0w (qB L 0) v1 _ _ (hDel0 d L k c1 (fIv d L I) (fIw_lt I d hpre _) (Tbv d m) f0w (qB L 0)) kk acc'
  · iapply (issueAt0_start d L k c1 (fIv d L I) (fIw_lt I d hpre _) (Tbv d m) f0w (qB L 0) _ _)
    isplitl [HB0]; · iexact HB0
    isplitl [HsI]; · iexact HsI
    iexact Hin0
  iintro %_ HLp
  ihave HLp := (issueAt0_end d L k c1 (fIv d L I) (fIw_lt I d hpre _) (Tbv d m) f0w (qB L 0) _ (Scf.trips k0_t2_loop.lb k0_t2_loop.ub k0_t2_loop.st) rfl _) $$ HLp
  icases HLp with ⟨HB0, HsI⟩
  -- buffer 2: its 160 copies are waited for, and it is written out
  sl_exec
  sl_for (drainAt2 d L O W (D2 d L (gOf (k.val - 1) hgp) (cond7_pos _ hgp) (fIv d L I) (fIw_lt I d hpre _) (Tbv d m) fd2 (qB L 2))) $$ [Hmw HO HB2]
  case region => exact fun kk acc' => drain2_step d L v1 k c3 _ O W kk acc'
  · iapply (drainAt2_start d L O W _ (waits_insert (SemLoc.dma cc0_scratch6.sem, (none : HIx 1)) rfl hW) _ _)
    isplitl [Hmw]; · iexact Hmw
    isplitl [HO]; · iexact HO
    iexact HB2
  iintro %_ HLp
  ihave HLp := (drainAt2_end d L O W _ (Scf.trips k0_t3_loop.lb k0_t3_loop.ub k0_t3_loop.st) rfl _) $$ HLp
  icases HLp with ⟨Hmw, ⟨%W0n, %hW0n, HO⟩, Hg2, Hall⟩
  ihave Hcl := (close2 d L (gOf (k.val - 1) hgp) (cond7_pos _ hgp) (fIv d L I) (fIw_lt I d hpre _) (Tbv d m) fd2 (qB L 2)) $$ [Hall HL2]
  · isplitl [Hall] <;> iassumption
  icases Hcl with ⟨%f2w, %hg2r, Hbuf2, Ht2⟩
  have hgf2w : rowsGood d L 2 (160 * (4 * (k.val - 1) + 2)) (fIv d L I) (Tbv d m) f2w := by
    have hh := hg2r; rwa [show 640 * (k.val - 1) + 160 * 2 = 160 * (4 * (k.val - 1) + 2) from by omega] at hh
  ihave Hih := (init_head d L m (4 * (k.val - 1) + 2) (by omega)) $$ Hinit
  icases Hih with ⟨Hch, Hinit⟩
  have eo2 : k0_off37 L k = ![512 * (widL L).val + 8 * (4 * (k.val - 1) + 2), 0, 0] := by
    rw [off37_w L k h1 (by omega)]; congr 3 <;> omega
  ihave Hch := (init_to_chunk d L m (4 * (k.val - 1) + 2) _ (k0_off37 L k) (k0_off37_inb L k c3) eo2) $$ Hch
  clear hW; have hW := hW0n

  -- buffer 1: its write-back is waited for; the 160 copies of its next chunk are issued
  sl_exec
  ihave Hdone := (done_snoc d L m I (4 * (k.val - 1) + 1) (by omega)) $$ [Hdone HF1_dst]
  · isplitl [Hdone]; · iexact Hdone
    iapply (wb_to_done1 d L m I (4 * (k.val - 1) + 1) _ off1 hoff1 eoff1 f1w hgf1w (oChunk off1 hoff1).view.junk); iexact HF1_dst
  ihave Hop := (open1 d L k c4 (fIv d L I) (fIw_lt I d hpre _) (Tbv d m) f1w (qB L 1)) $$ [HF1_src Ht1]
  · isplitl [HF1_src]; · iexact HF1_src
    iexact Ht1
  icases Hop with ⟨Hin1, HL1⟩
  haveI hst1 : ∀ t, BI.Storable (upEmb : UEmb _ 𝕄) (D1 d L k c4 (fIv d L I) (fIw_lt I d hpre _) (Tbv d m) f1w (qB L 1) t) := D1_storable d L k c4 (fIv d L I) (fIw_lt I d hpre _) (Tbv d m) f1w (qB L 1)
  imod (Transfers.batch_alloc' countersEmb (thr d L) (none : HIx 1) NR (D1 d L k c4 (fIv d L I) (fIw_lt I d hpre _) (Tbv d m) f1w (qB L 1)) (sm := .dma cc0_scratch3.sem) (E := Set.univ)) $$ Hg1 with HB1
  sl_for (issueAt1 d L k c4 (fIv d L I) (fIw_lt I d hpre _) (Tbv d m) f1w (qB L 1) (D1 d L k c4 (fIv d L I) (fIw_lt I d hpre _) (Tbv d m) f1w (qB L 1))) $$ [HB1 HsI Hin1]
  case region => exact fun kk acc' => issue1_step d L k c4 (fIv d L I) (fIw_lt I d hpre _) (Tbv d m) f1w (qB L 1) v1 _ _ (hDel1 d L k c4 (fIv d L I) (fIw_lt I d hpre _) (Tbv d m) f1w (qB L 1)) kk acc'
  · iapply (issueAt1_start d L k c4 (fIv d L I) (fIw_lt I d hpre _) (Tbv d m) f1w (qB L 1) _ _)
    isplitl [HB1]; · iexact HB1
    isplitl [HsI]; · iexact HsI
    iexact Hin1
  iintro %_ HLp
  ihave HLp := (issueAt1_end d L k c4 (fIv d L I) (fIw_lt I d hpre _) (Tbv d m) f1w (qB L 1) _ (Scf.trips k0_t4_loop.lb k0_t4_loop.ub k0_t4_loop.st) rfl _) $$ HLp
  icases HLp with ⟨HB1, HsI⟩
  -- buffer 3: its 160 copies are waited for, and it is written out
  sl_exec
  sl_for (drainAt3 d L O W (D3 d L (gOf (k.val - 1) hgp) (cond10_pos _ hgp) (fIv d L I) (fIw_lt I d hpre _) (Tbv d m) fd3 (qB L 3))) $$ [Hmw HO HB3]
  case region => exact fun kk acc' => drain3_step d L v1 k c6 _ O W kk acc'
  · iapply (drainAt3_start d L O W _ (waits_insert (SemLoc.dma cc0_scratch7.sem, (none : HIx 1)) rfl hW) _ _)
    isplitl [Hmw]; · iexact Hmw
    isplitl [HO]; · iexact HO
    iexact HB3
  iintro %_ HLp
  ihave HLp := (drainAt3_end d L O W _ (Scf.trips k0_t5_loop.lb k0_t5_loop.ub k0_t5_loop.st) rfl _) $$ HLp
  icases HLp with ⟨Hmw, ⟨%W1n, %hW1n, HO⟩, Hg3, Hall⟩
  ihave Hcl := (close3 d L (gOf (k.val - 1) hgp) (cond10_pos _ hgp) (fIv d L I) (fIw_lt I d hpre _) (Tbv d m) fd3 (qB L 3)) $$ [Hall HL3]
  · isplitl [Hall] <;> iassumption
  icases Hcl with ⟨%f3w, %hg3r, Hbuf3, Ht3⟩
  have hgf3w : rowsGood d L 3 (160 * (4 * (k.val - 1) + 3)) (fIv d L I) (Tbv d m) f3w := by
    have hh := hg3r; rwa [show 640 * (k.val - 1) + 160 * 3 = 160 * (4 * (k.val - 1) + 3) from by omega] at hh
  ihave Hih := (init_head d L m (4 * (k.val - 1) + 3) (by omega)) $$ Hinit
  icases Hih with ⟨Hch, Hinit⟩
  have eo3 : k0_off73 L k = ![512 * (widL L).val + 8 * (4 * (k.val - 1) + 3), 0, 0] := by
    rw [off73_w L k h1 (by omega)]; congr 3 <;> omega
  ihave Hch := (init_to_chunk d L m (4 * (k.val - 1) + 3) _ (k0_off73 L k) (k0_off73_inb L k c6) eo3) $$ Hch
  clear hW; have hW := hW1n

  -- buffer 2: its write-back is waited for; the 160 copies of its next chunk are issued
  sl_exec
  ihave Hdone := (done_snoc d L m I (4 * (k.val - 1) + 2) (by omega)) $$ [Hdone Hch]
  · isplitl [Hdone]; · iexact Hdone
    iapply (wb_to_done2 d L m I (4 * (k.val - 1) + 2) _ (k0_off37 L k) (k0_off37_inb L k c3) eo2 f2w hgf2w (oChunk (k0_off37 L k) (k0_off37_inb L k c3)).view.junk); iexact Hch
  ihave Hop := (open2 d L k c7 (fIv d L I) (fIw_lt I d hpre _) (Tbv d m) f2w (qB L 2)) $$ [Hbuf2 Ht2]
  · isplitl [Hbuf2]; · iexact Hbuf2
    iexact Ht2
  icases Hop with ⟨Hin2, HL2⟩
  haveI hst2 : ∀ t, BI.Storable (upEmb : UEmb _ 𝕄) (D2 d L k c7 (fIv d L I) (fIw_lt I d hpre _) (Tbv d m) f2w (qB L 2) t) := D2_storable d L k c7 (fIv d L I) (fIw_lt I d hpre _) (Tbv d m) f2w (qB L 2)
  imod (Transfers.batch_alloc' countersEmb (thr d L) (none : HIx 1) NR (D2 d L k c7 (fIv d L I) (fIw_lt I d hpre _) (Tbv d m) f2w (qB L 2)) (sm := .dma cc0_scratch4.sem) (E := Set.univ)) $$ Hg2 with HB2
  sl_for (issueAt2 d L k c7 (fIv d L I) (fIw_lt I d hpre _) (Tbv d m) f2w (qB L 2) (D2 d L k c7 (fIv d L I) (fIw_lt I d hpre _) (Tbv d m) f2w (qB L 2))) $$ [HB2 HsI Hin2]
  case region => exact fun kk acc' => issue2_step d L k c7 (fIv d L I) (fIw_lt I d hpre _) (Tbv d m) f2w (qB L 2) v1 _ _ (hDel2 d L k c7 (fIv d L I) (fIw_lt I d hpre _) (Tbv d m) f2w (qB L 2)) kk acc'
  · iapply (issueAt2_start d L k c7 (fIv d L I) (fIw_lt I d hpre _) (Tbv d m) f2w (qB L 2) _ _)
    isplitl [HB2]; · iexact HB2
    isplitl [HsI]; · iexact HsI
    iexact Hin2
  iintro %_ HLp
  ihave HLp := (issueAt2_end d L k c7 (fIv d L I) (fIw_lt I d hpre _) (Tbv d m) f2w (qB L 2) _ (Scf.trips k0_t6_loop.lb k0_t6_loop.ub k0_t6_loop.st) rfl _) $$ HLp
  icases HLp with ⟨HB2, HsI⟩
  -- buffer 0: its 160 copies are waited for, and it is written out
  sl_exec
  sl_for (drainAt0 d L O W (D0 d L k c1 (fIv d L I) (fIw_lt I d hpre _) (Tbv d m) f0w (qB L 0))) $$ [Hmw HO HB0]
  case region => exact fun kk acc' => drain0_step d L k c9 _ O W kk acc'
  · iapply (drainAt0_start d L O W _ (waits_insert (SemLoc.dma cc0_scratch8.sem, (none : HIx 1)) rfl hW) _ _)
    isplitl [Hmw]; · iexact Hmw
    isplitl [HO]; · iexact HO
    iexact HB0
  iintro %_ HLp
  ihave HLp := (drainAt0_end d L O W _ (Scf.trips k0_t7_loop.lb k0_t7_loop.ub k0_t7_loop.st) rfl _) $$ HLp
  icases HLp with ⟨Hmw, ⟨%W2n, %hW2n, HO⟩, Hg0, Hall⟩
  ihave Hcl := (close0 d L k c1 (fIv d L I) (fIw_lt I d hpre _) (Tbv d m) f0w (qB L 0)) $$ [Hall HL0]
  · isplitl [Hall] <;> iassumption
  icases Hcl with ⟨%f0x, %hg0r, Hbuf0, Ht0⟩
  have hgf0x : rowsGood d L 0 (160 * (4 * (k.val - 1) + 4)) (fIv d L I) (Tbv d m) f0x := by
    have hh := hg0r; rwa [show 640 * k.val + 160 * 0 = 160 * (4 * (k.val - 1) + 4) from by omega] at hh
  ihave Hih := (init_head d L m (4 * (k.val - 1) + 4) (by omega)) $$ Hinit
  icases Hih with ⟨Hch, Hinit⟩
  have eo0 : k0_off109 L k = ![512 * (widL L).val + 8 * (4 * (k.val - 1) + 4), 0, 0] := by
    rw [off109_w L k]; congr 3 <;> omega
  ihave Hch := (init_to_chunk d L m (4 * (k.val - 1) + 4) _ (k0_off109 L k) (k0_off109_inb L k c9) eo0) $$ Hch
  clear hW; have hW := hW2n

  -- buffer 3: its write-back is waited for; the 160 copies of its next chunk are issued
  sl_exec
  ihave Hdone := (done_snoc d L m I (4 * (k.val - 1) + 3) (by omega)) $$ [Hdone Hch]
  · isplitl [Hdone]; · iexact Hdone
    iapply (wb_to_done3 d L m I (4 * (k.val - 1) + 3) _ (k0_off73 L k) (k0_off73_inb L k c6) eo3 f3w hgf3w (oChunk (k0_off73 L k) (k0_off73_inb L k c6)).view.junk); iexact Hch
  ihave Hop := (open3 d L k c10 (fIv d L I) (fIw_lt I d hpre _) (Tbv d m) f3w (qB L 3)) $$ [Hbuf3 Ht3]
  · isplitl [Hbuf3]; · iexact Hbuf3
    iexact Ht3
  icases Hop with ⟨Hin3, HL3⟩
  haveI hst3 : ∀ t, BI.Storable (upEmb : UEmb _ 𝕄) (D3 d L k c10 (fIv d L I) (fIw_lt I d hpre _) (Tbv d m) f3w (qB L 3) t) := D3_storable d L k c10 (fIv d L I) (fIw_lt I d hpre _) (Tbv d m) f3w (qB L 3)
  imod (Transfers.batch_alloc' countersEmb (thr d L) (none : HIx 1) NR (D3 d L k c10 (fIv d L I) (fIw_lt I d hpre _) (Tbv d m) f3w (qB L 3)) (sm := .dma cc0_scratch5.sem) (E := Set.univ)) $$ Hg3 with HB3
  sl_for (issueAt3 d L k c10 (fIv d L I) (fIw_lt I d hpre _) (Tbv d m) f3w (qB L 3) (D3 d L k c10 (fIv d L I) (fIw_lt I d hpre _) (Tbv d m) f3w (qB L 3))) $$ [HB3 HsI Hin3]
  case region => exact fun kk acc' => issue3_step d L k c10 (fIv d L I) (fIw_lt I d hpre _) (Tbv d m) f3w (qB L 3) v1 _ _ (hDel3 d L k c10 (fIv d L I) (fIw_lt I d hpre _) (Tbv d m) f3w (qB L 3)) kk acc'
  · iapply (issueAt3_start d L k c10 (fIv d L I) (fIw_lt I d hpre _) (Tbv d m) f3w (qB L 3) _ _)
    isplitl [HB3]; · iexact HB3
    isplitl [HsI]; · iexact HsI
    iexact Hin3
  iintro %_ HLp
  ihave HLp := (issueAt3_end d L k c10 (fIv d L I) (fIw_lt I d hpre _) (Tbv d m) f3w (qB L 3) _ (Scf.trips k0_t8_loop.lb k0_t8_loop.ub k0_t8_loop.st) rfl _) $$ HLp
  icases HLp with ⟨HB3, HsI⟩
  -- buffer 1: its 160 copies are waited for, and it is written out
  sl_exec
  sl_for (drainAt1 d L O W (D1 d L k c4 (fIv d L I) (fIw_lt I d hpre _) (Tbv d m) f1w (qB L 1))) $$ [Hmw HO HB1]
  case region => exact fun kk acc' => drain1_step d L k c12 _ O W kk acc'
  · iapply (drainAt1_start d L O W _ (waits_insert (SemLoc.dma cc0_scratch9.sem, (none : HIx 1)) rfl hW) _ _)
    isplitl [Hmw]; · iexact Hmw
    isplitl [HO]; · iexact HO
    iexact HB1
  iintro %_ HLp
  ihave HLp := (drainAt1_end d L O W _ (Scf.trips k0_t9_loop.lb k0_t9_loop.ub k0_t9_loop.st) rfl _) $$ HLp
  icases HLp with ⟨Hmw, ⟨%W3n, %hW3n, HO⟩, Hg1, Hall⟩
  ihave Hcl := (close1 d L k c4 (fIv d L I) (fIw_lt I d hpre _) (Tbv d m) f1w (qB L 1)) $$ [Hall HL1]
  · isplitl [Hall] <;> iassumption
  icases Hcl with ⟨%f1x, %hg1r, Hbuf1, Ht1⟩
  have hgf1x : rowsGood d L 1 (160 * (4 * (k.val - 1) + 5)) (fIv d L I) (Tbv d m) f1x := by
    have hh := hg1r; rwa [show 640 * k.val + 160 * 1 = 160 * (4 * (k.val - 1) + 5) from by omega] at hh
  ihave Hih := (init_head d L m (4 * (k.val - 1) + 5) (by omega)) $$ Hinit
  icases Hih with ⟨Hch, Hinit⟩
  have eo1 : k0_off145 L k = ![512 * (widL L).val + 8 * (4 * (k.val - 1) + 5), 0, 0] := by
    rw [off145_w L k]; congr 3 <;> omega
  ihave Hch := (init_to_chunk d L m (4 * (k.val - 1) + 5) _ (k0_off145 L k) (k0_off145_inb L k c12) eo1) $$ Hch
  clear hW; have hW := hW3n
  sl_exec
  sl_step
  rw [InvG_succ d L m I hpre O W k.val _ h15]
  unfold InvMid
  isplitl [Hmw HO HsI Hi Htd Hsc]
  · unfold baseI
    isplitl [Hmw]; · iexact Hmw
    isplitl [HO]
    · iexists _; isplitr
      · ipureintro; exact hW
      · iexact HO
    isplitl [HsI]; · iexact HsI
    isplitl [Hi]; · iexact Hi
    isplitl [Htd]; · iexact Htd
    iexact Hsc
  isplitl [HF0]
  · unfold wbFl0
    iexists f0x, (k0_off109 L k), (k0_off109_inb L k c9)
    isplitr
    · ipureintro; rw [eo0]; congr 3 <;> omega
    isplitr
    · ipureintro; have hh := hgf0x; rwa [show 4 * (k.val - 1) + 4 = 4 * k.val from by omega] at hh
    iexact HF0
  isplitl [Hg0]; · iexact Hg0
  isplitl [Ht0]; · iexact Ht0
  isplitl [HF1]
  · unfold wbFl1
    iexists f1x, (k0_off145 L k), (k0_off145_inb L k c12)
    isplitr
    · ipureintro; rw [eo1]; congr 3 <;> omega
    isplitr
    · ipureintro; have hh := hgf1x; rwa [show 4 * (k.val - 1) + 5 = 4 * k.val + 1 from by omega] at hh
    iexact HF1
  isplitl [Hg1]; · iexact Hg1
  isplitl [Ht1]; · iexact Ht1
  isplitl [HB2 HL2]
  · unfold gath2; rw [dif_pos h15]
    iexists f2w
    isplitl [HB2]; · iexact HB2
    iexact HL2
  isplitl [Ho2]; · iexact Ho2
  isplitl [HB3 HL3]
  · unfold gath3; rw [dif_pos h15]
    iexists f3w
    isplitl [HB3]; · iexact HB3
    iexact HL3
  isplitl [Ho3]; · iexact Ho3
  isplitl [Hinit]
  · iapply (range_cast (chunkInit d L m) (show 4 * (k.val - 1) + 5 + 1 = 4 * k.val + 2 from by omega) (rfl : (64 : ℕ) = 64)); iexact Hinit
  iapply (range_cast (chunkDone d L m I) (rfl : (0 : ℕ) = 0) (show 4 * (k.val - 1) + 3 + 1 = 4 * k.val from by omega)); iexact Hdone

end Cert.Proof.KernelIdeal

end
-- ==== Proof.KernelIdeal.RegionLast.lean ====
/-
  The last group, k = 16: no chunk is left to issue; buffers 2 and 3 are waited for and written out (chunks 62 and
  63), and the four last write-backs stay in flight.
-/
import proofs.«206312_g12936441495622_cont_fleet_311_30_alg».proof.Proof.KernelIdeal.Steps
import proofs.«206312_g12936441495622_cont_fleet_311_30_alg».proof.Proof.KernelIdeal.RegLib

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

set_option maxHeartbeats 128000000 in
theorem region_last [∀ e, Nonempty (Elt F e)] (O : CellTallies nD τ sig (HIx 1)) (W : Waits sig (HIx 1)) (v1 : BitVec 32)
    (k : Fin k0_t1_loop.trips) (acc : PUnit) (hk : k.val = 16) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have h1 : 1 ≤ k.val := by omega
  have c3 := cond3_pos k ⟨by omega, by omega⟩
  have c6 := cond6_pos k ⟨by omega, by omega⟩
  have n1 := cond1_neg k (by omega)
  have n4 := cond4_neg k (by omega)
  have n7 := cond7_neg k (by omega)
  have n9 := cond9_neg k (by omega)
  have n10 := cond10_neg k (by omega)
  have n12 := cond12_neg k (by omega)
  have hgp : k.val - 1 ≤ 15 := by omega
  rw [InvG_mid d L m I hpre O W k.val acc h1 (by omega)]
  unfold baseI InvMid gath2 gath3
  rw [dif_pos hgp, dif_pos hgp]
  iintro ⟨⟨Hmw, ⟨%W0, %hW, HO⟩, HsI, Hi, Htd, Hsc⟩, HW0, Hg0, Ht0, HW1, Hg1, Ht1, ⟨%fd2, HB2, HL2⟩, Ho2, ⟨%fd3, HB3, HL3⟩, Ho3, Hinit, Hdone⟩
  sl_unfold [k0_t1_body]

  -- buffer 2: its 160 copies are waited for, and it is written out
  sl_exec
  sl_for (drainAt2 d L O W (D2 d L (gOf (k.val - 1) hgp) (cond7_pos _ hgp) (fIv d L I) (fIw_lt I d hpre _) (Tbv d m) fd2 (qB L 2))) $$ [Hmw HO HB2]
  case region => exact fun kk acc' => drain2_step d L v1 k c3 _ O W kk acc'
  · iapply (drainAt2_start d L O W _ hW _ _)
    isplitl [Hmw]; · iexact Hmw
    isplitl [HO]; · iexact HO
    iexact HB2
  iintro %_ HLp
  ihave HLp := (drainAt2_end d L O W _ (Scf.trips k0_t3_loop.lb k0_t3_loop.ub k0_t3_loop.st) rfl _) $$ HLp
  icases HLp with ⟨Hmw, ⟨%W0n, %hW0n, HO⟩, Hg2, Hall⟩
  ihave Hcl := (close2 d L (gOf (k.val - 1) hgp) (cond7_pos _ hgp) (fIv d L I) (fIw_lt I d hpre _) (Tbv d m) fd2 (qB L 2)) $$ [Hall HL2]
  · isplitl [Hall] <;> iassumption
  icases Hcl with ⟨%f2w, %hg2r, Hbuf2, Ht2⟩
  have hgf2w : rowsGood d L 2 (160 * (4 * (k.val - 1) + 2)) (fIv d L I) (Tbv d m) f2w := by
    have hh := hg2r; rwa [show 640 * (k.val - 1) + 160 * 2 = 160 * (4 * (k.val - 1) + 2) from by omega] at hh
  ihave Hih := (init_head d L m (4 * (k.val - 1) + 2) (by omega)) $$ Hinit
  icases Hih with ⟨Hch, Hinit⟩
  have eo2 : k0_off37 L k = ![512 * (widL L).val + 8 * (4 * (k.val - 1) + 2), 0, 0] := by
    rw [off37_w L k h1 (by omega)]; congr 3 <;> omega
  ihave Hch := (init_to_chunk d L m (4 * (k.val - 1) + 2) _ (k0_off37 L k) (k0_off37_inb L k c3) eo2) $$ Hch
  clear hW; have hW := hW0n

  -- buffer 3: its 160 copies are waited for, and it is written out
  sl_exec
  sl_for (drainAt3 d L O W (D3 d L (gOf (k.val - 1) hgp) (cond10_pos _ hgp) (fIv d L I) (fIw_lt I d hpre _) (Tbv d m) fd3 (qB L 3))) $$ [Hmw HO HB3]
  case region => exact fun kk acc' => drain3_step d L v1 k c6 _ O W kk acc'
  · iapply (drainAt3_start d L O W _ hW _ _)
    isplitl [Hmw]; · iexact Hmw
    isplitl [HO]; · iexact HO
    iexact HB3
  iintro %_ HLp
  ihave HLp := (drainAt3_end d L O W _ (Scf.trips k0_t5_loop.lb k0_t5_loop.ub k0_t5_loop.st) rfl _) $$ HLp
  icases HLp with ⟨Hmw, ⟨%W1n, %hW1n, HO⟩, Hg3, Hall⟩
  ihave Hcl := (close3 d L (gOf (k.val - 1) hgp) (cond10_pos _ hgp) (fIv d L I) (fIw_lt I d hpre _) (Tbv d m) fd3 (qB L 3)) $$ [Hall HL3]
  · isplitl [Hall] <;> iassumption
  icases Hcl with ⟨%f3w, %hg3r, Hbuf3, Ht3⟩
  have hgf3w : rowsGood d L 3 (160 * (4 * (k.val - 1) + 3)) (fIv d L I) (Tbv d m) f3w := by
    have hh := hg3r; rwa [show 640 * (k.val - 1) + 160 * 3 = 160 * (4 * (k.val - 1) + 3) from by omega] at hh
  ihave Hih := (init_head d L m (4 * (k.val - 1) + 3) (by omega)) $$ Hinit
  icases Hih with ⟨Hch, Hinit⟩
  have eo3 : k0_off73 L k = ![512 * (widL L).val + 8 * (4 * (k.val - 1) + 3), 0, 0] := by
    rw [off73_w L k h1 (by omega)]; congr 3 <;> omega
  ihave Hch := (init_to_chunk d L m (4 * (k.val - 1) + 3) _ (k0_off73 L k) (k0_off73_inb L k c6) eo3) $$ Hch
  clear hW; have hW := hW1n
  sl_exec
  sl_step
  rw [InvG_end d L m I hpre O W (k.val + 1) _ (by omega)]
  unfold InvEnd
  isplitl [Hmw HO HsI Hi Htd Hsc]
  · unfold baseI
    isplitl [Hmw]; · iexact Hmw
    isplitl [HO]
    · iexists _; isplitr
      · ipureintro; exact hW
      · iexact HO
    isplitl [HsI]; · iexact HsI
    isplitl [Hi]; · iexact Hi
    isplitl [Htd]; · iexact Htd
    iexact Hsc
  isplitl [HW0]
  · iapply (Entails.of_eq (congrArg (wbFl0 d L m I) (show 4 * (k.val - 1) = 60 from by omega))); iexact HW0
  isplitl [Hg0]; · iexact Hg0
  isplitl [Ht0]; · iexact Ht0
  isplitl [HW1]
  · iapply (Entails.of_eq (congrArg (wbFl1 d L m I) (show 4 * (k.val - 1) + 1 = 61 from by omega))); iexact HW1
  isplitl [Hg1]; · iexact Hg1
  isplitl [Ht1]; · iexact Ht1
  isplitl [Ho2]
  · unfold wbFl2
    iexists f2w, (k0_off37 L k), (k0_off37_inb L k c3)
    isplitr
    · ipureintro; rw [eo2]; congr 3 <;> omega
    isplitr
    · ipureintro; have hh := hgf2w; rwa [show 4 * (k.val - 1) + 2 = 62 from by omega] at hh
    iexact Ho2
  isplitl [Hg2]; · iexact Hg2
  isplitl [Ht2]; · iexact Ht2
  isplitl [Ho3]
  · unfold wbFl3
    iexists f3w, (k0_off73 L k), (k0_off73_inb L k c6)
    isplitr
    · ipureintro; rw [eo3]; congr 3 <;> omega
    isplitr
    · ipureintro; have hh := hgf3w; rwa [show 4 * (k.val - 1) + 3 = 63 from by omega] at hh
    iexact Ho3
  isplitl [Hg3]; · iexact Hg3
  isplitl [Ht3]; · iexact Ht3
  icases Hinit with -
  iapply (range_cast (chunkDone d L m I) (rfl : (0 : ℕ) = 0) (show 4 * (k.val - 1) = 60 from by omega)); iexact Hdone

end Cert.Proof.KernelIdeal

end
-- ==== Proof.KernelIdeal.Regions.lean ====
/-
  Any group of the loop: the first, a steady one, or the last.
-/
import proofs.«206312_g12936441495622_cont_fleet_311_30_alg».proof.Proof.KernelIdeal.RegionFirst
import proofs.«206312_g12936441495622_cont_fleet_311_30_alg».proof.Proof.KernelIdeal.RegionMid
import proofs.«206312_g12936441495622_cont_fleet_311_30_alg».proof.Proof.KernelIdeal.RegionLast

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d)) (hpre : PreOK I)

theorem region [∀ e, Nonempty (Elt F e)] (O : CellTallies nD τ sig (HIx 1)) (W : Waits sig (HIx 1)) (v1 : BitVec 32)
    (k : Fin k0_t1_loop.trips) (acc : PUnit) :
    InvG d L m I hpre O W k.val acc
      ⊢ wp frame (wpE (defs₀ (F := F)) 𝒱₀ (thr d L) none) Set.univ
          (k0_t1_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0 v1 k acc)
          (InvG d L m I hpre O W (k.val + 1)) := by
  have hk : k.val < 17 := k.isLt
  rcases Nat.eq_zero_or_pos k.val with h0 | hpos
  · exact region_first d L m I hpre O W v1 k acc h0
  · rcases Nat.lt_or_ge k.val 16 with hlt | hge
    · exact region_mid d L m I hpre O W v1 k acc hpos (by omega)
    · exact region_last d L m I hpre O W v1 k acc (by omega)

end Cert.Proof.KernelIdeal

end
-- ==== Proof.KernelIdeal.Core.lean ====
/-
  The task, whole: the token fetch, the seventeen groups of the loop, the four last waits.
-/
import proofs.«206312_g12936441495622_cont_fleet_311_30_alg».proof.Proof.KernelIdeal.CoreOf
import proofs.«206312_g12936441495622_cont_fleet_311_30_alg».proof.Proof.KernelIdeal.Regions

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)
variable (m : (ℓ : Loc nD τ sig) → Buf (Elt F) ℓ) (I : (d : Dev nD) → Buf (Elt F) (idxLoc d))

theorem tile_core [∀ e, Nonempty (Elt F e)] (hpre : PreOK I) (O : CellTallies nD τ sig (HIx 1)) (W : Waits sig (HIx 1)) (hO : ∀ g, O g none = 0) :
    corePre d L m I O W
      ⊢ wp frame (wpE (defs₀ (F := F)) 𝒱₀ (thr d L) none) Set.univ
          (cc0__emb_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => corePost d L m I O W :=
  tile_core_of d L m I hpre O W hO (fun W₁ v1 k acc => region d L m I hpre O W₁ v1 k acc)

end Cert.Proof.KernelIdeal

end
-- ==== Proof.KernelIdeal.Body.lean ====
/-
  The task of one worker as the launch asks it: on vector subcore s of SparseCore c, from the worker's piece of
  the operands and the subcore's scoped storage, the kernel's body runs to the worker's piece with its block of the
  output done, the scoped storage back. The subcore's own buffers are the two scratch buffers and the rest; its own
  semaphores at zero are the nine the body names and the rest; the body's run over those named resources is the
  core statement, and everything else is carried around it.
-/
import proofs.«206312_g12936441495622_cont_fleet_311_30_alg».proof.Proof.KernelIdeal.Core

set_option pp.maxSteps 20000
set_option pp.deepTerms false

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S32x10240 EltTy.i32)
local notation "tV" => (Memref.whole Cert.KernelIdeal.main_arg1_scv : Memref Cert.KernelIdeal.sig Kind.scVector Space.hbm Cert.KernelIdeal.S1000000x64 EltTy.f32)
local notation "oV" => (Memref.whole Cert.KernelIdeal.main_v1_scv : Memref Cert.KernelIdeal.sig Kind.scVector Space.hbm Cert.KernelIdeal.S16384x20x128 EltTy.f32)
local notation "sI" => (Memref.whole Cert.KernelIdeal.cc0_scratch0 : Memref Cert.KernelIdeal.sig Kind.scVector Space.vmem Cert.KernelIdeal.S10240 EltTy.i32)
local notation "sR" => (Memref.whole Cert.KernelIdeal.cc0_scratch1 : Memref Cert.KernelIdeal.sig Kind.scVector Space.vmem Cert.KernelIdeal.S4x160x128 EltTy.f32)

variable [FloatOps F] (d : Dev nD) (L : grid0.Coords)

omit [FloatOps F] in
/-- Cells of one thread on distinct semaphores are distinct. -/
theorem cell_ne {a b : DmaSem sig} (h : (SemLoc.dma a : SemLoc sig) ≠ SemLoc.dma b) : cell d L a ≠ cell d L b :=
  fun e => h (congrArg Prod.snd e)

omit [FloatOps F] in
/-- The scratch buffers as the body addresses them are the subcore's own two. -/
theorem pts_sIb (f : Buf (Elt F) ((thr d L).loc cc0_scratch0)) :
    ((sI).view.loc (thr d L) ↦{fullShare} f : sProp 𝕄) = (thr d L).loc cc0_scratch0 ↦{fullShare} f := rfl
omit [FloatOps F] in
theorem pts_sRb (f : Buf (Elt F) ((thr d L).loc cc0_scratch1)) :
    ((sR).view.loc (thr d L) ↦{fullShare} f : sProp 𝕄) = (thr d L).loc cc0_scratch1 ↦{fullShare} f := rfl

omit [FloatOps F] in
/-- The subcore's own semaphores at zero: the nine the body names, and the rest. -/
theorem ownSems0_V :
    (ownSems0 (thr d L) : sProp 𝕄)
      = iprop(semVal (cell d L cc0_scratch2.sem) 0 ∗ semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0 ∗ semVal (cell d L cc0_scratch9.sem) 0 ∗ semVal (cell d L cc0_scoped0.sem) 0
          ∗ bigSep ((((((((((ownCells (thr d L)).erase (cell d L cc0_scratch2.sem)).erase (cell d L cc0_scratch3.sem)).erase (cell d L cc0_scratch4.sem)).erase (cell d L cc0_scratch5.sem)).erase (cell d L cc0_scratch6.sem)).erase (cell d L cc0_scratch7.sem)).erase (cell d L cc0_scratch8.sem)).erase (cell d L cc0_scratch9.sem)).erase (cell d L cc0_scoped0.sem)) fun g => semVal g 0) := by
  unfold SparseCore.Cfg.ownSems0
  rw [SparseCore.bigSep_erase' ((mem_ownCells (g := cell d L cc0_scratch2.sem)).mpr ⟨rfl, by show (SemLoc.dma cc0_scratch2.sem : SemLoc sig).isScoped .scVector = true; decide⟩),
    SparseCore.bigSep_erase' (Finset.mem_erase.mpr ⟨cell_ne d L (by decide), (mem_ownCells (g := cell d L cc0_scratch3.sem)).mpr ⟨rfl, by show (SemLoc.dma cc0_scratch3.sem : SemLoc sig).isScoped .scVector = true; decide⟩⟩),
    SparseCore.bigSep_erase' (Finset.mem_erase.mpr ⟨cell_ne d L (by decide), Finset.mem_erase.mpr ⟨cell_ne d L (by decide), (mem_ownCells (g := cell d L cc0_scratch4.sem)).mpr ⟨rfl, by show (SemLoc.dma cc0_scratch4.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc0_scratch5.sem)).mpr ⟨rfl, by show (SemLoc.dma cc0_scratch5.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch6.sem)).mpr ⟨rfl, by show (SemLoc.dma cc0_scratch6.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch7.sem)).mpr ⟨rfl, by show (SemLoc.dma cc0_scratch7.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch8.sem)).mpr ⟨rfl, by show (SemLoc.dma cc0_scratch8.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scratch9.sem)).mpr ⟨rfl, by show (SemLoc.dma cc0_scratch9.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell d L cc0_scoped0.sem)).mpr ⟨rfl, by show (SemLoc.dma cc0_scoped0.sem : SemLoc sig).isScoped .scVector = true; decide⟩⟩⟩⟩⟩⟩⟩⟩⟩)]

omit [FloatOps F] in
/-- The subcore's own buffers: the two scratch buffers, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (m : (ℓ : Loc nD τ sig) → Buf (Elt F) ℓ) (I : (d : Dev nD) → Buf (Elt F) (idxLoc d))

set_option maxHeartbeats 4000000 in
/-- The task on the vector subcore of grid point L: the scoped storage opened into the named buffers and semaphores,
    the body run over them, everything put back. -/
theorem tile_body [∀ e, Nonempty (Elt F e)] (hpre : PreOK I) (O : CellTallies nD τ sig (HIx 1)) (W : Waits sig (HIx 1)) (hO : ∀ g, O g none = 0) :
    iprop(levAts (K (F := F)).L (K (F := F)).lev ∗ emp ∗ goPiece m I d (widL L)
        ∗ scopedBufs (thr d L) ∗ scopedSems0 (thr d L) ∗ owes (thr d L) O W)
      ⊢ wp frame (wpE (defs₀ (F := F)) 𝒱₀ (thr d L) none) Set.univ
          (cc0__emb_body L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scoped0)
          fun _ => iprop(tdPiece m I d (widL L) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨Hlv, -, Hgo, ⟨⟨%fs, Hs⟩, ⟨%fr, Hr⟩, Hbufs⟩, ⟨H2, H3, H4, H5, H6, H7, H8, H9, H0, Hsems⟩, HO⟩
  iapply (wp_wand_r Idealize.ShloMosaic.frame (wpE (defs₀ (F := F)) 𝒱₀ (thr d L) none) Set.univ)
  isplitl [Hlv Hgo Hs Hr H2 H3 H4 H5 H6 H7 H8 H9 H0 HO]
  · iapply (tile_core d L m I hpre O W hO)
    isplitl [Hlv]; · iexact Hlv
    isplitl [Hgo]; · iexact Hgo
    isplitl [Hs]; · iexists fs; iapply (Entails.of_eq (pts_sIb (F := F) d L _).symm); iexact Hs
    isplitl [Hr]; · iexists fr; iapply (Entails.of_eq (pts_sRb (F := F) d L _).symm); iexact Hr
    isplitl [H2 H3 H4 H5 H6 H7 H8 H9 H0]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H0
    iexact HO
  iintro %_ ⟨Htd, ⟨%fs', Hs⟩, ⟨%fr', Hr⟩, ⟨H2, H3, H4, H5, H6, H7, H8, H9, H0⟩, HW⟩
  isplitl [Htd]; · iexact Htd
  isplitl [Hs Hr Hbufs]
  · isplitl [Hs]; · iexists fs'; iapply (Entails.of_eq (pts_sIb (F := F) d L _)); iexact Hs
    isplitl [Hr]; · iexists fr'; iapply (Entails.of_eq (pts_sRb (F := F) d L _)); iexact Hr
    iexact Hbufs
  isplitl [H2 H3 H4 H5 H6 H7 H8 H9 H0 Hsems]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H0]; · iexact H0
    iexact Hsems
  iexact HW

/-! ## The obligation -/

/-- The grid point of subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          iV (Memref.isWhole_whole _) tV (Memref.isWhole_whole _) oV (Memref.isWhole_whole _)
          sI (Memref.isWhole_whole _) sR (Memref.isWhole_whole _) cc0_scratch2 cc0_scratch3 cc0_scratch4 cc0_scratch5 cc0_scratch6 cc0_scratch7 cc0_scratch8 cc0_scratch9 cc0_scoped0) ⟨⟩ c s := rfl

omit [FloatOps F] in
/-- Waits recorded at the index that needs no round are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hpre : PreOK I) : (K (F := F)).TileObl (D (F := F)) 𝒱 (P m I) v₀ 0 := by
  intro d c i O W hO _ _
  simp only [show (P m I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m I hpre O W hO).trans (wp_mono frame _ _ fun _ => obl_post)

end Cert.Proof.KernelIdeal

end
-- ==== Proof.lean ====
/-
  The claim. Both printed kernels (at words and at the ideal instance) and the reference compute one function of the
  argument arrays, the embedding lookup of Proof/Spec.lean: result (n, s, k) is table (token (n, s), k).
  The kernel's run is the launch of Proof/Kernel/Launch.lean and Proof/KernelIdeal/Launch.lean over each worker's task
  (Body.lean): every weakly fair execution terminates, the result the lookup, the arguments unchanged. The reference's
  run is Proof/RefRun.lean, with the same post. What the precondition gives them is that every token, read unsigned, is
  below the table's row count (Proof/PreFacts.lean). The three frames are these runs with the result forgotten; the
  idealization rewrote nothing, so it is preserved trivially; and the two ideal programs, from memories that agree on
  the arguments, both end at the lookup of those arguments.
-/
import proofs.«206312_g12936441495622_cont_fleet_311_30_alg».proof.Defs
import proofs.«206312_g12936441495622_cont_fleet_311_30_alg».proof.Proof.Gen.Kernel
import proofs.«206312_g12936441495622_cont_fleet_311_30_alg».proof.Proof.Gen.Kernel.Skeleton
import proofs.«206312_g12936441495622_cont_fleet_311_30_alg».proof.Proof.Gen.KernelIdeal
import proofs.«206312_g12936441495622_cont_fleet_311_30_alg».proof.Proof.Gen.KernelIdeal.Skeleton
import proofs.«206312_g12936441495622_cont_fleet_311_30_alg».proof.Proof.Gen.ReferenceIdeal
import proofs.«206312_g12936441495622_cont_fleet_311_30_alg».proof.Proof.Gen.Pre_input_domain
import proofs.«206312_g12936441495622_cont_fleet_311_30_alg».proof.Proof.Spec
import proofs.«206312_g12936441495622_cont_fleet_311_30_alg».proof.Proof.PreFacts
import proofs.«206312_g12936441495622_cont_fleet_311_30_alg».proof.Proof.RefRun
import proofs.«206312_g12936441495622_cont_fleet_311_30_alg».proof.Proof.Kernel.Launch
import proofs.«206312_g12936441495622_cont_fleet_311_30_alg».proof.Proof.Kernel.Body
import proofs.«206312_g12936441495622_cont_fleet_311_30_alg».proof.Proof.KernelIdeal.Launch
import proofs.«206312_g12936441495622_cont_fleet_311_30_alg».proof.Proof.KernelIdeal.Body
import Idealize.ShloMosaic.Adequacy
import Idealize.ShloMosaic.Init

noncomputable section

namespace Cert.Proof

open Idealize.ShloMosaic Idealize.SL.Sem

/-- The kernel at words runs and leaves its arguments as they were. -/
theorem frame_Kernel [Cert.Kernel.Facts] [Cert.Pre_input_domain.Facts] : Cert.frame_Kernel := fun m g hpre =>
  (θ_run Cert.Kernel.defs _ _).mono (fun _ h c => (h c).2)
    (Cert.Proof.Kernel.run_main (F := Bits) m g (fun d j => Cert.Proof.PreFacts.tok_lt _ _ (hpre d) j)
      (fun hp => Cert.Proof.Kernel.tileObl m _ hp))

/-- The kernel at the ideal instance runs and leaves its arguments as they were. -/
theorem frame_KernelIdeal [Cert.KernelIdeal.Facts] [Cert.Pre_input_domain.Facts] : Cert.frame_KernelIdeal := fun m g hpre =>
  (θ_run Cert.KernelIdeal.defs _ _).mono (fun _ h c => (h c).2)
    (Cert.Proof.KernelIdeal.run_main (F := Ideal) m g (fun d j => Cert.Proof.PreFacts.tok_lt _ _ (hpre d) j)
      (fun hp => Cert.Proof.KernelIdeal.tileObl m _ hp))

/-- The reference runs and leaves its arguments as they were. -/
theorem frame_ReferenceIdeal [Cert.ReferenceIdeal.Facts] [Cert.Pre_input_domain.Facts] : Cert.frame_ReferenceIdeal := fun m g hpre =>
  (θ_run Cert.ReferenceIdeal.defs _ _).mono (fun _ h c => (h c).2) (Cert.Proof.Ref.run m g hpre)

/-- From memories that agree on the arguments both ideal programs end at the lookup of those arguments. -/
theorem algebraic [Cert.KernelIdeal.Facts] [Cert.ReferenceIdeal.Facts] [Cert.Pre_input_domain.Facts] :
    Cert.algebraic_KernelIdeal_ReferenceIdeal := by
  intro m g m' g' hpre hag
  have hpre' : ∀ c : Dev Cert.ReferenceIdeal.nD,
      Cert.Pre_input_domain.fn (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = fun _ => 1#1 := fun c => by
    rw [(hag c).1, (hag c).2]; exact hpre c
  refine ⟨fun c => Cert.Spec.lookup (α := Elt Ideal .f32) (m (Cert.Proof.KernelIdeal.tokLoc c)) (m (Cert.Proof.KernelIdeal.tabLoc c)), ?_, ?_⟩
  · exact (θ_run Cert.KernelIdeal.defs _ _).mono (fun _ h c => h c)
      (Cert.Proof.KernelIdeal.run_main (F := Ideal) m g (fun d j => Cert.Proof.PreFacts.tok_lt _ _ (hpre d) j)
        (fun hp => Cert.Proof.KernelIdeal.tileObl m _ hp))
  · refine (θ_run Cert.ReferenceIdeal.defs _ _).mono (fun _ h c => ⟨?_, (h c).2⟩) (Cert.Proof.Ref.run m' g' hpre')
    rw [(h c).1, (hag c).1, (hag c).2]

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
